-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S24x3 : Shape := ⟨2, ![24, 3]⟩
abbrev S65536x24x3 : Shape := ⟨3, ![65536, 24, 3]⟩
abbrev S65536x3 : Shape := ⟨2, ![65536, 3]⟩
abbrev S_ : Shape := ⟨0, ![]⟩

class Facts : Prop where
  bcast_S_S24x3 : S_.BroadcastsInDim S24x3 (![] : Fin 0 → Fin S24x3.rank)
  reducesTo_S24x3_S_d0_1 : S24x3.ReducesTo [0, 1] S_
  h_S_ : 0 < S_.numel
  bcast_S_S65536x24x3 : S_.BroadcastsInDim S65536x24x3 (![] : Fin 0 → Fin S65536x24x3.rank)
  reducesTo_S65536x24x3_S_d0_1_2 : S65536x24x3.ReducesTo [0, 1, 2] S_
  bcast_S_S65536x3 : S_.BroadcastsInDim S65536x3 (![] : Fin 0 → Fin S65536x3.rank)
  reducesTo_S65536x3_S_d0_1 : S65536x3.ReducesTo [0, 1] S_

variable [Facts]

def fn {F : FTy → Type} [FloatOps F] (main_arg0 : FVec F S24x3 .f32) (main_arg1 : FVec F S65536x24x3 .f32) (main_arg2 : FVec F S65536x3 .f32) : IVec S_ 1 :=
  let main_v0 : FVec F S24x3 .f32 := Host.absf main_arg0
  let main_cst : FVec F S_ .f32 := constant S_ .f32 0x7F800000#32
  let main_v1 : FVec F S24x3 .f32 := broadcastInDim S24x3 ![] bcast_S_S24x3 main_cst
  let main_v2 : IVec S24x3 1 := cmpf .olt main_v0 main_v1
  let main_c : IVec S_ 1 := constantI S_ 1 1#1
  let main_v3 : IVec S_ 1 := (fun x v => Host.reduce IntOp.andi x v reducesTo_S24x3_S_d0_1 h_S_) main_v2 main_c
  let main_v4 : FVec F S65536x24x3 .f32 := Host.absf main_arg1
  let main_cst_0 : FVec F S_ .f32 := constant S_ .f32 0x7F800000#32
  let main_v5 : FVec F S65536x24x3 .f32 := broadcastInDim S65536x24x3 ![] bcast_S_S65536x24x3 main_cst_0
  let main_v6 : IVec S65536x24x3 1 := cmpf .olt main_v4 main_v5
  let main_c_1 : IVec S_ 1 := constantI S_ 1 1#1
  let main_v7 : IVec S_ 1 := (fun x v => Host.reduce IntOp.andi x v reducesTo_S65536x24x3_S_d0_1_2 h_S_) main_v6 main_c_1
  let main_v8 : IVec S_ 1 := andi main_v3 main_v7
  let main_v9 : FVec F S65536x3 .f32 := Host.absf main_arg2
  let main_cst_2 : FVec F S_ .f32 := constant S_ .f32 0x7F800000#32
  let main_v10 : FVec F S65536x3 .f32 := broadcastInDim S65536x3 ![] bcast_S_S65536x3 main_cst_2
  let main_v11 : IVec S65536x3 1 := cmpf .olt main_v9 main_v10
  let main_c_3 : IVec S_ 1 := constantI S_ 1 1#1
  let main_v12 : IVec S_ 1 := (fun x v => Host.reduce IntOp.andi x v reducesTo_S65536x3_S_d0_1 h_S_) main_v11 main_c_3
  let main_v13 : IVec S_ 1 := andi main_v8 main_v12
  main_v13
-- ==== Kernel.lean ====
abbrev S24x3 : Shape := ⟨2, ![24, 3]⟩
abbrev S65536x24x3 : Shape := ⟨3, ![65536, 24, 3]⟩
abbrev S65536x3 : Shape := ⟨2, ![65536, 3]⟩
abbrev S24x3x65536 : Shape := ⟨3, ![24, 3, 65536]⟩
abbrev S24x3x512x128 : Shape := ⟨4, ![24, 3, 512, 128]⟩
abbrev S3x65536 : Shape := ⟨2, ![3, 65536]⟩
abbrev S3x512x128 : Shape := ⟨3, ![3, 512, 128]⟩
abbrev S24x3x64x128 : Shape := ⟨4, ![24, 3, 64, 128]⟩
abbrev S3x64x128 : Shape := ⟨3, ![3, 64, 128]⟩
abbrev S24x64x128 : Shape := ⟨3, ![24, 64, 128]⟩
abbrev S1x64x128 : Shape := ⟨3, ![1, 64, 128]⟩
abbrev S64x128 : Shape := ⟨2, ![64, 128]⟩
abbrev S1x3x64x128 : Shape := ⟨4, ![1, 3, 64, 128]⟩
abbrev S1x1 : Shape := ⟨2, ![1, 1]⟩
abbrev S1x1x64x128 : Shape := ⟨4, ![1, 1, 64, 128]⟩

abbrev nBuf : Space → Nat
  | .hbm => 10
  | .vmem => 19
  | .smem => 0
  | _ => 0

abbrev bufTy : (tb : Table) → Fin (tcTables nBuf tb) → BufTy
  | .hbm, ⟨0, _⟩ => ⟨S24x3, .f32⟩
  | .hbm, ⟨1, _⟩ => ⟨S65536x24x3, .f32⟩
  | .hbm, ⟨2, _⟩ => ⟨S65536x3, .f32⟩
  | .hbm, ⟨3, _⟩ => ⟨S24x3x65536, .f32⟩
  | .hbm, ⟨4, _⟩ => ⟨S24x3x512x128, .f32⟩
  | .hbm, ⟨5, _⟩ => ⟨S3x65536, .f32⟩
  | .hbm, ⟨6, _⟩ => ⟨S3x512x128, .f32⟩
  | .hbm, ⟨7, _⟩ => ⟨S24x3x512x128, .f32⟩
  | .hbm, ⟨8, _⟩ => ⟨S24x3x65536, .f32⟩
  | .hbm, ⟨9, _⟩ => ⟨S65536x24x3, .f32⟩
  | .local _ .vmem, ⟨0, _⟩ => ⟨S24x3x64x128, .f32⟩
  | .local _ .vmem, ⟨1, _⟩ => ⟨S24x3x64x128, .f32⟩
  | .local _ .vmem, ⟨2, _⟩ => ⟨S24x3, .f32⟩
  | .local _ .vmem, ⟨3, _⟩ => ⟨S3x64x128, .f32⟩
  | .local _ .vmem, ⟨4, _⟩ => ⟨S3x64x128, .f32⟩
  | .local _ .vmem, ⟨5, _⟩ => ⟨S24x3x64x128, .f32⟩
  | .local _ .vmem, ⟨6, _⟩ => ⟨S24x3x64x128, .f32⟩
  | .local _ .vmem, ⟨7, _⟩ => ⟨S24x64x128, .f32⟩
  | .local _ .vmem, ⟨8, _⟩ => ⟨S24x64x128, .f32⟩
  | .local _ .vmem, ⟨9, _⟩ => ⟨S24x64x128, .f32⟩
  | .local _ .vmem, ⟨10, _⟩ => ⟨S24x64x128, .f32⟩
  | .local _ .vmem, ⟨11, _⟩ => ⟨S24x64x128, .f32⟩
  | .local _ .vmem, ⟨12, _⟩ => ⟨S24x64x128, .f32⟩
  | .local _ .vmem, ⟨13, _⟩ => ⟨S24x64x128, .f32⟩
  | .local _ .vmem, ⟨14, _⟩ => ⟨S24x64x128, .f32⟩
  | .local _ .vmem, ⟨15, _⟩ => ⟨S24x64x128, .f32⟩
  | .local _ .vmem, ⟨16, _⟩ => ⟨S24x64x128, .f32⟩
  | .local _ .vmem, ⟨17, _⟩ => ⟨S24x64x128, .f32⟩
  | .local _ .vmem, ⟨18, _⟩ => ⟨S24x64x128, .f32⟩
  | _, _ => ⟨S24x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_scratch7 : Ref sig .tc := ⟨.vmem, 14, rfl⟩
abbrev cc0_scratch8 : Ref sig .tc := ⟨.vmem, 15, rfl⟩
abbrev cc0_scratch9 : Ref sig .tc := ⟨.vmem, 16, rfl⟩
abbrev cc0_scratch10 : Ref sig .tc := ⟨.vmem, 17, rfl⟩
abbrev cc0_scratch11 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S24x3x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S24x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S24x3x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S65536x24x3_S24x3x65536_1_2_0 : S65536x24x3.Transposes [1, 2, 0] S24x3x65536
  shapeCasts_S24x3x65536_S24x3x512x128 : S24x3x65536.ShapeCasts S24x3x512x128
  transposes_S65536x3_S3x65536_1_0 : S65536x3.Transposes [1, 0] S3x65536
  shapeCasts_S3x65536_S3x512x128 : S3x65536.ShapeCasts S3x512x128
  inb_S24x3_S24x3_0_0 : ∀ a, (![0, 0] : Fin 2 → Nat) a + S24x3.size a ≤ S24x3.size a
  h_S24x3 : 0 < S24x3.numel
  inb_S3x64x128_S3x64x128_0_0_0 : ∀ a, (![0, 0, 0] : Fin 3 → Nat) a + S3x64x128.size a ≤ S3x64x128.size a
  h_S3x64x128 : 0 < S3x64x128.numel
  shapeCasts_S3x64x128_S3x64x128 : S3x64x128.ShapeCasts S3x64x128
  slices_S3x64x128_o0_0_0_S1x64x128 : S3x64x128.Slices ![0, 0, 0] S1x64x128
  shapeCasts_S1x64x128_S64x128 : S1x64x128.ShapeCasts S64x128
  slices_S3x64x128_o1_0_0_S1x64x128 : S3x64x128.Slices ![1, 0, 0] S1x64x128
  slices_S3x64x128_o2_0_0_S1x64x128 : S3x64x128.Slices ![2, 0, 0] S1x64x128
  inb_S24x3x64x128_S1x3x64x128_0_0_0_0 : ∀ a, (![0, 0, 0, 0] : Fin 4 → Nat) a + S1x3x64x128.size a ≤ S24x3x64x128.size a
  h_S1x3x64x128 : 0 < S1x3x64x128.numel
  shapeCasts_S1x3x64x128_S3x64x128 : S1x3x64x128.ShapeCasts S3x64x128
  slices_S24x3_o0_0_S1x1 : S24x3.Slices ![0, 0] S1x1
  inpos_S1x1_p0_0 : ∀ a, (![0, 0] : Fin 2 → Nat) a < S1x1.size a
  slices_S24x3_o0_1_S1x1 : S24x3.Slices ![0, 1] S1x1
  slices_S24x3_o0_2_S1x1 : S24x3.Slices ![0, 2] S1x1
  inb_S24x64x128_S1x64x128_0_0_0 : ∀ a, (![0, 0, 0] : Fin 3 → Nat) a + S1x64x128.size a ≤ S24x64x128.size a
  h_S1x64x128 : 0 < S1x64x128.numel
  shapeCasts_S64x128_S1x64x128 : S64x128.ShapeCasts S1x64x128
  inb_S24x3x64x128_S1x1x64x128_0_0_0_0 : ∀ a, (![0, 0, 0, 0] : Fin 4 → Nat) a + S1x1x64x128.size a ≤ S24x3x64x128.size a
  h_S1x1x64x128 : 0 < S1x1x64x128.numel
  shapeCasts_S1x1x64x128_S64x128 : S1x1x64x128.ShapeCasts S64x128
  shapeCasts_S64x128_S1x1x64x128 : S64x128.ShapeCasts S1x1x64x128
  inb_S24x3x64x128_S1x1x64x128_0_1_0_0 : ∀ a, (![0, 1, 0, 0] : Fin 4 → Nat) a + S1x1x64x128.size a ≤ S24x3x64x128.size a
  inb_S24x3x64x128_S1x1x64x128_0_2_0_0 : ∀ a, (![0, 2, 0, 0] : Fin 4 → Nat) a + S1x1x64x128.size a ≤ S24x3x64x128.size a
  inb_S24x3x64x128_S1x3x64x128_1_0_0_0 : ∀ a, (![1, 0, 0, 0] : Fin 4 → Nat) a + S1x3x64x128.size a ≤ S24x3x64x128.size a
  slices_S24x3_o1_0_S1x1 : S24x3.Slices ![1, 0] S1x1
  slices_S24x3_o1_1_S1x1 : S24x3.Slices ![1, 1] S1x1
  slices_S24x3_o1_2_S1x1 : S24x3.Slices ![1, 2] S1x1
  inb_S24x64x128_S1x64x128_1_0_0 : ∀ a, (![1, 0, 0] : Fin 3 → Nat) a + S1x64x128.size a ≤ S24x64x128.size a
  inb_S24x3x64x128_S1x1x64x128_1_0_0_0 : ∀ a, (![1, 0, 0, 0] : Fin 4 → Nat) a + S1x1x64x128.size a ≤ S24x3x64x128.size a
  inb_S24x3x64x128_S1x1x64x128_1_1_0_0 : ∀ a, (![1, 1, 0, 0] : Fin 4 → Nat) a + S1x1x64x128.size a ≤ S24x3x64x128.size a
  inb_S24x3x64x128_S1x1x64x128_1_2_0_0 : ∀ a, (![1, 2, 0, 0] : Fin 4 → Nat) a + S1x1x64x128.size a ≤ S24x3x64x128.size a
  inb_S24x3x64x128_S1x3x64x128_2_0_0_0 : ∀ a, (![2, 0, 0, 0] : Fin 4 → Nat) a + S1x3x64x128.size a ≤ S24x3x64x128.size a
  slices_S24x3_o2_0_S1x1 : S24x3.Slices ![2, 0] S1x1
  slices_S24x3_o2_1_S1x1 : S24x3.Slices ![2, 1] S1x1
  slices_S24x3_o2_2_S1x1 : S24x3.Slices ![2, 2] S1x1
  inb_S24x64x128_S1x64x128_2_0_0 : ∀ a, (![2, 0, 0] : Fin 3 → Nat) a + S1x64x128.size a ≤ S24x64x128.size a
  inb_S24x3x64x128_S1x1x64x128_2_0_0_0 : ∀ a, (![2, 0, 0, 0] : Fin 4 → Nat) a + S1x1x64x128.size a ≤ S24x3x64x128.size a
  inb_S24x3x64x128_S1x1x64x128_2_1_0_0 : ∀ a, (![2, 1, 0, 0] : Fin 4 → Nat) a + S1x1x64x128.size a ≤ S24x3x64x128.size a
  inb_S24x3x64x128_S1x1x64x128_2_2_0_0 : ∀ a, (![2, 2, 0, 0] : Fin 4 → Nat) a + S1x1x64x128.size a ≤ S24x3x64x128.size a
  inb_S24x3x64x128_S1x3x64x128_3_0_0_0 : ∀ a, (![3, 0, 0, 0] : Fin 4 → Nat) a + S1x3x64x128.size a ≤ S24x3x64x128.size a
  slices_S24x3_o3_0_S1x1 : S24x3.Slices ![3, 0] S1x1
  slices_S24x3_o3_1_S1x1 : S24x3.Slices ![3, 1] S1x1
  slices_S24x3_o3_2_S1x1 : S24x3.Slices ![3, 2] S1x1
  inb_S24x64x128_S1x64x128_3_0_0 : ∀ a, (![3, 0, 0] : Fin 3 → Nat) a + S1x64x128.size a ≤ S24x64x128.size a
  inb_S24x3x64x128_S1x1x64x128_3_0_0_0 : ∀ a, (![3, 0, 0, 0] : Fin 4 → Nat) a + S1x1x64x128.size a ≤ S24x3x64x128.size a
  inb_S24x3x64x128_S1x1x64x128_3_1_0_0 : ∀ a, (![3, 1, 0, 0] : Fin 4 → Nat) a + S1x1x64x128.size a ≤ S24x3x64x128.size a
  inb_S24x3x64x128_S1x1x64x128_3_2_0_0 : ∀ a, (![3, 2, 0, 0] : Fin 4 → Nat) a + S1x1x64x128.size a ≤ S24x3x64x128.size a
  inb_S24x3x64x128_S1x3x64x128_4_0_0_0 : ∀ a, (![4, 0, 0, 0] : Fin 4 → Nat) a + S1x3x64x128.size a ≤ S24x3x64x128.size a
  slices_S24x3_o4_0_S1x1 : S24x3.Slices ![4, 0] S1x1
  slices_S24x3_o4_1_S1x1 : S24x3.Slices ![4, 1] S1x1
  slices_S24x3_o4_2_S1x1 : S24x3.Slices ![4, 2] S1x1
  inb_S24x64x128_S1x64x128_4_0_0 : ∀ a, (![4, 0, 0] : Fin 3 → Nat) a + S1x64x128.size a ≤ S24x64x128.size a
  inb_S24x3x64x128_S1x1x64x128_4_0_0_0 : ∀ a, (![4, 0, 0, 0] : Fin 4 → Nat) a + S1x1x64x128.size a ≤ S24x3x64x128.size a
  inb_S24x3x64x128_S1x1x64x128_4_1_0_0 : ∀ a, (![4, 1, 0, 0] : Fin 4 → Nat) a + S1x1x64x128.size a ≤ S24x3x64x128.size a
  inb_S24x3x64x128_S1x1x64x128_4_2_0_0 : ∀ a, (![4, 2, 0, 0] : Fin 4 → Nat) a + S1x1x64x128.size a ≤ S24x3x64x128.size a
  inb_S24x3x64x128_S1x3x64x128_5_0_0_0 : ∀ a, (![5, 0, 0, 0] : Fin 4 → Nat) a + S1x3x64x128.size a ≤ S24x3x64x128.size a
  slices_S24x3_o5_0_S1x1 : S24x3.Slices ![5, 0] S1x1
  slices_S24x3_o5_1_S1x1 : S24x3.Slices ![5, 1] S1x1
  slices_S24x3_o5_2_S1x1 : S24x3.Slices ![5, 2] S1x1
  inb_S24x64x128_S1x64x128_5_0_0 : ∀ a, (![5, 0, 0] : Fin 3 → Nat) a + S1x64x128.size a ≤ S24x64x128.size a
  inb_S24x3x64x128_S1x1x64x128_5_0_0_0 : ∀ a, (![5, 0, 0, 0] : Fin 4 → Nat) a + S1x1x64x128.size a ≤ S24x3x64x128.size a
  inb_S24x3x64x128_S1x1x64x128_5_1_0_0 : ∀ a, (![5, 1, 0, 0] : Fin 4 → Nat) a + S1x1x64x128.size a ≤ S24x3x64x128.size a
  inb_S24x3x64x128_S1x1x64x128_5_2_0_0 : ∀ a, (![5, 2, 0, 0] : Fin 4 → Nat) a + S1x1x64x128.size a ≤ S24x3x64x128.size a
  inb_S24x3x64x128_S1x3x64x128_6_0_0_0 : ∀ a, (![6, 0, 0, 0] : Fin 4 → Nat) a + S1x3x64x128.size a ≤ S24x3x64x128.size a
  slices_S24x3_o6_0_S1x1 : S24x3.Slices ![6, 0] S1x1
  slices_S24x3_o6_1_S1x1 : S24x3.Slices ![6, 1] S1x1
  slices_S24x3_o6_2_S1x1 : S24x3.Slices ![6, 2] S1x1
  inb_S24x64x128_S1x64x128_6_0_0 : ∀ a, (![6, 0, 0] : Fin 3 → Nat) a + S1x64x128.size a ≤ S24x64x128.size a
  inb_S24x3x64x128_S1x1x64x128_6_0_0_0 : ∀ a, (![6, 0, 0, 0] : Fin 4 → Nat) a + S1x1x64x128.size a ≤ S24x3x64x128.size a
  inb_S24x3x64x128_S1x1x64x128_6_1_0_0 : ∀ a, (![6, 1, 0, 0] : Fin 4 → Nat) a + S1x1x64x128.size a ≤ S24x3x64x128.size a
  inb_S24x3x64x128_S1x1x64x128_6_2_0_0 : ∀ a, (![6, 2, 0, 0] : Fin 4 → Nat) a + S1x1x64x128.size a ≤ S24x3x64x128.size a
  inb_S24x3x64x128_S1x3x64x128_7_0_0_0 : ∀ a, (![7, 0, 0, 0] : Fin 4 → Nat) a + S1x3x64x128.size a ≤ S24x3x64x128.size a
  slices_S24x3_o7_0_S1x1 : S24x3.Slices ![7, 0] S1x1
  slices_S24x3_o7_1_S1x1 : S24x3.Slices ![7, 1] S1x1
  slices_S24x3_o7_2_S1x1 : S24x3.Slices ![7, 2] S1x1
  inb_S24x64x128_S1x64x128_7_0_0 : ∀ a, (![7, 0, 0] : Fin 3 → Nat) a + S1x64x128.size a ≤ S24x64x128.size a
  inb_S24x3x64x128_S1x1x64x128_7_0_0_0 : ∀ a, (![7, 0, 0, 0] : Fin 4 → Nat) a + S1x1x64x128.size a ≤ S24x3x64x128.size a
  inb_S24x3x64x128_S1x1x64x128_7_1_0_0 : ∀ a, (![7, 1, 0, 0] : Fin 4 → Nat) a + S1x1x64x128.size a ≤ S24x3x64x128.size a
  inb_S24x3x64x128_S1x1x64x128_7_2_0_0 : ∀ a, (![7, 2, 0, 0] : Fin 4 → Nat) a + S1x1x64x128.size a ≤ S24x3x64x128.size a
  inb_S24x3x64x128_S1x3x64x128_8_0_0_0 : ∀ a, (![8, 0, 0, 0] : Fin 4 → Nat) a + S1x3x64x128.size a ≤ S24x3x64x128.size a
  slices_S24x3_o8_0_S1x1 : S24x3.Slices ![8, 0] S1x1
  slices_S24x3_o8_1_S1x1 : S24x3.Slices ![8, 1] S1x1
  slices_S24x3_o8_2_S1x1 : S24x3.Slices ![8, 2] S1x1
  inb_S24x64x128_S1x64x128_8_0_0 : ∀ a, (![8, 0, 0] : Fin 3 → Nat) a + S1x64x128.size a ≤ S24x64x128.size a
  inb_S24x3x64x128_S1x1x64x128_8_0_0_0 : ∀ a, (![8, 0, 0, 0] : Fin 4 → Nat) a + S1x1x64x128.size a ≤ S24x3x64x128.size a
  inb_S24x3x64x128_S1x1x64x128_8_1_0_0 : ∀ a, (![8, 1, 0, 0] : Fin 4 → Nat) a + S1x1x64x128.size a ≤ S24x3x64x128.size a
  inb_S24x3x64x128_S1x1x64x128_8_2_0_0 : ∀ a, (![8, 2, 0, 0] : Fin 4 → Nat) a + S1x1x64x128.size a ≤ S24x3x64x128.size a
  inb_S24x3x64x128_S1x3x64x128_9_0_0_0 : ∀ a, (![9, 0, 0, 0] : Fin 4 → Nat) a + S1x3x64x128.size a ≤ S24x3x64x128.size a
  slices_S24x3_o9_0_S1x1 : S24x3.Slices ![9, 0] S1x1
  slices_S24x3_o9_1_S1x1 : S24x3.Slices ![9, 1] S1x1
  slices_S24x3_o9_2_S1x1 : S24x3.Slices ![9, 2] S1x1
  inb_S24x64x128_S1x64x128_9_0_0 : ∀ a, (![9, 0, 0] : Fin 3 → Nat) a + S1x64x128.size a ≤ S24x64x128.size a
  inb_S24x3x64x128_S1x1x64x128_9_0_0_0 : ∀ a, (![9, 0, 0, 0] : Fin 4 → Nat) a + S1x1x64x128.size a ≤ S24x3x64x128.size a
  inb_S24x3x64x128_S1x1x64x128_9_1_0_0 : ∀ a, (![9, 1, 0, 0] : Fin 4 → Nat) a + S1x1x64x128.size a ≤ S24x3x64x128.size a
  inb_S24x3x64x128_S1x1x64x128_9_2_0_0 : ∀ a, (![9, 2, 0, 0] : Fin 4 → Nat) a + S1x1x64x128.size a ≤ S24x3x64x128.size a
  slices_S24x3_o10_0_S1x1 : S24x3.Slices ![10, 0] S1x1
  slices_S24x3_o10_1_S1x1 : S24x3.Slices ![10, 1] S1x1
  slices_S24x3_o10_2_S1x1 : S24x3.Slices ![10, 2] S1x1
  inb_S24x3x64x128_S1x1x64x128_10_0_0_0 : ∀ a, (![10, 0, 0, 0] : Fin 4 → Nat) a + S1x1x64x128.size a ≤ S24x3x64x128.size a
  inb_S24x3x64x128_S1x1x64x128_10_1_0_0 : ∀ a, (![10, 1, 0, 0] : Fin 4 → Nat) a + S1x1x64x128.size a ≤ S24x3x64x128.size a
  inb_S24x3x64x128_S1x1x64x128_10_2_0_0 : ∀ a, (![10, 2, 0, 0] : Fin 4 → Nat) a + S1x1x64x128.size a ≤ S24x3x64x128.size a
  slices_S24x3_o11_0_S1x1 : S24x3.Slices ![11, 0] S1x1
  slices_S24x3_o11_1_S1x1 : S24x3.Slices ![11, 1] S1x1
  slices_S24x3_o11_2_S1x1 : S24x3.Slices ![11, 2] S1x1
  inb_S24x3x64x128_S1x1x64x128_11_0_0_0 : ∀ a, (![11, 0, 0, 0] : Fin 4 → Nat) a + S1x1x64x128.size a ≤ S24x3x64x128.size a
  inb_S24x3x64x128_S1x1x64x128_11_1_0_0 : ∀ a, (![11, 1, 0, 0] : Fin 4 → Nat) a + S1x1x64x128.size a ≤ S24x3x64x128.size a
  inb_S24x3x64x128_S1x1x64x128_11_2_0_0 : ∀ a, (![11, 2, 0, 0] : Fin 4 → Nat) a + S1x1x64x128.size a ≤ S24x3x64x128.size a
  inb_S24x3x64x128_S1x3x64x128_12_0_0_0 : ∀ a, (![12, 0, 0, 0] : Fin 4 → Nat) a + S1x3x64x128.size a ≤ S24x3x64x128.size a
  slices_S24x3_o12_0_S1x1 : S24x3.Slices ![12, 0] S1x1
  slices_S24x3_o12_1_S1x1 : S24x3.Slices ![12, 1] S1x1
  slices_S24x3_o12_2_S1x1 : S24x3.Slices ![12, 2] S1x1
  inb_S24x64x128_S1x64x128_12_0_0 : ∀ a, (![12, 0, 0] : Fin 3 → Nat) a + S1x64x128.size a ≤ S24x64x128.size a
  inb_S24x3x64x128_S1x1x64x128_12_0_0_0 : ∀ a, (![12, 0, 0, 0] : Fin 4 → Nat) a + S1x1x64x128.size a ≤ S24x3x64x128.size a
  inb_S24x3x64x128_S1x1x64x128_12_1_0_0 : ∀ a, (![12, 1, 0, 0] : Fin 4 → Nat) a + S1x1x64x128.size a ≤ S24x3x64x128.size a
  inb_S24x3x64x128_S1x1x64x128_12_2_0_0 : ∀ a, (![12, 2, 0, 0] : Fin 4 → Nat) a + S1x1x64x128.size a ≤ S24x3x64x128.size a
  inb_S24x3x64x128_S1x3x64x128_13_0_0_0 : ∀ a, (![13, 0, 0, 0] : Fin 4 → Nat) a + S1x3x64x128.size a ≤ S24x3x64x128.size a
  slices_S24x3_o13_0_S1x1 : S24x3.Slices ![13, 0] S1x1
  slices_S24x3_o13_1_S1x1 : S24x3.Slices ![13, 1] S1x1
  slices_S24x3_o13_2_S1x1 : S24x3.Slices ![13, 2] S1x1
  inb_S24x64x128_S1x64x128_13_0_0 : ∀ a, (![13, 0, 0] : Fin 3 → Nat) a + S1x64x128.size a ≤ S24x64x128.size a
  inb_S24x3x64x128_S1x1x64x128_13_0_0_0 : ∀ a, (![13, 0, 0, 0] : Fin 4 → Nat) a + S1x1x64x128.size a ≤ S24x3x64x128.size a
  inb_S24x3x64x128_S1x1x64x128_13_1_0_0 : ∀ a, (![13, 1, 0, 0] : Fin 4 → Nat) a + S1x1x64x128.size a ≤ S24x3x64x128.size a
  inb_S24x3x64x128_S1x1x64x128_13_2_0_0 : ∀ a, (![13, 2, 0, 0] : Fin 4 → Nat) a + S1x1x64x128.size a ≤ S24x3x64x128.size a
  inb_S24x3x64x128_S1x3x64x128_14_0_0_0 : ∀ a, (![14, 0, 0, 0] : Fin 4 → Nat) a + S1x3x64x128.size a ≤ S24x3x64x128.size a
  slices_S24x3_o14_0_S1x1 : S24x3.Slices ![14, 0] S1x1
  slices_S24x3_o14_1_S1x1 : S24x3.Slices ![14, 1] S1x1
  slices_S24x3_o14_2_S1x1 : S24x3.Slices ![14, 2] S1x1
  inb_S24x64x128_S1x64x128_14_0_0 : ∀ a, (![14, 0, 0] : Fin 3 → Nat) a + S1x64x128.size a ≤ S24x64x128.size a
  inb_S24x3x64x128_S1x1x64x128_14_0_0_0 : ∀ a, (![14, 0, 0, 0] : Fin 4 → Nat) a + S1x1x64x128.size a ≤ S24x3x64x128.size a
  inb_S24x3x64x128_S1x1x64x128_14_1_0_0 : ∀ a, (![14, 1, 0, 0] : Fin 4 → Nat) a + S1x1x64x128.size a ≤ S24x3x64x128.size a
  inb_S24x3x64x128_S1x1x64x128_14_2_0_0 : ∀ a, (![14, 2, 0, 0] : Fin 4 → Nat) a + S1x1x64x128.size a ≤ S24x3x64x128.size a
  slices_S24x3_o15_0_S1x1 : S24x3.Slices ![15, 0] S1x1
  slices_S24x3_o15_1_S1x1 : S24x3.Slices ![15, 1] S1x1
  slices_S24x3_o15_2_S1x1 : S24x3.Slices ![15, 2] S1x1
  inb_S24x3x64x128_S1x1x64x128_15_0_0_0 : ∀ a, (![15, 0, 0, 0] : Fin 4 → Nat) a + S1x1x64x128.size a ≤ S24x3x64x128.size a
  inb_S24x3x64x128_S1x1x64x128_15_1_0_0 : ∀ a, (![15, 1, 0, 0] : Fin 4 → Nat) a + S1x1x64x128.size a ≤ S24x3x64x128.size a
  inb_S24x3x64x128_S1x1x64x128_15_2_0_0 : ∀ a, (![15, 2, 0, 0] : Fin 4 → Nat) a + S1x1x64x128.size a ≤ S24x3x64x128.size a
  inb_S24x3x64x128_S1x3x64x128_16_0_0_0 : ∀ a, (![16, 0, 0, 0] : Fin 4 → Nat) a + S1x3x64x128.size a ≤ S24x3x64x128.size a
  slices_S24x3_o16_0_S1x1 : S24x3.Slices ![16, 0] S1x1
  slices_S24x3_o16_1_S1x1 : S24x3.Slices ![16, 1] S1x1
  slices_S24x3_o16_2_S1x1 : S24x3.Slices ![16, 2] S1x1
  inb_S24x64x128_S1x64x128_16_0_0 : ∀ a, (![16, 0, 0] : Fin 3 → Nat) a + S1x64x128.size a ≤ S24x64x128.size a
  inb_S24x3x64x128_S1x1x64x128_16_0_0_0 : ∀ a, (![16, 0, 0, 0] : Fin 4 → Nat) a + S1x1x64x128.size a ≤ S24x3x64x128.size a
  inb_S24x3x64x128_S1x1x64x128_16_1_0_0 : ∀ a, (![16, 1, 0, 0] : Fin 4 → Nat) a + S1x1x64x128.size a ≤ S24x3x64x128.size a
  inb_S24x3x64x128_S1x1x64x128_16_2_0_0 : ∀ a, (![16, 2, 0, 0] : Fin 4 → Nat) a + S1x1x64x128.size a ≤ S24x3x64x128.size a
  inb_S24x3x64x128_S1x3x64x128_17_0_0_0 : ∀ a, (![17, 0, 0, 0] : Fin 4 → Nat) a + S1x3x64x128.size a ≤ S24x3x64x128.size a
  slices_S24x3_o17_0_S1x1 : S24x3.Slices ![17, 0] S1x1
  slices_S24x3_o17_1_S1x1 : S24x3.Slices ![17, 1] S1x1
  slices_S24x3_o17_2_S1x1 : S24x3.Slices ![17, 2] S1x1
  inb_S24x64x128_S1x64x128_17_0_0 : ∀ a, (![17, 0, 0] : Fin 3 → Nat) a + S1x64x128.size a ≤ S24x64x128.size a
  inb_S24x3x64x128_S1x1x64x128_17_0_0_0 : ∀ a, (![17, 0, 0, 0] : Fin 4 → Nat) a + S1x1x64x128.size a ≤ S24x3x64x128.size a
  inb_S24x3x64x128_S1x1x64x128_17_1_0_0 : ∀ a, (![17, 1, 0, 0] : Fin 4 → Nat) a + S1x1x64x128.size a ≤ S24x3x64x128.size a
  inb_S24x3x64x128_S1x1x64x128_17_2_0_0 : ∀ a, (![17, 2, 0, 0] : Fin 4 → Nat) a + S1x1x64x128.size a ≤ S24x3x64x128.size a
  inb_S24x3x64x128_S1x3x64x128_18_0_0_0 : ∀ a, (![18, 0, 0, 0] : Fin 4 → Nat) a + S1x3x64x128.size a ≤ S24x3x64x128.size a
  slices_S24x3_o18_0_S1x1 : S24x3.Slices ![18, 0] S1x1
  slices_S24x3_o18_1_S1x1 : S24x3.Slices ![18, 1] S1x1
  slices_S24x3_o18_2_S1x1 : S24x3.Slices ![18, 2] S1x1
  inb_S24x64x128_S1x64x128_18_0_0 : ∀ a, (![18, 0, 0] : Fin 3 → Nat) a + S1x64x128.size a ≤ S24x64x128.size a
  inb_S24x3x64x128_S1x1x64x128_18_0_0_0 : ∀ a, (![18, 0, 0, 0] : Fin 4 → Nat) a + S1x1x64x128.size a ≤ S24x3x64x128.size a
  inb_S24x3x64x128_S1x1x64x128_18_1_0_0 : ∀ a, (![18, 1, 0, 0] : Fin 4 → Nat) a + S1x1x64x128.size a ≤ S24x3x64x128.size a
  inb_S24x3x64x128_S1x1x64x128_18_2_0_0 : ∀ a, (![18, 2, 0, 0] : Fin 4 → Nat) a + S1x1x64x128.size a ≤ S24x3x64x128.size a
  inb_S24x3x64x128_S1x3x64x128_19_0_0_0 : ∀ a, (![19, 0, 0, 0] : Fin 4 → Nat) a + S1x3x64x128.size a ≤ S24x3x64x128.size a
  slices_S24x3_o19_0_S1x1 : S24x3.Slices ![19, 0] S1x1
  slices_S24x3_o19_1_S1x1 : S24x3.Slices ![19, 1] S1x1
  slices_S24x3_o19_2_S1x1 : S24x3.Slices ![19, 2] S1x1
  inb_S24x64x128_S1x64x128_19_0_0 : ∀ a, (![19, 0, 0] : Fin 3 → Nat) a + S1x64x128.size a ≤ S24x64x128.size a
  inb_S24x3x64x128_S1x1x64x128_19_0_0_0 : ∀ a, (![19, 0, 0, 0] : Fin 4 → Nat) a + S1x1x64x128.size a ≤ S24x3x64x128.size a
  inb_S24x3x64x128_S1x1x64x128_19_1_0_0 : ∀ a, (![19, 1, 0, 0] : Fin 4 → Nat) a + S1x1x64x128.size a ≤ S24x3x64x128.size a
  inb_S24x3x64x128_S1x1x64x128_19_2_0_0 : ∀ a, (![19, 2, 0, 0] : Fin 4 → Nat) a + S1x1x64x128.size a ≤ S24x3x64x128.size a
  inb_S24x3x64x128_S1x3x64x128_20_0_0_0 : ∀ a, (![20, 0, 0, 0] : Fin 4 → Nat) a + S1x3x64x128.size a ≤ S24x3x64x128.size a
  slices_S24x3_o20_0_S1x1 : S24x3.Slices ![20, 0] S1x1
  slices_S24x3_o20_1_S1x1 : S24x3.Slices ![20, 1] S1x1
  slices_S24x3_o20_2_S1x1 : S24x3.Slices ![20, 2] S1x1
  inb_S24x64x128_S1x64x128_20_0_0 : ∀ a, (![20, 0, 0] : Fin 3 → Nat) a + S1x64x128.size a ≤ S24x64x128.size a
  inb_S24x3x64x128_S1x1x64x128_20_0_0_0 : ∀ a, (![20, 0, 0, 0] : Fin 4 → Nat) a + S1x1x64x128.size a ≤ S24x3x64x128.size a
  inb_S24x3x64x128_S1x1x64x128_20_1_0_0 : ∀ a, (![20, 1, 0, 0] : Fin 4 → Nat) a + S1x1x64x128.size a ≤ S24x3x64x128.size a
  inb_S24x3x64x128_S1x1x64x128_20_2_0_0 : ∀ a, (![20, 2, 0, 0] : Fin 4 → Nat) a + S1x1x64x128.size a ≤ S24x3x64x128.size a
  inb_S24x3x64x128_S1x3x64x128_21_0_0_0 : ∀ a, (![21, 0, 0, 0] : Fin 4 → Nat) a + S1x3x64x128.size a ≤ S24x3x64x128.size a
  slices_S24x3_o21_0_S1x1 : S24x3.Slices ![21, 0] S1x1
  slices_S24x3_o21_1_S1x1 : S24x3.Slices ![21, 1] S1x1
  slices_S24x3_o21_2_S1x1 : S24x3.Slices ![21, 2] S1x1
  inb_S24x64x128_S1x64x128_21_0_0 : ∀ a, (![21, 0, 0] : Fin 3 → Nat) a + S1x64x128.size a ≤ S24x64x128.size a
  inb_S24x3x64x128_S1x1x64x128_21_0_0_0 : ∀ a, (![21, 0, 0, 0] : Fin 4 → Nat) a + S1x1x64x128.size a ≤ S24x3x64x128.size a
  inb_S24x3x64x128_S1x1x64x128_21_1_0_0 : ∀ a, (![21, 1, 0, 0] : Fin 4 → Nat) a + S1x1x64x128.size a ≤ S24x3x64x128.size a
  inb_S24x3x64x128_S1x1x64x128_21_2_0_0 : ∀ a, (![21, 2, 0, 0] : Fin 4 → Nat) a + S1x1x64x128.size a ≤ S24x3x64x128.size a
  slices_S24x3_o22_0_S1x1 : S24x3.Slices ![22, 0] S1x1
  slices_S24x3_o22_1_S1x1 : S24x3.Slices ![22, 1] S1x1
  slices_S24x3_o22_2_S1x1 : S24x3.Slices ![22, 2] S1x1
  inb_S24x3x64x128_S1x1x64x128_22_0_0_0 : ∀ a, (![22, 0, 0, 0] : Fin 4 → Nat) a + S1x1x64x128.size a ≤ S24x3x64x128.size a
  inb_S24x3x64x128_S1x1x64x128_22_1_0_0 : ∀ a, (![22, 1, 0, 0] : Fin 4 → Nat) a + S1x1x64x128.size a ≤ S24x3x64x128.size a
  inb_S24x3x64x128_S1x1x64x128_22_2_0_0 : ∀ a, (![22, 2, 0, 0] : Fin 4 → Nat) a + S1x1x64x128.size a ≤ S24x3x64x128.size a
  slices_S24x3_o23_0_S1x1 : S24x3.Slices ![23, 0] S1x1
  slices_S24x3_o23_1_S1x1 : S24x3.Slices ![23, 1] S1x1
  slices_S24x3_o23_2_S1x1 : S24x3.Slices ![23, 2] S1x1
  inb_S24x3x64x128_S1x1x64x128_23_0_0_0 : ∀ a, (![23, 0, 0, 0] : Fin 4 → Nat) a + S1x1x64x128.size a ≤ S24x3x64x128.size a
  inb_S24x3x64x128_S1x1x64x128_23_1_0_0 : ∀ a, (![23, 1, 0, 0] : Fin 4 → Nat) a + S1x1x64x128.size a ≤ S24x3x64x128.size a
  inb_S24x3x64x128_S1x1x64x128_23_2_0_0 : ∀ a, (![23, 2, 0, 0] : Fin 4 → Nat) a + S1x1x64x128.size a ≤ S24x3x64x128.size a
  shapeCasts_S24x3x512x128_S24x3x65536 : S24x3x512x128.ShapeCasts S24x3x65536
  transposes_S24x3x65536_S65536x24x3_2_0_1 : S24x3x65536.Transposes [2, 0, 1] S65536x24x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S24x3x64x128.size a ≤ S24x3x512x128.size a
  hwx0_0 : ∀ i : grid0.Coords, EltTy.bits .f32 = 32 ∨ (Rect.block (s := S24x3x512x128) S24x3x64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S24x3.size a ≤ S24x3.size a
  hwx0_1 : ∀ i : grid0.Coords, EltTy.bits .f32 = 32 ∨ (Rect.block (s := S24x3) S24x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x64x128.size a ≤ S3x512x128.size a
  hwx0_2 : ∀ i : grid0.Coords, EltTy.bits .f32 = 32 ∨ (Rect.block (s := S3x512x128) S3x64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S24x3x64x128.size a ≤ S24x3x512x128.size a
  hwx0_3 : ∀ i : grid0.Coords, EltTy.bits .f32 = 32 ∨ (Rect.block (s := S24x3x512x128) S24x3x64x128.size (cc0_transform_3 i) (hinb0_3 i)).WholeWords (EltTy.packing .f32)

variable [Facts₀]

abbrev win0_0 : Pipeline.Window sig grid0 :=
  Pipeline.Window.ofSpec (Memref.whole main_v1) S24x3x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S24x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S3x64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S24x3x64x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S24x3 : Shape := ⟨2, ![24, 3]⟩
abbrev S65536x24x3 : Shape := ⟨3, ![65536, 24, 3]⟩
abbrev S65536x3 : Shape := ⟨2, ![65536, 3]⟩
abbrev S4 : Shape := ⟨1, ![4]⟩
abbrev S_ : Shape := ⟨0, ![]⟩
abbrev S65536x24 : Shape := ⟨2, ![65536, 24]⟩
abbrev S65536x24x1 : Shape := ⟨3, ![65536, 24, 1]⟩
abbrev S65536x24x1x1 : Shape := ⟨4, ![65536, 24, 1, 1]⟩
abbrev S65536x24x9 : Shape := ⟨3, ![65536, 24, 9]⟩
abbrev S65536x24x3x3 : Shape := ⟨4, ![65536, 24, 3, 3]⟩
abbrev S3x3 : Shape := ⟨2, ![3, 3]⟩
abbrev S1x1x3x3 : Shape := ⟨4, ![1, 1, 3, 3]⟩
abbrev S1x24x3x1 : Shape := ⟨4, ![1, 24, 3, 1]⟩
abbrev S65536x24x3x1 : Shape := ⟨4, ![65536, 24, 3, 1]⟩
abbrev S65536x24x3x4 : Shape := ⟨4, ![65536, 24, 3, 4]⟩
abbrev S65536x24x1x4 : Shape := ⟨4, ![65536, 24, 1, 4]⟩
abbrev S65536x24x4x4 : Shape := ⟨4, ![65536, 24, 4, 4]⟩
abbrev S65536x1x4x4 : Shape := ⟨4, ![65536, 1, 4, 4]⟩
abbrev S65536x4x4 : Shape := ⟨3, ![65536, 4, 4]⟩
abbrev S65536x16x4x4 : Shape := ⟨4, ![65536, 16, 4, 4]⟩
abbrev S65536x8x4x4 : Shape := ⟨4, ![65536, 8, 4, 4]⟩
abbrev S65536x1x3 : Shape := ⟨3, ![65536, 1, 3]⟩

abbrev nBuf : Space → Nat
  | .hbm => 167
  | .vmem => 0
  | .smem => 0
  | _ => 0

abbrev hbmTy0_0 (i : Nat) : BufTy := match i % 128 with
  | 0 => ⟨S24x3, .f32⟩
  | 1 => ⟨S65536x24x3, .f32⟩
  | 2 => ⟨S65536x3, .f32⟩
  | 3 => ⟨S4, .f32⟩
  | 4 => ⟨S_, .f32⟩
  | 5 => ⟨S65536x24x3, .f32⟩
  | 6 => ⟨S65536x24x3, .f32⟩
  | 7 => ⟨S65536x24x3, .f32⟩
  | 8 => ⟨S_, .f32⟩
  | 9 => ⟨S65536x24, .f32⟩
  | 10 => ⟨S65536x24x1, .f32⟩
  | 11 => ⟨S65536x24x1, .f32⟩
  | 12 => ⟨S65536x24x3, .f32⟩
  | 13 => ⟨S65536x24x3, .f32⟩
  | 14 => ⟨S65536x24x1, .f32⟩
  | 15 => ⟨S65536x24x1x1, .f32⟩
  | 16 => ⟨S65536x24x1, .f32⟩
  | 17 => ⟨S65536x24x1x1, .f32⟩
  | 18 => ⟨S65536x24x1, .f32⟩
  | 19 => ⟨S65536x24, .f32⟩
  | 20 => ⟨S65536x24x1, .f32⟩
  | 21 => ⟨S65536x24, .f32⟩
  | 22 => ⟨S65536x24x1, .f32⟩
  | 23 => ⟨S65536x24, .f32⟩
  | 24 => ⟨S_, .f32⟩
  | 25 => ⟨S65536x24, .f32⟩
  | 26 => ⟨S65536x24, .f32⟩
  | 27 => ⟨S65536x24, .f32⟩
  | 28 => ⟨S65536x24, .f32⟩
  | 29 => ⟨S65536x24x1, .f32⟩
  | 30 => ⟨S65536x24x1, .f32⟩
  | 31 => ⟨S65536x24x1, .f32⟩
  | 32 => ⟨S65536x24x1, .f32⟩
  | 33 => ⟨S65536x24x1, .f32⟩
  | 34 => ⟨S65536x24x1, .f32⟩
  | 35 => ⟨S65536x24x1, .f32⟩
  | 36 => ⟨S65536x24x1, .f32⟩
  | 37 => ⟨S65536x24x1, .f32⟩
  | 38 => ⟨S65536x24x9, .f32⟩
  | 39 => ⟨S65536x24x3x3, .f32⟩
  | 40 => ⟨S3x3, .i32⟩
  | 41 => ⟨S3x3, .i32⟩
  | 42 => ⟨S_, .i32⟩
  | 43 => ⟨S3x3, .i32⟩
  | 44 => ⟨S3x3, .i32⟩
  | 45 => ⟨S3x3, .i1⟩
  | 46 => ⟨S3x3, .f32⟩
  | 47 => ⟨S65536x24x3x3, .f32⟩
  | 48 => ⟨S65536x24x3x3, .f32⟩
  | 49 => ⟨S1x1x3x3, .f32⟩
  | 50 => ⟨S65536x24x3x3, .f32⟩
  | 51 => ⟨S65536x24x3x3, .f32⟩
  | 52 => ⟨S_, .f32⟩
  | 53 => ⟨S65536x24x1x1, .f32⟩
  | 54 => ⟨S65536x24x1x1, .f32⟩
  | 55 => ⟨S65536x24x3x3, .f32⟩
  | 56 => ⟨S65536x24x3x3, .f32⟩
  | 57 => ⟨S65536x24x3x3, .f32⟩
  | 58 => ⟨S65536x24x3x3, .f32⟩
  | 59 => ⟨S1x24x3x1, .f32⟩
  | 60 => ⟨S65536x24x3x1, .f32⟩
  | 61 => ⟨S65536x24x3x4, .f32⟩
  | 62 => ⟨S65536x24x1x4, .f32⟩
  | 63 => ⟨S65536x24x4x4, .f32⟩
  | 64 => ⟨S65536x1x4x4, .f32⟩
  | 65 => ⟨S65536x4x4, .f32⟩
  | 66 => ⟨S65536x1x4x4, .f32⟩
  | 67 => ⟨S65536x4x4, .f32⟩
  | 68 => ⟨S65536x4x4, .f32⟩
  | 69 => ⟨S65536x1x4x4, .f32⟩
  | 70 => ⟨S65536x4x4, .f32⟩
  | 71 => ⟨S65536x4x4, .f32⟩
  | 72 => ⟨S65536x1x4x4, .f32⟩
  | 73 => ⟨S65536x4x4, .f32⟩
  | 74 => ⟨S65536x4x4, .f32⟩
  | 75 => ⟨S65536x1x4x4, .f32⟩
  | 76 => ⟨S65536x4x4, .f32⟩
  | 77 => ⟨S65536x4x4, .f32⟩
  | 78 => ⟨S65536x1x4x4, .f32⟩
  | 79 => ⟨S65536x4x4, .f32⟩
  | 80 => ⟨S65536x4x4, .f32⟩
  | 81 => ⟨S65536x1x4x4, .f32⟩
  | 82 => ⟨S65536x4x4, .f32⟩
  | 83 => ⟨S65536x4x4, .f32⟩
  | 84 => ⟨S65536x1x4x4, .f32⟩
  | 85 => ⟨S65536x4x4, .f32⟩
  | 86 => ⟨S65536x4x4, .f32⟩
  | 87 => ⟨S65536x1x4x4, .f32⟩
  | 88 => ⟨S65536x4x4, .f32⟩
  | 89 => ⟨S65536x4x4, .f32⟩
  | 90 => ⟨S65536x1x4x4, .f32⟩
  | 91 => ⟨S65536x4x4, .f32⟩
  | 92 => ⟨S65536x4x4, .f32⟩
  | 93 => ⟨S65536x1x4x4, .f32⟩
  | 94 => ⟨S65536x4x4, .f32⟩
  | 95 => ⟨S65536x4x4, .f32⟩
  | 96 => ⟨S65536x1x4x4, .f32⟩
  | 97 => ⟨S65536x4x4, .f32⟩
  | 98 => ⟨S65536x4x4, .f32⟩
  | 99 => ⟨S65536x1x4x4, .f32⟩
  | 100 => ⟨S65536x4x4, .f32⟩
  | 101 => ⟨S65536x4x4, .f32⟩
  | 102 => ⟨S65536x1x4x4, .f32⟩
  | 103 => ⟨S65536x4x4, .f32⟩
  | 104 => ⟨S65536x4x4, .f32⟩
  | 105 => ⟨S65536x1x4x4, .f32⟩
  | 106 => ⟨S65536x4x4, .f32⟩
  | 107 => ⟨S65536x4x4, .f32⟩
  | 108 => ⟨S65536x1x4x4, .f32⟩
  | 109 => ⟨S65536x4x4, .f32⟩
  | 110 => ⟨S65536x4x4, .f32⟩
  | 111 => ⟨S65536x1x4x4, .f32⟩
  | 112 => ⟨S65536x4x4, .f32⟩
  | 113 => ⟨S65536x4x4, .f32⟩
  | 114 => ⟨S65536x1x4x4, .f32⟩
  | 115 => ⟨S65536x4x4, .f32⟩
  | 116 => ⟨S65536x4x4, .f32⟩
  | 117 => ⟨S65536x1x4x4, .f32⟩
  | 118 => ⟨S65536x4x4, .f32⟩
  | 119 => ⟨S65536x4x4, .f32⟩
  | 120 => ⟨S65536x1x4x4, .f32⟩
  | 121 => ⟨S65536x4x4, .f32⟩
  | 122 => ⟨S65536x4x4, .f32⟩
  | 123 => ⟨S65536x1x4x4, .f32⟩
  | 124 => ⟨S65536x4x4, .f32⟩
  | 125 => ⟨S65536x4x4, .f32⟩
  | 126 => ⟨S65536x1x4x4, .f32⟩
  | 127 => ⟨S65536x4x4, .f32⟩
  | _ => ⟨S24x3, .f32⟩

abbrev hbmTy0_1 (i : Nat) : BufTy := match i % 128 with
  | 0 => ⟨S65536x4x4, .f32⟩
  | 1 => ⟨S65536x1x4x4, .f32⟩
  | 2 => ⟨S65536x4x4, .f32⟩
  | 3 => ⟨S65536x4x4, .f32⟩
  | 4 => ⟨S65536x1x4x4, .f32⟩
  | 5 => ⟨S65536x4x4, .f32⟩
  | 6 => ⟨S65536x4x4, .f32⟩
  | 7 => ⟨S65536x1x4x4, .f32⟩
  | 8 => ⟨S65536x1x4x4, .f32⟩
  | 9 => ⟨S65536x1x4x4, .f32⟩
  | 10 => ⟨S65536x1x4x4, .f32⟩
  | 11 => ⟨S65536x1x4x4, .f32⟩
  | 12 => ⟨S65536x1x4x4, .f32⟩
  | 13 => ⟨S65536x1x4x4, .f32⟩
  | 14 => ⟨S65536x1x4x4, .f32⟩
  | 15 => ⟨S65536x1x4x4, .f32⟩
  | 16 => ⟨S65536x1x4x4, .f32⟩
  | 17 => ⟨S65536x1x4x4, .f32⟩
  | 18 => ⟨S65536x1x4x4, .f32⟩
  | 19 => ⟨S65536x1x4x4, .f32⟩
  | 20 => ⟨S65536x1x4x4, .f32⟩
  | 21 => ⟨S65536x1x4x4, .f32⟩
  | 22 => ⟨S65536x1x4x4, .f32⟩
  | 23 => ⟨S65536x1x4x4, .f32⟩
  | 24 => ⟨S65536x1x4x4, .f32⟩
  | 25 => ⟨S65536x1x4x4, .f32⟩
  | 26 => ⟨S65536x1x4x4, .f32⟩
  | 27 => ⟨S65536x1x4x4, .f32⟩
  | 28 => ⟨S65536x1x4x4, .f32⟩
  | 29 => ⟨S65536x1x4x4, .f32⟩
  | 30 => ⟨S65536x1x4x4, .f32⟩
  | 31 => ⟨S65536x16x4x4, .f32⟩
  | 32 => ⟨S65536x8x4x4, .f32⟩
  | 33 => ⟨S65536x24x4x4, .f32⟩
  | 34 => ⟨S65536x24x3x1, .f32⟩
  | 35 => ⟨S65536x24x3, .f32⟩
  | 36 => ⟨S65536x1x3, .f32⟩
  | 37 => ⟨S65536x24x3, .f32⟩
  | 38 => ⟨S65536x24x3, .f32⟩
  | _ => ⟨S24x3, .f32⟩

abbrev hbmTy (i : Nat) : BufTy := match i / 128 with
  | 0 => hbmTy0_0 i
  | 1 => hbmTy0_1 i
  | _ => ⟨S24x3, .f32⟩

abbrev bufTy : (tb : Table) → Fin (tcTables nBuf tb) → BufTy
  | .hbm, ⟨i, _⟩ => hbmTy i
  | _, _ => ⟨S24x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_2 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩

abbrev nD : Nat := 1
abbrev τ : Topo := Topo.v7x

variable {F : FTy → Type} [FloatOps F]

class Facts₀ : Prop where
  bcast_S_S65536x24x3 : S_.BroadcastsInDim S65536x24x3 (![] : Fin 0 → Fin S65536x24x3.rank)
  reducesTo_S65536x24x3_S65536x24_d2 : S65536x24x3.ReducesTo [2] S65536x24
  h_S_ : 0 < S_.numel
  bcast_S65536x24_S65536x24x1_0_1 : S65536x24.BroadcastsInDim S65536x24x1 (![0, 1] : Fin 2 → Fin S65536x24x1.rank)
  bcast_S65536x24x1_S65536x24x3_0_1_2 : S65536x24x1.BroadcastsInDim S65536x24x3 (![0, 1, 2] : Fin 3 → Fin S65536x24x3.rank)
  bcast_S65536x24x1_S65536x24x1x1_0_1_2 : S65536x24x1.BroadcastsInDim S65536x24x1x1 (![0, 1, 2] : Fin 3 → Fin S65536x24x1x1.rank)
  slices_S65536x24x3_S65536x24x1_0_0_0 : S65536x24x3.Slices ![0, 0, 0] S65536x24x1
  shapeCasts_S65536x24x1_S65536x24 : S65536x24x1.ShapeCasts S65536x24
  slices_S65536x24x3_S65536x24x1_0_0_1 : S65536x24x3.Slices ![0, 0, 1] S65536x24x1
  slices_S65536x24x3_S65536x24x1_0_0_2 : S65536x24x3.Slices ![0, 0, 2] S65536x24x1
  bcast_S_S65536x24 : S_.BroadcastsInDim S65536x24 (![] : Fin 0 → Fin S65536x24.rank)
  concatenates_S65536x24x1_S65536x24x1_S65536x24x1_S65536x24x1_S65536x24x1_S65536x24x1_S65536x24x1_S65536x24x1_S65536x24x1_S65536x24x9_d2 : Shape.Concatenates [S65536x24x1, S65536x24x1, S65536x24x1, S65536x24x1, S65536x24x1, S65536x24x1, S65536x24x1, S65536x24x1, S65536x24x1] S65536x24x9 2
  shapeCasts_S65536x24x9_S65536x24x3x3 : S65536x24x9.ShapeCasts S65536x24x3x3
  bcast_S_S3x3 : S_.BroadcastsInDim S3x3 (![] : Fin 0 → Fin S3x3.rank)
  bcast_S65536x24x1x1_S65536x24x3x3_0_1_2_3 : S65536x24x1x1.BroadcastsInDim S65536x24x3x3 (![0, 1, 2, 3] : Fin 4 → Fin S65536x24x3x3.rank)
  bcast_S3x3_S1x1x3x3_2_3 : S3x3.BroadcastsInDim S1x1x3x3 (![2, 3] : Fin 2 → Fin S1x1x3x3.rank)
  bcast_S1x1x3x3_S65536x24x3x3_0_1_2_3 : S1x1x3x3.BroadcastsInDim S65536x24x3x3 (![0, 1, 2, 3] : Fin 4 → Fin S65536x24x3x3.rank)
  bcast_S_S65536x24x1x1 : S_.BroadcastsInDim S65536x24x1x1 (![] : Fin 0 → Fin S65536x24x1x1.rank)
  bcast_S24x3_S1x24x3x1_1_2 : S24x3.BroadcastsInDim S1x24x3x1 (![1, 2] : Fin 2 → Fin S1x24x3x1.rank)
  bcast_S1x24x3x1_S65536x24x3x1_0_1_2_3 : S1x24x3x1.BroadcastsInDim S65536x24x3x1 (![0, 1, 2, 3] : Fin 4 → Fin S65536x24x3x1.rank)
  concatenates_S65536x24x3x3_S65536x24x3x1_S65536x24x3x4_d3 : Shape.Concatenates [S65536x24x3x3, S65536x24x3x1] S65536x24x3x4 3
  bcast_S4_S65536x24x1x4_3 : S4.BroadcastsInDim S65536x24x1x4 (![3] : Fin 1 → Fin S65536x24x1x4.rank)
  concatenates_S65536x24x3x4_S65536x24x1x4_S65536x24x4x4_d2 : Shape.Concatenates [S65536x24x3x4, S65536x24x1x4] S65536x24x4x4 2
  slices_S65536x24x4x4_S65536x1x4x4_0_0_0_0 : S65536x24x4x4.Slices ![0, 0, 0, 0] S65536x1x4x4
  shapeCasts_S65536x1x4x4_S65536x4x4 : S65536x1x4x4.ShapeCasts S65536x4x4
  slices_S65536x24x4x4_S65536x1x4x4_0_1_0_0 : S65536x24x4x4.Slices ![0, 1, 0, 0] S65536x1x4x4
  slices_S65536x24x4x4_S65536x1x4x4_0_2_0_0 : S65536x24x4x4.Slices ![0, 2, 0, 0] S65536x1x4x4
  slices_S65536x24x4x4_S65536x1x4x4_0_3_0_0 : S65536x24x4x4.Slices ![0, 3, 0, 0] S65536x1x4x4
  slices_S65536x24x4x4_S65536x1x4x4_0_4_0_0 : S65536x24x4x4.Slices ![0, 4, 0, 0] S65536x1x4x4
  slices_S65536x24x4x4_S65536x1x4x4_0_5_0_0 : S65536x24x4x4.Slices ![0, 5, 0, 0] S65536x1x4x4
  slices_S65536x24x4x4_S65536x1x4x4_0_6_0_0 : S65536x24x4x4.Slices ![0, 6, 0, 0] S65536x1x4x4
  slices_S65536x24x4x4_S65536x1x4x4_0_7_0_0 : S65536x24x4x4.Slices ![0, 7, 0, 0] S65536x1x4x4
  slices_S65536x24x4x4_S65536x1x4x4_0_8_0_0 : S65536x24x4x4.Slices ![0, 8, 0, 0] S65536x1x4x4
  slices_S65536x24x4x4_S65536x1x4x4_0_9_0_0 : S65536x24x4x4.Slices ![0, 9, 0, 0] S65536x1x4x4
  slices_S65536x24x4x4_S65536x1x4x4_0_10_0_0 : S65536x24x4x4.Slices ![0, 10, 0, 0] S65536x1x4x4
  slices_S65536x24x4x4_S65536x1x4x4_0_11_0_0 : S65536x24x4x4.Slices ![0, 11, 0, 0] S65536x1x4x4
  slices_S65536x24x4x4_S65536x1x4x4_0_12_0_0 : S65536x24x4x4.Slices ![0, 12, 0, 0] S65536x1x4x4
  slices_S65536x24x4x4_S65536x1x4x4_0_13_0_0 : S65536x24x4x4.Slices ![0, 13, 0, 0] S65536x1x4x4
  slices_S65536x24x4x4_S65536x1x4x4_0_14_0_0 : S65536x24x4x4.Slices ![0, 14, 0, 0] S65536x1x4x4
  slices_S65536x24x4x4_S65536x1x4x4_0_15_0_0 : S65536x24x4x4.Slices ![0, 15, 0, 0] S65536x1x4x4
  slices_S65536x24x4x4_S65536x1x4x4_0_16_0_0 : S65536x24x4x4.Slices ![0, 16, 0, 0] S65536x1x4x4
  slices_S65536x24x4x4_S65536x1x4x4_0_17_0_0 : S65536x24x4x4.Slices ![0, 17, 0, 0] S65536x1x4x4
  slices_S65536x24x4x4_S65536x1x4x4_0_18_0_0 : S65536x24x4x4.Slices ![0, 18, 0, 0] S65536x1x4x4
  slices_S65536x24x4x4_S65536x1x4x4_0_19_0_0 : S65536x24x4x4.Slices ![0, 19, 0, 0] S65536x1x4x4
  slices_S65536x24x4x4_S65536x1x4x4_0_20_0_0 : S65536x24x4x4.Slices ![0, 20, 0, 0] S65536x1x4x4
  slices_S65536x24x4x4_S65536x1x4x4_0_21_0_0 : S65536x24x4x4.Slices ![0, 21, 0, 0] S65536x1x4x4
  slices_S65536x24x4x4_S65536x1x4x4_0_22_0_0 : S65536x24x4x4.Slices ![0, 22, 0, 0] S65536x1x4x4
  slices_S65536x24x4x4_S65536x1x4x4_0_23_0_0 : S65536x24x4x4.Slices ![0, 23, 0, 0] S65536x1x4x4
  bcast_S65536x4x4_S65536x1x4x4_0_2_3 : S65536x4x4.BroadcastsInDim S65536x1x4x4 (![0, 2, 3] : Fin 3 → Fin S65536x1x4x4.rank)
  concatenates_S65536x1x4x4_S65536x1x4x4_S65536x1x4x4_S65536x1x4x4_S65536x1x4x4_S65536x1x4x4_S65536x1x4x4_S65536x1x4x4_S65536x1x4x4_S65536x1x4x4_S65536x1x4x4_S65536x1x4x4_S65536x1x4x4_S65536x1x4x4_S65536x1x4x4_S65536x1x4x4_S65536x16x4x4_d1 : Shape.Concatenates [S65536x1x4x4, S65536x1x4x4, S65536x1x4x4, S65536x1x4x4, S65536x1x4x4, S65536x1x4x4, S65536x1x4x4, S65536x1x4x4, S65536x1x4x4, S65536x1x4x4, S65536x1x4x4, S65536x1x4x4, S65536x1x4x4, S65536x1x4x4, S65536x1x4x4, S65536x1x4x4] S65536x16x4x4 1
  concatenates_S65536x1x4x4_S65536x1x4x4_S65536x1x4x4_S65536x1x4x4_S65536x1x4x4_S65536x1x4x4_S65536x1x4x4_S65536x1x4x4_S65536x8x4x4_d1 : Shape.Concatenates [S65536x1x4x4, S65536x1x4x4, S65536x1x4x4, S65536x1x4x4, S65536x1x4x4, S65536x1x4x4, S65536x1x4x4, S65536x1x4x4] S65536x8x4x4 1
  concatenates_S65536x16x4x4_S65536x8x4x4_S65536x24x4x4_d1 : Shape.Concatenates [S65536x16x4x4, S65536x8x4x4] S65536x24x4x4 1
  slices_S65536x24x4x4_S65536x24x3x1_0_0_0_3 : S65536x24x4x4.Slices ![0, 0, 0, 3] S65536x24x3x1
  shapeCasts_S65536x24x3x1_S65536x24x3 : S65536x24x3x1.ShapeCasts S65536x24x3
  bcast_S65536x3_S65536x1x3_0_2 : S65536x3.BroadcastsInDim S65536x1x3 (![0, 2] : Fin 2 → Fin S65536x1x3.rank)
  bcast_S65536x1x3_S65536x24x3_0_1_2 : S65536x1x3.BroadcastsInDim S65536x24x3 (![0, 1, 2] : Fin 3 → Fin S65536x24x3.rank)
  dot_S65536x24x3x3_S65536x24x3x3_S65536x24x3x3_3_2_2_3_01_01_wf : DotDims.WF S65536x24x3x3 S65536x24x3x3 S65536x24x3x3 [3] [2] [2] [3] [0, 1] [0, 1]
  dot_S65536x4x4_S65536x4x4_S65536x4x4_2_1_1_2_0_0_wf : DotDims.WF S65536x4x4 S65536x4x4 S65536x4x4 [2] [1] [1] [2] [0] [0]

variable [Facts₀]

def dot_S65536x24x3x3_S65536x24x3x3_S65536x24x3x3_3_2_2_3_01_01 : DotDims S65536x24x3x3 S65536x24x3x3 S65536x24x3x3 where
  lhsContracting := [3]
  rhsContracting := [2]
  lhsNonContracting := [2]
  rhsNonContracting := [3]
  lhsBatch := [0, 1]
  rhsBatch := [0, 1]
  wf := dot_S65536x24x3x3_S65536x24x3x3_S65536x24x3x3_3_2_2_3_01_01_wf
def dot_S65536x4x4_S65536x4x4_S65536x4x4_2_1_1_2_0_0 : DotDims S65536x4x4 S65536x4x4 S65536x4x4 where
  lhsContracting := [2]
  rhsContracting := [1]
  lhsNonContracting := [1]
  rhsNonContracting := [2]
  lhsBatch := [0]
  rhsBatch := [0]
  wf := dot_S65536x4x4_S65536x4x4_S65536x4x4_2_1_1_2_0_0_wf

class Facts : Prop extends Facts₀ where

variable [Facts]
-- ==== Proof.KBlocks.lean ====
/-
  The arrays the region finds and the blocks the pipeline hands the body: the poses and the body translations arrive
  transposed (batch axis last) and with the batch axis split as 512 rows of 128 lanes, so batch element
  `128 * row + lane` sits at (row, lane); grid point `t` sees rows `64 * t … 64 * t + 63`.
-/
import proofs.«127147_j62156766707902_2_alg».proof.Proof.KernelIdealFrameP
import Idealize.ShloMosaic.Lib.Pipeline.Value
import Idealize.ShloMosaic.Lib.StableHlo.Run
import Idealize.ShloMosaic.Lib.Tactic
import Idealize.ShloMosaic.Lib.ValueIdx

noncomputable section

namespace Cert.KernelIdeal.KRun

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- Batch element `128 * row + lane`. -/
def batchOf (row : Fin 512) (l : Fin 128) : Fin 65536 := ⟨128 * row.val + l.val, by omega⟩

/-- Row `64 * t + s` of the 512: row `s` of grid point `t`'s block. -/
def rowOf (t : Fin cfg0.N) (s : Fin 64) : Fin 512 :=
  ⟨64 * t.val + s.val, by have h : t.val < 8 := lt_of_lt_of_eq t.isLt (N_0 : cfg0.N = 8); omega⟩

/-- Transposing [65536,24,3] to [24,3,65536] and splitting the long axis as [512,128]: entry (j, k, row, lane) is
    the argument's entry (128 * row + lane, j, k). -/
theorem tiled3_apply (x : S65536x24x3.Idx → EReal) (j : Fin 24) (k : Fin 3) (row : Fin 512) (l : Fin 128) :
    shapeCast S24x3x512x128 (transpose S24x3x65536 [1, 2, 0] x transposes_S65536x24x3_S24x3x65536_1_2_0) shapeCasts_S24x3x65536_S24x3x512x128 (ix4 j k row l)
      = x (ix3 (batchOf row l) j k) := by
  refine (shapeCast_apply _ _ _ (ix3 j k (batchOf row l)) ?_).trans ?_
  · rw [Shape.rowMajor_val_three, Shape.rowMajor_val_four]
    show (j.val * 3 + k.val) * 65536 + (128 * row.val + l.val) = ((j.val * 3 + k.val) * 512 + row.val) * 128 + l.val
    omega
  · refine transpose_apply _ _ _ _ (ix3 (batchOf row l) j k) ?_
    intro b
    match b with
    | ⟨0, _⟩ => rfl
    | ⟨1, _⟩ => rfl
    | ⟨2, _⟩ => rfl

/-- The same for the body translations: [65536,3] to [3,65536] to [3,512,128]. -/
theorem tiled2_apply (x : S65536x3.Idx → EReal) (k : Fin 3) (row : Fin 512) (l : Fin 128) :
    shapeCast S3x512x128 (transpose S3x65536 [1, 0] x transposes_S65536x3_S3x65536_1_0) shapeCasts_S3x65536_S3x512x128 (ix3 k row l)
      = x (ix2 (batchOf row l) k) := by
  refine (shapeCast_apply _ _ _ (ix2 k (batchOf row l)) ?_).trans ?_
  · rw [Shape.rowMajor_val_two, Shape.rowMajor_val_three]
    show k.val * 65536 + (128 * row.val + l.val) = (k.val * 512 + row.val) * 128 + l.val
    omega
  · refine transpose_apply _ _ _ _ (ix2 (batchOf row l) k) ?_
    intro b
    match b with
    | ⟨0, _⟩ => rfl
    | ⟨1, _⟩ => rfl

/-- The poses as the region finds them: the argument transposed to [24,3,65536], then cast to [24,3,512,128]. -/
theorem V_v1_eq (c : Dev nD) :
    (V m c main_v1 : S24x3x512x128.Idx → EReal)
      = shapeCast S24x3x512x128 (transpose S24x3x65536 [1, 2, 0] (m ((c : Thread nD τ).loc main_arg1)) transposes_S65536x24x3_S24x3x65536_1_2_0) shapeCasts_S24x3x65536_S24x3x512x128 := by
  show StableHlo.after hostOps0 (fun b => m (c, b)) (Proc.devRef .tc main_v1) = _
  after_results
  rfl

/-- The body translations as the region finds them. -/
theorem V_v3_eq (c : Dev nD) :
    (V m c main_v3 : S3x512x128.Idx → EReal)
      = shapeCast S3x512x128 (transpose S3x65536 [1, 0] (m ((c : Thread nD τ).loc main_arg2)) transposes_S65536x3_S3x65536_1_0) shapeCasts_S3x65536_S3x512x128 := by
  show StableHlo.after hostOps0 (fun b => m (c, b)) (Proc.devRef .tc main_v3) = _
  after_results
  rfl

theorem V_v1_apply (c : Dev nD) (j : Fin 24) (k : Fin 3) (row : Fin 512) (l : Fin 128) :
    (V m c main_v1 : S24x3x512x128.Idx → EReal) (ix4 j k row l) = m ((c : Thread nD τ).loc main_arg1) (ix3 (batchOf row l) j k) := by
  rw [V_v1_eq]; exact tiled3_apply _ j k row l

theorem V_v3_apply (c : Dev nD) (k : Fin 3) (row : Fin 512) (l : Fin 128) :
    (V m c main_v3 : S3x512x128.Idx → EReal) (ix3 k row l) = m ((c : Thread nD τ).loc main_arg2) (ix2 (batchOf row l) k) := by
  rw [V_v3_eq]; exact tiled2_apply _ k row l

/-- The printed index maps over the grid: only the row axis moves, by one block per point. -/
theorem idx_facts : ∀ t : Fin cfg0.N,
    win0_0.index t (0 : Fin 4) = 0 ∧ win0_0.index t (1 : Fin 4) = 0 ∧ win0_0.index t (2 : Fin 4) = t.val ∧ win0_0.index t (3 : Fin 4) = 0
    ∧ win0_1.index t (0 : Fin 2) = 0 ∧ win0_1.index t (1 : Fin 2) = 0
    ∧ win0_2.index t (0 : Fin 3) = 0 ∧ win0_2.index t (1 : Fin 3) = t.val ∧ win0_2.index t (2 : Fin 3) = 0
    ∧ win0_3.index t (0 : Fin 4) = 0 ∧ win0_3.index t (1 : Fin 4) = 0 ∧ win0_3.index t (2 : Fin 4) = t.val ∧ win0_3.index t (3 : Fin 4) = 0 :=
  (by decide +kernel : ∀ t : Fin grid0.N, _)

/-- Grid point `t`'s block of the poses: rows `64 * t … 64 * t + 63`. -/
theorem iblk0_apply (c : Dev nD) (t : Fin cfg0.N) (j : Fin 24) (k : Fin 3) (s : Fin 64) (l : Fin 128) :
    (iblk m c 0 t : S24x3x64x128.Idx → EReal) (ix4 j k s l) = (V m c main_v1 : S24x3x512x128.Idx → EReal) (ix4 j k (rowOf t s) l) := by
  obtain ⟨e0, e1, e2, e3, -⟩ := idx_facts t
  unfold iblk
  rw [View.read_apply]
  show V m c main_v1 _ = V m c main_v1 _
  congr 1
  funext a; apply Fin.ext
  match a with
  | ⟨0, _⟩ => show win0_0.index t (0 : Fin 4) * 24 + 1 * j.val = j.val; rw [e0]; omega
  | ⟨1, _⟩ => show win0_0.index t (1 : Fin 4) * 3 + 1 * k.val = k.val; rw [e1]; omega
  | ⟨2, _⟩ => show win0_0.index t (2 : Fin 4) * 64 + 1 * s.val = 64 * t.val + s.val; rw [e2]; omega
  | ⟨3, _⟩ => show win0_0.index t (3 : Fin 4) * 128 + 1 * l.val = l.val; rw [e3]; omega

/-- The offsets' block is the whole table at every point. -/
theorem iblk1_apply (c : Dev nD) (t : Fin cfg0.N) (j : Fin 24) (k : Fin 3) :
    (iblk m c 1 t : S24x3.Idx → EReal) (ix2 j k) = m ((c : Thread nD τ).loc main_arg0) (ix2 j k) := by
  obtain ⟨-, -, -, -, e0, e1, -⟩ := idx_facts t
  unfold iblk
  rw [View.read_apply]
  show V m c main_arg0 _ = _
  rw [V_main_arg0]
  congr 1
  funext a; apply Fin.ext
  match a with
  | ⟨0, _⟩ => show win0_1.index t (0 : Fin 2) * 24 + 1 * j.val = j.val; rw [e0]; omega
  | ⟨1, _⟩ => show win0_1.index t (1 : Fin 2) * 3 + 1 * k.val = k.val; rw [e1]; omega

/-- Grid point `t`'s block of the body translations. -/
theorem iblk2_apply (c : Dev nD) (t : Fin cfg0.N) (k : Fin 3) (s : Fin 64) (l : Fin 128) :
    (iblk m c 2 t : S3x64x128.Idx → EReal) (ix3 k s l) = (V m c main_v3 : S3x512x128.Idx → EReal) (ix3 k (rowOf t s) l) := by
  obtain ⟨-, -, -, -, -, -, e0, e1, e2, -⟩ := idx_facts t
  unfold iblk
  rw [View.read_apply]
  show V m c main_v3 _ = V m c main_v3 _
  congr 1
  funext a; apply Fin.ext
  match a with
  | ⟨0, _⟩ => show win0_2.index t (0 : Fin 3) * 3 + 1 * k.val = k.val; rw [e0]; omega
  | ⟨1, _⟩ => show win0_2.index t (1 : Fin 3) * 64 + 1 * s.val = 64 * t.val + s.val; rw [e1]; omega
  | ⟨2, _⟩ => show win0_2.index t (2 : Fin 3) * 128 + 1 * l.val = l.val; rw [e2]; omega

end Cert.KernelIdeal.KRun

end
-- ==== Proof.FKSpec.lean ====
/-
  Forward kinematics of a 24-joint tree, for ONE batch element, on the extended reals, written twice.

  The first form follows the tiled program: an axis-angle vector `v` becomes a rotation matrix by the expanded
  Rodrigues formula (`rod`: with `a = |v + ε|`, `r = v / a`, the nine entries `1 - (1 - cos a)(r_y² + r_z²)`,
  `-sin a · r_z + (1 - cos a) r_x r_y`, …), and a joint's global transform is its parent's rotation times its own,
  its translation the parent's rotation applied to the joint's offset plus the parent's translation (`tfStep`); the
  root's transform is its own rotation and offset (`tfRoot`). The position of joint `j` is the translation of its
  transform plus the body translation (`outK`).

  The second form follows the matrix program: the rotation is `I + sin a · K + (1 - cos a) · K K` with `K` the
  cross-product matrix of `r` (`rodR`), a joint's local transform the 4×4 matrix `[[R, o], [0 0 0 1]]` (`st`), a
  joint's global transform its parent's times its own (`mul4`), and the position the last column's first three
  entries plus the body translation (`outR`).

  The tree: joint `j`'s parent is `![-, 0, 0, 0, 1, 2, 3, 4, 5, 6, 7, 8, 9, 9, 9, 12, 13, 14, 16, 17, 18, 19, 20, 21] j`;
  both forms are written out joint by joint in that order.
-/
import Idealize.ShloMosaic.PureOps.Ideal
import Mathlib.Algebra.BigOperators.Fin

noncomputable section

namespace Cert.FK

open Idealize.ShloMosaic

/-- The words the programs use: `1.0`, `0.0` and the `1e-8` added to every component before the norm. -/
abbrev one : EReal := Ideal.ofBits .f32 0x3F800000#32
abbrev zero : EReal := Ideal.ofBits .f32 0x00000000#32
abbrev eps : EReal := Ideal.ofBits .f32 0x322BCC77#32

/-! ## The tiled form -/

/-- A 3×3 matrix as nine entries. -/
structure Rot where
  r00 : EReal
  r01 : EReal
  r02 : EReal
  r10 : EReal
  r11 : EReal
  r12 : EReal
  r20 : EReal
  r21 : EReal
  r22 : EReal

/-- A rigid transform: rotation entries and a translation. -/
structure Tf where
  n00 : EReal
  n01 : EReal
  n02 : EReal
  n10 : EReal
  n11 : EReal
  n12 : EReal
  n20 : EReal
  n21 : EReal
  n22 : EReal
  tx : EReal
  ty : EReal
  tz : EReal

/-- The angle: the norm of `v + ε`. -/
def ang (v0 v1 v2 : EReal) : EReal :=
  Ideal.sqrt (((v0 + eps) * (v0 + eps) + (v1 + eps) * (v1 + eps)) + (v2 + eps) * (v2 + eps))

/-- Rodrigues' rotation matrix, expanded entry by entry. -/
def rod (v0 v1 v2 : EReal) : Rot where
  r00 := one - (one - Ideal.cos (ang v0 v1 v2)) * (Ideal.div v1 (ang v0 v1 v2) * Ideal.div v1 (ang v0 v1 v2) + Ideal.div v2 (ang v0 v1 v2) * Ideal.div v2 (ang v0 v1 v2))
  r01 := (zero - Ideal.sin (ang v0 v1 v2)) * Ideal.div v2 (ang v0 v1 v2) + (one - Ideal.cos (ang v0 v1 v2)) * Ideal.div v0 (ang v0 v1 v2) * Ideal.div v1 (ang v0 v1 v2)
  r02 := Ideal.sin (ang v0 v1 v2) * Ideal.div v1 (ang v0 v1 v2) + (one - Ideal.cos (ang v0 v1 v2)) * Ideal.div v0 (ang v0 v1 v2) * Ideal.div v2 (ang v0 v1 v2)
  r10 := Ideal.sin (ang v0 v1 v2) * Ideal.div v2 (ang v0 v1 v2) + (one - Ideal.cos (ang v0 v1 v2)) * Ideal.div v0 (ang v0 v1 v2) * Ideal.div v1 (ang v0 v1 v2)
  r11 := one - (one - Ideal.cos (ang v0 v1 v2)) * (Ideal.div v0 (ang v0 v1 v2) * Ideal.div v0 (ang v0 v1 v2) + Ideal.div v2 (ang v0 v1 v2) * Ideal.div v2 (ang v0 v1 v2))
  r12 := (zero - Ideal.sin (ang v0 v1 v2)) * Ideal.div v0 (ang v0 v1 v2) + (one - Ideal.cos (ang v0 v1 v2)) * Ideal.div v1 (ang v0 v1 v2) * Ideal.div v2 (ang v0 v1 v2)
  r20 := (zero - Ideal.sin (ang v0 v1 v2)) * Ideal.div v1 (ang v0 v1 v2) + (one - Ideal.cos (ang v0 v1 v2)) * Ideal.div v0 (ang v0 v1 v2) * Ideal.div v2 (ang v0 v1 v2)
  r21 := Ideal.sin (ang v0 v1 v2) * Ideal.div v0 (ang v0 v1 v2) + (one - Ideal.cos (ang v0 v1 v2)) * Ideal.div v1 (ang v0 v1 v2) * Ideal.div v2 (ang v0 v1 v2)
  r22 := one - (one - Ideal.cos (ang v0 v1 v2)) * (Ideal.div v0 (ang v0 v1 v2) * Ideal.div v0 (ang v0 v1 v2) + Ideal.div v1 (ang v0 v1 v2) * Ideal.div v1 (ang v0 v1 v2))

/-- The root's transform: its own rotation, its offset. -/
def tfRoot (R : Rot) (ox oy oz : EReal) : Tf :=
  ⟨R.r00, R.r01, R.r02, R.r10, R.r11, R.r12, R.r20, R.r21, R.r22, ox, oy, oz⟩

/-- A child's transform from its parent's `P`, its own rotation `R` and its offset. -/
def tfStep (P : Tf) (R : Rot) (ox oy oz : EReal) : Tf where
  n00 := P.n00 * R.r00 + P.n01 * R.r10 + P.n02 * R.r20
  n01 := P.n00 * R.r01 + P.n01 * R.r11 + P.n02 * R.r21
  n02 := P.n00 * R.r02 + P.n01 * R.r12 + P.n02 * R.r22
  n10 := P.n10 * R.r00 + P.n11 * R.r10 + P.n12 * R.r20
  n11 := P.n10 * R.r01 + P.n11 * R.r11 + P.n12 * R.r21
  n12 := P.n10 * R.r02 + P.n11 * R.r12 + P.n12 * R.r22
  n20 := P.n20 * R.r00 + P.n21 * R.r10 + P.n22 * R.r20
  n21 := P.n20 * R.r01 + P.n21 * R.r11 + P.n22 * R.r21
  n22 := P.n20 * R.r02 + P.n21 * R.r12 + P.n22 * R.r22
  tx := P.n00 * ox + P.n01 * oy + P.n02 * oz + P.tx
  ty := P.n10 * ox + P.n11 * oy + P.n12 * oz + P.ty
  tz := P.n20 * ox + P.n21 * oy + P.n22 * oz + P.tz

/-- Joint `j`'s own rotation. -/
def rodJ (pose : Fin 24 → Fin 3 → EReal) (j : Fin 24) : Rot := rod (pose j 0) (pose j 1) (pose j 2)

def tf0 (pose off : Fin 24 → Fin 3 → EReal) : Tf := tfRoot (rodJ pose 0) (off 0 0) (off 0 1) (off 0 2)
def tf1 (pose off : Fin 24 → Fin 3 → EReal) : Tf := tfStep (tf0 pose off) (rodJ pose 1) (off 1 0) (off 1 1) (off 1 2)
def tf2 (pose off : Fin 24 → Fin 3 → EReal) : Tf := tfStep (tf0 pose off) (rodJ pose 2) (off 2 0) (off 2 1) (off 2 2)
def tf3 (pose off : Fin 24 → Fin 3 → EReal) : Tf := tfStep (tf0 pose off) (rodJ pose 3) (off 3 0) (off 3 1) (off 3 2)
def tf4 (pose off : Fin 24 → Fin 3 → EReal) : Tf := tfStep (tf1 pose off) (rodJ pose 4) (off 4 0) (off 4 1) (off 4 2)
def tf5 (pose off : Fin 24 → Fin 3 → EReal) : Tf := tfStep (tf2 pose off) (rodJ pose 5) (off 5 0) (off 5 1) (off 5 2)
def tf6 (pose off : Fin 24 → Fin 3 → EReal) : Tf := tfStep (tf3 pose off) (rodJ pose 6) (off 6 0) (off 6 1) (off 6 2)
def tf7 (pose off : Fin 24 → Fin 3 → EReal) : Tf := tfStep (tf4 pose off) (rodJ pose 7) (off 7 0) (off 7 1) (off 7 2)
def tf8 (pose off : Fin 24 → Fin 3 → EReal) : Tf := tfStep (tf5 pose off) (rodJ pose 8) (off 8 0) (off 8 1) (off 8 2)
def tf9 (pose off : Fin 24 → Fin 3 → EReal) : Tf := tfStep (tf6 pose off) (rodJ pose 9) (off 9 0) (off 9 1) (off 9 2)
def tf10 (pose off : Fin 24 → Fin 3 → EReal) : Tf := tfStep (tf7 pose off) (rodJ pose 10) (off 10 0) (off 10 1) (off 10 2)
def tf11 (pose off : Fin 24 → Fin 3 → EReal) : Tf := tfStep (tf8 pose off) (rodJ pose 11) (off 11 0) (off 11 1) (off 11 2)
def tf12 (pose off : Fin 24 → Fin 3 → EReal) : Tf := tfStep (tf9 pose off) (rodJ pose 12) (off 12 0) (off 12 1) (off 12 2)
def tf13 (pose off : Fin 24 → Fin 3 → EReal) : Tf := tfStep (tf9 pose off) (rodJ pose 13) (off 13 0) (off 13 1) (off 13 2)
def tf14 (pose off : Fin 24 → Fin 3 → EReal) : Tf := tfStep (tf9 pose off) (rodJ pose 14) (off 14 0) (off 14 1) (off 14 2)
def tf15 (pose off : Fin 24 → Fin 3 → EReal) : Tf := tfStep (tf12 pose off) (rodJ pose 15) (off 15 0) (off 15 1) (off 15 2)
def tf16 (pose off : Fin 24 → Fin 3 → EReal) : Tf := tfStep (tf13 pose off) (rodJ pose 16) (off 16 0) (off 16 1) (off 16 2)
def tf17 (pose off : Fin 24 → Fin 3 → EReal) : Tf := tfStep (tf14 pose off) (rodJ pose 17) (off 17 0) (off 17 1) (off 17 2)
def tf18 (pose off : Fin 24 → Fin 3 → EReal) : Tf := tfStep (tf16 pose off) (rodJ pose 18) (off 18 0) (off 18 1) (off 18 2)
def tf19 (pose off : Fin 24 → Fin 3 → EReal) : Tf := tfStep (tf17 pose off) (rodJ pose 19) (off 19 0) (off 19 1) (off 19 2)
def tf20 (pose off : Fin 24 → Fin 3 → EReal) : Tf := tfStep (tf18 pose off) (rodJ pose 20) (off 20 0) (off 20 1) (off 20 2)
def tf21 (pose off : Fin 24 → Fin 3 → EReal) : Tf := tfStep (tf19 pose off) (rodJ pose 21) (off 21 0) (off 21 1) (off 21 2)
def tf22 (pose off : Fin 24 → Fin 3 → EReal) : Tf := tfStep (tf20 pose off) (rodJ pose 22) (off 22 0) (off 22 1) (off 22 2)
def tf23 (pose off : Fin 24 → Fin 3 → EReal) : Tf := tfStep (tf21 pose off) (rodJ pose 23) (off 23 0) (off 23 1) (off 23 2)

/-- All 24 transforms. -/
def tfAll (pose off : Fin 24 → Fin 3 → EReal) : Fin 24 → Tf :=
  ![tf0 pose off, tf1 pose off, tf2 pose off, tf3 pose off, tf4 pose off, tf5 pose off, tf6 pose off, tf7 pose off,
    tf8 pose off, tf9 pose off, tf10 pose off, tf11 pose off, tf12 pose off, tf13 pose off, tf14 pose off, tf15 pose off,
    tf16 pose off, tf17 pose off, tf18 pose off, tf19 pose off, tf20 pose off, tf21 pose off, tf22 pose off, tf23 pose off]

/-- A transform's translation, by component. -/
def Tf.t (T : Tf) : Fin 3 → EReal := ![T.tx, T.ty, T.tz]

/-- The tiled form's position of joint `j`, component `c`. -/
def outK (pose off : Fin 24 → Fin 3 → EReal) (tr : Fin 3 → EReal) (j : Fin 24) (c : Fin 3) : EReal :=
  (tfAll pose off j).t c + tr c

/-! ## The matrix form -/

/-- The angle, as a sum over the three components from zero. -/
def angR (v : Fin 3 → EReal) : EReal := Ideal.sqrt (zero + ∑ k : Fin 3, (v k + eps) * (v k + eps))

/-- The unit axis. -/
def dirR (v : Fin 3 → EReal) (k : Fin 3) : EReal := Ideal.div (v k) (angR v)

/-- The cross-product matrix of `d`. -/
def kmat (d : Fin 3 → EReal) : Fin 3 → Fin 3 → EReal :=
  ![![zero, -d 2, d 1], ![d 2, zero, -d 0], ![-d 1, d 0, zero]]

/-- The identity matrix. -/
def eye (a b : Fin 3) : EReal := if a = b then 1 else 0

/-- `I + sin a · K + (1 - cos a) · K K`. -/
def rodR (v : Fin 3 → EReal) (a b : Fin 3) : EReal :=
  (eye a b + Ideal.sin (angR v) * kmat (dirR v) a b)
    + (one - Ideal.cos (angR v)) * (0 + ∑ k : Fin 3, kmat (dirR v) a k * kmat (dirR v) k b)

/-- The last row of a homogeneous transform. -/
def bottom : Fin 4 → EReal := ![zero, zero, zero, one]

/-- `[[R, o], [0 0 0 1]]`. -/
def st (R : Fin 3 → Fin 3 → EReal) (o : Fin 3 → EReal) (r c : Fin 4) : EReal :=
  if hr : r.val < 3 then (if hc : c.val < 3 then R ⟨r.val, hr⟩ ⟨c.val, hc⟩ else o ⟨r.val, hr⟩) else bottom c

/-- The product of two 4×4 matrices, as a sum from zero. -/
def mul4 (A B : Fin 4 → Fin 4 → EReal) (r c : Fin 4) : EReal := 0 + ∑ k : Fin 4, A r k * B k c

def M0 (pose off : Fin 24 → Fin 3 → EReal) : Fin 4 → Fin 4 → EReal := st (rodR (pose 0)) (off 0)
def M1 (pose off : Fin 24 → Fin 3 → EReal) : Fin 4 → Fin 4 → EReal := mul4 (M0 pose off) (st (rodR (pose 1)) (off 1))
def M2 (pose off : Fin 24 → Fin 3 → EReal) : Fin 4 → Fin 4 → EReal := mul4 (M0 pose off) (st (rodR (pose 2)) (off 2))
def M3 (pose off : Fin 24 → Fin 3 → EReal) : Fin 4 → Fin 4 → EReal := mul4 (M0 pose off) (st (rodR (pose 3)) (off 3))
def M4 (pose off : Fin 24 → Fin 3 → EReal) : Fin 4 → Fin 4 → EReal := mul4 (M1 pose off) (st (rodR (pose 4)) (off 4))
def M5 (pose off : Fin 24 → Fin 3 → EReal) : Fin 4 → Fin 4 → EReal := mul4 (M2 pose off) (st (rodR (pose 5)) (off 5))
def M6 (pose off : Fin 24 → Fin 3 → EReal) : Fin 4 → Fin 4 → EReal := mul4 (M3 pose off) (st (rodR (pose 6)) (off 6))
def M7 (pose off : Fin 24 → Fin 3 → EReal) : Fin 4 → Fin 4 → EReal := mul4 (M4 pose off) (st (rodR (pose 7)) (off 7))
def M8 (pose off : Fin 24 → Fin 3 → EReal) : Fin 4 → Fin 4 → EReal := mul4 (M5 pose off) (st (rodR (pose 8)) (off 8))
def M9 (pose off : Fin 24 → Fin 3 → EReal) : Fin 4 → Fin 4 → EReal := mul4 (M6 pose off) (st (rodR (pose 9)) (off 9))
def M10 (pose off : Fin 24 → Fin 3 → EReal) : Fin 4 → Fin 4 → EReal := mul4 (M7 pose off) (st (rodR (pose 10)) (off 10))
def M11 (pose off : Fin 24 → Fin 3 → EReal) : Fin 4 → Fin 4 → EReal := mul4 (M8 pose off) (st (rodR (pose 11)) (off 11))
def M12 (pose off : Fin 24 → Fin 3 → EReal) : Fin 4 → Fin 4 → EReal := mul4 (M9 pose off) (st (rodR (pose 12)) (off 12))
def M13 (pose off : Fin 24 → Fin 3 → EReal) : Fin 4 → Fin 4 → EReal := mul4 (M9 pose off) (st (rodR (pose 13)) (off 13))
def M14 (pose off : Fin 24 → Fin 3 → EReal) : Fin 4 → Fin 4 → EReal := mul4 (M9 pose off) (st (rodR (pose 14)) (off 14))
def M15 (pose off : Fin 24 → Fin 3 → EReal) : Fin 4 → Fin 4 → EReal := mul4 (M12 pose off) (st (rodR (pose 15)) (off 15))
def M16 (pose off : Fin 24 → Fin 3 → EReal) : Fin 4 → Fin 4 → EReal := mul4 (M13 pose off) (st (rodR (pose 16)) (off 16))
def M17 (pose off : Fin 24 → Fin 3 → EReal) : Fin 4 → Fin 4 → EReal := mul4 (M14 pose off) (st (rodR (pose 17)) (off 17))
def M18 (pose off : Fin 24 → Fin 3 → EReal) : Fin 4 → Fin 4 → EReal := mul4 (M16 pose off) (st (rodR (pose 18)) (off 18))
def M19 (pose off : Fin 24 → Fin 3 → EReal) : Fin 4 → Fin 4 → EReal := mul4 (M17 pose off) (st (rodR (pose 19)) (off 19))
def M20 (pose off : Fin 24 → Fin 3 → EReal) : Fin 4 → Fin 4 → EReal := mul4 (M18 pose off) (st (rodR (pose 20)) (off 20))
def M21 (pose off : Fin 24 → Fin 3 → EReal) : Fin 4 → Fin 4 → EReal := mul4 (M19 pose off) (st (rodR (pose 21)) (off 21))
def M22 (pose off : Fin 24 → Fin 3 → EReal) : Fin 4 → Fin 4 → EReal := mul4 (M20 pose off) (st (rodR (pose 22)) (off 22))
def M23 (pose off : Fin 24 → Fin 3 → EReal) : Fin 4 → Fin 4 → EReal := mul4 (M21 pose off) (st (rodR (pose 23)) (off 23))

/-- All 24 global transforms. -/
def MAll (pose off : Fin 24 → Fin 3 → EReal) : Fin 24 → Fin 4 → Fin 4 → EReal :=
  ![M0 pose off, M1 pose off, M2 pose off, M3 pose off, M4 pose off, M5 pose off, M6 pose off, M7 pose off,
    M8 pose off, M9 pose off, M10 pose off, M11 pose off, M12 pose off, M13 pose off, M14 pose off, M15 pose off,
    M16 pose off, M17 pose off, M18 pose off, M19 pose off, M20 pose off, M21 pose off, M22 pose off, M23 pose off]

/-- The matrix form's position of joint `j`, component `c`. -/
def outR (pose off : Fin 24 → Fin 3 → EReal) (tr : Fin 3 → EReal) (j : Fin 24) (c : Fin 3) : EReal :=
  MAll pose off j ⟨c.val, by omega⟩ 3 + tr c

end Cert.FK

end
-- ==== Proof.FKRes.lean ====
/-
  The positions as ONE function of the three argument arrays, in both forms: entry (b, j, c) of the result is the
  position of joint `j`, component `c`, computed from row `b` of the poses, the offsets, and row `b` of the body
  translations — by the tiled form (`resK`) or by the matrix form (`resR`).
-/
import proofs.«127147_j62156766707902_2_alg».proof.Proof.FKSpec
import Idealize.ShloMosaic.Lib.ValueIdx

noncomputable section

namespace Cert.FK

open Idealize.ShloMosaic Idealize.ShloMosaic.ValueIdx

/-- The shapes of the offsets, the poses (and the positions), the body translations. -/
abbrev SOff : Shape := ⟨2, ![24, 3]⟩
abbrev SPose : Shape := ⟨3, ![65536, 24, 3]⟩
abbrev STr : Shape := ⟨2, ![65536, 3]⟩

/-- The offsets as a table. -/
def offAt (A0 : SOff.Idx → EReal) : Fin 24 → Fin 3 → EReal := fun j c => A0 (ix2 j c)
/-- Row `b` of the poses. -/
def poseAt (A1 : SPose.Idx → EReal) (b : Fin 65536) : Fin 24 → Fin 3 → EReal := fun j c => A1 (ix3 b j c)
/-- Row `b` of the body translations. -/
def trAt (A2 : STr.Idx → EReal) (b : Fin 65536) : Fin 3 → EReal := fun c => A2 (ix2 b c)

/-- The positions by the tiled form. -/
def resK (A0 : SOff.Idx → EReal) (A1 : SPose.Idx → EReal) (A2 : STr.Idx → EReal) : SPose.Idx → EReal :=
  fun i => outK (poseAt A1 (i 0)) (offAt A0) (trAt A2 (i 0)) (i 1) (i 2)

/-- The positions by the matrix form. -/
def resR (A0 : SOff.Idx → EReal) (A1 : SPose.Idx → EReal) (A2 : STr.Idx → EReal) : SPose.Idx → EReal :=
  fun i => outR (poseAt A1 (i 0)) (offAt A0) (trAt A2 (i 0)) (i 1) (i 2)

theorem resK_apply (A0 : SOff.Idx → EReal) (A1 : SPose.Idx → EReal) (A2 : STr.Idx → EReal) (b : Fin 65536) (j : Fin 24) (c : Fin 3) :
    resK A0 A1 A2 (ix3 b j c) = outK (poseAt A1 b) (offAt A0) (trAt A2 b) j c := rfl

theorem resR_apply (A0 : SOff.Idx → EReal) (A1 : SPose.Idx → EReal) (A2 : STr.Idx → EReal) (b : Fin 65536) (j : Fin 24) (c : Fin 3) :
    resR A0 A1 A2 (ix3 b j c) = outR (poseAt A1 b) (offAt A0) (trAt A2 b) j c := rfl

end Cert.FK

end
-- ==== Proof.KLane.lean ====
/-
  One lane of a block: the 24×3 pose entries, the offsets table and the three body-translation entries that the
  tiled program's value at position (s, l) of a [64,128] tile depends on.
-/
import proofs.«127147_j62156766707902_2_alg».proof.KernelIdeal
import proofs.«127147_j62156766707902_2_alg».proof.Proof.FKSpec
import Idealize.ShloMosaic.Lib.ValueIdx

noncomputable section

namespace Cert.KernelIdeal.KLane

open Idealize.ShloMosaic Idealize.ShloMosaic.ValueIdx Cert.KernelIdeal

/-- The pose entries of lane (s, l) of a poses block. -/
abbrev laneP (x0 : Vec Ideal S24x3x64x128 .f32) (s : Fin 64) (l : Fin 128) : Fin 24 → Fin 3 → EReal :=
  fun j' c' => x0 (ix4 j' c' s l)
/-- The offsets table. -/
abbrev offT (x1 : Vec Ideal S24x3 .f32) : Fin 24 → Fin 3 → EReal := fun j' c' => x1 (ix2 j' c')
/-- The body-translation entries of lane (s, l) of a translations block. -/
abbrev laneT (x2 : Vec Ideal S3x64x128 .f32) (s : Fin 64) (l : Fin 128) : Fin 3 → EReal := fun c' => x2 (ix3 c' s l)

end Cert.KernelIdeal.KLane

end
-- ==== Proof.KLanes.lean ====
/-
  Reading the tiled program's values at ONE lane. Every value the program computes is a [64, 128] tile (or the same
  tile behind unit axes), and every operation acts lane by lane; so a tile read at the lane `(s, l)` is the same
  extended-real expression of the inputs read at that lane. This file states, for exactly the operations and shapes
  the program uses, what each reads at explicit coordinates, the two facts about reading a row of a per-joint
  scratch buffer back after a list of row stores (the newest store is another row: skip it; it is this row: its
  payload), and the steps that open the named intermediate values of the program's run.
-/
import proofs.«127147_j62156766707902_2_alg».proof.Proof.Gen.KernelIdeal.Frame.RunA
import Idealize.ShloMosaic.Lib.Pipeline.Value
import Idealize.ShloMosaic.Lib.Pipeline.FrameBody
import Idealize.ShloMosaic.Lib.ValueIdx
import Idealize.ShloMosaic.Lib.ValueLayout
import Lean

open Lean Elab Tactic Meta

namespace Cert.KernelIdeal.KLanes

/-! ## Opening the run's names -/

/-- A named intermediate value of the run (a component `sl` before the last). -/
def isRunName (n : Name) : Bool := n.components.dropLast.any (· == `sl)

def lastStr (n : Name) : String := match n with | .str _ s => s | _ => ""

/-- Every named value except the lists of stores, and every named payload. -/
def openAll (n : Name) : Bool :=
  (isRunName n && !(lastStr n).startsWith "HS") || (lastStr n).startsWith "k0_pay"

/-- The lists of stores only. -/
def openStores (n : Name) : Bool := isRunName n && (lastStr n).startsWith "HS"

/-- The named payloads and the named shape casts of a stored tile (`v…`), but not the tiles (`r_…`). -/
def openPay (n : Name) : Bool :=
  (isRunName n && (lastStr n).startsWith "v") || (lastStr n).startsWith "k0_pay"

def deltaFix (p : Name → Bool) : TacticM Unit := do
  let g ← getMainGoal
  let mut t ← instantiateMVars (← g.getType)
  for _ in [0:400] do
    let t' ← Meta.deltaExpand t p
    if t' == t then break
    t := t'
  replaceMainGoal [← g.replaceTargetDefEq t]

/-- Unfold, to a fixed point, every named value of the run except the lists of stores, and every named payload. -/
elab "fk_unfold_run" : tactic => deltaFix openAll
/-- The same, but leaving the listed names folded (tiles whose value at the lane is already known). -/
elab "fk_unfold_run_except" "[" ids:ident,* "]" : tactic => do
  let stops ← ids.getElems.mapM fun i => realizeGlobalConstNoOverloadWithInfo i
  deltaFix fun n => openAll n && !stops.contains n
/-- Unfold the named lists of stores to literal lists (their payloads stay folded). -/
elab "fk_unfold_stores" : tactic => deltaFix openStores
/-- Unfold the named payloads and stored shape casts (the tiles they wrap stay folded). -/
elab "fk_unfold_pay" : tactic => deltaFix openPay

end Cert.KernelIdeal.KLanes

noncomputable section

namespace Cert.KernelIdeal.KLanes

open Idealize.ShloMosaic Idealize.ShloMosaic.TcCoe Idealize.SL.Sem Idealize.ShloMosaic.ValueIdx
open Cert.KernelIdeal Cert.KernelIdeal.Gen

variable {α : Type}

/-! ## Lane by lane operations (the arithmetic ones are Lib/ValueIdx.lean's) -/

theorem sqrt_lane {s : Shape} {φ : FTy} (a : FVec Ideal s φ) (i : s.Idx) : sqrt a i = Ideal.sqrt (a i) := rfl
theorem cos_lane {s : Shape} {φ : FTy} (a : FVec Ideal s φ) (i : s.Idx) : cos a i = Ideal.cos (a i) := rfl
theorem sin_lane {s : Shape} {φ : FTy} (a : FVec Ideal s φ) (i : s.Idx) : sin a i = Ideal.sin (a i) := rfl

/-! ## Shape casts that add or drop unit axes -/

theorem cast_1ab_ab (x : S1x64x128.Idx → α) (h : S1x64x128.ShapeCasts S64x128) (s : Fin 64) (l : Fin 128) :
    shapeCast S64x128 x h (ix2 s l) = x (ix3 (0 : Fin 1) s l) := shapeCast_1ab_ab_apply x h s l

theorem cast_ab_1ab (x : S64x128.Idx → α) (h : S64x128.ShapeCasts S1x64x128) (u : Fin 1) (s : Fin 64) (l : Fin 128) :
    shapeCast S1x64x128 x h (ix3 u s l) = x (ix2 s l) := shapeCast_ab_1ab_apply x h u s l

theorem cast_1abc_abc (x : S1x3x64x128.Idx → α) (h : S1x3x64x128.ShapeCasts S3x64x128) (k : Fin 3) (s : Fin 64)
    (l : Fin 128) : shapeCast S3x64x128 x h (ix3 k s l) = x (ix4 (0 : Fin 1) k s l) :=
  shapeCast_1abc_abc_apply x h k s l

theorem cast_abc_abc (x : S3x64x128.Idx → α) (h : S3x64x128.ShapeCasts S3x64x128) : shapeCast S3x64x128 x h = x :=
  shapeCast_self x h

theorem cast_ab_11ab (x : S64x128.Idx → α) (h : S64x128.ShapeCasts S1x1x64x128) (u v : Fin 1) (s : Fin 64)
    (l : Fin 128) : shapeCast S1x1x64x128 x h (ix4 u v s l) = x (ix2 s l) :=
  shapeCast_apply x h _ _ (by
    have hu : u.val = 0 := by omega
    have hv : v.val = 0 := by omega
    rw [Shape.rowMajor_val_four, Shape.rowMajor_val_two]
    show s.val * 128 + l.val = ((u.val * 1 + v.val) * 64 + s.val) * 128 + l.val
    omega)

/-! ## One row of three -/

theorem slice_row (k : ℕ) (hk : k < 3) (x : S3x64x128.Idx → α) (h : S3x64x128.Slices ![k, 0, 0] S1x64x128)
    (u : Fin 1) (s : Fin 64) (l : Fin 128) :
    extractStridedSlice S1x64x128 ![k, 0, 0] x h (ix3 u s l) = x (ix3 (⟨k, hk⟩ : Fin 3) s l) :=
  extractStridedSlice_apply _ x h _ _ fun a => by
    match a with
    | ⟨0, _⟩ => show k = k + u.val; omega
    | ⟨1, _⟩ => show s.val = 0 + s.val; omega
    | ⟨2, _⟩ => show l.val = 0 + l.val; omega

/-! ## The loads from the three inputs -/

/-- Row `j` of the poses. -/
theorem pose_row (arg1 : Memref sig .tc .vmem S24x3x64x128 .f32) (harg1 : arg1.IsWhole)
    (x0 : Vec Ideal S24x3x64x128 .f32) (j : ℕ) (hj : j < 24)
    (inb : ∀ a, (![j, 0, 0, 0] : Fin 4 → ℕ) a + S1x3x64x128.size a ≤ S24x3x64x128.size a)
    (u : Fin 1) (k : Fin 3) (s : Fin 64) (l : Fin 128) :
    View.readAt (Elt Ideal) arg1.view (Rect.unit (s := S24x3x64x128) ![j, 0, 0, 0] S1x3x64x128.size inb).toLoadRect (harg1.unread x0)
        (ix4 u k s l)
      = x0 (ix4 (⟨j, hj⟩ : Fin 24) k s l) := by
  rw [View.readAt_eq_ld, harg1.read_unread]
  show x0 _ = x0 _
  congr 1
  funext a
  apply Fin.ext
  match a with
  | ⟨0, _⟩ => show j + 1 * u.val = j; omega
  | ⟨1, _⟩ => show 0 + 1 * k.val = k.val; omega
  | ⟨2, _⟩ => show 0 + 1 * s.val = s.val; omega
  | ⟨3, _⟩ => show 0 + 1 * l.val = l.val; omega

/-- The whole of the offsets. -/
theorem off_whole (arg2 : Memref sig .tc .vmem S24x3 .f32) (harg2 : arg2.IsWhole) (x1 : Vec Ideal S24x3 .f32)
    (inb : ∀ a, (![0, 0] : Fin 2 → ℕ) a + S24x3.size a ≤ S24x3.size a) (a : Fin 24) (b : Fin 3) :
    View.readAt (Elt Ideal) arg2.view (Rect.unit (s := S24x3) ![0, 0] S24x3.size inb).toLoadRect (harg2.unread x1)
        (ix2 a b) = x1 (ix2 a b) := by
  rw [View.readAt_eq_ld, harg2.read_unread]
  exact congrFun (View.ld_unit_zero (by decide) inb x1) _

/-- The whole of the body translations. -/
theorem tr_whole (arg3 : Memref sig .tc .vmem S3x64x128 .f32) (harg3 : arg3.IsWhole) (x2 : Vec Ideal S3x64x128 .f32)
    (inb : ∀ a, (![0, 0, 0] : Fin 3 → ℕ) a + S3x64x128.size a ≤ S3x64x128.size a)
    (k : Fin 3) (s : Fin 64) (l : Fin 128) :
    View.readAt (Elt Ideal) arg3.view (Rect.unit (s := S3x64x128) ![0, 0, 0] S3x64x128.size inb).toLoadRect (harg3.unread x2)
        (ix3 k s l) = x2 (ix3 k s l) := by
  rw [View.readAt_eq_ld, harg3.read_unread]
  exact congrFun (View.ld_unit_zero (by decide) inb x2) _

/-- One offset as a scalar. -/
theorem off_extract (x : S24x3.Idx → α) (j c : ℕ) (hj : j < 24) (hc : c < 3) (h : S24x3.Slices ![j, c] S1x1)
    (hp : ∀ a, (![0, 0] : Fin 2 → ℕ) a < S1x1.size a) :
    extractAt ![0, 0] (extractStridedSlice S1x1 ![j, c] x h) hp = x (ix2 (⟨j, hj⟩ : Fin 24) (⟨c, hc⟩ : Fin 3)) := by
  unfold extractAt
  exact extractStridedSlice_apply _ x h _ _ fun a => by
    match a with
    | ⟨0, _⟩ => show j = j + 0; omega
    | ⟨1, _⟩ => show c = c + 0; omega

/-! ## Reading a scratch row back -/

/-- The newest store's rectangle is disjoint from the load's: the load reads the earlier stores. -/
theorem row_drop {sg : RefSig} {κ : Kind} {sp : Space} (v : View sg κ sp S24x64x128 .f32) (r : Rect S24x64x128)
    (w : r.shape.Idx → Elt Ideal .f32) (L : List (View.Piece (Elt Ideal) S24x64x128 .f32)) (B : LoadRect S24x64x128)
    (h : Disjoint r.set B.set) : v.readCov (⟨r, w⟩ :: L) B = v.readCov L B :=
  View.readCov_cons_of_disjoint v ⟨r, w⟩ L B h

/-- The newest store is this row: the load reads its payload. -/
theorem row_hit {sg : RefSig} {κ : Kind} {sp : Space} (v : View sg κ sp S24x64x128 .f32) (r : Rect S24x64x128)
    (w : r.shape.Idx → Elt Ideal .f32) (L : List (View.Piece (Elt Ideal) S24x64x128 .f32)) :
    v.readCov (⟨r, w⟩ :: L) r.toLoadRect = w := View.readCov_cons_toLoadRect v r w L

/-- Two different rows of a [24, 64, 128] buffer are disjoint. -/
theorem rows_disjoint (q p : ℕ) (hqp : q ≠ p)
    (inbq : ∀ a, (![q, 0, 0] : Fin 3 → ℕ) a + S1x64x128.size a ≤ S24x64x128.size a)
    (inbp : ∀ a, (![p, 0, 0] : Fin 3 → ℕ) a + S1x64x128.size a ≤ S24x64x128.size a) :
    Disjoint (Rect.unit (s := S24x64x128) ![q, 0, 0] S1x64x128.size inbq).set
      (Rect.unit (s := S24x64x128) ![p, 0, 0] S1x64x128.size inbp).toLoadRect.set :=
  Rect.unit_disjoint (inb := inbq) (inb' := inbp) (0 : Fin 3) (by
    show q + 1 ≤ p ∨ p + 1 ≤ q
    omega)

end Cert.KernelIdeal.KLanes

end

/-- Push the lane index through a tile-level term of the program's operations. Extra rewrite rules (the parent
    joint's tiles at the lane) go in the brackets. (The three rules about loads through a rectangle are given with
    their leading arguments as holes: named bare, the simplifier does not find them.) -/
macro "fk_push" "[" ts:Lean.Parser.Tactic.simpLemma,* "]" : tactic =>
  `(tactic| simp (disch := decide) only [
      Idealize.ShloMosaic.ValueIdx.mulf_apply, Idealize.ShloMosaic.ValueIdx.addf_apply,
      Idealize.ShloMosaic.ValueIdx.subf_apply, Idealize.ShloMosaic.ValueIdx.divf_apply,
      Idealize.ShloMosaic.ValueIdx.broadcast_apply,
      Cert.KernelIdeal.KLanes.sqrt_lane, Cert.KernelIdeal.KLanes.cos_lane, Cert.KernelIdeal.KLanes.sin_lane,
      Idealize.ShloMosaic.Ideal.ofBits_def,
      Cert.KernelIdeal.KLanes.cast_1ab_ab, Cert.KernelIdeal.KLanes.cast_ab_1ab, Cert.KernelIdeal.KLanes.cast_1abc_abc,
      Cert.KernelIdeal.KLanes.cast_abc_abc, Cert.KernelIdeal.KLanes.cast_ab_11ab,
      Cert.KernelIdeal.KLanes.slice_row, Cert.KernelIdeal.KLanes.off_whole _ _ _,
      Cert.KernelIdeal.KLanes.tr_whole _ _ _, Cert.KernelIdeal.KLanes.off_extract,
      Cert.KernelIdeal.KLanes.pose_row _ _ _,
      $ts,*])

/-- Two different rows are disjoint (the side condition of skipping a store). -/
macro "fk_disj" : tactic =>
  `(tactic| (refine Cert.KernelIdeal.KLanes.rows_disjoint _ _ ?_ _ _; exact Nat.ne_of_beq_eq_false rfl))

/-- Resolve every load of a scratch row against the literal lists of stores. -/
macro "fk_rows" : tactic =>
  `(tactic| simp (disch := fk_disj) only [Cert.KernelIdeal.KLanes.row_hit, Cert.KernelIdeal.KLanes.row_drop])

/-- A tile of a joint at a lane against the specification's entry: open the run down to the loads, resolve the loads
    of the parent's rows, push the lane index through (rewriting the parent's tiles by the rules in the brackets),
    and compare. -/
macro "fk_joint" "[" ts:Lean.Parser.Tactic.simpLemma,* "]" : tactic =>
  `(tactic| (fk_unfold_run; fk_unfold_stores; try fk_rows
             fk_unfold_pay; fk_push [$ts,*]; rfl))

/-- The same with the loads of the parent's rows rewritten by the rules in the first brackets (statements of the form
    "this row read after these stores is that payload", the lists of stores still folded); the parent's payloads at
    the lane are rewritten by the rules in the second brackets. -/
macro "fk_joint_ld" "[" ls:Lean.Parser.Tactic.simpLemma,* "]" "[" ts:Lean.Parser.Tactic.simpLemma,* "]" : tactic =>
  `(tactic| (fk_unfold_run; try simp only [$ls,*]
             fk_push [$ts,*]; rfl))

/-- A stored output at a lane: the same, but the joint's own tiles (the names in the first brackets) stay folded and
    are rewritten by the rules in the second brackets. -/
macro "fk_out" "[" ids:ident,* "]" "[" ts:Lean.Parser.Tactic.simpLemma,* "]" : tactic =>
  `(tactic| (fk_unfold_run_except [$ids,*]; fk_push [$ts,*]; rfl))
-- ==== Proof.KRows.lean ====
/-
  A buffer written one slab at a time: what a load of a slab reads after a list of stores (newest first) of whole
  slabs. If the newest store is to a slab separated from the loaded one on some axis, the load reads what the older
  stores left; if the newest store is to the very slab that is loaded, the load reads that store's value.
-/
import Idealize.ShloMosaic.Lib.Pipeline.FrameBody

namespace Cert.KernelIdeal.KRows

open Idealize.ShloMosaic

variable {sig : RefSig} {κ : Kind} {sp : Space} {s : Shape} {e : EltTy} {Val : EltTy → Type} [∀ e, Nonempty (Val e)]

/-- The newest store's rectangle is separated from the loaded one on axis `a`: skip it. -/
theorem readCov_miss (v : View sig κ sp s e) (off size off' size' : Fin s.rank → ℕ) (inb inb')
    (w : (Rect.unit off size inb).shape.Idx → Val e) (L : List (View.Piece Val s e)) (a : Fin s.rank)
    (h : off a + size a ≤ off' a ∨ off' a + size' a ≤ off a) :
    v.readCov ((⟨Rect.unit off size inb, w⟩ : View.Piece Val s e) :: L) (Rect.unit off' size' inb').toLoadRect
      = v.readCov L (Rect.unit off' size' inb').toLoadRect :=
  View.readCov_cons_of_disjoint v _ L _ (Rect.unit_disjoint (inb := inb) (inb' := inb') a h)

/-- The newest store is to the loaded rectangle itself: its value. -/
theorem readCov_hit (v : View sig κ sp s e) (off size : Fin s.rank → ℕ) (inb)
    (w : (Rect.unit off size inb).shape.Idx → Val e) (L : List (View.Piece Val s e)) :
    v.readCov ((⟨Rect.unit off size inb, w⟩ : View.Piece Val s e) :: L) (Rect.unit off size inb).toLoadRect = w :=
  View.readCov_cons_toLoadRect v _ w L

end Cert.KernelIdeal.KRows
-- ==== Proof.KLoads.lean ====
/-
  Which value a joint reads back from its parent's row of each scratch buffer: the rows are written once each, in
  joint order, so the load of row p after the stores so far skips the newer rows and returns what joint p stored.
-/
import proofs.«127147_j62156766707902_2_alg».proof.Proof.Gen.KernelIdeal.Frame.RunA
import proofs.«127147_j62156766707902_2_alg».proof.Proof.KRows
import Idealize.ShloMosaic.PureOps.Ideal

noncomputable section

namespace Cert.KernelIdeal.KLoads

open Idealize.ShloMosaic Idealize.ShloMosaic.TcCoe Idealize.SL.Sem
open Cert.KernelIdeal Cert.KernelIdeal.Gen

theorem ld1_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg5.view.readCov (kernelRun0_A.sl.HS0_1 c arg1 harg1 x0) (Rect.unit (s := S24x64x128) ![0, 0, 0] S1x64x128.size inb_S24x64x128_S1x64x128_0_0_0).toLoadRect
      = (k0_pay29 (kernelRun0_A.sl.r_9 c arg1 harg1 x0)) := by
  unfold kernelRun0_A.sl.HS0_1
  exact KRows.readCov_hit _ _ _ _ _ _

theorem ld1_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg6.view.readCov (kernelRun0_A.sl.HS1_1 c arg1 harg1 x0) (Rect.unit (s := S24x64x128) ![0, 0, 0] S1x64x128.size inb_S24x64x128_S1x64x128_0_0_0).toLoadRect
      = (kernelRun0_A.sl.v98 c arg1 harg1 x0) := by
  unfold kernelRun0_A.sl.HS1_1
  exact KRows.readCov_hit _ _ _ _ _ _

theorem ld1_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg7.view.readCov (kernelRun0_A.sl.HS2_1 c arg1 harg1 x0) (Rect.unit (s := S24x64x128) ![0, 0, 0] S1x64x128.size inb_S24x64x128_S1x64x128_0_0_0).toLoadRect
      = (kernelRun0_A.sl.v101 c arg1 harg1 x0) := by
  unfold kernelRun0_A.sl.HS2_1
  exact KRows.readCov_hit _ _ _ _ _ _

theorem ld1_3 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg8.view.readCov (kernelRun0_A.sl.HS3_1 c arg1 harg1 x0) (Rect.unit (s := S24x64x128) ![0, 0, 0] S1x64x128.size inb_S24x64x128_S1x64x128_0_0_0).toLoadRect
      = (kernelRun0_A.sl.v104 c arg1 harg1 x0) := by
  unfold kernelRun0_A.sl.HS3_1
  exact KRows.readCov_hit _ _ _ _ _ _

theorem ld1_4 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg9.view.readCov (kernelRun0_A.sl.HS4_1 c arg1 harg1 x0) (Rect.unit (s := S24x64x128) ![0, 0, 0] S1x64x128.size inb_S24x64x128_S1x64x128_0_0_0).toLoadRect
      = (kernelRun0_A.sl.v107 c arg1 harg1 x0) := by
  unfold kernelRun0_A.sl.HS4_1
  exact KRows.readCov_hit _ _ _ _ _ _

theorem ld1_5 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg10.view.readCov (kernelRun0_A.sl.HS5_1 c arg1 harg1 x0) (Rect.unit (s := S24x64x128) ![0, 0, 0] S1x64x128.size inb_S24x64x128_S1x64x128_0_0_0).toLoadRect
      = (kernelRun0_A.sl.v110 c arg1 harg1 x0) := by
  unfold kernelRun0_A.sl.HS5_1
  exact KRows.readCov_hit _ _ _ _ _ _

theorem ld1_6 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg11.view.readCov (kernelRun0_A.sl.HS6_1 c arg1 harg1 x0) (Rect.unit (s := S24x64x128) ![0, 0, 0] S1x64x128.size inb_S24x64x128_S1x64x128_0_0_0).toLoadRect
      = (kernelRun0_A.sl.v113 c arg1 harg1 x0) := by
  unfold kernelRun0_A.sl.HS6_1
  exact KRows.readCov_hit _ _ _ _ _ _

theorem ld1_7 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg12.view.readCov (kernelRun0_A.sl.HS7_1 c arg1 harg1 x0) (Rect.unit (s := S24x64x128) ![0, 0, 0] S1x64x128.size inb_S24x64x128_S1x64x128_0_0_0).toLoadRect
      = (kernelRun0_A.sl.v116 c arg1 harg1 x0) := by
  unfold kernelRun0_A.sl.HS7_1
  exact KRows.readCov_hit _ _ _ _ _ _

theorem ld1_8 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg13.view.readCov (kernelRun0_A.sl.HS8_1 c arg1 harg1 x0) (Rect.unit (s := S24x64x128) ![0, 0, 0] S1x64x128.size inb_S24x64x128_S1x64x128_0_0_0).toLoadRect
      = (kernelRun0_A.sl.v119 c arg1 harg1 x0) := by
  unfold kernelRun0_A.sl.HS8_1
  exact KRows.readCov_hit _ _ _ _ _ _

theorem ld1_9 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg14.view.readCov (kernelRun0_A.sl.HS9_1 c arg2 harg2 x1) (Rect.unit (s := S24x64x128) ![0, 0, 0] S1x64x128.size inb_S24x64x128_S1x64x128_0_0_0).toLoadRect
      = (k0_pay38 (kernelRun0_A.sl.r_19 c arg2 harg2 x1)) := by
  unfold kernelRun0_A.sl.HS9_1
  exact KRows.readCov_hit _ _ _ _ _ _

theorem ld1_10 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg15.view.readCov (kernelRun0_A.sl.HS10_1 c arg2 harg2 x1) (Rect.unit (s := S24x64x128) ![0, 0, 0] S1x64x128.size inb_S24x64x128_S1x64x128_0_0_0).toLoadRect
      = (k0_pay39 (kernelRun0_A.sl.r_20 c arg2 harg2 x1)) := by
  unfold kernelRun0_A.sl.HS10_1
  exact KRows.readCov_hit _ _ _ _ _ _

theorem ld1_11 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg16.view.readCov (kernelRun0_A.sl.HS11_1 c arg2 harg2 x1) (Rect.unit (s := S24x64x128) ![0, 0, 0] S1x64x128.size inb_S24x64x128_S1x64x128_0_0_0).toLoadRect
      = (k0_pay40 (kernelRun0_A.sl.r_21 c arg2 harg2 x1)) := by
  unfold kernelRun0_A.sl.HS11_1
  exact KRows.readCov_hit _ _ _ _ _ _

theorem ld2_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg5.view.readCov (kernelRun0_A.sl.HS0_2 c arg1 harg1 arg5 arg6 arg7 x0) (Rect.unit (s := S24x64x128) ![0, 0, 0] S1x64x128.size inb_S24x64x128_S1x64x128_0_0_0).toLoadRect
      = (k0_pay29 (kernelRun0_A.sl.r_9 c arg1 harg1 x0)) := by
  unfold kernelRun0_A.sl.HS0_2
  rw [KRows.readCov_miss _ _ _ _ _ _ _ _ _ 0 (by decide)]
  unfold kernelRun0_A.sl.HS0_1
  exact KRows.readCov_hit _ _ _ _ _ _

theorem ld2_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg6.view.readCov (kernelRun0_A.sl.HS1_2 c arg1 harg1 arg5 arg6 arg7 x0) (Rect.unit (s := S24x64x128) ![0, 0, 0] S1x64x128.size inb_S24x64x128_S1x64x128_0_0_0).toLoadRect
      = (kernelRun0_A.sl.v98 c arg1 harg1 x0) := by
  unfold kernelRun0_A.sl.HS1_2
  rw [KRows.readCov_miss _ _ _ _ _ _ _ _ _ 0 (by decide)]
  unfold kernelRun0_A.sl.HS1_1
  exact KRows.readCov_hit _ _ _ _ _ _

theorem ld2_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg7.view.readCov (kernelRun0_A.sl.HS2_2 c arg1 harg1 arg5 arg6 arg7 x0) (Rect.unit (s := S24x64x128) ![0, 0, 0] S1x64x128.size inb_S24x64x128_S1x64x128_0_0_0).toLoadRect
      = (kernelRun0_A.sl.v101 c arg1 harg1 x0) := by
  unfold kernelRun0_A.sl.HS2_2
  rw [KRows.readCov_miss _ _ _ _ _ _ _ _ _ 0 (by decide)]
  unfold kernelRun0_A.sl.HS2_1
  exact KRows.readCov_hit _ _ _ _ _ _

theorem ld2_3 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg8.view.readCov (kernelRun0_A.sl.HS3_2 c arg1 harg1 arg8 arg9 arg10 x0) (Rect.unit (s := S24x64x128) ![0, 0, 0] S1x64x128.size inb_S24x64x128_S1x64x128_0_0_0).toLoadRect
      = (kernelRun0_A.sl.v104 c arg1 harg1 x0) := by
  unfold kernelRun0_A.sl.HS3_2
  rw [KRows.readCov_miss _ _ _ _ _ _ _ _ _ 0 (by decide)]
  unfold kernelRun0_A.sl.HS3_1
  exact KRows.readCov_hit _ _ _ _ _ _

theorem ld2_4 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg9.view.readCov (kernelRun0_A.sl.HS4_2 c arg1 harg1 arg8 arg9 arg10 x0) (Rect.unit (s := S24x64x128) ![0, 0, 0] S1x64x128.size inb_S24x64x128_S1x64x128_0_0_0).toLoadRect
      = (kernelRun0_A.sl.v107 c arg1 harg1 x0) := by
  unfold kernelRun0_A.sl.HS4_2
  rw [KRows.readCov_miss _ _ _ _ _ _ _ _ _ 0 (by decide)]
  unfold kernelRun0_A.sl.HS4_1
  exact KRows.readCov_hit _ _ _ _ _ _

theorem ld2_5 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg10.view.readCov (kernelRun0_A.sl.HS5_2 c arg1 harg1 arg8 arg9 arg10 x0) (Rect.unit (s := S24x64x128) ![0, 0, 0] S1x64x128.size inb_S24x64x128_S1x64x128_0_0_0).toLoadRect
      = (kernelRun0_A.sl.v110 c arg1 harg1 x0) := by
  unfold kernelRun0_A.sl.HS5_2
  rw [KRows.readCov_miss _ _ _ _ _ _ _ _ _ 0 (by decide)]
  unfold kernelRun0_A.sl.HS5_1
  exact KRows.readCov_hit _ _ _ _ _ _

theorem ld2_6 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg11.view.readCov (kernelRun0_A.sl.HS6_2 c arg1 harg1 arg11 arg12 arg13 x0) (Rect.unit (s := S24x64x128) ![0, 0, 0] S1x64x128.size inb_S24x64x128_S1x64x128_0_0_0).toLoadRect
      = (kernelRun0_A.sl.v113 c arg1 harg1 x0) := by
  unfold kernelRun0_A.sl.HS6_2
  rw [KRows.readCov_miss _ _ _ _ _ _ _ _ _ 0 (by decide)]
  unfold kernelRun0_A.sl.HS6_1
  exact KRows.readCov_hit _ _ _ _ _ _

theorem ld2_7 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg12.view.readCov (kernelRun0_A.sl.HS7_2 c arg1 harg1 arg11 arg12 arg13 x0) (Rect.unit (s := S24x64x128) ![0, 0, 0] S1x64x128.size inb_S24x64x128_S1x64x128_0_0_0).toLoadRect
      = (kernelRun0_A.sl.v116 c arg1 harg1 x0) := by
  unfold kernelRun0_A.sl.HS7_2
  rw [KRows.readCov_miss _ _ _ _ _ _ _ _ _ 0 (by decide)]
  unfold kernelRun0_A.sl.HS7_1
  exact KRows.readCov_hit _ _ _ _ _ _

theorem ld2_8 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg13.view.readCov (kernelRun0_A.sl.HS8_2 c arg1 harg1 arg11 arg12 arg13 x0) (Rect.unit (s := S24x64x128) ![0, 0, 0] S1x64x128.size inb_S24x64x128_S1x64x128_0_0_0).toLoadRect
      = (kernelRun0_A.sl.v119 c arg1 harg1 x0) := by
  unfold kernelRun0_A.sl.HS8_2
  rw [KRows.readCov_miss _ _ _ _ _ _ _ _ _ 0 (by decide)]
  unfold kernelRun0_A.sl.HS8_1
  exact KRows.readCov_hit _ _ _ _ _ _

theorem ld2_9 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg14.view.readCov (kernelRun0_A.sl.HS9_2 c arg1 harg1 arg2 harg2 arg5 arg6 arg7 arg14 x0 x1) (Rect.unit (s := S24x64x128) ![0, 0, 0] S1x64x128.size inb_S24x64x128_S1x64x128_0_0_0).toLoadRect
      = (k0_pay38 (kernelRun0_A.sl.r_19 c arg2 harg2 x1)) := by
  unfold kernelRun0_A.sl.HS9_2
  rw [KRows.readCov_miss _ _ _ _ _ _ _ _ _ 0 (by decide)]
  unfold kernelRun0_A.sl.HS9_1
  exact KRows.readCov_hit _ _ _ _ _ _

theorem ld2_10 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg15.view.readCov (kernelRun0_A.sl.HS10_2 c arg1 harg1 arg2 harg2 arg8 arg9 arg10 arg15 x0 x1) (Rect.unit (s := S24x64x128) ![0, 0, 0] S1x64x128.size inb_S24x64x128_S1x64x128_0_0_0).toLoadRect
      = (k0_pay39 (kernelRun0_A.sl.r_20 c arg2 harg2 x1)) := by
  unfold kernelRun0_A.sl.HS10_2
  rw [KRows.readCov_miss _ _ _ _ _ _ _ _ _ 0 (by decide)]
  unfold kernelRun0_A.sl.HS10_1
  exact KRows.readCov_hit _ _ _ _ _ _

theorem ld2_11 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg16.view.readCov (kernelRun0_A.sl.HS11_2 c arg1 harg1 arg2 harg2 arg11 arg12 arg13 arg16 x0 x1) (Rect.unit (s := S24x64x128) ![0, 0, 0] S1x64x128.size inb_S24x64x128_S1x64x128_0_0_0).toLoadRect
      = (k0_pay40 (kernelRun0_A.sl.r_21 c arg2 harg2 x1)) := by
  unfold kernelRun0_A.sl.HS11_2
  rw [KRows.readCov_miss _ _ _ _ _ _ _ _ _ 0 (by decide)]
  unfold kernelRun0_A.sl.HS11_1
  exact KRows.readCov_hit _ _ _ _ _ _

theorem ld3_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg5.view.readCov (kernelRun0_A.sl.HS0_3 c arg1 harg1 arg5 arg6 arg7 x0) (Rect.unit (s := S24x64x128) ![0, 0, 0] S1x64x128.size inb_S24x64x128_S1x64x128_0_0_0).toLoadRect
      = (k0_pay29 (kernelRun0_A.sl.r_9 c arg1 harg1 x0)) := by
  unfold kernelRun0_A.sl.HS0_3
  rw [KRows.readCov_miss _ _ _ _ _ _ _ _ _ 0 (by decide)]
  unfold kernelRun0_A.sl.HS0_2
  rw [KRows.readCov_miss _ _ _ _ _ _ _ _ _ 0 (by decide)]
  unfold kernelRun0_A.sl.HS0_1
  exact KRows.readCov_hit _ _ _ _ _ _

theorem ld3_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg6.view.readCov (kernelRun0_A.sl.HS1_3 c arg1 harg1 arg5 arg6 arg7 x0) (Rect.unit (s := S24x64x128) ![0, 0, 0] S1x64x128.size inb_S24x64x128_S1x64x128_0_0_0).toLoadRect
      = (kernelRun0_A.sl.v98 c arg1 harg1 x0) := by
  unfold kernelRun0_A.sl.HS1_3
  rw [KRows.readCov_miss _ _ _ _ _ _ _ _ _ 0 (by decide)]
  unfold kernelRun0_A.sl.HS1_2
  rw [KRows.readCov_miss _ _ _ _ _ _ _ _ _ 0 (by decide)]
  unfold kernelRun0_A.sl.HS1_1
  exact KRows.readCov_hit _ _ _ _ _ _

theorem ld3_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg7.view.readCov (kernelRun0_A.sl.HS2_3 c arg1 harg1 arg5 arg6 arg7 x0) (Rect.unit (s := S24x64x128) ![0, 0, 0] S1x64x128.size inb_S24x64x128_S1x64x128_0_0_0).toLoadRect
      = (kernelRun0_A.sl.v101 c arg1 harg1 x0) := by
  unfold kernelRun0_A.sl.HS2_3
  rw [KRows.readCov_miss _ _ _ _ _ _ _ _ _ 0 (by decide)]
  unfold kernelRun0_A.sl.HS2_2
  rw [KRows.readCov_miss _ _ _ _ _ _ _ _ _ 0 (by decide)]
  unfold kernelRun0_A.sl.HS2_1
  exact KRows.readCov_hit _ _ _ _ _ _

theorem ld3_3 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg8.view.readCov (kernelRun0_A.sl.HS3_3 c arg1 harg1 arg8 arg9 arg10 x0) (Rect.unit (s := S24x64x128) ![0, 0, 0] S1x64x128.size inb_S24x64x128_S1x64x128_0_0_0).toLoadRect
      = (kernelRun0_A.sl.v104 c arg1 harg1 x0) := by
  unfold kernelRun0_A.sl.HS3_3
  rw [KRows.readCov_miss _ _ _ _ _ _ _ _ _ 0 (by decide)]
  unfold kernelRun0_A.sl.HS3_2
  rw [KRows.readCov_miss _ _ _ _ _ _ _ _ _ 0 (by decide)]
  unfold kernelRun0_A.sl.HS3_1
  exact KRows.readCov_hit _ _ _ _ _ _

theorem ld3_4 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg9.view.readCov (kernelRun0_A.sl.HS4_3 c arg1 harg1 arg8 arg9 arg10 x0) (Rect.unit (s := S24x64x128) ![0, 0, 0] S1x64x128.size inb_S24x64x128_S1x64x128_0_0_0).toLoadRect
      = (kernelRun0_A.sl.v107 c arg1 harg1 x0) := by
  unfold kernelRun0_A.sl.HS4_3
  rw [KRows.readCov_miss _ _ _ _ _ _ _ _ _ 0 (by decide)]
  unfold kernelRun0_A.sl.HS4_2
  rw [KRows.readCov_miss _ _ _ _ _ _ _ _ _ 0 (by decide)]
  unfold kernelRun0_A.sl.HS4_1
  exact KRows.readCov_hit _ _ _ _ _ _

theorem ld3_5 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg10.view.readCov (kernelRun0_A.sl.HS5_3 c arg1 harg1 arg8 arg9 arg10 x0) (Rect.unit (s := S24x64x128) ![0, 0, 0] S1x64x128.size inb_S24x64x128_S1x64x128_0_0_0).toLoadRect
      = (kernelRun0_A.sl.v110 c arg1 harg1 x0) := by
  unfold kernelRun0_A.sl.HS5_3
  rw [KRows.readCov_miss _ _ _ _ _ _ _ _ _ 0 (by decide)]
  unfold kernelRun0_A.sl.HS5_2
  rw [KRows.readCov_miss _ _ _ _ _ _ _ _ _ 0 (by decide)]
  unfold kernelRun0_A.sl.HS5_1
  exact KRows.readCov_hit _ _ _ _ _ _

theorem ld3_6 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg11.view.readCov (kernelRun0_A.sl.HS6_3 c arg1 harg1 arg11 arg12 arg13 x0) (Rect.unit (s := S24x64x128) ![0, 0, 0] S1x64x128.size inb_S24x64x128_S1x64x128_0_0_0).toLoadRect
      = (kernelRun0_A.sl.v113 c arg1 harg1 x0) := by
  unfold kernelRun0_A.sl.HS6_3
  rw [KRows.readCov_miss _ _ _ _ _ _ _ _ _ 0 (by decide)]
  unfold kernelRun0_A.sl.HS6_2
  rw [KRows.readCov_miss _ _ _ _ _ _ _ _ _ 0 (by decide)]
  unfold kernelRun0_A.sl.HS6_1
  exact KRows.readCov_hit _ _ _ _ _ _

theorem ld3_7 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg12.view.readCov (kernelRun0_A.sl.HS7_3 c arg1 harg1 arg11 arg12 arg13 x0) (Rect.unit (s := S24x64x128) ![0, 0, 0] S1x64x128.size inb_S24x64x128_S1x64x128_0_0_0).toLoadRect
      = (kernelRun0_A.sl.v116 c arg1 harg1 x0) := by
  unfold kernelRun0_A.sl.HS7_3
  rw [KRows.readCov_miss _ _ _ _ _ _ _ _ _ 0 (by decide)]
  unfold kernelRun0_A.sl.HS7_2
  rw [KRows.readCov_miss _ _ _ _ _ _ _ _ _ 0 (by decide)]
  unfold kernelRun0_A.sl.HS7_1
  exact KRows.readCov_hit _ _ _ _ _ _

theorem ld3_8 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg13.view.readCov (kernelRun0_A.sl.HS8_3 c arg1 harg1 arg11 arg12 arg13 x0) (Rect.unit (s := S24x64x128) ![0, 0, 0] S1x64x128.size inb_S24x64x128_S1x64x128_0_0_0).toLoadRect
      = (kernelRun0_A.sl.v119 c arg1 harg1 x0) := by
  unfold kernelRun0_A.sl.HS8_3
  rw [KRows.readCov_miss _ _ _ _ _ _ _ _ _ 0 (by decide)]
  unfold kernelRun0_A.sl.HS8_2
  rw [KRows.readCov_miss _ _ _ _ _ _ _ _ _ 0 (by decide)]
  unfold kernelRun0_A.sl.HS8_1
  exact KRows.readCov_hit _ _ _ _ _ _

theorem ld3_9 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg14.view.readCov (kernelRun0_A.sl.HS9_3 c arg1 harg1 arg2 harg2 arg5 arg6 arg7 arg14 x0 x1) (Rect.unit (s := S24x64x128) ![0, 0, 0] S1x64x128.size inb_S24x64x128_S1x64x128_0_0_0).toLoadRect
      = (k0_pay38 (kernelRun0_A.sl.r_19 c arg2 harg2 x1)) := by
  unfold kernelRun0_A.sl.HS9_3
  rw [KRows.readCov_miss _ _ _ _ _ _ _ _ _ 0 (by decide)]
  unfold kernelRun0_A.sl.HS9_2
  rw [KRows.readCov_miss _ _ _ _ _ _ _ _ _ 0 (by decide)]
  unfold kernelRun0_A.sl.HS9_1
  exact KRows.readCov_hit _ _ _ _ _ _

theorem ld3_10 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg15.view.readCov (kernelRun0_A.sl.HS10_3 c arg1 harg1 arg2 harg2 arg8 arg9 arg10 arg15 x0 x1) (Rect.unit (s := S24x64x128) ![0, 0, 0] S1x64x128.size inb_S24x64x128_S1x64x128_0_0_0).toLoadRect
      = (k0_pay39 (kernelRun0_A.sl.r_20 c arg2 harg2 x1)) := by
  unfold kernelRun0_A.sl.HS10_3
  rw [KRows.readCov_miss _ _ _ _ _ _ _ _ _ 0 (by decide)]
  unfold kernelRun0_A.sl.HS10_2
  rw [KRows.readCov_miss _ _ _ _ _ _ _ _ _ 0 (by decide)]
  unfold kernelRun0_A.sl.HS10_1
  exact KRows.readCov_hit _ _ _ _ _ _

theorem ld3_11 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg16.view.readCov (kernelRun0_A.sl.HS11_3 c arg1 harg1 arg2 harg2 arg11 arg12 arg13 arg16 x0 x1) (Rect.unit (s := S24x64x128) ![0, 0, 0] S1x64x128.size inb_S24x64x128_S1x64x128_0_0_0).toLoadRect
      = (k0_pay40 (kernelRun0_A.sl.r_21 c arg2 harg2 x1)) := by
  unfold kernelRun0_A.sl.HS11_3
  rw [KRows.readCov_miss _ _ _ _ _ _ _ _ _ 0 (by decide)]
  unfold kernelRun0_A.sl.HS11_2
  rw [KRows.readCov_miss _ _ _ _ _ _ _ _ _ 0 (by decide)]
  unfold kernelRun0_A.sl.HS11_1
  exact KRows.readCov_hit _ _ _ _ _ _

theorem ld4_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg5.view.readCov (kernelRun0_A.sl.HS0_4 c arg1 harg1 arg5 arg6 arg7 x0) (Rect.unit (s := S24x64x128) ![1, 0, 0] S1x64x128.size inb_S24x64x128_S1x64x128_1_0_0).toLoadRect
      = (k0_pay94 (kernelRun0_A.sl.r_58 c arg1 harg1 arg5 arg6 arg7 x0)) := by
  unfold kernelRun0_A.sl.HS0_4
  rw [KRows.readCov_miss _ _ _ _ _ _ _ _ _ 0 (by decide)]
  unfold kernelRun0_A.sl.HS0_3
  rw [KRows.readCov_miss _ _ _ _ _ _ _ _ _ 0 (by decide)]
  unfold kernelRun0_A.sl.HS0_2
  exact KRows.readCov_hit _ _ _ _ _ _

theorem ld4_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg6.view.readCov (kernelRun0_A.sl.HS1_4 c arg1 harg1 arg5 arg6 arg7 x0) (Rect.unit (s := S24x64x128) ![1, 0, 0] S1x64x128.size inb_S24x64x128_S1x64x128_1_0_0).toLoadRect
      = (k0_pay95 (kernelRun0_A.sl.r_59 c arg1 harg1 arg5 arg6 arg7 x0)) := by
  unfold kernelRun0_A.sl.HS1_4
  rw [KRows.readCov_miss _ _ _ _ _ _ _ _ _ 0 (by decide)]
  unfold kernelRun0_A.sl.HS1_3
  rw [KRows.readCov_miss _ _ _ _ _ _ _ _ _ 0 (by decide)]
  unfold kernelRun0_A.sl.HS1_2
  exact KRows.readCov_hit _ _ _ _ _ _

theorem ld4_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg7.view.readCov (kernelRun0_A.sl.HS2_4 c arg1 harg1 arg5 arg6 arg7 x0) (Rect.unit (s := S24x64x128) ![1, 0, 0] S1x64x128.size inb_S24x64x128_S1x64x128_1_0_0).toLoadRect
      = (k0_pay96 (kernelRun0_A.sl.r_60 c arg1 harg1 arg5 arg6 arg7 x0)) := by
  unfold kernelRun0_A.sl.HS2_4
  rw [KRows.readCov_miss _ _ _ _ _ _ _ _ _ 0 (by decide)]
  unfold kernelRun0_A.sl.HS2_3
  rw [KRows.readCov_miss _ _ _ _ _ _ _ _ _ 0 (by decide)]
  unfold kernelRun0_A.sl.HS2_2
  exact KRows.readCov_hit _ _ _ _ _ _

theorem ld4_3 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg8.view.readCov (kernelRun0_A.sl.HS3_4 c arg1 harg1 arg8 arg9 arg10 x0) (Rect.unit (s := S24x64x128) ![1, 0, 0] S1x64x128.size inb_S24x64x128_S1x64x128_1_0_0).toLoadRect
      = (k0_pay97 (kernelRun0_A.sl.r_61 c arg1 harg1 arg8 arg9 arg10 x0)) := by
  unfold kernelRun0_A.sl.HS3_4
  rw [KRows.readCov_miss _ _ _ _ _ _ _ _ _ 0 (by decide)]
  unfold kernelRun0_A.sl.HS3_3
  rw [KRows.readCov_miss _ _ _ _ _ _ _ _ _ 0 (by decide)]
  unfold kernelRun0_A.sl.HS3_2
  exact KRows.readCov_hit _ _ _ _ _ _

theorem ld4_4 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg9.view.readCov (kernelRun0_A.sl.HS4_4 c arg1 harg1 arg8 arg9 arg10 x0) (Rect.unit (s := S24x64x128) ![1, 0, 0] S1x64x128.size inb_S24x64x128_S1x64x128_1_0_0).toLoadRect
      = (k0_pay98 (kernelRun0_A.sl.r_62 c arg1 harg1 arg8 arg9 arg10 x0)) := by
  unfold kernelRun0_A.sl.HS4_4
  rw [KRows.readCov_miss _ _ _ _ _ _ _ _ _ 0 (by decide)]
  unfold kernelRun0_A.sl.HS4_3
  rw [KRows.readCov_miss _ _ _ _ _ _ _ _ _ 0 (by decide)]
  unfold kernelRun0_A.sl.HS4_2
  exact KRows.readCov_hit _ _ _ _ _ _

theorem ld4_5 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg10.view.readCov (kernelRun0_A.sl.HS5_4 c arg1 harg1 arg8 arg9 arg10 x0) (Rect.unit (s := S24x64x128) ![1, 0, 0] S1x64x128.size inb_S24x64x128_S1x64x128_1_0_0).toLoadRect
      = (k0_pay99 (kernelRun0_A.sl.r_63 c arg1 harg1 arg8 arg9 arg10 x0)) := by
  unfold kernelRun0_A.sl.HS5_4
  rw [KRows.readCov_miss _ _ _ _ _ _ _ _ _ 0 (by decide)]
  unfold kernelRun0_A.sl.HS5_3
  rw [KRows.readCov_miss _ _ _ _ _ _ _ _ _ 0 (by decide)]
  unfold kernelRun0_A.sl.HS5_2
  exact KRows.readCov_hit _ _ _ _ _ _

theorem ld4_6 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg11.view.readCov (kernelRun0_A.sl.HS6_4 c arg1 harg1 arg11 arg12 arg13 x0) (Rect.unit (s := S24x64x128) ![1, 0, 0] S1x64x128.size inb_S24x64x128_S1x64x128_1_0_0).toLoadRect
      = (k0_pay100 (kernelRun0_A.sl.r_64 c arg1 harg1 arg11 arg12 arg13 x0)) := by
  unfold kernelRun0_A.sl.HS6_4
  rw [KRows.readCov_miss _ _ _ _ _ _ _ _ _ 0 (by decide)]
  unfold kernelRun0_A.sl.HS6_3
  rw [KRows.readCov_miss _ _ _ _ _ _ _ _ _ 0 (by decide)]
  unfold kernelRun0_A.sl.HS6_2
  exact KRows.readCov_hit _ _ _ _ _ _

theorem ld4_7 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg12.view.readCov (kernelRun0_A.sl.HS7_4 c arg1 harg1 arg11 arg12 arg13 x0) (Rect.unit (s := S24x64x128) ![1, 0, 0] S1x64x128.size inb_S24x64x128_S1x64x128_1_0_0).toLoadRect
      = (k0_pay101 (kernelRun0_A.sl.r_65 c arg1 harg1 arg11 arg12 arg13 x0)) := by
  unfold kernelRun0_A.sl.HS7_4
  rw [KRows.readCov_miss _ _ _ _ _ _ _ _ _ 0 (by decide)]
  unfold kernelRun0_A.sl.HS7_3
  rw [KRows.readCov_miss _ _ _ _ _ _ _ _ _ 0 (by decide)]
  unfold kernelRun0_A.sl.HS7_2
  exact KRows.readCov_hit _ _ _ _ _ _

theorem ld4_8 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg13.view.readCov (kernelRun0_A.sl.HS8_4 c arg1 harg1 arg11 arg12 arg13 x0) (Rect.unit (s := S24x64x128) ![1, 0, 0] S1x64x128.size inb_S24x64x128_S1x64x128_1_0_0).toLoadRect
      = (k0_pay102 (kernelRun0_A.sl.r_67 c arg1 harg1 arg11 arg12 arg13 x0)) := by
  unfold kernelRun0_A.sl.HS8_4
  rw [KRows.readCov_miss _ _ _ _ _ _ _ _ _ 0 (by decide)]
  unfold kernelRun0_A.sl.HS8_3
  rw [KRows.readCov_miss _ _ _ _ _ _ _ _ _ 0 (by decide)]
  unfold kernelRun0_A.sl.HS8_2
  exact KRows.readCov_hit _ _ _ _ _ _

theorem ld4_9 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg14.view.readCov (kernelRun0_A.sl.HS9_4 c arg1 harg1 arg2 harg2 arg5 arg6 arg7 arg14 x0 x1) (Rect.unit (s := S24x64x128) ![1, 0, 0] S1x64x128.size inb_S24x64x128_S1x64x128_1_0_0).toLoadRect
      = (k0_pay103 (kernelRun0_A.sl.r_68 c arg1 harg1 arg2 harg2 arg5 arg6 arg7 arg14 x0 x1)) := by
  unfold kernelRun0_A.sl.HS9_4
  rw [KRows.readCov_miss _ _ _ _ _ _ _ _ _ 0 (by decide)]
  unfold kernelRun0_A.sl.HS9_3
  rw [KRows.readCov_miss _ _ _ _ _ _ _ _ _ 0 (by decide)]
  unfold kernelRun0_A.sl.HS9_2
  exact KRows.readCov_hit _ _ _ _ _ _

theorem ld4_10 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg15.view.readCov (kernelRun0_A.sl.HS10_4 c arg1 harg1 arg2 harg2 arg8 arg9 arg10 arg15 x0 x1) (Rect.unit (s := S24x64x128) ![1, 0, 0] S1x64x128.size inb_S24x64x128_S1x64x128_1_0_0).toLoadRect
      = (k0_pay104 (kernelRun0_A.sl.r_69 c arg1 harg1 arg2 harg2 arg8 arg9 arg10 arg15 x0 x1)) := by
  unfold kernelRun0_A.sl.HS10_4
  rw [KRows.readCov_miss _ _ _ _ _ _ _ _ _ 0 (by decide)]
  unfold kernelRun0_A.sl.HS10_3
  rw [KRows.readCov_miss _ _ _ _ _ _ _ _ _ 0 (by decide)]
  unfold kernelRun0_A.sl.HS10_2
  exact KRows.readCov_hit _ _ _ _ _ _

theorem ld4_11 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg16.view.readCov (kernelRun0_A.sl.HS11_4 c arg1 harg1 arg2 harg2 arg11 arg12 arg13 arg16 x0 x1) (Rect.unit (s := S24x64x128) ![1, 0, 0] S1x64x128.size inb_S24x64x128_S1x64x128_1_0_0).toLoadRect
      = (k0_pay105 (kernelRun0_A.sl.r_70 c arg1 harg1 arg2 harg2 arg11 arg12 arg13 arg16 x0 x1)) := by
  unfold kernelRun0_A.sl.HS11_4
  rw [KRows.readCov_miss _ _ _ _ _ _ _ _ _ 0 (by decide)]
  unfold kernelRun0_A.sl.HS11_3
  rw [KRows.readCov_miss _ _ _ _ _ _ _ _ _ 0 (by decide)]
  unfold kernelRun0_A.sl.HS11_2
  exact KRows.readCov_hit _ _ _ _ _ _

theorem ld5_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg5.view.readCov (kernelRun0_A.sl.HS0_5 c arg1 harg1 arg5 arg6 arg7 x0) (Rect.unit (s := S24x64x128) ![2, 0, 0] S1x64x128.size inb_S24x64x128_S1x64x128_2_0_0).toLoadRect
      = (k0_pay158 (kernelRun0_A.sl.r_103 c arg1 harg1 arg5 arg6 arg7 x0)) := by
  unfold kernelRun0_A.sl.HS0_5
  rw [KRows.readCov_miss _ _ _ _ _ _ _ _ _ 0 (by decide)]
  unfold kernelRun0_A.sl.HS0_4
  rw [KRows.readCov_miss _ _ _ _ _ _ _ _ _ 0 (by decide)]
  unfold kernelRun0_A.sl.HS0_3
  exact KRows.readCov_hit _ _ _ _ _ _

theorem ld5_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg6.view.readCov (kernelRun0_A.sl.HS1_5 c arg1 harg1 arg5 arg6 arg7 x0) (Rect.unit (s := S24x64x128) ![2, 0, 0] S1x64x128.size inb_S24x64x128_S1x64x128_2_0_0).toLoadRect
      = (k0_pay159 (kernelRun0_A.sl.r_104 c arg1 harg1 arg5 arg6 arg7 x0)) := by
  unfold kernelRun0_A.sl.HS1_5
  rw [KRows.readCov_miss _ _ _ _ _ _ _ _ _ 0 (by decide)]
  unfold kernelRun0_A.sl.HS1_4
  rw [KRows.readCov_miss _ _ _ _ _ _ _ _ _ 0 (by decide)]
  unfold kernelRun0_A.sl.HS1_3
  exact KRows.readCov_hit _ _ _ _ _ _

theorem ld5_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg7.view.readCov (kernelRun0_A.sl.HS2_5 c arg1 harg1 arg5 arg6 arg7 x0) (Rect.unit (s := S24x64x128) ![2, 0, 0] S1x64x128.size inb_S24x64x128_S1x64x128_2_0_0).toLoadRect
      = (k0_pay160 (kernelRun0_A.sl.r_105 c arg1 harg1 arg5 arg6 arg7 x0)) := by
  unfold kernelRun0_A.sl.HS2_5
  rw [KRows.readCov_miss _ _ _ _ _ _ _ _ _ 0 (by decide)]
  unfold kernelRun0_A.sl.HS2_4
  rw [KRows.readCov_miss _ _ _ _ _ _ _ _ _ 0 (by decide)]
  unfold kernelRun0_A.sl.HS2_3
  exact KRows.readCov_hit _ _ _ _ _ _

theorem ld5_3 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg8.view.readCov (kernelRun0_A.sl.HS3_5 c arg1 harg1 arg8 arg9 arg10 x0) (Rect.unit (s := S24x64x128) ![2, 0, 0] S1x64x128.size inb_S24x64x128_S1x64x128_2_0_0).toLoadRect
      = (k0_pay161 (kernelRun0_A.sl.r_106 c arg1 harg1 arg8 arg9 arg10 x0)) := by
  unfold kernelRun0_A.sl.HS3_5
  rw [KRows.readCov_miss _ _ _ _ _ _ _ _ _ 0 (by decide)]
  unfold kernelRun0_A.sl.HS3_4
  rw [KRows.readCov_miss _ _ _ _ _ _ _ _ _ 0 (by decide)]
  unfold kernelRun0_A.sl.HS3_3
  exact KRows.readCov_hit _ _ _ _ _ _

theorem ld5_4 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg9.view.readCov (kernelRun0_A.sl.HS4_5 c arg1 harg1 arg8 arg9 arg10 x0) (Rect.unit (s := S24x64x128) ![2, 0, 0] S1x64x128.size inb_S24x64x128_S1x64x128_2_0_0).toLoadRect
      = (k0_pay162 (kernelRun0_A.sl.r_107 c arg1 harg1 arg8 arg9 arg10 x0)) := by
  unfold kernelRun0_A.sl.HS4_5
  rw [KRows.readCov_miss _ _ _ _ _ _ _ _ _ 0 (by decide)]
  unfold kernelRun0_A.sl.HS4_4
  rw [KRows.readCov_miss _ _ _ _ _ _ _ _ _ 0 (by decide)]
  unfold kernelRun0_A.sl.HS4_3
  exact KRows.readCov_hit _ _ _ _ _ _

theorem ld5_5 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg10.view.readCov (kernelRun0_A.sl.HS5_5 c arg1 harg1 arg8 arg9 arg10 x0) (Rect.unit (s := S24x64x128) ![2, 0, 0] S1x64x128.size inb_S24x64x128_S1x64x128_2_0_0).toLoadRect
      = (k0_pay163 (kernelRun0_A.sl.r_108 c arg1 harg1 arg8 arg9 arg10 x0)) := by
  unfold kernelRun0_A.sl.HS5_5
  rw [KRows.readCov_miss _ _ _ _ _ _ _ _ _ 0 (by decide)]
  unfold kernelRun0_A.sl.HS5_4
  rw [KRows.readCov_miss _ _ _ _ _ _ _ _ _ 0 (by decide)]
  unfold kernelRun0_A.sl.HS5_3
  exact KRows.readCov_hit _ _ _ _ _ _

theorem ld5_6 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg11.view.readCov (kernelRun0_A.sl.HS6_5 c arg1 harg1 arg11 arg12 arg13 x0) (Rect.unit (s := S24x64x128) ![2, 0, 0] S1x64x128.size inb_S24x64x128_S1x64x128_2_0_0).toLoadRect
      = (k0_pay164 (kernelRun0_A.sl.r_109 c arg1 harg1 arg11 arg12 arg13 x0)) := by
  unfold kernelRun0_A.sl.HS6_5
  rw [KRows.readCov_miss _ _ _ _ _ _ _ _ _ 0 (by decide)]
  unfold kernelRun0_A.sl.HS6_4
  rw [KRows.readCov_miss _ _ _ _ _ _ _ _ _ 0 (by decide)]
  unfold kernelRun0_A.sl.HS6_3
  exact KRows.readCov_hit _ _ _ _ _ _

theorem ld5_7 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg12.view.readCov (kernelRun0_A.sl.HS7_5 c arg1 harg1 arg11 arg12 arg13 x0) (Rect.unit (s := S24x64x128) ![2, 0, 0] S1x64x128.size inb_S24x64x128_S1x64x128_2_0_0).toLoadRect
      = (k0_pay165 (kernelRun0_A.sl.r_110 c arg1 harg1 arg11 arg12 arg13 x0)) := by
  unfold kernelRun0_A.sl.HS7_5
  rw [KRows.readCov_miss _ _ _ _ _ _ _ _ _ 0 (by decide)]
  unfold kernelRun0_A.sl.HS7_4
  rw [KRows.readCov_miss _ _ _ _ _ _ _ _ _ 0 (by decide)]
  unfold kernelRun0_A.sl.HS7_3
  exact KRows.readCov_hit _ _ _ _ _ _

theorem ld5_8 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg13.view.readCov (kernelRun0_A.sl.HS8_5 c arg1 harg1 arg11 arg12 arg13 x0) (Rect.unit (s := S24x64x128) ![2, 0, 0] S1x64x128.size inb_S24x64x128_S1x64x128_2_0_0).toLoadRect
      = (k0_pay166 (kernelRun0_A.sl.r_111 c arg1 harg1 arg11 arg12 arg13 x0)) := by
  unfold kernelRun0_A.sl.HS8_5
  rw [KRows.readCov_miss _ _ _ _ _ _ _ _ _ 0 (by decide)]
  unfold kernelRun0_A.sl.HS8_4
  rw [KRows.readCov_miss _ _ _ _ _ _ _ _ _ 0 (by decide)]
  unfold kernelRun0_A.sl.HS8_3
  exact KRows.readCov_hit _ _ _ _ _ _

theorem ld5_9 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg14.view.readCov (kernelRun0_A.sl.HS9_5 c arg1 harg1 arg2 harg2 arg5 arg6 arg7 arg14 x0 x1) (Rect.unit (s := S24x64x128) ![2, 0, 0] S1x64x128.size inb_S24x64x128_S1x64x128_2_0_0).toLoadRect
      = (k0_pay167 (kernelRun0_A.sl.r_112 c arg1 harg1 arg2 harg2 arg5 arg6 arg7 arg14 x0 x1)) := by
  unfold kernelRun0_A.sl.HS9_5
  rw [KRows.readCov_miss _ _ _ _ _ _ _ _ _ 0 (by decide)]
  unfold kernelRun0_A.sl.HS9_4
  rw [KRows.readCov_miss _ _ _ _ _ _ _ _ _ 0 (by decide)]
  unfold kernelRun0_A.sl.HS9_3
  exact KRows.readCov_hit _ _ _ _ _ _

theorem ld5_10 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg15.view.readCov (kernelRun0_A.sl.HS10_5 c arg1 harg1 arg2 harg2 arg8 arg9 arg10 arg15 x0 x1) (Rect.unit (s := S24x64x128) ![2, 0, 0] S1x64x128.size inb_S24x64x128_S1x64x128_2_0_0).toLoadRect
      = (k0_pay168 (kernelRun0_A.sl.r_113 c arg1 harg1 arg2 harg2 arg8 arg9 arg10 arg15 x0 x1)) := by
  unfold kernelRun0_A.sl.HS10_5
  rw [KRows.readCov_miss _ _ _ _ _ _ _ _ _ 0 (by decide)]
  unfold kernelRun0_A.sl.HS10_4
  rw [KRows.readCov_miss _ _ _ _ _ _ _ _ _ 0 (by decide)]
  unfold kernelRun0_A.sl.HS10_3
  exact KRows.readCov_hit _ _ _ _ _ _

theorem ld5_11 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg16.view.readCov (kernelRun0_A.sl.HS11_5 c arg1 harg1 arg2 harg2 arg11 arg12 arg13 arg16 x0 x1) (Rect.unit (s := S24x64x128) ![2, 0, 0] S1x64x128.size inb_S24x64x128_S1x64x128_2_0_0).toLoadRect
      = (k0_pay169 (kernelRun0_A.sl.r_114 c arg1 harg1 arg2 harg2 arg11 arg12 arg13 arg16 x0 x1)) := by
  unfold kernelRun0_A.sl.HS11_5
  rw [KRows.readCov_miss _ _ _ _ _ _ _ _ _ 0 (by decide)]
  unfold kernelRun0_A.sl.HS11_4
  rw [KRows.readCov_miss _ _ _ _ _ _ _ _ _ 0 (by decide)]
  unfold kernelRun0_A.sl.HS11_3
  exact KRows.readCov_hit _ _ _ _ _ _

theorem ld6_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg5.view.readCov (kernelRun0_A.sl.HS0_6 c arg1 harg1 arg5 arg6 arg7 x0) (Rect.unit (s := S24x64x128) ![3, 0, 0] S1x64x128.size inb_S24x64x128_S1x64x128_3_0_0).toLoadRect
      = (k0_pay220 (kernelRun0_A.sl.r_145 c arg1 harg1 arg5 arg6 arg7 x0)) := by
  unfold kernelRun0_A.sl.HS0_6
  rw [KRows.readCov_miss _ _ _ _ _ _ _ _ _ 0 (by decide)]
  unfold kernelRun0_A.sl.HS0_5
  rw [KRows.readCov_miss _ _ _ _ _ _ _ _ _ 0 (by decide)]
  unfold kernelRun0_A.sl.HS0_4
  exact KRows.readCov_hit _ _ _ _ _ _

theorem ld6_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg6.view.readCov (kernelRun0_A.sl.HS1_6 c arg1 harg1 arg5 arg6 arg7 x0) (Rect.unit (s := S24x64x128) ![3, 0, 0] S1x64x128.size inb_S24x64x128_S1x64x128_3_0_0).toLoadRect
      = (kernelRun0_A.sl.r_157 c arg1 harg1 arg5 arg6 arg7 x0) := by
  unfold kernelRun0_A.sl.HS1_6
  rw [KRows.readCov_miss _ _ _ _ _ _ _ _ _ 0 (by decide)]
  unfold kernelRun0_A.sl.HS1_5
  rw [KRows.readCov_miss _ _ _ _ _ _ _ _ _ 0 (by decide)]
  unfold kernelRun0_A.sl.HS1_4
  exact KRows.readCov_hit _ _ _ _ _ _

theorem ld6_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg7.view.readCov (kernelRun0_A.sl.HS2_6 c arg1 harg1 arg5 arg6 arg7 x0) (Rect.unit (s := S24x64x128) ![3, 0, 0] S1x64x128.size inb_S24x64x128_S1x64x128_3_0_0).toLoadRect
      = (kernelRun0_A.sl.v776 c arg1 harg1 arg5 arg6 arg7 x0) := by
  unfold kernelRun0_A.sl.HS2_6
  rw [KRows.readCov_miss _ _ _ _ _ _ _ _ _ 0 (by decide)]
  unfold kernelRun0_A.sl.HS2_5
  rw [KRows.readCov_miss _ _ _ _ _ _ _ _ _ 0 (by decide)]
  unfold kernelRun0_A.sl.HS2_4
  exact KRows.readCov_hit _ _ _ _ _ _

theorem ld6_3 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg8.view.readCov (kernelRun0_A.sl.HS3_6 c arg1 harg1 arg8 arg9 arg10 x0) (Rect.unit (s := S24x64x128) ![3, 0, 0] S1x64x128.size inb_S24x64x128_S1x64x128_3_0_0).toLoadRect
      = (kernelRun0_A.sl.v779 c arg1 harg1 arg8 arg9 arg10 x0) := by
  unfold kernelRun0_A.sl.HS3_6
  rw [KRows.readCov_miss _ _ _ _ _ _ _ _ _ 0 (by decide)]
  unfold kernelRun0_A.sl.HS3_5
  rw [KRows.readCov_miss _ _ _ _ _ _ _ _ _ 0 (by decide)]
  unfold kernelRun0_A.sl.HS3_4
  exact KRows.readCov_hit _ _ _ _ _ _

theorem ld6_4 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg9.view.readCov (kernelRun0_A.sl.HS4_6 c arg1 harg1 arg8 arg9 arg10 x0) (Rect.unit (s := S24x64x128) ![3, 0, 0] S1x64x128.size inb_S24x64x128_S1x64x128_3_0_0).toLoadRect
      = (kernelRun0_A.sl.v782 c arg1 harg1 arg8 arg9 arg10 x0) := by
  unfold kernelRun0_A.sl.HS4_6
  rw [KRows.readCov_miss _ _ _ _ _ _ _ _ _ 0 (by decide)]
  unfold kernelRun0_A.sl.HS4_5
  rw [KRows.readCov_miss _ _ _ _ _ _ _ _ _ 0 (by decide)]
  unfold kernelRun0_A.sl.HS4_4
  exact KRows.readCov_hit _ _ _ _ _ _

theorem ld6_5 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg10.view.readCov (kernelRun0_A.sl.HS5_6 c arg1 harg1 arg8 arg9 arg10 x0) (Rect.unit (s := S24x64x128) ![3, 0, 0] S1x64x128.size inb_S24x64x128_S1x64x128_3_0_0).toLoadRect
      = (kernelRun0_A.sl.v785 c arg1 harg1 arg8 arg9 arg10 x0) := by
  unfold kernelRun0_A.sl.HS5_6
  rw [KRows.readCov_miss _ _ _ _ _ _ _ _ _ 0 (by decide)]
  unfold kernelRun0_A.sl.HS5_5
  rw [KRows.readCov_miss _ _ _ _ _ _ _ _ _ 0 (by decide)]
  unfold kernelRun0_A.sl.HS5_4
  exact KRows.readCov_hit _ _ _ _ _ _

theorem ld6_6 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg11.view.readCov (kernelRun0_A.sl.HS6_6 c arg1 harg1 arg11 arg12 arg13 x0) (Rect.unit (s := S24x64x128) ![3, 0, 0] S1x64x128.size inb_S24x64x128_S1x64x128_3_0_0).toLoadRect
      = (kernelRun0_A.sl.v788 c arg1 harg1 arg11 arg12 arg13 x0) := by
  unfold kernelRun0_A.sl.HS6_6
  rw [KRows.readCov_miss _ _ _ _ _ _ _ _ _ 0 (by decide)]
  unfold kernelRun0_A.sl.HS6_5
  rw [KRows.readCov_miss _ _ _ _ _ _ _ _ _ 0 (by decide)]
  unfold kernelRun0_A.sl.HS6_4
  exact KRows.readCov_hit _ _ _ _ _ _

theorem ld6_7 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg12.view.readCov (kernelRun0_A.sl.HS7_6 c arg1 harg1 arg11 arg12 arg13 x0) (Rect.unit (s := S24x64x128) ![3, 0, 0] S1x64x128.size inb_S24x64x128_S1x64x128_3_0_0).toLoadRect
      = (kernelRun0_A.sl.v791 c arg1 harg1 arg11 arg12 arg13 x0) := by
  unfold kernelRun0_A.sl.HS7_6
  rw [KRows.readCov_miss _ _ _ _ _ _ _ _ _ 0 (by decide)]
  unfold kernelRun0_A.sl.HS7_5
  rw [KRows.readCov_miss _ _ _ _ _ _ _ _ _ 0 (by decide)]
  unfold kernelRun0_A.sl.HS7_4
  exact KRows.readCov_hit _ _ _ _ _ _

theorem ld6_8 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg13.view.readCov (kernelRun0_A.sl.HS8_6 c arg1 harg1 arg11 arg12 arg13 x0) (Rect.unit (s := S24x64x128) ![3, 0, 0] S1x64x128.size inb_S24x64x128_S1x64x128_3_0_0).toLoadRect
      = (kernelRun0_A.sl.v794 c arg1 harg1 arg11 arg12 arg13 x0) := by
  unfold kernelRun0_A.sl.HS8_6
  rw [KRows.readCov_miss _ _ _ _ _ _ _ _ _ 0 (by decide)]
  unfold kernelRun0_A.sl.HS8_5
  rw [KRows.readCov_miss _ _ _ _ _ _ _ _ _ 0 (by decide)]
  unfold kernelRun0_A.sl.HS8_4
  exact KRows.readCov_hit _ _ _ _ _ _

theorem ld6_9 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg14.view.readCov (kernelRun0_A.sl.HS9_6 c arg1 harg1 arg2 harg2 arg5 arg6 arg7 arg14 x0 x1) (Rect.unit (s := S24x64x128) ![3, 0, 0] S1x64x128.size inb_S24x64x128_S1x64x128_3_0_0).toLoadRect
      = (kernelRun0_A.sl.v797 c arg1 harg1 arg2 harg2 arg5 arg6 arg7 arg14 x0 x1) := by
  unfold kernelRun0_A.sl.HS9_6
  rw [KRows.readCov_miss _ _ _ _ _ _ _ _ _ 0 (by decide)]
  unfold kernelRun0_A.sl.HS9_5
  rw [KRows.readCov_miss _ _ _ _ _ _ _ _ _ 0 (by decide)]
  unfold kernelRun0_A.sl.HS9_4
  exact KRows.readCov_hit _ _ _ _ _ _

theorem ld6_10 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg15.view.readCov (kernelRun0_A.sl.HS10_6 c arg1 harg1 arg2 harg2 arg8 arg9 arg10 arg15 x0 x1) (Rect.unit (s := S24x64x128) ![3, 0, 0] S1x64x128.size inb_S24x64x128_S1x64x128_3_0_0).toLoadRect
      = (k0_pay230 (kernelRun0_A.sl.r_155 c arg1 harg1 arg2 harg2 arg8 arg9 arg10 arg15 x0 x1)) := by
  unfold kernelRun0_A.sl.HS10_6
  rw [KRows.readCov_miss _ _ _ _ _ _ _ _ _ 0 (by decide)]
  unfold kernelRun0_A.sl.HS10_5
  rw [KRows.readCov_miss _ _ _ _ _ _ _ _ _ 0 (by decide)]
  unfold kernelRun0_A.sl.HS10_4
  exact KRows.readCov_hit _ _ _ _ _ _

theorem ld6_11 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg16.view.readCov (kernelRun0_A.sl.HS11_6 c arg1 harg1 arg2 harg2 arg11 arg12 arg13 arg16 x0 x1) (Rect.unit (s := S24x64x128) ![3, 0, 0] S1x64x128.size inb_S24x64x128_S1x64x128_3_0_0).toLoadRect
      = (k0_pay231 (kernelRun0_A.sl.r_156 c arg1 harg1 arg2 harg2 arg11 arg12 arg13 arg16 x0 x1)) := by
  unfold kernelRun0_A.sl.HS11_6
  rw [KRows.readCov_miss _ _ _ _ _ _ _ _ _ 0 (by decide)]
  unfold kernelRun0_A.sl.HS11_5
  rw [KRows.readCov_miss _ _ _ _ _ _ _ _ _ 0 (by decide)]
  unfold kernelRun0_A.sl.HS11_4
  exact KRows.readCov_hit _ _ _ _ _ _

theorem ld7_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg5.view.readCov (kernelRun0_A.sl.HS0_7 c arg1 harg1 arg5 arg6 arg7 x0) (Rect.unit (s := S24x64x128) ![4, 0, 0] S1x64x128.size inb_S24x64x128_S1x64x128_4_0_0).toLoadRect
      = (k0_pay285 (kernelRun0_A.sl.r_191 c arg1 harg1 arg5 arg6 arg7 x0)) := by
  unfold kernelRun0_A.sl.HS0_7
  rw [KRows.readCov_miss _ _ _ _ _ _ _ _ _ 0 (by decide)]
  unfold kernelRun0_A.sl.HS0_6
  rw [KRows.readCov_miss _ _ _ _ _ _ _ _ _ 0 (by decide)]
  unfold kernelRun0_A.sl.HS0_5
  exact KRows.readCov_hit _ _ _ _ _ _

theorem ld7_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg6.view.readCov (kernelRun0_A.sl.HS1_7 c arg1 harg1 arg5 arg6 arg7 x0) (Rect.unit (s := S24x64x128) ![4, 0, 0] S1x64x128.size inb_S24x64x128_S1x64x128_4_0_0).toLoadRect
      = (k0_pay286 (kernelRun0_A.sl.r_192 c arg1 harg1 arg5 arg6 arg7 x0)) := by
  unfold kernelRun0_A.sl.HS1_7
  rw [KRows.readCov_miss _ _ _ _ _ _ _ _ _ 0 (by decide)]
  unfold kernelRun0_A.sl.HS1_6
  rw [KRows.readCov_miss _ _ _ _ _ _ _ _ _ 0 (by decide)]
  unfold kernelRun0_A.sl.HS1_5
  exact KRows.readCov_hit _ _ _ _ _ _

theorem ld7_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg7.view.readCov (kernelRun0_A.sl.HS2_7 c arg1 harg1 arg5 arg6 arg7 x0) (Rect.unit (s := S24x64x128) ![4, 0, 0] S1x64x128.size inb_S24x64x128_S1x64x128_4_0_0).toLoadRect
      = (k0_pay287 (kernelRun0_A.sl.r_193 c arg1 harg1 arg5 arg6 arg7 x0)) := by
  unfold kernelRun0_A.sl.HS2_7
  rw [KRows.readCov_miss _ _ _ _ _ _ _ _ _ 0 (by decide)]
  unfold kernelRun0_A.sl.HS2_6
  rw [KRows.readCov_miss _ _ _ _ _ _ _ _ _ 0 (by decide)]
  unfold kernelRun0_A.sl.HS2_5
  exact KRows.readCov_hit _ _ _ _ _ _

theorem ld7_3 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg8.view.readCov (kernelRun0_A.sl.HS3_7 c arg1 harg1 arg8 arg9 arg10 x0) (Rect.unit (s := S24x64x128) ![4, 0, 0] S1x64x128.size inb_S24x64x128_S1x64x128_4_0_0).toLoadRect
      = (k0_pay288 (kernelRun0_A.sl.r_194 c arg1 harg1 arg8 arg9 arg10 x0)) := by
  unfold kernelRun0_A.sl.HS3_7
  rw [KRows.readCov_miss _ _ _ _ _ _ _ _ _ 0 (by decide)]
  unfold kernelRun0_A.sl.HS3_6
  rw [KRows.readCov_miss _ _ _ _ _ _ _ _ _ 0 (by decide)]
  unfold kernelRun0_A.sl.HS3_5
  exact KRows.readCov_hit _ _ _ _ _ _

theorem ld7_4 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg9.view.readCov (kernelRun0_A.sl.HS4_7 c arg1 harg1 arg8 arg9 arg10 x0) (Rect.unit (s := S24x64x128) ![4, 0, 0] S1x64x128.size inb_S24x64x128_S1x64x128_4_0_0).toLoadRect
      = (k0_pay289 (kernelRun0_A.sl.r_195 c arg1 harg1 arg8 arg9 arg10 x0)) := by
  unfold kernelRun0_A.sl.HS4_7
  rw [KRows.readCov_miss _ _ _ _ _ _ _ _ _ 0 (by decide)]
  unfold kernelRun0_A.sl.HS4_6
  rw [KRows.readCov_miss _ _ _ _ _ _ _ _ _ 0 (by decide)]
  unfold kernelRun0_A.sl.HS4_5
  exact KRows.readCov_hit _ _ _ _ _ _

theorem ld7_5 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg10.view.readCov (kernelRun0_A.sl.HS5_7 c arg1 harg1 arg8 arg9 arg10 x0) (Rect.unit (s := S24x64x128) ![4, 0, 0] S1x64x128.size inb_S24x64x128_S1x64x128_4_0_0).toLoadRect
      = (k0_pay290 (kernelRun0_A.sl.r_196 c arg1 harg1 arg8 arg9 arg10 x0)) := by
  unfold kernelRun0_A.sl.HS5_7
  rw [KRows.readCov_miss _ _ _ _ _ _ _ _ _ 0 (by decide)]
  unfold kernelRun0_A.sl.HS5_6
  rw [KRows.readCov_miss _ _ _ _ _ _ _ _ _ 0 (by decide)]
  unfold kernelRun0_A.sl.HS5_5
  exact KRows.readCov_hit _ _ _ _ _ _

theorem ld7_6 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg11.view.readCov (kernelRun0_A.sl.HS6_7 c arg1 harg1 arg11 arg12 arg13 x0) (Rect.unit (s := S24x64x128) ![4, 0, 0] S1x64x128.size inb_S24x64x128_S1x64x128_4_0_0).toLoadRect
      = (k0_pay291 (kernelRun0_A.sl.r_197 c arg1 harg1 arg11 arg12 arg13 x0)) := by
  unfold kernelRun0_A.sl.HS6_7
  rw [KRows.readCov_miss _ _ _ _ _ _ _ _ _ 0 (by decide)]
  unfold kernelRun0_A.sl.HS6_6
  rw [KRows.readCov_miss _ _ _ _ _ _ _ _ _ 0 (by decide)]
  unfold kernelRun0_A.sl.HS6_5
  exact KRows.readCov_hit _ _ _ _ _ _

theorem ld7_7 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg12.view.readCov (kernelRun0_A.sl.HS7_7 c arg1 harg1 arg11 arg12 arg13 x0) (Rect.unit (s := S24x64x128) ![4, 0, 0] S1x64x128.size inb_S24x64x128_S1x64x128_4_0_0).toLoadRect
      = (k0_pay292 (kernelRun0_A.sl.r_198 c arg1 harg1 arg11 arg12 arg13 x0)) := by
  unfold kernelRun0_A.sl.HS7_7
  rw [KRows.readCov_miss _ _ _ _ _ _ _ _ _ 0 (by decide)]
  unfold kernelRun0_A.sl.HS7_6
  rw [KRows.readCov_miss _ _ _ _ _ _ _ _ _ 0 (by decide)]
  unfold kernelRun0_A.sl.HS7_5
  exact KRows.readCov_hit _ _ _ _ _ _

theorem ld7_8 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg13.view.readCov (kernelRun0_A.sl.HS8_7 c arg1 harg1 arg11 arg12 arg13 x0) (Rect.unit (s := S24x64x128) ![4, 0, 0] S1x64x128.size inb_S24x64x128_S1x64x128_4_0_0).toLoadRect
      = (k0_pay293 (kernelRun0_A.sl.r_199 c arg1 harg1 arg11 arg12 arg13 x0)) := by
  unfold kernelRun0_A.sl.HS8_7
  rw [KRows.readCov_miss _ _ _ _ _ _ _ _ _ 0 (by decide)]
  unfold kernelRun0_A.sl.HS8_6
  rw [KRows.readCov_miss _ _ _ _ _ _ _ _ _ 0 (by decide)]
  unfold kernelRun0_A.sl.HS8_5
  exact KRows.readCov_hit _ _ _ _ _ _

theorem ld7_9 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg14.view.readCov (kernelRun0_A.sl.HS9_7 c arg1 harg1 arg2 harg2 arg5 arg6 arg7 arg14 x0 x1) (Rect.unit (s := S24x64x128) ![4, 0, 0] S1x64x128.size inb_S24x64x128_S1x64x128_4_0_0).toLoadRect
      = (k0_pay294 (kernelRun0_A.sl.r_201 c arg1 harg1 arg2 harg2 arg5 arg6 arg7 arg14 x0 x1)) := by
  unfold kernelRun0_A.sl.HS9_7
  rw [KRows.readCov_miss _ _ _ _ _ _ _ _ _ 0 (by decide)]
  unfold kernelRun0_A.sl.HS9_6
  rw [KRows.readCov_miss _ _ _ _ _ _ _ _ _ 0 (by decide)]
  unfold kernelRun0_A.sl.HS9_5
  exact KRows.readCov_hit _ _ _ _ _ _

theorem ld7_10 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg15.view.readCov (kernelRun0_A.sl.HS10_7 c arg1 harg1 arg2 harg2 arg8 arg9 arg10 arg15 x0 x1) (Rect.unit (s := S24x64x128) ![4, 0, 0] S1x64x128.size inb_S24x64x128_S1x64x128_4_0_0).toLoadRect
      = (k0_pay295 (kernelRun0_A.sl.r_202 c arg1 harg1 arg2 harg2 arg8 arg9 arg10 arg15 x0 x1)) := by
  unfold kernelRun0_A.sl.HS10_7
  rw [KRows.readCov_miss _ _ _ _ _ _ _ _ _ 0 (by decide)]
  unfold kernelRun0_A.sl.HS10_6
  rw [KRows.readCov_miss _ _ _ _ _ _ _ _ _ 0 (by decide)]
  unfold kernelRun0_A.sl.HS10_5
  exact KRows.readCov_hit _ _ _ _ _ _

theorem ld7_11 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg16.view.readCov (kernelRun0_A.sl.HS11_7 c arg1 harg1 arg2 harg2 arg11 arg12 arg13 arg16 x0 x1) (Rect.unit (s := S24x64x128) ![4, 0, 0] S1x64x128.size inb_S24x64x128_S1x64x128_4_0_0).toLoadRect
      = (k0_pay296 (kernelRun0_A.sl.r_203 c arg1 harg1 arg2 harg2 arg11 arg12 arg13 arg16 x0 x1)) := by
  unfold kernelRun0_A.sl.HS11_7
  rw [KRows.readCov_miss _ _ _ _ _ _ _ _ _ 0 (by decide)]
  unfold kernelRun0_A.sl.HS11_6
  rw [KRows.readCov_miss _ _ _ _ _ _ _ _ _ 0 (by decide)]
  unfold kernelRun0_A.sl.HS11_5
  exact KRows.readCov_hit _ _ _ _ _ _

theorem ld8_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg5.view.readCov (kernelRun0_A.sl.HS0_8 c arg1 harg1 arg5 arg6 arg7 x0) (Rect.unit (s := S24x64x128) ![5, 0, 0] S1x64x128.size inb_S24x64x128_S1x64x128_5_0_0).toLoadRect
      = (k0_pay352 (kernelRun0_A.sl.r_234 c arg1 harg1 arg5 arg6 arg7 x0)) := by
  unfold kernelRun0_A.sl.HS0_8
  rw [KRows.readCov_miss _ _ _ _ _ _ _ _ _ 0 (by decide)]
  unfold kernelRun0_A.sl.HS0_7
  rw [KRows.readCov_miss _ _ _ _ _ _ _ _ _ 0 (by decide)]
  unfold kernelRun0_A.sl.HS0_6
  exact KRows.readCov_hit _ _ _ _ _ _

theorem ld8_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg6.view.readCov (kernelRun0_A.sl.HS1_8 c arg1 harg1 arg5 arg6 arg7 x0) (Rect.unit (s := S24x64x128) ![5, 0, 0] S1x64x128.size inb_S24x64x128_S1x64x128_5_0_0).toLoadRect
      = (k0_pay353 (kernelRun0_A.sl.r_237 c arg1 harg1 arg5 arg6 arg7 x0)) := by
  unfold kernelRun0_A.sl.HS1_8
  rw [KRows.readCov_miss _ _ _ _ _ _ _ _ _ 0 (by decide)]
  unfold kernelRun0_A.sl.HS1_7
  rw [KRows.readCov_miss _ _ _ _ _ _ _ _ _ 0 (by decide)]
  unfold kernelRun0_A.sl.HS1_6
  exact KRows.readCov_hit _ _ _ _ _ _

theorem ld8_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg7.view.readCov (kernelRun0_A.sl.HS2_8 c arg1 harg1 arg5 arg6 arg7 x0) (Rect.unit (s := S24x64x128) ![5, 0, 0] S1x64x128.size inb_S24x64x128_S1x64x128_5_0_0).toLoadRect
      = (k0_pay354 (kernelRun0_A.sl.r_238 c arg1 harg1 arg5 arg6 arg7 x0)) := by
  unfold kernelRun0_A.sl.HS2_8
  rw [KRows.readCov_miss _ _ _ _ _ _ _ _ _ 0 (by decide)]
  unfold kernelRun0_A.sl.HS2_7
  rw [KRows.readCov_miss _ _ _ _ _ _ _ _ _ 0 (by decide)]
  unfold kernelRun0_A.sl.HS2_6
  exact KRows.readCov_hit _ _ _ _ _ _

theorem ld8_3 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg8.view.readCov (kernelRun0_A.sl.HS3_8 c arg1 harg1 arg8 arg9 arg10 x0) (Rect.unit (s := S24x64x128) ![5, 0, 0] S1x64x128.size inb_S24x64x128_S1x64x128_5_0_0).toLoadRect
      = (k0_pay355 (kernelRun0_A.sl.r_239 c arg1 harg1 arg8 arg9 arg10 x0)) := by
  unfold kernelRun0_A.sl.HS3_8
  rw [KRows.readCov_miss _ _ _ _ _ _ _ _ _ 0 (by decide)]
  unfold kernelRun0_A.sl.HS3_7
  rw [KRows.readCov_miss _ _ _ _ _ _ _ _ _ 0 (by decide)]
  unfold kernelRun0_A.sl.HS3_6
  exact KRows.readCov_hit _ _ _ _ _ _

theorem ld8_4 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg9.view.readCov (kernelRun0_A.sl.HS4_8 c arg1 harg1 arg8 arg9 arg10 x0) (Rect.unit (s := S24x64x128) ![5, 0, 0] S1x64x128.size inb_S24x64x128_S1x64x128_5_0_0).toLoadRect
      = (k0_pay356 (kernelRun0_A.sl.r_240 c arg1 harg1 arg8 arg9 arg10 x0)) := by
  unfold kernelRun0_A.sl.HS4_8
  rw [KRows.readCov_miss _ _ _ _ _ _ _ _ _ 0 (by decide)]
  unfold kernelRun0_A.sl.HS4_7
  rw [KRows.readCov_miss _ _ _ _ _ _ _ _ _ 0 (by decide)]
  unfold kernelRun0_A.sl.HS4_6
  exact KRows.readCov_hit _ _ _ _ _ _

theorem ld8_5 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg10.view.readCov (kernelRun0_A.sl.HS5_8 c arg1 harg1 arg8 arg9 arg10 x0) (Rect.unit (s := S24x64x128) ![5, 0, 0] S1x64x128.size inb_S24x64x128_S1x64x128_5_0_0).toLoadRect
      = (k0_pay357 (kernelRun0_A.sl.r_241 c arg1 harg1 arg8 arg9 arg10 x0)) := by
  unfold kernelRun0_A.sl.HS5_8
  rw [KRows.readCov_miss _ _ _ _ _ _ _ _ _ 0 (by decide)]
  unfold kernelRun0_A.sl.HS5_7
  rw [KRows.readCov_miss _ _ _ _ _ _ _ _ _ 0 (by decide)]
  unfold kernelRun0_A.sl.HS5_6
  exact KRows.readCov_hit _ _ _ _ _ _

theorem ld8_6 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg11.view.readCov (kernelRun0_A.sl.HS6_8 c arg1 harg1 arg11 arg12 arg13 x0) (Rect.unit (s := S24x64x128) ![5, 0, 0] S1x64x128.size inb_S24x64x128_S1x64x128_5_0_0).toLoadRect
      = (k0_pay358 (kernelRun0_A.sl.r_242 c arg1 harg1 arg11 arg12 arg13 x0)) := by
  unfold kernelRun0_A.sl.HS6_8
  rw [KRows.readCov_miss _ _ _ _ _ _ _ _ _ 0 (by decide)]
  unfold kernelRun0_A.sl.HS6_7
  rw [KRows.readCov_miss _ _ _ _ _ _ _ _ _ 0 (by decide)]
  unfold kernelRun0_A.sl.HS6_6
  exact KRows.readCov_hit _ _ _ _ _ _

theorem ld8_7 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg12.view.readCov (kernelRun0_A.sl.HS7_8 c arg1 harg1 arg11 arg12 arg13 x0) (Rect.unit (s := S24x64x128) ![5, 0, 0] S1x64x128.size inb_S24x64x128_S1x64x128_5_0_0).toLoadRect
      = (k0_pay359 (kernelRun0_A.sl.r_243 c arg1 harg1 arg11 arg12 arg13 x0)) := by
  unfold kernelRun0_A.sl.HS7_8
  rw [KRows.readCov_miss _ _ _ _ _ _ _ _ _ 0 (by decide)]
  unfold kernelRun0_A.sl.HS7_7
  rw [KRows.readCov_miss _ _ _ _ _ _ _ _ _ 0 (by decide)]
  unfold kernelRun0_A.sl.HS7_6
  exact KRows.readCov_hit _ _ _ _ _ _

theorem ld8_8 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg13.view.readCov (kernelRun0_A.sl.HS8_8 c arg1 harg1 arg11 arg12 arg13 x0) (Rect.unit (s := S24x64x128) ![5, 0, 0] S1x64x128.size inb_S24x64x128_S1x64x128_5_0_0).toLoadRect
      = (k0_pay360 (kernelRun0_A.sl.r_244 c arg1 harg1 arg11 arg12 arg13 x0)) := by
  unfold kernelRun0_A.sl.HS8_8
  rw [KRows.readCov_miss _ _ _ _ _ _ _ _ _ 0 (by decide)]
  unfold kernelRun0_A.sl.HS8_7
  rw [KRows.readCov_miss _ _ _ _ _ _ _ _ _ 0 (by decide)]
  unfold kernelRun0_A.sl.HS8_6
  exact KRows.readCov_hit _ _ _ _ _ _

theorem ld8_9 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg14.view.readCov (kernelRun0_A.sl.HS9_8 c arg1 harg1 arg2 harg2 arg5 arg6 arg7 arg14 x0 x1) (Rect.unit (s := S24x64x128) ![5, 0, 0] S1x64x128.size inb_S24x64x128_S1x64x128_5_0_0).toLoadRect
      = (k0_pay361 (kernelRun0_A.sl.r_245 c arg1 harg1 arg2 harg2 arg5 arg6 arg7 arg14 x0 x1)) := by
  unfold kernelRun0_A.sl.HS9_8
  rw [KRows.readCov_miss _ _ _ _ _ _ _ _ _ 0 (by decide)]
  unfold kernelRun0_A.sl.HS9_7
  rw [KRows.readCov_miss _ _ _ _ _ _ _ _ _ 0 (by decide)]
  unfold kernelRun0_A.sl.HS9_6
  exact KRows.readCov_hit _ _ _ _ _ _

theorem ld8_10 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg15.view.readCov (kernelRun0_A.sl.HS10_8 c arg1 harg1 arg2 harg2 arg8 arg9 arg10 arg15 x0 x1) (Rect.unit (s := S24x64x128) ![5, 0, 0] S1x64x128.size inb_S24x64x128_S1x64x128_5_0_0).toLoadRect
      = (k0_pay362 (kernelRun0_A.sl.r_246 c arg1 harg1 arg2 harg2 arg8 arg9 arg10 arg15 x0 x1)) := by
  unfold kernelRun0_A.sl.HS10_8
  rw [KRows.readCov_miss _ _ _ _ _ _ _ _ _ 0 (by decide)]
  unfold kernelRun0_A.sl.HS10_7
  rw [KRows.readCov_miss _ _ _ _ _ _ _ _ _ 0 (by decide)]
  unfold kernelRun0_A.sl.HS10_6
  exact KRows.readCov_hit _ _ _ _ _ _

theorem ld8_11 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg16.view.readCov (kernelRun0_A.sl.HS11_8 c arg1 harg1 arg2 harg2 arg11 arg12 arg13 arg16 x0 x1) (Rect.unit (s := S24x64x128) ![5, 0, 0] S1x64x128.size inb_S24x64x128_S1x64x128_5_0_0).toLoadRect
      = (k0_pay363 (kernelRun0_A.sl.r_249 c arg1 harg1 arg2 harg2 arg11 arg12 arg13 arg16 x0 x1)) := by
  unfold kernelRun0_A.sl.HS11_8
  rw [KRows.readCov_miss _ _ _ _ _ _ _ _ _ 0 (by decide)]
  unfold kernelRun0_A.sl.HS11_7
  rw [KRows.readCov_miss _ _ _ _ _ _ _ _ _ 0 (by decide)]
  unfold kernelRun0_A.sl.HS11_6
  exact KRows.readCov_hit _ _ _ _ _ _

theorem ld9_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg5.view.readCov (kernelRun0_A.sl.HS0_9 c arg1 harg1 arg5 arg6 arg7 x0) (Rect.unit (s := S24x64x128) ![6, 0, 0] S1x64x128.size inb_S24x64x128_S1x64x128_6_0_0).toLoadRect
      = (k0_pay415 (kernelRun0_A.sl.r_280 c arg1 harg1 arg5 arg6 arg7 x0)) := by
  unfold kernelRun0_A.sl.HS0_9
  rw [KRows.readCov_miss _ _ _ _ _ _ _ _ _ 0 (by decide)]
  unfold kernelRun0_A.sl.HS0_8
  rw [KRows.readCov_miss _ _ _ _ _ _ _ _ _ 0 (by decide)]
  unfold kernelRun0_A.sl.HS0_7
  exact KRows.readCov_hit _ _ _ _ _ _

theorem ld9_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg6.view.readCov (kernelRun0_A.sl.HS1_9 c arg1 harg1 arg5 arg6 arg7 x0) (Rect.unit (s := S24x64x128) ![6, 0, 0] S1x64x128.size inb_S24x64x128_S1x64x128_6_0_0).toLoadRect
      = (k0_pay416 (kernelRun0_A.sl.r_281 c arg1 harg1 arg5 arg6 arg7 x0)) := by
  unfold kernelRun0_A.sl.HS1_9
  rw [KRows.readCov_miss _ _ _ _ _ _ _ _ _ 0 (by decide)]
  unfold kernelRun0_A.sl.HS1_8
  rw [KRows.readCov_miss _ _ _ _ _ _ _ _ _ 0 (by decide)]
  unfold kernelRun0_A.sl.HS1_7
  exact KRows.readCov_hit _ _ _ _ _ _

theorem ld9_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg7.view.readCov (kernelRun0_A.sl.HS2_9 c arg1 harg1 arg5 arg6 arg7 x0) (Rect.unit (s := S24x64x128) ![6, 0, 0] S1x64x128.size inb_S24x64x128_S1x64x128_6_0_0).toLoadRect
      = (kernelRun0_A.sl.v1451 c arg1 harg1 arg5 arg6 arg7 x0) := by
  unfold kernelRun0_A.sl.HS2_9
  rw [KRows.readCov_miss _ _ _ _ _ _ _ _ _ 0 (by decide)]
  unfold kernelRun0_A.sl.HS2_8
  rw [KRows.readCov_miss _ _ _ _ _ _ _ _ _ 0 (by decide)]
  unfold kernelRun0_A.sl.HS2_7
  exact KRows.readCov_hit _ _ _ _ _ _

theorem ld9_3 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg8.view.readCov (kernelRun0_A.sl.HS3_9 c arg1 harg1 arg8 arg9 arg10 x0) (Rect.unit (s := S24x64x128) ![6, 0, 0] S1x64x128.size inb_S24x64x128_S1x64x128_6_0_0).toLoadRect
      = (kernelRun0_A.sl.v1454 c arg1 harg1 arg8 arg9 arg10 x0) := by
  unfold kernelRun0_A.sl.HS3_9
  rw [KRows.readCov_miss _ _ _ _ _ _ _ _ _ 0 (by decide)]
  unfold kernelRun0_A.sl.HS3_8
  rw [KRows.readCov_miss _ _ _ _ _ _ _ _ _ 0 (by decide)]
  unfold kernelRun0_A.sl.HS3_7
  exact KRows.readCov_hit _ _ _ _ _ _

theorem ld9_4 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg9.view.readCov (kernelRun0_A.sl.HS4_9 c arg1 harg1 arg8 arg9 arg10 x0) (Rect.unit (s := S24x64x128) ![6, 0, 0] S1x64x128.size inb_S24x64x128_S1x64x128_6_0_0).toLoadRect
      = (kernelRun0_A.sl.v1457 c arg1 harg1 arg8 arg9 arg10 x0) := by
  unfold kernelRun0_A.sl.HS4_9
  rw [KRows.readCov_miss _ _ _ _ _ _ _ _ _ 0 (by decide)]
  unfold kernelRun0_A.sl.HS4_8
  rw [KRows.readCov_miss _ _ _ _ _ _ _ _ _ 0 (by decide)]
  unfold kernelRun0_A.sl.HS4_7
  exact KRows.readCov_hit _ _ _ _ _ _

theorem ld9_5 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg10.view.readCov (kernelRun0_A.sl.HS5_9 c arg1 harg1 arg8 arg9 arg10 x0) (Rect.unit (s := S24x64x128) ![6, 0, 0] S1x64x128.size inb_S24x64x128_S1x64x128_6_0_0).toLoadRect
      = (kernelRun0_A.sl.v1460 c arg1 harg1 arg8 arg9 arg10 x0) := by
  unfold kernelRun0_A.sl.HS5_9
  rw [KRows.readCov_miss _ _ _ _ _ _ _ _ _ 0 (by decide)]
  unfold kernelRun0_A.sl.HS5_8
  rw [KRows.readCov_miss _ _ _ _ _ _ _ _ _ 0 (by decide)]
  unfold kernelRun0_A.sl.HS5_7
  exact KRows.readCov_hit _ _ _ _ _ _

theorem ld9_6 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg11.view.readCov (kernelRun0_A.sl.HS6_9 c arg1 harg1 arg11 arg12 arg13 x0) (Rect.unit (s := S24x64x128) ![6, 0, 0] S1x64x128.size inb_S24x64x128_S1x64x128_6_0_0).toLoadRect
      = (kernelRun0_A.sl.v1463 c arg1 harg1 arg11 arg12 arg13 x0) := by
  unfold kernelRun0_A.sl.HS6_9
  rw [KRows.readCov_miss _ _ _ _ _ _ _ _ _ 0 (by decide)]
  unfold kernelRun0_A.sl.HS6_8
  rw [KRows.readCov_miss _ _ _ _ _ _ _ _ _ 0 (by decide)]
  unfold kernelRun0_A.sl.HS6_7
  exact KRows.readCov_hit _ _ _ _ _ _

theorem ld9_7 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg12.view.readCov (kernelRun0_A.sl.HS7_9 c arg1 harg1 arg11 arg12 arg13 x0) (Rect.unit (s := S24x64x128) ![6, 0, 0] S1x64x128.size inb_S24x64x128_S1x64x128_6_0_0).toLoadRect
      = (kernelRun0_A.sl.v1466 c arg1 harg1 arg11 arg12 arg13 x0) := by
  unfold kernelRun0_A.sl.HS7_9
  rw [KRows.readCov_miss _ _ _ _ _ _ _ _ _ 0 (by decide)]
  unfold kernelRun0_A.sl.HS7_8
  rw [KRows.readCov_miss _ _ _ _ _ _ _ _ _ 0 (by decide)]
  unfold kernelRun0_A.sl.HS7_7
  exact KRows.readCov_hit _ _ _ _ _ _

theorem ld9_8 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg13.view.readCov (kernelRun0_A.sl.HS8_9 c arg1 harg1 arg11 arg12 arg13 x0) (Rect.unit (s := S24x64x128) ![6, 0, 0] S1x64x128.size inb_S24x64x128_S1x64x128_6_0_0).toLoadRect
      = (kernelRun0_A.sl.v1469 c arg1 harg1 arg11 arg12 arg13 x0) := by
  unfold kernelRun0_A.sl.HS8_9
  rw [KRows.readCov_miss _ _ _ _ _ _ _ _ _ 0 (by decide)]
  unfold kernelRun0_A.sl.HS8_8
  rw [KRows.readCov_miss _ _ _ _ _ _ _ _ _ 0 (by decide)]
  unfold kernelRun0_A.sl.HS8_7
  exact KRows.readCov_hit _ _ _ _ _ _

theorem ld9_9 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg14.view.readCov (kernelRun0_A.sl.HS9_9 c arg1 harg1 arg2 harg2 arg5 arg6 arg7 arg14 x0 x1) (Rect.unit (s := S24x64x128) ![6, 0, 0] S1x64x128.size inb_S24x64x128_S1x64x128_6_0_0).toLoadRect
      = (kernelRun0_A.sl.v1472 c arg1 harg1 arg2 harg2 arg5 arg6 arg7 arg14 x0 x1) := by
  unfold kernelRun0_A.sl.HS9_9
  rw [KRows.readCov_miss _ _ _ _ _ _ _ _ _ 0 (by decide)]
  unfold kernelRun0_A.sl.HS9_8
  rw [KRows.readCov_miss _ _ _ _ _ _ _ _ _ 0 (by decide)]
  unfold kernelRun0_A.sl.HS9_7
  exact KRows.readCov_hit _ _ _ _ _ _

theorem ld9_10 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg15.view.readCov (kernelRun0_A.sl.HS10_9 c arg1 harg1 arg2 harg2 arg8 arg9 arg10 arg15 x0 x1) (Rect.unit (s := S24x64x128) ![6, 0, 0] S1x64x128.size inb_S24x64x128_S1x64x128_6_0_0).toLoadRect
      = (kernelRun0_A.sl.v1475 c arg1 harg1 arg2 harg2 arg8 arg9 arg10 arg15 x0 x1) := by
  unfold kernelRun0_A.sl.HS10_9
  rw [KRows.readCov_miss _ _ _ _ _ _ _ _ _ 0 (by decide)]
  unfold kernelRun0_A.sl.HS10_8
  rw [KRows.readCov_miss _ _ _ _ _ _ _ _ _ 0 (by decide)]
  unfold kernelRun0_A.sl.HS10_7
  exact KRows.readCov_hit _ _ _ _ _ _

theorem ld9_11 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg16.view.readCov (kernelRun0_A.sl.HS11_9 c arg1 harg1 arg2 harg2 arg11 arg12 arg13 arg16 x0 x1) (Rect.unit (s := S24x64x128) ![6, 0, 0] S1x64x128.size inb_S24x64x128_S1x64x128_6_0_0).toLoadRect
      = (k0_pay426 (kernelRun0_A.sl.r_292 c arg1 harg1 arg2 harg2 arg11 arg12 arg13 arg16 x0 x1)) := by
  unfold kernelRun0_A.sl.HS11_9
  rw [KRows.readCov_miss _ _ _ _ _ _ _ _ _ 0 (by decide)]
  unfold kernelRun0_A.sl.HS11_8
  rw [KRows.readCov_miss _ _ _ _ _ _ _ _ _ 0 (by decide)]
  unfold kernelRun0_A.sl.HS11_7
  exact KRows.readCov_hit _ _ _ _ _ _

theorem ld10_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg5.view.readCov (kernelRun0_A.sl.HS0_10 c arg1 harg1 arg5 arg6 arg7 x0) (Rect.unit (s := S24x64x128) ![7, 0, 0] S1x64x128.size inb_S24x64x128_S1x64x128_7_0_0).toLoadRect
      = (k0_pay479 (kernelRun0_A.sl.r_322 c arg1 harg1 arg5 arg6 arg7 x0)) := by
  unfold kernelRun0_A.sl.HS0_10
  rw [KRows.readCov_miss _ _ _ _ _ _ _ _ _ 0 (by decide)]
  unfold kernelRun0_A.sl.HS0_9
  rw [KRows.readCov_miss _ _ _ _ _ _ _ _ _ 0 (by decide)]
  unfold kernelRun0_A.sl.HS0_8
  exact KRows.readCov_hit _ _ _ _ _ _

theorem ld10_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg6.view.readCov (kernelRun0_A.sl.HS1_10 c arg1 harg1 arg5 arg6 arg7 x0) (Rect.unit (s := S24x64x128) ![7, 0, 0] S1x64x128.size inb_S24x64x128_S1x64x128_7_0_0).toLoadRect
      = (k0_pay480 (kernelRun0_A.sl.r_323 c arg1 harg1 arg5 arg6 arg7 x0)) := by
  unfold kernelRun0_A.sl.HS1_10
  rw [KRows.readCov_miss _ _ _ _ _ _ _ _ _ 0 (by decide)]
  unfold kernelRun0_A.sl.HS1_9
  rw [KRows.readCov_miss _ _ _ _ _ _ _ _ _ 0 (by decide)]
  unfold kernelRun0_A.sl.HS1_8
  exact KRows.readCov_hit _ _ _ _ _ _

theorem ld10_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg7.view.readCov (kernelRun0_A.sl.HS2_10 c arg1 harg1 arg5 arg6 arg7 x0) (Rect.unit (s := S24x64x128) ![7, 0, 0] S1x64x128.size inb_S24x64x128_S1x64x128_7_0_0).toLoadRect
      = (k0_pay481 (kernelRun0_A.sl.r_324 c arg1 harg1 arg5 arg6 arg7 x0)) := by
  unfold kernelRun0_A.sl.HS2_10
  rw [KRows.readCov_miss _ _ _ _ _ _ _ _ _ 0 (by decide)]
  unfold kernelRun0_A.sl.HS2_9
  rw [KRows.readCov_miss _ _ _ _ _ _ _ _ _ 0 (by decide)]
  unfold kernelRun0_A.sl.HS2_8
  exact KRows.readCov_hit _ _ _ _ _ _

theorem ld10_3 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg8.view.readCov (kernelRun0_A.sl.HS3_10 c arg1 harg1 arg8 arg9 arg10 x0) (Rect.unit (s := S24x64x128) ![7, 0, 0] S1x64x128.size inb_S24x64x128_S1x64x128_7_0_0).toLoadRect
      = (k0_pay482 (kernelRun0_A.sl.r_325 c arg1 harg1 arg8 arg9 arg10 x0)) := by
  unfold kernelRun0_A.sl.HS3_10
  rw [KRows.readCov_miss _ _ _ _ _ _ _ _ _ 0 (by decide)]
  unfold kernelRun0_A.sl.HS3_9
  rw [KRows.readCov_miss _ _ _ _ _ _ _ _ _ 0 (by decide)]
  unfold kernelRun0_A.sl.HS3_8
  exact KRows.readCov_hit _ _ _ _ _ _

theorem ld10_4 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg9.view.readCov (kernelRun0_A.sl.HS4_10 c arg1 harg1 arg8 arg9 arg10 x0) (Rect.unit (s := S24x64x128) ![7, 0, 0] S1x64x128.size inb_S24x64x128_S1x64x128_7_0_0).toLoadRect
      = (k0_pay483 (kernelRun0_A.sl.r_326 c arg1 harg1 arg8 arg9 arg10 x0)) := by
  unfold kernelRun0_A.sl.HS4_10
  rw [KRows.readCov_miss _ _ _ _ _ _ _ _ _ 0 (by decide)]
  unfold kernelRun0_A.sl.HS4_9
  rw [KRows.readCov_miss _ _ _ _ _ _ _ _ _ 0 (by decide)]
  unfold kernelRun0_A.sl.HS4_8
  exact KRows.readCov_hit _ _ _ _ _ _

theorem ld10_5 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg10.view.readCov (kernelRun0_A.sl.HS5_10 c arg1 harg1 arg8 arg9 arg10 x0) (Rect.unit (s := S24x64x128) ![7, 0, 0] S1x64x128.size inb_S24x64x128_S1x64x128_7_0_0).toLoadRect
      = (kernelRun0_A.sl.r_335 c arg1 harg1 arg8 arg9 arg10 x0) := by
  unfold kernelRun0_A.sl.HS5_10
  rw [KRows.readCov_miss _ _ _ _ _ _ _ _ _ 0 (by decide)]
  unfold kernelRun0_A.sl.HS5_9
  rw [KRows.readCov_miss _ _ _ _ _ _ _ _ _ 0 (by decide)]
  unfold kernelRun0_A.sl.HS5_8
  exact KRows.readCov_hit _ _ _ _ _ _

theorem ld10_6 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg11.view.readCov (kernelRun0_A.sl.HS6_10 c arg1 harg1 arg11 arg12 arg13 x0) (Rect.unit (s := S24x64x128) ![7, 0, 0] S1x64x128.size inb_S24x64x128_S1x64x128_7_0_0).toLoadRect
      = (k0_pay485 (kernelRun0_A.sl.r_328 c arg1 harg1 arg11 arg12 arg13 x0)) := by
  unfold kernelRun0_A.sl.HS6_10
  rw [KRows.readCov_miss _ _ _ _ _ _ _ _ _ 0 (by decide)]
  unfold kernelRun0_A.sl.HS6_9
  rw [KRows.readCov_miss _ _ _ _ _ _ _ _ _ 0 (by decide)]
  unfold kernelRun0_A.sl.HS6_8
  exact KRows.readCov_hit _ _ _ _ _ _

theorem ld10_7 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg12.view.readCov (kernelRun0_A.sl.HS7_10 c arg1 harg1 arg11 arg12 arg13 x0) (Rect.unit (s := S24x64x128) ![7, 0, 0] S1x64x128.size inb_S24x64x128_S1x64x128_7_0_0).toLoadRect
      = (k0_pay486 (kernelRun0_A.sl.r_329 c arg1 harg1 arg11 arg12 arg13 x0)) := by
  unfold kernelRun0_A.sl.HS7_10
  rw [KRows.readCov_miss _ _ _ _ _ _ _ _ _ 0 (by decide)]
  unfold kernelRun0_A.sl.HS7_9
  rw [KRows.readCov_miss _ _ _ _ _ _ _ _ _ 0 (by decide)]
  unfold kernelRun0_A.sl.HS7_8
  exact KRows.readCov_hit _ _ _ _ _ _

theorem ld10_8 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg13.view.readCov (kernelRun0_A.sl.HS8_10 c arg1 harg1 arg11 arg12 arg13 x0) (Rect.unit (s := S24x64x128) ![7, 0, 0] S1x64x128.size inb_S24x64x128_S1x64x128_7_0_0).toLoadRect
      = (k0_pay487 (kernelRun0_A.sl.r_330 c arg1 harg1 arg11 arg12 arg13 x0)) := by
  unfold kernelRun0_A.sl.HS8_10
  rw [KRows.readCov_miss _ _ _ _ _ _ _ _ _ 0 (by decide)]
  unfold kernelRun0_A.sl.HS8_9
  rw [KRows.readCov_miss _ _ _ _ _ _ _ _ _ 0 (by decide)]
  unfold kernelRun0_A.sl.HS8_8
  exact KRows.readCov_hit _ _ _ _ _ _

theorem ld10_9 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg14.view.readCov (kernelRun0_A.sl.HS9_10 c arg1 harg1 arg2 harg2 arg5 arg6 arg7 arg14 x0 x1) (Rect.unit (s := S24x64x128) ![7, 0, 0] S1x64x128.size inb_S24x64x128_S1x64x128_7_0_0).toLoadRect
      = (k0_pay488 (kernelRun0_A.sl.r_332 c arg1 harg1 arg2 harg2 arg5 arg6 arg7 arg14 x0 x1)) := by
  unfold kernelRun0_A.sl.HS9_10
  rw [KRows.readCov_miss _ _ _ _ _ _ _ _ _ 0 (by decide)]
  unfold kernelRun0_A.sl.HS9_9
  rw [KRows.readCov_miss _ _ _ _ _ _ _ _ _ 0 (by decide)]
  unfold kernelRun0_A.sl.HS9_8
  exact KRows.readCov_hit _ _ _ _ _ _

theorem ld10_10 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg15.view.readCov (kernelRun0_A.sl.HS10_10 c arg1 harg1 arg2 harg2 arg8 arg9 arg10 arg15 x0 x1) (Rect.unit (s := S24x64x128) ![7, 0, 0] S1x64x128.size inb_S24x64x128_S1x64x128_7_0_0).toLoadRect
      = (k0_pay489 (kernelRun0_A.sl.r_333 c arg1 harg1 arg2 harg2 arg8 arg9 arg10 arg15 x0 x1)) := by
  unfold kernelRun0_A.sl.HS10_10
  rw [KRows.readCov_miss _ _ _ _ _ _ _ _ _ 0 (by decide)]
  unfold kernelRun0_A.sl.HS10_9
  rw [KRows.readCov_miss _ _ _ _ _ _ _ _ _ 0 (by decide)]
  unfold kernelRun0_A.sl.HS10_8
  exact KRows.readCov_hit _ _ _ _ _ _

theorem ld10_11 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg16.view.readCov (kernelRun0_A.sl.HS11_10 c arg1 harg1 arg2 harg2 arg11 arg12 arg13 arg16 x0 x1) (Rect.unit (s := S24x64x128) ![7, 0, 0] S1x64x128.size inb_S24x64x128_S1x64x128_7_0_0).toLoadRect
      = (k0_pay490 (kernelRun0_A.sl.r_334 c arg1 harg1 arg2 harg2 arg11 arg12 arg13 arg16 x0 x1)) := by
  unfold kernelRun0_A.sl.HS11_10
  rw [KRows.readCov_miss _ _ _ _ _ _ _ _ _ 0 (by decide)]
  unfold kernelRun0_A.sl.HS11_9
  rw [KRows.readCov_miss _ _ _ _ _ _ _ _ _ 0 (by decide)]
  unfold kernelRun0_A.sl.HS11_8
  exact KRows.readCov_hit _ _ _ _ _ _

theorem ld11_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg5.view.readCov (kernelRun0_A.sl.HS0_10 c arg1 harg1 arg5 arg6 arg7 x0) (Rect.unit (s := S24x64x128) ![8, 0, 0] S1x64x128.size inb_S24x64x128_S1x64x128_8_0_0).toLoadRect
      = (kernelRun0_A.sl.v1895 c arg1 harg1 arg5 arg6 arg7 x0) := by
  unfold kernelRun0_A.sl.HS0_10
  rw [KRows.readCov_miss _ _ _ _ _ _ _ _ _ 0 (by decide)]
  unfold kernelRun0_A.sl.HS0_9
  exact KRows.readCov_hit _ _ _ _ _ _

theorem ld11_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg6.view.readCov (kernelRun0_A.sl.HS1_10 c arg1 harg1 arg5 arg6 arg7 x0) (Rect.unit (s := S24x64x128) ![8, 0, 0] S1x64x128.size inb_S24x64x128_S1x64x128_8_0_0).toLoadRect
      = (kernelRun0_A.sl.v1898 c arg1 harg1 arg5 arg6 arg7 x0) := by
  unfold kernelRun0_A.sl.HS1_10
  rw [KRows.readCov_miss _ _ _ _ _ _ _ _ _ 0 (by decide)]
  unfold kernelRun0_A.sl.HS1_9
  exact KRows.readCov_hit _ _ _ _ _ _

theorem ld11_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg7.view.readCov (kernelRun0_A.sl.HS2_10 c arg1 harg1 arg5 arg6 arg7 x0) (Rect.unit (s := S24x64x128) ![8, 0, 0] S1x64x128.size inb_S24x64x128_S1x64x128_8_0_0).toLoadRect
      = (kernelRun0_A.sl.v1901 c arg1 harg1 arg5 arg6 arg7 x0) := by
  unfold kernelRun0_A.sl.HS2_10
  rw [KRows.readCov_miss _ _ _ _ _ _ _ _ _ 0 (by decide)]
  unfold kernelRun0_A.sl.HS2_9
  exact KRows.readCov_hit _ _ _ _ _ _

theorem ld11_3 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg8.view.readCov (kernelRun0_A.sl.HS3_10 c arg1 harg1 arg8 arg9 arg10 x0) (Rect.unit (s := S24x64x128) ![8, 0, 0] S1x64x128.size inb_S24x64x128_S1x64x128_8_0_0).toLoadRect
      = (kernelRun0_A.sl.v1904 c arg1 harg1 arg8 arg9 arg10 x0) := by
  unfold kernelRun0_A.sl.HS3_10
  rw [KRows.readCov_miss _ _ _ _ _ _ _ _ _ 0 (by decide)]
  unfold kernelRun0_A.sl.HS3_9
  exact KRows.readCov_hit _ _ _ _ _ _

theorem ld11_4 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg9.view.readCov (kernelRun0_A.sl.HS4_10 c arg1 harg1 arg8 arg9 arg10 x0) (Rect.unit (s := S24x64x128) ![8, 0, 0] S1x64x128.size inb_S24x64x128_S1x64x128_8_0_0).toLoadRect
      = (kernelRun0_A.sl.v1907 c arg1 harg1 arg8 arg9 arg10 x0) := by
  unfold kernelRun0_A.sl.HS4_10
  rw [KRows.readCov_miss _ _ _ _ _ _ _ _ _ 0 (by decide)]
  unfold kernelRun0_A.sl.HS4_9
  exact KRows.readCov_hit _ _ _ _ _ _

theorem ld11_5 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg10.view.readCov (kernelRun0_A.sl.HS5_10 c arg1 harg1 arg8 arg9 arg10 x0) (Rect.unit (s := S24x64x128) ![8, 0, 0] S1x64x128.size inb_S24x64x128_S1x64x128_8_0_0).toLoadRect
      = (kernelRun0_A.sl.v1910 c arg1 harg1 arg8 arg9 arg10 x0) := by
  unfold kernelRun0_A.sl.HS5_10
  rw [KRows.readCov_miss _ _ _ _ _ _ _ _ _ 0 (by decide)]
  unfold kernelRun0_A.sl.HS5_9
  exact KRows.readCov_hit _ _ _ _ _ _

theorem ld11_6 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg11.view.readCov (kernelRun0_A.sl.HS6_10 c arg1 harg1 arg11 arg12 arg13 x0) (Rect.unit (s := S24x64x128) ![8, 0, 0] S1x64x128.size inb_S24x64x128_S1x64x128_8_0_0).toLoadRect
      = (kernelRun0_A.sl.v1913 c arg1 harg1 arg11 arg12 arg13 x0) := by
  unfold kernelRun0_A.sl.HS6_10
  rw [KRows.readCov_miss _ _ _ _ _ _ _ _ _ 0 (by decide)]
  unfold kernelRun0_A.sl.HS6_9
  exact KRows.readCov_hit _ _ _ _ _ _

theorem ld11_7 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg12.view.readCov (kernelRun0_A.sl.HS7_10 c arg1 harg1 arg11 arg12 arg13 x0) (Rect.unit (s := S24x64x128) ![8, 0, 0] S1x64x128.size inb_S24x64x128_S1x64x128_8_0_0).toLoadRect
      = (kernelRun0_A.sl.v1916 c arg1 harg1 arg11 arg12 arg13 x0) := by
  unfold kernelRun0_A.sl.HS7_10
  rw [KRows.readCov_miss _ _ _ _ _ _ _ _ _ 0 (by decide)]
  unfold kernelRun0_A.sl.HS7_9
  exact KRows.readCov_hit _ _ _ _ _ _

theorem ld11_8 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg13.view.readCov (kernelRun0_A.sl.HS8_10 c arg1 harg1 arg11 arg12 arg13 x0) (Rect.unit (s := S24x64x128) ![8, 0, 0] S1x64x128.size inb_S24x64x128_S1x64x128_8_0_0).toLoadRect
      = (kernelRun0_A.sl.v1919 c arg1 harg1 arg11 arg12 arg13 x0) := by
  unfold kernelRun0_A.sl.HS8_10
  rw [KRows.readCov_miss _ _ _ _ _ _ _ _ _ 0 (by decide)]
  unfold kernelRun0_A.sl.HS8_9
  exact KRows.readCov_hit _ _ _ _ _ _

theorem ld11_9 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg14.view.readCov (kernelRun0_A.sl.HS9_10 c arg1 harg1 arg2 harg2 arg5 arg6 arg7 arg14 x0 x1) (Rect.unit (s := S24x64x128) ![8, 0, 0] S1x64x128.size inb_S24x64x128_S1x64x128_8_0_0).toLoadRect
      = (k0_pay550 (kernelRun0_A.sl.r_376 c arg1 harg1 arg2 harg2 arg5 arg6 arg7 arg14 x0 x1)) := by
  unfold kernelRun0_A.sl.HS9_10
  rw [KRows.readCov_miss _ _ _ _ _ _ _ _ _ 0 (by decide)]
  unfold kernelRun0_A.sl.HS9_9
  exact KRows.readCov_hit _ _ _ _ _ _

theorem ld11_10 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg15.view.readCov (kernelRun0_A.sl.HS10_10 c arg1 harg1 arg2 harg2 arg8 arg9 arg10 arg15 x0 x1) (Rect.unit (s := S24x64x128) ![8, 0, 0] S1x64x128.size inb_S24x64x128_S1x64x128_8_0_0).toLoadRect
      = (k0_pay551 (kernelRun0_A.sl.r_377 c arg1 harg1 arg2 harg2 arg8 arg9 arg10 arg15 x0 x1)) := by
  unfold kernelRun0_A.sl.HS10_10
  rw [KRows.readCov_miss _ _ _ _ _ _ _ _ _ 0 (by decide)]
  unfold kernelRun0_A.sl.HS10_9
  exact KRows.readCov_hit _ _ _ _ _ _

theorem ld11_11 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg16.view.readCov (kernelRun0_A.sl.HS11_10 c arg1 harg1 arg2 harg2 arg11 arg12 arg13 arg16 x0 x1) (Rect.unit (s := S24x64x128) ![8, 0, 0] S1x64x128.size inb_S24x64x128_S1x64x128_8_0_0).toLoadRect
      = (k0_pay552 (kernelRun0_A.sl.r_378 c arg1 harg1 arg2 harg2 arg11 arg12 arg13 arg16 x0 x1)) := by
  unfold kernelRun0_A.sl.HS11_10
  rw [KRows.readCov_miss _ _ _ _ _ _ _ _ _ 0 (by decide)]
  unfold kernelRun0_A.sl.HS11_9
  exact KRows.readCov_hit _ _ _ _ _ _

theorem ld12_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg5.view.readCov (kernelRun0_A.sl.HS0_10 c arg1 harg1 arg5 arg6 arg7 x0) (Rect.unit (s := S24x64x128) ![9, 0, 0] S1x64x128.size inb_S24x64x128_S1x64x128_9_0_0).toLoadRect
      = (k0_pay604 (kernelRun0_A.sl.r_411 c arg1 harg1 arg5 arg6 arg7 x0)) := by
  unfold kernelRun0_A.sl.HS0_10
  exact KRows.readCov_hit _ _ _ _ _ _

theorem ld12_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg6.view.readCov (kernelRun0_A.sl.HS1_10 c arg1 harg1 arg5 arg6 arg7 x0) (Rect.unit (s := S24x64x128) ![9, 0, 0] S1x64x128.size inb_S24x64x128_S1x64x128_9_0_0).toLoadRect
      = (k0_pay605 (kernelRun0_A.sl.r_412 c arg1 harg1 arg5 arg6 arg7 x0)) := by
  unfold kernelRun0_A.sl.HS1_10
  exact KRows.readCov_hit _ _ _ _ _ _

theorem ld12_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg7.view.readCov (kernelRun0_A.sl.HS2_10 c arg1 harg1 arg5 arg6 arg7 x0) (Rect.unit (s := S24x64x128) ![9, 0, 0] S1x64x128.size inb_S24x64x128_S1x64x128_9_0_0).toLoadRect
      = (k0_pay606 (kernelRun0_A.sl.r_413 c arg1 harg1 arg5 arg6 arg7 x0)) := by
  unfold kernelRun0_A.sl.HS2_10
  exact KRows.readCov_hit _ _ _ _ _ _

theorem ld12_3 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg8.view.readCov (kernelRun0_A.sl.HS3_10 c arg1 harg1 arg8 arg9 arg10 x0) (Rect.unit (s := S24x64x128) ![9, 0, 0] S1x64x128.size inb_S24x64x128_S1x64x128_9_0_0).toLoadRect
      = (k0_pay607 (kernelRun0_A.sl.r_414 c arg1 harg1 arg8 arg9 arg10 x0)) := by
  unfold kernelRun0_A.sl.HS3_10
  exact KRows.readCov_hit _ _ _ _ _ _

theorem ld12_4 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg9.view.readCov (kernelRun0_A.sl.HS4_10 c arg1 harg1 arg8 arg9 arg10 x0) (Rect.unit (s := S24x64x128) ![9, 0, 0] S1x64x128.size inb_S24x64x128_S1x64x128_9_0_0).toLoadRect
      = (k0_pay608 (kernelRun0_A.sl.r_415 c arg1 harg1 arg8 arg9 arg10 x0)) := by
  unfold kernelRun0_A.sl.HS4_10
  exact KRows.readCov_hit _ _ _ _ _ _

theorem ld12_5 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg10.view.readCov (kernelRun0_A.sl.HS5_10 c arg1 harg1 arg8 arg9 arg10 x0) (Rect.unit (s := S24x64x128) ![9, 0, 0] S1x64x128.size inb_S24x64x128_S1x64x128_9_0_0).toLoadRect
      = (k0_pay609 (kernelRun0_A.sl.r_416 c arg1 harg1 arg8 arg9 arg10 x0)) := by
  unfold kernelRun0_A.sl.HS5_10
  exact KRows.readCov_hit _ _ _ _ _ _

theorem ld12_6 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg11.view.readCov (kernelRun0_A.sl.HS6_10 c arg1 harg1 arg11 arg12 arg13 x0) (Rect.unit (s := S24x64x128) ![9, 0, 0] S1x64x128.size inb_S24x64x128_S1x64x128_9_0_0).toLoadRect
      = (k0_pay610 (kernelRun0_A.sl.r_417 c arg1 harg1 arg11 arg12 arg13 x0)) := by
  unfold kernelRun0_A.sl.HS6_10
  exact KRows.readCov_hit _ _ _ _ _ _

theorem ld12_7 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg12.view.readCov (kernelRun0_A.sl.HS7_10 c arg1 harg1 arg11 arg12 arg13 x0) (Rect.unit (s := S24x64x128) ![9, 0, 0] S1x64x128.size inb_S24x64x128_S1x64x128_9_0_0).toLoadRect
      = (k0_pay611 (kernelRun0_A.sl.r_420 c arg1 harg1 arg11 arg12 arg13 x0)) := by
  unfold kernelRun0_A.sl.HS7_10
  exact KRows.readCov_hit _ _ _ _ _ _

theorem ld12_8 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg13.view.readCov (kernelRun0_A.sl.HS8_10 c arg1 harg1 arg11 arg12 arg13 x0) (Rect.unit (s := S24x64x128) ![9, 0, 0] S1x64x128.size inb_S24x64x128_S1x64x128_9_0_0).toLoadRect
      = (k0_pay612 (kernelRun0_A.sl.r_421 c arg1 harg1 arg11 arg12 arg13 x0)) := by
  unfold kernelRun0_A.sl.HS8_10
  exact KRows.readCov_hit _ _ _ _ _ _

theorem ld12_9 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg14.view.readCov (kernelRun0_A.sl.HS9_10 c arg1 harg1 arg2 harg2 arg5 arg6 arg7 arg14 x0 x1) (Rect.unit (s := S24x64x128) ![9, 0, 0] S1x64x128.size inb_S24x64x128_S1x64x128_9_0_0).toLoadRect
      = (k0_pay613 (kernelRun0_A.sl.r_422 c arg1 harg1 arg2 harg2 arg5 arg6 arg7 arg14 x0 x1)) := by
  unfold kernelRun0_A.sl.HS9_10
  exact KRows.readCov_hit _ _ _ _ _ _

theorem ld12_10 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg15.view.readCov (kernelRun0_A.sl.HS10_10 c arg1 harg1 arg2 harg2 arg8 arg9 arg10 arg15 x0 x1) (Rect.unit (s := S24x64x128) ![9, 0, 0] S1x64x128.size inb_S24x64x128_S1x64x128_9_0_0).toLoadRect
      = (k0_pay614 (kernelRun0_A.sl.r_423 c arg1 harg1 arg2 harg2 arg8 arg9 arg10 arg15 x0 x1)) := by
  unfold kernelRun0_A.sl.HS10_10
  exact KRows.readCov_hit _ _ _ _ _ _

theorem ld12_11 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg16.view.readCov (kernelRun0_A.sl.HS11_10 c arg1 harg1 arg2 harg2 arg11 arg12 arg13 arg16 x0 x1) (Rect.unit (s := S24x64x128) ![9, 0, 0] S1x64x128.size inb_S24x64x128_S1x64x128_9_0_0).toLoadRect
      = (k0_pay615 (kernelRun0_A.sl.r_424 c arg1 harg1 arg2 harg2 arg11 arg12 arg13 arg16 x0 x1)) := by
  unfold kernelRun0_A.sl.HS11_10
  exact KRows.readCov_hit _ _ _ _ _ _

theorem ld13_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg5.view.readCov (kernelRun0_A.sl.HS0_11 c arg1 harg1 arg5 arg6 arg7 x0) (Rect.unit (s := S24x64x128) ![9, 0, 0] S1x64x128.size inb_S24x64x128_S1x64x128_9_0_0).toLoadRect
      = (k0_pay604 (kernelRun0_A.sl.r_411 c arg1 harg1 arg5 arg6 arg7 x0)) := by
  unfold kernelRun0_A.sl.HS0_11
  rw [KRows.readCov_miss _ _ _ _ _ _ _ _ _ 0 (by decide)]
  unfold kernelRun0_A.sl.HS0_10
  exact KRows.readCov_hit _ _ _ _ _ _

theorem ld13_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg6.view.readCov (kernelRun0_A.sl.HS1_11 c arg1 harg1 arg5 arg6 arg7 x0) (Rect.unit (s := S24x64x128) ![9, 0, 0] S1x64x128.size inb_S24x64x128_S1x64x128_9_0_0).toLoadRect
      = (k0_pay605 (kernelRun0_A.sl.r_412 c arg1 harg1 arg5 arg6 arg7 x0)) := by
  unfold kernelRun0_A.sl.HS1_11
  rw [KRows.readCov_miss _ _ _ _ _ _ _ _ _ 0 (by decide)]
  unfold kernelRun0_A.sl.HS1_10
  exact KRows.readCov_hit _ _ _ _ _ _

theorem ld13_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg7.view.readCov (kernelRun0_A.sl.HS2_11 c arg1 harg1 arg5 arg6 arg7 x0) (Rect.unit (s := S24x64x128) ![9, 0, 0] S1x64x128.size inb_S24x64x128_S1x64x128_9_0_0).toLoadRect
      = (k0_pay606 (kernelRun0_A.sl.r_413 c arg1 harg1 arg5 arg6 arg7 x0)) := by
  unfold kernelRun0_A.sl.HS2_11
  rw [KRows.readCov_miss _ _ _ _ _ _ _ _ _ 0 (by decide)]
  unfold kernelRun0_A.sl.HS2_10
  exact KRows.readCov_hit _ _ _ _ _ _

theorem ld13_3 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg8.view.readCov (kernelRun0_A.sl.HS3_11 c arg1 harg1 arg8 arg9 arg10 x0) (Rect.unit (s := S24x64x128) ![9, 0, 0] S1x64x128.size inb_S24x64x128_S1x64x128_9_0_0).toLoadRect
      = (k0_pay607 (kernelRun0_A.sl.r_414 c arg1 harg1 arg8 arg9 arg10 x0)) := by
  unfold kernelRun0_A.sl.HS3_11
  rw [KRows.readCov_miss _ _ _ _ _ _ _ _ _ 0 (by decide)]
  unfold kernelRun0_A.sl.HS3_10
  exact KRows.readCov_hit _ _ _ _ _ _

theorem ld13_4 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg9.view.readCov (kernelRun0_A.sl.HS4_11 c arg1 harg1 arg8 arg9 arg10 x0) (Rect.unit (s := S24x64x128) ![9, 0, 0] S1x64x128.size inb_S24x64x128_S1x64x128_9_0_0).toLoadRect
      = (k0_pay608 (kernelRun0_A.sl.r_415 c arg1 harg1 arg8 arg9 arg10 x0)) := by
  unfold kernelRun0_A.sl.HS4_11
  rw [KRows.readCov_miss _ _ _ _ _ _ _ _ _ 0 (by decide)]
  unfold kernelRun0_A.sl.HS4_10
  exact KRows.readCov_hit _ _ _ _ _ _

theorem ld13_5 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg10.view.readCov (kernelRun0_A.sl.HS5_11 c arg1 harg1 arg8 arg9 arg10 x0) (Rect.unit (s := S24x64x128) ![9, 0, 0] S1x64x128.size inb_S24x64x128_S1x64x128_9_0_0).toLoadRect
      = (k0_pay609 (kernelRun0_A.sl.r_416 c arg1 harg1 arg8 arg9 arg10 x0)) := by
  unfold kernelRun0_A.sl.HS5_11
  rw [KRows.readCov_miss _ _ _ _ _ _ _ _ _ 0 (by decide)]
  unfold kernelRun0_A.sl.HS5_10
  exact KRows.readCov_hit _ _ _ _ _ _

theorem ld13_6 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg11.view.readCov (kernelRun0_A.sl.HS6_11 c arg1 harg1 arg11 arg12 arg13 x0) (Rect.unit (s := S24x64x128) ![9, 0, 0] S1x64x128.size inb_S24x64x128_S1x64x128_9_0_0).toLoadRect
      = (k0_pay610 (kernelRun0_A.sl.r_417 c arg1 harg1 arg11 arg12 arg13 x0)) := by
  unfold kernelRun0_A.sl.HS6_11
  rw [KRows.readCov_miss _ _ _ _ _ _ _ _ _ 0 (by decide)]
  unfold kernelRun0_A.sl.HS6_10
  exact KRows.readCov_hit _ _ _ _ _ _

theorem ld13_7 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg12.view.readCov (kernelRun0_A.sl.HS7_11 c arg1 harg1 arg11 arg12 arg13 x0) (Rect.unit (s := S24x64x128) ![9, 0, 0] S1x64x128.size inb_S24x64x128_S1x64x128_9_0_0).toLoadRect
      = (k0_pay611 (kernelRun0_A.sl.r_420 c arg1 harg1 arg11 arg12 arg13 x0)) := by
  unfold kernelRun0_A.sl.HS7_11
  rw [KRows.readCov_miss _ _ _ _ _ _ _ _ _ 0 (by decide)]
  unfold kernelRun0_A.sl.HS7_10
  exact KRows.readCov_hit _ _ _ _ _ _

theorem ld13_8 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg13.view.readCov (kernelRun0_A.sl.HS8_11 c arg1 harg1 arg11 arg12 arg13 x0) (Rect.unit (s := S24x64x128) ![9, 0, 0] S1x64x128.size inb_S24x64x128_S1x64x128_9_0_0).toLoadRect
      = (k0_pay612 (kernelRun0_A.sl.r_421 c arg1 harg1 arg11 arg12 arg13 x0)) := by
  unfold kernelRun0_A.sl.HS8_11
  rw [KRows.readCov_miss _ _ _ _ _ _ _ _ _ 0 (by decide)]
  unfold kernelRun0_A.sl.HS8_10
  exact KRows.readCov_hit _ _ _ _ _ _

theorem ld13_9 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg14.view.readCov (kernelRun0_A.sl.HS9_11 c arg1 harg1 arg2 harg2 arg5 arg6 arg7 arg14 x0 x1) (Rect.unit (s := S24x64x128) ![9, 0, 0] S1x64x128.size inb_S24x64x128_S1x64x128_9_0_0).toLoadRect
      = (k0_pay613 (kernelRun0_A.sl.r_422 c arg1 harg1 arg2 harg2 arg5 arg6 arg7 arg14 x0 x1)) := by
  unfold kernelRun0_A.sl.HS9_11
  rw [KRows.readCov_miss _ _ _ _ _ _ _ _ _ 0 (by decide)]
  unfold kernelRun0_A.sl.HS9_10
  exact KRows.readCov_hit _ _ _ _ _ _

theorem ld13_10 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg15.view.readCov (kernelRun0_A.sl.HS10_11 c arg1 harg1 arg2 harg2 arg8 arg9 arg10 arg15 x0 x1) (Rect.unit (s := S24x64x128) ![9, 0, 0] S1x64x128.size inb_S24x64x128_S1x64x128_9_0_0).toLoadRect
      = (k0_pay614 (kernelRun0_A.sl.r_423 c arg1 harg1 arg2 harg2 arg8 arg9 arg10 arg15 x0 x1)) := by
  unfold kernelRun0_A.sl.HS10_11
  rw [KRows.readCov_miss _ _ _ _ _ _ _ _ _ 0 (by decide)]
  unfold kernelRun0_A.sl.HS10_10
  exact KRows.readCov_hit _ _ _ _ _ _

theorem ld13_11 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg16.view.readCov (kernelRun0_A.sl.HS11_11 c arg1 harg1 arg2 harg2 arg11 arg12 arg13 arg16 x0 x1) (Rect.unit (s := S24x64x128) ![9, 0, 0] S1x64x128.size inb_S24x64x128_S1x64x128_9_0_0).toLoadRect
      = (k0_pay615 (kernelRun0_A.sl.r_424 c arg1 harg1 arg2 harg2 arg11 arg12 arg13 arg16 x0 x1)) := by
  unfold kernelRun0_A.sl.HS11_11
  rw [KRows.readCov_miss _ _ _ _ _ _ _ _ _ 0 (by decide)]
  unfold kernelRun0_A.sl.HS11_10
  exact KRows.readCov_hit _ _ _ _ _ _

theorem ld14_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg5.view.readCov (kernelRun0_A.sl.HS0_12 c arg1 harg1 arg5 arg6 arg7 x0) (Rect.unit (s := S24x64x128) ![9, 0, 0] S1x64x128.size inb_S24x64x128_S1x64x128_9_0_0).toLoadRect
      = (k0_pay604 (kernelRun0_A.sl.r_411 c arg1 harg1 arg5 arg6 arg7 x0)) := by
  unfold kernelRun0_A.sl.HS0_12
  rw [KRows.readCov_miss _ _ _ _ _ _ _ _ _ 0 (by decide)]
  unfold kernelRun0_A.sl.HS0_11
  rw [KRows.readCov_miss _ _ _ _ _ _ _ _ _ 0 (by decide)]
  unfold kernelRun0_A.sl.HS0_10
  exact KRows.readCov_hit _ _ _ _ _ _

theorem ld14_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg6.view.readCov (kernelRun0_A.sl.HS1_12 c arg1 harg1 arg5 arg6 arg7 x0) (Rect.unit (s := S24x64x128) ![9, 0, 0] S1x64x128.size inb_S24x64x128_S1x64x128_9_0_0).toLoadRect
      = (k0_pay605 (kernelRun0_A.sl.r_412 c arg1 harg1 arg5 arg6 arg7 x0)) := by
  unfold kernelRun0_A.sl.HS1_12
  rw [KRows.readCov_miss _ _ _ _ _ _ _ _ _ 0 (by decide)]
  unfold kernelRun0_A.sl.HS1_11
  rw [KRows.readCov_miss _ _ _ _ _ _ _ _ _ 0 (by decide)]
  unfold kernelRun0_A.sl.HS1_10
  exact KRows.readCov_hit _ _ _ _ _ _

theorem ld14_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg7.view.readCov (kernelRun0_A.sl.HS2_12 c arg1 harg1 arg5 arg6 arg7 x0) (Rect.unit (s := S24x64x128) ![9, 0, 0] S1x64x128.size inb_S24x64x128_S1x64x128_9_0_0).toLoadRect
      = (k0_pay606 (kernelRun0_A.sl.r_413 c arg1 harg1 arg5 arg6 arg7 x0)) := by
  unfold kernelRun0_A.sl.HS2_12
  rw [KRows.readCov_miss _ _ _ _ _ _ _ _ _ 0 (by decide)]
  unfold kernelRun0_A.sl.HS2_11
  rw [KRows.readCov_miss _ _ _ _ _ _ _ _ _ 0 (by decide)]
  unfold kernelRun0_A.sl.HS2_10
  exact KRows.readCov_hit _ _ _ _ _ _

theorem ld14_3 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg8.view.readCov (kernelRun0_A.sl.HS3_12 c arg1 harg1 arg8 arg9 arg10 x0) (Rect.unit (s := S24x64x128) ![9, 0, 0] S1x64x128.size inb_S24x64x128_S1x64x128_9_0_0).toLoadRect
      = (k0_pay607 (kernelRun0_A.sl.r_414 c arg1 harg1 arg8 arg9 arg10 x0)) := by
  unfold kernelRun0_A.sl.HS3_12
  rw [KRows.readCov_miss _ _ _ _ _ _ _ _ _ 0 (by decide)]
  unfold kernelRun0_A.sl.HS3_11
  rw [KRows.readCov_miss _ _ _ _ _ _ _ _ _ 0 (by decide)]
  unfold kernelRun0_A.sl.HS3_10
  exact KRows.readCov_hit _ _ _ _ _ _

theorem ld14_4 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg9.view.readCov (kernelRun0_A.sl.HS4_12 c arg1 harg1 arg8 arg9 arg10 x0) (Rect.unit (s := S24x64x128) ![9, 0, 0] S1x64x128.size inb_S24x64x128_S1x64x128_9_0_0).toLoadRect
      = (k0_pay608 (kernelRun0_A.sl.r_415 c arg1 harg1 arg8 arg9 arg10 x0)) := by
  unfold kernelRun0_A.sl.HS4_12
  rw [KRows.readCov_miss _ _ _ _ _ _ _ _ _ 0 (by decide)]
  unfold kernelRun0_A.sl.HS4_11
  rw [KRows.readCov_miss _ _ _ _ _ _ _ _ _ 0 (by decide)]
  unfold kernelRun0_A.sl.HS4_10
  exact KRows.readCov_hit _ _ _ _ _ _

theorem ld14_5 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg10.view.readCov (kernelRun0_A.sl.HS5_12 c arg1 harg1 arg8 arg9 arg10 x0) (Rect.unit (s := S24x64x128) ![9, 0, 0] S1x64x128.size inb_S24x64x128_S1x64x128_9_0_0).toLoadRect
      = (k0_pay609 (kernelRun0_A.sl.r_416 c arg1 harg1 arg8 arg9 arg10 x0)) := by
  unfold kernelRun0_A.sl.HS5_12
  rw [KRows.readCov_miss _ _ _ _ _ _ _ _ _ 0 (by decide)]
  unfold kernelRun0_A.sl.HS5_11
  rw [KRows.readCov_miss _ _ _ _ _ _ _ _ _ 0 (by decide)]
  unfold kernelRun0_A.sl.HS5_10
  exact KRows.readCov_hit _ _ _ _ _ _

theorem ld14_6 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg11.view.readCov (kernelRun0_A.sl.HS6_12 c arg1 harg1 arg11 arg12 arg13 x0) (Rect.unit (s := S24x64x128) ![9, 0, 0] S1x64x128.size inb_S24x64x128_S1x64x128_9_0_0).toLoadRect
      = (k0_pay610 (kernelRun0_A.sl.r_417 c arg1 harg1 arg11 arg12 arg13 x0)) := by
  unfold kernelRun0_A.sl.HS6_12
  rw [KRows.readCov_miss _ _ _ _ _ _ _ _ _ 0 (by decide)]
  unfold kernelRun0_A.sl.HS6_11
  rw [KRows.readCov_miss _ _ _ _ _ _ _ _ _ 0 (by decide)]
  unfold kernelRun0_A.sl.HS6_10
  exact KRows.readCov_hit _ _ _ _ _ _

theorem ld14_7 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg12.view.readCov (kernelRun0_A.sl.HS7_12 c arg1 harg1 arg11 arg12 arg13 x0) (Rect.unit (s := S24x64x128) ![9, 0, 0] S1x64x128.size inb_S24x64x128_S1x64x128_9_0_0).toLoadRect
      = (k0_pay611 (kernelRun0_A.sl.r_420 c arg1 harg1 arg11 arg12 arg13 x0)) := by
  unfold kernelRun0_A.sl.HS7_12
  rw [KRows.readCov_miss _ _ _ _ _ _ _ _ _ 0 (by decide)]
  unfold kernelRun0_A.sl.HS7_11
  rw [KRows.readCov_miss _ _ _ _ _ _ _ _ _ 0 (by decide)]
  unfold kernelRun0_A.sl.HS7_10
  exact KRows.readCov_hit _ _ _ _ _ _

theorem ld14_8 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg13.view.readCov (kernelRun0_A.sl.HS8_12 c arg1 harg1 arg11 arg12 arg13 x0) (Rect.unit (s := S24x64x128) ![9, 0, 0] S1x64x128.size inb_S24x64x128_S1x64x128_9_0_0).toLoadRect
      = (k0_pay612 (kernelRun0_A.sl.r_421 c arg1 harg1 arg11 arg12 arg13 x0)) := by
  unfold kernelRun0_A.sl.HS8_12
  rw [KRows.readCov_miss _ _ _ _ _ _ _ _ _ 0 (by decide)]
  unfold kernelRun0_A.sl.HS8_11
  rw [KRows.readCov_miss _ _ _ _ _ _ _ _ _ 0 (by decide)]
  unfold kernelRun0_A.sl.HS8_10
  exact KRows.readCov_hit _ _ _ _ _ _

theorem ld14_9 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg14.view.readCov (kernelRun0_A.sl.HS9_12 c arg1 harg1 arg2 harg2 arg5 arg6 arg7 arg14 x0 x1) (Rect.unit (s := S24x64x128) ![9, 0, 0] S1x64x128.size inb_S24x64x128_S1x64x128_9_0_0).toLoadRect
      = (k0_pay613 (kernelRun0_A.sl.r_422 c arg1 harg1 arg2 harg2 arg5 arg6 arg7 arg14 x0 x1)) := by
  unfold kernelRun0_A.sl.HS9_12
  rw [KRows.readCov_miss _ _ _ _ _ _ _ _ _ 0 (by decide)]
  unfold kernelRun0_A.sl.HS9_11
  rw [KRows.readCov_miss _ _ _ _ _ _ _ _ _ 0 (by decide)]
  unfold kernelRun0_A.sl.HS9_10
  exact KRows.readCov_hit _ _ _ _ _ _

theorem ld14_10 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg15.view.readCov (kernelRun0_A.sl.HS10_12 c arg1 harg1 arg2 harg2 arg8 arg9 arg10 arg15 x0 x1) (Rect.unit (s := S24x64x128) ![9, 0, 0] S1x64x128.size inb_S24x64x128_S1x64x128_9_0_0).toLoadRect
      = (k0_pay614 (kernelRun0_A.sl.r_423 c arg1 harg1 arg2 harg2 arg8 arg9 arg10 arg15 x0 x1)) := by
  unfold kernelRun0_A.sl.HS10_12
  rw [KRows.readCov_miss _ _ _ _ _ _ _ _ _ 0 (by decide)]
  unfold kernelRun0_A.sl.HS10_11
  rw [KRows.readCov_miss _ _ _ _ _ _ _ _ _ 0 (by decide)]
  unfold kernelRun0_A.sl.HS10_10
  exact KRows.readCov_hit _ _ _ _ _ _

theorem ld14_11 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg16.view.readCov (kernelRun0_A.sl.HS11_12 c arg1 harg1 arg2 harg2 arg11 arg12 arg13 arg16 x0 x1) (Rect.unit (s := S24x64x128) ![9, 0, 0] S1x64x128.size inb_S24x64x128_S1x64x128_9_0_0).toLoadRect
      = (k0_pay615 (kernelRun0_A.sl.r_424 c arg1 harg1 arg2 harg2 arg11 arg12 arg13 arg16 x0 x1)) := by
  unfold kernelRun0_A.sl.HS11_12
  rw [KRows.readCov_miss _ _ _ _ _ _ _ _ _ 0 (by decide)]
  unfold kernelRun0_A.sl.HS11_11
  rw [KRows.readCov_miss _ _ _ _ _ _ _ _ _ 0 (by decide)]
  unfold kernelRun0_A.sl.HS11_10
  exact KRows.readCov_hit _ _ _ _ _ _

theorem ld15_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg5.view.readCov (kernelRun0_A.sl.HS0_13 c arg1 harg1 arg5 arg6 arg7 x0) (Rect.unit (s := S24x64x128) ![12, 0, 0] S1x64x128.size inb_S24x64x128_S1x64x128_12_0_0).toLoadRect
      = (k0_pay698 (kernelRun0_A.sl.r_466 c arg1 harg1 arg5 arg6 arg7 x0)) := by
  unfold kernelRun0_A.sl.HS0_13
  rw [KRows.readCov_miss _ _ _ _ _ _ _ _ _ 0 (by decide)]
  unfold kernelRun0_A.sl.HS0_12
  rw [KRows.readCov_miss _ _ _ _ _ _ _ _ _ 0 (by decide)]
  unfold kernelRun0_A.sl.HS0_11
  exact KRows.readCov_hit _ _ _ _ _ _

theorem ld15_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg6.view.readCov (kernelRun0_A.sl.HS1_13 c arg1 harg1 arg5 arg6 arg7 x0) (Rect.unit (s := S24x64x128) ![12, 0, 0] S1x64x128.size inb_S24x64x128_S1x64x128_12_0_0).toLoadRect
      = (k0_pay699 (kernelRun0_A.sl.r_467 c arg1 harg1 arg5 arg6 arg7 x0)) := by
  unfold kernelRun0_A.sl.HS1_13
  rw [KRows.readCov_miss _ _ _ _ _ _ _ _ _ 0 (by decide)]
  unfold kernelRun0_A.sl.HS1_12
  rw [KRows.readCov_miss _ _ _ _ _ _ _ _ _ 0 (by decide)]
  unfold kernelRun0_A.sl.HS1_11
  exact KRows.readCov_hit _ _ _ _ _ _

theorem ld15_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg7.view.readCov (kernelRun0_A.sl.HS2_13 c arg1 harg1 arg5 arg6 arg7 x0) (Rect.unit (s := S24x64x128) ![12, 0, 0] S1x64x128.size inb_S24x64x128_S1x64x128_12_0_0).toLoadRect
      = (k0_pay700 (kernelRun0_A.sl.r_468 c arg1 harg1 arg5 arg6 arg7 x0)) := by
  unfold kernelRun0_A.sl.HS2_13
  rw [KRows.readCov_miss _ _ _ _ _ _ _ _ _ 0 (by decide)]
  unfold kernelRun0_A.sl.HS2_12
  rw [KRows.readCov_miss _ _ _ _ _ _ _ _ _ 0 (by decide)]
  unfold kernelRun0_A.sl.HS2_11
  exact KRows.readCov_hit _ _ _ _ _ _

theorem ld15_3 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg8.view.readCov (kernelRun0_A.sl.HS3_13 c arg1 harg1 arg8 arg9 arg10 x0) (Rect.unit (s := S24x64x128) ![12, 0, 0] S1x64x128.size inb_S24x64x128_S1x64x128_12_0_0).toLoadRect
      = (k0_pay701 (kernelRun0_A.sl.r_469 c arg1 harg1 arg8 arg9 arg10 x0)) := by
  unfold kernelRun0_A.sl.HS3_13
  rw [KRows.readCov_miss _ _ _ _ _ _ _ _ _ 0 (by decide)]
  unfold kernelRun0_A.sl.HS3_12
  rw [KRows.readCov_miss _ _ _ _ _ _ _ _ _ 0 (by decide)]
  unfold kernelRun0_A.sl.HS3_11
  exact KRows.readCov_hit _ _ _ _ _ _

theorem ld15_4 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg9.view.readCov (kernelRun0_A.sl.HS4_13 c arg1 harg1 arg8 arg9 arg10 x0) (Rect.unit (s := S24x64x128) ![12, 0, 0] S1x64x128.size inb_S24x64x128_S1x64x128_12_0_0).toLoadRect
      = (k0_pay702 (kernelRun0_A.sl.r_470 c arg1 harg1 arg8 arg9 arg10 x0)) := by
  unfold kernelRun0_A.sl.HS4_13
  rw [KRows.readCov_miss _ _ _ _ _ _ _ _ _ 0 (by decide)]
  unfold kernelRun0_A.sl.HS4_12
  rw [KRows.readCov_miss _ _ _ _ _ _ _ _ _ 0 (by decide)]
  unfold kernelRun0_A.sl.HS4_11
  exact KRows.readCov_hit _ _ _ _ _ _

theorem ld15_5 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg10.view.readCov (kernelRun0_A.sl.HS5_13 c arg1 harg1 arg8 arg9 arg10 x0) (Rect.unit (s := S24x64x128) ![12, 0, 0] S1x64x128.size inb_S24x64x128_S1x64x128_12_0_0).toLoadRect
      = (k0_pay703 (kernelRun0_A.sl.r_471 c arg1 harg1 arg8 arg9 arg10 x0)) := by
  unfold kernelRun0_A.sl.HS5_13
  rw [KRows.readCov_miss _ _ _ _ _ _ _ _ _ 0 (by decide)]
  unfold kernelRun0_A.sl.HS5_12
  rw [KRows.readCov_miss _ _ _ _ _ _ _ _ _ 0 (by decide)]
  unfold kernelRun0_A.sl.HS5_11
  exact KRows.readCov_hit _ _ _ _ _ _

theorem ld15_6 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg11.view.readCov (kernelRun0_A.sl.HS6_13 c arg1 harg1 arg11 arg12 arg13 x0) (Rect.unit (s := S24x64x128) ![12, 0, 0] S1x64x128.size inb_S24x64x128_S1x64x128_12_0_0).toLoadRect
      = (k0_pay704 (kernelRun0_A.sl.r_472 c arg1 harg1 arg11 arg12 arg13 x0)) := by
  unfold kernelRun0_A.sl.HS6_13
  rw [KRows.readCov_miss _ _ _ _ _ _ _ _ _ 0 (by decide)]
  unfold kernelRun0_A.sl.HS6_12
  rw [KRows.readCov_miss _ _ _ _ _ _ _ _ _ 0 (by decide)]
  unfold kernelRun0_A.sl.HS6_11
  exact KRows.readCov_hit _ _ _ _ _ _

theorem ld15_7 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg12.view.readCov (kernelRun0_A.sl.HS7_13 c arg1 harg1 arg11 arg12 arg13 x0) (Rect.unit (s := S24x64x128) ![12, 0, 0] S1x64x128.size inb_S24x64x128_S1x64x128_12_0_0).toLoadRect
      = (k0_pay705 (kernelRun0_A.sl.r_473 c arg1 harg1 arg11 arg12 arg13 x0)) := by
  unfold kernelRun0_A.sl.HS7_13
  rw [KRows.readCov_miss _ _ _ _ _ _ _ _ _ 0 (by decide)]
  unfold kernelRun0_A.sl.HS7_12
  rw [KRows.readCov_miss _ _ _ _ _ _ _ _ _ 0 (by decide)]
  unfold kernelRun0_A.sl.HS7_11
  exact KRows.readCov_hit _ _ _ _ _ _

theorem ld15_8 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg13.view.readCov (kernelRun0_A.sl.HS8_13 c arg1 harg1 arg11 arg12 arg13 x0) (Rect.unit (s := S24x64x128) ![12, 0, 0] S1x64x128.size inb_S24x64x128_S1x64x128_12_0_0).toLoadRect
      = (k0_pay706 (kernelRun0_A.sl.r_474 c arg1 harg1 arg11 arg12 arg13 x0)) := by
  unfold kernelRun0_A.sl.HS8_13
  rw [KRows.readCov_miss _ _ _ _ _ _ _ _ _ 0 (by decide)]
  unfold kernelRun0_A.sl.HS8_12
  rw [KRows.readCov_miss _ _ _ _ _ _ _ _ _ 0 (by decide)]
  unfold kernelRun0_A.sl.HS8_11
  exact KRows.readCov_hit _ _ _ _ _ _

theorem ld15_9 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg14.view.readCov (kernelRun0_A.sl.HS9_13 c arg1 harg1 arg2 harg2 arg5 arg6 arg7 arg14 x0 x1) (Rect.unit (s := S24x64x128) ![12, 0, 0] S1x64x128.size inb_S24x64x128_S1x64x128_12_0_0).toLoadRect
      = (k0_pay707 (kernelRun0_A.sl.r_475 c arg1 harg1 arg2 harg2 arg5 arg6 arg7 arg14 x0 x1)) := by
  unfold kernelRun0_A.sl.HS9_13
  rw [KRows.readCov_miss _ _ _ _ _ _ _ _ _ 0 (by decide)]
  unfold kernelRun0_A.sl.HS9_12
  rw [KRows.readCov_miss _ _ _ _ _ _ _ _ _ 0 (by decide)]
  unfold kernelRun0_A.sl.HS9_11
  exact KRows.readCov_hit _ _ _ _ _ _

theorem ld15_10 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg15.view.readCov (kernelRun0_A.sl.HS10_13 c arg1 harg1 arg2 harg2 arg8 arg9 arg10 arg15 x0 x1) (Rect.unit (s := S24x64x128) ![12, 0, 0] S1x64x128.size inb_S24x64x128_S1x64x128_12_0_0).toLoadRect
      = (k0_pay708 (kernelRun0_A.sl.r_477 c arg1 harg1 arg2 harg2 arg8 arg9 arg10 arg15 x0 x1)) := by
  unfold kernelRun0_A.sl.HS10_13
  rw [KRows.readCov_miss _ _ _ _ _ _ _ _ _ 0 (by decide)]
  unfold kernelRun0_A.sl.HS10_12
  rw [KRows.readCov_miss _ _ _ _ _ _ _ _ _ 0 (by decide)]
  unfold kernelRun0_A.sl.HS10_11
  exact KRows.readCov_hit _ _ _ _ _ _

theorem ld15_11 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg16.view.readCov (kernelRun0_A.sl.HS11_13 c arg1 harg1 arg2 harg2 arg11 arg12 arg13 arg16 x0 x1) (Rect.unit (s := S24x64x128) ![12, 0, 0] S1x64x128.size inb_S24x64x128_S1x64x128_12_0_0).toLoadRect
      = (k0_pay709 (kernelRun0_A.sl.r_478 c arg1 harg1 arg2 harg2 arg11 arg12 arg13 arg16 x0 x1)) := by
  unfold kernelRun0_A.sl.HS11_13
  rw [KRows.readCov_miss _ _ _ _ _ _ _ _ _ 0 (by decide)]
  unfold kernelRun0_A.sl.HS11_12
  rw [KRows.readCov_miss _ _ _ _ _ _ _ _ _ 0 (by decide)]
  unfold kernelRun0_A.sl.HS11_11
  exact KRows.readCov_hit _ _ _ _ _ _

theorem ld16_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg5.view.readCov (kernelRun0_A.sl.HS0_13 c arg1 harg1 arg5 arg6 arg7 x0) (Rect.unit (s := S24x64x128) ![13, 0, 0] S1x64x128.size inb_S24x64x128_S1x64x128_13_0_0).toLoadRect
      = (k0_pay763 (kernelRun0_A.sl.r_511 c arg1 harg1 arg5 arg6 arg7 x0)) := by
  unfold kernelRun0_A.sl.HS0_13
  rw [KRows.readCov_miss _ _ _ _ _ _ _ _ _ 0 (by decide)]
  unfold kernelRun0_A.sl.HS0_12
  exact KRows.readCov_hit _ _ _ _ _ _

theorem ld16_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg6.view.readCov (kernelRun0_A.sl.HS1_13 c arg1 harg1 arg5 arg6 arg7 x0) (Rect.unit (s := S24x64x128) ![13, 0, 0] S1x64x128.size inb_S24x64x128_S1x64x128_13_0_0).toLoadRect
      = (kernelRun0_A.sl.v2711 c arg1 harg1 arg5 arg6 arg7 x0) := by
  unfold kernelRun0_A.sl.HS1_13
  rw [KRows.readCov_miss _ _ _ _ _ _ _ _ _ 0 (by decide)]
  unfold kernelRun0_A.sl.HS1_12
  exact KRows.readCov_hit _ _ _ _ _ _

theorem ld16_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg7.view.readCov (kernelRun0_A.sl.HS2_13 c arg1 harg1 arg5 arg6 arg7 x0) (Rect.unit (s := S24x64x128) ![13, 0, 0] S1x64x128.size inb_S24x64x128_S1x64x128_13_0_0).toLoadRect
      = (kernelRun0_A.sl.v2714 c arg1 harg1 arg5 arg6 arg7 x0) := by
  unfold kernelRun0_A.sl.HS2_13
  rw [KRows.readCov_miss _ _ _ _ _ _ _ _ _ 0 (by decide)]
  unfold kernelRun0_A.sl.HS2_12
  exact KRows.readCov_hit _ _ _ _ _ _

theorem ld16_3 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg8.view.readCov (kernelRun0_A.sl.HS3_13 c arg1 harg1 arg8 arg9 arg10 x0) (Rect.unit (s := S24x64x128) ![13, 0, 0] S1x64x128.size inb_S24x64x128_S1x64x128_13_0_0).toLoadRect
      = (kernelRun0_A.sl.v2717 c arg1 harg1 arg8 arg9 arg10 x0) := by
  unfold kernelRun0_A.sl.HS3_13
  rw [KRows.readCov_miss _ _ _ _ _ _ _ _ _ 0 (by decide)]
  unfold kernelRun0_A.sl.HS3_12
  exact KRows.readCov_hit _ _ _ _ _ _

theorem ld16_4 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg9.view.readCov (kernelRun0_A.sl.HS4_13 c arg1 harg1 arg8 arg9 arg10 x0) (Rect.unit (s := S24x64x128) ![13, 0, 0] S1x64x128.size inb_S24x64x128_S1x64x128_13_0_0).toLoadRect
      = (kernelRun0_A.sl.v2720 c arg1 harg1 arg8 arg9 arg10 x0) := by
  unfold kernelRun0_A.sl.HS4_13
  rw [KRows.readCov_miss _ _ _ _ _ _ _ _ _ 0 (by decide)]
  unfold kernelRun0_A.sl.HS4_12
  exact KRows.readCov_hit _ _ _ _ _ _

theorem ld16_5 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg10.view.readCov (kernelRun0_A.sl.HS5_13 c arg1 harg1 arg8 arg9 arg10 x0) (Rect.unit (s := S24x64x128) ![13, 0, 0] S1x64x128.size inb_S24x64x128_S1x64x128_13_0_0).toLoadRect
      = (kernelRun0_A.sl.v2723 c arg1 harg1 arg8 arg9 arg10 x0) := by
  unfold kernelRun0_A.sl.HS5_13
  rw [KRows.readCov_miss _ _ _ _ _ _ _ _ _ 0 (by decide)]
  unfold kernelRun0_A.sl.HS5_12
  exact KRows.readCov_hit _ _ _ _ _ _

theorem ld16_6 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg11.view.readCov (kernelRun0_A.sl.HS6_13 c arg1 harg1 arg11 arg12 arg13 x0) (Rect.unit (s := S24x64x128) ![13, 0, 0] S1x64x128.size inb_S24x64x128_S1x64x128_13_0_0).toLoadRect
      = (kernelRun0_A.sl.v2726 c arg1 harg1 arg11 arg12 arg13 x0) := by
  unfold kernelRun0_A.sl.HS6_13
  rw [KRows.readCov_miss _ _ _ _ _ _ _ _ _ 0 (by decide)]
  unfold kernelRun0_A.sl.HS6_12
  exact KRows.readCov_hit _ _ _ _ _ _

theorem ld16_7 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg12.view.readCov (kernelRun0_A.sl.HS7_13 c arg1 harg1 arg11 arg12 arg13 x0) (Rect.unit (s := S24x64x128) ![13, 0, 0] S1x64x128.size inb_S24x64x128_S1x64x128_13_0_0).toLoadRect
      = (kernelRun0_A.sl.v2729 c arg1 harg1 arg11 arg12 arg13 x0) := by
  unfold kernelRun0_A.sl.HS7_13
  rw [KRows.readCov_miss _ _ _ _ _ _ _ _ _ 0 (by decide)]
  unfold kernelRun0_A.sl.HS7_12
  exact KRows.readCov_hit _ _ _ _ _ _

theorem ld16_8 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg13.view.readCov (kernelRun0_A.sl.HS8_13 c arg1 harg1 arg11 arg12 arg13 x0) (Rect.unit (s := S24x64x128) ![13, 0, 0] S1x64x128.size inb_S24x64x128_S1x64x128_13_0_0).toLoadRect
      = (kernelRun0_A.sl.v2732 c arg1 harg1 arg11 arg12 arg13 x0) := by
  unfold kernelRun0_A.sl.HS8_13
  rw [KRows.readCov_miss _ _ _ _ _ _ _ _ _ 0 (by decide)]
  unfold kernelRun0_A.sl.HS8_12
  exact KRows.readCov_hit _ _ _ _ _ _

theorem ld16_9 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg14.view.readCov (kernelRun0_A.sl.HS9_13 c arg1 harg1 arg2 harg2 arg5 arg6 arg7 arg14 x0 x1) (Rect.unit (s := S24x64x128) ![13, 0, 0] S1x64x128.size inb_S24x64x128_S1x64x128_13_0_0).toLoadRect
      = (kernelRun0_A.sl.v2735 c arg1 harg1 arg2 harg2 arg5 arg6 arg7 arg14 x0 x1) := by
  unfold kernelRun0_A.sl.HS9_13
  rw [KRows.readCov_miss _ _ _ _ _ _ _ _ _ 0 (by decide)]
  unfold kernelRun0_A.sl.HS9_12
  exact KRows.readCov_hit _ _ _ _ _ _

theorem ld16_10 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg15.view.readCov (kernelRun0_A.sl.HS10_13 c arg1 harg1 arg2 harg2 arg8 arg9 arg10 arg15 x0 x1) (Rect.unit (s := S24x64x128) ![13, 0, 0] S1x64x128.size inb_S24x64x128_S1x64x128_13_0_0).toLoadRect
      = (k0_pay773 (kernelRun0_A.sl.r_522 c arg1 harg1 arg2 harg2 arg8 arg9 arg10 arg15 x0 x1)) := by
  unfold kernelRun0_A.sl.HS10_13
  rw [KRows.readCov_miss _ _ _ _ _ _ _ _ _ 0 (by decide)]
  unfold kernelRun0_A.sl.HS10_12
  exact KRows.readCov_hit _ _ _ _ _ _

theorem ld16_11 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg16.view.readCov (kernelRun0_A.sl.HS11_13 c arg1 harg1 arg2 harg2 arg11 arg12 arg13 arg16 x0 x1) (Rect.unit (s := S24x64x128) ![13, 0, 0] S1x64x128.size inb_S24x64x128_S1x64x128_13_0_0).toLoadRect
      = (k0_pay774 (kernelRun0_A.sl.r_523 c arg1 harg1 arg2 harg2 arg11 arg12 arg13 arg16 x0 x1)) := by
  unfold kernelRun0_A.sl.HS11_13
  rw [KRows.readCov_miss _ _ _ _ _ _ _ _ _ 0 (by decide)]
  unfold kernelRun0_A.sl.HS11_12
  exact KRows.readCov_hit _ _ _ _ _ _

theorem ld17_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg5.view.readCov (kernelRun0_A.sl.HS0_14 c arg1 harg1 arg5 arg6 arg7 x0) (Rect.unit (s := S24x64x128) ![14, 0, 0] S1x64x128.size inb_S24x64x128_S1x64x128_14_0_0).toLoadRect
      = (k0_pay827 (kernelRun0_A.sl.r_558 c arg1 harg1 arg5 arg6 arg7 x0)) := by
  unfold kernelRun0_A.sl.HS0_14
  rw [KRows.readCov_miss _ _ _ _ _ _ _ _ _ 0 (by decide)]
  unfold kernelRun0_A.sl.HS0_13
  exact KRows.readCov_hit _ _ _ _ _ _

theorem ld17_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg6.view.readCov (kernelRun0_A.sl.HS1_14 c arg1 harg1 arg5 arg6 arg7 x0) (Rect.unit (s := S24x64x128) ![14, 0, 0] S1x64x128.size inb_S24x64x128_S1x64x128_14_0_0).toLoadRect
      = (k0_pay828 (kernelRun0_A.sl.r_559 c arg1 harg1 arg5 arg6 arg7 x0)) := by
  unfold kernelRun0_A.sl.HS1_14
  rw [KRows.readCov_miss _ _ _ _ _ _ _ _ _ 0 (by decide)]
  unfold kernelRun0_A.sl.HS1_13
  exact KRows.readCov_hit _ _ _ _ _ _

theorem ld17_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg7.view.readCov (kernelRun0_A.sl.HS2_14 c arg1 harg1 arg5 arg6 arg7 x0) (Rect.unit (s := S24x64x128) ![14, 0, 0] S1x64x128.size inb_S24x64x128_S1x64x128_14_0_0).toLoadRect
      = (k0_pay829 (kernelRun0_A.sl.r_560 c arg1 harg1 arg5 arg6 arg7 x0)) := by
  unfold kernelRun0_A.sl.HS2_14
  rw [KRows.readCov_miss _ _ _ _ _ _ _ _ _ 0 (by decide)]
  unfold kernelRun0_A.sl.HS2_13
  exact KRows.readCov_hit _ _ _ _ _ _

theorem ld17_3 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg8.view.readCov (kernelRun0_A.sl.HS3_14 c arg1 harg1 arg8 arg9 arg10 x0) (Rect.unit (s := S24x64x128) ![14, 0, 0] S1x64x128.size inb_S24x64x128_S1x64x128_14_0_0).toLoadRect
      = (k0_pay830 (kernelRun0_A.sl.r_561 c arg1 harg1 arg8 arg9 arg10 x0)) := by
  unfold kernelRun0_A.sl.HS3_14
  rw [KRows.readCov_miss _ _ _ _ _ _ _ _ _ 0 (by decide)]
  unfold kernelRun0_A.sl.HS3_13
  exact KRows.readCov_hit _ _ _ _ _ _

theorem ld17_4 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg9.view.readCov (kernelRun0_A.sl.HS4_14 c arg1 harg1 arg8 arg9 arg10 x0) (Rect.unit (s := S24x64x128) ![14, 0, 0] S1x64x128.size inb_S24x64x128_S1x64x128_14_0_0).toLoadRect
      = (k0_pay831 (kernelRun0_A.sl.r_562 c arg1 harg1 arg8 arg9 arg10 x0)) := by
  unfold kernelRun0_A.sl.HS4_14
  rw [KRows.readCov_miss _ _ _ _ _ _ _ _ _ 0 (by decide)]
  unfold kernelRun0_A.sl.HS4_13
  exact KRows.readCov_hit _ _ _ _ _ _

theorem ld17_5 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg10.view.readCov (kernelRun0_A.sl.HS5_14 c arg1 harg1 arg8 arg9 arg10 x0) (Rect.unit (s := S24x64x128) ![14, 0, 0] S1x64x128.size inb_S24x64x128_S1x64x128_14_0_0).toLoadRect
      = (k0_pay832 (kernelRun0_A.sl.r_563 c arg1 harg1 arg8 arg9 arg10 x0)) := by
  unfold kernelRun0_A.sl.HS5_14
  rw [KRows.readCov_miss _ _ _ _ _ _ _ _ _ 0 (by decide)]
  unfold kernelRun0_A.sl.HS5_13
  exact KRows.readCov_hit _ _ _ _ _ _

theorem ld17_6 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg11.view.readCov (kernelRun0_A.sl.HS6_14 c arg1 harg1 arg11 arg12 arg13 x0) (Rect.unit (s := S24x64x128) ![14, 0, 0] S1x64x128.size inb_S24x64x128_S1x64x128_14_0_0).toLoadRect
      = (k0_pay833 (kernelRun0_A.sl.r_564 c arg1 harg1 arg11 arg12 arg13 x0)) := by
  unfold kernelRun0_A.sl.HS6_14
  rw [KRows.readCov_miss _ _ _ _ _ _ _ _ _ 0 (by decide)]
  unfold kernelRun0_A.sl.HS6_13
  exact KRows.readCov_hit _ _ _ _ _ _

theorem ld17_7 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg12.view.readCov (kernelRun0_A.sl.HS7_14 c arg1 harg1 arg11 arg12 arg13 x0) (Rect.unit (s := S24x64x128) ![14, 0, 0] S1x64x128.size inb_S24x64x128_S1x64x128_14_0_0).toLoadRect
      = (k0_pay834 (kernelRun0_A.sl.r_565 c arg1 harg1 arg11 arg12 arg13 x0)) := by
  unfold kernelRun0_A.sl.HS7_14
  rw [KRows.readCov_miss _ _ _ _ _ _ _ _ _ 0 (by decide)]
  unfold kernelRun0_A.sl.HS7_13
  exact KRows.readCov_hit _ _ _ _ _ _

theorem ld17_8 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg13.view.readCov (kernelRun0_A.sl.HS8_14 c arg1 harg1 arg11 arg12 arg13 x0) (Rect.unit (s := S24x64x128) ![14, 0, 0] S1x64x128.size inb_S24x64x128_S1x64x128_14_0_0).toLoadRect
      = (k0_pay835 (kernelRun0_A.sl.r_567 c arg1 harg1 arg11 arg12 arg13 x0)) := by
  unfold kernelRun0_A.sl.HS8_14
  rw [KRows.readCov_miss _ _ _ _ _ _ _ _ _ 0 (by decide)]
  unfold kernelRun0_A.sl.HS8_13
  exact KRows.readCov_hit _ _ _ _ _ _

theorem ld17_9 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg14.view.readCov (kernelRun0_A.sl.HS9_14 c arg1 harg1 arg2 harg2 arg5 arg6 arg7 arg14 x0 x1) (Rect.unit (s := S24x64x128) ![14, 0, 0] S1x64x128.size inb_S24x64x128_S1x64x128_14_0_0).toLoadRect
      = (k0_pay836 (kernelRun0_A.sl.r_568 c arg1 harg1 arg2 harg2 arg5 arg6 arg7 arg14 x0 x1)) := by
  unfold kernelRun0_A.sl.HS9_14
  rw [KRows.readCov_miss _ _ _ _ _ _ _ _ _ 0 (by decide)]
  unfold kernelRun0_A.sl.HS9_13
  exact KRows.readCov_hit _ _ _ _ _ _

theorem ld17_10 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg15.view.readCov (kernelRun0_A.sl.HS10_14 c arg1 harg1 arg2 harg2 arg8 arg9 arg10 arg15 x0 x1) (Rect.unit (s := S24x64x128) ![14, 0, 0] S1x64x128.size inb_S24x64x128_S1x64x128_14_0_0).toLoadRect
      = (k0_pay837 (kernelRun0_A.sl.r_569 c arg1 harg1 arg2 harg2 arg8 arg9 arg10 arg15 x0 x1)) := by
  unfold kernelRun0_A.sl.HS10_14
  rw [KRows.readCov_miss _ _ _ _ _ _ _ _ _ 0 (by decide)]
  unfold kernelRun0_A.sl.HS10_13
  exact KRows.readCov_hit _ _ _ _ _ _

theorem ld17_11 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg16.view.readCov (kernelRun0_A.sl.HS11_14 c arg1 harg1 arg2 harg2 arg11 arg12 arg13 arg16 x0 x1) (Rect.unit (s := S24x64x128) ![14, 0, 0] S1x64x128.size inb_S24x64x128_S1x64x128_14_0_0).toLoadRect
      = (k0_pay838 (kernelRun0_A.sl.r_570 c arg1 harg1 arg2 harg2 arg11 arg12 arg13 arg16 x0 x1)) := by
  unfold kernelRun0_A.sl.HS11_14
  rw [KRows.readCov_miss _ _ _ _ _ _ _ _ _ 0 (by decide)]
  unfold kernelRun0_A.sl.HS11_13
  exact KRows.readCov_hit _ _ _ _ _ _

theorem ld18_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg5.view.readCov (kernelRun0_A.sl.HS0_15 c arg1 harg1 arg5 arg6 arg7 x0) (Rect.unit (s := S24x64x128) ![16, 0, 0] S1x64x128.size inb_S24x64x128_S1x64x128_16_0_0).toLoadRect
      = (k0_pay906 (kernelRun0_A.sl.r_614 c arg1 harg1 arg5 arg6 arg7 x0)) := by
  unfold kernelRun0_A.sl.HS0_15
  rw [KRows.readCov_miss _ _ _ _ _ _ _ _ _ 0 (by decide)]
  unfold kernelRun0_A.sl.HS0_14
  exact KRows.readCov_hit _ _ _ _ _ _

theorem ld18_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg6.view.readCov (kernelRun0_A.sl.HS1_15 c arg1 harg1 arg5 arg6 arg7 x0) (Rect.unit (s := S24x64x128) ![16, 0, 0] S1x64x128.size inb_S24x64x128_S1x64x128_16_0_0).toLoadRect
      = (k0_pay907 (kernelRun0_A.sl.r_615 c arg1 harg1 arg5 arg6 arg7 x0)) := by
  unfold kernelRun0_A.sl.HS1_15
  rw [KRows.readCov_miss _ _ _ _ _ _ _ _ _ 0 (by decide)]
  unfold kernelRun0_A.sl.HS1_14
  exact KRows.readCov_hit _ _ _ _ _ _

theorem ld18_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg7.view.readCov (kernelRun0_A.sl.HS2_15 c arg1 harg1 arg5 arg6 arg7 x0) (Rect.unit (s := S24x64x128) ![16, 0, 0] S1x64x128.size inb_S24x64x128_S1x64x128_16_0_0).toLoadRect
      = (k0_pay908 (kernelRun0_A.sl.r_616 c arg1 harg1 arg5 arg6 arg7 x0)) := by
  unfold kernelRun0_A.sl.HS2_15
  rw [KRows.readCov_miss _ _ _ _ _ _ _ _ _ 0 (by decide)]
  unfold kernelRun0_A.sl.HS2_14
  exact KRows.readCov_hit _ _ _ _ _ _

theorem ld18_3 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg8.view.readCov (kernelRun0_A.sl.HS3_15 c arg1 harg1 arg8 arg9 arg10 x0) (Rect.unit (s := S24x64x128) ![16, 0, 0] S1x64x128.size inb_S24x64x128_S1x64x128_16_0_0).toLoadRect
      = (k0_pay909 (kernelRun0_A.sl.r_617 c arg1 harg1 arg8 arg9 arg10 x0)) := by
  unfold kernelRun0_A.sl.HS3_15
  rw [KRows.readCov_miss _ _ _ _ _ _ _ _ _ 0 (by decide)]
  unfold kernelRun0_A.sl.HS3_14
  exact KRows.readCov_hit _ _ _ _ _ _

theorem ld18_4 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg9.view.readCov (kernelRun0_A.sl.HS4_15 c arg1 harg1 arg8 arg9 arg10 x0) (Rect.unit (s := S24x64x128) ![16, 0, 0] S1x64x128.size inb_S24x64x128_S1x64x128_16_0_0).toLoadRect
      = (k0_pay910 (kernelRun0_A.sl.r_618 c arg1 harg1 arg8 arg9 arg10 x0)) := by
  unfold kernelRun0_A.sl.HS4_15
  rw [KRows.readCov_miss _ _ _ _ _ _ _ _ _ 0 (by decide)]
  unfold kernelRun0_A.sl.HS4_14
  exact KRows.readCov_hit _ _ _ _ _ _

theorem ld18_5 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg10.view.readCov (kernelRun0_A.sl.HS5_15 c arg1 harg1 arg8 arg9 arg10 x0) (Rect.unit (s := S24x64x128) ![16, 0, 0] S1x64x128.size inb_S24x64x128_S1x64x128_16_0_0).toLoadRect
      = (k0_pay911 (kernelRun0_A.sl.r_619 c arg1 harg1 arg8 arg9 arg10 x0)) := by
  unfold kernelRun0_A.sl.HS5_15
  rw [KRows.readCov_miss _ _ _ _ _ _ _ _ _ 0 (by decide)]
  unfold kernelRun0_A.sl.HS5_14
  exact KRows.readCov_hit _ _ _ _ _ _

theorem ld18_6 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg11.view.readCov (kernelRun0_A.sl.HS6_15 c arg1 harg1 arg11 arg12 arg13 x0) (Rect.unit (s := S24x64x128) ![16, 0, 0] S1x64x128.size inb_S24x64x128_S1x64x128_16_0_0).toLoadRect
      = (k0_pay912 (kernelRun0_A.sl.r_620 c arg1 harg1 arg11 arg12 arg13 x0)) := by
  unfold kernelRun0_A.sl.HS6_15
  rw [KRows.readCov_miss _ _ _ _ _ _ _ _ _ 0 (by decide)]
  unfold kernelRun0_A.sl.HS6_14
  exact KRows.readCov_hit _ _ _ _ _ _

theorem ld18_7 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg12.view.readCov (kernelRun0_A.sl.HS7_15 c arg1 harg1 arg11 arg12 arg13 x0) (Rect.unit (s := S24x64x128) ![16, 0, 0] S1x64x128.size inb_S24x64x128_S1x64x128_16_0_0).toLoadRect
      = (k0_pay913 (kernelRun0_A.sl.r_621 c arg1 harg1 arg11 arg12 arg13 x0)) := by
  unfold kernelRun0_A.sl.HS7_15
  rw [KRows.readCov_miss _ _ _ _ _ _ _ _ _ 0 (by decide)]
  unfold kernelRun0_A.sl.HS7_14
  exact KRows.readCov_hit _ _ _ _ _ _

theorem ld18_8 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg13.view.readCov (kernelRun0_A.sl.HS8_15 c arg1 harg1 arg11 arg12 arg13 x0) (Rect.unit (s := S24x64x128) ![16, 0, 0] S1x64x128.size inb_S24x64x128_S1x64x128_16_0_0).toLoadRect
      = (k0_pay914 (kernelRun0_A.sl.r_622 c arg1 harg1 arg11 arg12 arg13 x0)) := by
  unfold kernelRun0_A.sl.HS8_15
  rw [KRows.readCov_miss _ _ _ _ _ _ _ _ _ 0 (by decide)]
  unfold kernelRun0_A.sl.HS8_14
  exact KRows.readCov_hit _ _ _ _ _ _

theorem ld18_9 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg14.view.readCov (kernelRun0_A.sl.HS9_15 c arg1 harg1 arg2 harg2 arg5 arg6 arg7 arg14 x0 x1) (Rect.unit (s := S24x64x128) ![16, 0, 0] S1x64x128.size inb_S24x64x128_S1x64x128_16_0_0).toLoadRect
      = (k0_pay915 (kernelRun0_A.sl.r_623 c arg1 harg1 arg2 harg2 arg5 arg6 arg7 arg14 x0 x1)) := by
  unfold kernelRun0_A.sl.HS9_15
  rw [KRows.readCov_miss _ _ _ _ _ _ _ _ _ 0 (by decide)]
  unfold kernelRun0_A.sl.HS9_14
  exact KRows.readCov_hit _ _ _ _ _ _

theorem ld18_10 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg15.view.readCov (kernelRun0_A.sl.HS10_15 c arg1 harg1 arg2 harg2 arg8 arg9 arg10 arg15 x0 x1) (Rect.unit (s := S24x64x128) ![16, 0, 0] S1x64x128.size inb_S24x64x128_S1x64x128_16_0_0).toLoadRect
      = (k0_pay916 (kernelRun0_A.sl.r_624 c arg1 harg1 arg2 harg2 arg8 arg9 arg10 arg15 x0 x1)) := by
  unfold kernelRun0_A.sl.HS10_15
  rw [KRows.readCov_miss _ _ _ _ _ _ _ _ _ 0 (by decide)]
  unfold kernelRun0_A.sl.HS10_14
  exact KRows.readCov_hit _ _ _ _ _ _

theorem ld18_11 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg16.view.readCov (kernelRun0_A.sl.HS11_15 c arg1 harg1 arg2 harg2 arg11 arg12 arg13 arg16 x0 x1) (Rect.unit (s := S24x64x128) ![16, 0, 0] S1x64x128.size inb_S24x64x128_S1x64x128_16_0_0).toLoadRect
      = (k0_pay917 (kernelRun0_A.sl.r_626 c arg1 harg1 arg2 harg2 arg11 arg12 arg13 arg16 x0 x1)) := by
  unfold kernelRun0_A.sl.HS11_15
  rw [KRows.readCov_miss _ _ _ _ _ _ _ _ _ 0 (by decide)]
  unfold kernelRun0_A.sl.HS11_14
  exact KRows.readCov_hit _ _ _ _ _ _

theorem ld19_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg5.view.readCov (kernelRun0_A.sl.HS0_16 c arg1 harg1 arg5 arg6 arg7 x0) (Rect.unit (s := S24x64x128) ![17, 0, 0] S1x64x128.size inb_S24x64x128_S1x64x128_17_0_0).toLoadRect
      = (k0_pay970 (kernelRun0_A.sl.r_657 c arg1 harg1 arg5 arg6 arg7 x0)) := by
  unfold kernelRun0_A.sl.HS0_16
  rw [KRows.readCov_miss _ _ _ _ _ _ _ _ _ 0 (by decide)]
  unfold kernelRun0_A.sl.HS0_15
  exact KRows.readCov_hit _ _ _ _ _ _

theorem ld19_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg6.view.readCov (kernelRun0_A.sl.HS1_16 c arg1 harg1 arg5 arg6 arg7 x0) (Rect.unit (s := S24x64x128) ![17, 0, 0] S1x64x128.size inb_S24x64x128_S1x64x128_17_0_0).toLoadRect
      = (k0_pay971 (kernelRun0_A.sl.r_658 c arg1 harg1 arg5 arg6 arg7 x0)) := by
  unfold kernelRun0_A.sl.HS1_16
  rw [KRows.readCov_miss _ _ _ _ _ _ _ _ _ 0 (by decide)]
  unfold kernelRun0_A.sl.HS1_15
  exact KRows.readCov_hit _ _ _ _ _ _

theorem ld19_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg7.view.readCov (kernelRun0_A.sl.HS2_16 c arg1 harg1 arg5 arg6 arg7 x0) (Rect.unit (s := S24x64x128) ![17, 0, 0] S1x64x128.size inb_S24x64x128_S1x64x128_17_0_0).toLoadRect
      = (kernelRun0_A.sl.v3458 c arg1 harg1 arg5 arg6 arg7 x0) := by
  unfold kernelRun0_A.sl.HS2_16
  rw [KRows.readCov_miss _ _ _ _ _ _ _ _ _ 0 (by decide)]
  unfold kernelRun0_A.sl.HS2_15
  exact KRows.readCov_hit _ _ _ _ _ _

theorem ld19_3 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg8.view.readCov (kernelRun0_A.sl.HS3_16 c arg1 harg1 arg8 arg9 arg10 x0) (Rect.unit (s := S24x64x128) ![17, 0, 0] S1x64x128.size inb_S24x64x128_S1x64x128_17_0_0).toLoadRect
      = (kernelRun0_A.sl.v3461 c arg1 harg1 arg8 arg9 arg10 x0) := by
  unfold kernelRun0_A.sl.HS3_16
  rw [KRows.readCov_miss _ _ _ _ _ _ _ _ _ 0 (by decide)]
  unfold kernelRun0_A.sl.HS3_15
  exact KRows.readCov_hit _ _ _ _ _ _

theorem ld19_4 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg9.view.readCov (kernelRun0_A.sl.HS4_16 c arg1 harg1 arg8 arg9 arg10 x0) (Rect.unit (s := S24x64x128) ![17, 0, 0] S1x64x128.size inb_S24x64x128_S1x64x128_17_0_0).toLoadRect
      = (kernelRun0_A.sl.v3464 c arg1 harg1 arg8 arg9 arg10 x0) := by
  unfold kernelRun0_A.sl.HS4_16
  rw [KRows.readCov_miss _ _ _ _ _ _ _ _ _ 0 (by decide)]
  unfold kernelRun0_A.sl.HS4_15
  exact KRows.readCov_hit _ _ _ _ _ _

theorem ld19_5 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg10.view.readCov (kernelRun0_A.sl.HS5_16 c arg1 harg1 arg8 arg9 arg10 x0) (Rect.unit (s := S24x64x128) ![17, 0, 0] S1x64x128.size inb_S24x64x128_S1x64x128_17_0_0).toLoadRect
      = (kernelRun0_A.sl.v3467 c arg1 harg1 arg8 arg9 arg10 x0) := by
  unfold kernelRun0_A.sl.HS5_16
  rw [KRows.readCov_miss _ _ _ _ _ _ _ _ _ 0 (by decide)]
  unfold kernelRun0_A.sl.HS5_15
  exact KRows.readCov_hit _ _ _ _ _ _

theorem ld19_6 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg11.view.readCov (kernelRun0_A.sl.HS6_16 c arg1 harg1 arg11 arg12 arg13 x0) (Rect.unit (s := S24x64x128) ![17, 0, 0] S1x64x128.size inb_S24x64x128_S1x64x128_17_0_0).toLoadRect
      = (kernelRun0_A.sl.v3470 c arg1 harg1 arg11 arg12 arg13 x0) := by
  unfold kernelRun0_A.sl.HS6_16
  rw [KRows.readCov_miss _ _ _ _ _ _ _ _ _ 0 (by decide)]
  unfold kernelRun0_A.sl.HS6_15
  exact KRows.readCov_hit _ _ _ _ _ _

theorem ld19_7 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg12.view.readCov (kernelRun0_A.sl.HS7_16 c arg1 harg1 arg11 arg12 arg13 x0) (Rect.unit (s := S24x64x128) ![17, 0, 0] S1x64x128.size inb_S24x64x128_S1x64x128_17_0_0).toLoadRect
      = (kernelRun0_A.sl.v3473 c arg1 harg1 arg11 arg12 arg13 x0) := by
  unfold kernelRun0_A.sl.HS7_16
  rw [KRows.readCov_miss _ _ _ _ _ _ _ _ _ 0 (by decide)]
  unfold kernelRun0_A.sl.HS7_15
  exact KRows.readCov_hit _ _ _ _ _ _

theorem ld19_8 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg13.view.readCov (kernelRun0_A.sl.HS8_16 c arg1 harg1 arg11 arg12 arg13 x0) (Rect.unit (s := S24x64x128) ![17, 0, 0] S1x64x128.size inb_S24x64x128_S1x64x128_17_0_0).toLoadRect
      = (kernelRun0_A.sl.v3476 c arg1 harg1 arg11 arg12 arg13 x0) := by
  unfold kernelRun0_A.sl.HS8_16
  rw [KRows.readCov_miss _ _ _ _ _ _ _ _ _ 0 (by decide)]
  unfold kernelRun0_A.sl.HS8_15
  exact KRows.readCov_hit _ _ _ _ _ _

theorem ld19_9 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg14.view.readCov (kernelRun0_A.sl.HS9_16 c arg1 harg1 arg2 harg2 arg5 arg6 arg7 arg14 x0 x1) (Rect.unit (s := S24x64x128) ![17, 0, 0] S1x64x128.size inb_S24x64x128_S1x64x128_17_0_0).toLoadRect
      = (kernelRun0_A.sl.v3479 c arg1 harg1 arg2 harg2 arg5 arg6 arg7 arg14 x0 x1) := by
  unfold kernelRun0_A.sl.HS9_16
  rw [KRows.readCov_miss _ _ _ _ _ _ _ _ _ 0 (by decide)]
  unfold kernelRun0_A.sl.HS9_15
  exact KRows.readCov_hit _ _ _ _ _ _

theorem ld19_10 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg15.view.readCov (kernelRun0_A.sl.HS10_16 c arg1 harg1 arg2 harg2 arg8 arg9 arg10 arg15 x0 x1) (Rect.unit (s := S24x64x128) ![17, 0, 0] S1x64x128.size inb_S24x64x128_S1x64x128_17_0_0).toLoadRect
      = (k0_pay980 (kernelRun0_A.sl.r_669 c arg1 harg1 arg2 harg2 arg8 arg9 arg10 arg15 x0 x1)) := by
  unfold kernelRun0_A.sl.HS10_16
  rw [KRows.readCov_miss _ _ _ _ _ _ _ _ _ 0 (by decide)]
  unfold kernelRun0_A.sl.HS10_15
  exact KRows.readCov_hit _ _ _ _ _ _

theorem ld19_11 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg16.view.readCov (kernelRun0_A.sl.HS11_16 c arg1 harg1 arg2 harg2 arg11 arg12 arg13 arg16 x0 x1) (Rect.unit (s := S24x64x128) ![17, 0, 0] S1x64x128.size inb_S24x64x128_S1x64x128_17_0_0).toLoadRect
      = (k0_pay981 (kernelRun0_A.sl.r_670 c arg1 harg1 arg2 harg2 arg11 arg12 arg13 arg16 x0 x1)) := by
  unfold kernelRun0_A.sl.HS11_16
  rw [KRows.readCov_miss _ _ _ _ _ _ _ _ _ 0 (by decide)]
  unfold kernelRun0_A.sl.HS11_15
  exact KRows.readCov_hit _ _ _ _ _ _

theorem ld20_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg5.view.readCov (kernelRun0_A.sl.HS0_17 c arg1 harg1 arg5 arg6 arg7 x0) (Rect.unit (s := S24x64x128) ![18, 0, 0] S1x64x128.size inb_S24x64x128_S1x64x128_18_0_0).toLoadRect
      = (k0_pay1037 (kernelRun0_A.sl.r_703 c arg1 harg1 arg5 arg6 arg7 x0)) := by
  unfold kernelRun0_A.sl.HS0_17
  rw [KRows.readCov_miss _ _ _ _ _ _ _ _ _ 0 (by decide)]
  unfold kernelRun0_A.sl.HS0_16
  exact KRows.readCov_hit _ _ _ _ _ _

theorem ld20_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg6.view.readCov (kernelRun0_A.sl.HS1_17 c arg1 harg1 arg5 arg6 arg7 x0) (Rect.unit (s := S24x64x128) ![18, 0, 0] S1x64x128.size inb_S24x64x128_S1x64x128_18_0_0).toLoadRect
      = (k0_pay1038 (kernelRun0_A.sl.r_704 c arg1 harg1 arg5 arg6 arg7 x0)) := by
  unfold kernelRun0_A.sl.HS1_17
  rw [KRows.readCov_miss _ _ _ _ _ _ _ _ _ 0 (by decide)]
  unfold kernelRun0_A.sl.HS1_16
  exact KRows.readCov_hit _ _ _ _ _ _

theorem ld20_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg7.view.readCov (kernelRun0_A.sl.HS2_17 c arg1 harg1 arg5 arg6 arg7 x0) (Rect.unit (s := S24x64x128) ![18, 0, 0] S1x64x128.size inb_S24x64x128_S1x64x128_18_0_0).toLoadRect
      = (k0_pay1039 (kernelRun0_A.sl.r_705 c arg1 harg1 arg5 arg6 arg7 x0)) := by
  unfold kernelRun0_A.sl.HS2_17
  rw [KRows.readCov_miss _ _ _ _ _ _ _ _ _ 0 (by decide)]
  unfold kernelRun0_A.sl.HS2_16
  exact KRows.readCov_hit _ _ _ _ _ _

theorem ld20_3 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg8.view.readCov (kernelRun0_A.sl.HS3_17 c arg1 harg1 arg8 arg9 arg10 x0) (Rect.unit (s := S24x64x128) ![18, 0, 0] S1x64x128.size inb_S24x64x128_S1x64x128_18_0_0).toLoadRect
      = (k0_pay1040 (kernelRun0_A.sl.r_706 c arg1 harg1 arg8 arg9 arg10 x0)) := by
  unfold kernelRun0_A.sl.HS3_17
  rw [KRows.readCov_miss _ _ _ _ _ _ _ _ _ 0 (by decide)]
  unfold kernelRun0_A.sl.HS3_16
  exact KRows.readCov_hit _ _ _ _ _ _

theorem ld20_4 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg9.view.readCov (kernelRun0_A.sl.HS4_17 c arg1 harg1 arg8 arg9 arg10 x0) (Rect.unit (s := S24x64x128) ![18, 0, 0] S1x64x128.size inb_S24x64x128_S1x64x128_18_0_0).toLoadRect
      = (k0_pay1041 (kernelRun0_A.sl.r_707 c arg1 harg1 arg8 arg9 arg10 x0)) := by
  unfold kernelRun0_A.sl.HS4_17
  rw [KRows.readCov_miss _ _ _ _ _ _ _ _ _ 0 (by decide)]
  unfold kernelRun0_A.sl.HS4_16
  exact KRows.readCov_hit _ _ _ _ _ _

theorem ld20_5 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg10.view.readCov (kernelRun0_A.sl.HS5_17 c arg1 harg1 arg8 arg9 arg10 x0) (Rect.unit (s := S24x64x128) ![18, 0, 0] S1x64x128.size inb_S24x64x128_S1x64x128_18_0_0).toLoadRect
      = (k0_pay1042 (kernelRun0_A.sl.r_708 c arg1 harg1 arg8 arg9 arg10 x0)) := by
  unfold kernelRun0_A.sl.HS5_17
  rw [KRows.readCov_miss _ _ _ _ _ _ _ _ _ 0 (by decide)]
  unfold kernelRun0_A.sl.HS5_16
  exact KRows.readCov_hit _ _ _ _ _ _

theorem ld20_6 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg11.view.readCov (kernelRun0_A.sl.HS6_17 c arg1 harg1 arg11 arg12 arg13 x0) (Rect.unit (s := S24x64x128) ![18, 0, 0] S1x64x128.size inb_S24x64x128_S1x64x128_18_0_0).toLoadRect
      = (k0_pay1043 (kernelRun0_A.sl.r_709 c arg1 harg1 arg11 arg12 arg13 x0)) := by
  unfold kernelRun0_A.sl.HS6_17
  rw [KRows.readCov_miss _ _ _ _ _ _ _ _ _ 0 (by decide)]
  unfold kernelRun0_A.sl.HS6_16
  exact KRows.readCov_hit _ _ _ _ _ _

theorem ld20_7 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg12.view.readCov (kernelRun0_A.sl.HS7_17 c arg1 harg1 arg11 arg12 arg13 x0) (Rect.unit (s := S24x64x128) ![18, 0, 0] S1x64x128.size inb_S24x64x128_S1x64x128_18_0_0).toLoadRect
      = (k0_pay1044 (kernelRun0_A.sl.r_710 c arg1 harg1 arg11 arg12 arg13 x0)) := by
  unfold kernelRun0_A.sl.HS7_17
  rw [KRows.readCov_miss _ _ _ _ _ _ _ _ _ 0 (by decide)]
  unfold kernelRun0_A.sl.HS7_16
  exact KRows.readCov_hit _ _ _ _ _ _

theorem ld20_8 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg13.view.readCov (kernelRun0_A.sl.HS8_17 c arg1 harg1 arg11 arg12 arg13 x0) (Rect.unit (s := S24x64x128) ![18, 0, 0] S1x64x128.size inb_S24x64x128_S1x64x128_18_0_0).toLoadRect
      = (k0_pay1045 (kernelRun0_A.sl.r_711 c arg1 harg1 arg11 arg12 arg13 x0)) := by
  unfold kernelRun0_A.sl.HS8_17
  rw [KRows.readCov_miss _ _ _ _ _ _ _ _ _ 0 (by decide)]
  unfold kernelRun0_A.sl.HS8_16
  exact KRows.readCov_hit _ _ _ _ _ _

theorem ld20_9 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg14.view.readCov (kernelRun0_A.sl.HS9_17 c arg1 harg1 arg2 harg2 arg5 arg6 arg7 arg14 x0 x1) (Rect.unit (s := S24x64x128) ![18, 0, 0] S1x64x128.size inb_S24x64x128_S1x64x128_18_0_0).toLoadRect
      = (k0_pay1046 (kernelRun0_A.sl.r_714 c arg1 harg1 arg2 harg2 arg5 arg6 arg7 arg14 x0 x1)) := by
  unfold kernelRun0_A.sl.HS9_17
  rw [KRows.readCov_miss _ _ _ _ _ _ _ _ _ 0 (by decide)]
  unfold kernelRun0_A.sl.HS9_16
  exact KRows.readCov_hit _ _ _ _ _ _

theorem ld20_10 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg15.view.readCov (kernelRun0_A.sl.HS10_17 c arg1 harg1 arg2 harg2 arg8 arg9 arg10 arg15 x0 x1) (Rect.unit (s := S24x64x128) ![18, 0, 0] S1x64x128.size inb_S24x64x128_S1x64x128_18_0_0).toLoadRect
      = (k0_pay1047 (kernelRun0_A.sl.r_715 c arg1 harg1 arg2 harg2 arg8 arg9 arg10 arg15 x0 x1)) := by
  unfold kernelRun0_A.sl.HS10_17
  rw [KRows.readCov_miss _ _ _ _ _ _ _ _ _ 0 (by decide)]
  unfold kernelRun0_A.sl.HS10_16
  exact KRows.readCov_hit _ _ _ _ _ _

theorem ld20_11 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg16.view.readCov (kernelRun0_A.sl.HS11_17 c arg1 harg1 arg2 harg2 arg11 arg12 arg13 arg16 x0 x1) (Rect.unit (s := S24x64x128) ![18, 0, 0] S1x64x128.size inb_S24x64x128_S1x64x128_18_0_0).toLoadRect
      = (k0_pay1048 (kernelRun0_A.sl.r_716 c arg1 harg1 arg2 harg2 arg11 arg12 arg13 arg16 x0 x1)) := by
  unfold kernelRun0_A.sl.HS11_17
  rw [KRows.readCov_miss _ _ _ _ _ _ _ _ _ 0 (by decide)]
  unfold kernelRun0_A.sl.HS11_16
  exact KRows.readCov_hit _ _ _ _ _ _

theorem ld21_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg5.view.readCov (kernelRun0_A.sl.HS0_18 c arg1 harg1 arg5 arg6 arg7 x0) (Rect.unit (s := S24x64x128) ![19, 0, 0] S1x64x128.size inb_S24x64x128_S1x64x128_19_0_0).toLoadRect
      = (k0_pay1102 (kernelRun0_A.sl.r_748 c arg1 harg1 arg5 arg6 arg7 x0)) := by
  unfold kernelRun0_A.sl.HS0_18
  rw [KRows.readCov_miss _ _ _ _ _ _ _ _ _ 0 (by decide)]
  unfold kernelRun0_A.sl.HS0_17
  exact KRows.readCov_hit _ _ _ _ _ _

theorem ld21_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg6.view.readCov (kernelRun0_A.sl.HS1_18 c arg1 harg1 arg5 arg6 arg7 x0) (Rect.unit (s := S24x64x128) ![19, 0, 0] S1x64x128.size inb_S24x64x128_S1x64x128_19_0_0).toLoadRect
      = (k0_pay1103 (kernelRun0_A.sl.r_749 c arg1 harg1 arg5 arg6 arg7 x0)) := by
  unfold kernelRun0_A.sl.HS1_18
  rw [KRows.readCov_miss _ _ _ _ _ _ _ _ _ 0 (by decide)]
  unfold kernelRun0_A.sl.HS1_17
  exact KRows.readCov_hit _ _ _ _ _ _

theorem ld21_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg7.view.readCov (kernelRun0_A.sl.HS2_18 c arg1 harg1 arg5 arg6 arg7 x0) (Rect.unit (s := S24x64x128) ![19, 0, 0] S1x64x128.size inb_S24x64x128_S1x64x128_19_0_0).toLoadRect
      = (k0_pay1104 (kernelRun0_A.sl.r_751 c arg1 harg1 arg5 arg6 arg7 x0)) := by
  unfold kernelRun0_A.sl.HS2_18
  rw [KRows.readCov_miss _ _ _ _ _ _ _ _ _ 0 (by decide)]
  unfold kernelRun0_A.sl.HS2_17
  exact KRows.readCov_hit _ _ _ _ _ _

theorem ld21_3 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg8.view.readCov (kernelRun0_A.sl.HS3_18 c arg1 harg1 arg8 arg9 arg10 x0) (Rect.unit (s := S24x64x128) ![19, 0, 0] S1x64x128.size inb_S24x64x128_S1x64x128_19_0_0).toLoadRect
      = (k0_pay1105 (kernelRun0_A.sl.r_752 c arg1 harg1 arg8 arg9 arg10 x0)) := by
  unfold kernelRun0_A.sl.HS3_18
  rw [KRows.readCov_miss _ _ _ _ _ _ _ _ _ 0 (by decide)]
  unfold kernelRun0_A.sl.HS3_17
  exact KRows.readCov_hit _ _ _ _ _ _

theorem ld21_4 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg9.view.readCov (kernelRun0_A.sl.HS4_18 c arg1 harg1 arg8 arg9 arg10 x0) (Rect.unit (s := S24x64x128) ![19, 0, 0] S1x64x128.size inb_S24x64x128_S1x64x128_19_0_0).toLoadRect
      = (k0_pay1106 (kernelRun0_A.sl.r_753 c arg1 harg1 arg8 arg9 arg10 x0)) := by
  unfold kernelRun0_A.sl.HS4_18
  rw [KRows.readCov_miss _ _ _ _ _ _ _ _ _ 0 (by decide)]
  unfold kernelRun0_A.sl.HS4_17
  exact KRows.readCov_hit _ _ _ _ _ _

theorem ld21_5 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg10.view.readCov (kernelRun0_A.sl.HS5_18 c arg1 harg1 arg8 arg9 arg10 x0) (Rect.unit (s := S24x64x128) ![19, 0, 0] S1x64x128.size inb_S24x64x128_S1x64x128_19_0_0).toLoadRect
      = (k0_pay1107 (kernelRun0_A.sl.r_754 c arg1 harg1 arg8 arg9 arg10 x0)) := by
  unfold kernelRun0_A.sl.HS5_18
  rw [KRows.readCov_miss _ _ _ _ _ _ _ _ _ 0 (by decide)]
  unfold kernelRun0_A.sl.HS5_17
  exact KRows.readCov_hit _ _ _ _ _ _

theorem ld21_6 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg11.view.readCov (kernelRun0_A.sl.HS6_18 c arg1 harg1 arg11 arg12 arg13 x0) (Rect.unit (s := S24x64x128) ![19, 0, 0] S1x64x128.size inb_S24x64x128_S1x64x128_19_0_0).toLoadRect
      = (k0_pay1108 (kernelRun0_A.sl.r_755 c arg1 harg1 arg11 arg12 arg13 x0)) := by
  unfold kernelRun0_A.sl.HS6_18
  rw [KRows.readCov_miss _ _ _ _ _ _ _ _ _ 0 (by decide)]
  unfold kernelRun0_A.sl.HS6_17
  exact KRows.readCov_hit _ _ _ _ _ _

theorem ld21_7 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg12.view.readCov (kernelRun0_A.sl.HS7_18 c arg1 harg1 arg11 arg12 arg13 x0) (Rect.unit (s := S24x64x128) ![19, 0, 0] S1x64x128.size inb_S24x64x128_S1x64x128_19_0_0).toLoadRect
      = (k0_pay1109 (kernelRun0_A.sl.r_756 c arg1 harg1 arg11 arg12 arg13 x0)) := by
  unfold kernelRun0_A.sl.HS7_18
  rw [KRows.readCov_miss _ _ _ _ _ _ _ _ _ 0 (by decide)]
  unfold kernelRun0_A.sl.HS7_17
  exact KRows.readCov_hit _ _ _ _ _ _

theorem ld21_8 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg13.view.readCov (kernelRun0_A.sl.HS8_18 c arg1 harg1 arg11 arg12 arg13 x0) (Rect.unit (s := S24x64x128) ![19, 0, 0] S1x64x128.size inb_S24x64x128_S1x64x128_19_0_0).toLoadRect
      = (k0_pay1110 (kernelRun0_A.sl.r_757 c arg1 harg1 arg11 arg12 arg13 x0)) := by
  unfold kernelRun0_A.sl.HS8_18
  rw [KRows.readCov_miss _ _ _ _ _ _ _ _ _ 0 (by decide)]
  unfold kernelRun0_A.sl.HS8_17
  exact KRows.readCov_hit _ _ _ _ _ _

theorem ld21_9 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg14.view.readCov (kernelRun0_A.sl.HS9_18 c arg1 harg1 arg2 harg2 arg5 arg6 arg7 arg14 x0 x1) (Rect.unit (s := S24x64x128) ![19, 0, 0] S1x64x128.size inb_S24x64x128_S1x64x128_19_0_0).toLoadRect
      = (k0_pay1111 (kernelRun0_A.sl.r_758 c arg1 harg1 arg2 harg2 arg5 arg6 arg7 arg14 x0 x1)) := by
  unfold kernelRun0_A.sl.HS9_18
  rw [KRows.readCov_miss _ _ _ _ _ _ _ _ _ 0 (by decide)]
  unfold kernelRun0_A.sl.HS9_17
  exact KRows.readCov_hit _ _ _ _ _ _

theorem ld21_10 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg15.view.readCov (kernelRun0_A.sl.HS10_18 c arg1 harg1 arg2 harg2 arg8 arg9 arg10 arg15 x0 x1) (Rect.unit (s := S24x64x128) ![19, 0, 0] S1x64x128.size inb_S24x64x128_S1x64x128_19_0_0).toLoadRect
      = (k0_pay1112 (kernelRun0_A.sl.r_759 c arg1 harg1 arg2 harg2 arg8 arg9 arg10 arg15 x0 x1)) := by
  unfold kernelRun0_A.sl.HS10_18
  rw [KRows.readCov_miss _ _ _ _ _ _ _ _ _ 0 (by decide)]
  unfold kernelRun0_A.sl.HS10_17
  exact KRows.readCov_hit _ _ _ _ _ _

theorem ld21_11 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg16.view.readCov (kernelRun0_A.sl.HS11_18 c arg1 harg1 arg2 harg2 arg11 arg12 arg13 arg16 x0 x1) (Rect.unit (s := S24x64x128) ![19, 0, 0] S1x64x128.size inb_S24x64x128_S1x64x128_19_0_0).toLoadRect
      = (k0_pay1113 (kernelRun0_A.sl.r_761 c arg1 harg1 arg2 harg2 arg11 arg12 arg13 arg16 x0 x1)) := by
  unfold kernelRun0_A.sl.HS11_18
  rw [KRows.readCov_miss _ _ _ _ _ _ _ _ _ 0 (by decide)]
  unfold kernelRun0_A.sl.HS11_17
  exact KRows.readCov_hit _ _ _ _ _ _

theorem ld22_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg5.view.readCov (kernelRun0_A.sl.HS0_19 c arg1 harg1 arg5 arg6 arg7 x0) (Rect.unit (s := S24x64x128) ![20, 0, 0] S1x64x128.size inb_S24x64x128_S1x64x128_20_0_0).toLoadRect
      = (k0_pay1165 (kernelRun0_A.sl.r_794 c arg1 harg1 arg5 arg6 arg7 x0)) := by
  unfold kernelRun0_A.sl.HS0_19
  rw [KRows.readCov_miss _ _ _ _ _ _ _ _ _ 0 (by decide)]
  unfold kernelRun0_A.sl.HS0_18
  exact KRows.readCov_hit _ _ _ _ _ _

theorem ld22_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg6.view.readCov (kernelRun0_A.sl.HS1_19 c arg1 harg1 arg5 arg6 arg7 x0) (Rect.unit (s := S24x64x128) ![20, 0, 0] S1x64x128.size inb_S24x64x128_S1x64x128_20_0_0).toLoadRect
      = (k0_pay1166 (kernelRun0_A.sl.r_795 c arg1 harg1 arg5 arg6 arg7 x0)) := by
  unfold kernelRun0_A.sl.HS1_19
  rw [KRows.readCov_miss _ _ _ _ _ _ _ _ _ 0 (by decide)]
  unfold kernelRun0_A.sl.HS1_18
  exact KRows.readCov_hit _ _ _ _ _ _

theorem ld22_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg7.view.readCov (kernelRun0_A.sl.HS2_19 c arg1 harg1 arg5 arg6 arg7 x0) (Rect.unit (s := S24x64x128) ![20, 0, 0] S1x64x128.size inb_S24x64x128_S1x64x128_20_0_0).toLoadRect
      = (k0_pay1167 (kernelRun0_A.sl.r_796 c arg1 harg1 arg5 arg6 arg7 x0)) := by
  unfold kernelRun0_A.sl.HS2_19
  rw [KRows.readCov_miss _ _ _ _ _ _ _ _ _ 0 (by decide)]
  unfold kernelRun0_A.sl.HS2_18
  exact KRows.readCov_hit _ _ _ _ _ _

theorem ld22_3 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg8.view.readCov (kernelRun0_A.sl.HS3_19 c arg1 harg1 arg8 arg9 arg10 x0) (Rect.unit (s := S24x64x128) ![20, 0, 0] S1x64x128.size inb_S24x64x128_S1x64x128_20_0_0).toLoadRect
      = (kernelRun0_A.sl.v4136 c arg1 harg1 arg8 arg9 arg10 x0) := by
  unfold kernelRun0_A.sl.HS3_19
  rw [KRows.readCov_miss _ _ _ _ _ _ _ _ _ 0 (by decide)]
  unfold kernelRun0_A.sl.HS3_18
  exact KRows.readCov_hit _ _ _ _ _ _

theorem ld22_4 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg9.view.readCov (kernelRun0_A.sl.HS4_19 c arg1 harg1 arg8 arg9 arg10 x0) (Rect.unit (s := S24x64x128) ![20, 0, 0] S1x64x128.size inb_S24x64x128_S1x64x128_20_0_0).toLoadRect
      = (kernelRun0_A.sl.v4139 c arg1 harg1 arg8 arg9 arg10 x0) := by
  unfold kernelRun0_A.sl.HS4_19
  rw [KRows.readCov_miss _ _ _ _ _ _ _ _ _ 0 (by decide)]
  unfold kernelRun0_A.sl.HS4_18
  exact KRows.readCov_hit _ _ _ _ _ _

theorem ld22_5 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg10.view.readCov (kernelRun0_A.sl.HS5_19 c arg1 harg1 arg8 arg9 arg10 x0) (Rect.unit (s := S24x64x128) ![20, 0, 0] S1x64x128.size inb_S24x64x128_S1x64x128_20_0_0).toLoadRect
      = (kernelRun0_A.sl.v4142 c arg1 harg1 arg8 arg9 arg10 x0) := by
  unfold kernelRun0_A.sl.HS5_19
  rw [KRows.readCov_miss _ _ _ _ _ _ _ _ _ 0 (by decide)]
  unfold kernelRun0_A.sl.HS5_18
  exact KRows.readCov_hit _ _ _ _ _ _

theorem ld22_6 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg11.view.readCov (kernelRun0_A.sl.HS6_19 c arg1 harg1 arg11 arg12 arg13 x0) (Rect.unit (s := S24x64x128) ![20, 0, 0] S1x64x128.size inb_S24x64x128_S1x64x128_20_0_0).toLoadRect
      = (kernelRun0_A.sl.v4145 c arg1 harg1 arg11 arg12 arg13 x0) := by
  unfold kernelRun0_A.sl.HS6_19
  rw [KRows.readCov_miss _ _ _ _ _ _ _ _ _ 0 (by decide)]
  unfold kernelRun0_A.sl.HS6_18
  exact KRows.readCov_hit _ _ _ _ _ _

theorem ld22_7 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg12.view.readCov (kernelRun0_A.sl.HS7_19 c arg1 harg1 arg11 arg12 arg13 x0) (Rect.unit (s := S24x64x128) ![20, 0, 0] S1x64x128.size inb_S24x64x128_S1x64x128_20_0_0).toLoadRect
      = (kernelRun0_A.sl.v4148 c arg1 harg1 arg11 arg12 arg13 x0) := by
  unfold kernelRun0_A.sl.HS7_19
  rw [KRows.readCov_miss _ _ _ _ _ _ _ _ _ 0 (by decide)]
  unfold kernelRun0_A.sl.HS7_18
  exact KRows.readCov_hit _ _ _ _ _ _

theorem ld22_8 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg13.view.readCov (kernelRun0_A.sl.HS8_19 c arg1 harg1 arg11 arg12 arg13 x0) (Rect.unit (s := S24x64x128) ![20, 0, 0] S1x64x128.size inb_S24x64x128_S1x64x128_20_0_0).toLoadRect
      = (kernelRun0_A.sl.v4151 c arg1 harg1 arg11 arg12 arg13 x0) := by
  unfold kernelRun0_A.sl.HS8_19
  rw [KRows.readCov_miss _ _ _ _ _ _ _ _ _ 0 (by decide)]
  unfold kernelRun0_A.sl.HS8_18
  exact KRows.readCov_hit _ _ _ _ _ _

theorem ld22_9 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg14.view.readCov (kernelRun0_A.sl.HS9_19 c arg1 harg1 arg2 harg2 arg5 arg6 arg7 arg14 x0 x1) (Rect.unit (s := S24x64x128) ![20, 0, 0] S1x64x128.size inb_S24x64x128_S1x64x128_20_0_0).toLoadRect
      = (kernelRun0_A.sl.v4154 c arg1 harg1 arg2 harg2 arg5 arg6 arg7 arg14 x0 x1) := by
  unfold kernelRun0_A.sl.HS9_19
  rw [KRows.readCov_miss _ _ _ _ _ _ _ _ _ 0 (by decide)]
  unfold kernelRun0_A.sl.HS9_18
  exact KRows.readCov_hit _ _ _ _ _ _

theorem ld22_10 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg15.view.readCov (kernelRun0_A.sl.HS10_19 c arg1 harg1 arg2 harg2 arg8 arg9 arg10 arg15 x0 x1) (Rect.unit (s := S24x64x128) ![20, 0, 0] S1x64x128.size inb_S24x64x128_S1x64x128_20_0_0).toLoadRect
      = (kernelRun0_A.sl.v4157 c arg1 harg1 arg2 harg2 arg8 arg9 arg10 arg15 x0 x1) := by
  unfold kernelRun0_A.sl.HS10_19
  rw [KRows.readCov_miss _ _ _ _ _ _ _ _ _ 0 (by decide)]
  unfold kernelRun0_A.sl.HS10_18
  exact KRows.readCov_hit _ _ _ _ _ _

theorem ld22_11 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg16.view.readCov (kernelRun0_A.sl.HS11_19 c arg1 harg1 arg2 harg2 arg11 arg12 arg13 arg16 x0 x1) (Rect.unit (s := S24x64x128) ![20, 0, 0] S1x64x128.size inb_S24x64x128_S1x64x128_20_0_0).toLoadRect
      = (k0_pay1176 (kernelRun0_A.sl.r_806 c arg1 harg1 arg2 harg2 arg11 arg12 arg13 arg16 x0 x1)) := by
  unfold kernelRun0_A.sl.HS11_19
  rw [KRows.readCov_miss _ _ _ _ _ _ _ _ _ 0 (by decide)]
  unfold kernelRun0_A.sl.HS11_18
  exact KRows.readCov_hit _ _ _ _ _ _

theorem ld23_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg5.view.readCov (kernelRun0_A.sl.HS0_19 c arg1 harg1 arg5 arg6 arg7 x0) (Rect.unit (s := S24x64x128) ![21, 0, 0] S1x64x128.size inb_S24x64x128_S1x64x128_21_0_0).toLoadRect
      = (k0_pay1228 (kernelRun0_A.sl.r_822 c arg1 harg1 arg5 arg6 arg7 x0)) := by
  unfold kernelRun0_A.sl.HS0_19
  exact KRows.readCov_hit _ _ _ _ _ _

theorem ld23_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg6.view.readCov (kernelRun0_A.sl.HS1_19 c arg1 harg1 arg5 arg6 arg7 x0) (Rect.unit (s := S24x64x128) ![21, 0, 0] S1x64x128.size inb_S24x64x128_S1x64x128_21_0_0).toLoadRect
      = (k0_pay1229 (kernelRun0_A.sl.r_823 c arg1 harg1 arg5 arg6 arg7 x0)) := by
  unfold kernelRun0_A.sl.HS1_19
  exact KRows.readCov_hit _ _ _ _ _ _

theorem ld23_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg7.view.readCov (kernelRun0_A.sl.HS2_19 c arg1 harg1 arg5 arg6 arg7 x0) (Rect.unit (s := S24x64x128) ![21, 0, 0] S1x64x128.size inb_S24x64x128_S1x64x128_21_0_0).toLoadRect
      = (k0_pay1230 (kernelRun0_A.sl.r_824 c arg1 harg1 arg5 arg6 arg7 x0)) := by
  unfold kernelRun0_A.sl.HS2_19
  exact KRows.readCov_hit _ _ _ _ _ _

theorem ld23_3 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg8.view.readCov (kernelRun0_A.sl.HS3_19 c arg1 harg1 arg8 arg9 arg10 x0) (Rect.unit (s := S24x64x128) ![21, 0, 0] S1x64x128.size inb_S24x64x128_S1x64x128_21_0_0).toLoadRect
      = (k0_pay1231 (kernelRun0_A.sl.r_825 c arg1 harg1 arg8 arg9 arg10 x0)) := by
  unfold kernelRun0_A.sl.HS3_19
  exact KRows.readCov_hit _ _ _ _ _ _

theorem ld23_4 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg9.view.readCov (kernelRun0_A.sl.HS4_19 c arg1 harg1 arg8 arg9 arg10 x0) (Rect.unit (s := S24x64x128) ![21, 0, 0] S1x64x128.size inb_S24x64x128_S1x64x128_21_0_0).toLoadRect
      = (k0_pay1232 (kernelRun0_A.sl.r_826 c arg1 harg1 arg8 arg9 arg10 x0)) := by
  unfold kernelRun0_A.sl.HS4_19
  exact KRows.readCov_hit _ _ _ _ _ _

theorem ld23_5 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg10.view.readCov (kernelRun0_A.sl.HS5_19 c arg1 harg1 arg8 arg9 arg10 x0) (Rect.unit (s := S24x64x128) ![21, 0, 0] S1x64x128.size inb_S24x64x128_S1x64x128_21_0_0).toLoadRect
      = (k0_pay1233 (kernelRun0_A.sl.r_827 c arg1 harg1 arg8 arg9 arg10 x0)) := by
  unfold kernelRun0_A.sl.HS5_19
  exact KRows.readCov_hit _ _ _ _ _ _

theorem ld23_6 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg11.view.readCov (kernelRun0_A.sl.HS6_19 c arg1 harg1 arg11 arg12 arg13 x0) (Rect.unit (s := S24x64x128) ![21, 0, 0] S1x64x128.size inb_S24x64x128_S1x64x128_21_0_0).toLoadRect
      = (k0_pay1234 (kernelRun0_A.sl.r_828 c arg1 harg1 arg11 arg12 arg13 x0)) := by
  unfold kernelRun0_A.sl.HS6_19
  exact KRows.readCov_hit _ _ _ _ _ _

theorem ld23_7 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg12.view.readCov (kernelRun0_A.sl.HS7_19 c arg1 harg1 arg11 arg12 arg13 x0) (Rect.unit (s := S24x64x128) ![21, 0, 0] S1x64x128.size inb_S24x64x128_S1x64x128_21_0_0).toLoadRect
      = (k0_pay1235 (kernelRun0_A.sl.r_829 c arg1 harg1 arg11 arg12 arg13 x0)) := by
  unfold kernelRun0_A.sl.HS7_19
  exact KRows.readCov_hit _ _ _ _ _ _

theorem ld23_8 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg13.view.readCov (kernelRun0_A.sl.HS8_19 c arg1 harg1 arg11 arg12 arg13 x0) (Rect.unit (s := S24x64x128) ![21, 0, 0] S1x64x128.size inb_S24x64x128_S1x64x128_21_0_0).toLoadRect
      = (k0_pay1236 (kernelRun0_A.sl.r_830 c arg1 harg1 arg11 arg12 arg13 x0)) := by
  unfold kernelRun0_A.sl.HS8_19
  exact KRows.readCov_hit _ _ _ _ _ _

theorem ld23_9 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg14.view.readCov (kernelRun0_A.sl.HS9_19 c arg1 harg1 arg2 harg2 arg5 arg6 arg7 arg14 x0 x1) (Rect.unit (s := S24x64x128) ![21, 0, 0] S1x64x128.size inb_S24x64x128_S1x64x128_21_0_0).toLoadRect
      = (k0_pay1237 (kernelRun0_A.sl.r_831 c arg1 harg1 arg2 harg2 arg5 arg6 arg7 arg14 x0 x1)) := by
  unfold kernelRun0_A.sl.HS9_19
  exact KRows.readCov_hit _ _ _ _ _ _

theorem ld23_10 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg15.view.readCov (kernelRun0_A.sl.HS10_19 c arg1 harg1 arg2 harg2 arg8 arg9 arg10 arg15 x0 x1) (Rect.unit (s := S24x64x128) ![21, 0, 0] S1x64x128.size inb_S24x64x128_S1x64x128_21_0_0).toLoadRect
      = (k0_pay1238 (kernelRun0_A.sl.r_833 c arg1 harg1 arg2 harg2 arg8 arg9 arg10 arg15 x0 x1)) := by
  unfold kernelRun0_A.sl.HS10_19
  exact KRows.readCov_hit _ _ _ _ _ _

theorem ld23_11 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) :
    arg16.view.readCov (kernelRun0_A.sl.HS11_19 c arg1 harg1 arg2 harg2 arg11 arg12 arg13 arg16 x0 x1) (Rect.unit (s := S24x64x128) ![21, 0, 0] S1x64x128.size inb_S24x64x128_S1x64x128_21_0_0).toLoadRect
      = (k0_pay1239 (kernelRun0_A.sl.r_834 c arg1 harg1 arg2 harg2 arg11 arg12 arg13 arg16 x0 x1)) := by
  unfold kernelRun0_A.sl.HS11_19
  exact KRows.readCov_hit _ _ _ _ _ _

end Cert.KernelIdeal.KLoads

end
-- ==== Proof.KJoint0.lean ====
/-
  Joint 0 (the root) at one lane (s, l) of a tile: the twelve values it stores in its row of the scratch buffers are the entries of its global transform, and the three values it stores in the output are its position — the translation of its global transform plus the body translation.
-/
import proofs.«127147_j62156766707902_2_alg».proof.Proof.KLanes
import proofs.«127147_j62156766707902_2_alg».proof.Proof.KLane
import proofs.«127147_j62156766707902_2_alg».proof.Proof.KLoads

noncomputable section

namespace Cert.KernelIdeal.KJoint0

open Idealize.ShloMosaic Idealize.ShloMosaic.TcCoe Idealize.SL.Sem Idealize.ShloMosaic.ValueIdx
open Cert.KernelIdeal Cert.KernelIdeal.Gen Cert.KernelIdeal.KLane Cert.KernelIdeal.KLanes

set_option maxHeartbeats 1000000 in
theorem ck0_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay29 (kernelRun0_A.sl.r_9 c arg1 harg1 x0)) (ix3 0 s l) = (Cert.FK.tf0 (laneP x0 s l) (offT x1)).n00 := by
  fk_unfold_run
  fk_push []
  simp only [Cert.FK.tf0, Cert.FK.tfStep, Cert.FK.tfRoot, Cert.FK.rodJ, Cert.FK.rod, Cert.FK.ang, Cert.FK.one, Cert.FK.zero, Cert.FK.eps]
  rfl

set_option maxHeartbeats 1000000 in
theorem ck0_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v98 c arg1 harg1 x0) (ix3 0 s l) = (Cert.FK.tf0 (laneP x0 s l) (offT x1)).n01 := by
  fk_unfold_run
  fk_push []
  simp only [Cert.FK.tf0, Cert.FK.tfStep, Cert.FK.tfRoot, Cert.FK.rodJ, Cert.FK.rod, Cert.FK.ang, Cert.FK.one, Cert.FK.zero, Cert.FK.eps]
  rfl

set_option maxHeartbeats 1000000 in
theorem ck0_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v101 c arg1 harg1 x0) (ix3 0 s l) = (Cert.FK.tf0 (laneP x0 s l) (offT x1)).n02 := by
  fk_unfold_run
  fk_push []
  simp only [Cert.FK.tf0, Cert.FK.tfStep, Cert.FK.tfRoot, Cert.FK.rodJ, Cert.FK.rod, Cert.FK.ang, Cert.FK.one, Cert.FK.zero, Cert.FK.eps]
  rfl

set_option maxHeartbeats 1000000 in
theorem ck0_3 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v104 c arg1 harg1 x0) (ix3 0 s l) = (Cert.FK.tf0 (laneP x0 s l) (offT x1)).n10 := by
  fk_unfold_run
  fk_push []
  simp only [Cert.FK.tf0, Cert.FK.tfStep, Cert.FK.tfRoot, Cert.FK.rodJ, Cert.FK.rod, Cert.FK.ang, Cert.FK.one, Cert.FK.zero, Cert.FK.eps]
  rfl

set_option maxHeartbeats 1000000 in
theorem ck0_4 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v107 c arg1 harg1 x0) (ix3 0 s l) = (Cert.FK.tf0 (laneP x0 s l) (offT x1)).n11 := by
  fk_unfold_run
  fk_push []
  simp only [Cert.FK.tf0, Cert.FK.tfStep, Cert.FK.tfRoot, Cert.FK.rodJ, Cert.FK.rod, Cert.FK.ang, Cert.FK.one, Cert.FK.zero, Cert.FK.eps]
  rfl

set_option maxHeartbeats 1000000 in
theorem ck0_5 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v110 c arg1 harg1 x0) (ix3 0 s l) = (Cert.FK.tf0 (laneP x0 s l) (offT x1)).n12 := by
  fk_unfold_run
  fk_push []
  simp only [Cert.FK.tf0, Cert.FK.tfStep, Cert.FK.tfRoot, Cert.FK.rodJ, Cert.FK.rod, Cert.FK.ang, Cert.FK.one, Cert.FK.zero, Cert.FK.eps]
  rfl

set_option maxHeartbeats 1000000 in
theorem ck0_6 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v113 c arg1 harg1 x0) (ix3 0 s l) = (Cert.FK.tf0 (laneP x0 s l) (offT x1)).n20 := by
  fk_unfold_run
  fk_push []
  simp only [Cert.FK.tf0, Cert.FK.tfStep, Cert.FK.tfRoot, Cert.FK.rodJ, Cert.FK.rod, Cert.FK.ang, Cert.FK.one, Cert.FK.zero, Cert.FK.eps]
  rfl

set_option maxHeartbeats 1000000 in
theorem ck0_7 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v116 c arg1 harg1 x0) (ix3 0 s l) = (Cert.FK.tf0 (laneP x0 s l) (offT x1)).n21 := by
  fk_unfold_run
  fk_push []
  simp only [Cert.FK.tf0, Cert.FK.tfStep, Cert.FK.tfRoot, Cert.FK.rodJ, Cert.FK.rod, Cert.FK.ang, Cert.FK.one, Cert.FK.zero, Cert.FK.eps]
  rfl

set_option maxHeartbeats 1000000 in
theorem ck0_8 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v119 c arg1 harg1 x0) (ix3 0 s l) = (Cert.FK.tf0 (laneP x0 s l) (offT x1)).n22 := by
  fk_unfold_run
  fk_push []
  simp only [Cert.FK.tf0, Cert.FK.tfStep, Cert.FK.tfRoot, Cert.FK.rodJ, Cert.FK.rod, Cert.FK.ang, Cert.FK.one, Cert.FK.zero, Cert.FK.eps]
  rfl

set_option maxHeartbeats 1000000 in
theorem ck0_9 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay38 (kernelRun0_A.sl.r_19 c arg2 harg2 x1)) (ix3 0 s l) = (Cert.FK.tf0 (laneP x0 s l) (offT x1)).tx := by
  fk_unfold_run
  fk_push []
  simp only [Cert.FK.tf0, Cert.FK.tfStep, Cert.FK.tfRoot, Cert.FK.rodJ, Cert.FK.rod, Cert.FK.ang, Cert.FK.one, Cert.FK.zero, Cert.FK.eps]
  rfl

set_option maxHeartbeats 1000000 in
theorem ck0_10 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay39 (kernelRun0_A.sl.r_20 c arg2 harg2 x1)) (ix3 0 s l) = (Cert.FK.tf0 (laneP x0 s l) (offT x1)).ty := by
  fk_unfold_run
  fk_push []
  simp only [Cert.FK.tf0, Cert.FK.tfStep, Cert.FK.tfRoot, Cert.FK.rodJ, Cert.FK.rod, Cert.FK.ang, Cert.FK.one, Cert.FK.zero, Cert.FK.eps]
  rfl

set_option maxHeartbeats 1000000 in
theorem ck0_11 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay40 (kernelRun0_A.sl.r_21 c arg2 harg2 x1)) (ix3 0 s l) = (Cert.FK.tf0 (laneP x0 s l) (offT x1)).tz := by
  fk_unfold_run
  fk_push []
  simp only [Cert.FK.tf0, Cert.FK.tfStep, Cert.FK.tfRoot, Cert.FK.rodJ, Cert.FK.rod, Cert.FK.ang, Cert.FK.one, Cert.FK.zero, Cert.FK.eps]
  rfl

set_option maxHeartbeats 1000000 in
theorem out0_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay41 (kernelRun0_A.sl.r_1 c arg3 harg3 x2) (kernelRun0_A.sl.r_19 c arg2 harg2 x1)) (ix4 0 0 s l) = (Cert.FK.tf0 (laneP x0 s l) (offT x1)).tx + x2 (ix3 0 s l) := by
  fk_unfold_run
  fk_push []
  simp only [Cert.FK.tf0, Cert.FK.tfStep, Cert.FK.tfRoot, Cert.FK.rodJ, Cert.FK.rod, Cert.FK.ang, Cert.FK.one, Cert.FK.zero, Cert.FK.eps]
  rfl

set_option maxHeartbeats 1000000 in
theorem out0_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay42 (kernelRun0_A.sl.r_2 c arg3 harg3 x2) (kernelRun0_A.sl.r_20 c arg2 harg2 x1)) (ix4 0 0 s l) = (Cert.FK.tf0 (laneP x0 s l) (offT x1)).ty + x2 (ix3 1 s l) := by
  fk_unfold_run
  fk_push []
  simp only [Cert.FK.tf0, Cert.FK.tfStep, Cert.FK.tfRoot, Cert.FK.rodJ, Cert.FK.rod, Cert.FK.ang, Cert.FK.one, Cert.FK.zero, Cert.FK.eps]
  rfl

set_option maxHeartbeats 1000000 in
theorem out0_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay43 (kernelRun0_A.sl.r_3 c arg3 harg3 x2) (kernelRun0_A.sl.r_21 c arg2 harg2 x1)) (ix4 0 0 s l) = (Cert.FK.tf0 (laneP x0 s l) (offT x1)).tz + x2 (ix3 2 s l) := by
  fk_unfold_run
  fk_push []
  simp only [Cert.FK.tf0, Cert.FK.tfStep, Cert.FK.tfRoot, Cert.FK.rodJ, Cert.FK.rod, Cert.FK.ang, Cert.FK.one, Cert.FK.zero, Cert.FK.eps]
  rfl

end Cert.KernelIdeal.KJoint0

end
-- ==== Proof.KJoint1.lean ====
/-
  Joint 1 (its parent is joint 0) at one lane (s, l) of a tile: the twelve values it stores in its row of the scratch buffers are the entries of its global transform, and the three values it stores in the output are its position — the translation of its global transform plus the body translation. Its transform is the parent's, read back from the parent's row, composed with its own Rodrigues matrix and offset.
-/
import proofs.«127147_j62156766707902_2_alg».proof.Proof.KLanes
import proofs.«127147_j62156766707902_2_alg».proof.Proof.KLane
import proofs.«127147_j62156766707902_2_alg».proof.Proof.KLoads
import proofs.«127147_j62156766707902_2_alg».proof.Proof.KJoint0

noncomputable section

namespace Cert.KernelIdeal.KJoint1

open Idealize.ShloMosaic Idealize.ShloMosaic.TcCoe Idealize.SL.Sem Idealize.ShloMosaic.ValueIdx
open Cert.KernelIdeal Cert.KernelIdeal.Gen Cert.KernelIdeal.KLane Cert.KernelIdeal.KLanes

set_option maxHeartbeats 1000000 in
theorem ck1_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay94 (kernelRun0_A.sl.r_58 c arg1 harg1 arg5 arg6 arg7 x0)) (ix3 0 s l) = (Cert.FK.tf1 (laneP x0 s l) (offT x1)).n00 := by
  fk_unfold_run
  simp only [Cert.KernelIdeal.KLoads.ld1_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf1, Cert.FK.tfStep, Cert.FK.tfRoot, Cert.FK.rodJ, Cert.FK.rod, Cert.FK.ang, Cert.FK.one, Cert.FK.zero, Cert.FK.eps]
  rfl

set_option maxHeartbeats 1000000 in
theorem ck1_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay95 (kernelRun0_A.sl.r_59 c arg1 harg1 arg5 arg6 arg7 x0)) (ix3 0 s l) = (Cert.FK.tf1 (laneP x0 s l) (offT x1)).n01 := by
  fk_unfold_run
  simp only [Cert.KernelIdeal.KLoads.ld1_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf1, Cert.FK.tfStep, Cert.FK.tfRoot, Cert.FK.rodJ, Cert.FK.rod, Cert.FK.ang, Cert.FK.one, Cert.FK.zero, Cert.FK.eps]
  rfl

set_option maxHeartbeats 1000000 in
theorem ck1_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay96 (kernelRun0_A.sl.r_60 c arg1 harg1 arg5 arg6 arg7 x0)) (ix3 0 s l) = (Cert.FK.tf1 (laneP x0 s l) (offT x1)).n02 := by
  fk_unfold_run
  simp only [Cert.KernelIdeal.KLoads.ld1_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf1, Cert.FK.tfStep, Cert.FK.tfRoot, Cert.FK.rodJ, Cert.FK.rod, Cert.FK.ang, Cert.FK.one, Cert.FK.zero, Cert.FK.eps]
  rfl

set_option maxHeartbeats 1000000 in
theorem ck1_3 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay97 (kernelRun0_A.sl.r_61 c arg1 harg1 arg8 arg9 arg10 x0)) (ix3 0 s l) = (Cert.FK.tf1 (laneP x0 s l) (offT x1)).n10 := by
  fk_unfold_run
  simp only [Cert.KernelIdeal.KLoads.ld1_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf1, Cert.FK.tfStep, Cert.FK.tfRoot, Cert.FK.rodJ, Cert.FK.rod, Cert.FK.ang, Cert.FK.one, Cert.FK.zero, Cert.FK.eps]
  rfl

set_option maxHeartbeats 1000000 in
theorem ck1_4 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay98 (kernelRun0_A.sl.r_62 c arg1 harg1 arg8 arg9 arg10 x0)) (ix3 0 s l) = (Cert.FK.tf1 (laneP x0 s l) (offT x1)).n11 := by
  fk_unfold_run
  simp only [Cert.KernelIdeal.KLoads.ld1_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf1, Cert.FK.tfStep, Cert.FK.tfRoot, Cert.FK.rodJ, Cert.FK.rod, Cert.FK.ang, Cert.FK.one, Cert.FK.zero, Cert.FK.eps]
  rfl

set_option maxHeartbeats 1000000 in
theorem ck1_5 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay99 (kernelRun0_A.sl.r_63 c arg1 harg1 arg8 arg9 arg10 x0)) (ix3 0 s l) = (Cert.FK.tf1 (laneP x0 s l) (offT x1)).n12 := by
  fk_unfold_run
  simp only [Cert.KernelIdeal.KLoads.ld1_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf1, Cert.FK.tfStep, Cert.FK.tfRoot, Cert.FK.rodJ, Cert.FK.rod, Cert.FK.ang, Cert.FK.one, Cert.FK.zero, Cert.FK.eps]
  rfl

set_option maxHeartbeats 1000000 in
theorem ck1_6 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay100 (kernelRun0_A.sl.r_64 c arg1 harg1 arg11 arg12 arg13 x0)) (ix3 0 s l) = (Cert.FK.tf1 (laneP x0 s l) (offT x1)).n20 := by
  fk_unfold_run
  simp only [Cert.KernelIdeal.KLoads.ld1_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf1, Cert.FK.tfStep, Cert.FK.tfRoot, Cert.FK.rodJ, Cert.FK.rod, Cert.FK.ang, Cert.FK.one, Cert.FK.zero, Cert.FK.eps]
  rfl

set_option maxHeartbeats 1000000 in
theorem ck1_7 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay101 (kernelRun0_A.sl.r_65 c arg1 harg1 arg11 arg12 arg13 x0)) (ix3 0 s l) = (Cert.FK.tf1 (laneP x0 s l) (offT x1)).n21 := by
  fk_unfold_run
  simp only [Cert.KernelIdeal.KLoads.ld1_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf1, Cert.FK.tfStep, Cert.FK.tfRoot, Cert.FK.rodJ, Cert.FK.rod, Cert.FK.ang, Cert.FK.one, Cert.FK.zero, Cert.FK.eps]
  rfl

set_option maxHeartbeats 1000000 in
theorem ck1_8 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay102 (kernelRun0_A.sl.r_67 c arg1 harg1 arg11 arg12 arg13 x0)) (ix3 0 s l) = (Cert.FK.tf1 (laneP x0 s l) (offT x1)).n22 := by
  fk_unfold_run
  simp only [Cert.KernelIdeal.KLoads.ld1_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf1, Cert.FK.tfStep, Cert.FK.tfRoot, Cert.FK.rodJ, Cert.FK.rod, Cert.FK.ang, Cert.FK.one, Cert.FK.zero, Cert.FK.eps]
  rfl

set_option maxHeartbeats 1000000 in
theorem ck1_9 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay103 (kernelRun0_A.sl.r_68 c arg1 harg1 arg2 harg2 arg5 arg6 arg7 arg14 x0 x1)) (ix3 0 s l) = (Cert.FK.tf1 (laneP x0 s l) (offT x1)).tx := by
  fk_unfold_run
  simp only [Cert.KernelIdeal.KLoads.ld1_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf1, Cert.FK.tfStep, Cert.FK.tfRoot, Cert.FK.rodJ, Cert.FK.rod, Cert.FK.ang, Cert.FK.one, Cert.FK.zero, Cert.FK.eps]
  rfl

set_option maxHeartbeats 1000000 in
theorem ck1_10 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay104 (kernelRun0_A.sl.r_69 c arg1 harg1 arg2 harg2 arg8 arg9 arg10 arg15 x0 x1)) (ix3 0 s l) = (Cert.FK.tf1 (laneP x0 s l) (offT x1)).ty := by
  fk_unfold_run
  simp only [Cert.KernelIdeal.KLoads.ld1_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf1, Cert.FK.tfStep, Cert.FK.tfRoot, Cert.FK.rodJ, Cert.FK.rod, Cert.FK.ang, Cert.FK.one, Cert.FK.zero, Cert.FK.eps]
  rfl

set_option maxHeartbeats 1000000 in
theorem ck1_11 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay105 (kernelRun0_A.sl.r_70 c arg1 harg1 arg2 harg2 arg11 arg12 arg13 arg16 x0 x1)) (ix3 0 s l) = (Cert.FK.tf1 (laneP x0 s l) (offT x1)).tz := by
  fk_unfold_run
  simp only [Cert.KernelIdeal.KLoads.ld1_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf1, Cert.FK.tfStep, Cert.FK.tfRoot, Cert.FK.rodJ, Cert.FK.rod, Cert.FK.ang, Cert.FK.one, Cert.FK.zero, Cert.FK.eps]
  rfl

set_option maxHeartbeats 1000000 in
theorem out1_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay107 (kernelRun0_A.sl.r_71 c arg1 harg1 arg2 harg2 arg3 harg3 arg5 arg6 arg7 arg14 x0 x1 x2)) (ix4 0 0 s l) = (Cert.FK.tf1 (laneP x0 s l) (offT x1)).tx + x2 (ix3 0 s l) := by
  fk_unfold_run
  simp only [Cert.KernelIdeal.KLoads.ld1_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf1, Cert.FK.tfStep, Cert.FK.tfRoot, Cert.FK.rodJ, Cert.FK.rod, Cert.FK.ang, Cert.FK.one, Cert.FK.zero, Cert.FK.eps]
  rfl

set_option maxHeartbeats 1000000 in
theorem out1_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay108 (kernelRun0_A.sl.r_2 c arg3 harg3 x2) (kernelRun0_A.sl.r_69 c arg1 harg1 arg2 harg2 arg8 arg9 arg10 arg15 x0 x1)) (ix4 0 0 s l) = (Cert.FK.tf1 (laneP x0 s l) (offT x1)).ty + x2 (ix3 1 s l) := by
  fk_unfold_run
  simp only [Cert.KernelIdeal.KLoads.ld1_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf1, Cert.FK.tfStep, Cert.FK.tfRoot, Cert.FK.rodJ, Cert.FK.rod, Cert.FK.ang, Cert.FK.one, Cert.FK.zero, Cert.FK.eps]
  rfl

set_option maxHeartbeats 1000000 in
theorem out1_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay109 (kernelRun0_A.sl.r_3 c arg3 harg3 x2) (kernelRun0_A.sl.r_70 c arg1 harg1 arg2 harg2 arg11 arg12 arg13 arg16 x0 x1)) (ix4 0 0 s l) = (Cert.FK.tf1 (laneP x0 s l) (offT x1)).tz + x2 (ix3 2 s l) := by
  fk_unfold_run
  simp only [Cert.KernelIdeal.KLoads.ld1_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld1_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf1, Cert.FK.tfStep, Cert.FK.tfRoot, Cert.FK.rodJ, Cert.FK.rod, Cert.FK.ang, Cert.FK.one, Cert.FK.zero, Cert.FK.eps]
  rfl

end Cert.KernelIdeal.KJoint1

end
-- ==== Proof.KJoint2.lean ====
/-
  Joint 2 (its parent is joint 0) at one lane (s, l) of a tile: the twelve values it stores in its row of the scratch buffers are the entries of its global transform, and the three values it stores in the output are its position — the translation of its global transform plus the body translation. Its transform is the parent's, read back from the parent's row, composed with its own Rodrigues matrix and offset.
-/
import proofs.«127147_j62156766707902_2_alg».proof.Proof.KLanes
import proofs.«127147_j62156766707902_2_alg».proof.Proof.KLane
import proofs.«127147_j62156766707902_2_alg».proof.Proof.KLoads
import proofs.«127147_j62156766707902_2_alg».proof.Proof.KJoint0

noncomputable section

namespace Cert.KernelIdeal.KJoint2

open Idealize.ShloMosaic Idealize.ShloMosaic.TcCoe Idealize.SL.Sem Idealize.ShloMosaic.ValueIdx
open Cert.KernelIdeal Cert.KernelIdeal.Gen Cert.KernelIdeal.KLane Cert.KernelIdeal.KLanes

set_option maxHeartbeats 1000000 in
theorem ck2_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay158 (kernelRun0_A.sl.r_103 c arg1 harg1 arg5 arg6 arg7 x0)) (ix3 0 s l) = (Cert.FK.tf2 (laneP x0 s l) (offT x1)).n00 := by
  fk_unfold_run
  simp only [Cert.KernelIdeal.KLoads.ld2_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf2, Cert.FK.tfStep, Cert.FK.tfRoot, Cert.FK.rodJ, Cert.FK.rod, Cert.FK.ang, Cert.FK.one, Cert.FK.zero, Cert.FK.eps]
  rfl

set_option maxHeartbeats 1000000 in
theorem ck2_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay159 (kernelRun0_A.sl.r_104 c arg1 harg1 arg5 arg6 arg7 x0)) (ix3 0 s l) = (Cert.FK.tf2 (laneP x0 s l) (offT x1)).n01 := by
  fk_unfold_run
  simp only [Cert.KernelIdeal.KLoads.ld2_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf2, Cert.FK.tfStep, Cert.FK.tfRoot, Cert.FK.rodJ, Cert.FK.rod, Cert.FK.ang, Cert.FK.one, Cert.FK.zero, Cert.FK.eps]
  rfl

set_option maxHeartbeats 1000000 in
theorem ck2_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay160 (kernelRun0_A.sl.r_105 c arg1 harg1 arg5 arg6 arg7 x0)) (ix3 0 s l) = (Cert.FK.tf2 (laneP x0 s l) (offT x1)).n02 := by
  fk_unfold_run
  simp only [Cert.KernelIdeal.KLoads.ld2_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf2, Cert.FK.tfStep, Cert.FK.tfRoot, Cert.FK.rodJ, Cert.FK.rod, Cert.FK.ang, Cert.FK.one, Cert.FK.zero, Cert.FK.eps]
  rfl

set_option maxHeartbeats 1000000 in
theorem ck2_3 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay161 (kernelRun0_A.sl.r_106 c arg1 harg1 arg8 arg9 arg10 x0)) (ix3 0 s l) = (Cert.FK.tf2 (laneP x0 s l) (offT x1)).n10 := by
  fk_unfold_run
  simp only [Cert.KernelIdeal.KLoads.ld2_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf2, Cert.FK.tfStep, Cert.FK.tfRoot, Cert.FK.rodJ, Cert.FK.rod, Cert.FK.ang, Cert.FK.one, Cert.FK.zero, Cert.FK.eps]
  rfl

set_option maxHeartbeats 1000000 in
theorem ck2_4 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay162 (kernelRun0_A.sl.r_107 c arg1 harg1 arg8 arg9 arg10 x0)) (ix3 0 s l) = (Cert.FK.tf2 (laneP x0 s l) (offT x1)).n11 := by
  fk_unfold_run
  simp only [Cert.KernelIdeal.KLoads.ld2_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf2, Cert.FK.tfStep, Cert.FK.tfRoot, Cert.FK.rodJ, Cert.FK.rod, Cert.FK.ang, Cert.FK.one, Cert.FK.zero, Cert.FK.eps]
  rfl

set_option maxHeartbeats 1000000 in
theorem ck2_5 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay163 (kernelRun0_A.sl.r_108 c arg1 harg1 arg8 arg9 arg10 x0)) (ix3 0 s l) = (Cert.FK.tf2 (laneP x0 s l) (offT x1)).n12 := by
  fk_unfold_run
  simp only [Cert.KernelIdeal.KLoads.ld2_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf2, Cert.FK.tfStep, Cert.FK.tfRoot, Cert.FK.rodJ, Cert.FK.rod, Cert.FK.ang, Cert.FK.one, Cert.FK.zero, Cert.FK.eps]
  rfl

set_option maxHeartbeats 1000000 in
theorem ck2_6 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay164 (kernelRun0_A.sl.r_109 c arg1 harg1 arg11 arg12 arg13 x0)) (ix3 0 s l) = (Cert.FK.tf2 (laneP x0 s l) (offT x1)).n20 := by
  fk_unfold_run
  simp only [Cert.KernelIdeal.KLoads.ld2_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf2, Cert.FK.tfStep, Cert.FK.tfRoot, Cert.FK.rodJ, Cert.FK.rod, Cert.FK.ang, Cert.FK.one, Cert.FK.zero, Cert.FK.eps]
  rfl

set_option maxHeartbeats 1000000 in
theorem ck2_7 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay165 (kernelRun0_A.sl.r_110 c arg1 harg1 arg11 arg12 arg13 x0)) (ix3 0 s l) = (Cert.FK.tf2 (laneP x0 s l) (offT x1)).n21 := by
  fk_unfold_run
  simp only [Cert.KernelIdeal.KLoads.ld2_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf2, Cert.FK.tfStep, Cert.FK.tfRoot, Cert.FK.rodJ, Cert.FK.rod, Cert.FK.ang, Cert.FK.one, Cert.FK.zero, Cert.FK.eps]
  rfl

set_option maxHeartbeats 1000000 in
theorem ck2_8 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay166 (kernelRun0_A.sl.r_111 c arg1 harg1 arg11 arg12 arg13 x0)) (ix3 0 s l) = (Cert.FK.tf2 (laneP x0 s l) (offT x1)).n22 := by
  fk_unfold_run
  simp only [Cert.KernelIdeal.KLoads.ld2_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf2, Cert.FK.tfStep, Cert.FK.tfRoot, Cert.FK.rodJ, Cert.FK.rod, Cert.FK.ang, Cert.FK.one, Cert.FK.zero, Cert.FK.eps]
  rfl

set_option maxHeartbeats 1000000 in
theorem ck2_9 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay167 (kernelRun0_A.sl.r_112 c arg1 harg1 arg2 harg2 arg5 arg6 arg7 arg14 x0 x1)) (ix3 0 s l) = (Cert.FK.tf2 (laneP x0 s l) (offT x1)).tx := by
  fk_unfold_run
  simp only [Cert.KernelIdeal.KLoads.ld2_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf2, Cert.FK.tfStep, Cert.FK.tfRoot, Cert.FK.rodJ, Cert.FK.rod, Cert.FK.ang, Cert.FK.one, Cert.FK.zero, Cert.FK.eps]
  rfl

set_option maxHeartbeats 1000000 in
theorem ck2_10 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay168 (kernelRun0_A.sl.r_113 c arg1 harg1 arg2 harg2 arg8 arg9 arg10 arg15 x0 x1)) (ix3 0 s l) = (Cert.FK.tf2 (laneP x0 s l) (offT x1)).ty := by
  fk_unfold_run
  simp only [Cert.KernelIdeal.KLoads.ld2_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf2, Cert.FK.tfStep, Cert.FK.tfRoot, Cert.FK.rodJ, Cert.FK.rod, Cert.FK.ang, Cert.FK.one, Cert.FK.zero, Cert.FK.eps]
  rfl

set_option maxHeartbeats 1000000 in
theorem ck2_11 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay169 (kernelRun0_A.sl.r_114 c arg1 harg1 arg2 harg2 arg11 arg12 arg13 arg16 x0 x1)) (ix3 0 s l) = (Cert.FK.tf2 (laneP x0 s l) (offT x1)).tz := by
  fk_unfold_run
  simp only [Cert.KernelIdeal.KLoads.ld2_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf2, Cert.FK.tfStep, Cert.FK.tfRoot, Cert.FK.rodJ, Cert.FK.rod, Cert.FK.ang, Cert.FK.one, Cert.FK.zero, Cert.FK.eps]
  rfl

set_option maxHeartbeats 1000000 in
theorem out2_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay170 (kernelRun0_A.sl.r_1 c arg3 harg3 x2) (kernelRun0_A.sl.r_112 c arg1 harg1 arg2 harg2 arg5 arg6 arg7 arg14 x0 x1)) (ix4 0 0 s l) = (Cert.FK.tf2 (laneP x0 s l) (offT x1)).tx + x2 (ix3 0 s l) := by
  fk_unfold_run
  simp only [Cert.KernelIdeal.KLoads.ld2_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf2, Cert.FK.tfStep, Cert.FK.tfRoot, Cert.FK.rodJ, Cert.FK.rod, Cert.FK.ang, Cert.FK.one, Cert.FK.zero, Cert.FK.eps]
  rfl

set_option maxHeartbeats 1000000 in
theorem out2_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay171 (kernelRun0_A.sl.r_2 c arg3 harg3 x2) (kernelRun0_A.sl.r_113 c arg1 harg1 arg2 harg2 arg8 arg9 arg10 arg15 x0 x1)) (ix4 0 0 s l) = (Cert.FK.tf2 (laneP x0 s l) (offT x1)).ty + x2 (ix3 1 s l) := by
  fk_unfold_run
  simp only [Cert.KernelIdeal.KLoads.ld2_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf2, Cert.FK.tfStep, Cert.FK.tfRoot, Cert.FK.rodJ, Cert.FK.rod, Cert.FK.ang, Cert.FK.one, Cert.FK.zero, Cert.FK.eps]
  rfl

set_option maxHeartbeats 1000000 in
theorem out2_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay172 (kernelRun0_A.sl.r_3 c arg3 harg3 x2) (kernelRun0_A.sl.r_114 c arg1 harg1 arg2 harg2 arg11 arg12 arg13 arg16 x0 x1)) (ix4 0 0 s l) = (Cert.FK.tf2 (laneP x0 s l) (offT x1)).tz + x2 (ix3 2 s l) := by
  fk_unfold_run
  simp only [Cert.KernelIdeal.KLoads.ld2_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld2_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf2, Cert.FK.tfStep, Cert.FK.tfRoot, Cert.FK.rodJ, Cert.FK.rod, Cert.FK.ang, Cert.FK.one, Cert.FK.zero, Cert.FK.eps]
  rfl

end Cert.KernelIdeal.KJoint2

end
-- ==== Proof.KJoint3.lean ====
/-
  Joint 3 (its parent is joint 0) at one lane (s, l) of a tile: the twelve values it stores in its row of the scratch buffers are the entries of its global transform, and the three values it stores in the output are its position — the translation of its global transform plus the body translation. Its transform is the parent's, read back from the parent's row, composed with its own Rodrigues matrix and offset.
-/
import proofs.«127147_j62156766707902_2_alg».proof.Proof.KLanes
import proofs.«127147_j62156766707902_2_alg».proof.Proof.KLane
import proofs.«127147_j62156766707902_2_alg».proof.Proof.KLoads
import proofs.«127147_j62156766707902_2_alg».proof.Proof.KJoint0

noncomputable section

namespace Cert.KernelIdeal.KJoint3

open Idealize.ShloMosaic Idealize.ShloMosaic.TcCoe Idealize.SL.Sem Idealize.ShloMosaic.ValueIdx
open Cert.KernelIdeal Cert.KernelIdeal.Gen Cert.KernelIdeal.KLane Cert.KernelIdeal.KLanes

set_option maxHeartbeats 1000000 in
theorem ck3_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay220 (kernelRun0_A.sl.r_145 c arg1 harg1 arg5 arg6 arg7 x0)) (ix3 0 s l) = (Cert.FK.tf3 (laneP x0 s l) (offT x1)).n00 := by
  fk_unfold_run
  simp only [Cert.KernelIdeal.KLoads.ld3_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf3, Cert.FK.tfStep, Cert.FK.tfRoot, Cert.FK.rodJ, Cert.FK.rod, Cert.FK.ang, Cert.FK.one, Cert.FK.zero, Cert.FK.eps]
  rfl

set_option maxHeartbeats 1000000 in
theorem ck3_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.r_157 c arg1 harg1 arg5 arg6 arg7 x0) (ix3 0 s l) = (Cert.FK.tf3 (laneP x0 s l) (offT x1)).n01 := by
  fk_unfold_run
  simp only [Cert.KernelIdeal.KLoads.ld3_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf3, Cert.FK.tfStep, Cert.FK.tfRoot, Cert.FK.rodJ, Cert.FK.rod, Cert.FK.ang, Cert.FK.one, Cert.FK.zero, Cert.FK.eps]
  rfl

set_option maxHeartbeats 1000000 in
theorem ck3_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v776 c arg1 harg1 arg5 arg6 arg7 x0) (ix3 0 s l) = (Cert.FK.tf3 (laneP x0 s l) (offT x1)).n02 := by
  fk_unfold_run
  simp only [Cert.KernelIdeal.KLoads.ld3_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf3, Cert.FK.tfStep, Cert.FK.tfRoot, Cert.FK.rodJ, Cert.FK.rod, Cert.FK.ang, Cert.FK.one, Cert.FK.zero, Cert.FK.eps]
  rfl

set_option maxHeartbeats 1000000 in
theorem ck3_3 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v779 c arg1 harg1 arg8 arg9 arg10 x0) (ix3 0 s l) = (Cert.FK.tf3 (laneP x0 s l) (offT x1)).n10 := by
  fk_unfold_run
  simp only [Cert.KernelIdeal.KLoads.ld3_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf3, Cert.FK.tfStep, Cert.FK.tfRoot, Cert.FK.rodJ, Cert.FK.rod, Cert.FK.ang, Cert.FK.one, Cert.FK.zero, Cert.FK.eps]
  rfl

set_option maxHeartbeats 1000000 in
theorem ck3_4 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v782 c arg1 harg1 arg8 arg9 arg10 x0) (ix3 0 s l) = (Cert.FK.tf3 (laneP x0 s l) (offT x1)).n11 := by
  fk_unfold_run
  simp only [Cert.KernelIdeal.KLoads.ld3_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf3, Cert.FK.tfStep, Cert.FK.tfRoot, Cert.FK.rodJ, Cert.FK.rod, Cert.FK.ang, Cert.FK.one, Cert.FK.zero, Cert.FK.eps]
  rfl

set_option maxHeartbeats 1000000 in
theorem ck3_5 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v785 c arg1 harg1 arg8 arg9 arg10 x0) (ix3 0 s l) = (Cert.FK.tf3 (laneP x0 s l) (offT x1)).n12 := by
  fk_unfold_run
  simp only [Cert.KernelIdeal.KLoads.ld3_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf3, Cert.FK.tfStep, Cert.FK.tfRoot, Cert.FK.rodJ, Cert.FK.rod, Cert.FK.ang, Cert.FK.one, Cert.FK.zero, Cert.FK.eps]
  rfl

set_option maxHeartbeats 1000000 in
theorem ck3_6 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v788 c arg1 harg1 arg11 arg12 arg13 x0) (ix3 0 s l) = (Cert.FK.tf3 (laneP x0 s l) (offT x1)).n20 := by
  fk_unfold_run
  simp only [Cert.KernelIdeal.KLoads.ld3_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf3, Cert.FK.tfStep, Cert.FK.tfRoot, Cert.FK.rodJ, Cert.FK.rod, Cert.FK.ang, Cert.FK.one, Cert.FK.zero, Cert.FK.eps]
  rfl

set_option maxHeartbeats 1000000 in
theorem ck3_7 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v791 c arg1 harg1 arg11 arg12 arg13 x0) (ix3 0 s l) = (Cert.FK.tf3 (laneP x0 s l) (offT x1)).n21 := by
  fk_unfold_run
  simp only [Cert.KernelIdeal.KLoads.ld3_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf3, Cert.FK.tfStep, Cert.FK.tfRoot, Cert.FK.rodJ, Cert.FK.rod, Cert.FK.ang, Cert.FK.one, Cert.FK.zero, Cert.FK.eps]
  rfl

set_option maxHeartbeats 1000000 in
theorem ck3_8 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v794 c arg1 harg1 arg11 arg12 arg13 x0) (ix3 0 s l) = (Cert.FK.tf3 (laneP x0 s l) (offT x1)).n22 := by
  fk_unfold_run
  simp only [Cert.KernelIdeal.KLoads.ld3_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf3, Cert.FK.tfStep, Cert.FK.tfRoot, Cert.FK.rodJ, Cert.FK.rod, Cert.FK.ang, Cert.FK.one, Cert.FK.zero, Cert.FK.eps]
  rfl

set_option maxHeartbeats 1000000 in
theorem ck3_9 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v797 c arg1 harg1 arg2 harg2 arg5 arg6 arg7 arg14 x0 x1) (ix3 0 s l) = (Cert.FK.tf3 (laneP x0 s l) (offT x1)).tx := by
  fk_unfold_run
  simp only [Cert.KernelIdeal.KLoads.ld3_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf3, Cert.FK.tfStep, Cert.FK.tfRoot, Cert.FK.rodJ, Cert.FK.rod, Cert.FK.ang, Cert.FK.one, Cert.FK.zero, Cert.FK.eps]
  rfl

set_option maxHeartbeats 1000000 in
theorem ck3_10 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay230 (kernelRun0_A.sl.r_155 c arg1 harg1 arg2 harg2 arg8 arg9 arg10 arg15 x0 x1)) (ix3 0 s l) = (Cert.FK.tf3 (laneP x0 s l) (offT x1)).ty := by
  fk_unfold_run
  simp only [Cert.KernelIdeal.KLoads.ld3_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf3, Cert.FK.tfStep, Cert.FK.tfRoot, Cert.FK.rodJ, Cert.FK.rod, Cert.FK.ang, Cert.FK.one, Cert.FK.zero, Cert.FK.eps]
  rfl

set_option maxHeartbeats 1000000 in
theorem ck3_11 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay231 (kernelRun0_A.sl.r_156 c arg1 harg1 arg2 harg2 arg11 arg12 arg13 arg16 x0 x1)) (ix3 0 s l) = (Cert.FK.tf3 (laneP x0 s l) (offT x1)).tz := by
  fk_unfold_run
  simp only [Cert.KernelIdeal.KLoads.ld3_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf3, Cert.FK.tfStep, Cert.FK.tfRoot, Cert.FK.rodJ, Cert.FK.rod, Cert.FK.ang, Cert.FK.one, Cert.FK.zero, Cert.FK.eps]
  rfl

set_option maxHeartbeats 1000000 in
theorem out3_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay232 (kernelRun0_A.sl.r_1 c arg3 harg3 x2) (kernelRun0_A.sl.r_154 c arg1 harg1 arg2 harg2 arg5 arg6 arg7 arg14 x0 x1)) (ix4 0 0 s l) = (Cert.FK.tf3 (laneP x0 s l) (offT x1)).tx + x2 (ix3 0 s l) := by
  fk_unfold_run
  simp only [Cert.KernelIdeal.KLoads.ld3_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf3, Cert.FK.tfStep, Cert.FK.tfRoot, Cert.FK.rodJ, Cert.FK.rod, Cert.FK.ang, Cert.FK.one, Cert.FK.zero, Cert.FK.eps]
  rfl

set_option maxHeartbeats 1000000 in
theorem out3_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay233 (kernelRun0_A.sl.r_2 c arg3 harg3 x2) (kernelRun0_A.sl.r_155 c arg1 harg1 arg2 harg2 arg8 arg9 arg10 arg15 x0 x1)) (ix4 0 0 s l) = (Cert.FK.tf3 (laneP x0 s l) (offT x1)).ty + x2 (ix3 1 s l) := by
  fk_unfold_run
  simp only [Cert.KernelIdeal.KLoads.ld3_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf3, Cert.FK.tfStep, Cert.FK.tfRoot, Cert.FK.rodJ, Cert.FK.rod, Cert.FK.ang, Cert.FK.one, Cert.FK.zero, Cert.FK.eps]
  rfl

set_option maxHeartbeats 1000000 in
theorem out3_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay234 (kernelRun0_A.sl.r_3 c arg3 harg3 x2) (kernelRun0_A.sl.r_156 c arg1 harg1 arg2 harg2 arg11 arg12 arg13 arg16 x0 x1)) (ix4 0 0 s l) = (Cert.FK.tf3 (laneP x0 s l) (offT x1)).tz + x2 (ix3 2 s l) := by
  fk_unfold_run
  simp only [Cert.KernelIdeal.KLoads.ld3_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld3_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint0.ck0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint0.ck0_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf3, Cert.FK.tfStep, Cert.FK.tfRoot, Cert.FK.rodJ, Cert.FK.rod, Cert.FK.ang, Cert.FK.one, Cert.FK.zero, Cert.FK.eps]
  rfl

end Cert.KernelIdeal.KJoint3

end
-- ==== Proof.KJoint4.lean ====
/-
  Joint 4 (its parent is joint 1) at one lane (s, l) of a tile: the twelve values it stores in its row of the scratch buffers are the entries of its global transform, and the three values it stores in the output are its position — the translation of its global transform plus the body translation. Its transform is the parent's, read back from the parent's row, composed with its own Rodrigues matrix and offset.
-/
import proofs.«127147_j62156766707902_2_alg».proof.Proof.KLanes
import proofs.«127147_j62156766707902_2_alg».proof.Proof.KLane
import proofs.«127147_j62156766707902_2_alg».proof.Proof.KLoads
import proofs.«127147_j62156766707902_2_alg».proof.Proof.KJoint1

noncomputable section

namespace Cert.KernelIdeal.KJoint4

open Idealize.ShloMosaic Idealize.ShloMosaic.TcCoe Idealize.SL.Sem Idealize.ShloMosaic.ValueIdx
open Cert.KernelIdeal Cert.KernelIdeal.Gen Cert.KernelIdeal.KLane Cert.KernelIdeal.KLanes

set_option maxHeartbeats 1000000 in
theorem ck4_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay285 (kernelRun0_A.sl.r_191 c arg1 harg1 arg5 arg6 arg7 x0)) (ix3 0 s l) = (Cert.FK.tf4 (laneP x0 s l) (offT x1)).n00 := by
  fk_unfold_run
  simp only [Cert.KernelIdeal.KLoads.ld4_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint1.ck1_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf4, Cert.FK.tfStep, Cert.FK.tfRoot, Cert.FK.rodJ, Cert.FK.rod, Cert.FK.ang, Cert.FK.one, Cert.FK.zero, Cert.FK.eps]
  rfl

set_option maxHeartbeats 1000000 in
theorem ck4_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay286 (kernelRun0_A.sl.r_192 c arg1 harg1 arg5 arg6 arg7 x0)) (ix3 0 s l) = (Cert.FK.tf4 (laneP x0 s l) (offT x1)).n01 := by
  fk_unfold_run
  simp only [Cert.KernelIdeal.KLoads.ld4_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint1.ck1_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf4, Cert.FK.tfStep, Cert.FK.tfRoot, Cert.FK.rodJ, Cert.FK.rod, Cert.FK.ang, Cert.FK.one, Cert.FK.zero, Cert.FK.eps]
  rfl

set_option maxHeartbeats 1000000 in
theorem ck4_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay287 (kernelRun0_A.sl.r_193 c arg1 harg1 arg5 arg6 arg7 x0)) (ix3 0 s l) = (Cert.FK.tf4 (laneP x0 s l) (offT x1)).n02 := by
  fk_unfold_run
  simp only [Cert.KernelIdeal.KLoads.ld4_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint1.ck1_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf4, Cert.FK.tfStep, Cert.FK.tfRoot, Cert.FK.rodJ, Cert.FK.rod, Cert.FK.ang, Cert.FK.one, Cert.FK.zero, Cert.FK.eps]
  rfl

set_option maxHeartbeats 1000000 in
theorem ck4_3 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay288 (kernelRun0_A.sl.r_194 c arg1 harg1 arg8 arg9 arg10 x0)) (ix3 0 s l) = (Cert.FK.tf4 (laneP x0 s l) (offT x1)).n10 := by
  fk_unfold_run
  simp only [Cert.KernelIdeal.KLoads.ld4_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint1.ck1_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf4, Cert.FK.tfStep, Cert.FK.tfRoot, Cert.FK.rodJ, Cert.FK.rod, Cert.FK.ang, Cert.FK.one, Cert.FK.zero, Cert.FK.eps]
  rfl

set_option maxHeartbeats 1000000 in
theorem ck4_4 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay289 (kernelRun0_A.sl.r_195 c arg1 harg1 arg8 arg9 arg10 x0)) (ix3 0 s l) = (Cert.FK.tf4 (laneP x0 s l) (offT x1)).n11 := by
  fk_unfold_run
  simp only [Cert.KernelIdeal.KLoads.ld4_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint1.ck1_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf4, Cert.FK.tfStep, Cert.FK.tfRoot, Cert.FK.rodJ, Cert.FK.rod, Cert.FK.ang, Cert.FK.one, Cert.FK.zero, Cert.FK.eps]
  rfl

set_option maxHeartbeats 1000000 in
theorem ck4_5 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay290 (kernelRun0_A.sl.r_196 c arg1 harg1 arg8 arg9 arg10 x0)) (ix3 0 s l) = (Cert.FK.tf4 (laneP x0 s l) (offT x1)).n12 := by
  fk_unfold_run
  simp only [Cert.KernelIdeal.KLoads.ld4_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint1.ck1_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf4, Cert.FK.tfStep, Cert.FK.tfRoot, Cert.FK.rodJ, Cert.FK.rod, Cert.FK.ang, Cert.FK.one, Cert.FK.zero, Cert.FK.eps]
  rfl

set_option maxHeartbeats 1000000 in
theorem ck4_6 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay291 (kernelRun0_A.sl.r_197 c arg1 harg1 arg11 arg12 arg13 x0)) (ix3 0 s l) = (Cert.FK.tf4 (laneP x0 s l) (offT x1)).n20 := by
  fk_unfold_run
  simp only [Cert.KernelIdeal.KLoads.ld4_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint1.ck1_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf4, Cert.FK.tfStep, Cert.FK.tfRoot, Cert.FK.rodJ, Cert.FK.rod, Cert.FK.ang, Cert.FK.one, Cert.FK.zero, Cert.FK.eps]
  rfl

set_option maxHeartbeats 1000000 in
theorem ck4_7 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay292 (kernelRun0_A.sl.r_198 c arg1 harg1 arg11 arg12 arg13 x0)) (ix3 0 s l) = (Cert.FK.tf4 (laneP x0 s l) (offT x1)).n21 := by
  fk_unfold_run
  simp only [Cert.KernelIdeal.KLoads.ld4_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint1.ck1_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf4, Cert.FK.tfStep, Cert.FK.tfRoot, Cert.FK.rodJ, Cert.FK.rod, Cert.FK.ang, Cert.FK.one, Cert.FK.zero, Cert.FK.eps]
  rfl

set_option maxHeartbeats 1000000 in
theorem ck4_8 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay293 (kernelRun0_A.sl.r_199 c arg1 harg1 arg11 arg12 arg13 x0)) (ix3 0 s l) = (Cert.FK.tf4 (laneP x0 s l) (offT x1)).n22 := by
  fk_unfold_run
  simp only [Cert.KernelIdeal.KLoads.ld4_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint1.ck1_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf4, Cert.FK.tfStep, Cert.FK.tfRoot, Cert.FK.rodJ, Cert.FK.rod, Cert.FK.ang, Cert.FK.one, Cert.FK.zero, Cert.FK.eps]
  rfl

set_option maxHeartbeats 1000000 in
theorem ck4_9 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay294 (kernelRun0_A.sl.r_201 c arg1 harg1 arg2 harg2 arg5 arg6 arg7 arg14 x0 x1)) (ix3 0 s l) = (Cert.FK.tf4 (laneP x0 s l) (offT x1)).tx := by
  fk_unfold_run
  simp only [Cert.KernelIdeal.KLoads.ld4_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint1.ck1_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf4, Cert.FK.tfStep, Cert.FK.tfRoot, Cert.FK.rodJ, Cert.FK.rod, Cert.FK.ang, Cert.FK.one, Cert.FK.zero, Cert.FK.eps]
  rfl

set_option maxHeartbeats 1000000 in
theorem ck4_10 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay295 (kernelRun0_A.sl.r_202 c arg1 harg1 arg2 harg2 arg8 arg9 arg10 arg15 x0 x1)) (ix3 0 s l) = (Cert.FK.tf4 (laneP x0 s l) (offT x1)).ty := by
  fk_unfold_run
  simp only [Cert.KernelIdeal.KLoads.ld4_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint1.ck1_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf4, Cert.FK.tfStep, Cert.FK.tfRoot, Cert.FK.rodJ, Cert.FK.rod, Cert.FK.ang, Cert.FK.one, Cert.FK.zero, Cert.FK.eps]
  rfl

set_option maxHeartbeats 1000000 in
theorem ck4_11 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay296 (kernelRun0_A.sl.r_203 c arg1 harg1 arg2 harg2 arg11 arg12 arg13 arg16 x0 x1)) (ix3 0 s l) = (Cert.FK.tf4 (laneP x0 s l) (offT x1)).tz := by
  fk_unfold_run
  simp only [Cert.KernelIdeal.KLoads.ld4_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint1.ck1_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf4, Cert.FK.tfStep, Cert.FK.tfRoot, Cert.FK.rodJ, Cert.FK.rod, Cert.FK.ang, Cert.FK.one, Cert.FK.zero, Cert.FK.eps]
  rfl

set_option maxHeartbeats 1000000 in
theorem out4_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay297 (kernelRun0_A.sl.r_1 c arg3 harg3 x2) (kernelRun0_A.sl.r_201 c arg1 harg1 arg2 harg2 arg5 arg6 arg7 arg14 x0 x1)) (ix4 0 0 s l) = (Cert.FK.tf4 (laneP x0 s l) (offT x1)).tx + x2 (ix3 0 s l) := by
  fk_unfold_run
  simp only [Cert.KernelIdeal.KLoads.ld4_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint1.ck1_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf4, Cert.FK.tfStep, Cert.FK.tfRoot, Cert.FK.rodJ, Cert.FK.rod, Cert.FK.ang, Cert.FK.one, Cert.FK.zero, Cert.FK.eps]
  rfl

set_option maxHeartbeats 1000000 in
theorem out4_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay299 (kernelRun0_A.sl.r_204 c arg1 harg1 arg2 harg2 arg3 harg3 arg8 arg9 arg10 arg15 x0 x1 x2)) (ix4 0 0 s l) = (Cert.FK.tf4 (laneP x0 s l) (offT x1)).ty + x2 (ix3 1 s l) := by
  fk_unfold_run
  simp only [Cert.KernelIdeal.KLoads.ld4_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint1.ck1_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf4, Cert.FK.tfStep, Cert.FK.tfRoot, Cert.FK.rodJ, Cert.FK.rod, Cert.FK.ang, Cert.FK.one, Cert.FK.zero, Cert.FK.eps]
  rfl

set_option maxHeartbeats 1000000 in
theorem out4_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay300 (kernelRun0_A.sl.r_3 c arg3 harg3 x2) (kernelRun0_A.sl.r_203 c arg1 harg1 arg2 harg2 arg11 arg12 arg13 arg16 x0 x1)) (ix4 0 0 s l) = (Cert.FK.tf4 (laneP x0 s l) (offT x1)).tz + x2 (ix3 2 s l) := by
  fk_unfold_run
  simp only [Cert.KernelIdeal.KLoads.ld4_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld4_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint1.ck1_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint1.ck1_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf4, Cert.FK.tfStep, Cert.FK.tfRoot, Cert.FK.rodJ, Cert.FK.rod, Cert.FK.ang, Cert.FK.one, Cert.FK.zero, Cert.FK.eps]
  rfl

end Cert.KernelIdeal.KJoint4

end
-- ==== Proof.KJoint5.lean ====
/-
  Joint 5 (its parent is joint 2) at one lane (s, l) of a tile: the twelve values it stores in its row of the scratch buffers are the entries of its global transform, and the three values it stores in the output are its position — the translation of its global transform plus the body translation. Its transform is the parent's, read back from the parent's row, composed with its own Rodrigues matrix and offset.
-/
import proofs.«127147_j62156766707902_2_alg».proof.Proof.KLanes
import proofs.«127147_j62156766707902_2_alg».proof.Proof.KLane
import proofs.«127147_j62156766707902_2_alg».proof.Proof.KLoads
import proofs.«127147_j62156766707902_2_alg».proof.Proof.KJoint2

noncomputable section

namespace Cert.KernelIdeal.KJoint5

open Idealize.ShloMosaic Idealize.ShloMosaic.TcCoe Idealize.SL.Sem Idealize.ShloMosaic.ValueIdx
open Cert.KernelIdeal Cert.KernelIdeal.Gen Cert.KernelIdeal.KLane Cert.KernelIdeal.KLanes

set_option maxHeartbeats 1000000 in
theorem ck5_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay352 (kernelRun0_A.sl.r_234 c arg1 harg1 arg5 arg6 arg7 x0)) (ix3 0 s l) = (Cert.FK.tf5 (laneP x0 s l) (offT x1)).n00 := by
  fk_unfold_run
  simp only [Cert.KernelIdeal.KLoads.ld5_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint2.ck2_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf5, Cert.FK.tfStep, Cert.FK.tfRoot, Cert.FK.rodJ, Cert.FK.rod, Cert.FK.ang, Cert.FK.one, Cert.FK.zero, Cert.FK.eps]
  rfl

set_option maxHeartbeats 1000000 in
theorem ck5_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay353 (kernelRun0_A.sl.r_237 c arg1 harg1 arg5 arg6 arg7 x0)) (ix3 0 s l) = (Cert.FK.tf5 (laneP x0 s l) (offT x1)).n01 := by
  fk_unfold_run
  simp only [Cert.KernelIdeal.KLoads.ld5_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint2.ck2_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf5, Cert.FK.tfStep, Cert.FK.tfRoot, Cert.FK.rodJ, Cert.FK.rod, Cert.FK.ang, Cert.FK.one, Cert.FK.zero, Cert.FK.eps]
  rfl

set_option maxHeartbeats 1000000 in
theorem ck5_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay354 (kernelRun0_A.sl.r_238 c arg1 harg1 arg5 arg6 arg7 x0)) (ix3 0 s l) = (Cert.FK.tf5 (laneP x0 s l) (offT x1)).n02 := by
  fk_unfold_run
  simp only [Cert.KernelIdeal.KLoads.ld5_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint2.ck2_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf5, Cert.FK.tfStep, Cert.FK.tfRoot, Cert.FK.rodJ, Cert.FK.rod, Cert.FK.ang, Cert.FK.one, Cert.FK.zero, Cert.FK.eps]
  rfl

set_option maxHeartbeats 1000000 in
theorem ck5_3 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay355 (kernelRun0_A.sl.r_239 c arg1 harg1 arg8 arg9 arg10 x0)) (ix3 0 s l) = (Cert.FK.tf5 (laneP x0 s l) (offT x1)).n10 := by
  fk_unfold_run
  simp only [Cert.KernelIdeal.KLoads.ld5_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint2.ck2_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf5, Cert.FK.tfStep, Cert.FK.tfRoot, Cert.FK.rodJ, Cert.FK.rod, Cert.FK.ang, Cert.FK.one, Cert.FK.zero, Cert.FK.eps]
  rfl

set_option maxHeartbeats 1000000 in
theorem ck5_4 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay356 (kernelRun0_A.sl.r_240 c arg1 harg1 arg8 arg9 arg10 x0)) (ix3 0 s l) = (Cert.FK.tf5 (laneP x0 s l) (offT x1)).n11 := by
  fk_unfold_run
  simp only [Cert.KernelIdeal.KLoads.ld5_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint2.ck2_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf5, Cert.FK.tfStep, Cert.FK.tfRoot, Cert.FK.rodJ, Cert.FK.rod, Cert.FK.ang, Cert.FK.one, Cert.FK.zero, Cert.FK.eps]
  rfl

set_option maxHeartbeats 1000000 in
theorem ck5_5 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay357 (kernelRun0_A.sl.r_241 c arg1 harg1 arg8 arg9 arg10 x0)) (ix3 0 s l) = (Cert.FK.tf5 (laneP x0 s l) (offT x1)).n12 := by
  fk_unfold_run
  simp only [Cert.KernelIdeal.KLoads.ld5_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint2.ck2_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf5, Cert.FK.tfStep, Cert.FK.tfRoot, Cert.FK.rodJ, Cert.FK.rod, Cert.FK.ang, Cert.FK.one, Cert.FK.zero, Cert.FK.eps]
  rfl

set_option maxHeartbeats 1000000 in
theorem ck5_6 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay358 (kernelRun0_A.sl.r_242 c arg1 harg1 arg11 arg12 arg13 x0)) (ix3 0 s l) = (Cert.FK.tf5 (laneP x0 s l) (offT x1)).n20 := by
  fk_unfold_run
  simp only [Cert.KernelIdeal.KLoads.ld5_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint2.ck2_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf5, Cert.FK.tfStep, Cert.FK.tfRoot, Cert.FK.rodJ, Cert.FK.rod, Cert.FK.ang, Cert.FK.one, Cert.FK.zero, Cert.FK.eps]
  rfl

set_option maxHeartbeats 1000000 in
theorem ck5_7 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay359 (kernelRun0_A.sl.r_243 c arg1 harg1 arg11 arg12 arg13 x0)) (ix3 0 s l) = (Cert.FK.tf5 (laneP x0 s l) (offT x1)).n21 := by
  fk_unfold_run
  simp only [Cert.KernelIdeal.KLoads.ld5_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint2.ck2_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf5, Cert.FK.tfStep, Cert.FK.tfRoot, Cert.FK.rodJ, Cert.FK.rod, Cert.FK.ang, Cert.FK.one, Cert.FK.zero, Cert.FK.eps]
  rfl

set_option maxHeartbeats 1000000 in
theorem ck5_8 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay360 (kernelRun0_A.sl.r_244 c arg1 harg1 arg11 arg12 arg13 x0)) (ix3 0 s l) = (Cert.FK.tf5 (laneP x0 s l) (offT x1)).n22 := by
  fk_unfold_run
  simp only [Cert.KernelIdeal.KLoads.ld5_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint2.ck2_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf5, Cert.FK.tfStep, Cert.FK.tfRoot, Cert.FK.rodJ, Cert.FK.rod, Cert.FK.ang, Cert.FK.one, Cert.FK.zero, Cert.FK.eps]
  rfl

set_option maxHeartbeats 1000000 in
theorem ck5_9 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay361 (kernelRun0_A.sl.r_245 c arg1 harg1 arg2 harg2 arg5 arg6 arg7 arg14 x0 x1)) (ix3 0 s l) = (Cert.FK.tf5 (laneP x0 s l) (offT x1)).tx := by
  fk_unfold_run
  simp only [Cert.KernelIdeal.KLoads.ld5_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint2.ck2_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf5, Cert.FK.tfStep, Cert.FK.tfRoot, Cert.FK.rodJ, Cert.FK.rod, Cert.FK.ang, Cert.FK.one, Cert.FK.zero, Cert.FK.eps]
  rfl

set_option maxHeartbeats 1000000 in
theorem ck5_10 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay362 (kernelRun0_A.sl.r_246 c arg1 harg1 arg2 harg2 arg8 arg9 arg10 arg15 x0 x1)) (ix3 0 s l) = (Cert.FK.tf5 (laneP x0 s l) (offT x1)).ty := by
  fk_unfold_run
  simp only [Cert.KernelIdeal.KLoads.ld5_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint2.ck2_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf5, Cert.FK.tfStep, Cert.FK.tfRoot, Cert.FK.rodJ, Cert.FK.rod, Cert.FK.ang, Cert.FK.one, Cert.FK.zero, Cert.FK.eps]
  rfl

set_option maxHeartbeats 1000000 in
theorem ck5_11 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay363 (kernelRun0_A.sl.r_249 c arg1 harg1 arg2 harg2 arg11 arg12 arg13 arg16 x0 x1)) (ix3 0 s l) = (Cert.FK.tf5 (laneP x0 s l) (offT x1)).tz := by
  fk_unfold_run
  simp only [Cert.KernelIdeal.KLoads.ld5_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint2.ck2_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf5, Cert.FK.tfStep, Cert.FK.tfRoot, Cert.FK.rodJ, Cert.FK.rod, Cert.FK.ang, Cert.FK.one, Cert.FK.zero, Cert.FK.eps]
  rfl

set_option maxHeartbeats 1000000 in
theorem out5_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay364 (kernelRun0_A.sl.r_1 c arg3 harg3 x2) (kernelRun0_A.sl.r_245 c arg1 harg1 arg2 harg2 arg5 arg6 arg7 arg14 x0 x1)) (ix4 0 0 s l) = (Cert.FK.tf5 (laneP x0 s l) (offT x1)).tx + x2 (ix3 0 s l) := by
  fk_unfold_run
  simp only [Cert.KernelIdeal.KLoads.ld5_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint2.ck2_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf5, Cert.FK.tfStep, Cert.FK.tfRoot, Cert.FK.rodJ, Cert.FK.rod, Cert.FK.ang, Cert.FK.one, Cert.FK.zero, Cert.FK.eps]
  rfl

set_option maxHeartbeats 1000000 in
theorem out5_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay365 (kernelRun0_A.sl.r_2 c arg3 harg3 x2) (kernelRun0_A.sl.r_246 c arg1 harg1 arg2 harg2 arg8 arg9 arg10 arg15 x0 x1)) (ix4 0 0 s l) = (Cert.FK.tf5 (laneP x0 s l) (offT x1)).ty + x2 (ix3 1 s l) := by
  fk_unfold_run
  simp only [Cert.KernelIdeal.KLoads.ld5_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint2.ck2_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf5, Cert.FK.tfStep, Cert.FK.tfRoot, Cert.FK.rodJ, Cert.FK.rod, Cert.FK.ang, Cert.FK.one, Cert.FK.zero, Cert.FK.eps]
  rfl

set_option maxHeartbeats 1000000 in
theorem out5_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay366 (kernelRun0_A.sl.r_3 c arg3 harg3 x2) (kernelRun0_A.sl.r_249 c arg1 harg1 arg2 harg2 arg11 arg12 arg13 arg16 x0 x1)) (ix4 0 0 s l) = (Cert.FK.tf5 (laneP x0 s l) (offT x1)).tz + x2 (ix3 2 s l) := by
  fk_unfold_run
  simp only [Cert.KernelIdeal.KLoads.ld5_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld5_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint2.ck2_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint2.ck2_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf5, Cert.FK.tfStep, Cert.FK.tfRoot, Cert.FK.rodJ, Cert.FK.rod, Cert.FK.ang, Cert.FK.one, Cert.FK.zero, Cert.FK.eps]
  rfl

end Cert.KernelIdeal.KJoint5

end
-- ==== Proof.KJoint6.lean ====
/-
  Joint 6 (its parent is joint 3) at one lane (s, l) of a tile: the twelve values it stores in its row of the scratch buffers are the entries of its global transform, and the three values it stores in the output are its position — the translation of its global transform plus the body translation. Its transform is the parent's, read back from the parent's row, composed with its own Rodrigues matrix and offset.
-/
import proofs.«127147_j62156766707902_2_alg».proof.Proof.KLanes
import proofs.«127147_j62156766707902_2_alg».proof.Proof.KLane
import proofs.«127147_j62156766707902_2_alg».proof.Proof.KLoads
import proofs.«127147_j62156766707902_2_alg».proof.Proof.KJoint3

noncomputable section

namespace Cert.KernelIdeal.KJoint6

open Idealize.ShloMosaic Idealize.ShloMosaic.TcCoe Idealize.SL.Sem Idealize.ShloMosaic.ValueIdx
open Cert.KernelIdeal Cert.KernelIdeal.Gen Cert.KernelIdeal.KLane Cert.KernelIdeal.KLanes

set_option maxHeartbeats 1000000 in
theorem ck6_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay415 (kernelRun0_A.sl.r_280 c arg1 harg1 arg5 arg6 arg7 x0)) (ix3 0 s l) = (Cert.FK.tf6 (laneP x0 s l) (offT x1)).n00 := by
  fk_unfold_run
  simp only [Cert.KernelIdeal.KLoads.ld6_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint3.ck3_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf6, Cert.FK.tfStep, Cert.FK.tfRoot, Cert.FK.rodJ, Cert.FK.rod, Cert.FK.ang, Cert.FK.one, Cert.FK.zero, Cert.FK.eps]
  rfl

set_option maxHeartbeats 1000000 in
theorem ck6_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay416 (kernelRun0_A.sl.r_281 c arg1 harg1 arg5 arg6 arg7 x0)) (ix3 0 s l) = (Cert.FK.tf6 (laneP x0 s l) (offT x1)).n01 := by
  fk_unfold_run
  simp only [Cert.KernelIdeal.KLoads.ld6_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint3.ck3_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf6, Cert.FK.tfStep, Cert.FK.tfRoot, Cert.FK.rodJ, Cert.FK.rod, Cert.FK.ang, Cert.FK.one, Cert.FK.zero, Cert.FK.eps]
  rfl

set_option maxHeartbeats 1000000 in
theorem ck6_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v1451 c arg1 harg1 arg5 arg6 arg7 x0) (ix3 0 s l) = (Cert.FK.tf6 (laneP x0 s l) (offT x1)).n02 := by
  fk_unfold_run
  simp only [Cert.KernelIdeal.KLoads.ld6_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint3.ck3_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf6, Cert.FK.tfStep, Cert.FK.tfRoot, Cert.FK.rodJ, Cert.FK.rod, Cert.FK.ang, Cert.FK.one, Cert.FK.zero, Cert.FK.eps]
  rfl

set_option maxHeartbeats 1000000 in
theorem ck6_3 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v1454 c arg1 harg1 arg8 arg9 arg10 x0) (ix3 0 s l) = (Cert.FK.tf6 (laneP x0 s l) (offT x1)).n10 := by
  fk_unfold_run
  simp only [Cert.KernelIdeal.KLoads.ld6_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint3.ck3_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf6, Cert.FK.tfStep, Cert.FK.tfRoot, Cert.FK.rodJ, Cert.FK.rod, Cert.FK.ang, Cert.FK.one, Cert.FK.zero, Cert.FK.eps]
  rfl

set_option maxHeartbeats 1000000 in
theorem ck6_4 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v1457 c arg1 harg1 arg8 arg9 arg10 x0) (ix3 0 s l) = (Cert.FK.tf6 (laneP x0 s l) (offT x1)).n11 := by
  fk_unfold_run
  simp only [Cert.KernelIdeal.KLoads.ld6_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint3.ck3_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf6, Cert.FK.tfStep, Cert.FK.tfRoot, Cert.FK.rodJ, Cert.FK.rod, Cert.FK.ang, Cert.FK.one, Cert.FK.zero, Cert.FK.eps]
  rfl

set_option maxHeartbeats 1000000 in
theorem ck6_5 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v1460 c arg1 harg1 arg8 arg9 arg10 x0) (ix3 0 s l) = (Cert.FK.tf6 (laneP x0 s l) (offT x1)).n12 := by
  fk_unfold_run
  simp only [Cert.KernelIdeal.KLoads.ld6_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint3.ck3_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf6, Cert.FK.tfStep, Cert.FK.tfRoot, Cert.FK.rodJ, Cert.FK.rod, Cert.FK.ang, Cert.FK.one, Cert.FK.zero, Cert.FK.eps]
  rfl

set_option maxHeartbeats 1000000 in
theorem ck6_6 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v1463 c arg1 harg1 arg11 arg12 arg13 x0) (ix3 0 s l) = (Cert.FK.tf6 (laneP x0 s l) (offT x1)).n20 := by
  fk_unfold_run
  simp only [Cert.KernelIdeal.KLoads.ld6_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint3.ck3_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf6, Cert.FK.tfStep, Cert.FK.tfRoot, Cert.FK.rodJ, Cert.FK.rod, Cert.FK.ang, Cert.FK.one, Cert.FK.zero, Cert.FK.eps]
  rfl

set_option maxHeartbeats 1000000 in
theorem ck6_7 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v1466 c arg1 harg1 arg11 arg12 arg13 x0) (ix3 0 s l) = (Cert.FK.tf6 (laneP x0 s l) (offT x1)).n21 := by
  fk_unfold_run
  simp only [Cert.KernelIdeal.KLoads.ld6_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint3.ck3_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf6, Cert.FK.tfStep, Cert.FK.tfRoot, Cert.FK.rodJ, Cert.FK.rod, Cert.FK.ang, Cert.FK.one, Cert.FK.zero, Cert.FK.eps]
  rfl

set_option maxHeartbeats 1000000 in
theorem ck6_8 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v1469 c arg1 harg1 arg11 arg12 arg13 x0) (ix3 0 s l) = (Cert.FK.tf6 (laneP x0 s l) (offT x1)).n22 := by
  fk_unfold_run
  simp only [Cert.KernelIdeal.KLoads.ld6_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint3.ck3_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf6, Cert.FK.tfStep, Cert.FK.tfRoot, Cert.FK.rodJ, Cert.FK.rod, Cert.FK.ang, Cert.FK.one, Cert.FK.zero, Cert.FK.eps]
  rfl

set_option maxHeartbeats 1000000 in
theorem ck6_9 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v1472 c arg1 harg1 arg2 harg2 arg5 arg6 arg7 arg14 x0 x1) (ix3 0 s l) = (Cert.FK.tf6 (laneP x0 s l) (offT x1)).tx := by
  fk_unfold_run
  simp only [Cert.KernelIdeal.KLoads.ld6_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint3.ck3_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf6, Cert.FK.tfStep, Cert.FK.tfRoot, Cert.FK.rodJ, Cert.FK.rod, Cert.FK.ang, Cert.FK.one, Cert.FK.zero, Cert.FK.eps]
  rfl

set_option maxHeartbeats 1000000 in
theorem ck6_10 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v1475 c arg1 harg1 arg2 harg2 arg8 arg9 arg10 arg15 x0 x1) (ix3 0 s l) = (Cert.FK.tf6 (laneP x0 s l) (offT x1)).ty := by
  fk_unfold_run
  simp only [Cert.KernelIdeal.KLoads.ld6_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint3.ck3_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf6, Cert.FK.tfStep, Cert.FK.tfRoot, Cert.FK.rodJ, Cert.FK.rod, Cert.FK.ang, Cert.FK.one, Cert.FK.zero, Cert.FK.eps]
  rfl

set_option maxHeartbeats 1000000 in
theorem ck6_11 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay426 (kernelRun0_A.sl.r_292 c arg1 harg1 arg2 harg2 arg11 arg12 arg13 arg16 x0 x1)) (ix3 0 s l) = (Cert.FK.tf6 (laneP x0 s l) (offT x1)).tz := by
  fk_unfold_run
  simp only [Cert.KernelIdeal.KLoads.ld6_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint3.ck3_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf6, Cert.FK.tfStep, Cert.FK.tfRoot, Cert.FK.rodJ, Cert.FK.rod, Cert.FK.ang, Cert.FK.one, Cert.FK.zero, Cert.FK.eps]
  rfl

set_option maxHeartbeats 1000000 in
theorem out6_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay427 (kernelRun0_A.sl.r_1 c arg3 harg3 x2) (kernelRun0_A.sl.r_290 c arg1 harg1 arg2 harg2 arg5 arg6 arg7 arg14 x0 x1)) (ix4 0 0 s l) = (Cert.FK.tf6 (laneP x0 s l) (offT x1)).tx + x2 (ix3 0 s l) := by
  fk_unfold_run
  simp only [Cert.KernelIdeal.KLoads.ld6_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint3.ck3_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf6, Cert.FK.tfStep, Cert.FK.tfRoot, Cert.FK.rodJ, Cert.FK.rod, Cert.FK.ang, Cert.FK.one, Cert.FK.zero, Cert.FK.eps]
  rfl

set_option maxHeartbeats 1000000 in
theorem out6_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay428 (kernelRun0_A.sl.r_2 c arg3 harg3 x2) (kernelRun0_A.sl.r_291 c arg1 harg1 arg2 harg2 arg8 arg9 arg10 arg15 x0 x1)) (ix4 0 0 s l) = (Cert.FK.tf6 (laneP x0 s l) (offT x1)).ty + x2 (ix3 1 s l) := by
  fk_unfold_run
  simp only [Cert.KernelIdeal.KLoads.ld6_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint3.ck3_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf6, Cert.FK.tfStep, Cert.FK.tfRoot, Cert.FK.rodJ, Cert.FK.rod, Cert.FK.ang, Cert.FK.one, Cert.FK.zero, Cert.FK.eps]
  rfl

set_option maxHeartbeats 1000000 in
theorem out6_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay429 (kernelRun0_A.sl.r_3 c arg3 harg3 x2) (kernelRun0_A.sl.r_292 c arg1 harg1 arg2 harg2 arg11 arg12 arg13 arg16 x0 x1)) (ix4 0 0 s l) = (Cert.FK.tf6 (laneP x0 s l) (offT x1)).tz + x2 (ix3 2 s l) := by
  fk_unfold_run
  simp only [Cert.KernelIdeal.KLoads.ld6_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld6_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint3.ck3_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint3.ck3_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf6, Cert.FK.tfStep, Cert.FK.tfRoot, Cert.FK.rodJ, Cert.FK.rod, Cert.FK.ang, Cert.FK.one, Cert.FK.zero, Cert.FK.eps]
  rfl

end Cert.KernelIdeal.KJoint6

end
-- ==== Proof.KJoint7.lean ====
/-
  Joint 7 (its parent is joint 4) at one lane (s, l) of a tile: the twelve values it stores in its row of the scratch buffers are the entries of its global transform, and the three values it stores in the output are its position — the translation of its global transform plus the body translation. Its transform is the parent's, read back from the parent's row, composed with its own Rodrigues matrix and offset.
-/
import proofs.«127147_j62156766707902_2_alg».proof.Proof.KLanes
import proofs.«127147_j62156766707902_2_alg».proof.Proof.KLane
import proofs.«127147_j62156766707902_2_alg».proof.Proof.KLoads
import proofs.«127147_j62156766707902_2_alg».proof.Proof.KJoint4

noncomputable section

namespace Cert.KernelIdeal.KJoint7

open Idealize.ShloMosaic Idealize.ShloMosaic.TcCoe Idealize.SL.Sem Idealize.ShloMosaic.ValueIdx
open Cert.KernelIdeal Cert.KernelIdeal.Gen Cert.KernelIdeal.KLane Cert.KernelIdeal.KLanes

set_option maxHeartbeats 1000000 in
theorem ck7_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay479 (kernelRun0_A.sl.r_322 c arg1 harg1 arg5 arg6 arg7 x0)) (ix3 0 s l) = (Cert.FK.tf7 (laneP x0 s l) (offT x1)).n00 := by
  fk_unfold_run
  simp only [Cert.KernelIdeal.KLoads.ld7_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint4.ck4_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf7, Cert.FK.tfStep, Cert.FK.tfRoot, Cert.FK.rodJ, Cert.FK.rod, Cert.FK.ang, Cert.FK.one, Cert.FK.zero, Cert.FK.eps]
  rfl

set_option maxHeartbeats 1000000 in
theorem ck7_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay480 (kernelRun0_A.sl.r_323 c arg1 harg1 arg5 arg6 arg7 x0)) (ix3 0 s l) = (Cert.FK.tf7 (laneP x0 s l) (offT x1)).n01 := by
  fk_unfold_run
  simp only [Cert.KernelIdeal.KLoads.ld7_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint4.ck4_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf7, Cert.FK.tfStep, Cert.FK.tfRoot, Cert.FK.rodJ, Cert.FK.rod, Cert.FK.ang, Cert.FK.one, Cert.FK.zero, Cert.FK.eps]
  rfl

set_option maxHeartbeats 1000000 in
theorem ck7_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay481 (kernelRun0_A.sl.r_324 c arg1 harg1 arg5 arg6 arg7 x0)) (ix3 0 s l) = (Cert.FK.tf7 (laneP x0 s l) (offT x1)).n02 := by
  fk_unfold_run
  simp only [Cert.KernelIdeal.KLoads.ld7_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint4.ck4_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf7, Cert.FK.tfStep, Cert.FK.tfRoot, Cert.FK.rodJ, Cert.FK.rod, Cert.FK.ang, Cert.FK.one, Cert.FK.zero, Cert.FK.eps]
  rfl

set_option maxHeartbeats 1000000 in
theorem ck7_3 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay482 (kernelRun0_A.sl.r_325 c arg1 harg1 arg8 arg9 arg10 x0)) (ix3 0 s l) = (Cert.FK.tf7 (laneP x0 s l) (offT x1)).n10 := by
  fk_unfold_run
  simp only [Cert.KernelIdeal.KLoads.ld7_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint4.ck4_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf7, Cert.FK.tfStep, Cert.FK.tfRoot, Cert.FK.rodJ, Cert.FK.rod, Cert.FK.ang, Cert.FK.one, Cert.FK.zero, Cert.FK.eps]
  rfl

set_option maxHeartbeats 1000000 in
theorem ck7_4 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay483 (kernelRun0_A.sl.r_326 c arg1 harg1 arg8 arg9 arg10 x0)) (ix3 0 s l) = (Cert.FK.tf7 (laneP x0 s l) (offT x1)).n11 := by
  fk_unfold_run
  simp only [Cert.KernelIdeal.KLoads.ld7_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint4.ck4_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf7, Cert.FK.tfStep, Cert.FK.tfRoot, Cert.FK.rodJ, Cert.FK.rod, Cert.FK.ang, Cert.FK.one, Cert.FK.zero, Cert.FK.eps]
  rfl

set_option maxHeartbeats 1000000 in
theorem ck7_5 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.r_335 c arg1 harg1 arg8 arg9 arg10 x0) (ix3 0 s l) = (Cert.FK.tf7 (laneP x0 s l) (offT x1)).n12 := by
  fk_unfold_run
  simp only [Cert.KernelIdeal.KLoads.ld7_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint4.ck4_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf7, Cert.FK.tfStep, Cert.FK.tfRoot, Cert.FK.rodJ, Cert.FK.rod, Cert.FK.ang, Cert.FK.one, Cert.FK.zero, Cert.FK.eps]
  rfl

set_option maxHeartbeats 1000000 in
theorem ck7_6 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay485 (kernelRun0_A.sl.r_328 c arg1 harg1 arg11 arg12 arg13 x0)) (ix3 0 s l) = (Cert.FK.tf7 (laneP x0 s l) (offT x1)).n20 := by
  fk_unfold_run
  simp only [Cert.KernelIdeal.KLoads.ld7_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint4.ck4_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf7, Cert.FK.tfStep, Cert.FK.tfRoot, Cert.FK.rodJ, Cert.FK.rod, Cert.FK.ang, Cert.FK.one, Cert.FK.zero, Cert.FK.eps]
  rfl

set_option maxHeartbeats 1000000 in
theorem ck7_7 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay486 (kernelRun0_A.sl.r_329 c arg1 harg1 arg11 arg12 arg13 x0)) (ix3 0 s l) = (Cert.FK.tf7 (laneP x0 s l) (offT x1)).n21 := by
  fk_unfold_run
  simp only [Cert.KernelIdeal.KLoads.ld7_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint4.ck4_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf7, Cert.FK.tfStep, Cert.FK.tfRoot, Cert.FK.rodJ, Cert.FK.rod, Cert.FK.ang, Cert.FK.one, Cert.FK.zero, Cert.FK.eps]
  rfl

set_option maxHeartbeats 1000000 in
theorem ck7_8 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay487 (kernelRun0_A.sl.r_330 c arg1 harg1 arg11 arg12 arg13 x0)) (ix3 0 s l) = (Cert.FK.tf7 (laneP x0 s l) (offT x1)).n22 := by
  fk_unfold_run
  simp only [Cert.KernelIdeal.KLoads.ld7_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint4.ck4_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf7, Cert.FK.tfStep, Cert.FK.tfRoot, Cert.FK.rodJ, Cert.FK.rod, Cert.FK.ang, Cert.FK.one, Cert.FK.zero, Cert.FK.eps]
  rfl

set_option maxHeartbeats 1000000 in
theorem ck7_9 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay488 (kernelRun0_A.sl.r_332 c arg1 harg1 arg2 harg2 arg5 arg6 arg7 arg14 x0 x1)) (ix3 0 s l) = (Cert.FK.tf7 (laneP x0 s l) (offT x1)).tx := by
  fk_unfold_run
  simp only [Cert.KernelIdeal.KLoads.ld7_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint4.ck4_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf7, Cert.FK.tfStep, Cert.FK.tfRoot, Cert.FK.rodJ, Cert.FK.rod, Cert.FK.ang, Cert.FK.one, Cert.FK.zero, Cert.FK.eps]
  rfl

set_option maxHeartbeats 1000000 in
theorem ck7_10 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay489 (kernelRun0_A.sl.r_333 c arg1 harg1 arg2 harg2 arg8 arg9 arg10 arg15 x0 x1)) (ix3 0 s l) = (Cert.FK.tf7 (laneP x0 s l) (offT x1)).ty := by
  fk_unfold_run
  simp only [Cert.KernelIdeal.KLoads.ld7_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint4.ck4_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf7, Cert.FK.tfStep, Cert.FK.tfRoot, Cert.FK.rodJ, Cert.FK.rod, Cert.FK.ang, Cert.FK.one, Cert.FK.zero, Cert.FK.eps]
  rfl

set_option maxHeartbeats 1000000 in
theorem ck7_11 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay490 (kernelRun0_A.sl.r_334 c arg1 harg1 arg2 harg2 arg11 arg12 arg13 arg16 x0 x1)) (ix3 0 s l) = (Cert.FK.tf7 (laneP x0 s l) (offT x1)).tz := by
  fk_unfold_run
  simp only [Cert.KernelIdeal.KLoads.ld7_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint4.ck4_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf7, Cert.FK.tfStep, Cert.FK.tfRoot, Cert.FK.rodJ, Cert.FK.rod, Cert.FK.ang, Cert.FK.one, Cert.FK.zero, Cert.FK.eps]
  rfl

set_option maxHeartbeats 1000000 in
theorem out7_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay491 (kernelRun0_A.sl.r_1 c arg3 harg3 x2) (kernelRun0_A.sl.r_332 c arg1 harg1 arg2 harg2 arg5 arg6 arg7 arg14 x0 x1)) (ix4 0 0 s l) = (Cert.FK.tf7 (laneP x0 s l) (offT x1)).tx + x2 (ix3 0 s l) := by
  fk_unfold_run
  simp only [Cert.KernelIdeal.KLoads.ld7_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint4.ck4_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf7, Cert.FK.tfStep, Cert.FK.tfRoot, Cert.FK.rodJ, Cert.FK.rod, Cert.FK.ang, Cert.FK.one, Cert.FK.zero, Cert.FK.eps]
  rfl

set_option maxHeartbeats 1000000 in
theorem out7_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (kernelRun0_A.sl.r_336 c arg1 harg1 arg2 harg2 arg3 harg3 arg8 arg9 arg10 arg15 x0 x1 x2) (ix4 0 0 s l) = (Cert.FK.tf7 (laneP x0 s l) (offT x1)).ty + x2 (ix3 1 s l) := by
  fk_unfold_run
  simp only [Cert.KernelIdeal.KLoads.ld7_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint4.ck4_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf7, Cert.FK.tfStep, Cert.FK.tfRoot, Cert.FK.rodJ, Cert.FK.rod, Cert.FK.ang, Cert.FK.one, Cert.FK.zero, Cert.FK.eps]
  rfl

set_option maxHeartbeats 1000000 in
theorem out7_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay493 (kernelRun0_A.sl.r_3 c arg3 harg3 x2) (kernelRun0_A.sl.r_334 c arg1 harg1 arg2 harg2 arg11 arg12 arg13 arg16 x0 x1)) (ix4 0 0 s l) = (Cert.FK.tf7 (laneP x0 s l) (offT x1)).tz + x2 (ix3 2 s l) := by
  fk_unfold_run
  simp only [Cert.KernelIdeal.KLoads.ld7_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld7_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint4.ck4_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint4.ck4_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf7, Cert.FK.tfStep, Cert.FK.tfRoot, Cert.FK.rodJ, Cert.FK.rod, Cert.FK.ang, Cert.FK.one, Cert.FK.zero, Cert.FK.eps]
  rfl

end Cert.KernelIdeal.KJoint7

end
-- ==== Proof.KJoint8.lean ====
/-
  Joint 8 (its parent is joint 5) at one lane (s, l) of a tile: the twelve values it stores in its row of the scratch buffers are the entries of its global transform, and the three values it stores in the output are its position — the translation of its global transform plus the body translation. Its transform is the parent's, read back from the parent's row, composed with its own Rodrigues matrix and offset.
-/
import proofs.«127147_j62156766707902_2_alg».proof.Proof.KLanes
import proofs.«127147_j62156766707902_2_alg».proof.Proof.KLane
import proofs.«127147_j62156766707902_2_alg».proof.Proof.KLoads
import proofs.«127147_j62156766707902_2_alg».proof.Proof.KJoint5

noncomputable section

namespace Cert.KernelIdeal.KJoint8

open Idealize.ShloMosaic Idealize.ShloMosaic.TcCoe Idealize.SL.Sem Idealize.ShloMosaic.ValueIdx
open Cert.KernelIdeal Cert.KernelIdeal.Gen Cert.KernelIdeal.KLane Cert.KernelIdeal.KLanes

set_option maxHeartbeats 1000000 in
theorem ck8_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v1895 c arg1 harg1 arg5 arg6 arg7 x0) (ix3 0 s l) = (Cert.FK.tf8 (laneP x0 s l) (offT x1)).n00 := by
  fk_unfold_run
  simp only [Cert.KernelIdeal.KLoads.ld8_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint5.ck5_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf8, Cert.FK.tfStep, Cert.FK.tfRoot, Cert.FK.rodJ, Cert.FK.rod, Cert.FK.ang, Cert.FK.one, Cert.FK.zero, Cert.FK.eps]
  rfl

set_option maxHeartbeats 1000000 in
theorem ck8_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v1898 c arg1 harg1 arg5 arg6 arg7 x0) (ix3 0 s l) = (Cert.FK.tf8 (laneP x0 s l) (offT x1)).n01 := by
  fk_unfold_run
  simp only [Cert.KernelIdeal.KLoads.ld8_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint5.ck5_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf8, Cert.FK.tfStep, Cert.FK.tfRoot, Cert.FK.rodJ, Cert.FK.rod, Cert.FK.ang, Cert.FK.one, Cert.FK.zero, Cert.FK.eps]
  rfl

set_option maxHeartbeats 1000000 in
theorem ck8_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v1901 c arg1 harg1 arg5 arg6 arg7 x0) (ix3 0 s l) = (Cert.FK.tf8 (laneP x0 s l) (offT x1)).n02 := by
  fk_unfold_run
  simp only [Cert.KernelIdeal.KLoads.ld8_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint5.ck5_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf8, Cert.FK.tfStep, Cert.FK.tfRoot, Cert.FK.rodJ, Cert.FK.rod, Cert.FK.ang, Cert.FK.one, Cert.FK.zero, Cert.FK.eps]
  rfl

set_option maxHeartbeats 1000000 in
theorem ck8_3 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v1904 c arg1 harg1 arg8 arg9 arg10 x0) (ix3 0 s l) = (Cert.FK.tf8 (laneP x0 s l) (offT x1)).n10 := by
  fk_unfold_run
  simp only [Cert.KernelIdeal.KLoads.ld8_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint5.ck5_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf8, Cert.FK.tfStep, Cert.FK.tfRoot, Cert.FK.rodJ, Cert.FK.rod, Cert.FK.ang, Cert.FK.one, Cert.FK.zero, Cert.FK.eps]
  rfl

set_option maxHeartbeats 1000000 in
theorem ck8_4 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v1907 c arg1 harg1 arg8 arg9 arg10 x0) (ix3 0 s l) = (Cert.FK.tf8 (laneP x0 s l) (offT x1)).n11 := by
  fk_unfold_run
  simp only [Cert.KernelIdeal.KLoads.ld8_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint5.ck5_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf8, Cert.FK.tfStep, Cert.FK.tfRoot, Cert.FK.rodJ, Cert.FK.rod, Cert.FK.ang, Cert.FK.one, Cert.FK.zero, Cert.FK.eps]
  rfl

set_option maxHeartbeats 1000000 in
theorem ck8_5 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v1910 c arg1 harg1 arg8 arg9 arg10 x0) (ix3 0 s l) = (Cert.FK.tf8 (laneP x0 s l) (offT x1)).n12 := by
  fk_unfold_run
  simp only [Cert.KernelIdeal.KLoads.ld8_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint5.ck5_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf8, Cert.FK.tfStep, Cert.FK.tfRoot, Cert.FK.rodJ, Cert.FK.rod, Cert.FK.ang, Cert.FK.one, Cert.FK.zero, Cert.FK.eps]
  rfl

set_option maxHeartbeats 1000000 in
theorem ck8_6 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v1913 c arg1 harg1 arg11 arg12 arg13 x0) (ix3 0 s l) = (Cert.FK.tf8 (laneP x0 s l) (offT x1)).n20 := by
  fk_unfold_run
  simp only [Cert.KernelIdeal.KLoads.ld8_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint5.ck5_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf8, Cert.FK.tfStep, Cert.FK.tfRoot, Cert.FK.rodJ, Cert.FK.rod, Cert.FK.ang, Cert.FK.one, Cert.FK.zero, Cert.FK.eps]
  rfl

set_option maxHeartbeats 1000000 in
theorem ck8_7 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v1916 c arg1 harg1 arg11 arg12 arg13 x0) (ix3 0 s l) = (Cert.FK.tf8 (laneP x0 s l) (offT x1)).n21 := by
  fk_unfold_run
  simp only [Cert.KernelIdeal.KLoads.ld8_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint5.ck5_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf8, Cert.FK.tfStep, Cert.FK.tfRoot, Cert.FK.rodJ, Cert.FK.rod, Cert.FK.ang, Cert.FK.one, Cert.FK.zero, Cert.FK.eps]
  rfl

set_option maxHeartbeats 1000000 in
theorem ck8_8 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v1919 c arg1 harg1 arg11 arg12 arg13 x0) (ix3 0 s l) = (Cert.FK.tf8 (laneP x0 s l) (offT x1)).n22 := by
  fk_unfold_run
  simp only [Cert.KernelIdeal.KLoads.ld8_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint5.ck5_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf8, Cert.FK.tfStep, Cert.FK.tfRoot, Cert.FK.rodJ, Cert.FK.rod, Cert.FK.ang, Cert.FK.one, Cert.FK.zero, Cert.FK.eps]
  rfl

set_option maxHeartbeats 1000000 in
theorem ck8_9 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay550 (kernelRun0_A.sl.r_376 c arg1 harg1 arg2 harg2 arg5 arg6 arg7 arg14 x0 x1)) (ix3 0 s l) = (Cert.FK.tf8 (laneP x0 s l) (offT x1)).tx := by
  fk_unfold_run
  simp only [Cert.KernelIdeal.KLoads.ld8_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint5.ck5_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf8, Cert.FK.tfStep, Cert.FK.tfRoot, Cert.FK.rodJ, Cert.FK.rod, Cert.FK.ang, Cert.FK.one, Cert.FK.zero, Cert.FK.eps]
  rfl

set_option maxHeartbeats 1000000 in
theorem ck8_10 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay551 (kernelRun0_A.sl.r_377 c arg1 harg1 arg2 harg2 arg8 arg9 arg10 arg15 x0 x1)) (ix3 0 s l) = (Cert.FK.tf8 (laneP x0 s l) (offT x1)).ty := by
  fk_unfold_run
  simp only [Cert.KernelIdeal.KLoads.ld8_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint5.ck5_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf8, Cert.FK.tfStep, Cert.FK.tfRoot, Cert.FK.rodJ, Cert.FK.rod, Cert.FK.ang, Cert.FK.one, Cert.FK.zero, Cert.FK.eps]
  rfl

set_option maxHeartbeats 1000000 in
theorem ck8_11 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay552 (kernelRun0_A.sl.r_378 c arg1 harg1 arg2 harg2 arg11 arg12 arg13 arg16 x0 x1)) (ix3 0 s l) = (Cert.FK.tf8 (laneP x0 s l) (offT x1)).tz := by
  fk_unfold_run
  simp only [Cert.KernelIdeal.KLoads.ld8_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint5.ck5_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf8, Cert.FK.tfStep, Cert.FK.tfRoot, Cert.FK.rodJ, Cert.FK.rod, Cert.FK.ang, Cert.FK.one, Cert.FK.zero, Cert.FK.eps]
  rfl

set_option maxHeartbeats 1000000 in
theorem out8_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay553 (kernelRun0_A.sl.r_1 c arg3 harg3 x2) (kernelRun0_A.sl.r_376 c arg1 harg1 arg2 harg2 arg5 arg6 arg7 arg14 x0 x1)) (ix4 0 0 s l) = (Cert.FK.tf8 (laneP x0 s l) (offT x1)).tx + x2 (ix3 0 s l) := by
  fk_unfold_run
  simp only [Cert.KernelIdeal.KLoads.ld8_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint5.ck5_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf8, Cert.FK.tfStep, Cert.FK.tfRoot, Cert.FK.rodJ, Cert.FK.rod, Cert.FK.ang, Cert.FK.one, Cert.FK.zero, Cert.FK.eps]
  rfl

set_option maxHeartbeats 1000000 in
theorem out8_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay554 (kernelRun0_A.sl.r_2 c arg3 harg3 x2) (kernelRun0_A.sl.r_377 c arg1 harg1 arg2 harg2 arg8 arg9 arg10 arg15 x0 x1)) (ix4 0 0 s l) = (Cert.FK.tf8 (laneP x0 s l) (offT x1)).ty + x2 (ix3 1 s l) := by
  fk_unfold_run
  simp only [Cert.KernelIdeal.KLoads.ld8_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint5.ck5_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf8, Cert.FK.tfStep, Cert.FK.tfRoot, Cert.FK.rodJ, Cert.FK.rod, Cert.FK.ang, Cert.FK.one, Cert.FK.zero, Cert.FK.eps]
  rfl

set_option maxHeartbeats 1000000 in
theorem out8_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay555 (kernelRun0_A.sl.r_3 c arg3 harg3 x2) (kernelRun0_A.sl.r_378 c arg1 harg1 arg2 harg2 arg11 arg12 arg13 arg16 x0 x1)) (ix4 0 0 s l) = (Cert.FK.tf8 (laneP x0 s l) (offT x1)).tz + x2 (ix3 2 s l) := by
  fk_unfold_run
  simp only [Cert.KernelIdeal.KLoads.ld8_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld8_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint5.ck5_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint5.ck5_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf8, Cert.FK.tfStep, Cert.FK.tfRoot, Cert.FK.rodJ, Cert.FK.rod, Cert.FK.ang, Cert.FK.one, Cert.FK.zero, Cert.FK.eps]
  rfl

end Cert.KernelIdeal.KJoint8

end
-- ==== Proof.KJoint9.lean ====
/-
  Joint 9 (its parent is joint 6) at one lane (s, l) of a tile: the twelve values it stores in its row of the scratch buffers are the entries of its global transform, and the three values it stores in the output are its position — the translation of its global transform plus the body translation. Its transform is the parent's, read back from the parent's row, composed with its own Rodrigues matrix and offset.
-/
import proofs.«127147_j62156766707902_2_alg».proof.Proof.KLanes
import proofs.«127147_j62156766707902_2_alg».proof.Proof.KLane
import proofs.«127147_j62156766707902_2_alg».proof.Proof.KLoads
import proofs.«127147_j62156766707902_2_alg».proof.Proof.KJoint6

noncomputable section

namespace Cert.KernelIdeal.KJoint9

open Idealize.ShloMosaic Idealize.ShloMosaic.TcCoe Idealize.SL.Sem Idealize.ShloMosaic.ValueIdx
open Cert.KernelIdeal Cert.KernelIdeal.Gen Cert.KernelIdeal.KLane Cert.KernelIdeal.KLanes

set_option maxHeartbeats 1000000 in
theorem ck9_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay604 (kernelRun0_A.sl.r_411 c arg1 harg1 arg5 arg6 arg7 x0)) (ix3 0 s l) = (Cert.FK.tf9 (laneP x0 s l) (offT x1)).n00 := by
  fk_unfold_run
  simp only [Cert.KernelIdeal.KLoads.ld9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint6.ck6_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf9, Cert.FK.tfStep, Cert.FK.tfRoot, Cert.FK.rodJ, Cert.FK.rod, Cert.FK.ang, Cert.FK.one, Cert.FK.zero, Cert.FK.eps]
  rfl

set_option maxHeartbeats 1000000 in
theorem ck9_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay605 (kernelRun0_A.sl.r_412 c arg1 harg1 arg5 arg6 arg7 x0)) (ix3 0 s l) = (Cert.FK.tf9 (laneP x0 s l) (offT x1)).n01 := by
  fk_unfold_run
  simp only [Cert.KernelIdeal.KLoads.ld9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint6.ck6_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf9, Cert.FK.tfStep, Cert.FK.tfRoot, Cert.FK.rodJ, Cert.FK.rod, Cert.FK.ang, Cert.FK.one, Cert.FK.zero, Cert.FK.eps]
  rfl

set_option maxHeartbeats 1000000 in
theorem ck9_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay606 (kernelRun0_A.sl.r_413 c arg1 harg1 arg5 arg6 arg7 x0)) (ix3 0 s l) = (Cert.FK.tf9 (laneP x0 s l) (offT x1)).n02 := by
  fk_unfold_run
  simp only [Cert.KernelIdeal.KLoads.ld9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint6.ck6_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf9, Cert.FK.tfStep, Cert.FK.tfRoot, Cert.FK.rodJ, Cert.FK.rod, Cert.FK.ang, Cert.FK.one, Cert.FK.zero, Cert.FK.eps]
  rfl

set_option maxHeartbeats 1000000 in
theorem ck9_3 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay607 (kernelRun0_A.sl.r_414 c arg1 harg1 arg8 arg9 arg10 x0)) (ix3 0 s l) = (Cert.FK.tf9 (laneP x0 s l) (offT x1)).n10 := by
  fk_unfold_run
  simp only [Cert.KernelIdeal.KLoads.ld9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint6.ck6_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf9, Cert.FK.tfStep, Cert.FK.tfRoot, Cert.FK.rodJ, Cert.FK.rod, Cert.FK.ang, Cert.FK.one, Cert.FK.zero, Cert.FK.eps]
  rfl

set_option maxHeartbeats 1000000 in
theorem ck9_4 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay608 (kernelRun0_A.sl.r_415 c arg1 harg1 arg8 arg9 arg10 x0)) (ix3 0 s l) = (Cert.FK.tf9 (laneP x0 s l) (offT x1)).n11 := by
  fk_unfold_run
  simp only [Cert.KernelIdeal.KLoads.ld9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint6.ck6_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf9, Cert.FK.tfStep, Cert.FK.tfRoot, Cert.FK.rodJ, Cert.FK.rod, Cert.FK.ang, Cert.FK.one, Cert.FK.zero, Cert.FK.eps]
  rfl

set_option maxHeartbeats 1000000 in
theorem ck9_5 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay609 (kernelRun0_A.sl.r_416 c arg1 harg1 arg8 arg9 arg10 x0)) (ix3 0 s l) = (Cert.FK.tf9 (laneP x0 s l) (offT x1)).n12 := by
  fk_unfold_run
  simp only [Cert.KernelIdeal.KLoads.ld9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint6.ck6_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf9, Cert.FK.tfStep, Cert.FK.tfRoot, Cert.FK.rodJ, Cert.FK.rod, Cert.FK.ang, Cert.FK.one, Cert.FK.zero, Cert.FK.eps]
  rfl

set_option maxHeartbeats 1000000 in
theorem ck9_6 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay610 (kernelRun0_A.sl.r_417 c arg1 harg1 arg11 arg12 arg13 x0)) (ix3 0 s l) = (Cert.FK.tf9 (laneP x0 s l) (offT x1)).n20 := by
  fk_unfold_run
  simp only [Cert.KernelIdeal.KLoads.ld9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint6.ck6_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf9, Cert.FK.tfStep, Cert.FK.tfRoot, Cert.FK.rodJ, Cert.FK.rod, Cert.FK.ang, Cert.FK.one, Cert.FK.zero, Cert.FK.eps]
  rfl

set_option maxHeartbeats 1000000 in
theorem ck9_7 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay611 (kernelRun0_A.sl.r_420 c arg1 harg1 arg11 arg12 arg13 x0)) (ix3 0 s l) = (Cert.FK.tf9 (laneP x0 s l) (offT x1)).n21 := by
  fk_unfold_run
  simp only [Cert.KernelIdeal.KLoads.ld9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint6.ck6_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf9, Cert.FK.tfStep, Cert.FK.tfRoot, Cert.FK.rodJ, Cert.FK.rod, Cert.FK.ang, Cert.FK.one, Cert.FK.zero, Cert.FK.eps]
  rfl

set_option maxHeartbeats 1000000 in
theorem ck9_8 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay612 (kernelRun0_A.sl.r_421 c arg1 harg1 arg11 arg12 arg13 x0)) (ix3 0 s l) = (Cert.FK.tf9 (laneP x0 s l) (offT x1)).n22 := by
  fk_unfold_run
  simp only [Cert.KernelIdeal.KLoads.ld9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint6.ck6_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf9, Cert.FK.tfStep, Cert.FK.tfRoot, Cert.FK.rodJ, Cert.FK.rod, Cert.FK.ang, Cert.FK.one, Cert.FK.zero, Cert.FK.eps]
  rfl

set_option maxHeartbeats 1000000 in
theorem ck9_9 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay613 (kernelRun0_A.sl.r_422 c arg1 harg1 arg2 harg2 arg5 arg6 arg7 arg14 x0 x1)) (ix3 0 s l) = (Cert.FK.tf9 (laneP x0 s l) (offT x1)).tx := by
  fk_unfold_run
  simp only [Cert.KernelIdeal.KLoads.ld9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint6.ck6_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf9, Cert.FK.tfStep, Cert.FK.tfRoot, Cert.FK.rodJ, Cert.FK.rod, Cert.FK.ang, Cert.FK.one, Cert.FK.zero, Cert.FK.eps]
  rfl

set_option maxHeartbeats 1000000 in
theorem ck9_10 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay614 (kernelRun0_A.sl.r_423 c arg1 harg1 arg2 harg2 arg8 arg9 arg10 arg15 x0 x1)) (ix3 0 s l) = (Cert.FK.tf9 (laneP x0 s l) (offT x1)).ty := by
  fk_unfold_run
  simp only [Cert.KernelIdeal.KLoads.ld9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint6.ck6_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf9, Cert.FK.tfStep, Cert.FK.tfRoot, Cert.FK.rodJ, Cert.FK.rod, Cert.FK.ang, Cert.FK.one, Cert.FK.zero, Cert.FK.eps]
  rfl

set_option maxHeartbeats 1000000 in
theorem ck9_11 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay615 (kernelRun0_A.sl.r_424 c arg1 harg1 arg2 harg2 arg11 arg12 arg13 arg16 x0 x1)) (ix3 0 s l) = (Cert.FK.tf9 (laneP x0 s l) (offT x1)).tz := by
  fk_unfold_run
  simp only [Cert.KernelIdeal.KLoads.ld9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint6.ck6_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf9, Cert.FK.tfStep, Cert.FK.tfRoot, Cert.FK.rodJ, Cert.FK.rod, Cert.FK.ang, Cert.FK.one, Cert.FK.zero, Cert.FK.eps]
  rfl

set_option maxHeartbeats 1000000 in
theorem out9_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay617 (kernelRun0_A.sl.r_425 c arg1 harg1 arg2 harg2 arg3 harg3 arg5 arg6 arg7 arg14 x0 x1 x2)) (ix4 0 0 s l) = (Cert.FK.tf9 (laneP x0 s l) (offT x1)).tx + x2 (ix3 0 s l) := by
  fk_unfold_run
  simp only [Cert.KernelIdeal.KLoads.ld9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint6.ck6_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf9, Cert.FK.tfStep, Cert.FK.tfRoot, Cert.FK.rodJ, Cert.FK.rod, Cert.FK.ang, Cert.FK.one, Cert.FK.zero, Cert.FK.eps]
  rfl

set_option maxHeartbeats 1000000 in
theorem out9_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay618 (kernelRun0_A.sl.r_2 c arg3 harg3 x2) (kernelRun0_A.sl.r_423 c arg1 harg1 arg2 harg2 arg8 arg9 arg10 arg15 x0 x1)) (ix4 0 0 s l) = (Cert.FK.tf9 (laneP x0 s l) (offT x1)).ty + x2 (ix3 1 s l) := by
  fk_unfold_run
  simp only [Cert.KernelIdeal.KLoads.ld9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint6.ck6_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf9, Cert.FK.tfStep, Cert.FK.tfRoot, Cert.FK.rodJ, Cert.FK.rod, Cert.FK.ang, Cert.FK.one, Cert.FK.zero, Cert.FK.eps]
  rfl

set_option maxHeartbeats 1000000 in
theorem out9_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay619 (kernelRun0_A.sl.r_3 c arg3 harg3 x2) (kernelRun0_A.sl.r_424 c arg1 harg1 arg2 harg2 arg11 arg12 arg13 arg16 x0 x1)) (ix4 0 0 s l) = (Cert.FK.tf9 (laneP x0 s l) (offT x1)).tz + x2 (ix3 2 s l) := by
  fk_unfold_run
  simp only [Cert.KernelIdeal.KLoads.ld9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint6.ck6_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint6.ck6_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf9, Cert.FK.tfStep, Cert.FK.tfRoot, Cert.FK.rodJ, Cert.FK.rod, Cert.FK.ang, Cert.FK.one, Cert.FK.zero, Cert.FK.eps]
  rfl

end Cert.KernelIdeal.KJoint9

end
-- ==== Proof.KJoint10.lean ====
/-
  Joint 10 (its parent is joint 7) at one lane (s, l) of a tile: the three values it stores in the output are its position — the translation of its global transform plus the body translation. Its transform is the parent's, read back from the parent's row, composed with its own Rodrigues matrix and offset.
-/
import proofs.«127147_j62156766707902_2_alg».proof.Proof.KLanes
import proofs.«127147_j62156766707902_2_alg».proof.Proof.KLane
import proofs.«127147_j62156766707902_2_alg».proof.Proof.KLoads
import proofs.«127147_j62156766707902_2_alg».proof.Proof.KJoint7

noncomputable section

namespace Cert.KernelIdeal.KJoint10

open Idealize.ShloMosaic Idealize.ShloMosaic.TcCoe Idealize.SL.Sem Idealize.ShloMosaic.ValueIdx
open Cert.KernelIdeal Cert.KernelIdeal.Gen Cert.KernelIdeal.KLane Cert.KernelIdeal.KLanes

set_option maxHeartbeats 1000000 in
theorem out10_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay631 (kernelRun0_A.sl.r_436 c arg1 harg1 arg2 harg2 arg3 harg3 arg5 arg6 arg7 arg14 x0 x1 x2)) (ix4 0 0 s l) = (Cert.FK.tf10 (laneP x0 s l) (offT x1)).tx + x2 (ix3 0 s l) := by
  fk_unfold_run
  simp only [Cert.KernelIdeal.KLoads.ld10_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld10_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld10_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld10_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld10_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld10_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld10_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld10_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld10_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld10_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld10_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld10_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint7.ck7_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint7.ck7_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint7.ck7_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint7.ck7_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint7.ck7_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint7.ck7_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint7.ck7_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint7.ck7_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint7.ck7_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint7.ck7_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint7.ck7_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint7.ck7_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf10, Cert.FK.tfStep, Cert.FK.tfRoot, Cert.FK.rodJ, Cert.FK.rod, Cert.FK.ang, Cert.FK.one, Cert.FK.zero, Cert.FK.eps]
  rfl

set_option maxHeartbeats 1000000 in
theorem out10_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay632 (kernelRun0_A.sl.r_2 c arg3 harg3 x2) (kernelRun0_A.sl.r_434 c arg1 harg1 arg2 harg2 arg8 arg9 arg10 arg15 x0 x1)) (ix4 0 0 s l) = (Cert.FK.tf10 (laneP x0 s l) (offT x1)).ty + x2 (ix3 1 s l) := by
  fk_unfold_run
  simp only [Cert.KernelIdeal.KLoads.ld10_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld10_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld10_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld10_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld10_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld10_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld10_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld10_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld10_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld10_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld10_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld10_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint7.ck7_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint7.ck7_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint7.ck7_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint7.ck7_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint7.ck7_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint7.ck7_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint7.ck7_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint7.ck7_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint7.ck7_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint7.ck7_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint7.ck7_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint7.ck7_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf10, Cert.FK.tfStep, Cert.FK.tfRoot, Cert.FK.rodJ, Cert.FK.rod, Cert.FK.ang, Cert.FK.one, Cert.FK.zero, Cert.FK.eps]
  rfl

set_option maxHeartbeats 1000000 in
theorem out10_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay633 (kernelRun0_A.sl.r_3 c arg3 harg3 x2) (kernelRun0_A.sl.r_435 c arg1 harg1 arg2 harg2 arg11 arg12 arg13 arg16 x0 x1)) (ix4 0 0 s l) = (Cert.FK.tf10 (laneP x0 s l) (offT x1)).tz + x2 (ix3 2 s l) := by
  fk_unfold_run
  simp only [Cert.KernelIdeal.KLoads.ld10_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld10_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld10_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld10_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld10_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld10_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld10_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld10_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld10_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld10_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld10_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld10_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint7.ck7_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint7.ck7_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint7.ck7_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint7.ck7_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint7.ck7_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint7.ck7_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint7.ck7_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint7.ck7_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint7.ck7_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint7.ck7_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint7.ck7_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint7.ck7_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf10, Cert.FK.tfStep, Cert.FK.tfRoot, Cert.FK.rodJ, Cert.FK.rod, Cert.FK.ang, Cert.FK.one, Cert.FK.zero, Cert.FK.eps]
  rfl

end Cert.KernelIdeal.KJoint10

end
-- ==== Proof.KJoint11.lean ====
/-
  Joint 11 (its parent is joint 8) at one lane (s, l) of a tile: the three values it stores in the output are its position — the translation of its global transform plus the body translation. Its transform is the parent's, read back from the parent's row, composed with its own Rodrigues matrix and offset.
-/
import proofs.«127147_j62156766707902_2_alg».proof.Proof.KLanes
import proofs.«127147_j62156766707902_2_alg».proof.Proof.KLane
import proofs.«127147_j62156766707902_2_alg».proof.Proof.KLoads
import proofs.«127147_j62156766707902_2_alg».proof.Proof.KJoint8

noncomputable section

namespace Cert.KernelIdeal.KJoint11

open Idealize.ShloMosaic Idealize.ShloMosaic.TcCoe Idealize.SL.Sem Idealize.ShloMosaic.ValueIdx
open Cert.KernelIdeal Cert.KernelIdeal.Gen Cert.KernelIdeal.KLane Cert.KernelIdeal.KLanes

set_option maxHeartbeats 1000000 in
theorem out11_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay645 (kernelRun0_A.sl.r_447 c arg1 harg1 arg2 harg2 arg3 harg3 arg5 arg6 arg7 arg14 x0 x1 x2)) (ix4 0 0 s l) = (Cert.FK.tf11 (laneP x0 s l) (offT x1)).tx + x2 (ix3 0 s l) := by
  fk_unfold_run
  simp only [Cert.KernelIdeal.KLoads.ld11_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld11_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld11_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld11_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld11_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld11_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld11_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld11_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld11_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld11_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld11_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld11_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint8.ck8_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint8.ck8_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint8.ck8_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint8.ck8_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint8.ck8_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint8.ck8_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint8.ck8_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint8.ck8_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint8.ck8_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint8.ck8_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint8.ck8_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint8.ck8_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf11, Cert.FK.tfStep, Cert.FK.tfRoot, Cert.FK.rodJ, Cert.FK.rod, Cert.FK.ang, Cert.FK.one, Cert.FK.zero, Cert.FK.eps]
  rfl

set_option maxHeartbeats 1000000 in
theorem out11_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay646 (kernelRun0_A.sl.r_2 c arg3 harg3 x2) (kernelRun0_A.sl.r_445 c arg1 harg1 arg2 harg2 arg8 arg9 arg10 arg15 x0 x1)) (ix4 0 0 s l) = (Cert.FK.tf11 (laneP x0 s l) (offT x1)).ty + x2 (ix3 1 s l) := by
  fk_unfold_run
  simp only [Cert.KernelIdeal.KLoads.ld11_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld11_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld11_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld11_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld11_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld11_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld11_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld11_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld11_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld11_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld11_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld11_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint8.ck8_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint8.ck8_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint8.ck8_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint8.ck8_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint8.ck8_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint8.ck8_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint8.ck8_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint8.ck8_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint8.ck8_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint8.ck8_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint8.ck8_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint8.ck8_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf11, Cert.FK.tfStep, Cert.FK.tfRoot, Cert.FK.rodJ, Cert.FK.rod, Cert.FK.ang, Cert.FK.one, Cert.FK.zero, Cert.FK.eps]
  rfl

set_option maxHeartbeats 1000000 in
theorem out11_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay647 (kernelRun0_A.sl.r_3 c arg3 harg3 x2) (kernelRun0_A.sl.r_446 c arg1 harg1 arg2 harg2 arg11 arg12 arg13 arg16 x0 x1)) (ix4 0 0 s l) = (Cert.FK.tf11 (laneP x0 s l) (offT x1)).tz + x2 (ix3 2 s l) := by
  fk_unfold_run
  simp only [Cert.KernelIdeal.KLoads.ld11_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld11_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld11_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld11_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld11_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld11_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld11_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld11_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld11_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld11_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld11_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld11_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint8.ck8_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint8.ck8_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint8.ck8_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint8.ck8_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint8.ck8_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint8.ck8_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint8.ck8_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint8.ck8_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint8.ck8_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint8.ck8_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint8.ck8_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint8.ck8_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf11, Cert.FK.tfStep, Cert.FK.tfRoot, Cert.FK.rodJ, Cert.FK.rod, Cert.FK.ang, Cert.FK.one, Cert.FK.zero, Cert.FK.eps]
  rfl

end Cert.KernelIdeal.KJoint11

end
-- ==== Proof.KJoint12.lean ====
/-
  Joint 12 (its parent is joint 9) at one lane (s, l) of a tile: the twelve values it stores in its row of the scratch buffers are the entries of its global transform, and the three values it stores in the output are its position — the translation of its global transform plus the body translation. Its transform is the parent's, read back from the parent's row, composed with its own Rodrigues matrix and offset.
-/
import proofs.«127147_j62156766707902_2_alg».proof.Proof.KLanes
import proofs.«127147_j62156766707902_2_alg».proof.Proof.KLane
import proofs.«127147_j62156766707902_2_alg».proof.Proof.KLoads
import proofs.«127147_j62156766707902_2_alg».proof.Proof.KJoint9

noncomputable section

namespace Cert.KernelIdeal.KJoint12

open Idealize.ShloMosaic Idealize.ShloMosaic.TcCoe Idealize.SL.Sem Idealize.ShloMosaic.ValueIdx
open Cert.KernelIdeal Cert.KernelIdeal.Gen Cert.KernelIdeal.KLane Cert.KernelIdeal.KLanes

set_option maxHeartbeats 1000000 in
theorem ck12_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay698 (kernelRun0_A.sl.r_466 c arg1 harg1 arg5 arg6 arg7 x0)) (ix3 0 s l) = (Cert.FK.tf12 (laneP x0 s l) (offT x1)).n00 := by
  fk_unfold_run
  simp only [Cert.KernelIdeal.KLoads.ld12_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf12, Cert.FK.tfStep, Cert.FK.tfRoot, Cert.FK.rodJ, Cert.FK.rod, Cert.FK.ang, Cert.FK.one, Cert.FK.zero, Cert.FK.eps]
  rfl

set_option maxHeartbeats 1000000 in
theorem ck12_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay699 (kernelRun0_A.sl.r_467 c arg1 harg1 arg5 arg6 arg7 x0)) (ix3 0 s l) = (Cert.FK.tf12 (laneP x0 s l) (offT x1)).n01 := by
  fk_unfold_run
  simp only [Cert.KernelIdeal.KLoads.ld12_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf12, Cert.FK.tfStep, Cert.FK.tfRoot, Cert.FK.rodJ, Cert.FK.rod, Cert.FK.ang, Cert.FK.one, Cert.FK.zero, Cert.FK.eps]
  rfl

set_option maxHeartbeats 1000000 in
theorem ck12_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay700 (kernelRun0_A.sl.r_468 c arg1 harg1 arg5 arg6 arg7 x0)) (ix3 0 s l) = (Cert.FK.tf12 (laneP x0 s l) (offT x1)).n02 := by
  fk_unfold_run
  simp only [Cert.KernelIdeal.KLoads.ld12_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf12, Cert.FK.tfStep, Cert.FK.tfRoot, Cert.FK.rodJ, Cert.FK.rod, Cert.FK.ang, Cert.FK.one, Cert.FK.zero, Cert.FK.eps]
  rfl

set_option maxHeartbeats 1000000 in
theorem ck12_3 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay701 (kernelRun0_A.sl.r_469 c arg1 harg1 arg8 arg9 arg10 x0)) (ix3 0 s l) = (Cert.FK.tf12 (laneP x0 s l) (offT x1)).n10 := by
  fk_unfold_run
  simp only [Cert.KernelIdeal.KLoads.ld12_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf12, Cert.FK.tfStep, Cert.FK.tfRoot, Cert.FK.rodJ, Cert.FK.rod, Cert.FK.ang, Cert.FK.one, Cert.FK.zero, Cert.FK.eps]
  rfl

set_option maxHeartbeats 1000000 in
theorem ck12_4 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay702 (kernelRun0_A.sl.r_470 c arg1 harg1 arg8 arg9 arg10 x0)) (ix3 0 s l) = (Cert.FK.tf12 (laneP x0 s l) (offT x1)).n11 := by
  fk_unfold_run
  simp only [Cert.KernelIdeal.KLoads.ld12_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf12, Cert.FK.tfStep, Cert.FK.tfRoot, Cert.FK.rodJ, Cert.FK.rod, Cert.FK.ang, Cert.FK.one, Cert.FK.zero, Cert.FK.eps]
  rfl

set_option maxHeartbeats 1000000 in
theorem ck12_5 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay703 (kernelRun0_A.sl.r_471 c arg1 harg1 arg8 arg9 arg10 x0)) (ix3 0 s l) = (Cert.FK.tf12 (laneP x0 s l) (offT x1)).n12 := by
  fk_unfold_run
  simp only [Cert.KernelIdeal.KLoads.ld12_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf12, Cert.FK.tfStep, Cert.FK.tfRoot, Cert.FK.rodJ, Cert.FK.rod, Cert.FK.ang, Cert.FK.one, Cert.FK.zero, Cert.FK.eps]
  rfl

set_option maxHeartbeats 1000000 in
theorem ck12_6 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay704 (kernelRun0_A.sl.r_472 c arg1 harg1 arg11 arg12 arg13 x0)) (ix3 0 s l) = (Cert.FK.tf12 (laneP x0 s l) (offT x1)).n20 := by
  fk_unfold_run
  simp only [Cert.KernelIdeal.KLoads.ld12_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf12, Cert.FK.tfStep, Cert.FK.tfRoot, Cert.FK.rodJ, Cert.FK.rod, Cert.FK.ang, Cert.FK.one, Cert.FK.zero, Cert.FK.eps]
  rfl

set_option maxHeartbeats 1000000 in
theorem ck12_7 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay705 (kernelRun0_A.sl.r_473 c arg1 harg1 arg11 arg12 arg13 x0)) (ix3 0 s l) = (Cert.FK.tf12 (laneP x0 s l) (offT x1)).n21 := by
  fk_unfold_run
  simp only [Cert.KernelIdeal.KLoads.ld12_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf12, Cert.FK.tfStep, Cert.FK.tfRoot, Cert.FK.rodJ, Cert.FK.rod, Cert.FK.ang, Cert.FK.one, Cert.FK.zero, Cert.FK.eps]
  rfl

set_option maxHeartbeats 1000000 in
theorem ck12_8 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay706 (kernelRun0_A.sl.r_474 c arg1 harg1 arg11 arg12 arg13 x0)) (ix3 0 s l) = (Cert.FK.tf12 (laneP x0 s l) (offT x1)).n22 := by
  fk_unfold_run
  simp only [Cert.KernelIdeal.KLoads.ld12_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf12, Cert.FK.tfStep, Cert.FK.tfRoot, Cert.FK.rodJ, Cert.FK.rod, Cert.FK.ang, Cert.FK.one, Cert.FK.zero, Cert.FK.eps]
  rfl

set_option maxHeartbeats 1000000 in
theorem ck12_9 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay707 (kernelRun0_A.sl.r_475 c arg1 harg1 arg2 harg2 arg5 arg6 arg7 arg14 x0 x1)) (ix3 0 s l) = (Cert.FK.tf12 (laneP x0 s l) (offT x1)).tx := by
  fk_unfold_run
  simp only [Cert.KernelIdeal.KLoads.ld12_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf12, Cert.FK.tfStep, Cert.FK.tfRoot, Cert.FK.rodJ, Cert.FK.rod, Cert.FK.ang, Cert.FK.one, Cert.FK.zero, Cert.FK.eps]
  rfl

set_option maxHeartbeats 1000000 in
theorem ck12_10 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay708 (kernelRun0_A.sl.r_477 c arg1 harg1 arg2 harg2 arg8 arg9 arg10 arg15 x0 x1)) (ix3 0 s l) = (Cert.FK.tf12 (laneP x0 s l) (offT x1)).ty := by
  fk_unfold_run
  simp only [Cert.KernelIdeal.KLoads.ld12_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf12, Cert.FK.tfStep, Cert.FK.tfRoot, Cert.FK.rodJ, Cert.FK.rod, Cert.FK.ang, Cert.FK.one, Cert.FK.zero, Cert.FK.eps]
  rfl

set_option maxHeartbeats 1000000 in
theorem ck12_11 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay709 (kernelRun0_A.sl.r_478 c arg1 harg1 arg2 harg2 arg11 arg12 arg13 arg16 x0 x1)) (ix3 0 s l) = (Cert.FK.tf12 (laneP x0 s l) (offT x1)).tz := by
  fk_unfold_run
  simp only [Cert.KernelIdeal.KLoads.ld12_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf12, Cert.FK.tfStep, Cert.FK.tfRoot, Cert.FK.rodJ, Cert.FK.rod, Cert.FK.ang, Cert.FK.one, Cert.FK.zero, Cert.FK.eps]
  rfl

set_option maxHeartbeats 1000000 in
theorem out12_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay710 (kernelRun0_A.sl.r_1 c arg3 harg3 x2) (kernelRun0_A.sl.r_475 c arg1 harg1 arg2 harg2 arg5 arg6 arg7 arg14 x0 x1)) (ix4 0 0 s l) = (Cert.FK.tf12 (laneP x0 s l) (offT x1)).tx + x2 (ix3 0 s l) := by
  fk_unfold_run
  simp only [Cert.KernelIdeal.KLoads.ld12_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf12, Cert.FK.tfStep, Cert.FK.tfRoot, Cert.FK.rodJ, Cert.FK.rod, Cert.FK.ang, Cert.FK.one, Cert.FK.zero, Cert.FK.eps]
  rfl

set_option maxHeartbeats 1000000 in
theorem out12_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay711 (kernelRun0_A.sl.r_2 c arg3 harg3 x2) (kernelRun0_A.sl.r_477 c arg1 harg1 arg2 harg2 arg8 arg9 arg10 arg15 x0 x1)) (ix4 0 0 s l) = (Cert.FK.tf12 (laneP x0 s l) (offT x1)).ty + x2 (ix3 1 s l) := by
  fk_unfold_run
  simp only [Cert.KernelIdeal.KLoads.ld12_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf12, Cert.FK.tfStep, Cert.FK.tfRoot, Cert.FK.rodJ, Cert.FK.rod, Cert.FK.ang, Cert.FK.one, Cert.FK.zero, Cert.FK.eps]
  rfl

set_option maxHeartbeats 1000000 in
theorem out12_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay713 (kernelRun0_A.sl.r_479 c arg1 harg1 arg2 harg2 arg3 harg3 arg11 arg12 arg13 arg16 x0 x1 x2)) (ix4 0 0 s l) = (Cert.FK.tf12 (laneP x0 s l) (offT x1)).tz + x2 (ix3 2 s l) := by
  fk_unfold_run
  simp only [Cert.KernelIdeal.KLoads.ld12_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld12_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf12, Cert.FK.tfStep, Cert.FK.tfRoot, Cert.FK.rodJ, Cert.FK.rod, Cert.FK.ang, Cert.FK.one, Cert.FK.zero, Cert.FK.eps]
  rfl

end Cert.KernelIdeal.KJoint12

end
-- ==== Proof.KJoint13.lean ====
/-
  Joint 13 (its parent is joint 9) at one lane (s, l) of a tile: the twelve values it stores in its row of the scratch buffers are the entries of its global transform, and the three values it stores in the output are its position — the translation of its global transform plus the body translation. Its transform is the parent's, read back from the parent's row, composed with its own Rodrigues matrix and offset.
-/
import proofs.«127147_j62156766707902_2_alg».proof.Proof.KLanes
import proofs.«127147_j62156766707902_2_alg».proof.Proof.KLane
import proofs.«127147_j62156766707902_2_alg».proof.Proof.KLoads
import proofs.«127147_j62156766707902_2_alg».proof.Proof.KJoint9

noncomputable section

namespace Cert.KernelIdeal.KJoint13

open Idealize.ShloMosaic Idealize.ShloMosaic.TcCoe Idealize.SL.Sem Idealize.ShloMosaic.ValueIdx
open Cert.KernelIdeal Cert.KernelIdeal.Gen Cert.KernelIdeal.KLane Cert.KernelIdeal.KLanes

set_option maxHeartbeats 1000000 in
theorem ck13_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay763 (kernelRun0_A.sl.r_511 c arg1 harg1 arg5 arg6 arg7 x0)) (ix3 0 s l) = (Cert.FK.tf13 (laneP x0 s l) (offT x1)).n00 := by
  fk_unfold_run
  simp only [Cert.KernelIdeal.KLoads.ld13_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf13, Cert.FK.tfStep, Cert.FK.tfRoot, Cert.FK.rodJ, Cert.FK.rod, Cert.FK.ang, Cert.FK.one, Cert.FK.zero, Cert.FK.eps]
  rfl

set_option maxHeartbeats 1000000 in
theorem ck13_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v2711 c arg1 harg1 arg5 arg6 arg7 x0) (ix3 0 s l) = (Cert.FK.tf13 (laneP x0 s l) (offT x1)).n01 := by
  fk_unfold_run
  simp only [Cert.KernelIdeal.KLoads.ld13_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf13, Cert.FK.tfStep, Cert.FK.tfRoot, Cert.FK.rodJ, Cert.FK.rod, Cert.FK.ang, Cert.FK.one, Cert.FK.zero, Cert.FK.eps]
  rfl

set_option maxHeartbeats 1000000 in
theorem ck13_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v2714 c arg1 harg1 arg5 arg6 arg7 x0) (ix3 0 s l) = (Cert.FK.tf13 (laneP x0 s l) (offT x1)).n02 := by
  fk_unfold_run
  simp only [Cert.KernelIdeal.KLoads.ld13_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf13, Cert.FK.tfStep, Cert.FK.tfRoot, Cert.FK.rodJ, Cert.FK.rod, Cert.FK.ang, Cert.FK.one, Cert.FK.zero, Cert.FK.eps]
  rfl

set_option maxHeartbeats 1000000 in
theorem ck13_3 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v2717 c arg1 harg1 arg8 arg9 arg10 x0) (ix3 0 s l) = (Cert.FK.tf13 (laneP x0 s l) (offT x1)).n10 := by
  fk_unfold_run
  simp only [Cert.KernelIdeal.KLoads.ld13_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf13, Cert.FK.tfStep, Cert.FK.tfRoot, Cert.FK.rodJ, Cert.FK.rod, Cert.FK.ang, Cert.FK.one, Cert.FK.zero, Cert.FK.eps]
  rfl

set_option maxHeartbeats 1000000 in
theorem ck13_4 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v2720 c arg1 harg1 arg8 arg9 arg10 x0) (ix3 0 s l) = (Cert.FK.tf13 (laneP x0 s l) (offT x1)).n11 := by
  fk_unfold_run
  simp only [Cert.KernelIdeal.KLoads.ld13_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf13, Cert.FK.tfStep, Cert.FK.tfRoot, Cert.FK.rodJ, Cert.FK.rod, Cert.FK.ang, Cert.FK.one, Cert.FK.zero, Cert.FK.eps]
  rfl

set_option maxHeartbeats 1000000 in
theorem ck13_5 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v2723 c arg1 harg1 arg8 arg9 arg10 x0) (ix3 0 s l) = (Cert.FK.tf13 (laneP x0 s l) (offT x1)).n12 := by
  fk_unfold_run
  simp only [Cert.KernelIdeal.KLoads.ld13_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf13, Cert.FK.tfStep, Cert.FK.tfRoot, Cert.FK.rodJ, Cert.FK.rod, Cert.FK.ang, Cert.FK.one, Cert.FK.zero, Cert.FK.eps]
  rfl

set_option maxHeartbeats 1000000 in
theorem ck13_6 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v2726 c arg1 harg1 arg11 arg12 arg13 x0) (ix3 0 s l) = (Cert.FK.tf13 (laneP x0 s l) (offT x1)).n20 := by
  fk_unfold_run
  simp only [Cert.KernelIdeal.KLoads.ld13_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf13, Cert.FK.tfStep, Cert.FK.tfRoot, Cert.FK.rodJ, Cert.FK.rod, Cert.FK.ang, Cert.FK.one, Cert.FK.zero, Cert.FK.eps]
  rfl

set_option maxHeartbeats 1000000 in
theorem ck13_7 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v2729 c arg1 harg1 arg11 arg12 arg13 x0) (ix3 0 s l) = (Cert.FK.tf13 (laneP x0 s l) (offT x1)).n21 := by
  fk_unfold_run
  simp only [Cert.KernelIdeal.KLoads.ld13_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf13, Cert.FK.tfStep, Cert.FK.tfRoot, Cert.FK.rodJ, Cert.FK.rod, Cert.FK.ang, Cert.FK.one, Cert.FK.zero, Cert.FK.eps]
  rfl

set_option maxHeartbeats 1000000 in
theorem ck13_8 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v2732 c arg1 harg1 arg11 arg12 arg13 x0) (ix3 0 s l) = (Cert.FK.tf13 (laneP x0 s l) (offT x1)).n22 := by
  fk_unfold_run
  simp only [Cert.KernelIdeal.KLoads.ld13_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf13, Cert.FK.tfStep, Cert.FK.tfRoot, Cert.FK.rodJ, Cert.FK.rod, Cert.FK.ang, Cert.FK.one, Cert.FK.zero, Cert.FK.eps]
  rfl

set_option maxHeartbeats 1000000 in
theorem ck13_9 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v2735 c arg1 harg1 arg2 harg2 arg5 arg6 arg7 arg14 x0 x1) (ix3 0 s l) = (Cert.FK.tf13 (laneP x0 s l) (offT x1)).tx := by
  fk_unfold_run
  simp only [Cert.KernelIdeal.KLoads.ld13_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf13, Cert.FK.tfStep, Cert.FK.tfRoot, Cert.FK.rodJ, Cert.FK.rod, Cert.FK.ang, Cert.FK.one, Cert.FK.zero, Cert.FK.eps]
  rfl

set_option maxHeartbeats 1000000 in
theorem ck13_10 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay773 (kernelRun0_A.sl.r_522 c arg1 harg1 arg2 harg2 arg8 arg9 arg10 arg15 x0 x1)) (ix3 0 s l) = (Cert.FK.tf13 (laneP x0 s l) (offT x1)).ty := by
  fk_unfold_run
  simp only [Cert.KernelIdeal.KLoads.ld13_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf13, Cert.FK.tfStep, Cert.FK.tfRoot, Cert.FK.rodJ, Cert.FK.rod, Cert.FK.ang, Cert.FK.one, Cert.FK.zero, Cert.FK.eps]
  rfl

set_option maxHeartbeats 1000000 in
theorem ck13_11 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay774 (kernelRun0_A.sl.r_523 c arg1 harg1 arg2 harg2 arg11 arg12 arg13 arg16 x0 x1)) (ix3 0 s l) = (Cert.FK.tf13 (laneP x0 s l) (offT x1)).tz := by
  fk_unfold_run
  simp only [Cert.KernelIdeal.KLoads.ld13_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf13, Cert.FK.tfStep, Cert.FK.tfRoot, Cert.FK.rodJ, Cert.FK.rod, Cert.FK.ang, Cert.FK.one, Cert.FK.zero, Cert.FK.eps]
  rfl

set_option maxHeartbeats 1000000 in
theorem out13_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay775 (kernelRun0_A.sl.r_1 c arg3 harg3 x2) (kernelRun0_A.sl.r_521 c arg1 harg1 arg2 harg2 arg5 arg6 arg7 arg14 x0 x1)) (ix4 0 0 s l) = (Cert.FK.tf13 (laneP x0 s l) (offT x1)).tx + x2 (ix3 0 s l) := by
  fk_unfold_run
  simp only [Cert.KernelIdeal.KLoads.ld13_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf13, Cert.FK.tfStep, Cert.FK.tfRoot, Cert.FK.rodJ, Cert.FK.rod, Cert.FK.ang, Cert.FK.one, Cert.FK.zero, Cert.FK.eps]
  rfl

set_option maxHeartbeats 1000000 in
theorem out13_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay776 (kernelRun0_A.sl.r_2 c arg3 harg3 x2) (kernelRun0_A.sl.r_522 c arg1 harg1 arg2 harg2 arg8 arg9 arg10 arg15 x0 x1)) (ix4 0 0 s l) = (Cert.FK.tf13 (laneP x0 s l) (offT x1)).ty + x2 (ix3 1 s l) := by
  fk_unfold_run
  simp only [Cert.KernelIdeal.KLoads.ld13_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf13, Cert.FK.tfStep, Cert.FK.tfRoot, Cert.FK.rodJ, Cert.FK.rod, Cert.FK.ang, Cert.FK.one, Cert.FK.zero, Cert.FK.eps]
  rfl

set_option maxHeartbeats 1000000 in
theorem out13_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay777 (kernelRun0_A.sl.r_3 c arg3 harg3 x2) (kernelRun0_A.sl.r_523 c arg1 harg1 arg2 harg2 arg11 arg12 arg13 arg16 x0 x1)) (ix4 0 0 s l) = (Cert.FK.tf13 (laneP x0 s l) (offT x1)).tz + x2 (ix3 2 s l) := by
  fk_unfold_run
  simp only [Cert.KernelIdeal.KLoads.ld13_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld13_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf13, Cert.FK.tfStep, Cert.FK.tfRoot, Cert.FK.rodJ, Cert.FK.rod, Cert.FK.ang, Cert.FK.one, Cert.FK.zero, Cert.FK.eps]
  rfl

end Cert.KernelIdeal.KJoint13

end
-- ==== Proof.KJoint14.lean ====
/-
  Joint 14 (its parent is joint 9) at one lane (s, l) of a tile: the twelve values it stores in its row of the scratch buffers are the entries of its global transform, and the three values it stores in the output are its position — the translation of its global transform plus the body translation. Its transform is the parent's, read back from the parent's row, composed with its own Rodrigues matrix and offset.
-/
import proofs.«127147_j62156766707902_2_alg».proof.Proof.KLanes
import proofs.«127147_j62156766707902_2_alg».proof.Proof.KLane
import proofs.«127147_j62156766707902_2_alg».proof.Proof.KLoads
import proofs.«127147_j62156766707902_2_alg».proof.Proof.KJoint9

noncomputable section

namespace Cert.KernelIdeal.KJoint14

open Idealize.ShloMosaic Idealize.ShloMosaic.TcCoe Idealize.SL.Sem Idealize.ShloMosaic.ValueIdx
open Cert.KernelIdeal Cert.KernelIdeal.Gen Cert.KernelIdeal.KLane Cert.KernelIdeal.KLanes

set_option maxHeartbeats 1000000 in
theorem ck14_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay827 (kernelRun0_A.sl.r_558 c arg1 harg1 arg5 arg6 arg7 x0)) (ix3 0 s l) = (Cert.FK.tf14 (laneP x0 s l) (offT x1)).n00 := by
  fk_unfold_run
  simp only [Cert.KernelIdeal.KLoads.ld14_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf14, Cert.FK.tfStep, Cert.FK.tfRoot, Cert.FK.rodJ, Cert.FK.rod, Cert.FK.ang, Cert.FK.one, Cert.FK.zero, Cert.FK.eps]
  rfl

set_option maxHeartbeats 1000000 in
theorem ck14_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay828 (kernelRun0_A.sl.r_559 c arg1 harg1 arg5 arg6 arg7 x0)) (ix3 0 s l) = (Cert.FK.tf14 (laneP x0 s l) (offT x1)).n01 := by
  fk_unfold_run
  simp only [Cert.KernelIdeal.KLoads.ld14_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf14, Cert.FK.tfStep, Cert.FK.tfRoot, Cert.FK.rodJ, Cert.FK.rod, Cert.FK.ang, Cert.FK.one, Cert.FK.zero, Cert.FK.eps]
  rfl

set_option maxHeartbeats 1000000 in
theorem ck14_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay829 (kernelRun0_A.sl.r_560 c arg1 harg1 arg5 arg6 arg7 x0)) (ix3 0 s l) = (Cert.FK.tf14 (laneP x0 s l) (offT x1)).n02 := by
  fk_unfold_run
  simp only [Cert.KernelIdeal.KLoads.ld14_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf14, Cert.FK.tfStep, Cert.FK.tfRoot, Cert.FK.rodJ, Cert.FK.rod, Cert.FK.ang, Cert.FK.one, Cert.FK.zero, Cert.FK.eps]
  rfl

set_option maxHeartbeats 1000000 in
theorem ck14_3 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay830 (kernelRun0_A.sl.r_561 c arg1 harg1 arg8 arg9 arg10 x0)) (ix3 0 s l) = (Cert.FK.tf14 (laneP x0 s l) (offT x1)).n10 := by
  fk_unfold_run
  simp only [Cert.KernelIdeal.KLoads.ld14_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf14, Cert.FK.tfStep, Cert.FK.tfRoot, Cert.FK.rodJ, Cert.FK.rod, Cert.FK.ang, Cert.FK.one, Cert.FK.zero, Cert.FK.eps]
  rfl

set_option maxHeartbeats 1000000 in
theorem ck14_4 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay831 (kernelRun0_A.sl.r_562 c arg1 harg1 arg8 arg9 arg10 x0)) (ix3 0 s l) = (Cert.FK.tf14 (laneP x0 s l) (offT x1)).n11 := by
  fk_unfold_run
  simp only [Cert.KernelIdeal.KLoads.ld14_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf14, Cert.FK.tfStep, Cert.FK.tfRoot, Cert.FK.rodJ, Cert.FK.rod, Cert.FK.ang, Cert.FK.one, Cert.FK.zero, Cert.FK.eps]
  rfl

set_option maxHeartbeats 1000000 in
theorem ck14_5 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay832 (kernelRun0_A.sl.r_563 c arg1 harg1 arg8 arg9 arg10 x0)) (ix3 0 s l) = (Cert.FK.tf14 (laneP x0 s l) (offT x1)).n12 := by
  fk_unfold_run
  simp only [Cert.KernelIdeal.KLoads.ld14_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf14, Cert.FK.tfStep, Cert.FK.tfRoot, Cert.FK.rodJ, Cert.FK.rod, Cert.FK.ang, Cert.FK.one, Cert.FK.zero, Cert.FK.eps]
  rfl

set_option maxHeartbeats 1000000 in
theorem ck14_6 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay833 (kernelRun0_A.sl.r_564 c arg1 harg1 arg11 arg12 arg13 x0)) (ix3 0 s l) = (Cert.FK.tf14 (laneP x0 s l) (offT x1)).n20 := by
  fk_unfold_run
  simp only [Cert.KernelIdeal.KLoads.ld14_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf14, Cert.FK.tfStep, Cert.FK.tfRoot, Cert.FK.rodJ, Cert.FK.rod, Cert.FK.ang, Cert.FK.one, Cert.FK.zero, Cert.FK.eps]
  rfl

set_option maxHeartbeats 1000000 in
theorem ck14_7 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay834 (kernelRun0_A.sl.r_565 c arg1 harg1 arg11 arg12 arg13 x0)) (ix3 0 s l) = (Cert.FK.tf14 (laneP x0 s l) (offT x1)).n21 := by
  fk_unfold_run
  simp only [Cert.KernelIdeal.KLoads.ld14_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf14, Cert.FK.tfStep, Cert.FK.tfRoot, Cert.FK.rodJ, Cert.FK.rod, Cert.FK.ang, Cert.FK.one, Cert.FK.zero, Cert.FK.eps]
  rfl

set_option maxHeartbeats 1000000 in
theorem ck14_8 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay835 (kernelRun0_A.sl.r_567 c arg1 harg1 arg11 arg12 arg13 x0)) (ix3 0 s l) = (Cert.FK.tf14 (laneP x0 s l) (offT x1)).n22 := by
  fk_unfold_run
  simp only [Cert.KernelIdeal.KLoads.ld14_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf14, Cert.FK.tfStep, Cert.FK.tfRoot, Cert.FK.rodJ, Cert.FK.rod, Cert.FK.ang, Cert.FK.one, Cert.FK.zero, Cert.FK.eps]
  rfl

set_option maxHeartbeats 1000000 in
theorem ck14_9 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay836 (kernelRun0_A.sl.r_568 c arg1 harg1 arg2 harg2 arg5 arg6 arg7 arg14 x0 x1)) (ix3 0 s l) = (Cert.FK.tf14 (laneP x0 s l) (offT x1)).tx := by
  fk_unfold_run
  simp only [Cert.KernelIdeal.KLoads.ld14_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf14, Cert.FK.tfStep, Cert.FK.tfRoot, Cert.FK.rodJ, Cert.FK.rod, Cert.FK.ang, Cert.FK.one, Cert.FK.zero, Cert.FK.eps]
  rfl

set_option maxHeartbeats 1000000 in
theorem ck14_10 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay837 (kernelRun0_A.sl.r_569 c arg1 harg1 arg2 harg2 arg8 arg9 arg10 arg15 x0 x1)) (ix3 0 s l) = (Cert.FK.tf14 (laneP x0 s l) (offT x1)).ty := by
  fk_unfold_run
  simp only [Cert.KernelIdeal.KLoads.ld14_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf14, Cert.FK.tfStep, Cert.FK.tfRoot, Cert.FK.rodJ, Cert.FK.rod, Cert.FK.ang, Cert.FK.one, Cert.FK.zero, Cert.FK.eps]
  rfl

set_option maxHeartbeats 1000000 in
theorem ck14_11 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay838 (kernelRun0_A.sl.r_570 c arg1 harg1 arg2 harg2 arg11 arg12 arg13 arg16 x0 x1)) (ix3 0 s l) = (Cert.FK.tf14 (laneP x0 s l) (offT x1)).tz := by
  fk_unfold_run
  simp only [Cert.KernelIdeal.KLoads.ld14_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf14, Cert.FK.tfStep, Cert.FK.tfRoot, Cert.FK.rodJ, Cert.FK.rod, Cert.FK.ang, Cert.FK.one, Cert.FK.zero, Cert.FK.eps]
  rfl

set_option maxHeartbeats 1000000 in
theorem out14_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay840 (kernelRun0_A.sl.r_571 c arg1 harg1 arg2 harg2 arg3 harg3 arg5 arg6 arg7 arg14 x0 x1 x2)) (ix4 0 0 s l) = (Cert.FK.tf14 (laneP x0 s l) (offT x1)).tx + x2 (ix3 0 s l) := by
  fk_unfold_run
  simp only [Cert.KernelIdeal.KLoads.ld14_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf14, Cert.FK.tfStep, Cert.FK.tfRoot, Cert.FK.rodJ, Cert.FK.rod, Cert.FK.ang, Cert.FK.one, Cert.FK.zero, Cert.FK.eps]
  rfl

set_option maxHeartbeats 1000000 in
theorem out14_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay841 (kernelRun0_A.sl.r_2 c arg3 harg3 x2) (kernelRun0_A.sl.r_569 c arg1 harg1 arg2 harg2 arg8 arg9 arg10 arg15 x0 x1)) (ix4 0 0 s l) = (Cert.FK.tf14 (laneP x0 s l) (offT x1)).ty + x2 (ix3 1 s l) := by
  fk_unfold_run
  simp only [Cert.KernelIdeal.KLoads.ld14_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf14, Cert.FK.tfStep, Cert.FK.tfRoot, Cert.FK.rodJ, Cert.FK.rod, Cert.FK.ang, Cert.FK.one, Cert.FK.zero, Cert.FK.eps]
  rfl

set_option maxHeartbeats 1000000 in
theorem out14_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay842 (kernelRun0_A.sl.r_3 c arg3 harg3 x2) (kernelRun0_A.sl.r_570 c arg1 harg1 arg2 harg2 arg11 arg12 arg13 arg16 x0 x1)) (ix4 0 0 s l) = (Cert.FK.tf14 (laneP x0 s l) (offT x1)).tz + x2 (ix3 2 s l) := by
  fk_unfold_run
  simp only [Cert.KernelIdeal.KLoads.ld14_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld14_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint9.ck9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint9.ck9_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf14, Cert.FK.tfStep, Cert.FK.tfRoot, Cert.FK.rodJ, Cert.FK.rod, Cert.FK.ang, Cert.FK.one, Cert.FK.zero, Cert.FK.eps]
  rfl

end Cert.KernelIdeal.KJoint14

end
-- ==== Proof.KJoint15.lean ====
/-
  Joint 15 (its parent is joint 12) at one lane (s, l) of a tile: the three values it stores in the output are its position — the translation of its global transform plus the body translation. Its transform is the parent's, read back from the parent's row, composed with its own Rodrigues matrix and offset.
-/
import proofs.«127147_j62156766707902_2_alg».proof.Proof.KLanes
import proofs.«127147_j62156766707902_2_alg».proof.Proof.KLane
import proofs.«127147_j62156766707902_2_alg».proof.Proof.KLoads
import proofs.«127147_j62156766707902_2_alg».proof.Proof.KJoint12

noncomputable section

namespace Cert.KernelIdeal.KJoint15

open Idealize.ShloMosaic Idealize.ShloMosaic.TcCoe Idealize.SL.Sem Idealize.ShloMosaic.ValueIdx
open Cert.KernelIdeal Cert.KernelIdeal.Gen Cert.KernelIdeal.KLane Cert.KernelIdeal.KLanes

set_option maxHeartbeats 1000000 in
theorem out15_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay855 (kernelRun0_A.sl.r_583 c arg1 harg1 arg2 harg2 arg3 harg3 arg5 arg6 arg7 arg14 x0 x1 x2)) (ix4 0 0 s l) = (Cert.FK.tf15 (laneP x0 s l) (offT x1)).tx + x2 (ix3 0 s l) := by
  fk_unfold_run
  simp only [Cert.KernelIdeal.KLoads.ld15_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld15_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld15_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld15_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld15_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld15_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld15_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld15_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld15_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld15_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld15_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld15_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint12.ck12_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint12.ck12_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint12.ck12_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint12.ck12_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint12.ck12_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint12.ck12_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint12.ck12_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint12.ck12_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint12.ck12_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint12.ck12_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint12.ck12_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint12.ck12_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf15, Cert.FK.tfStep, Cert.FK.tfRoot, Cert.FK.rodJ, Cert.FK.rod, Cert.FK.ang, Cert.FK.one, Cert.FK.zero, Cert.FK.eps]
  rfl

set_option maxHeartbeats 1000000 in
theorem out15_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay856 (kernelRun0_A.sl.r_2 c arg3 harg3 x2) (kernelRun0_A.sl.r_581 c arg1 harg1 arg2 harg2 arg8 arg9 arg10 arg15 x0 x1)) (ix4 0 0 s l) = (Cert.FK.tf15 (laneP x0 s l) (offT x1)).ty + x2 (ix3 1 s l) := by
  fk_unfold_run
  simp only [Cert.KernelIdeal.KLoads.ld15_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld15_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld15_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld15_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld15_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld15_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld15_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld15_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld15_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld15_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld15_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld15_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint12.ck12_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint12.ck12_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint12.ck12_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint12.ck12_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint12.ck12_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint12.ck12_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint12.ck12_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint12.ck12_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint12.ck12_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint12.ck12_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint12.ck12_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint12.ck12_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf15, Cert.FK.tfStep, Cert.FK.tfRoot, Cert.FK.rodJ, Cert.FK.rod, Cert.FK.ang, Cert.FK.one, Cert.FK.zero, Cert.FK.eps]
  rfl

set_option maxHeartbeats 1000000 in
theorem out15_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay857 (kernelRun0_A.sl.r_3 c arg3 harg3 x2) (kernelRun0_A.sl.r_582 c arg1 harg1 arg2 harg2 arg11 arg12 arg13 arg16 x0 x1)) (ix4 0 0 s l) = (Cert.FK.tf15 (laneP x0 s l) (offT x1)).tz + x2 (ix3 2 s l) := by
  fk_unfold_run
  simp only [Cert.KernelIdeal.KLoads.ld15_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld15_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld15_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld15_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld15_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld15_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld15_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld15_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld15_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld15_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld15_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld15_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint12.ck12_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint12.ck12_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint12.ck12_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint12.ck12_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint12.ck12_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint12.ck12_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint12.ck12_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint12.ck12_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint12.ck12_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint12.ck12_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint12.ck12_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint12.ck12_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf15, Cert.FK.tfStep, Cert.FK.tfRoot, Cert.FK.rodJ, Cert.FK.rod, Cert.FK.ang, Cert.FK.one, Cert.FK.zero, Cert.FK.eps]
  rfl

end Cert.KernelIdeal.KJoint15

end
-- ==== Proof.KJoint16.lean ====
/-
  Joint 16 (its parent is joint 13) at one lane (s, l) of a tile: the twelve values it stores in its row of the scratch buffers are the entries of its global transform, and the three values it stores in the output are its position — the translation of its global transform plus the body translation. Its transform is the parent's, read back from the parent's row, composed with its own Rodrigues matrix and offset.
-/
import proofs.«127147_j62156766707902_2_alg».proof.Proof.KLanes
import proofs.«127147_j62156766707902_2_alg».proof.Proof.KLane
import proofs.«127147_j62156766707902_2_alg».proof.Proof.KLoads
import proofs.«127147_j62156766707902_2_alg».proof.Proof.KJoint13

noncomputable section

namespace Cert.KernelIdeal.KJoint16

open Idealize.ShloMosaic Idealize.ShloMosaic.TcCoe Idealize.SL.Sem Idealize.ShloMosaic.ValueIdx
open Cert.KernelIdeal Cert.KernelIdeal.Gen Cert.KernelIdeal.KLane Cert.KernelIdeal.KLanes

set_option maxHeartbeats 1000000 in
theorem ck16_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay906 (kernelRun0_A.sl.r_614 c arg1 harg1 arg5 arg6 arg7 x0)) (ix3 0 s l) = (Cert.FK.tf16 (laneP x0 s l) (offT x1)).n00 := by
  fk_unfold_run
  simp only [Cert.KernelIdeal.KLoads.ld16_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint13.ck13_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf16, Cert.FK.tfStep, Cert.FK.tfRoot, Cert.FK.rodJ, Cert.FK.rod, Cert.FK.ang, Cert.FK.one, Cert.FK.zero, Cert.FK.eps]
  rfl

set_option maxHeartbeats 1000000 in
theorem ck16_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay907 (kernelRun0_A.sl.r_615 c arg1 harg1 arg5 arg6 arg7 x0)) (ix3 0 s l) = (Cert.FK.tf16 (laneP x0 s l) (offT x1)).n01 := by
  fk_unfold_run
  simp only [Cert.KernelIdeal.KLoads.ld16_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint13.ck13_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf16, Cert.FK.tfStep, Cert.FK.tfRoot, Cert.FK.rodJ, Cert.FK.rod, Cert.FK.ang, Cert.FK.one, Cert.FK.zero, Cert.FK.eps]
  rfl

set_option maxHeartbeats 1000000 in
theorem ck16_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay908 (kernelRun0_A.sl.r_616 c arg1 harg1 arg5 arg6 arg7 x0)) (ix3 0 s l) = (Cert.FK.tf16 (laneP x0 s l) (offT x1)).n02 := by
  fk_unfold_run
  simp only [Cert.KernelIdeal.KLoads.ld16_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint13.ck13_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf16, Cert.FK.tfStep, Cert.FK.tfRoot, Cert.FK.rodJ, Cert.FK.rod, Cert.FK.ang, Cert.FK.one, Cert.FK.zero, Cert.FK.eps]
  rfl

set_option maxHeartbeats 1000000 in
theorem ck16_3 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay909 (kernelRun0_A.sl.r_617 c arg1 harg1 arg8 arg9 arg10 x0)) (ix3 0 s l) = (Cert.FK.tf16 (laneP x0 s l) (offT x1)).n10 := by
  fk_unfold_run
  simp only [Cert.KernelIdeal.KLoads.ld16_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint13.ck13_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf16, Cert.FK.tfStep, Cert.FK.tfRoot, Cert.FK.rodJ, Cert.FK.rod, Cert.FK.ang, Cert.FK.one, Cert.FK.zero, Cert.FK.eps]
  rfl

set_option maxHeartbeats 1000000 in
theorem ck16_4 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay910 (kernelRun0_A.sl.r_618 c arg1 harg1 arg8 arg9 arg10 x0)) (ix3 0 s l) = (Cert.FK.tf16 (laneP x0 s l) (offT x1)).n11 := by
  fk_unfold_run
  simp only [Cert.KernelIdeal.KLoads.ld16_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint13.ck13_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf16, Cert.FK.tfStep, Cert.FK.tfRoot, Cert.FK.rodJ, Cert.FK.rod, Cert.FK.ang, Cert.FK.one, Cert.FK.zero, Cert.FK.eps]
  rfl

set_option maxHeartbeats 1000000 in
theorem ck16_5 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay911 (kernelRun0_A.sl.r_619 c arg1 harg1 arg8 arg9 arg10 x0)) (ix3 0 s l) = (Cert.FK.tf16 (laneP x0 s l) (offT x1)).n12 := by
  fk_unfold_run
  simp only [Cert.KernelIdeal.KLoads.ld16_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint13.ck13_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf16, Cert.FK.tfStep, Cert.FK.tfRoot, Cert.FK.rodJ, Cert.FK.rod, Cert.FK.ang, Cert.FK.one, Cert.FK.zero, Cert.FK.eps]
  rfl

set_option maxHeartbeats 1000000 in
theorem ck16_6 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay912 (kernelRun0_A.sl.r_620 c arg1 harg1 arg11 arg12 arg13 x0)) (ix3 0 s l) = (Cert.FK.tf16 (laneP x0 s l) (offT x1)).n20 := by
  fk_unfold_run
  simp only [Cert.KernelIdeal.KLoads.ld16_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint13.ck13_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf16, Cert.FK.tfStep, Cert.FK.tfRoot, Cert.FK.rodJ, Cert.FK.rod, Cert.FK.ang, Cert.FK.one, Cert.FK.zero, Cert.FK.eps]
  rfl

set_option maxHeartbeats 1000000 in
theorem ck16_7 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay913 (kernelRun0_A.sl.r_621 c arg1 harg1 arg11 arg12 arg13 x0)) (ix3 0 s l) = (Cert.FK.tf16 (laneP x0 s l) (offT x1)).n21 := by
  fk_unfold_run
  simp only [Cert.KernelIdeal.KLoads.ld16_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint13.ck13_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf16, Cert.FK.tfStep, Cert.FK.tfRoot, Cert.FK.rodJ, Cert.FK.rod, Cert.FK.ang, Cert.FK.one, Cert.FK.zero, Cert.FK.eps]
  rfl

set_option maxHeartbeats 1000000 in
theorem ck16_8 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay914 (kernelRun0_A.sl.r_622 c arg1 harg1 arg11 arg12 arg13 x0)) (ix3 0 s l) = (Cert.FK.tf16 (laneP x0 s l) (offT x1)).n22 := by
  fk_unfold_run
  simp only [Cert.KernelIdeal.KLoads.ld16_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint13.ck13_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf16, Cert.FK.tfStep, Cert.FK.tfRoot, Cert.FK.rodJ, Cert.FK.rod, Cert.FK.ang, Cert.FK.one, Cert.FK.zero, Cert.FK.eps]
  rfl

set_option maxHeartbeats 1000000 in
theorem ck16_9 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay915 (kernelRun0_A.sl.r_623 c arg1 harg1 arg2 harg2 arg5 arg6 arg7 arg14 x0 x1)) (ix3 0 s l) = (Cert.FK.tf16 (laneP x0 s l) (offT x1)).tx := by
  fk_unfold_run
  simp only [Cert.KernelIdeal.KLoads.ld16_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint13.ck13_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf16, Cert.FK.tfStep, Cert.FK.tfRoot, Cert.FK.rodJ, Cert.FK.rod, Cert.FK.ang, Cert.FK.one, Cert.FK.zero, Cert.FK.eps]
  rfl

set_option maxHeartbeats 1000000 in
theorem ck16_10 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay916 (kernelRun0_A.sl.r_624 c arg1 harg1 arg2 harg2 arg8 arg9 arg10 arg15 x0 x1)) (ix3 0 s l) = (Cert.FK.tf16 (laneP x0 s l) (offT x1)).ty := by
  fk_unfold_run
  simp only [Cert.KernelIdeal.KLoads.ld16_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint13.ck13_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf16, Cert.FK.tfStep, Cert.FK.tfRoot, Cert.FK.rodJ, Cert.FK.rod, Cert.FK.ang, Cert.FK.one, Cert.FK.zero, Cert.FK.eps]
  rfl

set_option maxHeartbeats 1000000 in
theorem ck16_11 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay917 (kernelRun0_A.sl.r_626 c arg1 harg1 arg2 harg2 arg11 arg12 arg13 arg16 x0 x1)) (ix3 0 s l) = (Cert.FK.tf16 (laneP x0 s l) (offT x1)).tz := by
  fk_unfold_run
  simp only [Cert.KernelIdeal.KLoads.ld16_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint13.ck13_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf16, Cert.FK.tfStep, Cert.FK.tfRoot, Cert.FK.rodJ, Cert.FK.rod, Cert.FK.ang, Cert.FK.one, Cert.FK.zero, Cert.FK.eps]
  rfl

set_option maxHeartbeats 1000000 in
theorem out16_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay918 (kernelRun0_A.sl.r_1 c arg3 harg3 x2) (kernelRun0_A.sl.r_623 c arg1 harg1 arg2 harg2 arg5 arg6 arg7 arg14 x0 x1)) (ix4 0 0 s l) = (Cert.FK.tf16 (laneP x0 s l) (offT x1)).tx + x2 (ix3 0 s l) := by
  fk_unfold_run
  simp only [Cert.KernelIdeal.KLoads.ld16_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint13.ck13_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf16, Cert.FK.tfStep, Cert.FK.tfRoot, Cert.FK.rodJ, Cert.FK.rod, Cert.FK.ang, Cert.FK.one, Cert.FK.zero, Cert.FK.eps]
  rfl

set_option maxHeartbeats 1000000 in
theorem out16_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay919 (kernelRun0_A.sl.r_2 c arg3 harg3 x2) (kernelRun0_A.sl.r_624 c arg1 harg1 arg2 harg2 arg8 arg9 arg10 arg15 x0 x1)) (ix4 0 0 s l) = (Cert.FK.tf16 (laneP x0 s l) (offT x1)).ty + x2 (ix3 1 s l) := by
  fk_unfold_run
  simp only [Cert.KernelIdeal.KLoads.ld16_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint13.ck13_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf16, Cert.FK.tfStep, Cert.FK.tfRoot, Cert.FK.rodJ, Cert.FK.rod, Cert.FK.ang, Cert.FK.one, Cert.FK.zero, Cert.FK.eps]
  rfl

set_option maxHeartbeats 1000000 in
theorem out16_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay920 (kernelRun0_A.sl.r_3 c arg3 harg3 x2) (kernelRun0_A.sl.r_626 c arg1 harg1 arg2 harg2 arg11 arg12 arg13 arg16 x0 x1)) (ix4 0 0 s l) = (Cert.FK.tf16 (laneP x0 s l) (offT x1)).tz + x2 (ix3 2 s l) := by
  fk_unfold_run
  simp only [Cert.KernelIdeal.KLoads.ld16_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld16_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint13.ck13_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint13.ck13_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf16, Cert.FK.tfStep, Cert.FK.tfRoot, Cert.FK.rodJ, Cert.FK.rod, Cert.FK.ang, Cert.FK.one, Cert.FK.zero, Cert.FK.eps]
  rfl

end Cert.KernelIdeal.KJoint16

end
-- ==== Proof.KJoint17.lean ====
/-
  Joint 17 (its parent is joint 14) at one lane (s, l) of a tile: the twelve values it stores in its row of the scratch buffers are the entries of its global transform, and the three values it stores in the output are its position — the translation of its global transform plus the body translation. Its transform is the parent's, read back from the parent's row, composed with its own Rodrigues matrix and offset.
-/
import proofs.«127147_j62156766707902_2_alg».proof.Proof.KLanes
import proofs.«127147_j62156766707902_2_alg».proof.Proof.KLane
import proofs.«127147_j62156766707902_2_alg».proof.Proof.KLoads
import proofs.«127147_j62156766707902_2_alg».proof.Proof.KJoint14

noncomputable section

namespace Cert.KernelIdeal.KJoint17

open Idealize.ShloMosaic Idealize.ShloMosaic.TcCoe Idealize.SL.Sem Idealize.ShloMosaic.ValueIdx
open Cert.KernelIdeal Cert.KernelIdeal.Gen Cert.KernelIdeal.KLane Cert.KernelIdeal.KLanes

set_option maxHeartbeats 1000000 in
theorem ck17_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay970 (kernelRun0_A.sl.r_657 c arg1 harg1 arg5 arg6 arg7 x0)) (ix3 0 s l) = (Cert.FK.tf17 (laneP x0 s l) (offT x1)).n00 := by
  fk_unfold_run
  simp only [Cert.KernelIdeal.KLoads.ld17_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint14.ck14_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf17, Cert.FK.tfStep, Cert.FK.tfRoot, Cert.FK.rodJ, Cert.FK.rod, Cert.FK.ang, Cert.FK.one, Cert.FK.zero, Cert.FK.eps]
  rfl

set_option maxHeartbeats 1000000 in
theorem ck17_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay971 (kernelRun0_A.sl.r_658 c arg1 harg1 arg5 arg6 arg7 x0)) (ix3 0 s l) = (Cert.FK.tf17 (laneP x0 s l) (offT x1)).n01 := by
  fk_unfold_run
  simp only [Cert.KernelIdeal.KLoads.ld17_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint14.ck14_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf17, Cert.FK.tfStep, Cert.FK.tfRoot, Cert.FK.rodJ, Cert.FK.rod, Cert.FK.ang, Cert.FK.one, Cert.FK.zero, Cert.FK.eps]
  rfl

set_option maxHeartbeats 1000000 in
theorem ck17_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v3458 c arg1 harg1 arg5 arg6 arg7 x0) (ix3 0 s l) = (Cert.FK.tf17 (laneP x0 s l) (offT x1)).n02 := by
  fk_unfold_run
  simp only [Cert.KernelIdeal.KLoads.ld17_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint14.ck14_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf17, Cert.FK.tfStep, Cert.FK.tfRoot, Cert.FK.rodJ, Cert.FK.rod, Cert.FK.ang, Cert.FK.one, Cert.FK.zero, Cert.FK.eps]
  rfl

set_option maxHeartbeats 1000000 in
theorem ck17_3 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v3461 c arg1 harg1 arg8 arg9 arg10 x0) (ix3 0 s l) = (Cert.FK.tf17 (laneP x0 s l) (offT x1)).n10 := by
  fk_unfold_run
  simp only [Cert.KernelIdeal.KLoads.ld17_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint14.ck14_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf17, Cert.FK.tfStep, Cert.FK.tfRoot, Cert.FK.rodJ, Cert.FK.rod, Cert.FK.ang, Cert.FK.one, Cert.FK.zero, Cert.FK.eps]
  rfl

set_option maxHeartbeats 1000000 in
theorem ck17_4 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v3464 c arg1 harg1 arg8 arg9 arg10 x0) (ix3 0 s l) = (Cert.FK.tf17 (laneP x0 s l) (offT x1)).n11 := by
  fk_unfold_run
  simp only [Cert.KernelIdeal.KLoads.ld17_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint14.ck14_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf17, Cert.FK.tfStep, Cert.FK.tfRoot, Cert.FK.rodJ, Cert.FK.rod, Cert.FK.ang, Cert.FK.one, Cert.FK.zero, Cert.FK.eps]
  rfl

set_option maxHeartbeats 1000000 in
theorem ck17_5 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v3467 c arg1 harg1 arg8 arg9 arg10 x0) (ix3 0 s l) = (Cert.FK.tf17 (laneP x0 s l) (offT x1)).n12 := by
  fk_unfold_run
  simp only [Cert.KernelIdeal.KLoads.ld17_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint14.ck14_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf17, Cert.FK.tfStep, Cert.FK.tfRoot, Cert.FK.rodJ, Cert.FK.rod, Cert.FK.ang, Cert.FK.one, Cert.FK.zero, Cert.FK.eps]
  rfl

set_option maxHeartbeats 1000000 in
theorem ck17_6 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v3470 c arg1 harg1 arg11 arg12 arg13 x0) (ix3 0 s l) = (Cert.FK.tf17 (laneP x0 s l) (offT x1)).n20 := by
  fk_unfold_run
  simp only [Cert.KernelIdeal.KLoads.ld17_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint14.ck14_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf17, Cert.FK.tfStep, Cert.FK.tfRoot, Cert.FK.rodJ, Cert.FK.rod, Cert.FK.ang, Cert.FK.one, Cert.FK.zero, Cert.FK.eps]
  rfl

set_option maxHeartbeats 1000000 in
theorem ck17_7 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v3473 c arg1 harg1 arg11 arg12 arg13 x0) (ix3 0 s l) = (Cert.FK.tf17 (laneP x0 s l) (offT x1)).n21 := by
  fk_unfold_run
  simp only [Cert.KernelIdeal.KLoads.ld17_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint14.ck14_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf17, Cert.FK.tfStep, Cert.FK.tfRoot, Cert.FK.rodJ, Cert.FK.rod, Cert.FK.ang, Cert.FK.one, Cert.FK.zero, Cert.FK.eps]
  rfl

set_option maxHeartbeats 1000000 in
theorem ck17_8 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v3476 c arg1 harg1 arg11 arg12 arg13 x0) (ix3 0 s l) = (Cert.FK.tf17 (laneP x0 s l) (offT x1)).n22 := by
  fk_unfold_run
  simp only [Cert.KernelIdeal.KLoads.ld17_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint14.ck14_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf17, Cert.FK.tfStep, Cert.FK.tfRoot, Cert.FK.rodJ, Cert.FK.rod, Cert.FK.ang, Cert.FK.one, Cert.FK.zero, Cert.FK.eps]
  rfl

set_option maxHeartbeats 1000000 in
theorem ck17_9 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v3479 c arg1 harg1 arg2 harg2 arg5 arg6 arg7 arg14 x0 x1) (ix3 0 s l) = (Cert.FK.tf17 (laneP x0 s l) (offT x1)).tx := by
  fk_unfold_run
  simp only [Cert.KernelIdeal.KLoads.ld17_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint14.ck14_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf17, Cert.FK.tfStep, Cert.FK.tfRoot, Cert.FK.rodJ, Cert.FK.rod, Cert.FK.ang, Cert.FK.one, Cert.FK.zero, Cert.FK.eps]
  rfl

set_option maxHeartbeats 1000000 in
theorem ck17_10 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay980 (kernelRun0_A.sl.r_669 c arg1 harg1 arg2 harg2 arg8 arg9 arg10 arg15 x0 x1)) (ix3 0 s l) = (Cert.FK.tf17 (laneP x0 s l) (offT x1)).ty := by
  fk_unfold_run
  simp only [Cert.KernelIdeal.KLoads.ld17_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint14.ck14_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf17, Cert.FK.tfStep, Cert.FK.tfRoot, Cert.FK.rodJ, Cert.FK.rod, Cert.FK.ang, Cert.FK.one, Cert.FK.zero, Cert.FK.eps]
  rfl

set_option maxHeartbeats 1000000 in
theorem ck17_11 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay981 (kernelRun0_A.sl.r_670 c arg1 harg1 arg2 harg2 arg11 arg12 arg13 arg16 x0 x1)) (ix3 0 s l) = (Cert.FK.tf17 (laneP x0 s l) (offT x1)).tz := by
  fk_unfold_run
  simp only [Cert.KernelIdeal.KLoads.ld17_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint14.ck14_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf17, Cert.FK.tfStep, Cert.FK.tfRoot, Cert.FK.rodJ, Cert.FK.rod, Cert.FK.ang, Cert.FK.one, Cert.FK.zero, Cert.FK.eps]
  rfl

set_option maxHeartbeats 1000000 in
theorem out17_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay982 (kernelRun0_A.sl.r_1 c arg3 harg3 x2) (kernelRun0_A.sl.r_668 c arg1 harg1 arg2 harg2 arg5 arg6 arg7 arg14 x0 x1)) (ix4 0 0 s l) = (Cert.FK.tf17 (laneP x0 s l) (offT x1)).tx + x2 (ix3 0 s l) := by
  fk_unfold_run
  simp only [Cert.KernelIdeal.KLoads.ld17_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint14.ck14_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf17, Cert.FK.tfStep, Cert.FK.tfRoot, Cert.FK.rodJ, Cert.FK.rod, Cert.FK.ang, Cert.FK.one, Cert.FK.zero, Cert.FK.eps]
  rfl

set_option maxHeartbeats 1000000 in
theorem out17_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay983 (kernelRun0_A.sl.r_2 c arg3 harg3 x2) (kernelRun0_A.sl.r_669 c arg1 harg1 arg2 harg2 arg8 arg9 arg10 arg15 x0 x1)) (ix4 0 0 s l) = (Cert.FK.tf17 (laneP x0 s l) (offT x1)).ty + x2 (ix3 1 s l) := by
  fk_unfold_run
  simp only [Cert.KernelIdeal.KLoads.ld17_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint14.ck14_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf17, Cert.FK.tfStep, Cert.FK.tfRoot, Cert.FK.rodJ, Cert.FK.rod, Cert.FK.ang, Cert.FK.one, Cert.FK.zero, Cert.FK.eps]
  rfl

set_option maxHeartbeats 1000000 in
theorem out17_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay984 (kernelRun0_A.sl.r_3 c arg3 harg3 x2) (kernelRun0_A.sl.r_670 c arg1 harg1 arg2 harg2 arg11 arg12 arg13 arg16 x0 x1)) (ix4 0 0 s l) = (Cert.FK.tf17 (laneP x0 s l) (offT x1)).tz + x2 (ix3 2 s l) := by
  fk_unfold_run
  simp only [Cert.KernelIdeal.KLoads.ld17_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld17_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint14.ck14_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint14.ck14_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf17, Cert.FK.tfStep, Cert.FK.tfRoot, Cert.FK.rodJ, Cert.FK.rod, Cert.FK.ang, Cert.FK.one, Cert.FK.zero, Cert.FK.eps]
  rfl

end Cert.KernelIdeal.KJoint17

end
-- ==== Proof.KJoint18.lean ====
/-
  Joint 18 (its parent is joint 16) at one lane (s, l) of a tile: the twelve values it stores in its row of the scratch buffers are the entries of its global transform, and the three values it stores in the output are its position — the translation of its global transform plus the body translation. Its transform is the parent's, read back from the parent's row, composed with its own Rodrigues matrix and offset.
-/
import proofs.«127147_j62156766707902_2_alg».proof.Proof.KLanes
import proofs.«127147_j62156766707902_2_alg».proof.Proof.KLane
import proofs.«127147_j62156766707902_2_alg».proof.Proof.KLoads
import proofs.«127147_j62156766707902_2_alg».proof.Proof.KJoint16

noncomputable section

namespace Cert.KernelIdeal.KJoint18

open Idealize.ShloMosaic Idealize.ShloMosaic.TcCoe Idealize.SL.Sem Idealize.ShloMosaic.ValueIdx
open Cert.KernelIdeal Cert.KernelIdeal.Gen Cert.KernelIdeal.KLane Cert.KernelIdeal.KLanes

set_option maxHeartbeats 1000000 in
theorem ck18_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay1037 (kernelRun0_A.sl.r_703 c arg1 harg1 arg5 arg6 arg7 x0)) (ix3 0 s l) = (Cert.FK.tf18 (laneP x0 s l) (offT x1)).n00 := by
  fk_unfold_run
  simp only [Cert.KernelIdeal.KLoads.ld18_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint16.ck16_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf18, Cert.FK.tfStep, Cert.FK.tfRoot, Cert.FK.rodJ, Cert.FK.rod, Cert.FK.ang, Cert.FK.one, Cert.FK.zero, Cert.FK.eps]
  rfl

set_option maxHeartbeats 1000000 in
theorem ck18_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay1038 (kernelRun0_A.sl.r_704 c arg1 harg1 arg5 arg6 arg7 x0)) (ix3 0 s l) = (Cert.FK.tf18 (laneP x0 s l) (offT x1)).n01 := by
  fk_unfold_run
  simp only [Cert.KernelIdeal.KLoads.ld18_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint16.ck16_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf18, Cert.FK.tfStep, Cert.FK.tfRoot, Cert.FK.rodJ, Cert.FK.rod, Cert.FK.ang, Cert.FK.one, Cert.FK.zero, Cert.FK.eps]
  rfl

set_option maxHeartbeats 1000000 in
theorem ck18_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay1039 (kernelRun0_A.sl.r_705 c arg1 harg1 arg5 arg6 arg7 x0)) (ix3 0 s l) = (Cert.FK.tf18 (laneP x0 s l) (offT x1)).n02 := by
  fk_unfold_run
  simp only [Cert.KernelIdeal.KLoads.ld18_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint16.ck16_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf18, Cert.FK.tfStep, Cert.FK.tfRoot, Cert.FK.rodJ, Cert.FK.rod, Cert.FK.ang, Cert.FK.one, Cert.FK.zero, Cert.FK.eps]
  rfl

set_option maxHeartbeats 1000000 in
theorem ck18_3 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay1040 (kernelRun0_A.sl.r_706 c arg1 harg1 arg8 arg9 arg10 x0)) (ix3 0 s l) = (Cert.FK.tf18 (laneP x0 s l) (offT x1)).n10 := by
  fk_unfold_run
  simp only [Cert.KernelIdeal.KLoads.ld18_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint16.ck16_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf18, Cert.FK.tfStep, Cert.FK.tfRoot, Cert.FK.rodJ, Cert.FK.rod, Cert.FK.ang, Cert.FK.one, Cert.FK.zero, Cert.FK.eps]
  rfl

set_option maxHeartbeats 1000000 in
theorem ck18_4 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay1041 (kernelRun0_A.sl.r_707 c arg1 harg1 arg8 arg9 arg10 x0)) (ix3 0 s l) = (Cert.FK.tf18 (laneP x0 s l) (offT x1)).n11 := by
  fk_unfold_run
  simp only [Cert.KernelIdeal.KLoads.ld18_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint16.ck16_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf18, Cert.FK.tfStep, Cert.FK.tfRoot, Cert.FK.rodJ, Cert.FK.rod, Cert.FK.ang, Cert.FK.one, Cert.FK.zero, Cert.FK.eps]
  rfl

set_option maxHeartbeats 1000000 in
theorem ck18_5 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay1042 (kernelRun0_A.sl.r_708 c arg1 harg1 arg8 arg9 arg10 x0)) (ix3 0 s l) = (Cert.FK.tf18 (laneP x0 s l) (offT x1)).n12 := by
  fk_unfold_run
  simp only [Cert.KernelIdeal.KLoads.ld18_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint16.ck16_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf18, Cert.FK.tfStep, Cert.FK.tfRoot, Cert.FK.rodJ, Cert.FK.rod, Cert.FK.ang, Cert.FK.one, Cert.FK.zero, Cert.FK.eps]
  rfl

set_option maxHeartbeats 1000000 in
theorem ck18_6 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay1043 (kernelRun0_A.sl.r_709 c arg1 harg1 arg11 arg12 arg13 x0)) (ix3 0 s l) = (Cert.FK.tf18 (laneP x0 s l) (offT x1)).n20 := by
  fk_unfold_run
  simp only [Cert.KernelIdeal.KLoads.ld18_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint16.ck16_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf18, Cert.FK.tfStep, Cert.FK.tfRoot, Cert.FK.rodJ, Cert.FK.rod, Cert.FK.ang, Cert.FK.one, Cert.FK.zero, Cert.FK.eps]
  rfl

set_option maxHeartbeats 1000000 in
theorem ck18_7 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay1044 (kernelRun0_A.sl.r_710 c arg1 harg1 arg11 arg12 arg13 x0)) (ix3 0 s l) = (Cert.FK.tf18 (laneP x0 s l) (offT x1)).n21 := by
  fk_unfold_run
  simp only [Cert.KernelIdeal.KLoads.ld18_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint16.ck16_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf18, Cert.FK.tfStep, Cert.FK.tfRoot, Cert.FK.rodJ, Cert.FK.rod, Cert.FK.ang, Cert.FK.one, Cert.FK.zero, Cert.FK.eps]
  rfl

set_option maxHeartbeats 1000000 in
theorem ck18_8 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay1045 (kernelRun0_A.sl.r_711 c arg1 harg1 arg11 arg12 arg13 x0)) (ix3 0 s l) = (Cert.FK.tf18 (laneP x0 s l) (offT x1)).n22 := by
  fk_unfold_run
  simp only [Cert.KernelIdeal.KLoads.ld18_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint16.ck16_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf18, Cert.FK.tfStep, Cert.FK.tfRoot, Cert.FK.rodJ, Cert.FK.rod, Cert.FK.ang, Cert.FK.one, Cert.FK.zero, Cert.FK.eps]
  rfl

set_option maxHeartbeats 1000000 in
theorem ck18_9 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay1046 (kernelRun0_A.sl.r_714 c arg1 harg1 arg2 harg2 arg5 arg6 arg7 arg14 x0 x1)) (ix3 0 s l) = (Cert.FK.tf18 (laneP x0 s l) (offT x1)).tx := by
  fk_unfold_run
  simp only [Cert.KernelIdeal.KLoads.ld18_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint16.ck16_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf18, Cert.FK.tfStep, Cert.FK.tfRoot, Cert.FK.rodJ, Cert.FK.rod, Cert.FK.ang, Cert.FK.one, Cert.FK.zero, Cert.FK.eps]
  rfl

set_option maxHeartbeats 1000000 in
theorem ck18_10 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay1047 (kernelRun0_A.sl.r_715 c arg1 harg1 arg2 harg2 arg8 arg9 arg10 arg15 x0 x1)) (ix3 0 s l) = (Cert.FK.tf18 (laneP x0 s l) (offT x1)).ty := by
  fk_unfold_run
  simp only [Cert.KernelIdeal.KLoads.ld18_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint16.ck16_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf18, Cert.FK.tfStep, Cert.FK.tfRoot, Cert.FK.rodJ, Cert.FK.rod, Cert.FK.ang, Cert.FK.one, Cert.FK.zero, Cert.FK.eps]
  rfl

set_option maxHeartbeats 1000000 in
theorem ck18_11 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay1048 (kernelRun0_A.sl.r_716 c arg1 harg1 arg2 harg2 arg11 arg12 arg13 arg16 x0 x1)) (ix3 0 s l) = (Cert.FK.tf18 (laneP x0 s l) (offT x1)).tz := by
  fk_unfold_run
  simp only [Cert.KernelIdeal.KLoads.ld18_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint16.ck16_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf18, Cert.FK.tfStep, Cert.FK.tfRoot, Cert.FK.rodJ, Cert.FK.rod, Cert.FK.ang, Cert.FK.one, Cert.FK.zero, Cert.FK.eps]
  rfl

set_option maxHeartbeats 1000000 in
theorem out18_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay1049 (kernelRun0_A.sl.r_1 c arg3 harg3 x2) (kernelRun0_A.sl.r_714 c arg1 harg1 arg2 harg2 arg5 arg6 arg7 arg14 x0 x1)) (ix4 0 0 s l) = (Cert.FK.tf18 (laneP x0 s l) (offT x1)).tx + x2 (ix3 0 s l) := by
  fk_unfold_run
  simp only [Cert.KernelIdeal.KLoads.ld18_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint16.ck16_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf18, Cert.FK.tfStep, Cert.FK.tfRoot, Cert.FK.rodJ, Cert.FK.rod, Cert.FK.ang, Cert.FK.one, Cert.FK.zero, Cert.FK.eps]
  rfl

set_option maxHeartbeats 1000000 in
theorem out18_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay1051 (kernelRun0_A.sl.r_717 c arg1 harg1 arg2 harg2 arg3 harg3 arg8 arg9 arg10 arg15 x0 x1 x2)) (ix4 0 0 s l) = (Cert.FK.tf18 (laneP x0 s l) (offT x1)).ty + x2 (ix3 1 s l) := by
  fk_unfold_run
  simp only [Cert.KernelIdeal.KLoads.ld18_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint16.ck16_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf18, Cert.FK.tfStep, Cert.FK.tfRoot, Cert.FK.rodJ, Cert.FK.rod, Cert.FK.ang, Cert.FK.one, Cert.FK.zero, Cert.FK.eps]
  rfl

set_option maxHeartbeats 1000000 in
theorem out18_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay1052 (kernelRun0_A.sl.r_3 c arg3 harg3 x2) (kernelRun0_A.sl.r_716 c arg1 harg1 arg2 harg2 arg11 arg12 arg13 arg16 x0 x1)) (ix4 0 0 s l) = (Cert.FK.tf18 (laneP x0 s l) (offT x1)).tz + x2 (ix3 2 s l) := by
  fk_unfold_run
  simp only [Cert.KernelIdeal.KLoads.ld18_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld18_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint16.ck16_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint16.ck16_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf18, Cert.FK.tfStep, Cert.FK.tfRoot, Cert.FK.rodJ, Cert.FK.rod, Cert.FK.ang, Cert.FK.one, Cert.FK.zero, Cert.FK.eps]
  rfl

end Cert.KernelIdeal.KJoint18

end
-- ==== Proof.KJoint19.lean ====
/-
  Joint 19 (its parent is joint 17) at one lane (s, l) of a tile: the twelve values it stores in its row of the scratch buffers are the entries of its global transform, and the three values it stores in the output are its position — the translation of its global transform plus the body translation. Its transform is the parent's, read back from the parent's row, composed with its own Rodrigues matrix and offset.
-/
import proofs.«127147_j62156766707902_2_alg».proof.Proof.KLanes
import proofs.«127147_j62156766707902_2_alg».proof.Proof.KLane
import proofs.«127147_j62156766707902_2_alg».proof.Proof.KLoads
import proofs.«127147_j62156766707902_2_alg».proof.Proof.KJoint17

noncomputable section

namespace Cert.KernelIdeal.KJoint19

open Idealize.ShloMosaic Idealize.ShloMosaic.TcCoe Idealize.SL.Sem Idealize.ShloMosaic.ValueIdx
open Cert.KernelIdeal Cert.KernelIdeal.Gen Cert.KernelIdeal.KLane Cert.KernelIdeal.KLanes

set_option maxHeartbeats 1000000 in
theorem ck19_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay1102 (kernelRun0_A.sl.r_748 c arg1 harg1 arg5 arg6 arg7 x0)) (ix3 0 s l) = (Cert.FK.tf19 (laneP x0 s l) (offT x1)).n00 := by
  fk_unfold_run
  simp only [Cert.KernelIdeal.KLoads.ld19_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint17.ck17_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf19, Cert.FK.tfStep, Cert.FK.tfRoot, Cert.FK.rodJ, Cert.FK.rod, Cert.FK.ang, Cert.FK.one, Cert.FK.zero, Cert.FK.eps]
  rfl

set_option maxHeartbeats 1000000 in
theorem ck19_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay1103 (kernelRun0_A.sl.r_749 c arg1 harg1 arg5 arg6 arg7 x0)) (ix3 0 s l) = (Cert.FK.tf19 (laneP x0 s l) (offT x1)).n01 := by
  fk_unfold_run
  simp only [Cert.KernelIdeal.KLoads.ld19_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint17.ck17_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf19, Cert.FK.tfStep, Cert.FK.tfRoot, Cert.FK.rodJ, Cert.FK.rod, Cert.FK.ang, Cert.FK.one, Cert.FK.zero, Cert.FK.eps]
  rfl

set_option maxHeartbeats 1000000 in
theorem ck19_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay1104 (kernelRun0_A.sl.r_751 c arg1 harg1 arg5 arg6 arg7 x0)) (ix3 0 s l) = (Cert.FK.tf19 (laneP x0 s l) (offT x1)).n02 := by
  fk_unfold_run
  simp only [Cert.KernelIdeal.KLoads.ld19_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint17.ck17_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf19, Cert.FK.tfStep, Cert.FK.tfRoot, Cert.FK.rodJ, Cert.FK.rod, Cert.FK.ang, Cert.FK.one, Cert.FK.zero, Cert.FK.eps]
  rfl

set_option maxHeartbeats 1000000 in
theorem ck19_3 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay1105 (kernelRun0_A.sl.r_752 c arg1 harg1 arg8 arg9 arg10 x0)) (ix3 0 s l) = (Cert.FK.tf19 (laneP x0 s l) (offT x1)).n10 := by
  fk_unfold_run
  simp only [Cert.KernelIdeal.KLoads.ld19_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint17.ck17_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf19, Cert.FK.tfStep, Cert.FK.tfRoot, Cert.FK.rodJ, Cert.FK.rod, Cert.FK.ang, Cert.FK.one, Cert.FK.zero, Cert.FK.eps]
  rfl

set_option maxHeartbeats 1000000 in
theorem ck19_4 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay1106 (kernelRun0_A.sl.r_753 c arg1 harg1 arg8 arg9 arg10 x0)) (ix3 0 s l) = (Cert.FK.tf19 (laneP x0 s l) (offT x1)).n11 := by
  fk_unfold_run
  simp only [Cert.KernelIdeal.KLoads.ld19_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint17.ck17_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf19, Cert.FK.tfStep, Cert.FK.tfRoot, Cert.FK.rodJ, Cert.FK.rod, Cert.FK.ang, Cert.FK.one, Cert.FK.zero, Cert.FK.eps]
  rfl

set_option maxHeartbeats 1000000 in
theorem ck19_5 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay1107 (kernelRun0_A.sl.r_754 c arg1 harg1 arg8 arg9 arg10 x0)) (ix3 0 s l) = (Cert.FK.tf19 (laneP x0 s l) (offT x1)).n12 := by
  fk_unfold_run
  simp only [Cert.KernelIdeal.KLoads.ld19_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint17.ck17_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf19, Cert.FK.tfStep, Cert.FK.tfRoot, Cert.FK.rodJ, Cert.FK.rod, Cert.FK.ang, Cert.FK.one, Cert.FK.zero, Cert.FK.eps]
  rfl

set_option maxHeartbeats 1000000 in
theorem ck19_6 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay1108 (kernelRun0_A.sl.r_755 c arg1 harg1 arg11 arg12 arg13 x0)) (ix3 0 s l) = (Cert.FK.tf19 (laneP x0 s l) (offT x1)).n20 := by
  fk_unfold_run
  simp only [Cert.KernelIdeal.KLoads.ld19_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint17.ck17_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf19, Cert.FK.tfStep, Cert.FK.tfRoot, Cert.FK.rodJ, Cert.FK.rod, Cert.FK.ang, Cert.FK.one, Cert.FK.zero, Cert.FK.eps]
  rfl

set_option maxHeartbeats 1000000 in
theorem ck19_7 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay1109 (kernelRun0_A.sl.r_756 c arg1 harg1 arg11 arg12 arg13 x0)) (ix3 0 s l) = (Cert.FK.tf19 (laneP x0 s l) (offT x1)).n21 := by
  fk_unfold_run
  simp only [Cert.KernelIdeal.KLoads.ld19_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint17.ck17_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf19, Cert.FK.tfStep, Cert.FK.tfRoot, Cert.FK.rodJ, Cert.FK.rod, Cert.FK.ang, Cert.FK.one, Cert.FK.zero, Cert.FK.eps]
  rfl

set_option maxHeartbeats 1000000 in
theorem ck19_8 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay1110 (kernelRun0_A.sl.r_757 c arg1 harg1 arg11 arg12 arg13 x0)) (ix3 0 s l) = (Cert.FK.tf19 (laneP x0 s l) (offT x1)).n22 := by
  fk_unfold_run
  simp only [Cert.KernelIdeal.KLoads.ld19_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint17.ck17_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf19, Cert.FK.tfStep, Cert.FK.tfRoot, Cert.FK.rodJ, Cert.FK.rod, Cert.FK.ang, Cert.FK.one, Cert.FK.zero, Cert.FK.eps]
  rfl

set_option maxHeartbeats 1000000 in
theorem ck19_9 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay1111 (kernelRun0_A.sl.r_758 c arg1 harg1 arg2 harg2 arg5 arg6 arg7 arg14 x0 x1)) (ix3 0 s l) = (Cert.FK.tf19 (laneP x0 s l) (offT x1)).tx := by
  fk_unfold_run
  simp only [Cert.KernelIdeal.KLoads.ld19_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint17.ck17_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf19, Cert.FK.tfStep, Cert.FK.tfRoot, Cert.FK.rodJ, Cert.FK.rod, Cert.FK.ang, Cert.FK.one, Cert.FK.zero, Cert.FK.eps]
  rfl

set_option maxHeartbeats 1000000 in
theorem ck19_10 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay1112 (kernelRun0_A.sl.r_759 c arg1 harg1 arg2 harg2 arg8 arg9 arg10 arg15 x0 x1)) (ix3 0 s l) = (Cert.FK.tf19 (laneP x0 s l) (offT x1)).ty := by
  fk_unfold_run
  simp only [Cert.KernelIdeal.KLoads.ld19_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint17.ck17_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf19, Cert.FK.tfStep, Cert.FK.tfRoot, Cert.FK.rodJ, Cert.FK.rod, Cert.FK.ang, Cert.FK.one, Cert.FK.zero, Cert.FK.eps]
  rfl

set_option maxHeartbeats 1000000 in
theorem ck19_11 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay1113 (kernelRun0_A.sl.r_761 c arg1 harg1 arg2 harg2 arg11 arg12 arg13 arg16 x0 x1)) (ix3 0 s l) = (Cert.FK.tf19 (laneP x0 s l) (offT x1)).tz := by
  fk_unfold_run
  simp only [Cert.KernelIdeal.KLoads.ld19_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint17.ck17_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf19, Cert.FK.tfStep, Cert.FK.tfRoot, Cert.FK.rodJ, Cert.FK.rod, Cert.FK.ang, Cert.FK.one, Cert.FK.zero, Cert.FK.eps]
  rfl

set_option maxHeartbeats 1000000 in
theorem out19_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay1114 (kernelRun0_A.sl.r_1 c arg3 harg3 x2) (kernelRun0_A.sl.r_758 c arg1 harg1 arg2 harg2 arg5 arg6 arg7 arg14 x0 x1)) (ix4 0 0 s l) = (Cert.FK.tf19 (laneP x0 s l) (offT x1)).tx + x2 (ix3 0 s l) := by
  fk_unfold_run
  simp only [Cert.KernelIdeal.KLoads.ld19_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint17.ck17_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf19, Cert.FK.tfStep, Cert.FK.tfRoot, Cert.FK.rodJ, Cert.FK.rod, Cert.FK.ang, Cert.FK.one, Cert.FK.zero, Cert.FK.eps]
  rfl

set_option maxHeartbeats 1000000 in
theorem out19_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay1115 (kernelRun0_A.sl.r_2 c arg3 harg3 x2) (kernelRun0_A.sl.r_759 c arg1 harg1 arg2 harg2 arg8 arg9 arg10 arg15 x0 x1)) (ix4 0 0 s l) = (Cert.FK.tf19 (laneP x0 s l) (offT x1)).ty + x2 (ix3 1 s l) := by
  fk_unfold_run
  simp only [Cert.KernelIdeal.KLoads.ld19_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint17.ck17_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf19, Cert.FK.tfStep, Cert.FK.tfRoot, Cert.FK.rodJ, Cert.FK.rod, Cert.FK.ang, Cert.FK.one, Cert.FK.zero, Cert.FK.eps]
  rfl

set_option maxHeartbeats 1000000 in
theorem out19_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay1116 (kernelRun0_A.sl.r_3 c arg3 harg3 x2) (kernelRun0_A.sl.r_761 c arg1 harg1 arg2 harg2 arg11 arg12 arg13 arg16 x0 x1)) (ix4 0 0 s l) = (Cert.FK.tf19 (laneP x0 s l) (offT x1)).tz + x2 (ix3 2 s l) := by
  fk_unfold_run
  simp only [Cert.KernelIdeal.KLoads.ld19_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld19_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint17.ck17_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint17.ck17_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf19, Cert.FK.tfStep, Cert.FK.tfRoot, Cert.FK.rodJ, Cert.FK.rod, Cert.FK.ang, Cert.FK.one, Cert.FK.zero, Cert.FK.eps]
  rfl

end Cert.KernelIdeal.KJoint19

end
-- ==== Proof.KJoint20.lean ====
/-
  Joint 20 (its parent is joint 18) at one lane (s, l) of a tile: the twelve values it stores in its row of the scratch buffers are the entries of its global transform, and the three values it stores in the output are its position — the translation of its global transform plus the body translation. Its transform is the parent's, read back from the parent's row, composed with its own Rodrigues matrix and offset.
-/
import proofs.«127147_j62156766707902_2_alg».proof.Proof.KLanes
import proofs.«127147_j62156766707902_2_alg».proof.Proof.KLane
import proofs.«127147_j62156766707902_2_alg».proof.Proof.KLoads
import proofs.«127147_j62156766707902_2_alg».proof.Proof.KJoint18

noncomputable section

namespace Cert.KernelIdeal.KJoint20

open Idealize.ShloMosaic Idealize.ShloMosaic.TcCoe Idealize.SL.Sem Idealize.ShloMosaic.ValueIdx
open Cert.KernelIdeal Cert.KernelIdeal.Gen Cert.KernelIdeal.KLane Cert.KernelIdeal.KLanes

set_option maxHeartbeats 1000000 in
theorem ck20_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay1165 (kernelRun0_A.sl.r_794 c arg1 harg1 arg5 arg6 arg7 x0)) (ix3 0 s l) = (Cert.FK.tf20 (laneP x0 s l) (offT x1)).n00 := by
  fk_unfold_run
  simp only [Cert.KernelIdeal.KLoads.ld20_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint18.ck18_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf20, Cert.FK.tfStep, Cert.FK.tfRoot, Cert.FK.rodJ, Cert.FK.rod, Cert.FK.ang, Cert.FK.one, Cert.FK.zero, Cert.FK.eps]
  rfl

set_option maxHeartbeats 1000000 in
theorem ck20_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay1166 (kernelRun0_A.sl.r_795 c arg1 harg1 arg5 arg6 arg7 x0)) (ix3 0 s l) = (Cert.FK.tf20 (laneP x0 s l) (offT x1)).n01 := by
  fk_unfold_run
  simp only [Cert.KernelIdeal.KLoads.ld20_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint18.ck18_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf20, Cert.FK.tfStep, Cert.FK.tfRoot, Cert.FK.rodJ, Cert.FK.rod, Cert.FK.ang, Cert.FK.one, Cert.FK.zero, Cert.FK.eps]
  rfl

set_option maxHeartbeats 1000000 in
theorem ck20_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay1167 (kernelRun0_A.sl.r_796 c arg1 harg1 arg5 arg6 arg7 x0)) (ix3 0 s l) = (Cert.FK.tf20 (laneP x0 s l) (offT x1)).n02 := by
  fk_unfold_run
  simp only [Cert.KernelIdeal.KLoads.ld20_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint18.ck18_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf20, Cert.FK.tfStep, Cert.FK.tfRoot, Cert.FK.rodJ, Cert.FK.rod, Cert.FK.ang, Cert.FK.one, Cert.FK.zero, Cert.FK.eps]
  rfl

set_option maxHeartbeats 1000000 in
theorem ck20_3 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v4136 c arg1 harg1 arg8 arg9 arg10 x0) (ix3 0 s l) = (Cert.FK.tf20 (laneP x0 s l) (offT x1)).n10 := by
  fk_unfold_run
  simp only [Cert.KernelIdeal.KLoads.ld20_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint18.ck18_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf20, Cert.FK.tfStep, Cert.FK.tfRoot, Cert.FK.rodJ, Cert.FK.rod, Cert.FK.ang, Cert.FK.one, Cert.FK.zero, Cert.FK.eps]
  rfl

set_option maxHeartbeats 1000000 in
theorem ck20_4 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v4139 c arg1 harg1 arg8 arg9 arg10 x0) (ix3 0 s l) = (Cert.FK.tf20 (laneP x0 s l) (offT x1)).n11 := by
  fk_unfold_run
  simp only [Cert.KernelIdeal.KLoads.ld20_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint18.ck18_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf20, Cert.FK.tfStep, Cert.FK.tfRoot, Cert.FK.rodJ, Cert.FK.rod, Cert.FK.ang, Cert.FK.one, Cert.FK.zero, Cert.FK.eps]
  rfl

set_option maxHeartbeats 1000000 in
theorem ck20_5 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v4142 c arg1 harg1 arg8 arg9 arg10 x0) (ix3 0 s l) = (Cert.FK.tf20 (laneP x0 s l) (offT x1)).n12 := by
  fk_unfold_run
  simp only [Cert.KernelIdeal.KLoads.ld20_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint18.ck18_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf20, Cert.FK.tfStep, Cert.FK.tfRoot, Cert.FK.rodJ, Cert.FK.rod, Cert.FK.ang, Cert.FK.one, Cert.FK.zero, Cert.FK.eps]
  rfl

set_option maxHeartbeats 1000000 in
theorem ck20_6 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v4145 c arg1 harg1 arg11 arg12 arg13 x0) (ix3 0 s l) = (Cert.FK.tf20 (laneP x0 s l) (offT x1)).n20 := by
  fk_unfold_run
  simp only [Cert.KernelIdeal.KLoads.ld20_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint18.ck18_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf20, Cert.FK.tfStep, Cert.FK.tfRoot, Cert.FK.rodJ, Cert.FK.rod, Cert.FK.ang, Cert.FK.one, Cert.FK.zero, Cert.FK.eps]
  rfl

set_option maxHeartbeats 1000000 in
theorem ck20_7 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v4148 c arg1 harg1 arg11 arg12 arg13 x0) (ix3 0 s l) = (Cert.FK.tf20 (laneP x0 s l) (offT x1)).n21 := by
  fk_unfold_run
  simp only [Cert.KernelIdeal.KLoads.ld20_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint18.ck18_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf20, Cert.FK.tfStep, Cert.FK.tfRoot, Cert.FK.rodJ, Cert.FK.rod, Cert.FK.ang, Cert.FK.one, Cert.FK.zero, Cert.FK.eps]
  rfl

set_option maxHeartbeats 1000000 in
theorem ck20_8 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v4151 c arg1 harg1 arg11 arg12 arg13 x0) (ix3 0 s l) = (Cert.FK.tf20 (laneP x0 s l) (offT x1)).n22 := by
  fk_unfold_run
  simp only [Cert.KernelIdeal.KLoads.ld20_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint18.ck18_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf20, Cert.FK.tfStep, Cert.FK.tfRoot, Cert.FK.rodJ, Cert.FK.rod, Cert.FK.ang, Cert.FK.one, Cert.FK.zero, Cert.FK.eps]
  rfl

set_option maxHeartbeats 1000000 in
theorem ck20_9 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v4154 c arg1 harg1 arg2 harg2 arg5 arg6 arg7 arg14 x0 x1) (ix3 0 s l) = (Cert.FK.tf20 (laneP x0 s l) (offT x1)).tx := by
  fk_unfold_run
  simp only [Cert.KernelIdeal.KLoads.ld20_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint18.ck18_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf20, Cert.FK.tfStep, Cert.FK.tfRoot, Cert.FK.rodJ, Cert.FK.rod, Cert.FK.ang, Cert.FK.one, Cert.FK.zero, Cert.FK.eps]
  rfl

set_option maxHeartbeats 1000000 in
theorem ck20_10 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (kernelRun0_A.sl.v4157 c arg1 harg1 arg2 harg2 arg8 arg9 arg10 arg15 x0 x1) (ix3 0 s l) = (Cert.FK.tf20 (laneP x0 s l) (offT x1)).ty := by
  fk_unfold_run
  simp only [Cert.KernelIdeal.KLoads.ld20_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint18.ck18_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf20, Cert.FK.tfStep, Cert.FK.tfRoot, Cert.FK.rodJ, Cert.FK.rod, Cert.FK.ang, Cert.FK.one, Cert.FK.zero, Cert.FK.eps]
  rfl

set_option maxHeartbeats 1000000 in
theorem ck20_11 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay1176 (kernelRun0_A.sl.r_806 c arg1 harg1 arg2 harg2 arg11 arg12 arg13 arg16 x0 x1)) (ix3 0 s l) = (Cert.FK.tf20 (laneP x0 s l) (offT x1)).tz := by
  fk_unfold_run
  simp only [Cert.KernelIdeal.KLoads.ld20_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint18.ck18_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf20, Cert.FK.tfStep, Cert.FK.tfRoot, Cert.FK.rodJ, Cert.FK.rod, Cert.FK.ang, Cert.FK.one, Cert.FK.zero, Cert.FK.eps]
  rfl

set_option maxHeartbeats 1000000 in
theorem out20_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay1177 (kernelRun0_A.sl.r_1 c arg3 harg3 x2) (kernelRun0_A.sl.r_804 c arg1 harg1 arg2 harg2 arg5 arg6 arg7 arg14 x0 x1)) (ix4 0 0 s l) = (Cert.FK.tf20 (laneP x0 s l) (offT x1)).tx + x2 (ix3 0 s l) := by
  fk_unfold_run
  simp only [Cert.KernelIdeal.KLoads.ld20_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint18.ck18_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf20, Cert.FK.tfStep, Cert.FK.tfRoot, Cert.FK.rodJ, Cert.FK.rod, Cert.FK.ang, Cert.FK.one, Cert.FK.zero, Cert.FK.eps]
  rfl

set_option maxHeartbeats 1000000 in
theorem out20_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay1178 (kernelRun0_A.sl.r_2 c arg3 harg3 x2) (kernelRun0_A.sl.r_805 c arg1 harg1 arg2 harg2 arg8 arg9 arg10 arg15 x0 x1)) (ix4 0 0 s l) = (Cert.FK.tf20 (laneP x0 s l) (offT x1)).ty + x2 (ix3 1 s l) := by
  fk_unfold_run
  simp only [Cert.KernelIdeal.KLoads.ld20_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint18.ck18_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf20, Cert.FK.tfStep, Cert.FK.tfRoot, Cert.FK.rodJ, Cert.FK.rod, Cert.FK.ang, Cert.FK.one, Cert.FK.zero, Cert.FK.eps]
  rfl

set_option maxHeartbeats 1000000 in
theorem out20_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay1179 (kernelRun0_A.sl.r_3 c arg3 harg3 x2) (kernelRun0_A.sl.r_806 c arg1 harg1 arg2 harg2 arg11 arg12 arg13 arg16 x0 x1)) (ix4 0 0 s l) = (Cert.FK.tf20 (laneP x0 s l) (offT x1)).tz + x2 (ix3 2 s l) := by
  fk_unfold_run
  simp only [Cert.KernelIdeal.KLoads.ld20_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld20_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint18.ck18_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint18.ck18_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf20, Cert.FK.tfStep, Cert.FK.tfRoot, Cert.FK.rodJ, Cert.FK.rod, Cert.FK.ang, Cert.FK.one, Cert.FK.zero, Cert.FK.eps]
  rfl

end Cert.KernelIdeal.KJoint20

end
-- ==== Proof.KJoint21.lean ====
/-
  Joint 21 (its parent is joint 19) at one lane (s, l) of a tile: the twelve values it stores in its row of the scratch buffers are the entries of its global transform, and the three values it stores in the output are its position — the translation of its global transform plus the body translation. Its transform is the parent's, read back from the parent's row, composed with its own Rodrigues matrix and offset.
-/
import proofs.«127147_j62156766707902_2_alg».proof.Proof.KLanes
import proofs.«127147_j62156766707902_2_alg».proof.Proof.KLane
import proofs.«127147_j62156766707902_2_alg».proof.Proof.KLoads
import proofs.«127147_j62156766707902_2_alg».proof.Proof.KJoint19

noncomputable section

namespace Cert.KernelIdeal.KJoint21

open Idealize.ShloMosaic Idealize.ShloMosaic.TcCoe Idealize.SL.Sem Idealize.ShloMosaic.ValueIdx
open Cert.KernelIdeal Cert.KernelIdeal.Gen Cert.KernelIdeal.KLane Cert.KernelIdeal.KLanes

set_option maxHeartbeats 1000000 in
theorem ck21_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay1228 (kernelRun0_A.sl.r_822 c arg1 harg1 arg5 arg6 arg7 x0)) (ix3 0 s l) = (Cert.FK.tf21 (laneP x0 s l) (offT x1)).n00 := by
  fk_unfold_run
  simp only [Cert.KernelIdeal.KLoads.ld21_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint19.ck19_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf21, Cert.FK.tfStep, Cert.FK.tfRoot, Cert.FK.rodJ, Cert.FK.rod, Cert.FK.ang, Cert.FK.one, Cert.FK.zero, Cert.FK.eps]
  rfl

set_option maxHeartbeats 1000000 in
theorem ck21_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay1229 (kernelRun0_A.sl.r_823 c arg1 harg1 arg5 arg6 arg7 x0)) (ix3 0 s l) = (Cert.FK.tf21 (laneP x0 s l) (offT x1)).n01 := by
  fk_unfold_run
  simp only [Cert.KernelIdeal.KLoads.ld21_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint19.ck19_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf21, Cert.FK.tfStep, Cert.FK.tfRoot, Cert.FK.rodJ, Cert.FK.rod, Cert.FK.ang, Cert.FK.one, Cert.FK.zero, Cert.FK.eps]
  rfl

set_option maxHeartbeats 1000000 in
theorem ck21_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay1230 (kernelRun0_A.sl.r_824 c arg1 harg1 arg5 arg6 arg7 x0)) (ix3 0 s l) = (Cert.FK.tf21 (laneP x0 s l) (offT x1)).n02 := by
  fk_unfold_run
  simp only [Cert.KernelIdeal.KLoads.ld21_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint19.ck19_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf21, Cert.FK.tfStep, Cert.FK.tfRoot, Cert.FK.rodJ, Cert.FK.rod, Cert.FK.ang, Cert.FK.one, Cert.FK.zero, Cert.FK.eps]
  rfl

set_option maxHeartbeats 1000000 in
theorem ck21_3 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay1231 (kernelRun0_A.sl.r_825 c arg1 harg1 arg8 arg9 arg10 x0)) (ix3 0 s l) = (Cert.FK.tf21 (laneP x0 s l) (offT x1)).n10 := by
  fk_unfold_run
  simp only [Cert.KernelIdeal.KLoads.ld21_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint19.ck19_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf21, Cert.FK.tfStep, Cert.FK.tfRoot, Cert.FK.rodJ, Cert.FK.rod, Cert.FK.ang, Cert.FK.one, Cert.FK.zero, Cert.FK.eps]
  rfl

set_option maxHeartbeats 1000000 in
theorem ck21_4 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay1232 (kernelRun0_A.sl.r_826 c arg1 harg1 arg8 arg9 arg10 x0)) (ix3 0 s l) = (Cert.FK.tf21 (laneP x0 s l) (offT x1)).n11 := by
  fk_unfold_run
  simp only [Cert.KernelIdeal.KLoads.ld21_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint19.ck19_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf21, Cert.FK.tfStep, Cert.FK.tfRoot, Cert.FK.rodJ, Cert.FK.rod, Cert.FK.ang, Cert.FK.one, Cert.FK.zero, Cert.FK.eps]
  rfl

set_option maxHeartbeats 1000000 in
theorem ck21_5 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay1233 (kernelRun0_A.sl.r_827 c arg1 harg1 arg8 arg9 arg10 x0)) (ix3 0 s l) = (Cert.FK.tf21 (laneP x0 s l) (offT x1)).n12 := by
  fk_unfold_run
  simp only [Cert.KernelIdeal.KLoads.ld21_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint19.ck19_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf21, Cert.FK.tfStep, Cert.FK.tfRoot, Cert.FK.rodJ, Cert.FK.rod, Cert.FK.ang, Cert.FK.one, Cert.FK.zero, Cert.FK.eps]
  rfl

set_option maxHeartbeats 1000000 in
theorem ck21_6 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay1234 (kernelRun0_A.sl.r_828 c arg1 harg1 arg11 arg12 arg13 x0)) (ix3 0 s l) = (Cert.FK.tf21 (laneP x0 s l) (offT x1)).n20 := by
  fk_unfold_run
  simp only [Cert.KernelIdeal.KLoads.ld21_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint19.ck19_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf21, Cert.FK.tfStep, Cert.FK.tfRoot, Cert.FK.rodJ, Cert.FK.rod, Cert.FK.ang, Cert.FK.one, Cert.FK.zero, Cert.FK.eps]
  rfl

set_option maxHeartbeats 1000000 in
theorem ck21_7 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay1235 (kernelRun0_A.sl.r_829 c arg1 harg1 arg11 arg12 arg13 x0)) (ix3 0 s l) = (Cert.FK.tf21 (laneP x0 s l) (offT x1)).n21 := by
  fk_unfold_run
  simp only [Cert.KernelIdeal.KLoads.ld21_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint19.ck19_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf21, Cert.FK.tfStep, Cert.FK.tfRoot, Cert.FK.rodJ, Cert.FK.rod, Cert.FK.ang, Cert.FK.one, Cert.FK.zero, Cert.FK.eps]
  rfl

set_option maxHeartbeats 1000000 in
theorem ck21_8 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay1236 (kernelRun0_A.sl.r_830 c arg1 harg1 arg11 arg12 arg13 x0)) (ix3 0 s l) = (Cert.FK.tf21 (laneP x0 s l) (offT x1)).n22 := by
  fk_unfold_run
  simp only [Cert.KernelIdeal.KLoads.ld21_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint19.ck19_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf21, Cert.FK.tfStep, Cert.FK.tfRoot, Cert.FK.rodJ, Cert.FK.rod, Cert.FK.ang, Cert.FK.one, Cert.FK.zero, Cert.FK.eps]
  rfl

set_option maxHeartbeats 1000000 in
theorem ck21_9 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay1237 (kernelRun0_A.sl.r_831 c arg1 harg1 arg2 harg2 arg5 arg6 arg7 arg14 x0 x1)) (ix3 0 s l) = (Cert.FK.tf21 (laneP x0 s l) (offT x1)).tx := by
  fk_unfold_run
  simp only [Cert.KernelIdeal.KLoads.ld21_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint19.ck19_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf21, Cert.FK.tfStep, Cert.FK.tfRoot, Cert.FK.rodJ, Cert.FK.rod, Cert.FK.ang, Cert.FK.one, Cert.FK.zero, Cert.FK.eps]
  rfl

set_option maxHeartbeats 1000000 in
theorem ck21_10 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay1238 (kernelRun0_A.sl.r_833 c arg1 harg1 arg2 harg2 arg8 arg9 arg10 arg15 x0 x1)) (ix3 0 s l) = (Cert.FK.tf21 (laneP x0 s l) (offT x1)).ty := by
  fk_unfold_run
  simp only [Cert.KernelIdeal.KLoads.ld21_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint19.ck19_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf21, Cert.FK.tfStep, Cert.FK.tfRoot, Cert.FK.rodJ, Cert.FK.rod, Cert.FK.ang, Cert.FK.one, Cert.FK.zero, Cert.FK.eps]
  rfl

set_option maxHeartbeats 1000000 in
theorem ck21_11 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (s : Fin 64) (l : Fin 128) :
    (k0_pay1239 (kernelRun0_A.sl.r_834 c arg1 harg1 arg2 harg2 arg11 arg12 arg13 arg16 x0 x1)) (ix3 0 s l) = (Cert.FK.tf21 (laneP x0 s l) (offT x1)).tz := by
  fk_unfold_run
  simp only [Cert.KernelIdeal.KLoads.ld21_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint19.ck19_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf21, Cert.FK.tfStep, Cert.FK.tfRoot, Cert.FK.rodJ, Cert.FK.rod, Cert.FK.ang, Cert.FK.one, Cert.FK.zero, Cert.FK.eps]
  rfl

set_option maxHeartbeats 1000000 in
theorem out21_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay1240 (kernelRun0_A.sl.r_1 c arg3 harg3 x2) (kernelRun0_A.sl.r_831 c arg1 harg1 arg2 harg2 arg5 arg6 arg7 arg14 x0 x1)) (ix4 0 0 s l) = (Cert.FK.tf21 (laneP x0 s l) (offT x1)).tx + x2 (ix3 0 s l) := by
  fk_unfold_run
  simp only [Cert.KernelIdeal.KLoads.ld21_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint19.ck19_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf21, Cert.FK.tfStep, Cert.FK.tfRoot, Cert.FK.rodJ, Cert.FK.rod, Cert.FK.ang, Cert.FK.one, Cert.FK.zero, Cert.FK.eps]
  rfl

set_option maxHeartbeats 1000000 in
theorem out21_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay1241 (kernelRun0_A.sl.r_2 c arg3 harg3 x2) (kernelRun0_A.sl.r_833 c arg1 harg1 arg2 harg2 arg8 arg9 arg10 arg15 x0 x1)) (ix4 0 0 s l) = (Cert.FK.tf21 (laneP x0 s l) (offT x1)).ty + x2 (ix3 1 s l) := by
  fk_unfold_run
  simp only [Cert.KernelIdeal.KLoads.ld21_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint19.ck19_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf21, Cert.FK.tfStep, Cert.FK.tfRoot, Cert.FK.rodJ, Cert.FK.rod, Cert.FK.ang, Cert.FK.one, Cert.FK.zero, Cert.FK.eps]
  rfl

set_option maxHeartbeats 1000000 in
theorem out21_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (kernelRun0_A.sl.v4397 c arg1 harg1 arg2 harg2 arg3 harg3 arg11 arg12 arg13 arg16 x0 x1 x2) (ix4 0 0 s l) = (Cert.FK.tf21 (laneP x0 s l) (offT x1)).tz + x2 (ix3 2 s l) := by
  fk_unfold_run
  simp only [Cert.KernelIdeal.KLoads.ld21_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld21_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint19.ck19_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint19.ck19_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf21, Cert.FK.tfStep, Cert.FK.tfRoot, Cert.FK.rodJ, Cert.FK.rod, Cert.FK.ang, Cert.FK.one, Cert.FK.zero, Cert.FK.eps]
  rfl

end Cert.KernelIdeal.KJoint21

end
-- ==== Proof.KJoint22.lean ====
/-
  Joint 22 (its parent is joint 20) at one lane (s, l) of a tile: the three values it stores in the output are its position — the translation of its global transform plus the body translation. Its transform is the parent's, read back from the parent's row, composed with its own Rodrigues matrix and offset.
-/
import proofs.«127147_j62156766707902_2_alg».proof.Proof.KLanes
import proofs.«127147_j62156766707902_2_alg».proof.Proof.KLane
import proofs.«127147_j62156766707902_2_alg».proof.Proof.KLoads
import proofs.«127147_j62156766707902_2_alg».proof.Proof.KJoint20

noncomputable section

namespace Cert.KernelIdeal.KJoint22

open Idealize.ShloMosaic Idealize.ShloMosaic.TcCoe Idealize.SL.Sem Idealize.ShloMosaic.ValueIdx
open Cert.KernelIdeal Cert.KernelIdeal.Gen Cert.KernelIdeal.KLane Cert.KernelIdeal.KLanes

set_option maxHeartbeats 1000000 in
theorem out22_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay1256 (kernelRun0_A.sl.r_1 c arg3 harg3 x2) (kernelRun0_A.sl.v4399 c arg2 harg2 x1) (kernelRun0_A.sl.v4401 c arg2 harg2 x1) (kernelRun0_A.sl.v4403 c arg2 harg2 x1) (kernelRun0_A.sl.v4405 c arg1 harg1 arg5 arg6 arg7 x0) (kernelRun0_A.sl.v4407 c arg1 harg1 arg5 arg6 arg7 x0) (kernelRun0_A.sl.v4409 c arg1 harg1 arg5 arg6 arg7 x0) (kernelRun0_A.sl.v4422 c arg1 harg1 arg2 harg2 arg5 arg6 arg7 arg14 x0 x1)) (ix4 0 0 s l) = (Cert.FK.tf22 (laneP x0 s l) (offT x1)).tx + x2 (ix3 0 s l) := by
  fk_unfold_run
  simp only [Cert.KernelIdeal.KLoads.ld22_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld22_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld22_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld22_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld22_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld22_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld22_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld22_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld22_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld22_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld22_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld22_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint20.ck20_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint20.ck20_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint20.ck20_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint20.ck20_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint20.ck20_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint20.ck20_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint20.ck20_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint20.ck20_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint20.ck20_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint20.ck20_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint20.ck20_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint20.ck20_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf22, Cert.FK.tfStep, Cert.FK.tfRoot, Cert.FK.rodJ, Cert.FK.rod, Cert.FK.ang, Cert.FK.one, Cert.FK.zero, Cert.FK.eps]
  rfl

set_option maxHeartbeats 1000000 in
theorem out22_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay1257 (kernelRun0_A.sl.r_2 c arg3 harg3 x2) (kernelRun0_A.sl.v4399 c arg2 harg2 x1) (kernelRun0_A.sl.v4401 c arg2 harg2 x1) (kernelRun0_A.sl.v4403 c arg2 harg2 x1) (kernelRun0_A.sl.v4411 c arg1 harg1 arg8 arg9 arg10 x0) (kernelRun0_A.sl.v4413 c arg1 harg1 arg8 arg9 arg10 x0) (kernelRun0_A.sl.v4415 c arg1 harg1 arg8 arg9 arg10 x0) (kernelRun0_A.sl.v4424 c arg1 harg1 arg2 harg2 arg8 arg9 arg10 arg15 x0 x1)) (ix4 0 0 s l) = (Cert.FK.tf22 (laneP x0 s l) (offT x1)).ty + x2 (ix3 1 s l) := by
  fk_unfold_run
  simp only [Cert.KernelIdeal.KLoads.ld22_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld22_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld22_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld22_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld22_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld22_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld22_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld22_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld22_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld22_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld22_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld22_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint20.ck20_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint20.ck20_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint20.ck20_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint20.ck20_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint20.ck20_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint20.ck20_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint20.ck20_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint20.ck20_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint20.ck20_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint20.ck20_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint20.ck20_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint20.ck20_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf22, Cert.FK.tfStep, Cert.FK.tfRoot, Cert.FK.rodJ, Cert.FK.rod, Cert.FK.ang, Cert.FK.one, Cert.FK.zero, Cert.FK.eps]
  rfl

set_option maxHeartbeats 1000000 in
theorem out22_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (kernelRun0_A.sl.v4466 c arg1 harg1 arg2 harg2 arg3 harg3 arg11 arg12 arg13 arg16 x0 x1 x2) (ix4 0 0 s l) = (Cert.FK.tf22 (laneP x0 s l) (offT x1)).tz + x2 (ix3 2 s l) := by
  fk_unfold_run
  simp only [Cert.KernelIdeal.KLoads.ld22_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld22_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld22_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld22_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld22_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld22_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld22_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld22_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld22_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld22_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld22_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld22_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint20.ck20_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint20.ck20_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint20.ck20_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint20.ck20_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint20.ck20_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint20.ck20_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint20.ck20_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint20.ck20_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint20.ck20_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint20.ck20_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint20.ck20_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint20.ck20_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf22, Cert.FK.tfStep, Cert.FK.tfRoot, Cert.FK.rodJ, Cert.FK.rod, Cert.FK.ang, Cert.FK.one, Cert.FK.zero, Cert.FK.eps]
  rfl

end Cert.KernelIdeal.KJoint22

end
-- ==== Proof.KJoint23.lean ====
/-
  Joint 23 (its parent is joint 21) at one lane (s, l) of a tile: the three values it stores in the output are its position — the translation of its global transform plus the body translation. Its transform is the parent's, read back from the parent's row, composed with its own Rodrigues matrix and offset.
-/
import proofs.«127147_j62156766707902_2_alg».proof.Proof.KLanes
import proofs.«127147_j62156766707902_2_alg».proof.Proof.KLane
import proofs.«127147_j62156766707902_2_alg».proof.Proof.KLoads
import proofs.«127147_j62156766707902_2_alg».proof.Proof.KJoint21

noncomputable section

namespace Cert.KernelIdeal.KJoint23

open Idealize.ShloMosaic Idealize.ShloMosaic.TcCoe Idealize.SL.Sem Idealize.ShloMosaic.ValueIdx
open Cert.KernelIdeal Cert.KernelIdeal.Gen Cert.KernelIdeal.KLane Cert.KernelIdeal.KLanes

set_option maxHeartbeats 1000000 in
theorem out23_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay1272 (kernelRun0_A.sl.r_1 c arg3 harg3 x2) (kernelRun0_A.sl.v4468 c arg2 harg2 x1) (kernelRun0_A.sl.v4470 c arg2 harg2 x1) (kernelRun0_A.sl.v4472 c arg2 harg2 x1) (kernelRun0_A.sl.v4474 c arg1 harg1 arg5 arg6 arg7 x0) (kernelRun0_A.sl.v4476 c arg1 harg1 arg5 arg6 arg7 x0) (kernelRun0_A.sl.v4478 c arg1 harg1 arg5 arg6 arg7 x0) (kernelRun0_A.sl.v4491 c arg1 harg1 arg2 harg2 arg5 arg6 arg7 arg14 x0 x1)) (ix4 0 0 s l) = (Cert.FK.tf23 (laneP x0 s l) (offT x1)).tx + x2 (ix3 0 s l) := by
  fk_unfold_run
  simp only [Cert.KernelIdeal.KLoads.ld23_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld23_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld23_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld23_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld23_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld23_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld23_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld23_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld23_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld23_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld23_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld23_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint21.ck21_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint21.ck21_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint21.ck21_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint21.ck21_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint21.ck21_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint21.ck21_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint21.ck21_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint21.ck21_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint21.ck21_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint21.ck21_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint21.ck21_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint21.ck21_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf23, Cert.FK.tfStep, Cert.FK.tfRoot, Cert.FK.rodJ, Cert.FK.rod, Cert.FK.ang, Cert.FK.one, Cert.FK.zero, Cert.FK.eps]
  rfl

set_option maxHeartbeats 1000000 in
theorem out23_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay1273 (kernelRun0_A.sl.r_2 c arg3 harg3 x2) (kernelRun0_A.sl.v4468 c arg2 harg2 x1) (kernelRun0_A.sl.v4470 c arg2 harg2 x1) (kernelRun0_A.sl.v4472 c arg2 harg2 x1) (kernelRun0_A.sl.v4480 c arg1 harg1 arg8 arg9 arg10 x0) (kernelRun0_A.sl.v4482 c arg1 harg1 arg8 arg9 arg10 x0) (kernelRun0_A.sl.v4484 c arg1 harg1 arg8 arg9 arg10 x0) (kernelRun0_A.sl.v4493 c arg1 harg1 arg2 harg2 arg8 arg9 arg10 arg15 x0 x1)) (ix4 0 0 s l) = (Cert.FK.tf23 (laneP x0 s l) (offT x1)).ty + x2 (ix3 1 s l) := by
  fk_unfold_run
  simp only [Cert.KernelIdeal.KLoads.ld23_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld23_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld23_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld23_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld23_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld23_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld23_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld23_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld23_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld23_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld23_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld23_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint21.ck21_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint21.ck21_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint21.ck21_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint21.ck21_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint21.ck21_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint21.ck21_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint21.ck21_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint21.ck21_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint21.ck21_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint21.ck21_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint21.ck21_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint21.ck21_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf23, Cert.FK.tfStep, Cert.FK.tfRoot, Cert.FK.rodJ, Cert.FK.rod, Cert.FK.ang, Cert.FK.one, Cert.FK.zero, Cert.FK.eps]
  rfl

set_option maxHeartbeats 1000000 in
theorem out23_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) (s : Fin 64) (l : Fin 128) :
    (k0_pay1 (kernelRun0_A.sl.r_837 c arg1 harg1 arg2 harg2 arg3 harg3 arg11 arg12 arg13 arg16 x0 x1 x2)) (ix4 0 0 s l) = (Cert.FK.tf23 (laneP x0 s l) (offT x1)).tz + x2 (ix3 2 s l) := by
  fk_unfold_run
  simp only [Cert.KernelIdeal.KLoads.ld23_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld23_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld23_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld23_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld23_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld23_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld23_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld23_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld23_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld23_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld23_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1, Cert.KernelIdeal.KLoads.ld23_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1]
  fk_push [Cert.KernelIdeal.KJoint21.ck21_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint21.ck21_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint21.ck21_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint21.ck21_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint21.ck21_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint21.ck21_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint21.ck21_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint21.ck21_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint21.ck21_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint21.ck21_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint21.ck21_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l, Cert.KernelIdeal.KJoint21.ck21_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 s l]
  simp only [Cert.FK.tf23, Cert.FK.tfStep, Cert.FK.tfRoot, Cert.FK.rodJ, Cert.FK.rod, Cert.FK.ang, Cert.FK.one, Cert.FK.zero, Cert.FK.eps]
  rfl

end Cert.KernelIdeal.KJoint23

end
-- ==== Proof.KBody.lean ====
/-
  The block the body leaves in the output's staging buffer, as ONE function of the block index.

  The body makes 72 stores into the [24,3,64,128] output block, one per joint j and component c: a [1,1,64,128] tile
  at offset (j, c, 0, 0) whose entry at lane (s, l) is the translation component c of joint j's transform, computed
  from lane (s, l) of the poses block and the offsets table, plus lane (s, l) of component c of the body translations.
  So every store's payload is the tile of one function `G` of the block index — the tiled form's position `outK` at
  that lane's pose entries, the offsets and that lane's body translation —; the 72 tiles cover the block; hence the
  block read back is `G` everywhere (`out_apply`).
-/
import proofs.«127147_j62156766707902_2_alg».proof.Proof.Gen.KernelIdeal.Frame.RunA
import proofs.«127147_j62156766707902_2_alg».proof.Proof.KernelIdealFrameP
import proofs.«127147_j62156766707902_2_alg».proof.Proof.KLane
import Idealize.ShloMosaic.Lib.Pipeline.Value
import proofs.«127147_j62156766707902_2_alg».proof.Proof.KJoint0
import proofs.«127147_j62156766707902_2_alg».proof.Proof.KJoint1
import proofs.«127147_j62156766707902_2_alg».proof.Proof.KJoint2
import proofs.«127147_j62156766707902_2_alg».proof.Proof.KJoint3
import proofs.«127147_j62156766707902_2_alg».proof.Proof.KJoint4
import proofs.«127147_j62156766707902_2_alg».proof.Proof.KJoint5
import proofs.«127147_j62156766707902_2_alg».proof.Proof.KJoint6
import proofs.«127147_j62156766707902_2_alg».proof.Proof.KJoint7
import proofs.«127147_j62156766707902_2_alg».proof.Proof.KJoint8
import proofs.«127147_j62156766707902_2_alg».proof.Proof.KJoint9
import proofs.«127147_j62156766707902_2_alg».proof.Proof.KJoint10
import proofs.«127147_j62156766707902_2_alg».proof.Proof.KJoint11
import proofs.«127147_j62156766707902_2_alg».proof.Proof.KJoint12
import proofs.«127147_j62156766707902_2_alg».proof.Proof.KJoint13
import proofs.«127147_j62156766707902_2_alg».proof.Proof.KJoint14
import proofs.«127147_j62156766707902_2_alg».proof.Proof.KJoint15
import proofs.«127147_j62156766707902_2_alg».proof.Proof.KJoint16
import proofs.«127147_j62156766707902_2_alg».proof.Proof.KJoint17
import proofs.«127147_j62156766707902_2_alg».proof.Proof.KJoint18
import proofs.«127147_j62156766707902_2_alg».proof.Proof.KJoint19
import proofs.«127147_j62156766707902_2_alg».proof.Proof.KJoint20
import proofs.«127147_j62156766707902_2_alg».proof.Proof.KJoint21
import proofs.«127147_j62156766707902_2_alg».proof.Proof.KJoint22
import proofs.«127147_j62156766707902_2_alg».proof.Proof.KJoint23

noncomputable section

namespace Cert.KernelIdeal.KBody
open Idealize.ShloMosaic Idealize.ShloMosaic.TcCoe Idealize.SL.Sem Idealize.ShloMosaic.ValueIdx
open Cert.KernelIdeal Cert.KernelIdeal.Gen Cert.KernelIdeal.KLane

/-- The positions of one block as ONE function of the block index (joint, component, sublane row, lane): the tiled form's
    position at that lane's pose entries, the offsets, and that lane's body translation. -/
def G (x0 : Vec Ideal S24x3x64x128 .f32) (x1 : Vec Ideal S24x3 .f32) (x2 : Vec Ideal S3x64x128 .f32) :
    S24x3x64x128.Idx → EReal :=
  fun y => Cert.FK.outK (laneP x0 (y 2) (y 3)) (offT x1) (laneT x2 (y 2) (y 3)) (y 0) (y 1)

theorem G_apply (x0 : Vec Ideal S24x3x64x128 .f32) (x1 : Vec Ideal S24x3 .f32) (x2 : Vec Ideal S3x64x128 .f32)
    (j : Fin 24) (k : Fin 3) (s : Fin 64) (l : Fin 128) :
    G x0 x1 x2 (ix4 j k s l) = Cert.FK.outK (laneP x0 s l) (offT x1) (laneT x2 s l) j k := rfl

/-- A store's payload is the block of `G` its rectangle names. -/
def PieceOK (x0 : Vec Ideal S24x3x64x128 .f32) (x1 : Vec Ideal S24x3 .f32) (x2 : Vec Ideal S3x64x128 .f32)
    (p : View.Piece (Elt Ideal) S24x3x64x128 .f32) : Prop :=
  ∀ x : p.1.shape.Idx, p.2 x = G x0 x1 x2 (p.1.emb x)

/-- The store of joint `j`, component `k`: a [1,1,64,128] rectangle at offset (j, k, 0, 0); its local index (0, 0, s, l)
    sits at block index (j, k, s, l). -/
theorem pieceOK_of (x0 : Vec Ideal S24x3x64x128 .f32) (x1 : Vec Ideal S24x3 .f32) (x2 : Vec Ideal S3x64x128 .f32)
    (j : Fin 24) (k : Fin 3)
    (inb : ∀ a, (![j.val, k.val, 0, 0] : Fin 4 → Nat) a + (![1, 1, 64, 128] : Fin 4 → Nat) a ≤ S24x3x64x128.size a)
    (pay : (⟨4, ![1, 1, 64, 128]⟩ : Shape).Idx → EReal)
    (h : ∀ (s : Fin 64) (l : Fin 128), pay (ix4 0 0 s l) = Cert.FK.outK (laneP x0 s l) (offT x1) (laneT x2 s l) j k) :
    PieceOK x0 x1 x2 ⟨Rect.unit ![j.val, k.val, 0, 0] ![1, 1, 64, 128] inb, pay⟩ := by
  intro x
  obtain ⟨a, b, s, l, rfl⟩ : ∃ (a b : Fin 1) (s : Fin 64) (l : Fin 128), x = ix4 a b s l :=
    ⟨x 0, x 1, x 2, x 3, eq_ix4 x⟩
  obtain rfl : a = 0 := Subsingleton.elim _ _
  obtain rfl : b = 0 := Subsingleton.elim _ _
  have e : (Rect.unit (s := S24x3x64x128) ![j.val, k.val, 0, 0] ![1, 1, 64, 128] inb).emb (ix4 0 0 s l) = ix4 j k s l := by
    funext d
    apply Fin.ext
    match d with
    | ⟨0, _⟩ => show j.val + 1 * 0 = j.val; omega
    | ⟨1, _⟩ => show k.val + 1 * 0 = k.val; omega
    | ⟨2, _⟩ => show 0 + 1 * s.val = s.val; omega
    | ⟨3, _⟩ => show 0 + 1 * l.val = l.val; omega
  show pay (ix4 0 0 s l) = G x0 x1 x2 _
  rw [e, G_apply]
  exact h s l

/-! The 24 transforms and the three translation components at literal indices. -/
theorem tfAll_0 (pose off : Fin 24 → Fin 3 → EReal) : Cert.FK.tfAll pose off 0 = Cert.FK.tf0 pose off := rfl
theorem tfAll_1 (pose off : Fin 24 → Fin 3 → EReal) : Cert.FK.tfAll pose off 1 = Cert.FK.tf1 pose off := rfl
theorem tfAll_2 (pose off : Fin 24 → Fin 3 → EReal) : Cert.FK.tfAll pose off 2 = Cert.FK.tf2 pose off := rfl
theorem tfAll_3 (pose off : Fin 24 → Fin 3 → EReal) : Cert.FK.tfAll pose off 3 = Cert.FK.tf3 pose off := rfl
theorem tfAll_4 (pose off : Fin 24 → Fin 3 → EReal) : Cert.FK.tfAll pose off 4 = Cert.FK.tf4 pose off := rfl
theorem tfAll_5 (pose off : Fin 24 → Fin 3 → EReal) : Cert.FK.tfAll pose off 5 = Cert.FK.tf5 pose off := rfl
theorem tfAll_6 (pose off : Fin 24 → Fin 3 → EReal) : Cert.FK.tfAll pose off 6 = Cert.FK.tf6 pose off := rfl
theorem tfAll_7 (pose off : Fin 24 → Fin 3 → EReal) : Cert.FK.tfAll pose off 7 = Cert.FK.tf7 pose off := rfl
theorem tfAll_8 (pose off : Fin 24 → Fin 3 → EReal) : Cert.FK.tfAll pose off 8 = Cert.FK.tf8 pose off := rfl
theorem tfAll_9 (pose off : Fin 24 → Fin 3 → EReal) : Cert.FK.tfAll pose off 9 = Cert.FK.tf9 pose off := rfl
theorem tfAll_10 (pose off : Fin 24 → Fin 3 → EReal) : Cert.FK.tfAll pose off 10 = Cert.FK.tf10 pose off := rfl
theorem tfAll_11 (pose off : Fin 24 → Fin 3 → EReal) : Cert.FK.tfAll pose off 11 = Cert.FK.tf11 pose off := rfl
theorem tfAll_12 (pose off : Fin 24 → Fin 3 → EReal) : Cert.FK.tfAll pose off 12 = Cert.FK.tf12 pose off := rfl
theorem tfAll_13 (pose off : Fin 24 → Fin 3 → EReal) : Cert.FK.tfAll pose off 13 = Cert.FK.tf13 pose off := rfl
theorem tfAll_14 (pose off : Fin 24 → Fin 3 → EReal) : Cert.FK.tfAll pose off 14 = Cert.FK.tf14 pose off := rfl
theorem tfAll_15 (pose off : Fin 24 → Fin 3 → EReal) : Cert.FK.tfAll pose off 15 = Cert.FK.tf15 pose off := rfl
theorem tfAll_16 (pose off : Fin 24 → Fin 3 → EReal) : Cert.FK.tfAll pose off 16 = Cert.FK.tf16 pose off := rfl
theorem tfAll_17 (pose off : Fin 24 → Fin 3 → EReal) : Cert.FK.tfAll pose off 17 = Cert.FK.tf17 pose off := rfl
theorem tfAll_18 (pose off : Fin 24 → Fin 3 → EReal) : Cert.FK.tfAll pose off 18 = Cert.FK.tf18 pose off := rfl
theorem tfAll_19 (pose off : Fin 24 → Fin 3 → EReal) : Cert.FK.tfAll pose off 19 = Cert.FK.tf19 pose off := rfl
theorem tfAll_20 (pose off : Fin 24 → Fin 3 → EReal) : Cert.FK.tfAll pose off 20 = Cert.FK.tf20 pose off := rfl
theorem tfAll_21 (pose off : Fin 24 → Fin 3 → EReal) : Cert.FK.tfAll pose off 21 = Cert.FK.tf21 pose off := rfl
theorem tfAll_22 (pose off : Fin 24 → Fin 3 → EReal) : Cert.FK.tfAll pose off 22 = Cert.FK.tf22 pose off := rfl
theorem tfAll_23 (pose off : Fin 24 → Fin 3 → EReal) : Cert.FK.tfAll pose off 23 = Cert.FK.tf23 pose off := rfl
theorem t_0 (T : Cert.FK.Tf) : T.t 0 = T.tx := rfl
theorem t_1 (T : Cert.FK.Tf) : T.t 1 = T.ty := rfl
theorem t_2 (T : Cert.FK.Tf) : T.t 2 = T.tz := rfl

/-! One lemma per store: its payload is the block of `G` at joint j, component c. -/
theorem piece_23_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![23, 2, 0, 0] ![1, 1, 64, 128] inb_S24x3x64x128_S1x1x64x128_23_2_0_0,
      (k0_pay1 (kernelRun0_A.sl.r_837 c arg1 harg1 arg2 harg2 arg3 harg3 arg11 arg12 arg13 arg16 x0 x1 x2))⟩ :=
  pieceOK_of x0 x1 x2 23 2 _ _ fun s l => (Cert.KernelIdeal.KJoint23.out23_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_23, t_2])

theorem piece_23_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![23, 1, 0, 0] ![1, 1, 64, 128] inb_S24x3x64x128_S1x1x64x128_23_1_0_0,
      (k0_pay1273 (kernelRun0_A.sl.r_2 c arg3 harg3 x2) (kernelRun0_A.sl.v4468 c arg2 harg2 x1) (kernelRun0_A.sl.v4470 c arg2 harg2 x1) (kernelRun0_A.sl.v4472 c arg2 harg2 x1) (kernelRun0_A.sl.v4480 c arg1 harg1 arg8 arg9 arg10 x0) (kernelRun0_A.sl.v4482 c arg1 harg1 arg8 arg9 arg10 x0) (kernelRun0_A.sl.v4484 c arg1 harg1 arg8 arg9 arg10 x0) (kernelRun0_A.sl.v4493 c arg1 harg1 arg2 harg2 arg8 arg9 arg10 arg15 x0 x1))⟩ :=
  pieceOK_of x0 x1 x2 23 1 _ _ fun s l => (Cert.KernelIdeal.KJoint23.out23_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_23, t_1])

theorem piece_23_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![23, 0, 0, 0] ![1, 1, 64, 128] inb_S24x3x64x128_S1x1x64x128_23_0_0_0,
      (k0_pay1272 (kernelRun0_A.sl.r_1 c arg3 harg3 x2) (kernelRun0_A.sl.v4468 c arg2 harg2 x1) (kernelRun0_A.sl.v4470 c arg2 harg2 x1) (kernelRun0_A.sl.v4472 c arg2 harg2 x1) (kernelRun0_A.sl.v4474 c arg1 harg1 arg5 arg6 arg7 x0) (kernelRun0_A.sl.v4476 c arg1 harg1 arg5 arg6 arg7 x0) (kernelRun0_A.sl.v4478 c arg1 harg1 arg5 arg6 arg7 x0) (kernelRun0_A.sl.v4491 c arg1 harg1 arg2 harg2 arg5 arg6 arg7 arg14 x0 x1))⟩ :=
  pieceOK_of x0 x1 x2 23 0 _ _ fun s l => (Cert.KernelIdeal.KJoint23.out23_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_23, t_0])

theorem piece_22_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![22, 2, 0, 0] ![1, 1, 64, 128] inb_S24x3x64x128_S1x1x64x128_22_2_0_0,
      (kernelRun0_A.sl.v4466 c arg1 harg1 arg2 harg2 arg3 harg3 arg11 arg12 arg13 arg16 x0 x1 x2)⟩ :=
  pieceOK_of x0 x1 x2 22 2 _ _ fun s l => (Cert.KernelIdeal.KJoint22.out22_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_22, t_2])

theorem piece_22_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![22, 1, 0, 0] ![1, 1, 64, 128] inb_S24x3x64x128_S1x1x64x128_22_1_0_0,
      (k0_pay1257 (kernelRun0_A.sl.r_2 c arg3 harg3 x2) (kernelRun0_A.sl.v4399 c arg2 harg2 x1) (kernelRun0_A.sl.v4401 c arg2 harg2 x1) (kernelRun0_A.sl.v4403 c arg2 harg2 x1) (kernelRun0_A.sl.v4411 c arg1 harg1 arg8 arg9 arg10 x0) (kernelRun0_A.sl.v4413 c arg1 harg1 arg8 arg9 arg10 x0) (kernelRun0_A.sl.v4415 c arg1 harg1 arg8 arg9 arg10 x0) (kernelRun0_A.sl.v4424 c arg1 harg1 arg2 harg2 arg8 arg9 arg10 arg15 x0 x1))⟩ :=
  pieceOK_of x0 x1 x2 22 1 _ _ fun s l => (Cert.KernelIdeal.KJoint22.out22_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_22, t_1])

theorem piece_22_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![22, 0, 0, 0] ![1, 1, 64, 128] inb_S24x3x64x128_S1x1x64x128_22_0_0_0,
      (k0_pay1256 (kernelRun0_A.sl.r_1 c arg3 harg3 x2) (kernelRun0_A.sl.v4399 c arg2 harg2 x1) (kernelRun0_A.sl.v4401 c arg2 harg2 x1) (kernelRun0_A.sl.v4403 c arg2 harg2 x1) (kernelRun0_A.sl.v4405 c arg1 harg1 arg5 arg6 arg7 x0) (kernelRun0_A.sl.v4407 c arg1 harg1 arg5 arg6 arg7 x0) (kernelRun0_A.sl.v4409 c arg1 harg1 arg5 arg6 arg7 x0) (kernelRun0_A.sl.v4422 c arg1 harg1 arg2 harg2 arg5 arg6 arg7 arg14 x0 x1))⟩ :=
  pieceOK_of x0 x1 x2 22 0 _ _ fun s l => (Cert.KernelIdeal.KJoint22.out22_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_22, t_0])

theorem piece_21_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![21, 2, 0, 0] ![1, 1, 64, 128] inb_S24x3x64x128_S1x1x64x128_21_2_0_0,
      (kernelRun0_A.sl.v4397 c arg1 harg1 arg2 harg2 arg3 harg3 arg11 arg12 arg13 arg16 x0 x1 x2)⟩ :=
  pieceOK_of x0 x1 x2 21 2 _ _ fun s l => (Cert.KernelIdeal.KJoint21.out21_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_21, t_2])

theorem piece_21_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![21, 1, 0, 0] ![1, 1, 64, 128] inb_S24x3x64x128_S1x1x64x128_21_1_0_0,
      (k0_pay1241 (kernelRun0_A.sl.r_2 c arg3 harg3 x2) (kernelRun0_A.sl.r_833 c arg1 harg1 arg2 harg2 arg8 arg9 arg10 arg15 x0 x1))⟩ :=
  pieceOK_of x0 x1 x2 21 1 _ _ fun s l => (Cert.KernelIdeal.KJoint21.out21_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_21, t_1])

theorem piece_21_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![21, 0, 0, 0] ![1, 1, 64, 128] inb_S24x3x64x128_S1x1x64x128_21_0_0_0,
      (k0_pay1240 (kernelRun0_A.sl.r_1 c arg3 harg3 x2) (kernelRun0_A.sl.r_831 c arg1 harg1 arg2 harg2 arg5 arg6 arg7 arg14 x0 x1))⟩ :=
  pieceOK_of x0 x1 x2 21 0 _ _ fun s l => (Cert.KernelIdeal.KJoint21.out21_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_21, t_0])

theorem piece_20_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![20, 2, 0, 0] ![1, 1, 64, 128] inb_S24x3x64x128_S1x1x64x128_20_2_0_0,
      (k0_pay1179 (kernelRun0_A.sl.r_3 c arg3 harg3 x2) (kernelRun0_A.sl.r_806 c arg1 harg1 arg2 harg2 arg11 arg12 arg13 arg16 x0 x1))⟩ :=
  pieceOK_of x0 x1 x2 20 2 _ _ fun s l => (Cert.KernelIdeal.KJoint20.out20_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_20, t_2])

theorem piece_20_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![20, 1, 0, 0] ![1, 1, 64, 128] inb_S24x3x64x128_S1x1x64x128_20_1_0_0,
      (k0_pay1178 (kernelRun0_A.sl.r_2 c arg3 harg3 x2) (kernelRun0_A.sl.r_805 c arg1 harg1 arg2 harg2 arg8 arg9 arg10 arg15 x0 x1))⟩ :=
  pieceOK_of x0 x1 x2 20 1 _ _ fun s l => (Cert.KernelIdeal.KJoint20.out20_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_20, t_1])

theorem piece_20_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![20, 0, 0, 0] ![1, 1, 64, 128] inb_S24x3x64x128_S1x1x64x128_20_0_0_0,
      (k0_pay1177 (kernelRun0_A.sl.r_1 c arg3 harg3 x2) (kernelRun0_A.sl.r_804 c arg1 harg1 arg2 harg2 arg5 arg6 arg7 arg14 x0 x1))⟩ :=
  pieceOK_of x0 x1 x2 20 0 _ _ fun s l => (Cert.KernelIdeal.KJoint20.out20_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_20, t_0])

theorem piece_19_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![19, 2, 0, 0] ![1, 1, 64, 128] inb_S24x3x64x128_S1x1x64x128_19_2_0_0,
      (k0_pay1116 (kernelRun0_A.sl.r_3 c arg3 harg3 x2) (kernelRun0_A.sl.r_761 c arg1 harg1 arg2 harg2 arg11 arg12 arg13 arg16 x0 x1))⟩ :=
  pieceOK_of x0 x1 x2 19 2 _ _ fun s l => (Cert.KernelIdeal.KJoint19.out19_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_19, t_2])

theorem piece_19_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![19, 1, 0, 0] ![1, 1, 64, 128] inb_S24x3x64x128_S1x1x64x128_19_1_0_0,
      (k0_pay1115 (kernelRun0_A.sl.r_2 c arg3 harg3 x2) (kernelRun0_A.sl.r_759 c arg1 harg1 arg2 harg2 arg8 arg9 arg10 arg15 x0 x1))⟩ :=
  pieceOK_of x0 x1 x2 19 1 _ _ fun s l => (Cert.KernelIdeal.KJoint19.out19_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_19, t_1])

theorem piece_19_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![19, 0, 0, 0] ![1, 1, 64, 128] inb_S24x3x64x128_S1x1x64x128_19_0_0_0,
      (k0_pay1114 (kernelRun0_A.sl.r_1 c arg3 harg3 x2) (kernelRun0_A.sl.r_758 c arg1 harg1 arg2 harg2 arg5 arg6 arg7 arg14 x0 x1))⟩ :=
  pieceOK_of x0 x1 x2 19 0 _ _ fun s l => (Cert.KernelIdeal.KJoint19.out19_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_19, t_0])

theorem piece_18_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![18, 2, 0, 0] ![1, 1, 64, 128] inb_S24x3x64x128_S1x1x64x128_18_2_0_0,
      (k0_pay1052 (kernelRun0_A.sl.r_3 c arg3 harg3 x2) (kernelRun0_A.sl.r_716 c arg1 harg1 arg2 harg2 arg11 arg12 arg13 arg16 x0 x1))⟩ :=
  pieceOK_of x0 x1 x2 18 2 _ _ fun s l => (Cert.KernelIdeal.KJoint18.out18_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_18, t_2])

theorem piece_18_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![18, 1, 0, 0] ![1, 1, 64, 128] inb_S24x3x64x128_S1x1x64x128_18_1_0_0,
      (k0_pay1051 (kernelRun0_A.sl.r_717 c arg1 harg1 arg2 harg2 arg3 harg3 arg8 arg9 arg10 arg15 x0 x1 x2))⟩ :=
  pieceOK_of x0 x1 x2 18 1 _ _ fun s l => (Cert.KernelIdeal.KJoint18.out18_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_18, t_1])

theorem piece_18_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![18, 0, 0, 0] ![1, 1, 64, 128] inb_S24x3x64x128_S1x1x64x128_18_0_0_0,
      (k0_pay1049 (kernelRun0_A.sl.r_1 c arg3 harg3 x2) (kernelRun0_A.sl.r_714 c arg1 harg1 arg2 harg2 arg5 arg6 arg7 arg14 x0 x1))⟩ :=
  pieceOK_of x0 x1 x2 18 0 _ _ fun s l => (Cert.KernelIdeal.KJoint18.out18_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_18, t_0])

theorem piece_17_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![17, 2, 0, 0] ![1, 1, 64, 128] inb_S24x3x64x128_S1x1x64x128_17_2_0_0,
      (k0_pay984 (kernelRun0_A.sl.r_3 c arg3 harg3 x2) (kernelRun0_A.sl.r_670 c arg1 harg1 arg2 harg2 arg11 arg12 arg13 arg16 x0 x1))⟩ :=
  pieceOK_of x0 x1 x2 17 2 _ _ fun s l => (Cert.KernelIdeal.KJoint17.out17_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_17, t_2])

theorem piece_17_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![17, 1, 0, 0] ![1, 1, 64, 128] inb_S24x3x64x128_S1x1x64x128_17_1_0_0,
      (k0_pay983 (kernelRun0_A.sl.r_2 c arg3 harg3 x2) (kernelRun0_A.sl.r_669 c arg1 harg1 arg2 harg2 arg8 arg9 arg10 arg15 x0 x1))⟩ :=
  pieceOK_of x0 x1 x2 17 1 _ _ fun s l => (Cert.KernelIdeal.KJoint17.out17_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_17, t_1])

theorem piece_17_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![17, 0, 0, 0] ![1, 1, 64, 128] inb_S24x3x64x128_S1x1x64x128_17_0_0_0,
      (k0_pay982 (kernelRun0_A.sl.r_1 c arg3 harg3 x2) (kernelRun0_A.sl.r_668 c arg1 harg1 arg2 harg2 arg5 arg6 arg7 arg14 x0 x1))⟩ :=
  pieceOK_of x0 x1 x2 17 0 _ _ fun s l => (Cert.KernelIdeal.KJoint17.out17_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_17, t_0])

theorem piece_16_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![16, 2, 0, 0] ![1, 1, 64, 128] inb_S24x3x64x128_S1x1x64x128_16_2_0_0,
      (k0_pay920 (kernelRun0_A.sl.r_3 c arg3 harg3 x2) (kernelRun0_A.sl.r_626 c arg1 harg1 arg2 harg2 arg11 arg12 arg13 arg16 x0 x1))⟩ :=
  pieceOK_of x0 x1 x2 16 2 _ _ fun s l => (Cert.KernelIdeal.KJoint16.out16_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_16, t_2])

theorem piece_16_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![16, 1, 0, 0] ![1, 1, 64, 128] inb_S24x3x64x128_S1x1x64x128_16_1_0_0,
      (k0_pay919 (kernelRun0_A.sl.r_2 c arg3 harg3 x2) (kernelRun0_A.sl.r_624 c arg1 harg1 arg2 harg2 arg8 arg9 arg10 arg15 x0 x1))⟩ :=
  pieceOK_of x0 x1 x2 16 1 _ _ fun s l => (Cert.KernelIdeal.KJoint16.out16_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_16, t_1])

theorem piece_16_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![16, 0, 0, 0] ![1, 1, 64, 128] inb_S24x3x64x128_S1x1x64x128_16_0_0_0,
      (k0_pay918 (kernelRun0_A.sl.r_1 c arg3 harg3 x2) (kernelRun0_A.sl.r_623 c arg1 harg1 arg2 harg2 arg5 arg6 arg7 arg14 x0 x1))⟩ :=
  pieceOK_of x0 x1 x2 16 0 _ _ fun s l => (Cert.KernelIdeal.KJoint16.out16_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_16, t_0])

theorem piece_15_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![15, 2, 0, 0] ![1, 1, 64, 128] inb_S24x3x64x128_S1x1x64x128_15_2_0_0,
      (k0_pay857 (kernelRun0_A.sl.r_3 c arg3 harg3 x2) (kernelRun0_A.sl.r_582 c arg1 harg1 arg2 harg2 arg11 arg12 arg13 arg16 x0 x1))⟩ :=
  pieceOK_of x0 x1 x2 15 2 _ _ fun s l => (Cert.KernelIdeal.KJoint15.out15_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_15, t_2])

theorem piece_15_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![15, 1, 0, 0] ![1, 1, 64, 128] inb_S24x3x64x128_S1x1x64x128_15_1_0_0,
      (k0_pay856 (kernelRun0_A.sl.r_2 c arg3 harg3 x2) (kernelRun0_A.sl.r_581 c arg1 harg1 arg2 harg2 arg8 arg9 arg10 arg15 x0 x1))⟩ :=
  pieceOK_of x0 x1 x2 15 1 _ _ fun s l => (Cert.KernelIdeal.KJoint15.out15_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_15, t_1])

theorem piece_15_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![15, 0, 0, 0] ![1, 1, 64, 128] inb_S24x3x64x128_S1x1x64x128_15_0_0_0,
      (k0_pay855 (kernelRun0_A.sl.r_583 c arg1 harg1 arg2 harg2 arg3 harg3 arg5 arg6 arg7 arg14 x0 x1 x2))⟩ :=
  pieceOK_of x0 x1 x2 15 0 _ _ fun s l => (Cert.KernelIdeal.KJoint15.out15_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_15, t_0])

theorem piece_14_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![14, 2, 0, 0] ![1, 1, 64, 128] inb_S24x3x64x128_S1x1x64x128_14_2_0_0,
      (k0_pay842 (kernelRun0_A.sl.r_3 c arg3 harg3 x2) (kernelRun0_A.sl.r_570 c arg1 harg1 arg2 harg2 arg11 arg12 arg13 arg16 x0 x1))⟩ :=
  pieceOK_of x0 x1 x2 14 2 _ _ fun s l => (Cert.KernelIdeal.KJoint14.out14_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_14, t_2])

theorem piece_14_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![14, 1, 0, 0] ![1, 1, 64, 128] inb_S24x3x64x128_S1x1x64x128_14_1_0_0,
      (k0_pay841 (kernelRun0_A.sl.r_2 c arg3 harg3 x2) (kernelRun0_A.sl.r_569 c arg1 harg1 arg2 harg2 arg8 arg9 arg10 arg15 x0 x1))⟩ :=
  pieceOK_of x0 x1 x2 14 1 _ _ fun s l => (Cert.KernelIdeal.KJoint14.out14_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_14, t_1])

theorem piece_14_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![14, 0, 0, 0] ![1, 1, 64, 128] inb_S24x3x64x128_S1x1x64x128_14_0_0_0,
      (k0_pay840 (kernelRun0_A.sl.r_571 c arg1 harg1 arg2 harg2 arg3 harg3 arg5 arg6 arg7 arg14 x0 x1 x2))⟩ :=
  pieceOK_of x0 x1 x2 14 0 _ _ fun s l => (Cert.KernelIdeal.KJoint14.out14_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_14, t_0])

theorem piece_13_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![13, 2, 0, 0] ![1, 1, 64, 128] inb_S24x3x64x128_S1x1x64x128_13_2_0_0,
      (k0_pay777 (kernelRun0_A.sl.r_3 c arg3 harg3 x2) (kernelRun0_A.sl.r_523 c arg1 harg1 arg2 harg2 arg11 arg12 arg13 arg16 x0 x1))⟩ :=
  pieceOK_of x0 x1 x2 13 2 _ _ fun s l => (Cert.KernelIdeal.KJoint13.out13_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_13, t_2])

theorem piece_13_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![13, 1, 0, 0] ![1, 1, 64, 128] inb_S24x3x64x128_S1x1x64x128_13_1_0_0,
      (k0_pay776 (kernelRun0_A.sl.r_2 c arg3 harg3 x2) (kernelRun0_A.sl.r_522 c arg1 harg1 arg2 harg2 arg8 arg9 arg10 arg15 x0 x1))⟩ :=
  pieceOK_of x0 x1 x2 13 1 _ _ fun s l => (Cert.KernelIdeal.KJoint13.out13_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_13, t_1])

theorem piece_13_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![13, 0, 0, 0] ![1, 1, 64, 128] inb_S24x3x64x128_S1x1x64x128_13_0_0_0,
      (k0_pay775 (kernelRun0_A.sl.r_1 c arg3 harg3 x2) (kernelRun0_A.sl.r_521 c arg1 harg1 arg2 harg2 arg5 arg6 arg7 arg14 x0 x1))⟩ :=
  pieceOK_of x0 x1 x2 13 0 _ _ fun s l => (Cert.KernelIdeal.KJoint13.out13_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_13, t_0])

theorem piece_12_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![12, 2, 0, 0] ![1, 1, 64, 128] inb_S24x3x64x128_S1x1x64x128_12_2_0_0,
      (k0_pay713 (kernelRun0_A.sl.r_479 c arg1 harg1 arg2 harg2 arg3 harg3 arg11 arg12 arg13 arg16 x0 x1 x2))⟩ :=
  pieceOK_of x0 x1 x2 12 2 _ _ fun s l => (Cert.KernelIdeal.KJoint12.out12_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_12, t_2])

theorem piece_12_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![12, 1, 0, 0] ![1, 1, 64, 128] inb_S24x3x64x128_S1x1x64x128_12_1_0_0,
      (k0_pay711 (kernelRun0_A.sl.r_2 c arg3 harg3 x2) (kernelRun0_A.sl.r_477 c arg1 harg1 arg2 harg2 arg8 arg9 arg10 arg15 x0 x1))⟩ :=
  pieceOK_of x0 x1 x2 12 1 _ _ fun s l => (Cert.KernelIdeal.KJoint12.out12_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_12, t_1])

theorem piece_12_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![12, 0, 0, 0] ![1, 1, 64, 128] inb_S24x3x64x128_S1x1x64x128_12_0_0_0,
      (k0_pay710 (kernelRun0_A.sl.r_1 c arg3 harg3 x2) (kernelRun0_A.sl.r_475 c arg1 harg1 arg2 harg2 arg5 arg6 arg7 arg14 x0 x1))⟩ :=
  pieceOK_of x0 x1 x2 12 0 _ _ fun s l => (Cert.KernelIdeal.KJoint12.out12_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_12, t_0])

theorem piece_11_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![11, 2, 0, 0] ![1, 1, 64, 128] inb_S24x3x64x128_S1x1x64x128_11_2_0_0,
      (k0_pay647 (kernelRun0_A.sl.r_3 c arg3 harg3 x2) (kernelRun0_A.sl.r_446 c arg1 harg1 arg2 harg2 arg11 arg12 arg13 arg16 x0 x1))⟩ :=
  pieceOK_of x0 x1 x2 11 2 _ _ fun s l => (Cert.KernelIdeal.KJoint11.out11_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_11, t_2])

theorem piece_11_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![11, 1, 0, 0] ![1, 1, 64, 128] inb_S24x3x64x128_S1x1x64x128_11_1_0_0,
      (k0_pay646 (kernelRun0_A.sl.r_2 c arg3 harg3 x2) (kernelRun0_A.sl.r_445 c arg1 harg1 arg2 harg2 arg8 arg9 arg10 arg15 x0 x1))⟩ :=
  pieceOK_of x0 x1 x2 11 1 _ _ fun s l => (Cert.KernelIdeal.KJoint11.out11_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_11, t_1])

theorem piece_11_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![11, 0, 0, 0] ![1, 1, 64, 128] inb_S24x3x64x128_S1x1x64x128_11_0_0_0,
      (k0_pay645 (kernelRun0_A.sl.r_447 c arg1 harg1 arg2 harg2 arg3 harg3 arg5 arg6 arg7 arg14 x0 x1 x2))⟩ :=
  pieceOK_of x0 x1 x2 11 0 _ _ fun s l => (Cert.KernelIdeal.KJoint11.out11_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_11, t_0])

theorem piece_10_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![10, 2, 0, 0] ![1, 1, 64, 128] inb_S24x3x64x128_S1x1x64x128_10_2_0_0,
      (k0_pay633 (kernelRun0_A.sl.r_3 c arg3 harg3 x2) (kernelRun0_A.sl.r_435 c arg1 harg1 arg2 harg2 arg11 arg12 arg13 arg16 x0 x1))⟩ :=
  pieceOK_of x0 x1 x2 10 2 _ _ fun s l => (Cert.KernelIdeal.KJoint10.out10_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_10, t_2])

theorem piece_10_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![10, 1, 0, 0] ![1, 1, 64, 128] inb_S24x3x64x128_S1x1x64x128_10_1_0_0,
      (k0_pay632 (kernelRun0_A.sl.r_2 c arg3 harg3 x2) (kernelRun0_A.sl.r_434 c arg1 harg1 arg2 harg2 arg8 arg9 arg10 arg15 x0 x1))⟩ :=
  pieceOK_of x0 x1 x2 10 1 _ _ fun s l => (Cert.KernelIdeal.KJoint10.out10_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_10, t_1])

theorem piece_10_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![10, 0, 0, 0] ![1, 1, 64, 128] inb_S24x3x64x128_S1x1x64x128_10_0_0_0,
      (k0_pay631 (kernelRun0_A.sl.r_436 c arg1 harg1 arg2 harg2 arg3 harg3 arg5 arg6 arg7 arg14 x0 x1 x2))⟩ :=
  pieceOK_of x0 x1 x2 10 0 _ _ fun s l => (Cert.KernelIdeal.KJoint10.out10_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_10, t_0])

theorem piece_9_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![9, 2, 0, 0] ![1, 1, 64, 128] inb_S24x3x64x128_S1x1x64x128_9_2_0_0,
      (k0_pay619 (kernelRun0_A.sl.r_3 c arg3 harg3 x2) (kernelRun0_A.sl.r_424 c arg1 harg1 arg2 harg2 arg11 arg12 arg13 arg16 x0 x1))⟩ :=
  pieceOK_of x0 x1 x2 9 2 _ _ fun s l => (Cert.KernelIdeal.KJoint9.out9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_9, t_2])

theorem piece_9_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![9, 1, 0, 0] ![1, 1, 64, 128] inb_S24x3x64x128_S1x1x64x128_9_1_0_0,
      (k0_pay618 (kernelRun0_A.sl.r_2 c arg3 harg3 x2) (kernelRun0_A.sl.r_423 c arg1 harg1 arg2 harg2 arg8 arg9 arg10 arg15 x0 x1))⟩ :=
  pieceOK_of x0 x1 x2 9 1 _ _ fun s l => (Cert.KernelIdeal.KJoint9.out9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_9, t_1])

theorem piece_9_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![9, 0, 0, 0] ![1, 1, 64, 128] inb_S24x3x64x128_S1x1x64x128_9_0_0_0,
      (k0_pay617 (kernelRun0_A.sl.r_425 c arg1 harg1 arg2 harg2 arg3 harg3 arg5 arg6 arg7 arg14 x0 x1 x2))⟩ :=
  pieceOK_of x0 x1 x2 9 0 _ _ fun s l => (Cert.KernelIdeal.KJoint9.out9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_9, t_0])

theorem piece_8_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![8, 2, 0, 0] ![1, 1, 64, 128] inb_S24x3x64x128_S1x1x64x128_8_2_0_0,
      (k0_pay555 (kernelRun0_A.sl.r_3 c arg3 harg3 x2) (kernelRun0_A.sl.r_378 c arg1 harg1 arg2 harg2 arg11 arg12 arg13 arg16 x0 x1))⟩ :=
  pieceOK_of x0 x1 x2 8 2 _ _ fun s l => (Cert.KernelIdeal.KJoint8.out8_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_8, t_2])

theorem piece_8_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![8, 1, 0, 0] ![1, 1, 64, 128] inb_S24x3x64x128_S1x1x64x128_8_1_0_0,
      (k0_pay554 (kernelRun0_A.sl.r_2 c arg3 harg3 x2) (kernelRun0_A.sl.r_377 c arg1 harg1 arg2 harg2 arg8 arg9 arg10 arg15 x0 x1))⟩ :=
  pieceOK_of x0 x1 x2 8 1 _ _ fun s l => (Cert.KernelIdeal.KJoint8.out8_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_8, t_1])

theorem piece_8_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![8, 0, 0, 0] ![1, 1, 64, 128] inb_S24x3x64x128_S1x1x64x128_8_0_0_0,
      (k0_pay553 (kernelRun0_A.sl.r_1 c arg3 harg3 x2) (kernelRun0_A.sl.r_376 c arg1 harg1 arg2 harg2 arg5 arg6 arg7 arg14 x0 x1))⟩ :=
  pieceOK_of x0 x1 x2 8 0 _ _ fun s l => (Cert.KernelIdeal.KJoint8.out8_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_8, t_0])

theorem piece_7_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![7, 2, 0, 0] ![1, 1, 64, 128] inb_S24x3x64x128_S1x1x64x128_7_2_0_0,
      (k0_pay493 (kernelRun0_A.sl.r_3 c arg3 harg3 x2) (kernelRun0_A.sl.r_334 c arg1 harg1 arg2 harg2 arg11 arg12 arg13 arg16 x0 x1))⟩ :=
  pieceOK_of x0 x1 x2 7 2 _ _ fun s l => (Cert.KernelIdeal.KJoint7.out7_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_7, t_2])

theorem piece_7_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![7, 1, 0, 0] ![1, 1, 64, 128] inb_S24x3x64x128_S1x1x64x128_7_1_0_0,
      (kernelRun0_A.sl.r_336 c arg1 harg1 arg2 harg2 arg3 harg3 arg8 arg9 arg10 arg15 x0 x1 x2)⟩ :=
  pieceOK_of x0 x1 x2 7 1 _ _ fun s l => (Cert.KernelIdeal.KJoint7.out7_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_7, t_1])

theorem piece_7_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![7, 0, 0, 0] ![1, 1, 64, 128] inb_S24x3x64x128_S1x1x64x128_7_0_0_0,
      (k0_pay491 (kernelRun0_A.sl.r_1 c arg3 harg3 x2) (kernelRun0_A.sl.r_332 c arg1 harg1 arg2 harg2 arg5 arg6 arg7 arg14 x0 x1))⟩ :=
  pieceOK_of x0 x1 x2 7 0 _ _ fun s l => (Cert.KernelIdeal.KJoint7.out7_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_7, t_0])

theorem piece_6_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![6, 2, 0, 0] ![1, 1, 64, 128] inb_S24x3x64x128_S1x1x64x128_6_2_0_0,
      (k0_pay429 (kernelRun0_A.sl.r_3 c arg3 harg3 x2) (kernelRun0_A.sl.r_292 c arg1 harg1 arg2 harg2 arg11 arg12 arg13 arg16 x0 x1))⟩ :=
  pieceOK_of x0 x1 x2 6 2 _ _ fun s l => (Cert.KernelIdeal.KJoint6.out6_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_6, t_2])

theorem piece_6_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![6, 1, 0, 0] ![1, 1, 64, 128] inb_S24x3x64x128_S1x1x64x128_6_1_0_0,
      (k0_pay428 (kernelRun0_A.sl.r_2 c arg3 harg3 x2) (kernelRun0_A.sl.r_291 c arg1 harg1 arg2 harg2 arg8 arg9 arg10 arg15 x0 x1))⟩ :=
  pieceOK_of x0 x1 x2 6 1 _ _ fun s l => (Cert.KernelIdeal.KJoint6.out6_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_6, t_1])

theorem piece_6_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![6, 0, 0, 0] ![1, 1, 64, 128] inb_S24x3x64x128_S1x1x64x128_6_0_0_0,
      (k0_pay427 (kernelRun0_A.sl.r_1 c arg3 harg3 x2) (kernelRun0_A.sl.r_290 c arg1 harg1 arg2 harg2 arg5 arg6 arg7 arg14 x0 x1))⟩ :=
  pieceOK_of x0 x1 x2 6 0 _ _ fun s l => (Cert.KernelIdeal.KJoint6.out6_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_6, t_0])

theorem piece_5_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![5, 2, 0, 0] ![1, 1, 64, 128] inb_S24x3x64x128_S1x1x64x128_5_2_0_0,
      (k0_pay366 (kernelRun0_A.sl.r_3 c arg3 harg3 x2) (kernelRun0_A.sl.r_249 c arg1 harg1 arg2 harg2 arg11 arg12 arg13 arg16 x0 x1))⟩ :=
  pieceOK_of x0 x1 x2 5 2 _ _ fun s l => (Cert.KernelIdeal.KJoint5.out5_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_5, t_2])

theorem piece_5_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![5, 1, 0, 0] ![1, 1, 64, 128] inb_S24x3x64x128_S1x1x64x128_5_1_0_0,
      (k0_pay365 (kernelRun0_A.sl.r_2 c arg3 harg3 x2) (kernelRun0_A.sl.r_246 c arg1 harg1 arg2 harg2 arg8 arg9 arg10 arg15 x0 x1))⟩ :=
  pieceOK_of x0 x1 x2 5 1 _ _ fun s l => (Cert.KernelIdeal.KJoint5.out5_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_5, t_1])

theorem piece_5_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![5, 0, 0, 0] ![1, 1, 64, 128] inb_S24x3x64x128_S1x1x64x128_5_0_0_0,
      (k0_pay364 (kernelRun0_A.sl.r_1 c arg3 harg3 x2) (kernelRun0_A.sl.r_245 c arg1 harg1 arg2 harg2 arg5 arg6 arg7 arg14 x0 x1))⟩ :=
  pieceOK_of x0 x1 x2 5 0 _ _ fun s l => (Cert.KernelIdeal.KJoint5.out5_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_5, t_0])

theorem piece_4_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![4, 2, 0, 0] ![1, 1, 64, 128] inb_S24x3x64x128_S1x1x64x128_4_2_0_0,
      (k0_pay300 (kernelRun0_A.sl.r_3 c arg3 harg3 x2) (kernelRun0_A.sl.r_203 c arg1 harg1 arg2 harg2 arg11 arg12 arg13 arg16 x0 x1))⟩ :=
  pieceOK_of x0 x1 x2 4 2 _ _ fun s l => (Cert.KernelIdeal.KJoint4.out4_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_4, t_2])

theorem piece_4_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![4, 1, 0, 0] ![1, 1, 64, 128] inb_S24x3x64x128_S1x1x64x128_4_1_0_0,
      (k0_pay299 (kernelRun0_A.sl.r_204 c arg1 harg1 arg2 harg2 arg3 harg3 arg8 arg9 arg10 arg15 x0 x1 x2))⟩ :=
  pieceOK_of x0 x1 x2 4 1 _ _ fun s l => (Cert.KernelIdeal.KJoint4.out4_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_4, t_1])

theorem piece_4_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![4, 0, 0, 0] ![1, 1, 64, 128] inb_S24x3x64x128_S1x1x64x128_4_0_0_0,
      (k0_pay297 (kernelRun0_A.sl.r_1 c arg3 harg3 x2) (kernelRun0_A.sl.r_201 c arg1 harg1 arg2 harg2 arg5 arg6 arg7 arg14 x0 x1))⟩ :=
  pieceOK_of x0 x1 x2 4 0 _ _ fun s l => (Cert.KernelIdeal.KJoint4.out4_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_4, t_0])

theorem piece_3_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![3, 2, 0, 0] ![1, 1, 64, 128] inb_S24x3x64x128_S1x1x64x128_3_2_0_0,
      (k0_pay234 (kernelRun0_A.sl.r_3 c arg3 harg3 x2) (kernelRun0_A.sl.r_156 c arg1 harg1 arg2 harg2 arg11 arg12 arg13 arg16 x0 x1))⟩ :=
  pieceOK_of x0 x1 x2 3 2 _ _ fun s l => (Cert.KernelIdeal.KJoint3.out3_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_3, t_2])

theorem piece_3_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![3, 1, 0, 0] ![1, 1, 64, 128] inb_S24x3x64x128_S1x1x64x128_3_1_0_0,
      (k0_pay233 (kernelRun0_A.sl.r_2 c arg3 harg3 x2) (kernelRun0_A.sl.r_155 c arg1 harg1 arg2 harg2 arg8 arg9 arg10 arg15 x0 x1))⟩ :=
  pieceOK_of x0 x1 x2 3 1 _ _ fun s l => (Cert.KernelIdeal.KJoint3.out3_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_3, t_1])

theorem piece_3_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![3, 0, 0, 0] ![1, 1, 64, 128] inb_S24x3x64x128_S1x1x64x128_3_0_0_0,
      (k0_pay232 (kernelRun0_A.sl.r_1 c arg3 harg3 x2) (kernelRun0_A.sl.r_154 c arg1 harg1 arg2 harg2 arg5 arg6 arg7 arg14 x0 x1))⟩ :=
  pieceOK_of x0 x1 x2 3 0 _ _ fun s l => (Cert.KernelIdeal.KJoint3.out3_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_3, t_0])

theorem piece_2_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![2, 2, 0, 0] ![1, 1, 64, 128] inb_S24x3x64x128_S1x1x64x128_2_2_0_0,
      (k0_pay172 (kernelRun0_A.sl.r_3 c arg3 harg3 x2) (kernelRun0_A.sl.r_114 c arg1 harg1 arg2 harg2 arg11 arg12 arg13 arg16 x0 x1))⟩ :=
  pieceOK_of x0 x1 x2 2 2 _ _ fun s l => (Cert.KernelIdeal.KJoint2.out2_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_2, t_2])

theorem piece_2_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![2, 1, 0, 0] ![1, 1, 64, 128] inb_S24x3x64x128_S1x1x64x128_2_1_0_0,
      (k0_pay171 (kernelRun0_A.sl.r_2 c arg3 harg3 x2) (kernelRun0_A.sl.r_113 c arg1 harg1 arg2 harg2 arg8 arg9 arg10 arg15 x0 x1))⟩ :=
  pieceOK_of x0 x1 x2 2 1 _ _ fun s l => (Cert.KernelIdeal.KJoint2.out2_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_2, t_1])

theorem piece_2_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![2, 0, 0, 0] ![1, 1, 64, 128] inb_S24x3x64x128_S1x1x64x128_2_0_0_0,
      (k0_pay170 (kernelRun0_A.sl.r_1 c arg3 harg3 x2) (kernelRun0_A.sl.r_112 c arg1 harg1 arg2 harg2 arg5 arg6 arg7 arg14 x0 x1))⟩ :=
  pieceOK_of x0 x1 x2 2 0 _ _ fun s l => (Cert.KernelIdeal.KJoint2.out2_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_2, t_0])

theorem piece_1_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![1, 2, 0, 0] ![1, 1, 64, 128] inb_S24x3x64x128_S1x1x64x128_1_2_0_0,
      (k0_pay109 (kernelRun0_A.sl.r_3 c arg3 harg3 x2) (kernelRun0_A.sl.r_70 c arg1 harg1 arg2 harg2 arg11 arg12 arg13 arg16 x0 x1))⟩ :=
  pieceOK_of x0 x1 x2 1 2 _ _ fun s l => (Cert.KernelIdeal.KJoint1.out1_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_1, t_2])

theorem piece_1_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![1, 1, 0, 0] ![1, 1, 64, 128] inb_S24x3x64x128_S1x1x64x128_1_1_0_0,
      (k0_pay108 (kernelRun0_A.sl.r_2 c arg3 harg3 x2) (kernelRun0_A.sl.r_69 c arg1 harg1 arg2 harg2 arg8 arg9 arg10 arg15 x0 x1))⟩ :=
  pieceOK_of x0 x1 x2 1 1 _ _ fun s l => (Cert.KernelIdeal.KJoint1.out1_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_1, t_1])

theorem piece_1_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![1, 0, 0, 0] ![1, 1, 64, 128] inb_S24x3x64x128_S1x1x64x128_1_0_0_0,
      (k0_pay107 (kernelRun0_A.sl.r_71 c arg1 harg1 arg2 harg2 arg3 harg3 arg5 arg6 arg7 arg14 x0 x1 x2))⟩ :=
  pieceOK_of x0 x1 x2 1 0 _ _ fun s l => (Cert.KernelIdeal.KJoint1.out1_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_1, t_0])

theorem piece_0_2 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![0, 2, 0, 0] ![1, 1, 64, 128] inb_S24x3x64x128_S1x1x64x128_0_2_0_0,
      (k0_pay43 (kernelRun0_A.sl.r_3 c arg3 harg3 x2) (kernelRun0_A.sl.r_21 c arg2 harg2 x1))⟩ :=
  pieceOK_of x0 x1 x2 0 2 _ _ fun s l => (Cert.KernelIdeal.KJoint0.out0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_0, t_2])

theorem piece_0_1 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![0, 1, 0, 0] ![1, 1, 64, 128] inb_S24x3x64x128_S1x1x64x128_0_1_0_0,
      (k0_pay42 (kernelRun0_A.sl.r_2 c arg3 harg3 x2) (kernelRun0_A.sl.r_20 c arg2 harg2 x1))⟩ :=
  pieceOK_of x0 x1 x2 0 1 _ _ fun s l => (Cert.KernelIdeal.KJoint0.out0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_0, t_1])

theorem piece_0_0 (c : Dev nD) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    PieceOK x0 x1 x2 ⟨Rect.unit ![0, 0, 0, 0] ![1, 1, 64, 128] inb_S24x3x64x128_S1x1x64x128_0_0_0_0,
      (k0_pay41 (kernelRun0_A.sl.r_1 c arg3 harg3 x2) (kernelRun0_A.sl.r_19 c arg2 harg2 x1))⟩ :=
  pieceOK_of x0 x1 x2 0 0 _ _ fun s l => (Cert.KernelIdeal.KJoint0.out0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 s l).trans (by
    unfold Cert.FK.outK; rw [tfAll_0, t_0])

/-- Every store of the run's list is the block of `G` its rectangle names. -/
theorem hpieces (c : Dev nD) (i : grid0.Coords) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole) (x0 : Vec Ideal S24x3x64x128 .f32) (x1 : Vec Ideal S24x3 .f32) (x2 : Vec Ideal S3x64x128 .f32) :
    ∀ p ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2).1, PieceOK x0 x1 x2 p := by
  unfold kernelRun0_A
  dsimp only
  refine List.forall_mem_cons.2 ⟨piece_23_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_23_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_23_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_22_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_22_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_22_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_21_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_21_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_21_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_20_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_20_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_20_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_19_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_19_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_19_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_18_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_18_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_18_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_17_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_17_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_17_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_16_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_16_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_16_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_15_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_15_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_15_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_14_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_14_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_14_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_13_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_13_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_13_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_12_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_12_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_12_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_11_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_11_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_11_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_10_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_10_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_10_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_9_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_9_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_9_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_8_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_8_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_8_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_7_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_7_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_7_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_6_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_6_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_6_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_5_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_5_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_5_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_4_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_4_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_4_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_3_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_3_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_3_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_2_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_2_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_2_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_1_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_1_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_1_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_0_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_0_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  refine List.forall_mem_cons.2 ⟨piece_0_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2, ?_⟩
  exact fun _ h => (List.not_mem_nil h).elim

/-- The block the body leaves: at block index (j, k, s, l), the tiled form's position of joint j, component k, at lane (s, l):
    the 72 stores tile the block, and each store's payload is the block of `G` its rectangle names. -/
theorem out_apply (c : Dev nD) (i : grid0.Coords) (arg1 : Memref sig .tc .vmem S24x3x64x128 .f32) (harg1 : arg1.IsWhole) (arg2 : Memref sig .tc .vmem S24x3 .f32) (harg2 : arg2.IsWhole) (arg3 : Memref sig .tc .vmem S3x64x128 .f32) (harg3 : arg3.IsWhole) (arg4 : Memref sig .tc .vmem S24x3x64x128 .f32) (harg4 : arg4.IsWhole) (arg5 : Memref sig .tc .vmem S24x64x128 .f32) (harg5 : arg5.IsWhole) (arg6 : Memref sig .tc .vmem S24x64x128 .f32) (harg6 : arg6.IsWhole) (arg7 : Memref sig .tc .vmem S24x64x128 .f32) (harg7 : arg7.IsWhole) (arg8 : Memref sig .tc .vmem S24x64x128 .f32) (harg8 : arg8.IsWhole) (arg9 : Memref sig .tc .vmem S24x64x128 .f32) (harg9 : arg9.IsWhole) (arg10 : Memref sig .tc .vmem S24x64x128 .f32) (harg10 : arg10.IsWhole) (arg11 : Memref sig .tc .vmem S24x64x128 .f32) (harg11 : arg11.IsWhole) (arg12 : Memref sig .tc .vmem S24x64x128 .f32) (harg12 : arg12.IsWhole) (arg13 : Memref sig .tc .vmem S24x64x128 .f32) (harg13 : arg13.IsWhole) (arg14 : Memref sig .tc .vmem S24x64x128 .f32) (harg14 : arg14.IsWhole) (arg15 : Memref sig .tc .vmem S24x64x128 .f32) (harg15 : arg15.IsWhole) (arg16 : Memref sig .tc .vmem S24x64x128 .f32) (harg16 : arg16.IsWhole)
      (x0 : Vec Ideal S24x3x64x128 .f32) (x1 : Vec Ideal S24x3 .f32) (x2 : Vec Ideal S3x64x128 .f32)
      (j : Fin 24) (k : Fin 3) (s : Fin 64) (l : Fin 128) :
      Cert.KernelIdeal.GenP.out0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 (ix4 j k s l)
        = Cert.FK.outK (fun j' c' => x0 (ix4 j' c' s l)) (fun j' c' => x1 (ix2 j' c')) (fun c' => x2 (ix3 c' s l)) j k := by
  unfold Cert.KernelIdeal.GenP.out0_A_3
  rw [View.read_writes_junk_eq_canon]
  exact View.canon_apply_of_pieces (G x0 x1 x2) _ (hpieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2) (ix4 j k s l)
    (Cert.KernelIdeal.GenP.cover0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 (ix4 j k s l))

end Cert.KernelIdeal.KBody

end
-- ==== Proof.KArray.lean ====
/-
  The output array after the run. With batch element `b = 128 * row + lane`, entry (j, k, row, lane) of the
  [24,3,512,128] array is component `k` of joint `j`'s position for element `b`: each grid point writes back its
  64 rows of that function, and the eight points' blocks tile the 512 rows.
-/
import proofs.«127147_j62156766707902_2_alg».proof.Proof.KBlocks
import proofs.«127147_j62156766707902_2_alg».proof.Proof.FKRes
import proofs.«127147_j62156766707902_2_alg».proof.Proof.KBody

noncomputable section

namespace Cert.KernelIdeal.KRun

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The positions in the kernel's layout, as one function of the three argument arrays. -/
def G (A0 : S24x3.Idx → EReal) (A1 : S65536x24x3.Idx → EReal) (A2 : S65536x3.Idx → EReal) : S24x3x512x128.Idx → EReal :=
  fun y => Cert.FK.outK (Cert.FK.poseAt A1 (batchOf (y 2) (y 3))) (Cert.FK.offAt A0) (Cert.FK.trAt A2 (batchOf (y 2) (y 3))) (y 0) (y 1)

theorem G_apply (A0 : S24x3.Idx → EReal) (A1 : S65536x24x3.Idx → EReal) (A2 : S65536x3.Idx → EReal)
    (j : Fin 24) (k : Fin 3) (row : Fin 512) (l : Fin 128) :
    G A0 A1 A2 (ix4 j k row l)
      = Cert.FK.outK (Cert.FK.poseAt A1 (batchOf row l)) (Cert.FK.offAt A0) (Cert.FK.trAt A2 (batchOf row l)) j k := rfl

/-- The position depends on the pose, offset and translation tables entry by entry. -/
theorem outK_congr {p p' o o' : Fin 24 → Fin 3 → EReal} {tr tr' : Fin 3 → EReal}
    (hp : ∀ a b, p a b = p' a b) (ho : ∀ a b, o a b = o' a b) (ht : ∀ a, tr a = tr' a) (j : Fin 24) (k : Fin 3) :
    Cert.FK.outK p o tr j k = Cert.FK.outK p' o' tr' j k := by
  obtain rfl : p = p' := funext fun a => funext (hp a)
  obtain rfl : o = o' := funext fun a => funext (ho a)
  obtain rfl : tr = tr' := funext ht
  rfl

/-- Where grid point `t`'s output block sits in the array. -/
theorem emb3 (t : Fin cfg0.N) (j : Fin 24) (k : Fin 3) (s : Fin 64) (l : Fin 128) :
    ((cfg0.win 3).blk t).view.emb (ix4 j k s l) = (ix4 j k (rowOf t s) l : S24x3x512x128.Idx) := by
  obtain ⟨-, -, -, -, -, -, -, -, -, e0, e1, e2, e3⟩ := idx_facts t
  funext a; apply Fin.ext
  match a with
  | ⟨0, _⟩ => show win0_3.index t (0 : Fin 4) * 24 + 1 * j.val = j.val; rw [e0]; omega
  | ⟨1, _⟩ => show win0_3.index t (1 : Fin 4) * 3 + 1 * k.val = k.val; rw [e1]; omega
  | ⟨2, _⟩ => show win0_3.index t (2 : Fin 4) * 64 + 1 * s.val = 64 * t.val + s.val; rw [e2]; omega
  | ⟨3, _⟩ => show win0_3.index t (3 : Fin 4) * 128 + 1 * l.val = l.val; rw [e3]; omega

/-- WHAT POINT `t` WRITES BACK is block `t` of `G` of the argument arrays. -/
theorem flushed_eq (c : Dev nD) (t : Fin cfg0.N) :
    (GenP.dats m 0 c).flushed 3 t
      = ((cfg0.win 3).blk t).view.read (Elt Ideal) (G (m ((c : Thread nD τ).loc main_arg0)) (m ((c : Thread nD τ).loc main_arg1)) (m ((c : Thread nD τ).loc main_arg2))) := by
  show (cfg0.win 3).cut (grid0.coords t) ((GenP.dats m 0 c).after 3 t) = _
  rw [GenP.after0_3]
  unfold GenP.outsAt0
  funext y
  obtain ⟨j, k, s, l, rfl⟩ : ∃ (j : Fin 24) (k : Fin 3) (s : Fin 64) (l : Fin 128), y = ix4 j k s l := ⟨y 0, y 1, y 2, y 3, eq_ix4 y⟩
  rw [View.read_apply, emb3, G_apply]
  refine (KBody.out_apply c (grid0.coords t) (ms0_0 t) (hs0_0 t) (ms0_1 t) (hs0_1 t) (ms0_2 t) (hs0_2 t) (ms0_3 t) (hs0_3 t)
    scM0_0 (Memref.isWhole_whole _) scM0_1 (Memref.isWhole_whole _) scM0_2 (Memref.isWhole_whole _) scM0_3 (Memref.isWhole_whole _)
    scM0_4 (Memref.isWhole_whole _) scM0_5 (Memref.isWhole_whole _) scM0_6 (Memref.isWhole_whole _) scM0_7 (Memref.isWhole_whole _)
    scM0_8 (Memref.isWhole_whole _) scM0_9 (Memref.isWhole_whole _) scM0_10 (Memref.isWhole_whole _) scM0_11 (Memref.isWhole_whole _)
    (iblk m c 0 t) (iblk m c 1 t) (iblk m c 2 t) j k s l).trans ?_
  exact outK_congr
    (fun a b => (iblk0_apply m c t a b s l).trans (V_v1_apply m c a b (rowOf t s) l))
    (fun a b => iblk1_apply m c t a b)
    (fun a => (iblk2_apply m c t a s l).trans (V_v3_apply m c a (rowOf t s) l)) j k

/-- An index of the array is in point `t`'s block iff each coordinate is in the block's range on its axis. -/
theorem mem_blk (t : Fin cfg0.N) (i : S24x3x512x128.Idx) :
    i ∈ ((cfg0.win 3).blk t).view.set ↔ ∀ a : Fin 4, win0_3.index t a * S24x3x64x128.size a ≤ (i a).val ∧ (i a).val < win0_3.index t a * S24x3x64x128.size a + S24x3x64x128.size a := by
  show i ∈ ((View.whole main_v4).slice (win0_3.rect t)).set ↔ _
  rw [View.set_slice_whole, Rect.mem_set_unit]
  exact Iff.rfl

/-- Row `r` of the 512 is written back by point `r / 64`. -/
theorem cover (i : S24x3x512x128.Idx) : ∃ t : Fin cfg0.N, (cfg0.win 3).flush t = true ∧ i ∈ ((cfg0.win 3).blk t).view.set := by
  have h0 : (i 0).val < 24 := (i 0).isLt
  have h1 : (i 1).val < 3 := (i 1).isLt
  have h2 : (i 2).val < 512 := (i 2).isLt
  have h3 : (i 3).val < 128 := (i 3).isLt
  have ht : (i 2).val / 64 < cfg0.N := lt_of_lt_of_eq (by omega : (i 2).val / 64 < 8) (N_0.symm : 8 = cfg0.N)
  refine ⟨⟨(i 2).val / 64, ht⟩, flush0_3 _, ?_⟩
  obtain ⟨-, -, -, -, -, -, -, -, -, e0, e1, e2, e3⟩ := idx_facts ⟨(i 2).val / 64, ht⟩
  rw [mem_blk]
  intro a
  match a with
  | ⟨0, _⟩ => show win0_3.index _ (0 : Fin 4) * 24 ≤ (i 0).val ∧ (i 0).val < win0_3.index _ (0 : Fin 4) * 24 + 24; rw [e0]; omega
  | ⟨1, _⟩ => show win0_3.index _ (1 : Fin 4) * 3 ≤ (i 1).val ∧ (i 1).val < win0_3.index _ (1 : Fin 4) * 3 + 3; rw [e1]; omega
  | ⟨2, _⟩ => show win0_3.index _ (2 : Fin 4) * 64 ≤ (i 2).val ∧ (i 2).val < win0_3.index _ (2 : Fin 4) * 64 + 64; rw [e2]; show (i 2).val / 64 * 64 ≤ (i 2).val ∧ (i 2).val < (i 2).val / 64 * 64 + 64; omega
  | ⟨3, _⟩ => show win0_3.index _ (3 : Fin 4) * 128 ≤ (i 3).val ∧ (i 3).val < win0_3.index _ (3 : Fin 4) * 128 + 128; rw [e3]; omega

/-- THE ARRAY after the run: `G` of the argument arrays. -/
theorem final (c : Dev nD) :
    (GenP.dats m 0 c).arrAt 3 cfg0.N
      = G (m ((c : Thread nD τ).loc main_arg0)) (m ((c : Thread nD τ).loc main_arg1)) (m ((c : Thread nD τ).loc main_arg2)) :=
  (GenP.dats m 0 c).arrAt_eq_of_cover 3 _ (fun t _ => flushed_eq m c t) cover

end Cert.KernelIdeal.KRun

end
-- ==== Proof.KTail.lean ====
/-
  The host operations after the region undo the kernel's layout: the [24,3,512,128] array is cast back to
  [24,3,65536] and transposed to [65536,24,3], so entry (b, j, k) of the result is the array's entry
  (j, k, b / 128, b % 128) — the position of joint `j`, component `k`, for batch element `b`.
-/
import proofs.«127147_j62156766707902_2_alg».proof.Proof.KArray

noncomputable section

namespace Cert.KernelIdeal.KRun

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- Row and lane of batch element `b`. -/
def rowB (b : Fin 65536) : Fin 512 := ⟨b.val / 128, by omega⟩
def laneB (b : Fin 65536) : Fin 128 := ⟨b.val % 128, by omega⟩

theorem batchOf_row_lane (b : Fin 65536) : batchOf (rowB b) (laneB b) = b :=
  Fin.ext (by show 128 * (b.val / 128) + b.val % 128 = b.val; omega)

/-- Casting [24,3,512,128] to [24,3,65536] and transposing to [65536,24,3]: entry (b, j, k) is the array's entry
    (j, k, b / 128, b % 128). -/
theorem untiled_apply (A : S24x3x512x128.Idx → EReal) (b : Fin 65536) (j : Fin 24) (k : Fin 3) :
    transpose S65536x24x3 [2, 0, 1] (shapeCast S24x3x65536 A shapeCasts_S24x3x512x128_S24x3x65536) transposes_S24x3x65536_S65536x24x3_2_0_1 (ix3 b j k)
      = A (ix4 j k (rowB b) (laneB b)) := by
  refine (transpose_apply _ _ _ _ (ix3 j k b) ?_).trans ?_
  · intro a
    match a with
    | ⟨0, _⟩ => rfl
    | ⟨1, _⟩ => rfl
    | ⟨2, _⟩ => rfl
  · refine shapeCast_apply _ _ _ (ix4 j k (rowB b) (laneB b)) ?_
    rw [Shape.rowMajor_val_three, Shape.rowMajor_val_four]
    show ((j.val * 3 + k.val) * 512 + b.val / 128) * 128 + b.val % 128 = (j.val * 3 + k.val) * 65536 + b.val
    omega

/-- The layout undone on `G` is the positions, entry by entry. -/
theorem untiled_G (A0 : S24x3.Idx → EReal) (A1 : S65536x24x3.Idx → EReal) (A2 : S65536x3.Idx → EReal) :
    transpose S65536x24x3 [2, 0, 1] (shapeCast S24x3x65536 (G A0 A1 A2) shapeCasts_S24x3x512x128_S24x3x65536) transposes_S24x3x65536_S65536x24x3_2_0_1
      = Cert.FK.resK A0 A1 A2 := by
  funext i
  obtain ⟨b, j, k, rfl⟩ : ∃ (b : Fin 65536) (j : Fin 24) (k : Fin 3), i = ix3 b j k := ⟨i 0, i 1, i 2, eq_ix3 i⟩
  rw [untiled_apply, G_apply, batchOf_row_lane, Cert.FK.resK_apply]

/-- The result buffer after the host tail. -/
theorem tail_v6 (c : Dev nD) :
    Pipeline.afterTail₀ cfgs (GenP.dats m) 0 (V0 m) [hostOps1] c main_v6
      = Cert.FK.resK (m ((c : Thread nD τ).loc main_arg0)) (m ((c : Thread nD τ).loc main_arg1)) (m ((c : Thread nD τ).loc main_arg2)) := by
  unfold Pipeline.afterTail₀
  show StableHlo.after hostOps1 _ (Proc.devRef .tc main_v6) = _
  after_results
  have hA : Pipeline.withArrays (cfgs 0).spec c (V0 m c) (fun w => (GenP.dats m 0 c).arrAt w (cfgs 0).N) (Proc.devRef .tc main_v4)
      = G (m ((c : Thread nD τ).loc main_arg0)) (m ((c : Thread nD τ).loc main_arg1)) (m ((c : Thread nD τ).loc main_arg2)) :=
    (Pipeline.withArrays_arr spec0 launch0.win.arr_inj c _ _ 3).trans (final m c)
  rw [hA]
  exact untiled_G _ _ _

end Cert.KernelIdeal.KRun

end
-- ==== Proof.KRun.lean ====
/-
  The kernel's run, read: every weakly fair execution of @main ends with the result buffer holding the positions —
  entry (b, j, k) is component `k` of joint `j`'s position computed from row `b` of the poses, the offsets, and
  row `b` of the body translations — and the three argument arrays as launched.
-/
import proofs.«127147_j62156766707902_2_alg».proof.Proof.KTail

noncomputable section

namespace Cert.KernelIdeal.KRun

open Cert.KernelIdeal Cert.KernelIdeal.Gen Idealize.ShloMosaic Idealize.ShloMosaic.TcCoe Idealize.SL.Sem
open Idealize.ShloMosaic.Pipeline (Dat)

/-- The frame run re-posted: the result at the positions, the arguments unchanged. The result buffer and two of the
    arguments are no array of the pipeline, so they end as the host tail leaves them; the offsets are a staged
    input, never written back. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v6)
          = Cert.FK.resK (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v6 (Pipeline.mem_restRefs_of main_v6 (by decide) (by decide))).trans (tail_v6 m c),
     ((h c).1 1).trans (((GenP.dats m 0 c).arrAt_in 1 rfl _).trans ((GenP.A_eq m c 1).trans (V_main_arg0 m c))),
     ((h c).2 main_arg1 (Pipeline.mem_restRefs_of main_arg1 (by decide) (by decide))).trans (W_main_arg1 m (GenP.dats m) c),
     ((h c).2 main_arg2 (Pipeline.mem_restRefs_of main_arg2 (by decide) (by decide))).trans (W_main_arg2 m (GenP.dats m) c)⟩)
    (GenP.run_main m ρ)

end Cert.KernelIdeal.KRun

end
-- ==== Proof.LibNaryMore.lean ====
/-
  General lemmas about straight lines of host operations (Lib/StableHlo/Run.lean's `seq` / `after`):
    * `after_append`: the contents after two lines run one after the other;
    * `forall_append`: a property of every operation of two lists holds of their concatenation;
    * `writes_sub_of_mem`: an operation that writes one buffer writes inside any list of references holding it;
    * `nary8_result`, `nary9_result`, `nary16_result` (and their `simp` forms): what an n-ary operation over a
      LITERAL family of 8, 9 or 16 references leaves at its result buffer, each operand's contents at its own
      reference (the analogues of Run.lean's `nary4_result`);
    * `nary_congr_simp_realized`: the congruence lemmas `simp` states for `nary` and `TRef.of`, stated once.
-/
import Idealize.ShloMosaic.Lib.StableHlo.Run

noncomputable section

namespace Idealize.ShloMosaic.StableHlo

variable {τ : Topo} {sig : RefSig} {Val : EltTy → Type}

/-- The contents after two lines run one after the other: the second line's, from the first line's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- What holds of every element of two lists holds of every element of their concatenation. -/
theorem forall_append {α : Type*} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- An operation whose one written buffer is the reference `y` writes inside any list of references holding `y`. -/
theorem writes_sub_of_mem {op : HloOp τ sig Val} {y : Ref sig .tc} {W : List (Ref sig .tc)}
    (h : op.writes = {Proc.devRef .tc y}) (hy : y ∈ W) :
    op.writes ⊆ (W.map (Proc.devRef (τ := τ) .tc)).toFinset := by
  rw [h, Finset.singleton_subset_iff, List.mem_toFinset]
  exact List.mem_map_of_mem hy

/-- `nary` over a literal family of 8 references: the result with each operand's contents at its own reference
    (`Fin.cons (F ↑x0) …` in place of `fun k => F ↑(![x0, …] k)`), so that the rewriting of the operands' contents goes
    on under it. -/
theorem nary8_result {x0 x1 x2 x3 x4 x5 x6 x7 y : Ref sig .tc}
    (f : ((k : Fin 8) → ((![x0, x1, x2, x3, x4, x5, x6, x7] : Fin 8 → Ref sig .tc) k).ty.Contents Val) → y.ty.Contents Val) (hxs hy)
    (F : Valuation τ sig Val) :
    (nary (τ := τ) ![x0, x1, x2, x3, x4, x5, x6, x7] y f hxs hy).result F (Proc.devRef .tc y)
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (fun i => i.elim0))))))))) := by
  rw [nary_result]; congr 1; funext k; fin_cases k <;> rfl
/-- The same, stated for `simp` (the result reference un-indexed). -/
theorem nary8_result' {x0 x1 x2 x3 x4 x5 x6 x7 y : Ref sig .tc}
    (f : ((k : Fin 8) → ((![x0, x1, x2, x3, x4, x5, x6, x7] : Fin 8 → Ref sig .tc) k).ty.Contents Val) → y.ty.Contents Val) (hxs hy)
    (F : Valuation τ sig Val) :
    (nary (τ := τ) ![x0, x1, x2, x3, x4, x5, x6, x7] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (fun i => i.elim0))))))))) :=
  nary8_result f hxs hy F

/-- `nary` over a literal family of 9 references: the result with each operand's contents at its own reference
    (`Fin.cons (F ↑x0) …` in place of `fun k => F ↑(![x0, …] k)`), so that the rewriting of the operands' contents goes
    on under it. -/
theorem nary9_result {x0 x1 x2 x3 x4 x5 x6 x7 x8 y : Ref sig .tc}
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (Proc.devRef .tc y)
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (fun i => i.elim0)))))))))) := by
  rw [nary_result]; congr 1; funext k; fin_cases k <;> rfl
/-- The same, stated for `simp` (the result reference un-indexed). -/
theorem nary9_result' {x0 x1 x2 x3 x4 x5 x6 x7 x8 y : Ref sig .tc}
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (fun i => i.elim0)))))))))) :=
  nary9_result f hxs hy F

/-- `nary` over a literal family of 16 references: the result with each operand's contents at its own reference
    (`Fin.cons (F ↑x0) …` in place of `fun k => F ↑(![x0, …] k)`), so that the rewriting of the operands' contents goes
    on under it. -/
theorem nary16_result {x0 x1 x2 x3 x4 x5 x6 x7 x8 x9 x10 x11 x12 x13 x14 x15 y : Ref sig .tc}
    (f : ((k : Fin 16) → ((![x0, x1, x2, x3, x4, x5, x6, x7, x8, x9, x10, x11, x12, x13, x14, x15] : Fin 16 → Ref sig .tc) k).ty.Contents Val) → y.ty.Contents Val) (hxs hy)
    (F : Valuation τ sig Val) :
    (nary (τ := τ) ![x0, x1, x2, x3, x4, x5, x6, x7, x8, x9, x10, x11, x12, x13, x14, x15] y f hxs hy).result F (Proc.devRef .tc y)
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (Fin.cons (F (Proc.devRef .tc x9)) (Fin.cons (F (Proc.devRef .tc x10)) (Fin.cons (F (Proc.devRef .tc x11)) (Fin.cons (F (Proc.devRef .tc x12)) (Fin.cons (F (Proc.devRef .tc x13)) (Fin.cons (F (Proc.devRef .tc x14)) (Fin.cons (F (Proc.devRef .tc x15)) (fun i => i.elim0))))))))))))))))) := by
  rw [nary_result]; congr 1; funext k; fin_cases k <;> rfl
/-- The same, stated for `simp` (the result reference un-indexed). -/
theorem nary16_result' {x0 x1 x2 x3 x4 x5 x6 x7 x8 x9 x10 x11 x12 x13 x14 x15 y : Ref sig .tc}
    (f : ((k : Fin 16) → ((![x0, x1, x2, x3, x4, x5, x6, x7, x8, x9, x10, x11, x12, x13, x14, x15] : Fin 16 → Ref sig .tc) k).ty.Contents Val) → y.ty.Contents Val) (hxs hy)
    (F : Valuation τ sig Val) :
    (nary (τ := τ) ![x0, x1, x2, x3, x4, x5, x6, x7, x8, x9, x10, x11, x12, x13, x14, x15] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (Fin.cons (F (Proc.devRef .tc x9)) (Fin.cons (F (Proc.devRef .tc x10)) (Fin.cons (F (Proc.devRef .tc x11)) (Fin.cons (F (Proc.devRef .tc x12)) (Fin.cons (F (Proc.devRef .tc x13)) (Fin.cons (F (Proc.devRef .tc x14)) (Fin.cons (F (Proc.devRef .tc x15)) (fun i => i.elim0))))))))))))))))) :=
  nary16_result f hxs hy F

/-- The congruence lemma `simp` states for `nary` when it rewrites under one (`nary.congr_simp`), stated here once so
    that every module downstream finds the one copy (as Lib/StableHlo/Run.lean's `congr_simp_realized` does for the other
    builders). -/
theorem nary_congr_simp_realized : True := by
  have := @nary.congr_simp; have := @TRef.of.congr_simp
  trivial

end Idealize.ShloMosaic.StableHlo

end
-- ==== Proof.RRunOps.lean ====
/-
  The matrix program as a straight line of host operations: its 164 operations in program order (the five of the
  norm's body in the place of the call), cut into 15 consecutive stretches `ops0` … `ops14`; that the printed
  program is the line (`main_eq`); that the line touches TensorCore buffers only and determines its results; and the
  bare run: from any memory every execution ends with each buffer at the fold of the operations over the launch
  contents (`run_after`).
-/
import proofs.«127147_j62156766707902_2_alg».proof.Proof.Gen.ReferenceIdeal
import proofs.«127147_j62156766707902_2_alg».proof.Proof.LibNaryMore
import Idealize.ShloMosaic.Lib.StableHlo.Run
import Idealize.ShloMosaic.Lib.Pipeline.Regions

noncomputable section

namespace Cert.ReferenceIdeal.RRun

open Idealize.ShloMosaic Idealize.SL.Sem Idealize.ShloMosaic.StableHlo Cert.ReferenceIdeal

variable {F : FTy → Type} [FloatOps F] [Facts]

open Facts₀ Facts

/-- Operations 0 … 10 of the program, in order. -/
abbrev ops0 : List (HloOp τ sig (Elt F)) :=
  [ StableHlo.nullary main_cst (fun i => FloatOps.ofBits .f32 (lit0 (S4.rowMajor i))),
    StableHlo.nullary main_cst_0 (constant S_ .f32 0x322BCC77#32),
    StableHlo.unary main_cst_0 main_v0 (broadcastInDim S65536x24x3 ![] bcast_S_S65536x24x3 : (⟨S_, .f32⟩ : BufTy).Contents (Elt F) → (⟨S65536x24x3, .f32⟩ : BufTy).Contents (Elt F)),
    StableHlo.binary main_arg1 main_v0 main_v1 (addf : (⟨S65536x24x3, .f32⟩ : BufTy).Contents (Elt F) → (⟨S65536x24x3, .f32⟩ : BufTy).Contents (Elt F) → (⟨S65536x24x3, .f32⟩ : BufTy).Contents (Elt F)),
    StableHlo.TRef.binary (.of main_v1 : StableHlo.TRef sig ⟨S65536x24x3, .f32⟩) (.of main_v1 : StableHlo.TRef sig ⟨S65536x24x3, .f32⟩) (.of main_call0_v0 : StableHlo.TRef sig ⟨S65536x24x3, .f32⟩) mulf,
    StableHlo.TRef.nullary (.of main_call0_cst : StableHlo.TRef sig ⟨S_, .f32⟩) (constant S_ .f32 0x00000000#32),
    StableHlo.TRef.binary (.of main_call0_v0 : StableHlo.TRef sig ⟨S65536x24x3, .f32⟩) (.of main_call0_cst : StableHlo.TRef sig ⟨S_, .f32⟩) (.of main_call0_v1 : StableHlo.TRef sig ⟨S65536x24, .f32⟩) (fun x v => Host.reduceAdd x v reducesTo_S65536x24x3_S65536x24_d2 h_S_),
    StableHlo.TRef.unary (.of main_call0_v1 : StableHlo.TRef sig ⟨S65536x24, .f32⟩) (.of main_call0_v2 : StableHlo.TRef sig ⟨S65536x24x1, .f32⟩) (broadcastInDim S65536x24x1 ![0, 1] bcast_S65536x24_S65536x24x1_0_1),
    StableHlo.TRef.unary (.of main_call0_v2 : StableHlo.TRef sig ⟨S65536x24x1, .f32⟩) (.of main_v2 : StableHlo.TRef sig ⟨S65536x24x1, .f32⟩) Host.sqrt,
    StableHlo.unary main_v2 main_v3 (broadcastInDim S65536x24x3 ![0, 1, 2] bcast_S65536x24x1_S65536x24x3_0_1_2 : (⟨S65536x24x1, .f32⟩ : BufTy).Contents (Elt F) → (⟨S65536x24x3, .f32⟩ : BufTy).Contents (Elt F)),
    StableHlo.binary main_arg1 main_v3 main_v4 (Host.divf : (⟨S65536x24x3, .f32⟩ : BufTy).Contents (Elt F) → (⟨S65536x24x3, .f32⟩ : BufTy).Contents (Elt F) → (⟨S65536x24x3, .f32⟩ : BufTy).Contents (Elt F)) ]

theorem ops0_sub : (ops0 : List (HloOp τ sig (Elt F))).Forall fun op => op.bufs ⊆ tcRefs τ sig :=
  ⟨nullary_bufs_sub .., nullary_bufs_sub .., unary_bufs_sub .., binary_bufs_sub .., binary_bufs_sub .., nullary_bufs_sub .., binary_bufs_sub .., unary_bufs_sub .., unary_bufs_sub .., unary_bufs_sub .., binary_bufs_sub ..⟩

theorem ops0_fresh : (ops0 : List (HloOp τ sig (Elt F))).Forall fun op => op.fresh = ∅ :=
  ⟨rfl, rfl, rfl, rfl, rfl, rfl, rfl, rfl, rfl, rfl, rfl⟩

/-- The buffers stretch 0 writes. -/
abbrev wr0 : List (Ref sig .tc) := [main_cst, main_cst_0, main_v0, main_v1, main_call0_v0, main_call0_cst, main_call0_v1, main_call0_v2, main_v2, main_v3, main_v4]

theorem ops0_writes : (ops0 : List (HloOp τ sig (Elt F))).Forall fun op => op.writes ⊆ (wr0.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- Operations 11 … 22 of the program, in order. -/
abbrev ops1 : List (HloOp τ sig (Elt F)) :=
  [ StableHlo.unary main_v2 main_v5 (Host.cos : (⟨S65536x24x1, .f32⟩ : BufTy).Contents (Elt F) → (⟨S65536x24x1, .f32⟩ : BufTy).Contents (Elt F)),
    StableHlo.unary main_v5 main_v6 (broadcastInDim S65536x24x1x1 ![0, 1, 2] bcast_S65536x24x1_S65536x24x1x1_0_1_2 : (⟨S65536x24x1, .f32⟩ : BufTy).Contents (Elt F) → (⟨S65536x24x1x1, .f32⟩ : BufTy).Contents (Elt F)),
    StableHlo.unary main_v2 main_v7 (Host.sin : (⟨S65536x24x1, .f32⟩ : BufTy).Contents (Elt F) → (⟨S65536x24x1, .f32⟩ : BufTy).Contents (Elt F)),
    StableHlo.unary main_v7 main_v8 (broadcastInDim S65536x24x1x1 ![0, 1, 2] bcast_S65536x24x1_S65536x24x1x1_0_1_2 : (⟨S65536x24x1, .f32⟩ : BufTy).Contents (Elt F) → (⟨S65536x24x1x1, .f32⟩ : BufTy).Contents (Elt F)),
    StableHlo.unary main_v4 main_v9 ((extractStridedSlice S65536x24x1 ![0, 0, 0] · slices_S65536x24x3_S65536x24x1_0_0_0) : (⟨S65536x24x3, .f32⟩ : BufTy).Contents (Elt F) → (⟨S65536x24x1, .f32⟩ : BufTy).Contents (Elt F)),
    StableHlo.reshape main_v9 main_v10 rfl shapeCasts_S65536x24x1_S65536x24,
    StableHlo.unary main_v4 main_v11 ((extractStridedSlice S65536x24x1 ![0, 0, 1] · slices_S65536x24x3_S65536x24x1_0_0_1) : (⟨S65536x24x3, .f32⟩ : BufTy).Contents (Elt F) → (⟨S65536x24x1, .f32⟩ : BufTy).Contents (Elt F)),
    StableHlo.reshape main_v11 main_v12 rfl shapeCasts_S65536x24x1_S65536x24,
    StableHlo.unary main_v4 main_v13 ((extractStridedSlice S65536x24x1 ![0, 0, 2] · slices_S65536x24x3_S65536x24x1_0_0_2) : (⟨S65536x24x3, .f32⟩ : BufTy).Contents (Elt F) → (⟨S65536x24x1, .f32⟩ : BufTy).Contents (Elt F)),
    StableHlo.reshape main_v13 main_v14 rfl shapeCasts_S65536x24x1_S65536x24,
    StableHlo.nullary main_cst_1 (constant S_ .f32 0x00000000#32),
    StableHlo.unary main_cst_1 main_v15 (broadcastInDim S65536x24 ![] bcast_S_S65536x24 : (⟨S_, .f32⟩ : BufTy).Contents (Elt F) → (⟨S65536x24, .f32⟩ : BufTy).Contents (Elt F)) ]

theorem ops1_sub : (ops1 : List (HloOp τ sig (Elt F))).Forall fun op => op.bufs ⊆ tcRefs τ sig :=
  ⟨unary_bufs_sub .., unary_bufs_sub .., unary_bufs_sub .., unary_bufs_sub .., unary_bufs_sub .., reshape_bufs_sub .., unary_bufs_sub .., reshape_bufs_sub .., unary_bufs_sub .., reshape_bufs_sub .., nullary_bufs_sub .., unary_bufs_sub ..⟩

theorem ops1_fresh : (ops1 : List (HloOp τ sig (Elt F))).Forall fun op => op.fresh = ∅ :=
  ⟨rfl, rfl, rfl, rfl, rfl, rfl, rfl, rfl, rfl, rfl, rfl, rfl⟩

/-- The buffers stretch 1 writes. -/
abbrev wr1 : List (Ref sig .tc) := [main_v5, main_v6, main_v7, main_v8, main_v9, main_v10, main_v11, main_v12, main_v13, main_v14, main_cst_1, main_v15]

theorem ops1_writes : (ops1 : List (HloOp τ sig (Elt F))).Forall fun op => op.writes ⊆ (wr1.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- Operations 23 … 34 of the program, in order. -/
abbrev ops2 : List (HloOp τ sig (Elt F)) :=
  [ StableHlo.unary main_v14 main_v16 (Host.negf : (⟨S65536x24, .f32⟩ : BufTy).Contents (Elt F) → (⟨S65536x24, .f32⟩ : BufTy).Contents (Elt F)),
    StableHlo.unary main_v10 main_v17 (Host.negf : (⟨S65536x24, .f32⟩ : BufTy).Contents (Elt F) → (⟨S65536x24, .f32⟩ : BufTy).Contents (Elt F)),
    StableHlo.unary main_v12 main_v18 (Host.negf : (⟨S65536x24, .f32⟩ : BufTy).Contents (Elt F) → (⟨S65536x24, .f32⟩ : BufTy).Contents (Elt F)),
    StableHlo.unary main_v15 main_v19 (broadcastInDim S65536x24x1 ![0, 1] bcast_S65536x24_S65536x24x1_0_1 : (⟨S65536x24, .f32⟩ : BufTy).Contents (Elt F) → (⟨S65536x24x1, .f32⟩ : BufTy).Contents (Elt F)),
    StableHlo.unary main_v16 main_v20 (broadcastInDim S65536x24x1 ![0, 1] bcast_S65536x24_S65536x24x1_0_1 : (⟨S65536x24, .f32⟩ : BufTy).Contents (Elt F) → (⟨S65536x24x1, .f32⟩ : BufTy).Contents (Elt F)),
    StableHlo.unary main_v12 main_v21 (broadcastInDim S65536x24x1 ![0, 1] bcast_S65536x24_S65536x24x1_0_1 : (⟨S65536x24, .f32⟩ : BufTy).Contents (Elt F) → (⟨S65536x24x1, .f32⟩ : BufTy).Contents (Elt F)),
    StableHlo.unary main_v14 main_v22 (broadcastInDim S65536x24x1 ![0, 1] bcast_S65536x24_S65536x24x1_0_1 : (⟨S65536x24, .f32⟩ : BufTy).Contents (Elt F) → (⟨S65536x24x1, .f32⟩ : BufTy).Contents (Elt F)),
    StableHlo.unary main_v15 main_v23 (broadcastInDim S65536x24x1 ![0, 1] bcast_S65536x24_S65536x24x1_0_1 : (⟨S65536x24, .f32⟩ : BufTy).Contents (Elt F) → (⟨S65536x24x1, .f32⟩ : BufTy).Contents (Elt F)),
    StableHlo.unary main_v17 main_v24 (broadcastInDim S65536x24x1 ![0, 1] bcast_S65536x24_S65536x24x1_0_1 : (⟨S65536x24, .f32⟩ : BufTy).Contents (Elt F) → (⟨S65536x24x1, .f32⟩ : BufTy).Contents (Elt F)),
    StableHlo.unary main_v18 main_v25 (broadcastInDim S65536x24x1 ![0, 1] bcast_S65536x24_S65536x24x1_0_1 : (⟨S65536x24, .f32⟩ : BufTy).Contents (Elt F) → (⟨S65536x24x1, .f32⟩ : BufTy).Contents (Elt F)),
    StableHlo.unary main_v10 main_v26 (broadcastInDim S65536x24x1 ![0, 1] bcast_S65536x24_S65536x24x1_0_1 : (⟨S65536x24, .f32⟩ : BufTy).Contents (Elt F) → (⟨S65536x24x1, .f32⟩ : BufTy).Contents (Elt F)),
    StableHlo.unary main_v15 main_v27 (broadcastInDim S65536x24x1 ![0, 1] bcast_S65536x24_S65536x24x1_0_1 : (⟨S65536x24, .f32⟩ : BufTy).Contents (Elt F) → (⟨S65536x24x1, .f32⟩ : BufTy).Contents (Elt F)) ]

theorem ops2_sub : (ops2 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩

theorem ops2_fresh : (ops2 : List (HloOp τ sig (Elt F))).Forall fun op => op.fresh = ∅ :=
  ⟨rfl, rfl, rfl, rfl, rfl, rfl, rfl, rfl, rfl, rfl, rfl, rfl⟩

/-- The buffers stretch 2 writes. -/
abbrev wr2 : List (Ref sig .tc) := [main_v16, main_v17, main_v18, main_v19, main_v20, main_v21, main_v22, main_v23, main_v24, main_v25, main_v26, main_v27]

theorem ops2_writes : (ops2 : List (HloOp τ sig (Elt F))).Forall fun op => op.writes ⊆ (wr2.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- Operations 35 … 36 of the program, in order. -/
abbrev ops3 : List (HloOp τ sig (Elt F)) :=
  [ StableHlo.nary ![main_v19, main_v20, main_v21, main_v22, main_v23, main_v24, main_v25, main_v26, main_v27] main_v28 (fun u => concatenate S65536x24x9 2 [⟨S65536x24x1, u 0⟩, ⟨S65536x24x1, u 1⟩, ⟨S65536x24x1, u 2⟩, ⟨S65536x24x1, u 3⟩, ⟨S65536x24x1, u 4⟩, ⟨S65536x24x1, u 5⟩, ⟨S65536x24x1, u 6⟩, ⟨S65536x24x1, u 7⟩, ⟨S65536x24x1, u 8⟩] concatenates_S65536x24x1_S65536x24x1_S65536x24x1_S65536x24x1_S65536x24x1_S65536x24x1_S65536x24x1_S65536x24x1_S65536x24x1_S65536x24x9_d2),
    StableHlo.reshape main_v28 main_v29 rfl shapeCasts_S65536x24x9_S65536x24x3x3 ]

theorem ops3_sub : (ops3 : List (HloOp τ sig (Elt F))).Forall fun op => op.bufs ⊆ tcRefs τ sig :=
  ⟨nary_bufs_sub .., reshape_bufs_sub ..⟩

theorem ops3_fresh : (ops3 : List (HloOp τ sig (Elt F))).Forall fun op => op.fresh = ∅ :=
  ⟨rfl, rfl⟩

/-- The buffers stretch 3 writes. -/
abbrev wr3 : List (Ref sig .tc) := [main_v28, main_v29]

theorem ops3_writes : (ops3 : List (HloOp τ sig (Elt F))).Forall fun op => op.writes ⊆ (wr3.map (Proc.devRef (τ := τ) .tc)).toFinset :=
  ⟨writes_sub_of_mem rfl (by decide), writes_sub_of_mem rfl (by decide)⟩

/-- Operations 37 … 48 of the program, in order. -/
abbrev ops4 : List (HloOp τ sig (Elt F)) :=
  [ StableHlo.nullary main_v30 (iotaInDim S3x3 32 0),
    StableHlo.nullary main_v31 (iotaInDim S3x3 32 1),
    StableHlo.nullary main_c (constantI S_ 32 0#32),
    StableHlo.unary main_c main_v32 (broadcastInDim S3x3 ![] bcast_S_S3x3 : (⟨S_, .i32⟩ : BufTy).Contents (Elt F) → (⟨S3x3, .i32⟩ : BufTy).Contents (Elt F)),
    StableHlo.binary main_v30 main_v32 main_v33 (addi : (⟨S3x3, .i32⟩ : BufTy).Contents (Elt F) → (⟨S3x3, .i32⟩ : BufTy).Contents (Elt F) → (⟨S3x3, .i32⟩ : BufTy).Contents (Elt F)),
    StableHlo.binary main_v33 main_v31 main_v34 (cmpi .eq : (⟨S3x3, .i32⟩ : BufTy).Contents (Elt F) → (⟨S3x3, .i32⟩ : BufTy).Contents (Elt F) → (⟨S3x3, .i1⟩ : BufTy).Contents (Elt F)),
    StableHlo.unary main_v34 main_v35 (uitofp .f32 : (⟨S3x3, .i1⟩ : BufTy).Contents (Elt F) → (⟨S3x3, .f32⟩ : BufTy).Contents (Elt F)),
    StableHlo.unary main_v8 main_v36 (broadcastInDim S65536x24x3x3 ![0, 1, 2, 3] bcast_S65536x24x1x1_S65536x24x3x3_0_1_2_3 : (⟨S65536x24x1x1, .f32⟩ : BufTy).Contents (Elt F) → (⟨S65536x24x3x3, .f32⟩ : BufTy).Contents (Elt F)),
    StableHlo.binary main_v36 main_v29 main_v37 (mulf : (⟨S65536x24x3x3, .f32⟩ : BufTy).Contents (Elt F) → (⟨S65536x24x3x3, .f32⟩ : BufTy).Contents (Elt F) → (⟨S65536x24x3x3, .f32⟩ : BufTy).Contents (Elt F)),
    StableHlo.unary main_v35 main_v38 (broadcastInDim S1x1x3x3 ![2, 3] bcast_S3x3_S1x1x3x3_2_3 : (⟨S3x3, .f32⟩ : BufTy).Contents (Elt F) → (⟨S1x1x3x3, .f32⟩ : BufTy).Contents (Elt F)),
    StableHlo.unary main_v38 main_v39 (broadcastInDim S65536x24x3x3 ![0, 1, 2, 3] bcast_S1x1x3x3_S65536x24x3x3_0_1_2_3 : (⟨S1x1x3x3, .f32⟩ : BufTy).Contents (Elt F) → (⟨S65536x24x3x3, .f32⟩ : BufTy).Contents (Elt F)),
    StableHlo.binary main_v39 main_v37 main_v40 (addf : (⟨S65536x24x3x3, .f32⟩ : BufTy).Contents (Elt F) → (⟨S65536x24x3x3, .f32⟩ : BufTy).Contents (Elt F) → (⟨S65536x24x3x3, .f32⟩ : BufTy).Contents (Elt F)) ]

theorem ops4_sub : (ops4 : List (HloOp τ sig (Elt F))).Forall fun op => op.bufs ⊆ tcRefs τ sig :=
  ⟨nullary_bufs_sub .., nullary_bufs_sub .., nullary_bufs_sub .., unary_bufs_sub .., binary_bufs_sub .., binary_bufs_sub .., unary_bufs_sub .., unary_bufs_sub .., binary_bufs_sub .., unary_bufs_sub .., unary_bufs_sub .., binary_bufs_sub ..⟩

theorem ops4_fresh : (ops4 : List (HloOp τ sig (Elt F))).Forall fun op => op.fresh = ∅ :=
  ⟨rfl, rfl, rfl, rfl, rfl, rfl, rfl, rfl, rfl, rfl, rfl, rfl⟩

/-- The buffers stretch 4 writes. -/
abbrev wr4 : List (Ref sig .tc) := [main_v30, main_v31, main_c, main_v32, main_v33, main_v34, main_v35, main_v36, main_v37, main_v38, main_v39, main_v40]

theorem ops4_writes : (ops4 : List (HloOp τ sig (Elt F))).Forall fun op => op.writes ⊆ (wr4.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- Operations 49 … 60 of the program, in order. -/
abbrev ops5 : List (HloOp τ sig (Elt F)) :=
  [ StableHlo.nullary main_cst_2 (constant S_ .f32 0x3F800000#32),
    StableHlo.unary main_cst_2 main_v41 (broadcastInDim S65536x24x1x1 ![] bcast_S_S65536x24x1x1 : (⟨S_, .f32⟩ : BufTy).Contents (Elt F) → (⟨S65536x24x1x1, .f32⟩ : BufTy).Contents (Elt F)),
    StableHlo.binary main_v41 main_v6 main_v42 (subf : (⟨S65536x24x1x1, .f32⟩ : BufTy).Contents (Elt F) → (⟨S65536x24x1x1, .f32⟩ : BufTy).Contents (Elt F) → (⟨S65536x24x1x1, .f32⟩ : BufTy).Contents (Elt F)),
    StableHlo.binary main_v29 main_v29 main_v43 ((fun l r => Host.dotGeneral dot_S65536x24x3x3_S65536x24x3x3_S65536x24x3x3_3_2_2_3_01_01 none l r) : (⟨S65536x24x3x3, .f32⟩ : BufTy).Contents (Elt F) → (⟨S65536x24x3x3, .f32⟩ : BufTy).Contents (Elt F) → (⟨S65536x24x3x3, .f32⟩ : BufTy).Contents (Elt F)),
    StableHlo.unary main_v42 main_v44 (broadcastInDim S65536x24x3x3 ![0, 1, 2, 3] bcast_S65536x24x1x1_S65536x24x3x3_0_1_2_3 : (⟨S65536x24x1x1, .f32⟩ : BufTy).Contents (Elt F) → (⟨S65536x24x3x3, .f32⟩ : BufTy).Contents (Elt F)),
    StableHlo.binary main_v44 main_v43 main_v45 (mulf : (⟨S65536x24x3x3, .f32⟩ : BufTy).Contents (Elt F) → (⟨S65536x24x3x3, .f32⟩ : BufTy).Contents (Elt F) → (⟨S65536x24x3x3, .f32⟩ : BufTy).Contents (Elt F)),
    StableHlo.binary main_v40 main_v45 main_v46 (addf : (⟨S65536x24x3x3, .f32⟩ : BufTy).Contents (Elt F) → (⟨S65536x24x3x3, .f32⟩ : BufTy).Contents (Elt F) → (⟨S65536x24x3x3, .f32⟩ : BufTy).Contents (Elt F)),
    StableHlo.unary main_arg0 main_v47 (broadcastInDim S1x24x3x1 ![1, 2] bcast_S24x3_S1x24x3x1_1_2 : (⟨S24x3, .f32⟩ : BufTy).Contents (Elt F) → (⟨S1x24x3x1, .f32⟩ : BufTy).Contents (Elt F)),
    StableHlo.unary main_v47 main_v48 (broadcastInDim S65536x24x3x1 ![0, 1, 2, 3] bcast_S1x24x3x1_S65536x24x3x1_0_1_2_3 : (⟨S1x24x3x1, .f32⟩ : BufTy).Contents (Elt F) → (⟨S65536x24x3x1, .f32⟩ : BufTy).Contents (Elt F)),
    StableHlo.binary main_v46 main_v48 main_v49 ((fun a b => concatenate S65536x24x3x4 3 [⟨S65536x24x3x3, a⟩, ⟨S65536x24x3x1, b⟩] concatenates_S65536x24x3x3_S65536x24x3x1_S65536x24x3x4_d3) : (⟨S65536x24x3x3, .f32⟩ : BufTy).Contents (Elt F) → (⟨S65536x24x3x1, .f32⟩ : BufTy).Contents (Elt F) → (⟨S65536x24x3x4, .f32⟩ : BufTy).Contents (Elt F)),
    StableHlo.unary main_cst main_v50 (broadcastInDim S65536x24x1x4 ![3] bcast_S4_S65536x24x1x4_3 : (⟨S4, .f32⟩ : BufTy).Contents (Elt F) → (⟨S65536x24x1x4, .f32⟩ : BufTy).Contents (Elt F)),
    StableHlo.binary main_v49 main_v50 main_v51 ((fun a b => concatenate S65536x24x4x4 2 [⟨S65536x24x3x4, a⟩, ⟨S65536x24x1x4, b⟩] concatenates_S65536x24x3x4_S65536x24x1x4_S65536x24x4x4_d2) : (⟨S65536x24x3x4, .f32⟩ : BufTy).Contents (Elt F) → (⟨S65536x24x1x4, .f32⟩ : BufTy).Contents (Elt F) → (⟨S65536x24x4x4, .f32⟩ : BufTy).Contents (Elt F)) ]

theorem ops5_sub : (ops5 : List (HloOp τ sig (Elt F))).Forall fun op => op.bufs ⊆ tcRefs τ sig :=
  ⟨nullary_bufs_sub .., unary_bufs_sub .., binary_bufs_sub .., binary_bufs_sub .., unary_bufs_sub .., binary_bufs_sub .., binary_bufs_sub .., unary_bufs_sub .., unary_bufs_sub .., binary_bufs_sub .., unary_bufs_sub .., binary_bufs_sub ..⟩

theorem ops5_fresh : (ops5 : List (HloOp τ sig (Elt F))).Forall fun op => op.fresh = ∅ :=
  ⟨rfl, rfl, rfl, rfl, rfl, rfl, rfl, rfl, rfl, rfl, rfl, rfl⟩

/-- The buffers stretch 5 writes. -/
abbrev wr5 : List (Ref sig .tc) := [main_cst_2, main_v41, main_v42, main_v43, main_v44, main_v45, main_v46, main_v47, main_v48, main_v49, main_v50, main_v51]

theorem ops5_writes : (ops5 : List (HloOp τ sig (Elt F))).Forall fun op => op.writes ⊆ (wr5.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- Operations 61 … 63 of the program, in order. -/
abbrev ops6 : List (HloOp τ sig (Elt F)) :=
  [ StableHlo.unary main_v51 main_v52 ((extractStridedSlice S65536x1x4x4 ![0, 0, 0, 0] · slices_S65536x24x4x4_S65536x1x4x4_0_0_0_0) : (⟨S65536x24x4x4, .f32⟩ : BufTy).Contents (Elt F) → (⟨S65536x1x4x4, .f32⟩ : BufTy).Contents (Elt F)),
    StableHlo.reshape main_v52 main_v53 rfl shapeCasts_S65536x1x4x4_S65536x4x4,
    StableHlo.unary main_v51 main_v54 ((extractStridedSlice S65536x1x4x4 ![0, 1, 0, 0] · slices_S65536x24x4x4_S65536x1x4x4_0_1_0_0) : (⟨S65536x24x4x4, .f32⟩ : BufTy).Contents (Elt F) → (⟨S65536x1x4x4, .f32⟩ : BufTy).Contents (Elt F)) ]

theorem ops6_sub : (ops6 : List (HloOp τ sig (Elt F))).Forall fun op => op.bufs ⊆ tcRefs τ sig :=
  ⟨unary_bufs_sub .., reshape_bufs_sub .., unary_bufs_sub ..⟩

theorem ops6_fresh : (ops6 : List (HloOp τ sig (Elt F))).Forall fun op => op.fresh = ∅ :=
  ⟨rfl, rfl, rfl⟩

/-- The buffers stretch 6 writes. -/
abbrev wr6 : List (Ref sig .tc) := [main_v52, main_v53, main_v54]

theorem ops6_writes : (ops6 : List (HloOp τ sig (Elt F))).Forall fun op => op.writes ⊆ (wr6.map (Proc.devRef (τ := τ) .tc)).toFinset :=
  ⟨writes_sub_of_mem rfl (by decide), writes_sub_of_mem rfl (by decide), writes_sub_of_mem rfl (by decide)⟩

/-- Operations 64 … 74 of the program, in order. -/
abbrev ops7 : List (HloOp τ sig (Elt F)) :=
  [ StableHlo.reshape main_v54 main_v55 rfl shapeCasts_S65536x1x4x4_S65536x4x4,
    StableHlo.binary main_v53 main_v55 main_v56 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)),
    StableHlo.unary main_v51 main_v57 ((extractStridedSlice S65536x1x4x4 ![0, 2, 0, 0] · slices_S65536x24x4x4_S65536x1x4x4_0_2_0_0) : (⟨S65536x24x4x4, .f32⟩ : BufTy).Contents (Elt F) → (⟨S65536x1x4x4, .f32⟩ : BufTy).Contents (Elt F)),
    StableHlo.reshape main_v57 main_v58 rfl shapeCasts_S65536x1x4x4_S65536x4x4,
    StableHlo.binary main_v53 main_v58 main_v59 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)),
    StableHlo.unary main_v51 main_v60 ((extractStridedSlice S65536x1x4x4 ![0, 3, 0, 0] · slices_S65536x24x4x4_S65536x1x4x4_0_3_0_0) : (⟨S65536x24x4x4, .f32⟩ : BufTy).Contents (Elt F) → (⟨S65536x1x4x4, .f32⟩ : BufTy).Contents (Elt F)),
    StableHlo.reshape main_v60 main_v61 rfl shapeCasts_S65536x1x4x4_S65536x4x4,
    StableHlo.binary main_v53 main_v61 main_v62 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)),
    StableHlo.unary main_v51 main_v63 ((extractStridedSlice S65536x1x4x4 ![0, 4, 0, 0] · slices_S65536x24x4x4_S65536x1x4x4_0_4_0_0) : (⟨S65536x24x4x4, .f32⟩ : BufTy).Contents (Elt F) → (⟨S65536x1x4x4, .f32⟩ : BufTy).Contents (Elt F)),
    StableHlo.reshape main_v63 main_v64 rfl shapeCasts_S65536x1x4x4_S65536x4x4,
    StableHlo.binary main_v56 main_v64 main_v65 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)) ]

theorem ops7_sub : (ops7 : List (HloOp τ sig (Elt F))).Forall fun op => op.bufs ⊆ tcRefs τ sig :=
  ⟨reshape_bufs_sub .., binary_bufs_sub .., unary_bufs_sub .., reshape_bufs_sub .., binary_bufs_sub .., unary_bufs_sub .., reshape_bufs_sub .., binary_bufs_sub .., unary_bufs_sub .., reshape_bufs_sub .., binary_bufs_sub ..⟩

theorem ops7_fresh : (ops7 : List (HloOp τ sig (Elt F))).Forall fun op => op.fresh = ∅ :=
  ⟨rfl, rfl, rfl, rfl, rfl, rfl, rfl, rfl, rfl, rfl, rfl⟩

/-- The buffers stretch 7 writes. -/
abbrev wr7 : List (Ref sig .tc) := [main_v55, main_v56, main_v57, main_v58, main_v59, main_v60, main_v61, main_v62, main_v63, main_v64, main_v65]

theorem ops7_writes : (ops7 : List (HloOp τ sig (Elt F))).Forall fun op => op.writes ⊆ (wr7.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- Operations 75 … 89 of the program, in order. -/
abbrev ops8 : List (HloOp τ sig (Elt F)) :=
  [ StableHlo.unary main_v51 main_v66 ((extractStridedSlice S65536x1x4x4 ![0, 5, 0, 0] · slices_S65536x24x4x4_S65536x1x4x4_0_5_0_0) : (⟨S65536x24x4x4, .f32⟩ : BufTy).Contents (Elt F) → (⟨S65536x1x4x4, .f32⟩ : BufTy).Contents (Elt F)),
    StableHlo.reshape main_v66 main_v67 rfl shapeCasts_S65536x1x4x4_S65536x4x4,
    StableHlo.binary main_v59 main_v67 main_v68 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)),
    StableHlo.unary main_v51 main_v69 ((extractStridedSlice S65536x1x4x4 ![0, 6, 0, 0] · slices_S65536x24x4x4_S65536x1x4x4_0_6_0_0) : (⟨S65536x24x4x4, .f32⟩ : BufTy).Contents (Elt F) → (⟨S65536x1x4x4, .f32⟩ : BufTy).Contents (Elt F)),
    StableHlo.reshape main_v69 main_v70 rfl shapeCasts_S65536x1x4x4_S65536x4x4,
    StableHlo.binary main_v62 main_v70 main_v71 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)),
    StableHlo.unary main_v51 main_v72 ((extractStridedSlice S65536x1x4x4 ![0, 7, 0, 0] · slices_S65536x24x4x4_S65536x1x4x4_0_7_0_0) : (⟨S65536x24x4x4, .f32⟩ : BufTy).Contents (Elt F) → (⟨S65536x1x4x4, .f32⟩ : BufTy).Contents (Elt F)),
    StableHlo.reshape main_v72 main_v73 rfl shapeCasts_S65536x1x4x4_S65536x4x4,
    StableHlo.binary main_v65 main_v73 main_v74 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)),
    StableHlo.unary main_v51 main_v75 ((extractStridedSlice S65536x1x4x4 ![0, 8, 0, 0] · slices_S65536x24x4x4_S65536x1x4x4_0_8_0_0) : (⟨S65536x24x4x4, .f32⟩ : BufTy).Contents (Elt F) → (⟨S65536x1x4x4, .f32⟩ : BufTy).Contents (Elt F)),
    StableHlo.reshape main_v75 main_v76 rfl shapeCasts_S65536x1x4x4_S65536x4x4,
    StableHlo.binary main_v68 main_v76 main_v77 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)),
    StableHlo.unary main_v51 main_v78 ((extractStridedSlice S65536x1x4x4 ![0, 9, 0, 0] · slices_S65536x24x4x4_S65536x1x4x4_0_9_0_0) : (⟨S65536x24x4x4, .f32⟩ : BufTy).Contents (Elt F) → (⟨S65536x1x4x4, .f32⟩ : BufTy).Contents (Elt F)),
    StableHlo.reshape main_v78 main_v79 rfl shapeCasts_S65536x1x4x4_S65536x4x4,
    StableHlo.binary main_v71 main_v79 main_v80 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)) ]

theorem ops8_sub : (ops8 : List (HloOp τ sig (Elt F))).Forall fun op => op.bufs ⊆ tcRefs τ sig :=
  ⟨unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub ..⟩

theorem ops8_fresh : (ops8 : List (HloOp τ sig (Elt F))).Forall fun op => op.fresh = ∅ :=
  ⟨rfl, rfl, rfl, rfl, rfl, rfl, rfl, rfl, rfl, rfl, rfl, rfl, rfl, rfl, rfl⟩

/-- The buffers stretch 8 writes. -/
abbrev wr8 : List (Ref sig .tc) := [main_v66, main_v67, main_v68, main_v69, main_v70, main_v71, main_v72, main_v73, main_v74, main_v75, main_v76, main_v77, main_v78, main_v79, main_v80]

theorem ops8_writes : (ops8 : List (HloOp τ sig (Elt F))).Forall fun op => op.writes ⊆ (wr8.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- Operations 90 … 104 of the program, in order. -/
abbrev ops9 : List (HloOp τ sig (Elt F)) :=
  [ StableHlo.unary main_v51 main_v81 ((extractStridedSlice S65536x1x4x4 ![0, 10, 0, 0] · slices_S65536x24x4x4_S65536x1x4x4_0_10_0_0) : (⟨S65536x24x4x4, .f32⟩ : BufTy).Contents (Elt F) → (⟨S65536x1x4x4, .f32⟩ : BufTy).Contents (Elt F)),
    StableHlo.reshape main_v81 main_v82 rfl shapeCasts_S65536x1x4x4_S65536x4x4,
    StableHlo.binary main_v74 main_v82 main_v83 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)),
    StableHlo.unary main_v51 main_v84 ((extractStridedSlice S65536x1x4x4 ![0, 11, 0, 0] · slices_S65536x24x4x4_S65536x1x4x4_0_11_0_0) : (⟨S65536x24x4x4, .f32⟩ : BufTy).Contents (Elt F) → (⟨S65536x1x4x4, .f32⟩ : BufTy).Contents (Elt F)),
    StableHlo.reshape main_v84 main_v85 rfl shapeCasts_S65536x1x4x4_S65536x4x4,
    StableHlo.binary main_v77 main_v85 main_v86 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)),
    StableHlo.unary main_v51 main_v87 ((extractStridedSlice S65536x1x4x4 ![0, 12, 0, 0] · slices_S65536x24x4x4_S65536x1x4x4_0_12_0_0) : (⟨S65536x24x4x4, .f32⟩ : BufTy).Contents (Elt F) → (⟨S65536x1x4x4, .f32⟩ : BufTy).Contents (Elt F)),
    StableHlo.reshape main_v87 main_v88 rfl shapeCasts_S65536x1x4x4_S65536x4x4,
    StableHlo.binary main_v80 main_v88 main_v89 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)),
    StableHlo.unary main_v51 main_v90 ((extractStridedSlice S65536x1x4x4 ![0, 13, 0, 0] · slices_S65536x24x4x4_S65536x1x4x4_0_13_0_0) : (⟨S65536x24x4x4, .f32⟩ : BufTy).Contents (Elt F) → (⟨S65536x1x4x4, .f32⟩ : BufTy).Contents (Elt F)),
    StableHlo.reshape main_v90 main_v91 rfl shapeCasts_S65536x1x4x4_S65536x4x4,
    StableHlo.binary main_v80 main_v91 main_v92 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)),
    StableHlo.unary main_v51 main_v93 ((extractStridedSlice S65536x1x4x4 ![0, 14, 0, 0] · slices_S65536x24x4x4_S65536x1x4x4_0_14_0_0) : (⟨S65536x24x4x4, .f32⟩ : BufTy).Contents (Elt F) → (⟨S65536x1x4x4, .f32⟩ : BufTy).Contents (Elt F)),
    StableHlo.reshape main_v93 main_v94 rfl shapeCasts_S65536x1x4x4_S65536x4x4,
    StableHlo.binary main_v80 main_v94 main_v95 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)) ]

theorem ops9_sub : (ops9 : List (HloOp τ sig (Elt F))).Forall fun op => op.bufs ⊆ tcRefs τ sig :=
  ⟨unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub ..⟩

theorem ops9_fresh : (ops9 : List (HloOp τ sig (Elt F))).Forall fun op => op.fresh = ∅ :=
  ⟨rfl, rfl, rfl, rfl, rfl, rfl, rfl, rfl, rfl, rfl, rfl, rfl, rfl, rfl, rfl⟩

/-- The buffers stretch 9 writes. -/
abbrev wr9 : List (Ref sig .tc) := [main_v81, main_v82, main_v83, main_v84, main_v85, main_v86, main_v87, main_v88, main_v89, main_v90, main_v91, main_v92, main_v93, main_v94, main_v95]

theorem ops9_writes : (ops9 : List (HloOp τ sig (Elt F))).Forall fun op => op.writes ⊆ (wr9.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- Operations 105 … 119 of the program, in order. -/
abbrev ops10 : List (HloOp τ sig (Elt F)) :=
  [ StableHlo.unary main_v51 main_v96 ((extractStridedSlice S65536x1x4x4 ![0, 15, 0, 0] · slices_S65536x24x4x4_S65536x1x4x4_0_15_0_0) : (⟨S65536x24x4x4, .f32⟩ : BufTy).Contents (Elt F) → (⟨S65536x1x4x4, .f32⟩ : BufTy).Contents (Elt F)),
    StableHlo.reshape main_v96 main_v97 rfl shapeCasts_S65536x1x4x4_S65536x4x4,
    StableHlo.binary main_v89 main_v97 main_v98 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)),
    StableHlo.unary main_v51 main_v99 ((extractStridedSlice S65536x1x4x4 ![0, 16, 0, 0] · slices_S65536x24x4x4_S65536x1x4x4_0_16_0_0) : (⟨S65536x24x4x4, .f32⟩ : BufTy).Contents (Elt F) → (⟨S65536x1x4x4, .f32⟩ : BufTy).Contents (Elt F)),
    StableHlo.reshape main_v99 main_v100 rfl shapeCasts_S65536x1x4x4_S65536x4x4,
    StableHlo.binary main_v92 main_v100 main_v101 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)),
    StableHlo.unary main_v51 main_v102 ((extractStridedSlice S65536x1x4x4 ![0, 17, 0, 0] · slices_S65536x24x4x4_S65536x1x4x4_0_17_0_0) : (⟨S65536x24x4x4, .f32⟩ : BufTy).Contents (Elt F) → (⟨S65536x1x4x4, .f32⟩ : BufTy).Contents (Elt F)),
    StableHlo.reshape main_v102 main_v103 rfl shapeCasts_S65536x1x4x4_S65536x4x4,
    StableHlo.binary main_v95 main_v103 main_v104 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)),
    StableHlo.unary main_v51 main_v105 ((extractStridedSlice S65536x1x4x4 ![0, 18, 0, 0] · slices_S65536x24x4x4_S65536x1x4x4_0_18_0_0) : (⟨S65536x24x4x4, .f32⟩ : BufTy).Contents (Elt F) → (⟨S65536x1x4x4, .f32⟩ : BufTy).Contents (Elt F)),
    StableHlo.reshape main_v105 main_v106 rfl shapeCasts_S65536x1x4x4_S65536x4x4,
    StableHlo.binary main_v101 main_v106 main_v107 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)),
    StableHlo.unary main_v51 main_v108 ((extractStridedSlice S65536x1x4x4 ![0, 19, 0, 0] · slices_S65536x24x4x4_S65536x1x4x4_0_19_0_0) : (⟨S65536x24x4x4, .f32⟩ : BufTy).Contents (Elt F) → (⟨S65536x1x4x4, .f32⟩ : BufTy).Contents (Elt F)),
    StableHlo.reshape main_v108 main_v109 rfl shapeCasts_S65536x1x4x4_S65536x4x4,
    StableHlo.binary main_v104 main_v109 main_v110 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)) ]

theorem ops10_sub : (ops10 : List (HloOp τ sig (Elt F))).Forall fun op => op.bufs ⊆ tcRefs τ sig :=
  ⟨unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub ..⟩

theorem ops10_fresh : (ops10 : List (HloOp τ sig (Elt F))).Forall fun op => op.fresh = ∅ :=
  ⟨rfl, rfl, rfl, rfl, rfl, rfl, rfl, rfl, rfl, rfl, rfl, rfl, rfl, rfl, rfl⟩

/-- The buffers stretch 10 writes. -/
abbrev wr10 : List (Ref sig .tc) := [main_v96, main_v97, main_v98, main_v99, main_v100, main_v101, main_v102, main_v103, main_v104, main_v105, main_v106, main_v107, main_v108, main_v109, main_v110]

theorem ops10_writes : (ops10 : List (HloOp τ sig (Elt F))).Forall fun op => op.writes ⊆ (wr10.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- Operations 120 … 123 of the program, in order. -/
abbrev ops11 : List (HloOp τ sig (Elt F)) :=
  [ StableHlo.unary main_v51 main_v111 ((extractStridedSlice S65536x1x4x4 ![0, 20, 0, 0] · slices_S65536x24x4x4_S65536x1x4x4_0_20_0_0) : (⟨S65536x24x4x4, .f32⟩ : BufTy).Contents (Elt F) → (⟨S65536x1x4x4, .f32⟩ : BufTy).Contents (Elt F)),
    StableHlo.reshape main_v111 main_v112 rfl shapeCasts_S65536x1x4x4_S65536x4x4,
    StableHlo.binary main_v107 main_v112 main_v113 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)),
    StableHlo.unary main_v51 main_v114 ((extractStridedSlice S65536x1x4x4 ![0, 21, 0, 0] · slices_S65536x24x4x4_S65536x1x4x4_0_21_0_0) : (⟨S65536x24x4x4, .f32⟩ : BufTy).Contents (Elt F) → (⟨S65536x1x4x4, .f32⟩ : BufTy).Contents (Elt F)) ]

theorem ops11_sub : (ops11 : List (HloOp τ sig (Elt F))).Forall fun op => op.bufs ⊆ tcRefs τ sig :=
  ⟨unary_bufs_sub .., reshape_bufs_sub .., binary_bufs_sub .., unary_bufs_sub ..⟩

theorem ops11_fresh : (ops11 : List (HloOp τ sig (Elt F))).Forall fun op => op.fresh = ∅ :=
  ⟨rfl, rfl, rfl, rfl⟩

/-- The buffers stretch 11 writes. -/
abbrev wr11 : List (Ref sig .tc) := [main_v111, main_v112, main_v113, main_v114]

theorem ops11_writes : (ops11 : List (HloOp τ sig (Elt F))).Forall fun op => op.writes ⊆ (wr11.map (Proc.devRef (τ := τ) .tc)).toFinset :=
  ⟨writes_sub_of_mem rfl (by decide), writes_sub_of_mem rfl (by decide), writes_sub_of_mem rfl (by decide), writes_sub_of_mem rfl (by decide)⟩

/-- Operations 124 … 131 of the program, in order. -/
abbrev ops12 : List (HloOp τ sig (Elt F)) :=
  [ StableHlo.reshape main_v114 main_v115 rfl shapeCasts_S65536x1x4x4_S65536x4x4,
    StableHlo.binary main_v110 main_v115 main_v116 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)),
    StableHlo.unary main_v51 main_v117 ((extractStridedSlice S65536x1x4x4 ![0, 22, 0, 0] · slices_S65536x24x4x4_S65536x1x4x4_0_22_0_0) : (⟨S65536x24x4x4, .f32⟩ : BufTy).Contents (Elt F) → (⟨S65536x1x4x4, .f32⟩ : BufTy).Contents (Elt F)),
    StableHlo.reshape main_v117 main_v118 rfl shapeCasts_S65536x1x4x4_S65536x4x4,
    StableHlo.binary main_v113 main_v118 main_v119 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)),
    StableHlo.unary main_v51 main_v120 ((extractStridedSlice S65536x1x4x4 ![0, 23, 0, 0] · slices_S65536x24x4x4_S65536x1x4x4_0_23_0_0) : (⟨S65536x24x4x4, .f32⟩ : BufTy).Contents (Elt F) → (⟨S65536x1x4x4, .f32⟩ : BufTy).Contents (Elt F)),
    StableHlo.reshape main_v120 main_v121 rfl shapeCasts_S65536x1x4x4_S65536x4x4,
    StableHlo.binary main_v116 main_v121 main_v122 ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)) ]

theorem ops12_sub : (ops12 : List (HloOp τ sig (Elt F))).Forall fun op => op.bufs ⊆ tcRefs τ sig :=
  ⟨reshape_bufs_sub .., binary_bufs_sub .., unary_bufs_sub .., reshape_bufs_sub .., binary_bufs_sub .., unary_bufs_sub .., reshape_bufs_sub .., binary_bufs_sub ..⟩

theorem ops12_fresh : (ops12 : List (HloOp τ sig (Elt F))).Forall fun op => op.fresh = ∅ :=
  ⟨rfl, rfl, rfl, rfl, rfl, rfl, rfl, rfl⟩

/-- The buffers stretch 12 writes. -/
abbrev wr12 : List (Ref sig .tc) := [main_v115, main_v116, main_v117, main_v118, main_v119, main_v120, main_v121, main_v122]

theorem ops12_writes : (ops12 : List (HloOp τ sig (Elt F))).Forall fun op => op.writes ⊆ (wr12.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- Operations 132 … 155 of the program, in order. -/
abbrev ops13 : List (HloOp τ sig (Elt F)) :=
  [ StableHlo.unary main_v53 main_v123 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v56 main_v124 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v59 main_v125 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v62 main_v126 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v65 main_v127 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v68 main_v128 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v71 main_v129 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v74 main_v130 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v77 main_v131 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v80 main_v132 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v83 main_v133 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v86 main_v134 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v89 main_v135 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v92 main_v136 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v95 main_v137 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v98 main_v138 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v101 main_v139 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v104 main_v140 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v107 main_v141 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v110 main_v142 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v113 main_v143 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v116 main_v144 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v119 main_v145 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)),
    StableHlo.unary main_v122 main_v146 (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)) ]

theorem ops13_sub : (ops13 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩

theorem ops13_fresh : (ops13 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

/-- The buffers stretch 13 writes. -/
abbrev wr13 : List (Ref sig .tc) := [main_v123, main_v124, main_v125, main_v126, main_v127, main_v128, main_v129, main_v130, main_v131, main_v132, main_v133, main_v134, main_v135, main_v136, main_v137, main_v138, main_v139, main_v140, main_v141, main_v142, main_v143, main_v144, main_v145, main_v146]

theorem ops13_writes : (ops13 : List (HloOp τ sig (Elt F))).Forall fun op => op.writes ⊆ (wr13.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- Operations 156 … 163 of the program, in order. -/
abbrev ops14 : List (HloOp τ sig (Elt F)) :=
  [ StableHlo.nary ![main_v123, main_v124, main_v125, main_v126, main_v127, main_v128, main_v129, main_v130, main_v131, main_v132, main_v133, main_v134, main_v135, main_v136, main_v137, main_v138] main_v147 (fun u => concatenate S65536x16x4x4 1 [⟨S65536x1x4x4, u 0⟩, ⟨S65536x1x4x4, u 1⟩, ⟨S65536x1x4x4, u 2⟩, ⟨S65536x1x4x4, u 3⟩, ⟨S65536x1x4x4, u 4⟩, ⟨S65536x1x4x4, u 5⟩, ⟨S65536x1x4x4, u 6⟩, ⟨S65536x1x4x4, u 7⟩, ⟨S65536x1x4x4, u 8⟩, ⟨S65536x1x4x4, u 9⟩, ⟨S65536x1x4x4, u 10⟩, ⟨S65536x1x4x4, u 11⟩, ⟨S65536x1x4x4, u 12⟩, ⟨S65536x1x4x4, u 13⟩, ⟨S65536x1x4x4, u 14⟩, ⟨S65536x1x4x4, u 15⟩] concatenates_S65536x1x4x4_S65536x1x4x4_S65536x1x4x4_S65536x1x4x4_S65536x1x4x4_S65536x1x4x4_S65536x1x4x4_S65536x1x4x4_S65536x1x4x4_S65536x1x4x4_S65536x1x4x4_S65536x1x4x4_S65536x1x4x4_S65536x1x4x4_S65536x1x4x4_S65536x1x4x4_S65536x16x4x4_d1),
    StableHlo.nary ![main_v139, main_v140, main_v141, main_v142, main_v143, main_v144, main_v145, main_v146] main_v148 (fun u => concatenate S65536x8x4x4 1 [⟨S65536x1x4x4, u 0⟩, ⟨S65536x1x4x4, u 1⟩, ⟨S65536x1x4x4, u 2⟩, ⟨S65536x1x4x4, u 3⟩, ⟨S65536x1x4x4, u 4⟩, ⟨S65536x1x4x4, u 5⟩, ⟨S65536x1x4x4, u 6⟩, ⟨S65536x1x4x4, u 7⟩] concatenates_S65536x1x4x4_S65536x1x4x4_S65536x1x4x4_S65536x1x4x4_S65536x1x4x4_S65536x1x4x4_S65536x1x4x4_S65536x1x4x4_S65536x8x4x4_d1),
    StableHlo.binary main_v147 main_v148 main_v149 ((fun a b => concatenate S65536x24x4x4 1 [⟨S65536x16x4x4, a⟩, ⟨S65536x8x4x4, b⟩] concatenates_S65536x16x4x4_S65536x8x4x4_S65536x24x4x4_d1) : (⟨S65536x16x4x4, .f32⟩ : BufTy).Contents (Elt F) → (⟨S65536x8x4x4, .f32⟩ : BufTy).Contents (Elt F) → (⟨S65536x24x4x4, .f32⟩ : BufTy).Contents (Elt F)),
    StableHlo.unary main_v149 main_v150 ((extractStridedSlice S65536x24x3x1 ![0, 0, 0, 3] · slices_S65536x24x4x4_S65536x24x3x1_0_0_0_3) : (⟨S65536x24x4x4, .f32⟩ : BufTy).Contents (Elt F) → (⟨S65536x24x3x1, .f32⟩ : BufTy).Contents (Elt F)),
    StableHlo.reshape main_v150 main_v151 rfl shapeCasts_S65536x24x3x1_S65536x24x3,
    StableHlo.unary main_arg2 main_v152 (broadcastInDim S65536x1x3 ![0, 2] bcast_S65536x3_S65536x1x3_0_2 : (⟨S65536x3, .f32⟩ : BufTy).Contents (Elt F) → (⟨S65536x1x3, .f32⟩ : BufTy).Contents (Elt F)),
    StableHlo.unary main_v152 main_v153 (broadcastInDim S65536x24x3 ![0, 1, 2] bcast_S65536x1x3_S65536x24x3_0_1_2 : (⟨S65536x1x3, .f32⟩ : BufTy).Contents (Elt F) → (⟨S65536x24x3, .f32⟩ : BufTy).Contents (Elt F)),
    StableHlo.binary main_v151 main_v153 main_v154 (addf : (⟨S65536x24x3, .f32⟩ : BufTy).Contents (Elt F) → (⟨S65536x24x3, .f32⟩ : BufTy).Contents (Elt F) → (⟨S65536x24x3, .f32⟩ : BufTy).Contents (Elt F)) ]

theorem ops14_sub : (ops14 : List (HloOp τ sig (Elt F))).Forall fun op => op.bufs ⊆ tcRefs τ sig :=
  ⟨nary_bufs_sub .., nary_bufs_sub .., binary_bufs_sub .., unary_bufs_sub .., reshape_bufs_sub .., unary_bufs_sub .., unary_bufs_sub .., binary_bufs_sub ..⟩

theorem ops14_fresh : (ops14 : List (HloOp τ sig (Elt F))).Forall fun op => op.fresh = ∅ :=
  ⟨rfl, rfl, rfl, rfl, rfl, rfl, rfl, rfl⟩

/-- The buffers stretch 14 writes. -/
abbrev wr14 : List (Ref sig .tc) := [main_v147, main_v148, main_v149, main_v150, main_v151, main_v152, main_v153, main_v154]

theorem ops14_writes : (ops14 : List (HloOp τ sig (Elt F))).Forall fun op => op.writes ⊆ (wr14.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- The operations of the program's printed part 0. -/
abbrev part0 : List (HloOp τ sig (Elt F)) := ops0 ++ ops1 ++ ops2 ++ ops3 ++ ops4 ++ ops5 ++ ops6

theorem part0_eq (c : Dev nD) : main_part0 (F := F) c = seq part0 := by
  chain_rfl

/-- The operations of the program's printed part 1. -/
abbrev part1 : List (HloOp τ sig (Elt F)) := ops7 ++ ops8 ++ ops9 ++ ops10 ++ ops11

theorem part1_eq (c : Dev nD) : main_part1 (F := F) c = seq part1 := by
  chain_rfl

/-- The operations of the program's printed part 2. -/
abbrev part2 : List (HloOp τ sig (Elt F)) := ops12 ++ ops13 ++ ops14

theorem part2_eq (c : Dev nD) : main_part2 (F := F) c = seq part2 := by
  chain_rfl

/-- The whole program's operations. -/
abbrev ops : List (HloOp τ sig (Elt F)) := part0 ++ (part1 ++ part2)

theorem main_eq (c : Dev nD) : main (F := F) c = seq ops := by
  show (main_part0 c >>= fun _ => main_part1 c >>= fun _ => main_part2 c) = _
  rw [seq_append part0 (part1 ++ part2), seq_append part1 part2, part0_eq, part1_eq, part2_eq]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append (forall_append (forall_append (forall_append (forall_append (forall_append (forall_append ops0_sub ops1_sub) ops2_sub) ops3_sub) ops4_sub) ops5_sub) ops6_sub) (forall_append (forall_append (forall_append (forall_append (forall_append ops7_sub ops8_sub) ops9_sub) ops10_sub) ops11_sub) (forall_append (forall_append ops12_sub ops13_sub) ops14_sub))

theorem ops_fresh : ∀ op ∈ (ops : List (HloOp τ sig (Elt F))), op.fresh = ∅ :=
  List.forall_iff_forall_mem.mp
    (forall_append (forall_append (forall_append (forall_append (forall_append (forall_append (forall_append ops0_fresh ops1_fresh) ops2_fresh) ops3_fresh) ops4_fresh) ops5_fresh) ops6_fresh) (forall_append (forall_append (forall_append (forall_append (forall_append ops7_fresh ops8_fresh) ops9_fresh) ops10_fresh) ops11_fresh) (forall_append (forall_append ops12_fresh ops13_fresh) ops14_fresh)))

/-- The contents after the whole line: the stretches' folds, one after the other. -/
theorem after_ops (V : Valuation τ sig (Elt F)) :
    after ops V = (after ops14 (after ops13 (after ops12 (after ops11 (after ops10 (after ops9 (after ops8 (after ops7 (after ops6 (after ops5 (after ops4 (after ops3 (after ops2 (after ops1 (after ops0 V))))))))))))))) := by
  simp only [ops, part0, part1, part2, after_append]

/-- The bare run: from any memory with zero counters every weakly fair execution of the program terminates, and ends
    with each buffer at the fold of the 164 operations over its device's launch contents. -/
theorem run_after (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc),
        r.2.mem ((d.tc : Thread nD τ).loc b) = after (ops (F := F)) (launchContents m d) (Proc.devRef .tc b) :=
  run_seq scopedRefs_eq scopedSems_eq defs main (fun _ => ops) main_eq (fun _ => ops_sub) m ρ (fun _ => ops_fresh)

end Cert.ReferenceIdeal.RRun

end
-- ==== Proof.RStages.lean ====
/-
  The matrix program's intermediate arrays, one definition per array, each a function of the three argument arrays
  (offsets [24,3], poses [65536,24,3], body translations [65536,3]) and of the arrays defined before it: the norm of
  `poses + ε` over the last axis (`s_call0_*`, `s_v2`), the unit axes (`s_v4`), their cosine and sine, the
  cross-product matrices as nine columns laid side by side and folded to [.., 3, 3] (`s_v28`, `s_v29`), the identity
  (`s_v35`), `I + sin·K + (1 - cos)·K K` (`s_v46`), the local 4×4 transforms (`s_v51`), the 23 products down the
  tree (`s_v56` … `s_v122`), the transforms stacked along the joint axis (`s_v149`), and the positions (`s_v154`).
  Every definition is one operation of the program applied to the arrays it reads; nothing is simplified.
-/
import proofs.«127147_j62156766707902_2_alg».proof.ReferenceIdeal

noncomputable section

namespace Cert.ReferenceIdeal.RStages

open Idealize.ShloMosaic Cert.ReferenceIdeal

variable {F : FTy → Type} [FloatOps F] [Facts]

open Facts₀ Facts

def s_cst (A0 : main_arg0.ty.Contents (Elt F)) (A1 : main_arg1.ty.Contents (Elt F)) (A2 : main_arg2.ty.Contents (Elt F)) : main_cst.ty.Contents (Elt F) :=
  (fun i => FloatOps.ofBits .f32 (lit0 (S4.rowMajor i)))

def s_cst_0 (A0 : main_arg0.ty.Contents (Elt F)) (A1 : main_arg1.ty.Contents (Elt F)) (A2 : main_arg2.ty.Contents (Elt F)) : main_cst_0.ty.Contents (Elt F) :=
  (constant (F := F) S_ .f32 0x322BCC77#32)

def s_v0 (A0 : main_arg0.ty.Contents (Elt F)) (A1 : main_arg1.ty.Contents (Elt F)) (A2 : main_arg2.ty.Contents (Elt F)) : main_v0.ty.Contents (Elt F) :=
  (broadcastInDim S65536x24x3 ![] bcast_S_S65536x24x3 : (⟨S_, .f32⟩ : BufTy).Contents (Elt F) → (⟨S65536x24x3, .f32⟩ : BufTy).Contents (Elt F)) (s_cst_0 A0 A1 A2)

def s_v1 (A0 : main_arg0.ty.Contents (Elt F)) (A1 : main_arg1.ty.Contents (Elt F)) (A2 : main_arg2.ty.Contents (Elt F)) : main_v1.ty.Contents (Elt F) :=
  (addf : (⟨S65536x24x3, .f32⟩ : BufTy).Contents (Elt F) → (⟨S65536x24x3, .f32⟩ : BufTy).Contents (Elt F) → (⟨S65536x24x3, .f32⟩ : BufTy).Contents (Elt F)) A1 (s_v0 A0 A1 A2)

def s_call0_v0 (A0 : main_arg0.ty.Contents (Elt F)) (A1 : main_arg1.ty.Contents (Elt F)) (A2 : main_arg2.ty.Contents (Elt F)) : main_call0_v0.ty.Contents (Elt F) :=
  mulf (s_v1 A0 A1 A2) (s_v1 A0 A1 A2)

def s_call0_cst (A0 : main_arg0.ty.Contents (Elt F)) (A1 : main_arg1.ty.Contents (Elt F)) (A2 : main_arg2.ty.Contents (Elt F)) : main_call0_cst.ty.Contents (Elt F) :=
  (constant (F := F) S_ .f32 0x00000000#32)

def s_call0_v1 (A0 : main_arg0.ty.Contents (Elt F)) (A1 : main_arg1.ty.Contents (Elt F)) (A2 : main_arg2.ty.Contents (Elt F)) : main_call0_v1.ty.Contents (Elt F) :=
  (fun x v => Host.reduceAdd x v reducesTo_S65536x24x3_S65536x24_d2 h_S_) (s_call0_v0 A0 A1 A2) (s_call0_cst A0 A1 A2)

def s_call0_v2 (A0 : main_arg0.ty.Contents (Elt F)) (A1 : main_arg1.ty.Contents (Elt F)) (A2 : main_arg2.ty.Contents (Elt F)) : main_call0_v2.ty.Contents (Elt F) :=
  (broadcastInDim S65536x24x1 ![0, 1] bcast_S65536x24_S65536x24x1_0_1) (s_call0_v1 A0 A1 A2)

def s_v2 (A0 : main_arg0.ty.Contents (Elt F)) (A1 : main_arg1.ty.Contents (Elt F)) (A2 : main_arg2.ty.Contents (Elt F)) : main_v2.ty.Contents (Elt F) :=
  Host.sqrt (s_call0_v2 A0 A1 A2)

def s_v3 (A0 : main_arg0.ty.Contents (Elt F)) (A1 : main_arg1.ty.Contents (Elt F)) (A2 : main_arg2.ty.Contents (Elt F)) : main_v3.ty.Contents (Elt F) :=
  (broadcastInDim S65536x24x3 ![0, 1, 2] bcast_S65536x24x1_S65536x24x3_0_1_2 : (⟨S65536x24x1, .f32⟩ : BufTy).Contents (Elt F) → (⟨S65536x24x3, .f32⟩ : BufTy).Contents (Elt F)) (s_v2 A0 A1 A2)

def s_v4 (A0 : main_arg0.ty.Contents (Elt F)) (A1 : main_arg1.ty.Contents (Elt F)) (A2 : main_arg2.ty.Contents (Elt F)) : main_v4.ty.Contents (Elt F) :=
  (Host.divf : (⟨S65536x24x3, .f32⟩ : BufTy).Contents (Elt F) → (⟨S65536x24x3, .f32⟩ : BufTy).Contents (Elt F) → (⟨S65536x24x3, .f32⟩ : BufTy).Contents (Elt F)) A1 (s_v3 A0 A1 A2)

def s_v5 (A0 : main_arg0.ty.Contents (Elt F)) (A1 : main_arg1.ty.Contents (Elt F)) (A2 : main_arg2.ty.Contents (Elt F)) : main_v5.ty.Contents (Elt F) :=
  (Host.cos : (⟨S65536x24x1, .f32⟩ : BufTy).Contents (Elt F) → (⟨S65536x24x1, .f32⟩ : BufTy).Contents (Elt F)) (s_v2 A0 A1 A2)

def s_v6 (A0 : main_arg0.ty.Contents (Elt F)) (A1 : main_arg1.ty.Contents (Elt F)) (A2 : main_arg2.ty.Contents (Elt F)) : main_v6.ty.Contents (Elt F) :=
  (broadcastInDim S65536x24x1x1 ![0, 1, 2] bcast_S65536x24x1_S65536x24x1x1_0_1_2 : (⟨S65536x24x1, .f32⟩ : BufTy).Contents (Elt F) → (⟨S65536x24x1x1, .f32⟩ : BufTy).Contents (Elt F)) (s_v5 A0 A1 A2)

def s_v7 (A0 : main_arg0.ty.Contents (Elt F)) (A1 : main_arg1.ty.Contents (Elt F)) (A2 : main_arg2.ty.Contents (Elt F)) : main_v7.ty.Contents (Elt F) :=
  (Host.sin : (⟨S65536x24x1, .f32⟩ : BufTy).Contents (Elt F) → (⟨S65536x24x1, .f32⟩ : BufTy).Contents (Elt F)) (s_v2 A0 A1 A2)

def s_v8 (A0 : main_arg0.ty.Contents (Elt F)) (A1 : main_arg1.ty.Contents (Elt F)) (A2 : main_arg2.ty.Contents (Elt F)) : main_v8.ty.Contents (Elt F) :=
  (broadcastInDim S65536x24x1x1 ![0, 1, 2] bcast_S65536x24x1_S65536x24x1x1_0_1_2 : (⟨S65536x24x1, .f32⟩ : BufTy).Contents (Elt F) → (⟨S65536x24x1x1, .f32⟩ : BufTy).Contents (Elt F)) (s_v7 A0 A1 A2)

def s_v9 (A0 : main_arg0.ty.Contents (Elt F)) (A1 : main_arg1.ty.Contents (Elt F)) (A2 : main_arg2.ty.Contents (Elt F)) : main_v9.ty.Contents (Elt F) :=
  ((extractStridedSlice S65536x24x1 ![0, 0, 0] · slices_S65536x24x3_S65536x24x1_0_0_0) : (⟨S65536x24x3, .f32⟩ : BufTy).Contents (Elt F) → (⟨S65536x24x1, .f32⟩ : BufTy).Contents (Elt F)) (s_v4 A0 A1 A2)

def s_v10 (A0 : main_arg0.ty.Contents (Elt F)) (A1 : main_arg1.ty.Contents (Elt F)) (A2 : main_arg2.ty.Contents (Elt F)) : main_v10.ty.Contents (Elt F) :=
  shapeCast main_v10.ty.shape (s_v9 A0 A1 A2) shapeCasts_S65536x24x1_S65536x24

def s_v11 (A0 : main_arg0.ty.Contents (Elt F)) (A1 : main_arg1.ty.Contents (Elt F)) (A2 : main_arg2.ty.Contents (Elt F)) : main_v11.ty.Contents (Elt F) :=
  ((extractStridedSlice S65536x24x1 ![0, 0, 1] · slices_S65536x24x3_S65536x24x1_0_0_1) : (⟨S65536x24x3, .f32⟩ : BufTy).Contents (Elt F) → (⟨S65536x24x1, .f32⟩ : BufTy).Contents (Elt F)) (s_v4 A0 A1 A2)

def s_v12 (A0 : main_arg0.ty.Contents (Elt F)) (A1 : main_arg1.ty.Contents (Elt F)) (A2 : main_arg2.ty.Contents (Elt F)) : main_v12.ty.Contents (Elt F) :=
  shapeCast main_v12.ty.shape (s_v11 A0 A1 A2) shapeCasts_S65536x24x1_S65536x24

def s_v13 (A0 : main_arg0.ty.Contents (Elt F)) (A1 : main_arg1.ty.Contents (Elt F)) (A2 : main_arg2.ty.Contents (Elt F)) : main_v13.ty.Contents (Elt F) :=
  ((extractStridedSlice S65536x24x1 ![0, 0, 2] · slices_S65536x24x3_S65536x24x1_0_0_2) : (⟨S65536x24x3, .f32⟩ : BufTy).Contents (Elt F) → (⟨S65536x24x1, .f32⟩ : BufTy).Contents (Elt F)) (s_v4 A0 A1 A2)

def s_v14 (A0 : main_arg0.ty.Contents (Elt F)) (A1 : main_arg1.ty.Contents (Elt F)) (A2 : main_arg2.ty.Contents (Elt F)) : main_v14.ty.Contents (Elt F) :=
  shapeCast main_v14.ty.shape (s_v13 A0 A1 A2) shapeCasts_S65536x24x1_S65536x24

def s_cst_1 (A0 : main_arg0.ty.Contents (Elt F)) (A1 : main_arg1.ty.Contents (Elt F)) (A2 : main_arg2.ty.Contents (Elt F)) : main_cst_1.ty.Contents (Elt F) :=
  (constant (F := F) S_ .f32 0x00000000#32)

def s_v15 (A0 : main_arg0.ty.Contents (Elt F)) (A1 : main_arg1.ty.Contents (Elt F)) (A2 : main_arg2.ty.Contents (Elt F)) : main_v15.ty.Contents (Elt F) :=
  (broadcastInDim S65536x24 ![] bcast_S_S65536x24 : (⟨S_, .f32⟩ : BufTy).Contents (Elt F) → (⟨S65536x24, .f32⟩ : BufTy).Contents (Elt F)) (s_cst_1 A0 A1 A2)

def s_v16 (A0 : main_arg0.ty.Contents (Elt F)) (A1 : main_arg1.ty.Contents (Elt F)) (A2 : main_arg2.ty.Contents (Elt F)) : main_v16.ty.Contents (Elt F) :=
  (Host.negf : (⟨S65536x24, .f32⟩ : BufTy).Contents (Elt F) → (⟨S65536x24, .f32⟩ : BufTy).Contents (Elt F)) (s_v14 A0 A1 A2)

def s_v17 (A0 : main_arg0.ty.Contents (Elt F)) (A1 : main_arg1.ty.Contents (Elt F)) (A2 : main_arg2.ty.Contents (Elt F)) : main_v17.ty.Contents (Elt F) :=
  (Host.negf : (⟨S65536x24, .f32⟩ : BufTy).Contents (Elt F) → (⟨S65536x24, .f32⟩ : BufTy).Contents (Elt F)) (s_v10 A0 A1 A2)

def s_v18 (A0 : main_arg0.ty.Contents (Elt F)) (A1 : main_arg1.ty.Contents (Elt F)) (A2 : main_arg2.ty.Contents (Elt F)) : main_v18.ty.Contents (Elt F) :=
  (Host.negf : (⟨S65536x24, .f32⟩ : BufTy).Contents (Elt F) → (⟨S65536x24, .f32⟩ : BufTy).Contents (Elt F)) (s_v12 A0 A1 A2)

def s_v19 (A0 : main_arg0.ty.Contents (Elt F)) (A1 : main_arg1.ty.Contents (Elt F)) (A2 : main_arg2.ty.Contents (Elt F)) : main_v19.ty.Contents (Elt F) :=
  (broadcastInDim S65536x24x1 ![0, 1] bcast_S65536x24_S65536x24x1_0_1 : (⟨S65536x24, .f32⟩ : BufTy).Contents (Elt F) → (⟨S65536x24x1, .f32⟩ : BufTy).Contents (Elt F)) (s_v15 A0 A1 A2)

def s_v20 (A0 : main_arg0.ty.Contents (Elt F)) (A1 : main_arg1.ty.Contents (Elt F)) (A2 : main_arg2.ty.Contents (Elt F)) : main_v20.ty.Contents (Elt F) :=
  (broadcastInDim S65536x24x1 ![0, 1] bcast_S65536x24_S65536x24x1_0_1 : (⟨S65536x24, .f32⟩ : BufTy).Contents (Elt F) → (⟨S65536x24x1, .f32⟩ : BufTy).Contents (Elt F)) (s_v16 A0 A1 A2)

def s_v21 (A0 : main_arg0.ty.Contents (Elt F)) (A1 : main_arg1.ty.Contents (Elt F)) (A2 : main_arg2.ty.Contents (Elt F)) : main_v21.ty.Contents (Elt F) :=
  (broadcastInDim S65536x24x1 ![0, 1] bcast_S65536x24_S65536x24x1_0_1 : (⟨S65536x24, .f32⟩ : BufTy).Contents (Elt F) → (⟨S65536x24x1, .f32⟩ : BufTy).Contents (Elt F)) (s_v12 A0 A1 A2)

def s_v22 (A0 : main_arg0.ty.Contents (Elt F)) (A1 : main_arg1.ty.Contents (Elt F)) (A2 : main_arg2.ty.Contents (Elt F)) : main_v22.ty.Contents (Elt F) :=
  (broadcastInDim S65536x24x1 ![0, 1] bcast_S65536x24_S65536x24x1_0_1 : (⟨S65536x24, .f32⟩ : BufTy).Contents (Elt F) → (⟨S65536x24x1, .f32⟩ : BufTy).Contents (Elt F)) (s_v14 A0 A1 A2)

def s_v23 (A0 : main_arg0.ty.Contents (Elt F)) (A1 : main_arg1.ty.Contents (Elt F)) (A2 : main_arg2.ty.Contents (Elt F)) : main_v23.ty.Contents (Elt F) :=
  (broadcastInDim S65536x24x1 ![0, 1] bcast_S65536x24_S65536x24x1_0_1 : (⟨S65536x24, .f32⟩ : BufTy).Contents (Elt F) → (⟨S65536x24x1, .f32⟩ : BufTy).Contents (Elt F)) (s_v15 A0 A1 A2)

def s_v24 (A0 : main_arg0.ty.Contents (Elt F)) (A1 : main_arg1.ty.Contents (Elt F)) (A2 : main_arg2.ty.Contents (Elt F)) : main_v24.ty.Contents (Elt F) :=
  (broadcastInDim S65536x24x1 ![0, 1] bcast_S65536x24_S65536x24x1_0_1 : (⟨S65536x24, .f32⟩ : BufTy).Contents (Elt F) → (⟨S65536x24x1, .f32⟩ : BufTy).Contents (Elt F)) (s_v17 A0 A1 A2)

def s_v25 (A0 : main_arg0.ty.Contents (Elt F)) (A1 : main_arg1.ty.Contents (Elt F)) (A2 : main_arg2.ty.Contents (Elt F)) : main_v25.ty.Contents (Elt F) :=
  (broadcastInDim S65536x24x1 ![0, 1] bcast_S65536x24_S65536x24x1_0_1 : (⟨S65536x24, .f32⟩ : BufTy).Contents (Elt F) → (⟨S65536x24x1, .f32⟩ : BufTy).Contents (Elt F)) (s_v18 A0 A1 A2)

def s_v26 (A0 : main_arg0.ty.Contents (Elt F)) (A1 : main_arg1.ty.Contents (Elt F)) (A2 : main_arg2.ty.Contents (Elt F)) : main_v26.ty.Contents (Elt F) :=
  (broadcastInDim S65536x24x1 ![0, 1] bcast_S65536x24_S65536x24x1_0_1 : (⟨S65536x24, .f32⟩ : BufTy).Contents (Elt F) → (⟨S65536x24x1, .f32⟩ : BufTy).Contents (Elt F)) (s_v10 A0 A1 A2)

def s_v27 (A0 : main_arg0.ty.Contents (Elt F)) (A1 : main_arg1.ty.Contents (Elt F)) (A2 : main_arg2.ty.Contents (Elt F)) : main_v27.ty.Contents (Elt F) :=
  (broadcastInDim S65536x24x1 ![0, 1] bcast_S65536x24_S65536x24x1_0_1 : (⟨S65536x24, .f32⟩ : BufTy).Contents (Elt F) → (⟨S65536x24x1, .f32⟩ : BufTy).Contents (Elt F)) (s_v15 A0 A1 A2)

def s_v28 (A0 : main_arg0.ty.Contents (Elt F)) (A1 : main_arg1.ty.Contents (Elt F)) (A2 : main_arg2.ty.Contents (Elt F)) : main_v28.ty.Contents (Elt F) :=
  concatenate S65536x24x9 2 [⟨S65536x24x1, (s_v19 A0 A1 A2)⟩, ⟨S65536x24x1, (s_v20 A0 A1 A2)⟩, ⟨S65536x24x1, (s_v21 A0 A1 A2)⟩, ⟨S65536x24x1, (s_v22 A0 A1 A2)⟩, ⟨S65536x24x1, (s_v23 A0 A1 A2)⟩, ⟨S65536x24x1, (s_v24 A0 A1 A2)⟩, ⟨S65536x24x1, (s_v25 A0 A1 A2)⟩, ⟨S65536x24x1, (s_v26 A0 A1 A2)⟩, ⟨S65536x24x1, (s_v27 A0 A1 A2)⟩] concatenates_S65536x24x1_S65536x24x1_S65536x24x1_S65536x24x1_S65536x24x1_S65536x24x1_S65536x24x1_S65536x24x1_S65536x24x1_S65536x24x9_d2

def s_v29 (A0 : main_arg0.ty.Contents (Elt F)) (A1 : main_arg1.ty.Contents (Elt F)) (A2 : main_arg2.ty.Contents (Elt F)) : main_v29.ty.Contents (Elt F) :=
  shapeCast main_v29.ty.shape (s_v28 A0 A1 A2) shapeCasts_S65536x24x9_S65536x24x3x3

def s_v30 (A0 : main_arg0.ty.Contents (Elt F)) (A1 : main_arg1.ty.Contents (Elt F)) (A2 : main_arg2.ty.Contents (Elt F)) : main_v30.ty.Contents (Elt F) :=
  (iotaInDim S3x3 32 0)

def s_v31 (A0 : main_arg0.ty.Contents (Elt F)) (A1 : main_arg1.ty.Contents (Elt F)) (A2 : main_arg2.ty.Contents (Elt F)) : main_v31.ty.Contents (Elt F) :=
  (iotaInDim S3x3 32 1)

def s_c (A0 : main_arg0.ty.Contents (Elt F)) (A1 : main_arg1.ty.Contents (Elt F)) (A2 : main_arg2.ty.Contents (Elt F)) : main_c.ty.Contents (Elt F) :=
  (constantI S_ 32 0#32)

def s_v32 (A0 : main_arg0.ty.Contents (Elt F)) (A1 : main_arg1.ty.Contents (Elt F)) (A2 : main_arg2.ty.Contents (Elt F)) : main_v32.ty.Contents (Elt F) :=
  (broadcastInDim S3x3 ![] bcast_S_S3x3 : (⟨S_, .i32⟩ : BufTy).Contents (Elt F) → (⟨S3x3, .i32⟩ : BufTy).Contents (Elt F)) (s_c A0 A1 A2)

def s_v33 (A0 : main_arg0.ty.Contents (Elt F)) (A1 : main_arg1.ty.Contents (Elt F)) (A2 : main_arg2.ty.Contents (Elt F)) : main_v33.ty.Contents (Elt F) :=
  (addi : (⟨S3x3, .i32⟩ : BufTy).Contents (Elt F) → (⟨S3x3, .i32⟩ : BufTy).Contents (Elt F) → (⟨S3x3, .i32⟩ : BufTy).Contents (Elt F)) (s_v30 A0 A1 A2) (s_v32 A0 A1 A2)

def s_v34 (A0 : main_arg0.ty.Contents (Elt F)) (A1 : main_arg1.ty.Contents (Elt F)) (A2 : main_arg2.ty.Contents (Elt F)) : main_v34.ty.Contents (Elt F) :=
  (cmpi .eq : (⟨S3x3, .i32⟩ : BufTy).Contents (Elt F) → (⟨S3x3, .i32⟩ : BufTy).Contents (Elt F) → (⟨S3x3, .i1⟩ : BufTy).Contents (Elt F)) (s_v33 A0 A1 A2) (s_v31 A0 A1 A2)

def s_v35 (A0 : main_arg0.ty.Contents (Elt F)) (A1 : main_arg1.ty.Contents (Elt F)) (A2 : main_arg2.ty.Contents (Elt F)) : main_v35.ty.Contents (Elt F) :=
  (uitofp .f32 : (⟨S3x3, .i1⟩ : BufTy).Contents (Elt F) → (⟨S3x3, .f32⟩ : BufTy).Contents (Elt F)) (s_v34 A0 A1 A2)

def s_v36 (A0 : main_arg0.ty.Contents (Elt F)) (A1 : main_arg1.ty.Contents (Elt F)) (A2 : main_arg2.ty.Contents (Elt F)) : main_v36.ty.Contents (Elt F) :=
  (broadcastInDim S65536x24x3x3 ![0, 1, 2, 3] bcast_S65536x24x1x1_S65536x24x3x3_0_1_2_3 : (⟨S65536x24x1x1, .f32⟩ : BufTy).Contents (Elt F) → (⟨S65536x24x3x3, .f32⟩ : BufTy).Contents (Elt F)) (s_v8 A0 A1 A2)

def s_v37 (A0 : main_arg0.ty.Contents (Elt F)) (A1 : main_arg1.ty.Contents (Elt F)) (A2 : main_arg2.ty.Contents (Elt F)) : main_v37.ty.Contents (Elt F) :=
  (mulf : (⟨S65536x24x3x3, .f32⟩ : BufTy).Contents (Elt F) → (⟨S65536x24x3x3, .f32⟩ : BufTy).Contents (Elt F) → (⟨S65536x24x3x3, .f32⟩ : BufTy).Contents (Elt F)) (s_v36 A0 A1 A2) (s_v29 A0 A1 A2)

def s_v38 (A0 : main_arg0.ty.Contents (Elt F)) (A1 : main_arg1.ty.Contents (Elt F)) (A2 : main_arg2.ty.Contents (Elt F)) : main_v38.ty.Contents (Elt F) :=
  (broadcastInDim S1x1x3x3 ![2, 3] bcast_S3x3_S1x1x3x3_2_3 : (⟨S3x3, .f32⟩ : BufTy).Contents (Elt F) → (⟨S1x1x3x3, .f32⟩ : BufTy).Contents (Elt F)) (s_v35 A0 A1 A2)

def s_v39 (A0 : main_arg0.ty.Contents (Elt F)) (A1 : main_arg1.ty.Contents (Elt F)) (A2 : main_arg2.ty.Contents (Elt F)) : main_v39.ty.Contents (Elt F) :=
  (broadcastInDim S65536x24x3x3 ![0, 1, 2, 3] bcast_S1x1x3x3_S65536x24x3x3_0_1_2_3 : (⟨S1x1x3x3, .f32⟩ : BufTy).Contents (Elt F) → (⟨S65536x24x3x3, .f32⟩ : BufTy).Contents (Elt F)) (s_v38 A0 A1 A2)

def s_v40 (A0 : main_arg0.ty.Contents (Elt F)) (A1 : main_arg1.ty.Contents (Elt F)) (A2 : main_arg2.ty.Contents (Elt F)) : main_v40.ty.Contents (Elt F) :=
  (addf : (⟨S65536x24x3x3, .f32⟩ : BufTy).Contents (Elt F) → (⟨S65536x24x3x3, .f32⟩ : BufTy).Contents (Elt F) → (⟨S65536x24x3x3, .f32⟩ : BufTy).Contents (Elt F)) (s_v39 A0 A1 A2) (s_v37 A0 A1 A2)

def s_cst_2 (A0 : main_arg0.ty.Contents (Elt F)) (A1 : main_arg1.ty.Contents (Elt F)) (A2 : main_arg2.ty.Contents (Elt F)) : main_cst_2.ty.Contents (Elt F) :=
  (constant (F := F) S_ .f32 0x3F800000#32)

def s_v41 (A0 : main_arg0.ty.Contents (Elt F)) (A1 : main_arg1.ty.Contents (Elt F)) (A2 : main_arg2.ty.Contents (Elt F)) : main_v41.ty.Contents (Elt F) :=
  (broadcastInDim S65536x24x1x1 ![] bcast_S_S65536x24x1x1 : (⟨S_, .f32⟩ : BufTy).Contents (Elt F) → (⟨S65536x24x1x1, .f32⟩ : BufTy).Contents (Elt F)) (s_cst_2 A0 A1 A2)

def s_v42 (A0 : main_arg0.ty.Contents (Elt F)) (A1 : main_arg1.ty.Contents (Elt F)) (A2 : main_arg2.ty.Contents (Elt F)) : main_v42.ty.Contents (Elt F) :=
  (subf : (⟨S65536x24x1x1, .f32⟩ : BufTy).Contents (Elt F) → (⟨S65536x24x1x1, .f32⟩ : BufTy).Contents (Elt F) → (⟨S65536x24x1x1, .f32⟩ : BufTy).Contents (Elt F)) (s_v41 A0 A1 A2) (s_v6 A0 A1 A2)

def s_v43 (A0 : main_arg0.ty.Contents (Elt F)) (A1 : main_arg1.ty.Contents (Elt F)) (A2 : main_arg2.ty.Contents (Elt F)) : main_v43.ty.Contents (Elt F) :=
  ((fun l r => Host.dotGeneral dot_S65536x24x3x3_S65536x24x3x3_S65536x24x3x3_3_2_2_3_01_01 none l r) : (⟨S65536x24x3x3, .f32⟩ : BufTy).Contents (Elt F) → (⟨S65536x24x3x3, .f32⟩ : BufTy).Contents (Elt F) → (⟨S65536x24x3x3, .f32⟩ : BufTy).Contents (Elt F)) (s_v29 A0 A1 A2) (s_v29 A0 A1 A2)

def s_v44 (A0 : main_arg0.ty.Contents (Elt F)) (A1 : main_arg1.ty.Contents (Elt F)) (A2 : main_arg2.ty.Contents (Elt F)) : main_v44.ty.Contents (Elt F) :=
  (broadcastInDim S65536x24x3x3 ![0, 1, 2, 3] bcast_S65536x24x1x1_S65536x24x3x3_0_1_2_3 : (⟨S65536x24x1x1, .f32⟩ : BufTy).Contents (Elt F) → (⟨S65536x24x3x3, .f32⟩ : BufTy).Contents (Elt F)) (s_v42 A0 A1 A2)

def s_v45 (A0 : main_arg0.ty.Contents (Elt F)) (A1 : main_arg1.ty.Contents (Elt F)) (A2 : main_arg2.ty.Contents (Elt F)) : main_v45.ty.Contents (Elt F) :=
  (mulf : (⟨S65536x24x3x3, .f32⟩ : BufTy).Contents (Elt F) → (⟨S65536x24x3x3, .f32⟩ : BufTy).Contents (Elt F) → (⟨S65536x24x3x3, .f32⟩ : BufTy).Contents (Elt F)) (s_v44 A0 A1 A2) (s_v43 A0 A1 A2)

def s_v46 (A0 : main_arg0.ty.Contents (Elt F)) (A1 : main_arg1.ty.Contents (Elt F)) (A2 : main_arg2.ty.Contents (Elt F)) : main_v46.ty.Contents (Elt F) :=
  (addf : (⟨S65536x24x3x3, .f32⟩ : BufTy).Contents (Elt F) → (⟨S65536x24x3x3, .f32⟩ : BufTy).Contents (Elt F) → (⟨S65536x24x3x3, .f32⟩ : BufTy).Contents (Elt F)) (s_v40 A0 A1 A2) (s_v45 A0 A1 A2)

def s_v47 (A0 : main_arg0.ty.Contents (Elt F)) (A1 : main_arg1.ty.Contents (Elt F)) (A2 : main_arg2.ty.Contents (Elt F)) : main_v47.ty.Contents (Elt F) :=
  (broadcastInDim S1x24x3x1 ![1, 2] bcast_S24x3_S1x24x3x1_1_2 : (⟨S24x3, .f32⟩ : BufTy).Contents (Elt F) → (⟨S1x24x3x1, .f32⟩ : BufTy).Contents (Elt F)) A0

def s_v48 (A0 : main_arg0.ty.Contents (Elt F)) (A1 : main_arg1.ty.Contents (Elt F)) (A2 : main_arg2.ty.Contents (Elt F)) : main_v48.ty.Contents (Elt F) :=
  (broadcastInDim S65536x24x3x1 ![0, 1, 2, 3] bcast_S1x24x3x1_S65536x24x3x1_0_1_2_3 : (⟨S1x24x3x1, .f32⟩ : BufTy).Contents (Elt F) → (⟨S65536x24x3x1, .f32⟩ : BufTy).Contents (Elt F)) (s_v47 A0 A1 A2)

def s_v49 (A0 : main_arg0.ty.Contents (Elt F)) (A1 : main_arg1.ty.Contents (Elt F)) (A2 : main_arg2.ty.Contents (Elt F)) : main_v49.ty.Contents (Elt F) :=
  ((fun a b => concatenate S65536x24x3x4 3 [⟨S65536x24x3x3, a⟩, ⟨S65536x24x3x1, b⟩] concatenates_S65536x24x3x3_S65536x24x3x1_S65536x24x3x4_d3) : (⟨S65536x24x3x3, .f32⟩ : BufTy).Contents (Elt F) → (⟨S65536x24x3x1, .f32⟩ : BufTy).Contents (Elt F) → (⟨S65536x24x3x4, .f32⟩ : BufTy).Contents (Elt F)) (s_v46 A0 A1 A2) (s_v48 A0 A1 A2)

def s_v50 (A0 : main_arg0.ty.Contents (Elt F)) (A1 : main_arg1.ty.Contents (Elt F)) (A2 : main_arg2.ty.Contents (Elt F)) : main_v50.ty.Contents (Elt F) :=
  (broadcastInDim S65536x24x1x4 ![3] bcast_S4_S65536x24x1x4_3 : (⟨S4, .f32⟩ : BufTy).Contents (Elt F) → (⟨S65536x24x1x4, .f32⟩ : BufTy).Contents (Elt F)) (s_cst A0 A1 A2)

def s_v51 (A0 : main_arg0.ty.Contents (Elt F)) (A1 : main_arg1.ty.Contents (Elt F)) (A2 : main_arg2.ty.Contents (Elt F)) : main_v51.ty.Contents (Elt F) :=
  ((fun a b => concatenate S65536x24x4x4 2 [⟨S65536x24x3x4, a⟩, ⟨S65536x24x1x4, b⟩] concatenates_S65536x24x3x4_S65536x24x1x4_S65536x24x4x4_d2) : (⟨S65536x24x3x4, .f32⟩ : BufTy).Contents (Elt F) → (⟨S65536x24x1x4, .f32⟩ : BufTy).Contents (Elt F) → (⟨S65536x24x4x4, .f32⟩ : BufTy).Contents (Elt F)) (s_v49 A0 A1 A2) (s_v50 A0 A1 A2)

def s_v52 (A0 : main_arg0.ty.Contents (Elt F)) (A1 : main_arg1.ty.Contents (Elt F)) (A2 : main_arg2.ty.Contents (Elt F)) : main_v52.ty.Contents (Elt F) :=
  ((extractStridedSlice S65536x1x4x4 ![0, 0, 0, 0] · slices_S65536x24x4x4_S65536x1x4x4_0_0_0_0) : (⟨S65536x24x4x4, .f32⟩ : BufTy).Contents (Elt F) → (⟨S65536x1x4x4, .f32⟩ : BufTy).Contents (Elt F)) (s_v51 A0 A1 A2)

def s_v53 (A0 : main_arg0.ty.Contents (Elt F)) (A1 : main_arg1.ty.Contents (Elt F)) (A2 : main_arg2.ty.Contents (Elt F)) : main_v53.ty.Contents (Elt F) :=
  shapeCast main_v53.ty.shape (s_v52 A0 A1 A2) shapeCasts_S65536x1x4x4_S65536x4x4

def s_v54 (A0 : main_arg0.ty.Contents (Elt F)) (A1 : main_arg1.ty.Contents (Elt F)) (A2 : main_arg2.ty.Contents (Elt F)) : main_v54.ty.Contents (Elt F) :=
  ((extractStridedSlice S65536x1x4x4 ![0, 1, 0, 0] · slices_S65536x24x4x4_S65536x1x4x4_0_1_0_0) : (⟨S65536x24x4x4, .f32⟩ : BufTy).Contents (Elt F) → (⟨S65536x1x4x4, .f32⟩ : BufTy).Contents (Elt F)) (s_v51 A0 A1 A2)

def s_v55 (A0 : main_arg0.ty.Contents (Elt F)) (A1 : main_arg1.ty.Contents (Elt F)) (A2 : main_arg2.ty.Contents (Elt F)) : main_v55.ty.Contents (Elt F) :=
  shapeCast main_v55.ty.shape (s_v54 A0 A1 A2) shapeCasts_S65536x1x4x4_S65536x4x4

def s_v56 (A0 : main_arg0.ty.Contents (Elt F)) (A1 : main_arg1.ty.Contents (Elt F)) (A2 : main_arg2.ty.Contents (Elt F)) : main_v56.ty.Contents (Elt F) :=
  ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)) (s_v53 A0 A1 A2) (s_v55 A0 A1 A2)

def s_v57 (A0 : main_arg0.ty.Contents (Elt F)) (A1 : main_arg1.ty.Contents (Elt F)) (A2 : main_arg2.ty.Contents (Elt F)) : main_v57.ty.Contents (Elt F) :=
  ((extractStridedSlice S65536x1x4x4 ![0, 2, 0, 0] · slices_S65536x24x4x4_S65536x1x4x4_0_2_0_0) : (⟨S65536x24x4x4, .f32⟩ : BufTy).Contents (Elt F) → (⟨S65536x1x4x4, .f32⟩ : BufTy).Contents (Elt F)) (s_v51 A0 A1 A2)

def s_v58 (A0 : main_arg0.ty.Contents (Elt F)) (A1 : main_arg1.ty.Contents (Elt F)) (A2 : main_arg2.ty.Contents (Elt F)) : main_v58.ty.Contents (Elt F) :=
  shapeCast main_v58.ty.shape (s_v57 A0 A1 A2) shapeCasts_S65536x1x4x4_S65536x4x4

def s_v59 (A0 : main_arg0.ty.Contents (Elt F)) (A1 : main_arg1.ty.Contents (Elt F)) (A2 : main_arg2.ty.Contents (Elt F)) : main_v59.ty.Contents (Elt F) :=
  ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)) (s_v53 A0 A1 A2) (s_v58 A0 A1 A2)

def s_v60 (A0 : main_arg0.ty.Contents (Elt F)) (A1 : main_arg1.ty.Contents (Elt F)) (A2 : main_arg2.ty.Contents (Elt F)) : main_v60.ty.Contents (Elt F) :=
  ((extractStridedSlice S65536x1x4x4 ![0, 3, 0, 0] · slices_S65536x24x4x4_S65536x1x4x4_0_3_0_0) : (⟨S65536x24x4x4, .f32⟩ : BufTy).Contents (Elt F) → (⟨S65536x1x4x4, .f32⟩ : BufTy).Contents (Elt F)) (s_v51 A0 A1 A2)

def s_v61 (A0 : main_arg0.ty.Contents (Elt F)) (A1 : main_arg1.ty.Contents (Elt F)) (A2 : main_arg2.ty.Contents (Elt F)) : main_v61.ty.Contents (Elt F) :=
  shapeCast main_v61.ty.shape (s_v60 A0 A1 A2) shapeCasts_S65536x1x4x4_S65536x4x4

def s_v62 (A0 : main_arg0.ty.Contents (Elt F)) (A1 : main_arg1.ty.Contents (Elt F)) (A2 : main_arg2.ty.Contents (Elt F)) : main_v62.ty.Contents (Elt F) :=
  ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)) (s_v53 A0 A1 A2) (s_v61 A0 A1 A2)

def s_v63 (A0 : main_arg0.ty.Contents (Elt F)) (A1 : main_arg1.ty.Contents (Elt F)) (A2 : main_arg2.ty.Contents (Elt F)) : main_v63.ty.Contents (Elt F) :=
  ((extractStridedSlice S65536x1x4x4 ![0, 4, 0, 0] · slices_S65536x24x4x4_S65536x1x4x4_0_4_0_0) : (⟨S65536x24x4x4, .f32⟩ : BufTy).Contents (Elt F) → (⟨S65536x1x4x4, .f32⟩ : BufTy).Contents (Elt F)) (s_v51 A0 A1 A2)

def s_v64 (A0 : main_arg0.ty.Contents (Elt F)) (A1 : main_arg1.ty.Contents (Elt F)) (A2 : main_arg2.ty.Contents (Elt F)) : main_v64.ty.Contents (Elt F) :=
  shapeCast main_v64.ty.shape (s_v63 A0 A1 A2) shapeCasts_S65536x1x4x4_S65536x4x4

def s_v65 (A0 : main_arg0.ty.Contents (Elt F)) (A1 : main_arg1.ty.Contents (Elt F)) (A2 : main_arg2.ty.Contents (Elt F)) : main_v65.ty.Contents (Elt F) :=
  ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)) (s_v56 A0 A1 A2) (s_v64 A0 A1 A2)

def s_v66 (A0 : main_arg0.ty.Contents (Elt F)) (A1 : main_arg1.ty.Contents (Elt F)) (A2 : main_arg2.ty.Contents (Elt F)) : main_v66.ty.Contents (Elt F) :=
  ((extractStridedSlice S65536x1x4x4 ![0, 5, 0, 0] · slices_S65536x24x4x4_S65536x1x4x4_0_5_0_0) : (⟨S65536x24x4x4, .f32⟩ : BufTy).Contents (Elt F) → (⟨S65536x1x4x4, .f32⟩ : BufTy).Contents (Elt F)) (s_v51 A0 A1 A2)

def s_v67 (A0 : main_arg0.ty.Contents (Elt F)) (A1 : main_arg1.ty.Contents (Elt F)) (A2 : main_arg2.ty.Contents (Elt F)) : main_v67.ty.Contents (Elt F) :=
  shapeCast main_v67.ty.shape (s_v66 A0 A1 A2) shapeCasts_S65536x1x4x4_S65536x4x4

def s_v68 (A0 : main_arg0.ty.Contents (Elt F)) (A1 : main_arg1.ty.Contents (Elt F)) (A2 : main_arg2.ty.Contents (Elt F)) : main_v68.ty.Contents (Elt F) :=
  ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)) (s_v59 A0 A1 A2) (s_v67 A0 A1 A2)

def s_v69 (A0 : main_arg0.ty.Contents (Elt F)) (A1 : main_arg1.ty.Contents (Elt F)) (A2 : main_arg2.ty.Contents (Elt F)) : main_v69.ty.Contents (Elt F) :=
  ((extractStridedSlice S65536x1x4x4 ![0, 6, 0, 0] · slices_S65536x24x4x4_S65536x1x4x4_0_6_0_0) : (⟨S65536x24x4x4, .f32⟩ : BufTy).Contents (Elt F) → (⟨S65536x1x4x4, .f32⟩ : BufTy).Contents (Elt F)) (s_v51 A0 A1 A2)

def s_v70 (A0 : main_arg0.ty.Contents (Elt F)) (A1 : main_arg1.ty.Contents (Elt F)) (A2 : main_arg2.ty.Contents (Elt F)) : main_v70.ty.Contents (Elt F) :=
  shapeCast main_v70.ty.shape (s_v69 A0 A1 A2) shapeCasts_S65536x1x4x4_S65536x4x4

def s_v71 (A0 : main_arg0.ty.Contents (Elt F)) (A1 : main_arg1.ty.Contents (Elt F)) (A2 : main_arg2.ty.Contents (Elt F)) : main_v71.ty.Contents (Elt F) :=
  ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)) (s_v62 A0 A1 A2) (s_v70 A0 A1 A2)

def s_v72 (A0 : main_arg0.ty.Contents (Elt F)) (A1 : main_arg1.ty.Contents (Elt F)) (A2 : main_arg2.ty.Contents (Elt F)) : main_v72.ty.Contents (Elt F) :=
  ((extractStridedSlice S65536x1x4x4 ![0, 7, 0, 0] · slices_S65536x24x4x4_S65536x1x4x4_0_7_0_0) : (⟨S65536x24x4x4, .f32⟩ : BufTy).Contents (Elt F) → (⟨S65536x1x4x4, .f32⟩ : BufTy).Contents (Elt F)) (s_v51 A0 A1 A2)

def s_v73 (A0 : main_arg0.ty.Contents (Elt F)) (A1 : main_arg1.ty.Contents (Elt F)) (A2 : main_arg2.ty.Contents (Elt F)) : main_v73.ty.Contents (Elt F) :=
  shapeCast main_v73.ty.shape (s_v72 A0 A1 A2) shapeCasts_S65536x1x4x4_S65536x4x4

def s_v74 (A0 : main_arg0.ty.Contents (Elt F)) (A1 : main_arg1.ty.Contents (Elt F)) (A2 : main_arg2.ty.Contents (Elt F)) : main_v74.ty.Contents (Elt F) :=
  ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)) (s_v65 A0 A1 A2) (s_v73 A0 A1 A2)

def s_v75 (A0 : main_arg0.ty.Contents (Elt F)) (A1 : main_arg1.ty.Contents (Elt F)) (A2 : main_arg2.ty.Contents (Elt F)) : main_v75.ty.Contents (Elt F) :=
  ((extractStridedSlice S65536x1x4x4 ![0, 8, 0, 0] · slices_S65536x24x4x4_S65536x1x4x4_0_8_0_0) : (⟨S65536x24x4x4, .f32⟩ : BufTy).Contents (Elt F) → (⟨S65536x1x4x4, .f32⟩ : BufTy).Contents (Elt F)) (s_v51 A0 A1 A2)

def s_v76 (A0 : main_arg0.ty.Contents (Elt F)) (A1 : main_arg1.ty.Contents (Elt F)) (A2 : main_arg2.ty.Contents (Elt F)) : main_v76.ty.Contents (Elt F) :=
  shapeCast main_v76.ty.shape (s_v75 A0 A1 A2) shapeCasts_S65536x1x4x4_S65536x4x4

def s_v77 (A0 : main_arg0.ty.Contents (Elt F)) (A1 : main_arg1.ty.Contents (Elt F)) (A2 : main_arg2.ty.Contents (Elt F)) : main_v77.ty.Contents (Elt F) :=
  ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)) (s_v68 A0 A1 A2) (s_v76 A0 A1 A2)

def s_v78 (A0 : main_arg0.ty.Contents (Elt F)) (A1 : main_arg1.ty.Contents (Elt F)) (A2 : main_arg2.ty.Contents (Elt F)) : main_v78.ty.Contents (Elt F) :=
  ((extractStridedSlice S65536x1x4x4 ![0, 9, 0, 0] · slices_S65536x24x4x4_S65536x1x4x4_0_9_0_0) : (⟨S65536x24x4x4, .f32⟩ : BufTy).Contents (Elt F) → (⟨S65536x1x4x4, .f32⟩ : BufTy).Contents (Elt F)) (s_v51 A0 A1 A2)

def s_v79 (A0 : main_arg0.ty.Contents (Elt F)) (A1 : main_arg1.ty.Contents (Elt F)) (A2 : main_arg2.ty.Contents (Elt F)) : main_v79.ty.Contents (Elt F) :=
  shapeCast main_v79.ty.shape (s_v78 A0 A1 A2) shapeCasts_S65536x1x4x4_S65536x4x4

def s_v80 (A0 : main_arg0.ty.Contents (Elt F)) (A1 : main_arg1.ty.Contents (Elt F)) (A2 : main_arg2.ty.Contents (Elt F)) : main_v80.ty.Contents (Elt F) :=
  ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)) (s_v71 A0 A1 A2) (s_v79 A0 A1 A2)

def s_v81 (A0 : main_arg0.ty.Contents (Elt F)) (A1 : main_arg1.ty.Contents (Elt F)) (A2 : main_arg2.ty.Contents (Elt F)) : main_v81.ty.Contents (Elt F) :=
  ((extractStridedSlice S65536x1x4x4 ![0, 10, 0, 0] · slices_S65536x24x4x4_S65536x1x4x4_0_10_0_0) : (⟨S65536x24x4x4, .f32⟩ : BufTy).Contents (Elt F) → (⟨S65536x1x4x4, .f32⟩ : BufTy).Contents (Elt F)) (s_v51 A0 A1 A2)

def s_v82 (A0 : main_arg0.ty.Contents (Elt F)) (A1 : main_arg1.ty.Contents (Elt F)) (A2 : main_arg2.ty.Contents (Elt F)) : main_v82.ty.Contents (Elt F) :=
  shapeCast main_v82.ty.shape (s_v81 A0 A1 A2) shapeCasts_S65536x1x4x4_S65536x4x4

def s_v83 (A0 : main_arg0.ty.Contents (Elt F)) (A1 : main_arg1.ty.Contents (Elt F)) (A2 : main_arg2.ty.Contents (Elt F)) : main_v83.ty.Contents (Elt F) :=
  ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)) (s_v74 A0 A1 A2) (s_v82 A0 A1 A2)

def s_v84 (A0 : main_arg0.ty.Contents (Elt F)) (A1 : main_arg1.ty.Contents (Elt F)) (A2 : main_arg2.ty.Contents (Elt F)) : main_v84.ty.Contents (Elt F) :=
  ((extractStridedSlice S65536x1x4x4 ![0, 11, 0, 0] · slices_S65536x24x4x4_S65536x1x4x4_0_11_0_0) : (⟨S65536x24x4x4, .f32⟩ : BufTy).Contents (Elt F) → (⟨S65536x1x4x4, .f32⟩ : BufTy).Contents (Elt F)) (s_v51 A0 A1 A2)

def s_v85 (A0 : main_arg0.ty.Contents (Elt F)) (A1 : main_arg1.ty.Contents (Elt F)) (A2 : main_arg2.ty.Contents (Elt F)) : main_v85.ty.Contents (Elt F) :=
  shapeCast main_v85.ty.shape (s_v84 A0 A1 A2) shapeCasts_S65536x1x4x4_S65536x4x4

def s_v86 (A0 : main_arg0.ty.Contents (Elt F)) (A1 : main_arg1.ty.Contents (Elt F)) (A2 : main_arg2.ty.Contents (Elt F)) : main_v86.ty.Contents (Elt F) :=
  ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)) (s_v77 A0 A1 A2) (s_v85 A0 A1 A2)

def s_v87 (A0 : main_arg0.ty.Contents (Elt F)) (A1 : main_arg1.ty.Contents (Elt F)) (A2 : main_arg2.ty.Contents (Elt F)) : main_v87.ty.Contents (Elt F) :=
  ((extractStridedSlice S65536x1x4x4 ![0, 12, 0, 0] · slices_S65536x24x4x4_S65536x1x4x4_0_12_0_0) : (⟨S65536x24x4x4, .f32⟩ : BufTy).Contents (Elt F) → (⟨S65536x1x4x4, .f32⟩ : BufTy).Contents (Elt F)) (s_v51 A0 A1 A2)

def s_v88 (A0 : main_arg0.ty.Contents (Elt F)) (A1 : main_arg1.ty.Contents (Elt F)) (A2 : main_arg2.ty.Contents (Elt F)) : main_v88.ty.Contents (Elt F) :=
  shapeCast main_v88.ty.shape (s_v87 A0 A1 A2) shapeCasts_S65536x1x4x4_S65536x4x4

def s_v89 (A0 : main_arg0.ty.Contents (Elt F)) (A1 : main_arg1.ty.Contents (Elt F)) (A2 : main_arg2.ty.Contents (Elt F)) : main_v89.ty.Contents (Elt F) :=
  ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)) (s_v80 A0 A1 A2) (s_v88 A0 A1 A2)

def s_v90 (A0 : main_arg0.ty.Contents (Elt F)) (A1 : main_arg1.ty.Contents (Elt F)) (A2 : main_arg2.ty.Contents (Elt F)) : main_v90.ty.Contents (Elt F) :=
  ((extractStridedSlice S65536x1x4x4 ![0, 13, 0, 0] · slices_S65536x24x4x4_S65536x1x4x4_0_13_0_0) : (⟨S65536x24x4x4, .f32⟩ : BufTy).Contents (Elt F) → (⟨S65536x1x4x4, .f32⟩ : BufTy).Contents (Elt F)) (s_v51 A0 A1 A2)

def s_v91 (A0 : main_arg0.ty.Contents (Elt F)) (A1 : main_arg1.ty.Contents (Elt F)) (A2 : main_arg2.ty.Contents (Elt F)) : main_v91.ty.Contents (Elt F) :=
  shapeCast main_v91.ty.shape (s_v90 A0 A1 A2) shapeCasts_S65536x1x4x4_S65536x4x4

def s_v92 (A0 : main_arg0.ty.Contents (Elt F)) (A1 : main_arg1.ty.Contents (Elt F)) (A2 : main_arg2.ty.Contents (Elt F)) : main_v92.ty.Contents (Elt F) :=
  ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)) (s_v80 A0 A1 A2) (s_v91 A0 A1 A2)

def s_v93 (A0 : main_arg0.ty.Contents (Elt F)) (A1 : main_arg1.ty.Contents (Elt F)) (A2 : main_arg2.ty.Contents (Elt F)) : main_v93.ty.Contents (Elt F) :=
  ((extractStridedSlice S65536x1x4x4 ![0, 14, 0, 0] · slices_S65536x24x4x4_S65536x1x4x4_0_14_0_0) : (⟨S65536x24x4x4, .f32⟩ : BufTy).Contents (Elt F) → (⟨S65536x1x4x4, .f32⟩ : BufTy).Contents (Elt F)) (s_v51 A0 A1 A2)

def s_v94 (A0 : main_arg0.ty.Contents (Elt F)) (A1 : main_arg1.ty.Contents (Elt F)) (A2 : main_arg2.ty.Contents (Elt F)) : main_v94.ty.Contents (Elt F) :=
  shapeCast main_v94.ty.shape (s_v93 A0 A1 A2) shapeCasts_S65536x1x4x4_S65536x4x4

def s_v95 (A0 : main_arg0.ty.Contents (Elt F)) (A1 : main_arg1.ty.Contents (Elt F)) (A2 : main_arg2.ty.Contents (Elt F)) : main_v95.ty.Contents (Elt F) :=
  ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)) (s_v80 A0 A1 A2) (s_v94 A0 A1 A2)

def s_v96 (A0 : main_arg0.ty.Contents (Elt F)) (A1 : main_arg1.ty.Contents (Elt F)) (A2 : main_arg2.ty.Contents (Elt F)) : main_v96.ty.Contents (Elt F) :=
  ((extractStridedSlice S65536x1x4x4 ![0, 15, 0, 0] · slices_S65536x24x4x4_S65536x1x4x4_0_15_0_0) : (⟨S65536x24x4x4, .f32⟩ : BufTy).Contents (Elt F) → (⟨S65536x1x4x4, .f32⟩ : BufTy).Contents (Elt F)) (s_v51 A0 A1 A2)

def s_v97 (A0 : main_arg0.ty.Contents (Elt F)) (A1 : main_arg1.ty.Contents (Elt F)) (A2 : main_arg2.ty.Contents (Elt F)) : main_v97.ty.Contents (Elt F) :=
  shapeCast main_v97.ty.shape (s_v96 A0 A1 A2) shapeCasts_S65536x1x4x4_S65536x4x4

def s_v98 (A0 : main_arg0.ty.Contents (Elt F)) (A1 : main_arg1.ty.Contents (Elt F)) (A2 : main_arg2.ty.Contents (Elt F)) : main_v98.ty.Contents (Elt F) :=
  ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)) (s_v89 A0 A1 A2) (s_v97 A0 A1 A2)

def s_v99 (A0 : main_arg0.ty.Contents (Elt F)) (A1 : main_arg1.ty.Contents (Elt F)) (A2 : main_arg2.ty.Contents (Elt F)) : main_v99.ty.Contents (Elt F) :=
  ((extractStridedSlice S65536x1x4x4 ![0, 16, 0, 0] · slices_S65536x24x4x4_S65536x1x4x4_0_16_0_0) : (⟨S65536x24x4x4, .f32⟩ : BufTy).Contents (Elt F) → (⟨S65536x1x4x4, .f32⟩ : BufTy).Contents (Elt F)) (s_v51 A0 A1 A2)

def s_v100 (A0 : main_arg0.ty.Contents (Elt F)) (A1 : main_arg1.ty.Contents (Elt F)) (A2 : main_arg2.ty.Contents (Elt F)) : main_v100.ty.Contents (Elt F) :=
  shapeCast main_v100.ty.shape (s_v99 A0 A1 A2) shapeCasts_S65536x1x4x4_S65536x4x4

def s_v101 (A0 : main_arg0.ty.Contents (Elt F)) (A1 : main_arg1.ty.Contents (Elt F)) (A2 : main_arg2.ty.Contents (Elt F)) : main_v101.ty.Contents (Elt F) :=
  ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)) (s_v92 A0 A1 A2) (s_v100 A0 A1 A2)

def s_v102 (A0 : main_arg0.ty.Contents (Elt F)) (A1 : main_arg1.ty.Contents (Elt F)) (A2 : main_arg2.ty.Contents (Elt F)) : main_v102.ty.Contents (Elt F) :=
  ((extractStridedSlice S65536x1x4x4 ![0, 17, 0, 0] · slices_S65536x24x4x4_S65536x1x4x4_0_17_0_0) : (⟨S65536x24x4x4, .f32⟩ : BufTy).Contents (Elt F) → (⟨S65536x1x4x4, .f32⟩ : BufTy).Contents (Elt F)) (s_v51 A0 A1 A2)

def s_v103 (A0 : main_arg0.ty.Contents (Elt F)) (A1 : main_arg1.ty.Contents (Elt F)) (A2 : main_arg2.ty.Contents (Elt F)) : main_v103.ty.Contents (Elt F) :=
  shapeCast main_v103.ty.shape (s_v102 A0 A1 A2) shapeCasts_S65536x1x4x4_S65536x4x4

def s_v104 (A0 : main_arg0.ty.Contents (Elt F)) (A1 : main_arg1.ty.Contents (Elt F)) (A2 : main_arg2.ty.Contents (Elt F)) : main_v104.ty.Contents (Elt F) :=
  ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)) (s_v95 A0 A1 A2) (s_v103 A0 A1 A2)

def s_v105 (A0 : main_arg0.ty.Contents (Elt F)) (A1 : main_arg1.ty.Contents (Elt F)) (A2 : main_arg2.ty.Contents (Elt F)) : main_v105.ty.Contents (Elt F) :=
  ((extractStridedSlice S65536x1x4x4 ![0, 18, 0, 0] · slices_S65536x24x4x4_S65536x1x4x4_0_18_0_0) : (⟨S65536x24x4x4, .f32⟩ : BufTy).Contents (Elt F) → (⟨S65536x1x4x4, .f32⟩ : BufTy).Contents (Elt F)) (s_v51 A0 A1 A2)

def s_v106 (A0 : main_arg0.ty.Contents (Elt F)) (A1 : main_arg1.ty.Contents (Elt F)) (A2 : main_arg2.ty.Contents (Elt F)) : main_v106.ty.Contents (Elt F) :=
  shapeCast main_v106.ty.shape (s_v105 A0 A1 A2) shapeCasts_S65536x1x4x4_S65536x4x4

def s_v107 (A0 : main_arg0.ty.Contents (Elt F)) (A1 : main_arg1.ty.Contents (Elt F)) (A2 : main_arg2.ty.Contents (Elt F)) : main_v107.ty.Contents (Elt F) :=
  ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)) (s_v101 A0 A1 A2) (s_v106 A0 A1 A2)

def s_v108 (A0 : main_arg0.ty.Contents (Elt F)) (A1 : main_arg1.ty.Contents (Elt F)) (A2 : main_arg2.ty.Contents (Elt F)) : main_v108.ty.Contents (Elt F) :=
  ((extractStridedSlice S65536x1x4x4 ![0, 19, 0, 0] · slices_S65536x24x4x4_S65536x1x4x4_0_19_0_0) : (⟨S65536x24x4x4, .f32⟩ : BufTy).Contents (Elt F) → (⟨S65536x1x4x4, .f32⟩ : BufTy).Contents (Elt F)) (s_v51 A0 A1 A2)

def s_v109 (A0 : main_arg0.ty.Contents (Elt F)) (A1 : main_arg1.ty.Contents (Elt F)) (A2 : main_arg2.ty.Contents (Elt F)) : main_v109.ty.Contents (Elt F) :=
  shapeCast main_v109.ty.shape (s_v108 A0 A1 A2) shapeCasts_S65536x1x4x4_S65536x4x4

def s_v110 (A0 : main_arg0.ty.Contents (Elt F)) (A1 : main_arg1.ty.Contents (Elt F)) (A2 : main_arg2.ty.Contents (Elt F)) : main_v110.ty.Contents (Elt F) :=
  ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)) (s_v104 A0 A1 A2) (s_v109 A0 A1 A2)

def s_v111 (A0 : main_arg0.ty.Contents (Elt F)) (A1 : main_arg1.ty.Contents (Elt F)) (A2 : main_arg2.ty.Contents (Elt F)) : main_v111.ty.Contents (Elt F) :=
  ((extractStridedSlice S65536x1x4x4 ![0, 20, 0, 0] · slices_S65536x24x4x4_S65536x1x4x4_0_20_0_0) : (⟨S65536x24x4x4, .f32⟩ : BufTy).Contents (Elt F) → (⟨S65536x1x4x4, .f32⟩ : BufTy).Contents (Elt F)) (s_v51 A0 A1 A2)

def s_v112 (A0 : main_arg0.ty.Contents (Elt F)) (A1 : main_arg1.ty.Contents (Elt F)) (A2 : main_arg2.ty.Contents (Elt F)) : main_v112.ty.Contents (Elt F) :=
  shapeCast main_v112.ty.shape (s_v111 A0 A1 A2) shapeCasts_S65536x1x4x4_S65536x4x4

def s_v113 (A0 : main_arg0.ty.Contents (Elt F)) (A1 : main_arg1.ty.Contents (Elt F)) (A2 : main_arg2.ty.Contents (Elt F)) : main_v113.ty.Contents (Elt F) :=
  ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)) (s_v107 A0 A1 A2) (s_v112 A0 A1 A2)

def s_v114 (A0 : main_arg0.ty.Contents (Elt F)) (A1 : main_arg1.ty.Contents (Elt F)) (A2 : main_arg2.ty.Contents (Elt F)) : main_v114.ty.Contents (Elt F) :=
  ((extractStridedSlice S65536x1x4x4 ![0, 21, 0, 0] · slices_S65536x24x4x4_S65536x1x4x4_0_21_0_0) : (⟨S65536x24x4x4, .f32⟩ : BufTy).Contents (Elt F) → (⟨S65536x1x4x4, .f32⟩ : BufTy).Contents (Elt F)) (s_v51 A0 A1 A2)

def s_v115 (A0 : main_arg0.ty.Contents (Elt F)) (A1 : main_arg1.ty.Contents (Elt F)) (A2 : main_arg2.ty.Contents (Elt F)) : main_v115.ty.Contents (Elt F) :=
  shapeCast main_v115.ty.shape (s_v114 A0 A1 A2) shapeCasts_S65536x1x4x4_S65536x4x4

def s_v116 (A0 : main_arg0.ty.Contents (Elt F)) (A1 : main_arg1.ty.Contents (Elt F)) (A2 : main_arg2.ty.Contents (Elt F)) : main_v116.ty.Contents (Elt F) :=
  ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)) (s_v110 A0 A1 A2) (s_v115 A0 A1 A2)

def s_v117 (A0 : main_arg0.ty.Contents (Elt F)) (A1 : main_arg1.ty.Contents (Elt F)) (A2 : main_arg2.ty.Contents (Elt F)) : main_v117.ty.Contents (Elt F) :=
  ((extractStridedSlice S65536x1x4x4 ![0, 22, 0, 0] · slices_S65536x24x4x4_S65536x1x4x4_0_22_0_0) : (⟨S65536x24x4x4, .f32⟩ : BufTy).Contents (Elt F) → (⟨S65536x1x4x4, .f32⟩ : BufTy).Contents (Elt F)) (s_v51 A0 A1 A2)

def s_v118 (A0 : main_arg0.ty.Contents (Elt F)) (A1 : main_arg1.ty.Contents (Elt F)) (A2 : main_arg2.ty.Contents (Elt F)) : main_v118.ty.Contents (Elt F) :=
  shapeCast main_v118.ty.shape (s_v117 A0 A1 A2) shapeCasts_S65536x1x4x4_S65536x4x4

def s_v119 (A0 : main_arg0.ty.Contents (Elt F)) (A1 : main_arg1.ty.Contents (Elt F)) (A2 : main_arg2.ty.Contents (Elt F)) : main_v119.ty.Contents (Elt F) :=
  ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)) (s_v113 A0 A1 A2) (s_v118 A0 A1 A2)

def s_v120 (A0 : main_arg0.ty.Contents (Elt F)) (A1 : main_arg1.ty.Contents (Elt F)) (A2 : main_arg2.ty.Contents (Elt F)) : main_v120.ty.Contents (Elt F) :=
  ((extractStridedSlice S65536x1x4x4 ![0, 23, 0, 0] · slices_S65536x24x4x4_S65536x1x4x4_0_23_0_0) : (⟨S65536x24x4x4, .f32⟩ : BufTy).Contents (Elt F) → (⟨S65536x1x4x4, .f32⟩ : BufTy).Contents (Elt F)) (s_v51 A0 A1 A2)

def s_v121 (A0 : main_arg0.ty.Contents (Elt F)) (A1 : main_arg1.ty.Contents (Elt F)) (A2 : main_arg2.ty.Contents (Elt F)) : main_v121.ty.Contents (Elt F) :=
  shapeCast main_v121.ty.shape (s_v120 A0 A1 A2) shapeCasts_S65536x1x4x4_S65536x4x4

def s_v122 (A0 : main_arg0.ty.Contents (Elt F)) (A1 : main_arg1.ty.Contents (Elt F)) (A2 : main_arg2.ty.Contents (Elt F)) : main_v122.ty.Contents (Elt F) :=
  ((fun l r => Host.dotGeneral dot_S65536x4x4_S65536x4x4_S65536x4x4_2_1_1_2_0_0 none l r) : (⟨S65536x4x4, .f32⟩ : BufTy).Contents (Elt F) → (⟨S65536x4x4, .f32⟩ : BufTy).Contents (Elt F) → (⟨S65536x4x4, .f32⟩ : BufTy).Contents (Elt F)) (s_v116 A0 A1 A2) (s_v121 A0 A1 A2)

def s_v123 (A0 : main_arg0.ty.Contents (Elt F)) (A1 : main_arg1.ty.Contents (Elt F)) (A2 : main_arg2.ty.Contents (Elt F)) : main_v123.ty.Contents (Elt F) :=
  (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)) (s_v53 A0 A1 A2)

def s_v124 (A0 : main_arg0.ty.Contents (Elt F)) (A1 : main_arg1.ty.Contents (Elt F)) (A2 : main_arg2.ty.Contents (Elt F)) : main_v124.ty.Contents (Elt F) :=
  (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)) (s_v56 A0 A1 A2)

def s_v125 (A0 : main_arg0.ty.Contents (Elt F)) (A1 : main_arg1.ty.Contents (Elt F)) (A2 : main_arg2.ty.Contents (Elt F)) : main_v125.ty.Contents (Elt F) :=
  (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)) (s_v59 A0 A1 A2)

def s_v126 (A0 : main_arg0.ty.Contents (Elt F)) (A1 : main_arg1.ty.Contents (Elt F)) (A2 : main_arg2.ty.Contents (Elt F)) : main_v126.ty.Contents (Elt F) :=
  (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)) (s_v62 A0 A1 A2)

def s_v127 (A0 : main_arg0.ty.Contents (Elt F)) (A1 : main_arg1.ty.Contents (Elt F)) (A2 : main_arg2.ty.Contents (Elt F)) : main_v127.ty.Contents (Elt F) :=
  (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)) (s_v65 A0 A1 A2)

def s_v128 (A0 : main_arg0.ty.Contents (Elt F)) (A1 : main_arg1.ty.Contents (Elt F)) (A2 : main_arg2.ty.Contents (Elt F)) : main_v128.ty.Contents (Elt F) :=
  (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)) (s_v68 A0 A1 A2)

def s_v129 (A0 : main_arg0.ty.Contents (Elt F)) (A1 : main_arg1.ty.Contents (Elt F)) (A2 : main_arg2.ty.Contents (Elt F)) : main_v129.ty.Contents (Elt F) :=
  (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)) (s_v71 A0 A1 A2)

def s_v130 (A0 : main_arg0.ty.Contents (Elt F)) (A1 : main_arg1.ty.Contents (Elt F)) (A2 : main_arg2.ty.Contents (Elt F)) : main_v130.ty.Contents (Elt F) :=
  (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)) (s_v74 A0 A1 A2)

def s_v131 (A0 : main_arg0.ty.Contents (Elt F)) (A1 : main_arg1.ty.Contents (Elt F)) (A2 : main_arg2.ty.Contents (Elt F)) : main_v131.ty.Contents (Elt F) :=
  (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)) (s_v77 A0 A1 A2)

def s_v132 (A0 : main_arg0.ty.Contents (Elt F)) (A1 : main_arg1.ty.Contents (Elt F)) (A2 : main_arg2.ty.Contents (Elt F)) : main_v132.ty.Contents (Elt F) :=
  (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)) (s_v80 A0 A1 A2)

def s_v133 (A0 : main_arg0.ty.Contents (Elt F)) (A1 : main_arg1.ty.Contents (Elt F)) (A2 : main_arg2.ty.Contents (Elt F)) : main_v133.ty.Contents (Elt F) :=
  (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)) (s_v83 A0 A1 A2)

def s_v134 (A0 : main_arg0.ty.Contents (Elt F)) (A1 : main_arg1.ty.Contents (Elt F)) (A2 : main_arg2.ty.Contents (Elt F)) : main_v134.ty.Contents (Elt F) :=
  (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)) (s_v86 A0 A1 A2)

def s_v135 (A0 : main_arg0.ty.Contents (Elt F)) (A1 : main_arg1.ty.Contents (Elt F)) (A2 : main_arg2.ty.Contents (Elt F)) : main_v135.ty.Contents (Elt F) :=
  (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)) (s_v89 A0 A1 A2)

def s_v136 (A0 : main_arg0.ty.Contents (Elt F)) (A1 : main_arg1.ty.Contents (Elt F)) (A2 : main_arg2.ty.Contents (Elt F)) : main_v136.ty.Contents (Elt F) :=
  (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)) (s_v92 A0 A1 A2)

def s_v137 (A0 : main_arg0.ty.Contents (Elt F)) (A1 : main_arg1.ty.Contents (Elt F)) (A2 : main_arg2.ty.Contents (Elt F)) : main_v137.ty.Contents (Elt F) :=
  (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)) (s_v95 A0 A1 A2)

def s_v138 (A0 : main_arg0.ty.Contents (Elt F)) (A1 : main_arg1.ty.Contents (Elt F)) (A2 : main_arg2.ty.Contents (Elt F)) : main_v138.ty.Contents (Elt F) :=
  (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)) (s_v98 A0 A1 A2)

def s_v139 (A0 : main_arg0.ty.Contents (Elt F)) (A1 : main_arg1.ty.Contents (Elt F)) (A2 : main_arg2.ty.Contents (Elt F)) : main_v139.ty.Contents (Elt F) :=
  (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)) (s_v101 A0 A1 A2)

def s_v140 (A0 : main_arg0.ty.Contents (Elt F)) (A1 : main_arg1.ty.Contents (Elt F)) (A2 : main_arg2.ty.Contents (Elt F)) : main_v140.ty.Contents (Elt F) :=
  (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)) (s_v104 A0 A1 A2)

def s_v141 (A0 : main_arg0.ty.Contents (Elt F)) (A1 : main_arg1.ty.Contents (Elt F)) (A2 : main_arg2.ty.Contents (Elt F)) : main_v141.ty.Contents (Elt F) :=
  (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)) (s_v107 A0 A1 A2)

def s_v142 (A0 : main_arg0.ty.Contents (Elt F)) (A1 : main_arg1.ty.Contents (Elt F)) (A2 : main_arg2.ty.Contents (Elt F)) : main_v142.ty.Contents (Elt F) :=
  (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)) (s_v110 A0 A1 A2)

def s_v143 (A0 : main_arg0.ty.Contents (Elt F)) (A1 : main_arg1.ty.Contents (Elt F)) (A2 : main_arg2.ty.Contents (Elt F)) : main_v143.ty.Contents (Elt F) :=
  (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)) (s_v113 A0 A1 A2)

def s_v144 (A0 : main_arg0.ty.Contents (Elt F)) (A1 : main_arg1.ty.Contents (Elt F)) (A2 : main_arg2.ty.Contents (Elt F)) : main_v144.ty.Contents (Elt F) :=
  (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)) (s_v116 A0 A1 A2)

def s_v145 (A0 : main_arg0.ty.Contents (Elt F)) (A1 : main_arg1.ty.Contents (Elt F)) (A2 : main_arg2.ty.Contents (Elt F)) : main_v145.ty.Contents (Elt F) :=
  (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)) (s_v119 A0 A1 A2)

def s_v146 (A0 : main_arg0.ty.Contents (Elt F)) (A1 : main_arg1.ty.Contents (Elt F)) (A2 : main_arg2.ty.Contents (Elt F)) : main_v146.ty.Contents (Elt F) :=
  (broadcastInDim S65536x1x4x4 ![0, 2, 3] bcast_S65536x4x4_S65536x1x4x4_0_2_3 : (⟨S65536x4x4, .f32⟩ : BufTy).Contents (Elt F) → (⟨S65536x1x4x4, .f32⟩ : BufTy).Contents (Elt F)) (s_v122 A0 A1 A2)

def s_v147 (A0 : main_arg0.ty.Contents (Elt F)) (A1 : main_arg1.ty.Contents (Elt F)) (A2 : main_arg2.ty.Contents (Elt F)) : main_v147.ty.Contents (Elt F) :=
  concatenate S65536x16x4x4 1 [⟨S65536x1x4x4, (s_v123 A0 A1 A2)⟩, ⟨S65536x1x4x4, (s_v124 A0 A1 A2)⟩, ⟨S65536x1x4x4, (s_v125 A0 A1 A2)⟩, ⟨S65536x1x4x4, (s_v126 A0 A1 A2)⟩, ⟨S65536x1x4x4, (s_v127 A0 A1 A2)⟩, ⟨S65536x1x4x4, (s_v128 A0 A1 A2)⟩, ⟨S65536x1x4x4, (s_v129 A0 A1 A2)⟩, ⟨S65536x1x4x4, (s_v130 A0 A1 A2)⟩, ⟨S65536x1x4x4, (s_v131 A0 A1 A2)⟩, ⟨S65536x1x4x4, (s_v132 A0 A1 A2)⟩, ⟨S65536x1x4x4, (s_v133 A0 A1 A2)⟩, ⟨S65536x1x4x4, (s_v134 A0 A1 A2)⟩, ⟨S65536x1x4x4, (s_v135 A0 A1 A2)⟩, ⟨S65536x1x4x4, (s_v136 A0 A1 A2)⟩, ⟨S65536x1x4x4, (s_v137 A0 A1 A2)⟩, ⟨S65536x1x4x4, (s_v138 A0 A1 A2)⟩] concatenates_S65536x1x4x4_S65536x1x4x4_S65536x1x4x4_S65536x1x4x4_S65536x1x4x4_S65536x1x4x4_S65536x1x4x4_S65536x1x4x4_S65536x1x4x4_S65536x1x4x4_S65536x1x4x4_S65536x1x4x4_S65536x1x4x4_S65536x1x4x4_S65536x1x4x4_S65536x1x4x4_S65536x16x4x4_d1

def s_v148 (A0 : main_arg0.ty.Contents (Elt F)) (A1 : main_arg1.ty.Contents (Elt F)) (A2 : main_arg2.ty.Contents (Elt F)) : main_v148.ty.Contents (Elt F) :=
  concatenate S65536x8x4x4 1 [⟨S65536x1x4x4, (s_v139 A0 A1 A2)⟩, ⟨S65536x1x4x4, (s_v140 A0 A1 A2)⟩, ⟨S65536x1x4x4, (s_v141 A0 A1 A2)⟩, ⟨S65536x1x4x4, (s_v142 A0 A1 A2)⟩, ⟨S65536x1x4x4, (s_v143 A0 A1 A2)⟩, ⟨S65536x1x4x4, (s_v144 A0 A1 A2)⟩, ⟨S65536x1x4x4, (s_v145 A0 A1 A2)⟩, ⟨S65536x1x4x4, (s_v146 A0 A1 A2)⟩] concatenates_S65536x1x4x4_S65536x1x4x4_S65536x1x4x4_S65536x1x4x4_S65536x1x4x4_S65536x1x4x4_S65536x1x4x4_S65536x1x4x4_S65536x8x4x4_d1

def s_v149 (A0 : main_arg0.ty.Contents (Elt F)) (A1 : main_arg1.ty.Contents (Elt F)) (A2 : main_arg2.ty.Contents (Elt F)) : main_v149.ty.Contents (Elt F) :=
  ((fun a b => concatenate S65536x24x4x4 1 [⟨S65536x16x4x4, a⟩, ⟨S65536x8x4x4, b⟩] concatenates_S65536x16x4x4_S65536x8x4x4_S65536x24x4x4_d1) : (⟨S65536x16x4x4, .f32⟩ : BufTy).Contents (Elt F) → (⟨S65536x8x4x4, .f32⟩ : BufTy).Contents (Elt F) → (⟨S65536x24x4x4, .f32⟩ : BufTy).Contents (Elt F)) (s_v147 A0 A1 A2) (s_v148 A0 A1 A2)

def s_v150 (A0 : main_arg0.ty.Contents (Elt F)) (A1 : main_arg1.ty.Contents (Elt F)) (A2 : main_arg2.ty.Contents (Elt F)) : main_v150.ty.Contents (Elt F) :=
  ((extractStridedSlice S65536x24x3x1 ![0, 0, 0, 3] · slices_S65536x24x4x4_S65536x24x3x1_0_0_0_3) : (⟨S65536x24x4x4, .f32⟩ : BufTy).Contents (Elt F) → (⟨S65536x24x3x1, .f32⟩ : BufTy).Contents (Elt F)) (s_v149 A0 A1 A2)

def s_v151 (A0 : main_arg0.ty.Contents (Elt F)) (A1 : main_arg1.ty.Contents (Elt F)) (A2 : main_arg2.ty.Contents (Elt F)) : main_v151.ty.Contents (Elt F) :=
  shapeCast main_v151.ty.shape (s_v150 A0 A1 A2) shapeCasts_S65536x24x3x1_S65536x24x3

def s_v152 (A0 : main_arg0.ty.Contents (Elt F)) (A1 : main_arg1.ty.Contents (Elt F)) (A2 : main_arg2.ty.Contents (Elt F)) : main_v152.ty.Contents (Elt F) :=
  (broadcastInDim S65536x1x3 ![0, 2] bcast_S65536x3_S65536x1x3_0_2 : (⟨S65536x3, .f32⟩ : BufTy).Contents (Elt F) → (⟨S65536x1x3, .f32⟩ : BufTy).Contents (Elt F)) A2

def s_v153 (A0 : main_arg0.ty.Contents (Elt F)) (A1 : main_arg1.ty.Contents (Elt F)) (A2 : main_arg2.ty.Contents (Elt F)) : main_v153.ty.Contents (Elt F) :=
  (broadcastInDim S65536x24x3 ![0, 1, 2] bcast_S65536x1x3_S65536x24x3_0_1_2 : (⟨S65536x1x3, .f32⟩ : BufTy).Contents (Elt F) → (⟨S65536x24x3, .f32⟩ : BufTy).Contents (Elt F)) (s_v152 A0 A1 A2)

def s_v154 (A0 : main_arg0.ty.Contents (Elt F)) (A1 : main_arg1.ty.Contents (Elt F)) (A2 : main_arg2.ty.Contents (Elt F)) : main_v154.ty.Contents (Elt F) :=
  (addf : (⟨S65536x24x3, .f32⟩ : BufTy).Contents (Elt F) → (⟨S65536x24x3, .f32⟩ : BufTy).Contents (Elt F) → (⟨S65536x24x3, .f32⟩ : BufTy).Contents (Elt F)) (s_v151 A0 A1 A2) (s_v153 A0 A1 A2)

/-- The program's result: the positions, as a function of the three argument arrays. -/
abbrev res (A0 : main_arg0.ty.Contents (Elt F)) (A1 : main_arg1.ty.Contents (Elt F)) (A2 : main_arg2.ty.Contents (Elt F)) : main_v154.ty.Contents (Elt F) := s_v154 A0 A1 A2

end Cert.ReferenceIdeal.RStages

end
-- ==== Proof.RRunInv.lean ====
/-
  What the matrix program's buffers hold between its stretches (RRunOps.lean's `ops0` … `ops14`): before operation
  `n`, every array written earlier and still read at or after `n` holds its stage (RStages.lean's definition of it,
  over the three argument arrays), and the argument arrays hold what they did at the start. `Inv0` speaks of the
  arguments only; `Inv15`, after the last operation, of the arguments and the result.
-/
import proofs.«127147_j62156766707902_2_alg».proof.Proof.RRunOps
import proofs.«127147_j62156766707902_2_alg».proof.Proof.RStages

noncomputable section

namespace Cert.ReferenceIdeal.RRun

open Idealize.ShloMosaic Idealize.SL.Sem Idealize.ShloMosaic.StableHlo Cert.ReferenceIdeal Cert.ReferenceIdeal.RStages

variable {F : FTy → Type} [FloatOps F] [Facts]

open Facts₀ Facts

/-- One `simp` pass computing a fold of operations at a buffer: each operation's result at its own buffer is its
    function's value, at any other buffer what was there (Lib/StableHlo/Run.lean's `after_results_simp`, with the n-ary
    operations over 8, 9 and 16 literal references read operand by operand). -/
macro "after_results_simp'" : tactic =>
  `(tactic| (simp (disch := decide) only [after_cons, after_nil,
      nullary_result', unary_result', binary_result', reshape_result', nary8_result', nary9_result', nary16_result',
      nullary_result_ne', unary_result_ne', binary_result_ne', reshape_result_ne', nary_result_ne']))

/-- The same computation for a stretch with concatenations: the `simp` pass stops under a concatenation's list of
    (shape, contents) pairs, where the rewriting goes on one operation at a time (Lib/StableHlo/Run.lean's
    `after_results`, with the n-ary operations over 8, 9 and 16 literal references read operand by operand). -/
macro "after_results_all" : tactic =>
  `(tactic| (after_results_simp'
             repeat (first
               | rw [nullary_result] | rw [unary_result] | rw [binary_result] | rw [reshape_result]
               | rw [nary8_result] | rw [nary9_result] | rw [nary16_result]
               | (rw [nullary_result_ne]; rotate_left; decide)
               | (rw [unary_result_ne]; rotate_left; decide)
               | (rw [binary_result_ne]; rotate_left; decide)
               | (rw [reshape_result_ne]; rotate_left; decide)
               | (rw [nary_result_ne]; rotate_left; decide))))

/-- The congruence lemmas `simp` states for the program's two contraction records when it rewrites under one, stated
    here once for the modules downstream (as Lib/StableHlo/Run.lean's `congr_simp_realized` does for the builders). -/
theorem dot_congr_simp_realized : True := by
  have := @dot_S65536x24x3x3_S65536x24x3x3_S65536x24x3x3_3_2_2_3_01_01.congr_simp
  have := @dot_S65536x4x4_S65536x4x4_S65536x4x4_2_1_1_2_0_0.congr_simp
  trivial

/-- Before operation 0: the arrays still to be read hold their stages. -/
abbrev Inv0 (W : Valuation τ sig (Elt F)) (A0 : main_arg0.ty.Contents (Elt F)) (A1 : main_arg1.ty.Contents (Elt F)) (A2 : main_arg2.ty.Contents (Elt F)) : Prop :=
  W (Proc.devRef .tc main_arg0) = A0 ∧
  W (Proc.devRef .tc main_arg1) = A1 ∧
  W (Proc.devRef .tc main_arg2) = A2

/-- Before operation 11: the arrays still to be read hold their stages. -/
abbrev Inv1 (W : Valuation τ sig (Elt F)) (A0 : main_arg0.ty.Contents (Elt F)) (A1 : main_arg1.ty.Contents (Elt F)) (A2 : main_arg2.ty.Contents (Elt F)) : Prop :=
  W (Proc.devRef .tc main_arg0) = A0 ∧
  W (Proc.devRef .tc main_arg1) = A1 ∧
  W (Proc.devRef .tc main_arg2) = A2 ∧
  W (Proc.devRef .tc main_cst) = s_cst A0 A1 A2 ∧
  W (Proc.devRef .tc main_v2) = s_v2 A0 A1 A2 ∧
  W (Proc.devRef .tc main_v4) = s_v4 A0 A1 A2

/-- Before operation 23: the arrays still to be read hold their stages. -/
abbrev Inv2 (W : Valuation τ sig (Elt F)) (A0 : main_arg0.ty.Contents (Elt F)) (A1 : main_arg1.ty.Contents (Elt F)) (A2 : main_arg2.ty.Contents (Elt F)) : Prop :=
  W (Proc.devRef .tc main_arg0) = A0 ∧
  W (Proc.devRef .tc main_arg1) = A1 ∧
  W (Proc.devRef .tc main_arg2) = A2 ∧
  W (Proc.devRef .tc main_cst) = s_cst A0 A1 A2 ∧
  W (Proc.devRef .tc main_v6) = s_v6 A0 A1 A2 ∧
  W (Proc.devRef .tc main_v8) = s_v8 A0 A1 A2 ∧
  W (Proc.devRef .tc main_v10) = s_v10 A0 A1 A2 ∧
  W (Proc.devRef .tc main_v12) = s_v12 A0 A1 A2 ∧
  W (Proc.devRef .tc main_v14) = s_v14 A0 A1 A2 ∧
  W (Proc.devRef .tc main_v15) = s_v15 A0 A1 A2

/-- Before operation 35: the arrays still to be read hold their stages. -/
abbrev Inv3 (W : Valuation τ sig (Elt F)) (A0 : main_arg0.ty.Contents (Elt F)) (A1 : main_arg1.ty.Contents (Elt F)) (A2 : main_arg2.ty.Contents (Elt F)) : Prop :=
  W (Proc.devRef .tc main_arg0) = A0 ∧
  W (Proc.devRef .tc main_arg1) = A1 ∧
  W (Proc.devRef .tc main_arg2) = A2 ∧
  W (Proc.devRef .tc main_cst) = s_cst A0 A1 A2 ∧
  W (Proc.devRef .tc main_v6) = s_v6 A0 A1 A2 ∧
  W (Proc.devRef .tc main_v8) = s_v8 A0 A1 A2 ∧
  W (Proc.devRef .tc main_v19) = s_v19 A0 A1 A2 ∧
  W (Proc.devRef .tc main_v20) = s_v20 A0 A1 A2 ∧
  W (Proc.devRef .tc main_v21) = s_v21 A0 A1 A2 ∧
  W (Proc.devRef .tc main_v22) = s_v22 A0 A1 A2 ∧
  W (Proc.devRef .tc main_v23) = s_v23 A0 A1 A2 ∧
  W (Proc.devRef .tc main_v24) = s_v24 A0 A1 A2 ∧
  W (Proc.devRef .tc main_v25) = s_v25 A0 A1 A2 ∧
  W (Proc.devRef .tc main_v26) = s_v26 A0 A1 A2 ∧
  W (Proc.devRef .tc main_v27) = s_v27 A0 A1 A2

/-- Before operation 37: the arrays still to be read hold their stages. -/
abbrev Inv4 (W : Valuation τ sig (Elt F)) (A0 : main_arg0.ty.Contents (Elt F)) (A1 : main_arg1.ty.Contents (Elt F)) (A2 : main_arg2.ty.Contents (Elt F)) : Prop :=
  W (Proc.devRef .tc main_arg0) = A0 ∧
  W (Proc.devRef .tc main_arg1) = A1 ∧
  W (Proc.devRef .tc main_arg2) = A2 ∧
  W (Proc.devRef .tc main_cst) = s_cst A0 A1 A2 ∧
  W (Proc.devRef .tc main_v6) = s_v6 A0 A1 A2 ∧
  W (Proc.devRef .tc main_v8) = s_v8 A0 A1 A2 ∧
  W (Proc.devRef .tc main_v29) = s_v29 A0 A1 A2

/-- Before operation 49: the arrays still to be read hold their stages. -/
abbrev Inv5 (W : Valuation τ sig (Elt F)) (A0 : main_arg0.ty.Contents (Elt F)) (A1 : main_arg1.ty.Contents (Elt F)) (A2 : main_arg2.ty.Contents (Elt F)) : Prop :=
  W (Proc.devRef .tc main_arg0) = A0 ∧
  W (Proc.devRef .tc main_arg1) = A1 ∧
  W (Proc.devRef .tc main_arg2) = A2 ∧
  W (Proc.devRef .tc main_cst) = s_cst A0 A1 A2 ∧
  W (Proc.devRef .tc main_v6) = s_v6 A0 A1 A2 ∧
  W (Proc.devRef .tc main_v29) = s_v29 A0 A1 A2 ∧
  W (Proc.devRef .tc main_v40) = s_v40 A0 A1 A2

/-- Before operation 61: the arrays still to be read hold their stages. -/
abbrev Inv6 (W : Valuation τ sig (Elt F)) (A0 : main_arg0.ty.Contents (Elt F)) (A1 : main_arg1.ty.Contents (Elt F)) (A2 : main_arg2.ty.Contents (Elt F)) : Prop :=
  W (Proc.devRef .tc main_arg0) = A0 ∧
  W (Proc.devRef .tc main_arg1) = A1 ∧
  W (Proc.devRef .tc main_arg2) = A2 ∧
  W (Proc.devRef .tc main_v51) = s_v51 A0 A1 A2

/-- Before operation 64: the arrays still to be read hold their stages. -/
abbrev Inv7 (W : Valuation τ sig (Elt F)) (A0 : main_arg0.ty.Contents (Elt F)) (A1 : main_arg1.ty.Contents (Elt F)) (A2 : main_arg2.ty.Contents (Elt F)) : Prop :=
  W (Proc.devRef .tc main_arg0) = A0 ∧
  W (Proc.devRef .tc main_arg1) = A1 ∧
  W (Proc.devRef .tc main_arg2) = A2 ∧
  W (Proc.devRef .tc main_v51) = s_v51 A0 A1 A2 ∧
  W (Proc.devRef .tc main_v53) = s_v53 A0 A1 A2 ∧
  W (Proc.devRef .tc main_v54) = s_v54 A0 A1 A2

/-- Before operation 75: the arrays still to be read hold their stages. -/
abbrev Inv8 (W : Valuation τ sig (Elt F)) (A0 : main_arg0.ty.Contents (Elt F)) (A1 : main_arg1.ty.Contents (Elt F)) (A2 : main_arg2.ty.Contents (Elt F)) : Prop :=
  W (Proc.devRef .tc main_arg0) = A0 ∧
  W (Proc.devRef .tc main_arg1) = A1 ∧
  W (Proc.devRef .tc main_arg2) = A2 ∧
  W (Proc.devRef .tc main_v51) = s_v51 A0 A1 A2 ∧
  W (Proc.devRef .tc main_v53) = s_v53 A0 A1 A2 ∧
  W (Proc.devRef .tc main_v56) = s_v56 A0 A1 A2 ∧
  W (Proc.devRef .tc main_v59) = s_v59 A0 A1 A2 ∧
  W (Proc.devRef .tc main_v62) = s_v62 A0 A1 A2 ∧
  W (Proc.devRef .tc main_v65) = s_v65 A0 A1 A2

/-- Before operation 90: the arrays still to be read hold their stages. -/
abbrev Inv9 (W : Valuation τ sig (Elt F)) (A0 : main_arg0.ty.Contents (Elt F)) (A1 : main_arg1.ty.Contents (Elt F)) (A2 : main_arg2.ty.Contents (Elt F)) : Prop :=
  W (Proc.devRef .tc main_arg0) = A0 ∧
  W (Proc.devRef .tc main_arg1) = A1 ∧
  W (Proc.devRef .tc main_arg2) = A2 ∧
  W (Proc.devRef .tc main_v51) = s_v51 A0 A1 A2 ∧
  W (Proc.devRef .tc main_v53) = s_v53 A0 A1 A2 ∧
  W (Proc.devRef .tc main_v56) = s_v56 A0 A1 A2 ∧
  W (Proc.devRef .tc main_v59) = s_v59 A0 A1 A2 ∧
  W (Proc.devRef .tc main_v62) = s_v62 A0 A1 A2 ∧
  W (Proc.devRef .tc main_v65) = s_v65 A0 A1 A2 ∧
  W (Proc.devRef .tc main_v68) = s_v68 A0 A1 A2 ∧
  W (Proc.devRef .tc main_v71) = s_v71 A0 A1 A2 ∧
  W (Proc.devRef .tc main_v74) = s_v74 A0 A1 A2 ∧
  W (Proc.devRef .tc main_v77) = s_v77 A0 A1 A2 ∧
  W (Proc.devRef .tc main_v80) = s_v80 A0 A1 A2

/-- Before operation 105: the arrays still to be read hold their stages. -/
abbrev Inv10 (W : Valuation τ sig (Elt F)) (A0 : main_arg0.ty.Contents (Elt F)) (A1 : main_arg1.ty.Contents (Elt F)) (A2 : main_arg2.ty.Contents (Elt F)) : Prop :=
  W (Proc.devRef .tc main_arg0) = A0 ∧
  W (Proc.devRef .tc main_arg1) = A1 ∧
  W (Proc.devRef .tc main_arg2) = A2 ∧
  W (Proc.devRef .tc main_v51) = s_v51 A0 A1 A2 ∧
  W (Proc.devRef .tc main_v53) = s_v53 A0 A1 A2 ∧
  W (Proc.devRef .tc main_v56) = s_v56 A0 A1 A2 ∧
  W (Proc.devRef .tc main_v59) = s_v59 A0 A1 A2 ∧
  W (Proc.devRef .tc main_v62) = s_v62 A0 A1 A2 ∧
  W (Proc.devRef .tc main_v65) = s_v65 A0 A1 A2 ∧
  W (Proc.devRef .tc main_v68) = s_v68 A0 A1 A2 ∧
  W (Proc.devRef .tc main_v71) = s_v71 A0 A1 A2 ∧
  W (Proc.devRef .tc main_v74) = s_v74 A0 A1 A2 ∧
  W (Proc.devRef .tc main_v77) = s_v77 A0 A1 A2 ∧
  W (Proc.devRef .tc main_v80) = s_v80 A0 A1 A2 ∧
  W (Proc.devRef .tc main_v83) = s_v83 A0 A1 A2 ∧
  W (Proc.devRef .tc main_v86) = s_v86 A0 A1 A2 ∧
  W (Proc.devRef .tc main_v89) = s_v89 A0 A1 A2 ∧
  W (Proc.devRef .tc main_v92) = s_v92 A0 A1 A2 ∧
  W (Proc.devRef .tc main_v95) = s_v95 A0 A1 A2

/-- Before operation 120: the arrays still to be read hold their stages. -/
abbrev Inv11 (W : Valuation τ sig (Elt F)) (A0 : main_arg0.ty.Contents (Elt F)) (A1 : main_arg1.ty.Contents (Elt F)) (A2 : main_arg2.ty.Contents (Elt F)) : Prop :=
  W (Proc.devRef .tc main_arg0) = A0 ∧
  W (Proc.devRef .tc main_arg1) = A1 ∧
  W (Proc.devRef .tc main_arg2) = A2 ∧
  W (Proc.devRef .tc main_v51) = s_v51 A0 A1 A2 ∧
  W (Proc.devRef .tc main_v53) = s_v53 A0 A1 A2 ∧
  W (Proc.devRef .tc main_v56) = s_v56 A0 A1 A2 ∧
  W (Proc.devRef .tc main_v59) = s_v59 A0 A1 A2 ∧
  W (Proc.devRef .tc main_v62) = s_v62 A0 A1 A2 ∧
  W (Proc.devRef .tc main_v65) = s_v65 A0 A1 A2 ∧
  W (Proc.devRef .tc main_v68) = s_v68 A0 A1 A2 ∧
  W (Proc.devRef .tc main_v71) = s_v71 A0 A1 A2 ∧
  W (Proc.devRef .tc main_v74) = s_v74 A0 A1 A2 ∧
  W (Proc.devRef .tc main_v77) = s_v77 A0 A1 A2 ∧
  W (Proc.devRef .tc main_v80) = s_v80 A0 A1 A2 ∧
  W (Proc.devRef .tc main_v83) = s_v83 A0 A1 A2 ∧
  W (Proc.devRef .tc main_v86) = s_v86 A0 A1 A2 ∧
  W (Proc.devRef .tc main_v89) = s_v89 A0 A1 A2 ∧
  W (Proc.devRef .tc main_v92) = s_v92 A0 A1 A2 ∧
  W (Proc.devRef .tc main_v95) = s_v95 A0 A1 A2 ∧
  W (Proc.devRef .tc main_v98) = s_v98 A0 A1 A2 ∧
  W (Proc.devRef .tc main_v101) = s_v101 A0 A1 A2 ∧
  W (Proc.devRef .tc main_v104) = s_v104 A0 A1 A2 ∧
  W (Proc.devRef .tc main_v107) = s_v107 A0 A1 A2 ∧
  W (Proc.devRef .tc main_v110) = s_v110 A0 A1 A2

/-- Before operation 124: the arrays still to be read hold their stages. -/
abbrev Inv12 (W : Valuation τ sig (Elt F)) (A0 : main_arg0.ty.Contents (Elt F)) (A1 : main_arg1.ty.Contents (Elt F)) (A2 : main_arg2.ty.Contents (Elt F)) : Prop :=
  W (Proc.devRef .tc main_arg0) = A0 ∧
  W (Proc.devRef .tc main_arg1) = A1 ∧
  W (Proc.devRef .tc main_arg2) = A2 ∧
  W (Proc.devRef .tc main_v51) = s_v51 A0 A1 A2 ∧
  W (Proc.devRef .tc main_v53) = s_v53 A0 A1 A2 ∧
  W (Proc.devRef .tc main_v56) = s_v56 A0 A1 A2 ∧
  W (Proc.devRef .tc main_v59) = s_v59 A0 A1 A2 ∧
  W (Proc.devRef .tc main_v62) = s_v62 A0 A1 A2 ∧
  W (Proc.devRef .tc main_v65) = s_v65 A0 A1 A2 ∧
  W (Proc.devRef .tc main_v68) = s_v68 A0 A1 A2 ∧
  W (Proc.devRef .tc main_v71) = s_v71 A0 A1 A2 ∧
  W (Proc.devRef .tc main_v74) = s_v74 A0 A1 A2 ∧
  W (Proc.devRef .tc main_v77) = s_v77 A0 A1 A2 ∧
  W (Proc.devRef .tc main_v80) = s_v80 A0 A1 A2 ∧
  W (Proc.devRef .tc main_v83) = s_v83 A0 A1 A2 ∧
  W (Proc.devRef .tc main_v86) = s_v86 A0 A1 A2 ∧
  W (Proc.devRef .tc main_v89) = s_v89 A0 A1 A2 ∧
  W (Proc.devRef .tc main_v92) = s_v92 A0 A1 A2 ∧
  W (Proc.devRef .tc main_v95) = s_v95 A0 A1 A2 ∧
  W (Proc.devRef .tc main_v98) = s_v98 A0 A1 A2 ∧
  W (Proc.devRef .tc main_v101) = s_v101 A0 A1 A2 ∧
  W (Proc.devRef .tc main_v104) = s_v104 A0 A1 A2 ∧
  W (Proc.devRef .tc main_v107) = s_v107 A0 A1 A2 ∧
  W (Proc.devRef .tc main_v110) = s_v110 A0 A1 A2 ∧
  W (Proc.devRef .tc main_v113) = s_v113 A0 A1 A2 ∧
  W (Proc.devRef .tc main_v114) = s_v114 A0 A1 A2

/-- Before operation 132: the arrays still to be read hold their stages. -/
abbrev Inv13 (W : Valuation τ sig (Elt F)) (A0 : main_arg0.ty.Contents (Elt F)) (A1 : main_arg1.ty.Contents (Elt F)) (A2 : main_arg2.ty.Contents (Elt F)) : Prop :=
  W (Proc.devRef .tc main_arg0) = A0 ∧
  W (Proc.devRef .tc main_arg1) = A1 ∧
  W (Proc.devRef .tc main_arg2) = A2 ∧
  W (Proc.devRef .tc main_v53) = s_v53 A0 A1 A2 ∧
  W (Proc.devRef .tc main_v56) = s_v56 A0 A1 A2 ∧
  W (Proc.devRef .tc main_v59) = s_v59 A0 A1 A2 ∧
  W (Proc.devRef .tc main_v62) = s_v62 A0 A1 A2 ∧
  W (Proc.devRef .tc main_v65) = s_v65 A0 A1 A2 ∧
  W (Proc.devRef .tc main_v68) = s_v68 A0 A1 A2 ∧
  W (Proc.devRef .tc main_v71) = s_v71 A0 A1 A2 ∧
  W (Proc.devRef .tc main_v74) = s_v74 A0 A1 A2 ∧
  W (Proc.devRef .tc main_v77) = s_v77 A0 A1 A2 ∧
  W (Proc.devRef .tc main_v80) = s_v80 A0 A1 A2 ∧
  W (Proc.devRef .tc main_v83) = s_v83 A0 A1 A2 ∧
  W (Proc.devRef .tc main_v86) = s_v86 A0 A1 A2 ∧
  W (Proc.devRef .tc main_v89) = s_v89 A0 A1 A2 ∧
  W (Proc.devRef .tc main_v92) = s_v92 A0 A1 A2 ∧
  W (Proc.devRef .tc main_v95) = s_v95 A0 A1 A2 ∧
  W (Proc.devRef .tc main_v98) = s_v98 A0 A1 A2 ∧
  W (Proc.devRef .tc main_v101) = s_v101 A0 A1 A2 ∧
  W (Proc.devRef .tc main_v104) = s_v104 A0 A1 A2 ∧
  W (Proc.devRef .tc main_v107) = s_v107 A0 A1 A2 ∧
  W (Proc.devRef .tc main_v110) = s_v110 A0 A1 A2 ∧
  W (Proc.devRef .tc main_v113) = s_v113 A0 A1 A2 ∧
  W (Proc.devRef .tc main_v116) = s_v116 A0 A1 A2 ∧
  W (Proc.devRef .tc main_v119) = s_v119 A0 A1 A2 ∧
  W (Proc.devRef .tc main_v122) = s_v122 A0 A1 A2

/-- Before operation 156: the arrays still to be read hold their stages. -/
abbrev Inv14 (W : Valuation τ sig (Elt F)) (A0 : main_arg0.ty.Contents (Elt F)) (A1 : main_arg1.ty.Contents (Elt F)) (A2 : main_arg2.ty.Contents (Elt F)) : Prop :=
  W (Proc.devRef .tc main_arg0) = A0 ∧
  W (Proc.devRef .tc main_arg1) = A1 ∧
  W (Proc.devRef .tc main_arg2) = A2 ∧
  W (Proc.devRef .tc main_v123) = s_v123 A0 A1 A2 ∧
  W (Proc.devRef .tc main_v124) = s_v124 A0 A1 A2 ∧
  W (Proc.devRef .tc main_v125) = s_v125 A0 A1 A2 ∧
  W (Proc.devRef .tc main_v126) = s_v126 A0 A1 A2 ∧
  W (Proc.devRef .tc main_v127) = s_v127 A0 A1 A2 ∧
  W (Proc.devRef .tc main_v128) = s_v128 A0 A1 A2 ∧
  W (Proc.devRef .tc main_v129) = s_v129 A0 A1 A2 ∧
  W (Proc.devRef .tc main_v130) = s_v130 A0 A1 A2 ∧
  W (Proc.devRef .tc main_v131) = s_v131 A0 A1 A2 ∧
  W (Proc.devRef .tc main_v132) = s_v132 A0 A1 A2 ∧
  W (Proc.devRef .tc main_v133) = s_v133 A0 A1 A2 ∧
  W (Proc.devRef .tc main_v134) = s_v134 A0 A1 A2 ∧
  W (Proc.devRef .tc main_v135) = s_v135 A0 A1 A2 ∧
  W (Proc.devRef .tc main_v136) = s_v136 A0 A1 A2 ∧
  W (Proc.devRef .tc main_v137) = s_v137 A0 A1 A2 ∧
  W (Proc.devRef .tc main_v138) = s_v138 A0 A1 A2 ∧
  W (Proc.devRef .tc main_v139) = s_v139 A0 A1 A2 ∧
  W (Proc.devRef .tc main_v140) = s_v140 A0 A1 A2 ∧
  W (Proc.devRef .tc main_v141) = s_v141 A0 A1 A2 ∧
  W (Proc.devRef .tc main_v142) = s_v142 A0 A1 A2 ∧
  W (Proc.devRef .tc main_v143) = s_v143 A0 A1 A2 ∧
  W (Proc.devRef .tc main_v144) = s_v144 A0 A1 A2 ∧
  W (Proc.devRef .tc main_v145) = s_v145 A0 A1 A2 ∧
  W (Proc.devRef .tc main_v146) = s_v146 A0 A1 A2

/-- Before operation 164: the arrays still to be read hold their stages. -/
abbrev Inv15 (W : Valuation τ sig (Elt F)) (A0 : main_arg0.ty.Contents (Elt F)) (A1 : main_arg1.ty.Contents (Elt F)) (A2 : main_arg2.ty.Contents (Elt F)) : Prop :=
  W (Proc.devRef .tc main_arg0) = A0 ∧
  W (Proc.devRef .tc main_arg1) = A1 ∧
  W (Proc.devRef .tc main_arg2) = A2 ∧
  W (Proc.devRef .tc main_v154) = s_v154 A0 A1 A2

end Cert.ReferenceIdeal.RRun

end
-- ==== Proof.RRunValsA.lean ====
/-
  The values of the matrix program's run, operations 0 … 63 (the norm, the unit axes, the cross-product matrices, the
  rotations, the local transforms and the root's): each stretch takes the arrays holding their stages before it to the
  arrays holding their stages after it. Each written array's contents are computed by one pass over the stretch's
  operations and are its stage's definition unfolded; each array the stretch does not write is kept.
-/
import proofs.«127147_j62156766707902_2_alg».proof.Proof.RRunInv

noncomputable section

namespace Cert.ReferenceIdeal.RRun

open Idealize.ShloMosaic Idealize.SL.Sem Idealize.ShloMosaic.StableHlo Cert.ReferenceIdeal Cert.ReferenceIdeal.RStages

variable {F : FTy → Type} [FloatOps F] [Facts]

open Facts₀ Facts

theorem step0 (W : Valuation τ sig (Elt F)) (A0 : main_arg0.ty.Contents (Elt F)) (A1 : main_arg1.ty.Contents (Elt F)) (A2 : main_arg2.ty.Contents (Elt F))
    (h : Inv0 W A0 A1 A2) : Inv1 (after ops0 W) A0 A1 A2 := by
  obtain ⟨h_arg0, h_arg1, h_arg2⟩ := h
  refine ⟨?_, ?_, ?_, ?_, ?_, ?_⟩
  · exact (after_of_writes_sub ops0 W ops0_writes (by decide)).trans h_arg0
  · exact (after_of_writes_sub ops0 W ops0_writes (by decide)).trans h_arg1
  · exact (after_of_writes_sub ops0 W ops0_writes (by decide)).trans h_arg2
  · show after ops0 W (Proc.devRef .tc main_cst) = s_cst A0 A1 A2
    after_results_simp'
    rfl
  · show after ops0 W (Proc.devRef .tc main_v2) = s_v2 A0 A1 A2
    after_results_simp'
    rw [h_arg1]
    rfl
  · show after ops0 W (Proc.devRef .tc main_v4) = s_v4 A0 A1 A2
    after_results_simp'
    rw [h_arg1]
    rfl

theorem step1 (W : Valuation τ sig (Elt F)) (A0 : main_arg0.ty.Contents (Elt F)) (A1 : main_arg1.ty.Contents (Elt F)) (A2 : main_arg2.ty.Contents (Elt F))
    (h : Inv1 W A0 A1 A2) : Inv2 (after ops1 W) A0 A1 A2 := by
  obtain ⟨h_arg0, h_arg1, h_arg2, h_cst, h_v2, h_v4⟩ := h
  refine ⟨?_, ?_, ?_, ?_, ?_, ?_, ?_, ?_, ?_, ?_⟩
  · exact (after_of_writes_sub ops1 W ops1_writes (by decide)).trans h_arg0
  · exact (after_of_writes_sub ops1 W ops1_writes (by decide)).trans h_arg1
  · exact (after_of_writes_sub ops1 W ops1_writes (by decide)).trans h_arg2
  · exact (after_of_writes_sub ops1 W ops1_writes (by decide)).trans h_cst
  · show after ops1 W (Proc.devRef .tc main_v6) = s_v6 A0 A1 A2
    after_results_simp'
    rw [h_v2]
    rfl
  · show after ops1 W (Proc.devRef .tc main_v8) = s_v8 A0 A1 A2
    after_results_simp'
    rw [h_v2]
    rfl
  · show after ops1 W (Proc.devRef .tc main_v10) = s_v10 A0 A1 A2
    after_results_simp'
    rw [h_v4]
    rfl
  · show after ops1 W (Proc.devRef .tc main_v12) = s_v12 A0 A1 A2
    after_results_simp'
    rw [h_v4]
    rfl
  · show after ops1 W (Proc.devRef .tc main_v14) = s_v14 A0 A1 A2
    after_results_simp'
    rw [h_v4]
    rfl
  · show after ops1 W (Proc.devRef .tc main_v15) = s_v15 A0 A1 A2
    after_results_simp'
    rfl

theorem step2 (W : Valuation τ sig (Elt F)) (A0 : main_arg0.ty.Contents (Elt F)) (A1 : main_arg1.ty.Contents (Elt F)) (A2 : main_arg2.ty.Contents (Elt F))
    (h : Inv2 W A0 A1 A2) : Inv3 (after ops2 W) A0 A1 A2 := by
  obtain ⟨h_arg0, h_arg1, h_arg2, h_cst, h_v6, h_v8, h_v10, h_v12, h_v14, h_v15⟩ := h
  refine ⟨?_, ?_, ?_, ?_, ?_, ?_, ?_, ?_, ?_, ?_, ?_, ?_, ?_, ?_, ?_⟩
  · exact (after_of_writes_sub ops2 W ops2_writes (by decide)).trans h_arg0
  · exact (after_of_writes_sub ops2 W ops2_writes (by decide)).trans h_arg1
  · exact (after_of_writes_sub ops2 W ops2_writes (by decide)).trans h_arg2
  · exact (after_of_writes_sub ops2 W ops2_writes (by decide)).trans h_cst
  · exact (after_of_writes_sub ops2 W ops2_writes (by decide)).trans h_v6
  · exact (after_of_writes_sub ops2 W ops2_writes (by decide)).trans h_v8
  · show after ops2 W (Proc.devRef .tc main_v19) = s_v19 A0 A1 A2
    after_results_simp'
    rw [h_v15]
    rfl
  · show after ops2 W (Proc.devRef .tc main_v20) = s_v20 A0 A1 A2
    after_results_simp'
    rw [h_v14]
    rfl
  · show after ops2 W (Proc.devRef .tc main_v21) = s_v21 A0 A1 A2
    after_results_simp'
    rw [h_v12]
    rfl
  · show after ops2 W (Proc.devRef .tc main_v22) = s_v22 A0 A1 A2
    after_results_simp'
    rw [h_v14]
    rfl
  · show after ops2 W (Proc.devRef .tc main_v23) = s_v23 A0 A1 A2
    after_results_simp'
    rw [h_v15]
    rfl
  · show after ops2 W (Proc.devRef .tc main_v24) = s_v24 A0 A1 A2
    after_results_simp'
    rw [h_v10]
    rfl
  · show after ops2 W (Proc.devRef .tc main_v25) = s_v25 A0 A1 A2
    after_results_simp'
    rw [h_v12]
    rfl
  · show after ops2 W (Proc.devRef .tc main_v26) = s_v26 A0 A1 A2
    after_results_simp'
    rw [h_v10]
    rfl
  · show after ops2 W (Proc.devRef .tc main_v27) = s_v27 A0 A1 A2
    after_results_simp'
    rw [h_v15]
    rfl

theorem step3 (W : Valuation τ sig (Elt F)) (A0 : main_arg0.ty.Contents (Elt F)) (A1 : main_arg1.ty.Contents (Elt F)) (A2 : main_arg2.ty.Contents (Elt F))
    (h : Inv3 W A0 A1 A2) : Inv4 (after ops3 W) A0 A1 A2 := by
  obtain ⟨h_arg0, h_arg1, h_arg2, h_cst, h_v6, h_v8, h_v19, h_v20, h_v21, h_v22, h_v23, h_v24, h_v25, h_v26, h_v27⟩ := h
  refine ⟨?_, ?_, ?_, ?_, ?_, ?_, ?_⟩
  · exact (after_of_writes_sub ops3 W ops3_writes (by decide)).trans h_arg0
  · exact (after_of_writes_sub ops3 W ops3_writes (by decide)).trans h_arg1
  · exact (after_of_writes_sub ops3 W ops3_writes (by decide)).trans h_arg2
  · exact (after_of_writes_sub ops3 W ops3_writes (by decide)).trans h_cst
  · exact (after_of_writes_sub ops3 W ops3_writes (by decide)).trans h_v6
  · exact (after_of_writes_sub ops3 W ops3_writes (by decide)).trans h_v8
  · show after ops3 W (Proc.devRef .tc main_v29) = s_v29 A0 A1 A2
    after_results_all
    rw [h_v19, h_v20, h_v21, h_v22, h_v23, h_v24, h_v25, h_v26, h_v27]
    rfl

theorem step4 (W : Valuation τ sig (Elt F)) (A0 : main_arg0.ty.Contents (Elt F)) (A1 : main_arg1.ty.Contents (Elt F)) (A2 : main_arg2.ty.Contents (Elt F))
    (h : Inv4 W A0 A1 A2) : Inv5 (after ops4 W) A0 A1 A2 := by
  obtain ⟨h_arg0, h_arg1, h_arg2, h_cst, h_v6, h_v8, h_v29⟩ := h
  refine ⟨?_, ?_, ?_, ?_, ?_, ?_, ?_⟩
  · exact (after_of_writes_sub ops4 W ops4_writes (by decide)).trans h_arg0
  · exact (after_of_writes_sub ops4 W ops4_writes (by decide)).trans h_arg1
  · exact (after_of_writes_sub ops4 W ops4_writes (by decide)).trans h_arg2
  · exact (after_of_writes_sub ops4 W ops4_writes (by decide)).trans h_cst
  · exact (after_of_writes_sub ops4 W ops4_writes (by decide)).trans h_v6
  · exact (after_of_writes_sub ops4 W ops4_writes (by decide)).trans h_v29
  · show after ops4 W (Proc.devRef .tc main_v40) = s_v40 A0 A1 A2
    after_results_simp'
    rw [h_v8, h_v29]
    rfl

theorem step5 (W : Valuation τ sig (Elt F)) (A0 : main_arg0.ty.Contents (Elt F)) (A1 : main_arg1.ty.Contents (Elt F)) (A2 : main_arg2.ty.Contents (Elt F))
    (h : Inv5 W A0 A1 A2) : Inv6 (after ops5 W) A0 A1 A2 := by
  obtain ⟨h_arg0, h_arg1, h_arg2, h_cst, h_v6, h_v29, h_v40⟩ := h
  refine ⟨?_, ?_, ?_, ?_⟩
  · exact (after_of_writes_sub ops5 W ops5_writes (by decide)).trans h_arg0
  · exact (after_of_writes_sub ops5 W ops5_writes (by decide)).trans h_arg1
  · exact (after_of_writes_sub ops5 W ops5_writes (by decide)).trans h_arg2
  · show after ops5 W (Proc.devRef .tc main_v51) = s_v51 A0 A1 A2
    after_results_all
    rw [h_v40, h_v6, h_v29, h_arg0, h_cst]
    rfl

theorem step6 (W : Valuation τ sig (Elt F)) (A0 : main_arg0.ty.Contents (Elt F)) (A1 : main_arg1.ty.Contents (Elt F)) (A2 : main_arg2.ty.Contents (Elt F))
    (h : Inv6 W A0 A1 A2) : Inv7 (after ops6 W) A0 A1 A2 := by
  obtain ⟨h_arg0, h_arg1, h_arg2, h_v51⟩ := h
  refine ⟨?_, ?_, ?_, ?_, ?_, ?_⟩
  · exact (after_of_writes_sub ops6 W ops6_writes (by decide)).trans h_arg0
  · exact (after_of_writes_sub ops6 W ops6_writes (by decide)).trans h_arg1
  · exact (after_of_writes_sub ops6 W ops6_writes (by decide)).trans h_arg2
  · exact (after_of_writes_sub ops6 W ops6_writes (by decide)).trans h_v51
  · show after ops6 W (Proc.devRef .tc main_v53) = s_v53 A0 A1 A2
    after_results_simp'
    rw [h_v51]
    rfl
  · show after ops6 W (Proc.devRef .tc main_v54) = s_v54 A0 A1 A2
    after_results_simp'
    rw [h_v51]
    rfl

end Cert.ReferenceIdeal.RRun

end
-- ==== Proof.RRunValsB.lean ====
/-
  The values of the matrix program's run, operations 64 … 123 (the products down the tree, first part): each stretch
  takes the arrays holding their stages before it to the arrays holding their stages after it.
-/
import proofs.«127147_j62156766707902_2_alg».proof.Proof.RRunInv

noncomputable section

namespace Cert.ReferenceIdeal.RRun

open Idealize.ShloMosaic Idealize.SL.Sem Idealize.ShloMosaic.StableHlo Cert.ReferenceIdeal Cert.ReferenceIdeal.RStages

variable {F : FTy → Type} [FloatOps F] [Facts]

open Facts₀ Facts

theorem step7 (W : Valuation τ sig (Elt F)) (A0 : main_arg0.ty.Contents (Elt F)) (A1 : main_arg1.ty.Contents (Elt F)) (A2 : main_arg2.ty.Contents (Elt F))
    (h : Inv7 W A0 A1 A2) : Inv8 (after ops7 W) A0 A1 A2 := by
  obtain ⟨h_arg0, h_arg1, h_arg2, h_v51, h_v53, h_v54⟩ := h
  refine ⟨?_, ?_, ?_, ?_, ?_, ?_, ?_, ?_, ?_⟩
  · exact (after_of_writes_sub ops7 W ops7_writes (by decide)).trans h_arg0
  · exact (after_of_writes_sub ops7 W ops7_writes (by decide)).trans h_arg1
  · exact (after_of_writes_sub ops7 W ops7_writes (by decide)).trans h_arg2
  · exact (after_of_writes_sub ops7 W ops7_writes (by decide)).trans h_v51
  · exact (after_of_writes_sub ops7 W ops7_writes (by decide)).trans h_v53
  · show after ops7 W (Proc.devRef .tc main_v56) = s_v56 A0 A1 A2
    after_results_simp'
    rw [h_v53, h_v54]
    rfl
  · show after ops7 W (Proc.devRef .tc main_v59) = s_v59 A0 A1 A2
    after_results_simp'
    rw [h_v53, h_v51]
    rfl
  · show after ops7 W (Proc.devRef .tc main_v62) = s_v62 A0 A1 A2
    after_results_simp'
    rw [h_v53, h_v51]
    rfl
  · show after ops7 W (Proc.devRef .tc main_v65) = s_v65 A0 A1 A2
    after_results_simp'
    rw [h_v53, h_v54, h_v51]
    rfl

theorem step8 (W : Valuation τ sig (Elt F)) (A0 : main_arg0.ty.Contents (Elt F)) (A1 : main_arg1.ty.Contents (Elt F)) (A2 : main_arg2.ty.Contents (Elt F))
    (h : Inv8 W A0 A1 A2) : Inv9 (after ops8 W) A0 A1 A2 := by
  obtain ⟨h_arg0, h_arg1, h_arg2, h_v51, h_v53, h_v56, h_v59, h_v62, h_v65⟩ := h
  refine ⟨?_, ?_, ?_, ?_, ?_, ?_, ?_, ?_, ?_, ?_, ?_, ?_, ?_, ?_⟩
  · exact (after_of_writes_sub ops8 W ops8_writes (by decide)).trans h_arg0
  · exact (after_of_writes_sub ops8 W ops8_writes (by decide)).trans h_arg1
  · exact (after_of_writes_sub ops8 W ops8_writes (by decide)).trans h_arg2
  · exact (after_of_writes_sub ops8 W ops8_writes (by decide)).trans h_v51
  · exact (after_of_writes_sub ops8 W ops8_writes (by decide)).trans h_v53
  · exact (after_of_writes_sub ops8 W ops8_writes (by decide)).trans h_v56
  · exact (after_of_writes_sub ops8 W ops8_writes (by decide)).trans h_v59
  · exact (after_of_writes_sub ops8 W ops8_writes (by decide)).trans h_v62
  · exact (after_of_writes_sub ops8 W ops8_writes (by decide)).trans h_v65
  · show after ops8 W (Proc.devRef .tc main_v68) = s_v68 A0 A1 A2
    after_results_simp'
    rw [h_v59, h_v51]
    rfl
  · show after ops8 W (Proc.devRef .tc main_v71) = s_v71 A0 A1 A2
    after_results_simp'
    rw [h_v62, h_v51]
    rfl
  · show after ops8 W (Proc.devRef .tc main_v74) = s_v74 A0 A1 A2
    after_results_simp'
    rw [h_v65, h_v51]
    rfl
  · show after ops8 W (Proc.devRef .tc main_v77) = s_v77 A0 A1 A2
    after_results_simp'
    rw [h_v59, h_v51]
    rfl
  · show after ops8 W (Proc.devRef .tc main_v80) = s_v80 A0 A1 A2
    after_results_simp'
    rw [h_v62, h_v51]
    rfl

theorem step9 (W : Valuation τ sig (Elt F)) (A0 : main_arg0.ty.Contents (Elt F)) (A1 : main_arg1.ty.Contents (Elt F)) (A2 : main_arg2.ty.Contents (Elt F))
    (h : Inv9 W A0 A1 A2) : Inv10 (after ops9 W) A0 A1 A2 := by
  obtain ⟨h_arg0, h_arg1, h_arg2, h_v51, h_v53, h_v56, h_v59, h_v62, h_v65, h_v68, h_v71, h_v74, h_v77, h_v80⟩ := h
  refine ⟨?_, ?_, ?_, ?_, ?_, ?_, ?_, ?_, ?_, ?_, ?_, ?_, ?_, ?_, ?_, ?_, ?_, ?_, ?_⟩
  · exact (after_of_writes_sub ops9 W ops9_writes (by decide)).trans h_arg0
  · exact (after_of_writes_sub ops9 W ops9_writes (by decide)).trans h_arg1
  · exact (after_of_writes_sub ops9 W ops9_writes (by decide)).trans h_arg2
  · exact (after_of_writes_sub ops9 W ops9_writes (by decide)).trans h_v51
  · exact (after_of_writes_sub ops9 W ops9_writes (by decide)).trans h_v53
  · exact (after_of_writes_sub ops9 W ops9_writes (by decide)).trans h_v56
  · exact (after_of_writes_sub ops9 W ops9_writes (by decide)).trans h_v59
  · exact (after_of_writes_sub ops9 W ops9_writes (by decide)).trans h_v62
  · exact (after_of_writes_sub ops9 W ops9_writes (by decide)).trans h_v65
  · exact (after_of_writes_sub ops9 W ops9_writes (by decide)).trans h_v68
  · exact (after_of_writes_sub ops9 W ops9_writes (by decide)).trans h_v71
  · exact (after_of_writes_sub ops9 W ops9_writes (by decide)).trans h_v74
  · exact (after_of_writes_sub ops9 W ops9_writes (by decide)).trans h_v77
  · exact (after_of_writes_sub ops9 W ops9_writes (by decide)).trans h_v80
  · show after ops9 W (Proc.devRef .tc main_v83) = s_v83 A0 A1 A2
    after_results_simp'
    rw [h_v74, h_v51]
    rfl
  · show after ops9 W (Proc.devRef .tc main_v86) = s_v86 A0 A1 A2
    after_results_simp'
    rw [h_v77, h_v51]
    rfl
  · show after ops9 W (Proc.devRef .tc main_v89) = s_v89 A0 A1 A2
    after_results_simp'
    rw [h_v80, h_v51]
    rfl
  · show after ops9 W (Proc.devRef .tc main_v92) = s_v92 A0 A1 A2
    after_results_simp'
    rw [h_v80, h_v51]
    rfl
  · show after ops9 W (Proc.devRef .tc main_v95) = s_v95 A0 A1 A2
    after_results_simp'
    rw [h_v80, h_v51]
    rfl

theorem step10 (W : Valuation τ sig (Elt F)) (A0 : main_arg0.ty.Contents (Elt F)) (A1 : main_arg1.ty.Contents (Elt F)) (A2 : main_arg2.ty.Contents (Elt F))
    (h : Inv10 W A0 A1 A2) : Inv11 (after ops10 W) A0 A1 A2 := by
  obtain ⟨h_arg0, h_arg1, h_arg2, h_v51, h_v53, h_v56, h_v59, h_v62, h_v65, h_v68, h_v71, h_v74, h_v77, h_v80, h_v83, h_v86, h_v89, h_v92, h_v95⟩ := h
  refine ⟨?_, ?_, ?_, ?_, ?_, ?_, ?_, ?_, ?_, ?_, ?_, ?_, ?_, ?_, ?_, ?_, ?_, ?_, ?_, ?_, ?_, ?_, ?_, ?_⟩
  · exact (after_of_writes_sub ops10 W ops10_writes (by decide)).trans h_arg0
  · exact (after_of_writes_sub ops10 W ops10_writes (by decide)).trans h_arg1
  · exact (after_of_writes_sub ops10 W ops10_writes (by decide)).trans h_arg2
  · exact (after_of_writes_sub ops10 W ops10_writes (by decide)).trans h_v51
  · exact (after_of_writes_sub ops10 W ops10_writes (by decide)).trans h_v53
  · exact (after_of_writes_sub ops10 W ops10_writes (by decide)).trans h_v56
  · exact (after_of_writes_sub ops10 W ops10_writes (by decide)).trans h_v59
  · exact (after_of_writes_sub ops10 W ops10_writes (by decide)).trans h_v62
  · exact (after_of_writes_sub ops10 W ops10_writes (by decide)).trans h_v65
  · exact (after_of_writes_sub ops10 W ops10_writes (by decide)).trans h_v68
  · exact (after_of_writes_sub ops10 W ops10_writes (by decide)).trans h_v71
  · exact (after_of_writes_sub ops10 W ops10_writes (by decide)).trans h_v74
  · exact (after_of_writes_sub ops10 W ops10_writes (by decide)).trans h_v77
  · exact (after_of_writes_sub ops10 W ops10_writes (by decide)).trans h_v80
  · exact (after_of_writes_sub ops10 W ops10_writes (by decide)).trans h_v83
  · exact (after_of_writes_sub ops10 W ops10_writes (by decide)).trans h_v86
  · exact (after_of_writes_sub ops10 W ops10_writes (by decide)).trans h_v89
  · exact (after_of_writes_sub ops10 W ops10_writes (by decide)).trans h_v92
  · exact (after_of_writes_sub ops10 W ops10_writes (by decide)).trans h_v95
  · show after ops10 W (Proc.devRef .tc main_v98) = s_v98 A0 A1 A2
    after_results_simp'
    rw [h_v89, h_v51]
    rfl
  · show after ops10 W (Proc.devRef .tc main_v101) = s_v101 A0 A1 A2
    after_results_simp'
    rw [h_v92, h_v51]
    rfl
  · show after ops10 W (Proc.devRef .tc main_v104) = s_v104 A0 A1 A2
    after_results_simp'
    rw [h_v95, h_v51]
    rfl
  · show after ops10 W (Proc.devRef .tc main_v107) = s_v107 A0 A1 A2
    after_results_simp'
    rw [h_v92, h_v51]
    rfl
  · show after ops10 W (Proc.devRef .tc main_v110) = s_v110 A0 A1 A2
    after_results_simp'
    rw [h_v95, h_v51]
    rfl

theorem step11 (W : Valuation τ sig (Elt F)) (A0 : main_arg0.ty.Contents (Elt F)) (A1 : main_arg1.ty.Contents (Elt F)) (A2 : main_arg2.ty.Contents (Elt F))
    (h : Inv11 W A0 A1 A2) : Inv12 (after ops11 W) A0 A1 A2 := by
  obtain ⟨h_arg0, h_arg1, h_arg2, h_v51, h_v53, h_v56, h_v59, h_v62, h_v65, h_v68, h_v71, h_v74, h_v77, h_v80, h_v83, h_v86, h_v89, h_v92, h_v95, h_v98, h_v101, h_v104, h_v107, h_v110⟩ := h
  refine ⟨?_, ?_, ?_, ?_, ?_, ?_, ?_, ?_, ?_, ?_, ?_, ?_, ?_, ?_, ?_, ?_, ?_, ?_, ?_, ?_, ?_, ?_, ?_, ?_, ?_, ?_⟩
  · exact (after_of_writes_sub ops11 W ops11_writes (by decide)).trans h_arg0
  · exact (after_of_writes_sub ops11 W ops11_writes (by decide)).trans h_arg1
  · exact (after_of_writes_sub ops11 W ops11_writes (by decide)).trans h_arg2
  · exact (after_of_writes_sub ops11 W ops11_writes (by decide)).trans h_v51
  · exact (after_of_writes_sub ops11 W ops11_writes (by decide)).trans h_v53
  · exact (after_of_writes_sub ops11 W ops11_writes (by decide)).trans h_v56
  · exact (after_of_writes_sub ops11 W ops11_writes (by decide)).trans h_v59
  · exact (after_of_writes_sub ops11 W ops11_writes (by decide)).trans h_v62
  · exact (after_of_writes_sub ops11 W ops11_writes (by decide)).trans h_v65
  · exact (after_of_writes_sub ops11 W ops11_writes (by decide)).trans h_v68
  · exact (after_of_writes_sub ops11 W ops11_writes (by decide)).trans h_v71
  · exact (after_of_writes_sub ops11 W ops11_writes (by decide)).trans h_v74
  · exact (after_of_writes_sub ops11 W ops11_writes (by decide)).trans h_v77
  · exact (after_of_writes_sub ops11 W ops11_writes (by decide)).trans h_v80
  · exact (after_of_writes_sub ops11 W ops11_writes (by decide)).trans h_v83
  · exact (after_of_writes_sub ops11 W ops11_writes (by decide)).trans h_v86
  · exact (after_of_writes_sub ops11 W ops11_writes (by decide)).trans h_v89
  · exact (after_of_writes_sub ops11 W ops11_writes (by decide)).trans h_v92
  · exact (after_of_writes_sub ops11 W ops11_writes (by decide)).trans h_v95
  · exact (after_of_writes_sub ops11 W ops11_writes (by decide)).trans h_v98
  · exact (after_of_writes_sub ops11 W ops11_writes (by decide)).trans h_v101
  · exact (after_of_writes_sub ops11 W ops11_writes (by decide)).trans h_v104
  · exact (after_of_writes_sub ops11 W ops11_writes (by decide)).trans h_v107
  · exact (after_of_writes_sub ops11 W ops11_writes (by decide)).trans h_v110
  · show after ops11 W (Proc.devRef .tc main_v113) = s_v113 A0 A1 A2
    after_results_simp'
    rw [h_v107, h_v51]
    rfl
  · show after ops11 W (Proc.devRef .tc main_v114) = s_v114 A0 A1 A2
    after_results_simp'
    rw [h_v51]
    rfl

end Cert.ReferenceIdeal.RRun

end
-- ==== Proof.RRunValsC.lean ====
/-
  The values of the matrix program's run, operations 124 … 163 (the last products, the stacking of the 24 transforms,
  the last column and the body translation): each stretch takes the arrays holding their stages before it to the arrays
  holding their stages after it.
-/
import proofs.«127147_j62156766707902_2_alg».proof.Proof.RRunInv

noncomputable section

namespace Cert.ReferenceIdeal.RRun

open Idealize.ShloMosaic Idealize.SL.Sem Idealize.ShloMosaic.StableHlo Cert.ReferenceIdeal Cert.ReferenceIdeal.RStages

variable {F : FTy → Type} [FloatOps F] [Facts]

open Facts₀ Facts

theorem step12 (W : Valuation τ sig (Elt F)) (A0 : main_arg0.ty.Contents (Elt F)) (A1 : main_arg1.ty.Contents (Elt F)) (A2 : main_arg2.ty.Contents (Elt F))
    (h : Inv12 W A0 A1 A2) : Inv13 (after ops12 W) A0 A1 A2 := by
  obtain ⟨h_arg0, h_arg1, h_arg2, h_v51, h_v53, h_v56, h_v59, h_v62, h_v65, h_v68, h_v71, h_v74, h_v77, h_v80, h_v83, h_v86, h_v89, h_v92, h_v95, h_v98, h_v101, h_v104, h_v107, h_v110, h_v113, h_v114⟩ := h
  refine ⟨?_, ?_, ?_, ?_, ?_, ?_, ?_, ?_, ?_, ?_, ?_, ?_, ?_, ?_, ?_, ?_, ?_, ?_, ?_, ?_, ?_, ?_, ?_, ?_, ?_, ?_, ?_⟩
  · exact (after_of_writes_sub ops12 W ops12_writes (by decide)).trans h_arg0
  · exact (after_of_writes_sub ops12 W ops12_writes (by decide)).trans h_arg1
  · exact (after_of_writes_sub ops12 W ops12_writes (by decide)).trans h_arg2
  · exact (after_of_writes_sub ops12 W ops12_writes (by decide)).trans h_v53
  · exact (after_of_writes_sub ops12 W ops12_writes (by decide)).trans h_v56
  · exact (after_of_writes_sub ops12 W ops12_writes (by decide)).trans h_v59
  · exact (after_of_writes_sub ops12 W ops12_writes (by decide)).trans h_v62
  · exact (after_of_writes_sub ops12 W ops12_writes (by decide)).trans h_v65
  · exact (after_of_writes_sub ops12 W ops12_writes (by decide)).trans h_v68
  · exact (after_of_writes_sub ops12 W ops12_writes (by decide)).trans h_v71
  · exact (after_of_writes_sub ops12 W ops12_writes (by decide)).trans h_v74
  · exact (after_of_writes_sub ops12 W ops12_writes (by decide)).trans h_v77
  · exact (after_of_writes_sub ops12 W ops12_writes (by decide)).trans h_v80
  · exact (after_of_writes_sub ops12 W ops12_writes (by decide)).trans h_v83
  · exact (after_of_writes_sub ops12 W ops12_writes (by decide)).trans h_v86
  · exact (after_of_writes_sub ops12 W ops12_writes (by decide)).trans h_v89
  · exact (after_of_writes_sub ops12 W ops12_writes (by decide)).trans h_v92
  · exact (after_of_writes_sub ops12 W ops12_writes (by decide)).trans h_v95
  · exact (after_of_writes_sub ops12 W ops12_writes (by decide)).trans h_v98
  · exact (after_of_writes_sub ops12 W ops12_writes (by decide)).trans h_v101
  · exact (after_of_writes_sub ops12 W ops12_writes (by decide)).trans h_v104
  · exact (after_of_writes_sub ops12 W ops12_writes (by decide)).trans h_v107
  · exact (after_of_writes_sub ops12 W ops12_writes (by decide)).trans h_v110
  · exact (after_of_writes_sub ops12 W ops12_writes (by decide)).trans h_v113
  · show after ops12 W (Proc.devRef .tc main_v116) = s_v116 A0 A1 A2
    after_results_simp'
    rw [h_v110, h_v114]
    rfl
  · show after ops12 W (Proc.devRef .tc main_v119) = s_v119 A0 A1 A2
    after_results_simp'
    rw [h_v113, h_v51]
    rfl
  · show after ops12 W (Proc.devRef .tc main_v122) = s_v122 A0 A1 A2
    after_results_simp'
    rw [h_v110, h_v114, h_v51]
    rfl

theorem step13 (W : Valuation τ sig (Elt F)) (A0 : main_arg0.ty.Contents (Elt F)) (A1 : main_arg1.ty.Contents (Elt F)) (A2 : main_arg2.ty.Contents (Elt F))
    (h : Inv13 W A0 A1 A2) : Inv14 (after ops13 W) A0 A1 A2 := by
  obtain ⟨h_arg0, h_arg1, h_arg2, h_v53, h_v56, h_v59, h_v62, h_v65, h_v68, h_v71, h_v74, h_v77, h_v80, h_v83, h_v86, h_v89, h_v92, h_v95, h_v98, h_v101, h_v104, h_v107, h_v110, h_v113, h_v116, h_v119, h_v122⟩ := h
  refine ⟨?_, ?_, ?_, ?_, ?_, ?_, ?_, ?_, ?_, ?_, ?_, ?_, ?_, ?_, ?_, ?_, ?_, ?_, ?_, ?_, ?_, ?_, ?_, ?_, ?_, ?_, ?_⟩
  · exact (after_of_writes_sub ops13 W ops13_writes (by decide)).trans h_arg0
  · exact (after_of_writes_sub ops13 W ops13_writes (by decide)).trans h_arg1
  · exact (after_of_writes_sub ops13 W ops13_writes (by decide)).trans h_arg2
  · show after ops13 W (Proc.devRef .tc main_v123) = s_v123 A0 A1 A2
    after_results_simp'
    rw [h_v53]
    rfl
  · show after ops13 W (Proc.devRef .tc main_v124) = s_v124 A0 A1 A2
    after_results_simp'
    rw [h_v56]
    rfl
  · show after ops13 W (Proc.devRef .tc main_v125) = s_v125 A0 A1 A2
    after_results_simp'
    rw [h_v59]
    rfl
  · show after ops13 W (Proc.devRef .tc main_v126) = s_v126 A0 A1 A2
    after_results_simp'
    rw [h_v62]
    rfl
  · show after ops13 W (Proc.devRef .tc main_v127) = s_v127 A0 A1 A2
    after_results_simp'
    rw [h_v65]
    rfl
  · show after ops13 W (Proc.devRef .tc main_v128) = s_v128 A0 A1 A2
    after_results_simp'
    rw [h_v68]
    rfl
  · show after ops13 W (Proc.devRef .tc main_v129) = s_v129 A0 A1 A2
    after_results_simp'
    rw [h_v71]
    rfl
  · show after ops13 W (Proc.devRef .tc main_v130) = s_v130 A0 A1 A2
    after_results_simp'
    rw [h_v74]
    rfl
  · show after ops13 W (Proc.devRef .tc main_v131) = s_v131 A0 A1 A2
    after_results_simp'
    rw [h_v77]
    rfl
  · show after ops13 W (Proc.devRef .tc main_v132) = s_v132 A0 A1 A2
    after_results_simp'
    rw [h_v80]
    rfl
  · show after ops13 W (Proc.devRef .tc main_v133) = s_v133 A0 A1 A2
    after_results_simp'
    rw [h_v83]
    rfl
  · show after ops13 W (Proc.devRef .tc main_v134) = s_v134 A0 A1 A2
    after_results_simp'
    rw [h_v86]
    rfl
  · show after ops13 W (Proc.devRef .tc main_v135) = s_v135 A0 A1 A2
    after_results_simp'
    rw [h_v89]
    rfl
  · show after ops13 W (Proc.devRef .tc main_v136) = s_v136 A0 A1 A2
    after_results_simp'
    rw [h_v92]
    rfl
  · show after ops13 W (Proc.devRef .tc main_v137) = s_v137 A0 A1 A2
    after_results_simp'
    rw [h_v95]
    rfl
  · show after ops13 W (Proc.devRef .tc main_v138) = s_v138 A0 A1 A2
    after_results_simp'
    rw [h_v98]
    rfl
  · show after ops13 W (Proc.devRef .tc main_v139) = s_v139 A0 A1 A2
    after_results_simp'
    rw [h_v101]
    rfl
  · show after ops13 W (Proc.devRef .tc main_v140) = s_v140 A0 A1 A2
    after_results_simp'
    rw [h_v104]
    rfl
  · show after ops13 W (Proc.devRef .tc main_v141) = s_v141 A0 A1 A2
    after_results_simp'
    rw [h_v107]
    rfl
  · show after ops13 W (Proc.devRef .tc main_v142) = s_v142 A0 A1 A2
    after_results_simp'
    rw [h_v110]
    rfl
  · show after ops13 W (Proc.devRef .tc main_v143) = s_v143 A0 A1 A2
    after_results_simp'
    rw [h_v113]
    rfl
  · show after ops13 W (Proc.devRef .tc main_v144) = s_v144 A0 A1 A2
    after_results_simp'
    rw [h_v116]
    rfl
  · show after ops13 W (Proc.devRef .tc main_v145) = s_v145 A0 A1 A2
    after_results_simp'
    rw [h_v119]
    rfl
  · show after ops13 W (Proc.devRef .tc main_v146) = s_v146 A0 A1 A2
    after_results_simp'
    rw [h_v122]
    rfl

theorem step14 (W : Valuation τ sig (Elt F)) (A0 : main_arg0.ty.Contents (Elt F)) (A1 : main_arg1.ty.Contents (Elt F)) (A2 : main_arg2.ty.Contents (Elt F))
    (h : Inv14 W A0 A1 A2) : Inv15 (after ops14 W) A0 A1 A2 := by
  obtain ⟨h_arg0, h_arg1, h_arg2, h_v123, h_v124, h_v125, h_v126, h_v127, h_v128, h_v129, h_v130, h_v131, h_v132, h_v133, h_v134, h_v135, h_v136, h_v137, h_v138, h_v139, h_v140, h_v141, h_v142, h_v143, h_v144, h_v145, h_v146⟩ := h
  refine ⟨?_, ?_, ?_, ?_⟩
  · exact (after_of_writes_sub ops14 W ops14_writes (by decide)).trans h_arg0
  · exact (after_of_writes_sub ops14 W ops14_writes (by decide)).trans h_arg1
  · exact (after_of_writes_sub ops14 W ops14_writes (by decide)).trans h_arg2
  · show after ops14 W (Proc.devRef .tc main_v154) = s_v154 A0 A1 A2
    after_results_all
    rw [h_v123, h_v124, h_v125, h_v126, h_v127, h_v128, h_v129, h_v130, h_v131, h_v132, h_v133, h_v134, h_v135, h_v136, h_v137, h_v138, h_v139, h_v140, h_v141, h_v142, h_v143, h_v144, h_v145, h_v146, h_arg2]
    rfl

end Cert.ReferenceIdeal.RRun

end
-- ==== Proof.RRun.lean ====
/-
  The matrix program's run, read: from any memory with zero counters every weakly fair execution terminates, and ends
  with the result array at the last stage (`RStages.res` of the three argument arrays' launch contents) and the three
  argument arrays unchanged. The bare run (RRunOps.lean) leaves every buffer at the fold of the 164 operations; the fold
  is the stretches' folds one after the other, and each stretch keeps the invariant (RRunVals*.lean).
-/
import proofs.«127147_j62156766707902_2_alg».proof.Proof.RRunValsA
import proofs.«127147_j62156766707902_2_alg».proof.Proof.RRunValsB
import proofs.«127147_j62156766707902_2_alg».proof.Proof.RRunValsC

noncomputable section

namespace Cert.ReferenceIdeal.RRun

open Idealize.ShloMosaic Idealize.SL.Sem Idealize.ShloMosaic.StableHlo Cert.ReferenceIdeal Cert.ReferenceIdeal.RStages

variable {F : FTy → Type} [FloatOps F] [Facts]

open Facts₀ Facts

/-- After the whole line the argument arrays are unchanged and the result array holds the last stage. -/
theorem vals (V : Valuation τ sig (Elt F)) :
    Inv15 (after ops V) (V (Proc.devRef .tc main_arg0)) (V (Proc.devRef .tc main_arg1)) (V (Proc.devRef .tc main_arg2)) := by
  rw [after_ops]
  exact (step14 _ _ _ _ (step13 _ _ _ _ (step12 _ _ _ _ (step11 _ _ _ _ (step10 _ _ _ _ (step9 _ _ _ _ (step8 _ _ _ _ (step7 _ _ _ _ (step6 _ _ _ _ (step5 _ _ _ _ (step4 _ _ _ _ (step3 _ _ _ _ (step2 _ _ _ _ (step1 _ _ _ _ (step0 _ _ _ _ ⟨rfl, rfl, rfl⟩)))))))))))))))

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v154)
          = RStages.res (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => by
    obtain ⟨h0, h1, h2, hres⟩ := vals (launchContents m c)
    exact ⟨(h c main_v154).trans hres, (h c main_arg0).trans h0, (h c main_arg1).trans h1, (h c main_arg2).trans h2⟩)
    (run_after m ρ)

end Cert.ReferenceIdeal.RRun

end
-- ==== Proof.RReadLocalAxis.lean ====
/-
  The matrix program's arrays up to the local 4×4 transforms, read at an index: the norm of `v + ε`, the unit axis,
  its cosine and sine, and the cross-product matrix `K` as the nine columns laid side by side and folded to 3×3.
-/
import proofs.«127147_j62156766707902_2_alg».proof.Proof.RStages
import proofs.«127147_j62156766707902_2_alg».proof.Proof.FKRes
import Idealize.ShloMosaic.Lib.IdealHost
import Idealize.ShloMosaic.Lib.Pipeline.Value
import Idealize.ShloMosaic.Lib.ValueLayout

noncomputable section

namespace Cert.ReferenceIdeal.RReadLocal

open Idealize.ShloMosaic Idealize.ShloMosaic.ValueIdx Cert.ReferenceIdeal
open scoped BigOperators

variable [Facts]

open Facts₀ Facts

/-- `v + ε` at an index. -/
theorem v1_apply (A0 : Cert.FK.SOff.Idx → EReal) (A1 : Cert.FK.SPose.Idx → EReal) (A2 : Cert.FK.STr.Idx → EReal)
    (b : Fin 65536) (j : Fin 24) (c : Fin 3) :
    RStages.s_v1 (F := Ideal) A0 A1 A2 (ix3 b j c) = A1 (ix3 b j c) + Cert.FK.eps := by
  unfold RStages.s_v1 RStages.s_v0 RStages.s_cst_0
  rw [addf_apply, broadcastInDim_scalar_apply, constant_apply]

/-- The squared norm: the sum over the three components, from zero. -/
theorem call0_v1_apply (A0 : Cert.FK.SOff.Idx → EReal) (A1 : Cert.FK.SPose.Idx → EReal) (A2 : Cert.FK.STr.Idx → EReal) (b : Fin 65536) (j : Fin 24) :
    RStages.s_call0_v1 (F := Ideal) A0 A1 A2 (ix2 b j)
      = Cert.FK.zero + ∑ k : Fin 3, (A1 (ix3 b j k) + Cert.FK.eps) * (A1 (ix3 b j k) + Cert.FK.eps) := by
  unfold RStages.s_call0_v1 RStages.s_call0_cst
  have h : S65536x24x3.Reduces [2] S65536x24 :=
    ⟨reducesTo_S65536x24x3_S65536x24_d2.1, by decide, reducesTo_S65536x24x3_S65536x24_d2.2⟩
  show Host.reduceAdd _ _ _ _ _ = _
  rw [hostReduceAdd_apply, Ideal.hostReduceAdd_single _ h, constant_apply]
  show _ + @Finset.sum (Fin 3) EReal _ Finset.univ (fun k => RStages.s_call0_v0 (F := Ideal) A0 A1 A2 (h.lift (ix2 b j) k)) = _
  refine congrArg _ (Finset.sum_congr rfl fun k _ => ?_)
  have e : h.lift (ix2 b j) k = ix3 b j k := by
    funext a; apply Fin.ext
    match a with
    | ⟨0, _⟩ => rfl
    | ⟨1, _⟩ => rfl
    | ⟨2, _⟩ => rfl
  rw [e]
  unfold RStages.s_call0_v0
  rw [mulf_apply, v1_apply]

/-- The angle. -/
theorem v2_apply (A0 : Cert.FK.SOff.Idx → EReal) (A1 : Cert.FK.SPose.Idx → EReal) (A2 : Cert.FK.STr.Idx → EReal) (b : Fin 65536) (j : Fin 24) :
    RStages.s_v2 (F := Ideal) A0 A1 A2 (ix3 b j 0) = Cert.FK.angR (Cert.FK.poseAt A1 b j) := by
  unfold RStages.s_v2 RStages.s_call0_v2
  show FloatOps.hostUnary .sqrt _ = _
  rw [Ideal.hostUnary_sqrt_def]
  rw [broadcastInDim_apply _ _ _ _ (ix2 b j) (fun a => by
    match a with
    | ⟨0, _⟩ => rfl
    | ⟨1, _⟩ => rfl)]
  rw [call0_v1_apply]
  rfl

/-- The unit axis. -/
theorem v4_apply (A0 : Cert.FK.SOff.Idx → EReal) (A1 : Cert.FK.SPose.Idx → EReal) (A2 : Cert.FK.STr.Idx → EReal) (b : Fin 65536) (j : Fin 24) (c : Fin 3) :
    RStages.s_v4 (F := Ideal) A0 A1 A2 (ix3 b j c) = Cert.FK.dirR (Cert.FK.poseAt A1 b j) c := by
  unfold RStages.s_v4 RStages.s_v3
  rw [hostDivf_apply]
  rw [broadcastInDim_apply _ _ _ _ (ix3 b j 0) (fun a => by
    match a with
    | ⟨0, _⟩ => rfl
    | ⟨1, _⟩ => rfl
    | ⟨2, _⟩ => rfl)]
  rw [v2_apply]
  rfl

/-- The cosine of the angle, as a [.., 1, 1] array. -/
theorem v6_apply (A0 : Cert.FK.SOff.Idx → EReal) (A1 : Cert.FK.SPose.Idx → EReal) (A2 : Cert.FK.STr.Idx → EReal) (b : Fin 65536) (j : Fin 24) :
    RStages.s_v6 (F := Ideal) A0 A1 A2 (ix4 b j 0 0) = Ideal.cos (Cert.FK.angR (Cert.FK.poseAt A1 b j)) := by
  unfold RStages.s_v6 RStages.s_v5
  rw [broadcastInDim_apply _ _ _ _ (ix3 b j 0) (fun a => by
    match a with
    | ⟨0, _⟩ => rfl
    | ⟨1, _⟩ => rfl
    | ⟨2, _⟩ => rfl)]
  show FloatOps.hostUnary .cos _ = _
  rw [Ideal.hostUnary_cos_def, v2_apply]

/-- The sine of the angle, as a [.., 1, 1] array. -/
theorem v8_apply (A0 : Cert.FK.SOff.Idx → EReal) (A1 : Cert.FK.SPose.Idx → EReal) (A2 : Cert.FK.STr.Idx → EReal) (b : Fin 65536) (j : Fin 24) :
    RStages.s_v8 (F := Ideal) A0 A1 A2 (ix4 b j 0 0) = Ideal.sin (Cert.FK.angR (Cert.FK.poseAt A1 b j)) := by
  unfold RStages.s_v8 RStages.s_v7
  rw [broadcastInDim_apply _ _ _ _ (ix3 b j 0) (fun a => by
    match a with
    | ⟨0, _⟩ => rfl
    | ⟨1, _⟩ => rfl
    | ⟨2, _⟩ => rfl)]
  show FloatOps.hostUnary .sin _ = _
  rw [Ideal.hostUnary_sin_def, v2_apply]

/-- Component 0 of the unit axis, as a [b, j] array. -/
theorem v10_apply (A0 : Cert.FK.SOff.Idx → EReal) (A1 : Cert.FK.SPose.Idx → EReal) (A2 : Cert.FK.STr.Idx → EReal) (b : Fin 65536) (j : Fin 24) :
    RStages.s_v10 (F := Ideal) A0 A1 A2 (ix2 b j) = Cert.FK.dirR (Cert.FK.poseAt A1 b j) 0 := by
  unfold RStages.s_v10 RStages.s_v9
  rw [shapeCast_apply _ _ _ (ix3 b j (0 : Fin 1)) (by
    show ((⟨3, ![65536, 24, 1]⟩ : Shape).rowMajor (ix3 b j (0 : Fin 1))).val = ((⟨2, ![65536, 24]⟩ : Shape).rowMajor (ix2 b j)).val
    rw [Shape.rowMajor_val_three, Shape.rowMajor_val_two]
    show (b.val * 24 + j.val) * 1 + 0 = b.val * 24 + j.val
    omega)]
  show extractStridedSlice _ _ _ _ _ = _
  rw [extractStridedSlice_apply _ _ _ _ (ix3 b j (0 : Fin 3)) (fun a => by
    match a with
    | ⟨0, _⟩ => show b.val = 0 + b.val; omega
    | ⟨1, _⟩ => show j.val = 0 + j.val; omega
    | ⟨2, _⟩ => show (0 : Nat) = 0 + 0; rfl)]
  rw [v4_apply]

/-- Component 1 of the unit axis, as a [b, j] array. -/
theorem v12_apply (A0 : Cert.FK.SOff.Idx → EReal) (A1 : Cert.FK.SPose.Idx → EReal) (A2 : Cert.FK.STr.Idx → EReal) (b : Fin 65536) (j : Fin 24) :
    RStages.s_v12 (F := Ideal) A0 A1 A2 (ix2 b j) = Cert.FK.dirR (Cert.FK.poseAt A1 b j) 1 := by
  unfold RStages.s_v12 RStages.s_v11
  rw [shapeCast_apply _ _ _ (ix3 b j (0 : Fin 1)) (by
    show ((⟨3, ![65536, 24, 1]⟩ : Shape).rowMajor (ix3 b j (0 : Fin 1))).val = ((⟨2, ![65536, 24]⟩ : Shape).rowMajor (ix2 b j)).val
    rw [Shape.rowMajor_val_three, Shape.rowMajor_val_two]
    show (b.val * 24 + j.val) * 1 + 0 = b.val * 24 + j.val
    omega)]
  show extractStridedSlice _ _ _ _ _ = _
  rw [extractStridedSlice_apply _ _ _ _ (ix3 b j (1 : Fin 3)) (fun a => by
    match a with
    | ⟨0, _⟩ => show b.val = 0 + b.val; omega
    | ⟨1, _⟩ => show j.val = 0 + j.val; omega
    | ⟨2, _⟩ => show (1 : Nat) = 1 + 0; rfl)]
  rw [v4_apply]

/-- Component 2 of the unit axis, as a [b, j] array. -/
theorem v14_apply (A0 : Cert.FK.SOff.Idx → EReal) (A1 : Cert.FK.SPose.Idx → EReal) (A2 : Cert.FK.STr.Idx → EReal) (b : Fin 65536) (j : Fin 24) :
    RStages.s_v14 (F := Ideal) A0 A1 A2 (ix2 b j) = Cert.FK.dirR (Cert.FK.poseAt A1 b j) 2 := by
  unfold RStages.s_v14 RStages.s_v13
  rw [shapeCast_apply _ _ _ (ix3 b j (0 : Fin 1)) (by
    show ((⟨3, ![65536, 24, 1]⟩ : Shape).rowMajor (ix3 b j (0 : Fin 1))).val = ((⟨2, ![65536, 24]⟩ : Shape).rowMajor (ix2 b j)).val
    rw [Shape.rowMajor_val_three, Shape.rowMajor_val_two]
    show (b.val * 24 + j.val) * 1 + 0 = b.val * 24 + j.val
    omega)]
  show extractStridedSlice _ _ _ _ _ = _
  rw [extractStridedSlice_apply _ _ _ _ (ix3 b j (2 : Fin 3)) (fun a => by
    match a with
    | ⟨0, _⟩ => show b.val = 0 + b.val; omega
    | ⟨1, _⟩ => show j.val = 0 + j.val; omega
    | ⟨2, _⟩ => show (2 : Nat) = 2 + 0; rfl)]
  rw [v4_apply]

/-- The zero array. -/
theorem v15_apply (A0 : Cert.FK.SOff.Idx → EReal) (A1 : Cert.FK.SPose.Idx → EReal) (A2 : Cert.FK.STr.Idx → EReal) (b : Fin 65536) (j : Fin 24) :
    RStages.s_v15 (F := Ideal) A0 A1 A2 (ix2 b j) = Cert.FK.zero := by
  unfold RStages.s_v15 RStages.s_cst_1
  rw [broadcastInDim_scalar_apply, constant_apply]

/-- Minus component 2 of the unit axis. -/
theorem v16_apply (A0 : Cert.FK.SOff.Idx → EReal) (A1 : Cert.FK.SPose.Idx → EReal) (A2 : Cert.FK.STr.Idx → EReal) (b : Fin 65536) (j : Fin 24) :
    RStages.s_v16 (F := Ideal) A0 A1 A2 (ix2 b j) = -Cert.FK.dirR (Cert.FK.poseAt A1 b j) 2 := by
  unfold RStages.s_v16
  show FloatOps.hostNegf _ = _
  rw [Ideal.hostNegf_def, v14_apply]
  rfl

/-- Minus component 0 of the unit axis. -/
theorem v17_apply (A0 : Cert.FK.SOff.Idx → EReal) (A1 : Cert.FK.SPose.Idx → EReal) (A2 : Cert.FK.STr.Idx → EReal) (b : Fin 65536) (j : Fin 24) :
    RStages.s_v17 (F := Ideal) A0 A1 A2 (ix2 b j) = -Cert.FK.dirR (Cert.FK.poseAt A1 b j) 0 := by
  unfold RStages.s_v17
  show FloatOps.hostNegf _ = _
  rw [Ideal.hostNegf_def, v10_apply]
  rfl

/-- Minus component 1 of the unit axis. -/
theorem v18_apply (A0 : Cert.FK.SOff.Idx → EReal) (A1 : Cert.FK.SPose.Idx → EReal) (A2 : Cert.FK.STr.Idx → EReal) (b : Fin 65536) (j : Fin 24) :
    RStages.s_v18 (F := Ideal) A0 A1 A2 (ix2 b j) = -Cert.FK.dirR (Cert.FK.poseAt A1 b j) 1 := by
  unfold RStages.s_v18
  show FloatOps.hostNegf _ = _
  rw [Ideal.hostNegf_def, v12_apply]
  rfl

/-- Column 0 of the nine: zero. -/
theorem v19_apply (A0 : Cert.FK.SOff.Idx → EReal) (A1 : Cert.FK.SPose.Idx → EReal) (A2 : Cert.FK.STr.Idx → EReal) (b : Fin 65536) (j : Fin 24) :
    RStages.s_v19 (F := Ideal) A0 A1 A2 (ix3 b j 0) = Cert.FK.zero := by
  unfold RStages.s_v19
  rw [broadcastInDim_apply _ _ _ _ (ix2 b j) (fun a => by
    match a with
    | ⟨0, _⟩ => rfl
    | ⟨1, _⟩ => rfl)]
  rw [v15_apply]

/-- Column 1: minus the third component. -/
theorem v20_apply (A0 : Cert.FK.SOff.Idx → EReal) (A1 : Cert.FK.SPose.Idx → EReal) (A2 : Cert.FK.STr.Idx → EReal) (b : Fin 65536) (j : Fin 24) :
    RStages.s_v20 (F := Ideal) A0 A1 A2 (ix3 b j 0) = -Cert.FK.dirR (Cert.FK.poseAt A1 b j) 2 := by
  unfold RStages.s_v20
  rw [broadcastInDim_apply _ _ _ _ (ix2 b j) (fun a => by
    match a with
    | ⟨0, _⟩ => rfl
    | ⟨1, _⟩ => rfl)]
  rw [v16_apply]

/-- Column 2: the second component. -/
theorem v21_apply (A0 : Cert.FK.SOff.Idx → EReal) (A1 : Cert.FK.SPose.Idx → EReal) (A2 : Cert.FK.STr.Idx → EReal) (b : Fin 65536) (j : Fin 24) :
    RStages.s_v21 (F := Ideal) A0 A1 A2 (ix3 b j 0) = Cert.FK.dirR (Cert.FK.poseAt A1 b j) 1 := by
  unfold RStages.s_v21
  rw [broadcastInDim_apply _ _ _ _ (ix2 b j) (fun a => by
    match a with
    | ⟨0, _⟩ => rfl
    | ⟨1, _⟩ => rfl)]
  rw [v12_apply]

/-- Column 3: the third component. -/
theorem v22_apply (A0 : Cert.FK.SOff.Idx → EReal) (A1 : Cert.FK.SPose.Idx → EReal) (A2 : Cert.FK.STr.Idx → EReal) (b : Fin 65536) (j : Fin 24) :
    RStages.s_v22 (F := Ideal) A0 A1 A2 (ix3 b j 0) = Cert.FK.dirR (Cert.FK.poseAt A1 b j) 2 := by
  unfold RStages.s_v22
  rw [broadcastInDim_apply _ _ _ _ (ix2 b j) (fun a => by
    match a with
    | ⟨0, _⟩ => rfl
    | ⟨1, _⟩ => rfl)]
  rw [v14_apply]

/-- Column 4: zero. -/
theorem v23_apply (A0 : Cert.FK.SOff.Idx → EReal) (A1 : Cert.FK.SPose.Idx → EReal) (A2 : Cert.FK.STr.Idx → EReal) (b : Fin 65536) (j : Fin 24) :
    RStages.s_v23 (F := Ideal) A0 A1 A2 (ix3 b j 0) = Cert.FK.zero := by
  unfold RStages.s_v23
  rw [broadcastInDim_apply _ _ _ _ (ix2 b j) (fun a => by
    match a with
    | ⟨0, _⟩ => rfl
    | ⟨1, _⟩ => rfl)]
  rw [v15_apply]

/-- Column 5: minus the first component. -/
theorem v24_apply (A0 : Cert.FK.SOff.Idx → EReal) (A1 : Cert.FK.SPose.Idx → EReal) (A2 : Cert.FK.STr.Idx → EReal) (b : Fin 65536) (j : Fin 24) :
    RStages.s_v24 (F := Ideal) A0 A1 A2 (ix3 b j 0) = -Cert.FK.dirR (Cert.FK.poseAt A1 b j) 0 := by
  unfold RStages.s_v24
  rw [broadcastInDim_apply _ _ _ _ (ix2 b j) (fun a => by
    match a with
    | ⟨0, _⟩ => rfl
    | ⟨1, _⟩ => rfl)]
  rw [v17_apply]

/-- Column 6: minus the second component. -/
theorem v25_apply (A0 : Cert.FK.SOff.Idx → EReal) (A1 : Cert.FK.SPose.Idx → EReal) (A2 : Cert.FK.STr.Idx → EReal) (b : Fin 65536) (j : Fin 24) :
    RStages.s_v25 (F := Ideal) A0 A1 A2 (ix3 b j 0) = -Cert.FK.dirR (Cert.FK.poseAt A1 b j) 1 := by
  unfold RStages.s_v25
  rw [broadcastInDim_apply _ _ _ _ (ix2 b j) (fun a => by
    match a with
    | ⟨0, _⟩ => rfl
    | ⟨1, _⟩ => rfl)]
  rw [v18_apply]

/-- Column 7: the first component. -/
theorem v26_apply (A0 : Cert.FK.SOff.Idx → EReal) (A1 : Cert.FK.SPose.Idx → EReal) (A2 : Cert.FK.STr.Idx → EReal) (b : Fin 65536) (j : Fin 24) :
    RStages.s_v26 (F := Ideal) A0 A1 A2 (ix3 b j 0) = Cert.FK.dirR (Cert.FK.poseAt A1 b j) 0 := by
  unfold RStages.s_v26
  rw [broadcastInDim_apply _ _ _ _ (ix2 b j) (fun a => by
    match a with
    | ⟨0, _⟩ => rfl
    | ⟨1, _⟩ => rfl)]
  rw [v10_apply]

/-- Column 8: zero. -/
theorem v27_apply (A0 : Cert.FK.SOff.Idx → EReal) (A1 : Cert.FK.SPose.Idx → EReal) (A2 : Cert.FK.STr.Idx → EReal) (b : Fin 65536) (j : Fin 24) :
    RStages.s_v27 (F := Ideal) A0 A1 A2 (ix3 b j 0) = Cert.FK.zero := by
  unfold RStages.s_v27
  rw [broadcastInDim_apply _ _ _ _ (ix2 b j) (fun a => by
    match a with
    | ⟨0, _⟩ => rfl
    | ⟨1, _⟩ => rfl)]
  rw [v15_apply]

end Cert.ReferenceIdeal.RReadLocal

end
-- ==== Proof.RReadLocalRot.lean ====
/-
  The matrix program's rotation read at an index: the nine columns laid side by side and folded to the cross-product
  matrix `K`, the identity as a comparison of row and column numbers, and `I + sin·K + (1 - cos)·K K`.
-/
import proofs.«127147_j62156766707902_2_alg».proof.Proof.RReadLocalAxis

noncomputable section

namespace Cert.ReferenceIdeal.RReadLocal

open Idealize.ShloMosaic Idealize.ShloMosaic.ValueIdx Cert.ReferenceIdeal
open scoped BigOperators

variable [Facts]

open Facts₀ Facts

/-- Entry 0 of the nine laid side by side. -/
theorem v28_apply_0 (A0 : Cert.FK.SOff.Idx → EReal) (A1 : Cert.FK.SPose.Idx → EReal) (A2 : Cert.FK.STr.Idx → EReal) (b : Fin 65536) (j : Fin 24) :
    RStages.s_v28 (F := Ideal) A0 A1 A2 (ix3 b j (0 : Fin 9)) = Cert.FK.zero := by
  unfold RStages.s_v28
  rw [concatenate_apply_piece (t := S65536x24x9) _ _ _ _ 0 (by simp) S65536x24x1 (RStages.s_v19 (F := Ideal) A0 A1 A2) rfl rfl 0 (by rfl)
    (ix3 b j (0 : Fin 1)) (fun a ha => by
      match a with
      | ⟨0, _⟩ => rfl
      | ⟨1, _⟩ => rfl
      | ⟨2, _⟩ => exact absurd rfl ha) (by rfl)]
  exact v19_apply A0 A1 A2 b j

/-- Entry 1 of the nine laid side by side. -/
theorem v28_apply_1 (A0 : Cert.FK.SOff.Idx → EReal) (A1 : Cert.FK.SPose.Idx → EReal) (A2 : Cert.FK.STr.Idx → EReal) (b : Fin 65536) (j : Fin 24) :
    RStages.s_v28 (F := Ideal) A0 A1 A2 (ix3 b j (1 : Fin 9)) = -Cert.FK.dirR (Cert.FK.poseAt A1 b j) 2 := by
  unfold RStages.s_v28
  rw [concatenate_apply_piece (t := S65536x24x9) _ _ _ _ 1 (by simp) S65536x24x1 (RStages.s_v20 (F := Ideal) A0 A1 A2) rfl rfl 1 (by rfl)
    (ix3 b j (0 : Fin 1)) (fun a ha => by
      match a with
      | ⟨0, _⟩ => rfl
      | ⟨1, _⟩ => rfl
      | ⟨2, _⟩ => exact absurd rfl ha) (by rfl)]
  exact v20_apply A0 A1 A2 b j

/-- Entry 2 of the nine laid side by side. -/
theorem v28_apply_2 (A0 : Cert.FK.SOff.Idx → EReal) (A1 : Cert.FK.SPose.Idx → EReal) (A2 : Cert.FK.STr.Idx → EReal) (b : Fin 65536) (j : Fin 24) :
    RStages.s_v28 (F := Ideal) A0 A1 A2 (ix3 b j (2 : Fin 9)) = Cert.FK.dirR (Cert.FK.poseAt A1 b j) 1 := by
  unfold RStages.s_v28
  rw [concatenate_apply_piece (t := S65536x24x9) _ _ _ _ 2 (by simp) S65536x24x1 (RStages.s_v21 (F := Ideal) A0 A1 A2) rfl rfl 2 (by rfl)
    (ix3 b j (0 : Fin 1)) (fun a ha => by
      match a with
      | ⟨0, _⟩ => rfl
      | ⟨1, _⟩ => rfl
      | ⟨2, _⟩ => exact absurd rfl ha) (by rfl)]
  exact v21_apply A0 A1 A2 b j

/-- Entry 3 of the nine laid side by side. -/
theorem v28_apply_3 (A0 : Cert.FK.SOff.Idx → EReal) (A1 : Cert.FK.SPose.Idx → EReal) (A2 : Cert.FK.STr.Idx → EReal) (b : Fin 65536) (j : Fin 24) :
    RStages.s_v28 (F := Ideal) A0 A1 A2 (ix3 b j (3 : Fin 9)) = Cert.FK.dirR (Cert.FK.poseAt A1 b j) 2 := by
  unfold RStages.s_v28
  rw [concatenate_apply_piece (t := S65536x24x9) _ _ _ _ 3 (by simp) S65536x24x1 (RStages.s_v22 (F := Ideal) A0 A1 A2) rfl rfl 3 (by rfl)
    (ix3 b j (0 : Fin 1)) (fun a ha => by
      match a with
      | ⟨0, _⟩ => rfl
      | ⟨1, _⟩ => rfl
      | ⟨2, _⟩ => exact absurd rfl ha) (by rfl)]
  exact v22_apply A0 A1 A2 b j

/-- Entry 4 of the nine laid side by side. -/
theorem v28_apply_4 (A0 : Cert.FK.SOff.Idx → EReal) (A1 : Cert.FK.SPose.Idx → EReal) (A2 : Cert.FK.STr.Idx → EReal) (b : Fin 65536) (j : Fin 24) :
    RStages.s_v28 (F := Ideal) A0 A1 A2 (ix3 b j (4 : Fin 9)) = Cert.FK.zero := by
  unfold RStages.s_v28
  rw [concatenate_apply_piece (t := S65536x24x9) _ _ _ _ 4 (by simp) S65536x24x1 (RStages.s_v23 (F := Ideal) A0 A1 A2) rfl rfl 4 (by rfl)
    (ix3 b j (0 : Fin 1)) (fun a ha => by
      match a with
      | ⟨0, _⟩ => rfl
      | ⟨1, _⟩ => rfl
      | ⟨2, _⟩ => exact absurd rfl ha) (by rfl)]
  exact v23_apply A0 A1 A2 b j

/-- Entry 5 of the nine laid side by side. -/
theorem v28_apply_5 (A0 : Cert.FK.SOff.Idx → EReal) (A1 : Cert.FK.SPose.Idx → EReal) (A2 : Cert.FK.STr.Idx → EReal) (b : Fin 65536) (j : Fin 24) :
    RStages.s_v28 (F := Ideal) A0 A1 A2 (ix3 b j (5 : Fin 9)) = -Cert.FK.dirR (Cert.FK.poseAt A1 b j) 0 := by
  unfold RStages.s_v28
  rw [concatenate_apply_piece (t := S65536x24x9) _ _ _ _ 5 (by simp) S65536x24x1 (RStages.s_v24 (F := Ideal) A0 A1 A2) rfl rfl 5 (by rfl)
    (ix3 b j (0 : Fin 1)) (fun a ha => by
      match a with
      | ⟨0, _⟩ => rfl
      | ⟨1, _⟩ => rfl
      | ⟨2, _⟩ => exact absurd rfl ha) (by rfl)]
  exact v24_apply A0 A1 A2 b j

/-- Entry 6 of the nine laid side by side. -/
theorem v28_apply_6 (A0 : Cert.FK.SOff.Idx → EReal) (A1 : Cert.FK.SPose.Idx → EReal) (A2 : Cert.FK.STr.Idx → EReal) (b : Fin 65536) (j : Fin 24) :
    RStages.s_v28 (F := Ideal) A0 A1 A2 (ix3 b j (6 : Fin 9)) = -Cert.FK.dirR (Cert.FK.poseAt A1 b j) 1 := by
  unfold RStages.s_v28
  rw [concatenate_apply_piece (t := S65536x24x9) _ _ _ _ 6 (by simp) S65536x24x1 (RStages.s_v25 (F := Ideal) A0 A1 A2) rfl rfl 6 (by rfl)
    (ix3 b j (0 : Fin 1)) (fun a ha => by
      match a with
      | ⟨0, _⟩ => rfl
      | ⟨1, _⟩ => rfl
      | ⟨2, _⟩ => exact absurd rfl ha) (by rfl)]
  exact v25_apply A0 A1 A2 b j

/-- Entry 7 of the nine laid side by side. -/
theorem v28_apply_7 (A0 : Cert.FK.SOff.Idx → EReal) (A1 : Cert.FK.SPose.Idx → EReal) (A2 : Cert.FK.STr.Idx → EReal) (b : Fin 65536) (j : Fin 24) :
    RStages.s_v28 (F := Ideal) A0 A1 A2 (ix3 b j (7 : Fin 9)) = Cert.FK.dirR (Cert.FK.poseAt A1 b j) 0 := by
  unfold RStages.s_v28
  rw [concatenate_apply_piece (t := S65536x24x9) _ _ _ _ 7 (by simp) S65536x24x1 (RStages.s_v26 (F := Ideal) A0 A1 A2) rfl rfl 7 (by rfl)
    (ix3 b j (0 : Fin 1)) (fun a ha => by
      match a with
      | ⟨0, _⟩ => rfl
      | ⟨1, _⟩ => rfl
      | ⟨2, _⟩ => exact absurd rfl ha) (by rfl)]
  exact v26_apply A0 A1 A2 b j

/-- Entry 8 of the nine laid side by side. -/
theorem v28_apply_8 (A0 : Cert.FK.SOff.Idx → EReal) (A1 : Cert.FK.SPose.Idx → EReal) (A2 : Cert.FK.STr.Idx → EReal) (b : Fin 65536) (j : Fin 24) :
    RStages.s_v28 (F := Ideal) A0 A1 A2 (ix3 b j (8 : Fin 9)) = Cert.FK.zero := by
  unfold RStages.s_v28
  rw [concatenate_apply_piece (t := S65536x24x9) _ _ _ _ 8 (by simp) S65536x24x1 (RStages.s_v27 (F := Ideal) A0 A1 A2) rfl rfl 8 (by rfl)
    (ix3 b j (0 : Fin 1)) (fun a ha => by
      match a with
      | ⟨0, _⟩ => rfl
      | ⟨1, _⟩ => rfl
      | ⟨2, _⟩ => exact absurd rfl ha) (by rfl)]
  exact v27_apply A0 A1 A2 b j

/-- The fold of the nine to 3×3: entry (a, c) is entry 3a + c of the nine. -/
theorem v29_eq (A0 : Cert.FK.SOff.Idx → EReal) (A1 : Cert.FK.SPose.Idx → EReal) (A2 : Cert.FK.STr.Idx → EReal) (b : Fin 65536) (j : Fin 24) (a c : Fin 3) (m : Fin 9) (hm : m.val = 3 * a.val + c.val) :
    RStages.s_v29 (F := Ideal) A0 A1 A2 (ix4 b j a c) = RStages.s_v28 (F := Ideal) A0 A1 A2 (ix3 b j m) := by
  unfold RStages.s_v29
  exact shapeCast_apply _ _ _ (ix3 b j m) (by
    show ((⟨3, ![65536, 24, 9]⟩ : Shape).rowMajor (ix3 b j m)).val = ((⟨4, ![65536, 24, 3, 3]⟩ : Shape).rowMajor (ix4 b j a c)).val
    rw [Shape.rowMajor_val_three, Shape.rowMajor_val_four]
    show (b.val * 24 + j.val) * 9 + m.val = ((b.val * 24 + j.val) * 3 + a.val) * 3 + c.val
    omega)

/-- The cross-product matrix of the unit axis. -/
theorem v29_apply (A0 : Cert.FK.SOff.Idx → EReal) (A1 : Cert.FK.SPose.Idx → EReal) (A2 : Cert.FK.STr.Idx → EReal) (b : Fin 65536) (j : Fin 24) (a c : Fin 3) :
    RStages.s_v29 (F := Ideal) A0 A1 A2 (ix4 b j a c) = Cert.FK.kmat (Cert.FK.dirR (Cert.FK.poseAt A1 b j)) a c := by
  match a, c with
  | ⟨0, _⟩, ⟨0, _⟩ => exact (v29_eq A0 A1 A2 b j 0 0 0 rfl).trans (v28_apply_0 A0 A1 A2 b j)
  | ⟨0, _⟩, ⟨1, _⟩ => exact (v29_eq A0 A1 A2 b j 0 1 1 rfl).trans (v28_apply_1 A0 A1 A2 b j)
  | ⟨0, _⟩, ⟨2, _⟩ => exact (v29_eq A0 A1 A2 b j 0 2 2 rfl).trans (v28_apply_2 A0 A1 A2 b j)
  | ⟨1, _⟩, ⟨0, _⟩ => exact (v29_eq A0 A1 A2 b j 1 0 3 rfl).trans (v28_apply_3 A0 A1 A2 b j)
  | ⟨1, _⟩, ⟨1, _⟩ => exact (v29_eq A0 A1 A2 b j 1 1 4 rfl).trans (v28_apply_4 A0 A1 A2 b j)
  | ⟨1, _⟩, ⟨2, _⟩ => exact (v29_eq A0 A1 A2 b j 1 2 5 rfl).trans (v28_apply_5 A0 A1 A2 b j)
  | ⟨2, _⟩, ⟨0, _⟩ => exact (v29_eq A0 A1 A2 b j 2 0 6 rfl).trans (v28_apply_6 A0 A1 A2 b j)
  | ⟨2, _⟩, ⟨1, _⟩ => exact (v29_eq A0 A1 A2 b j 2 1 7 rfl).trans (v28_apply_7 A0 A1 A2 b j)
  | ⟨2, _⟩, ⟨2, _⟩ => exact (v29_eq A0 A1 A2 b j 2 2 8 rfl).trans (v28_apply_8 A0 A1 A2 b j)

/-- The identity matrix: the row number compared with the column number, the bit read as 0 or 1. -/
theorem v35_apply (A0 : Cert.FK.SOff.Idx → EReal) (A1 : Cert.FK.SPose.Idx → EReal) (A2 : Cert.FK.STr.Idx → EReal) (a c : Fin 3) :
    RStages.s_v35 (F := Ideal) A0 A1 A2 (ix2 a c) = Cert.FK.eye a c := by
  unfold RStages.s_v35 RStages.s_v34 RStages.s_v33 RStages.s_v32 RStages.s_v31 RStages.s_v30 RStages.s_c
  show (((IntOp.cmpi .eq (IntOp.addi (BitVec.ofNat 32 a.val) (0#32)) (BitVec.ofNat 32 c.val)).toNat : ℝ) : EReal) = _
  have hw : IntOp.cmpi .eq (IntOp.addi (BitVec.ofNat 32 a.val) (0#32)) (BitVec.ofNat 32 c.val) = if a = c then 1#1 else 0#1 := by
    fin_cases a <;> fin_cases c <;> decide
  rw [hw]
  unfold Cert.FK.eye
  by_cases h : a = c
  · rw [if_pos h, if_pos h]; simp
  · rw [if_neg h, if_neg h]; simp

/-- The sine laid over the 3×3. -/
theorem v36_apply (A0 : Cert.FK.SOff.Idx → EReal) (A1 : Cert.FK.SPose.Idx → EReal) (A2 : Cert.FK.STr.Idx → EReal) (b : Fin 65536) (j : Fin 24) (a c : Fin 3) :
    RStages.s_v36 (F := Ideal) A0 A1 A2 (ix4 b j a c) = Ideal.sin (Cert.FK.angR (Cert.FK.poseAt A1 b j)) := by
  unfold RStages.s_v36
  rw [broadcastInDim_apply _ _ _ _ (ix4 b j (0 : Fin 1) (0 : Fin 1)) (fun a => by
    match a with
    | ⟨0, _⟩ => rfl
    | ⟨1, _⟩ => rfl
    | ⟨2, _⟩ => rfl
    | ⟨3, _⟩ => rfl)]
  exact v8_apply A0 A1 A2 b j

/-- sin · K. -/
theorem v37_apply (A0 : Cert.FK.SOff.Idx → EReal) (A1 : Cert.FK.SPose.Idx → EReal) (A2 : Cert.FK.STr.Idx → EReal) (b : Fin 65536) (j : Fin 24) (a c : Fin 3) :
    RStages.s_v37 (F := Ideal) A0 A1 A2 (ix4 b j a c) = Ideal.sin (Cert.FK.angR (Cert.FK.poseAt A1 b j)) * Cert.FK.kmat (Cert.FK.dirR (Cert.FK.poseAt A1 b j)) a c := by
  unfold RStages.s_v37
  rw [mulf_apply, v36_apply, v29_apply]

/-- The identity laid over the batch and the joints. -/
theorem v39_apply (A0 : Cert.FK.SOff.Idx → EReal) (A1 : Cert.FK.SPose.Idx → EReal) (A2 : Cert.FK.STr.Idx → EReal) (b : Fin 65536) (j : Fin 24) (a c : Fin 3) :
    RStages.s_v39 (F := Ideal) A0 A1 A2 (ix4 b j a c) = Cert.FK.eye a c := by
  unfold RStages.s_v39 RStages.s_v38
  rw [broadcastInDim_apply _ _ _ _ (ix4 (0 : Fin 1) (0 : Fin 1) a c) (fun a => by
    match a with
    | ⟨0, _⟩ => rfl
    | ⟨1, _⟩ => rfl
    | ⟨2, _⟩ => rfl
    | ⟨3, _⟩ => rfl)]
  rw [broadcastInDim_apply _ _ _ _ (ix2 a c) (fun a => by
    match a with
    | ⟨0, _⟩ => rfl
    | ⟨1, _⟩ => rfl)]
  exact v35_apply A0 A1 A2 a c

/-- I + sin · K. -/
theorem v40_apply (A0 : Cert.FK.SOff.Idx → EReal) (A1 : Cert.FK.SPose.Idx → EReal) (A2 : Cert.FK.STr.Idx → EReal) (b : Fin 65536) (j : Fin 24) (a c : Fin 3) :
    RStages.s_v40 (F := Ideal) A0 A1 A2 (ix4 b j a c) = Cert.FK.eye a c + Ideal.sin (Cert.FK.angR (Cert.FK.poseAt A1 b j)) * Cert.FK.kmat (Cert.FK.dirR (Cert.FK.poseAt A1 b j)) a c := by
  unfold RStages.s_v40
  rw [addf_apply, v39_apply, v37_apply]

/-- 1 - cos, as a [.., 1, 1] array. -/
theorem v42_apply (A0 : Cert.FK.SOff.Idx → EReal) (A1 : Cert.FK.SPose.Idx → EReal) (A2 : Cert.FK.STr.Idx → EReal) (b : Fin 65536) (j : Fin 24) :
    RStages.s_v42 (F := Ideal) A0 A1 A2 (ix4 b j 0 0) = Cert.FK.one - Ideal.cos (Cert.FK.angR (Cert.FK.poseAt A1 b j)) := by
  unfold RStages.s_v42 RStages.s_v41 RStages.s_cst_2
  rw [subf_apply, broadcastInDim_scalar_apply, constant_apply, v6_apply]

/-- K K: the batched product, the sum over the contracted coordinate. -/
theorem v43_apply (A0 : Cert.FK.SOff.Idx → EReal) (A1 : Cert.FK.SPose.Idx → EReal) (A2 : Cert.FK.STr.Idx → EReal) (b : Fin 65536) (j : Fin 24) (a c : Fin 3) :
    RStages.s_v43 (F := Ideal) A0 A1 A2 (ix4 b j a c) = ∑ k : Fin 3, Cert.FK.kmat (Cert.FK.dirR (Cert.FK.poseAt A1 b j)) a k * Cert.FK.kmat (Cert.FK.dirR (Cert.FK.poseAt A1 b j)) k c := by
  unfold RStages.s_v43
  show FloatOps.dotGeneral (F := Ideal) (φ₁ := .f32) (φ₂ := .f32) dot_S65536x24x3x3_S65536x24x3x3_S65536x24x3x3_3_2_2_3_01_01 none _ _ _ (ix4 b j a c) = _
  rw [Ideal.dotGeneral_apply, ← Equiv.sum_comp (contrEquiv1 dot_S65536x24x3x3_S65536x24x3x3_S65536x24x3x3_3_2_2_3_01_01 3 rfl rfl).symm]
  refine Finset.sum_congr rfl fun k _ => ?_
  have c3 := contrEquiv1_symm_val dot_S65536x24x3x3_S65536x24x3x3_S65536x24x3x3_3_2_2_3_01_01 3 rfl rfl k
  have l3 : dot_S65536x24x3x3_S65536x24x3x3_S65536x24x3x3_3_2_2_3_01_01.lhsIdx (ix4 b j a c) ((contrEquiv1 dot_S65536x24x3x3_S65536x24x3x3_S65536x24x3x3_3_2_2_3_01_01 3 rfl rfl).symm k) = ix4 b j a k := by
    funext ax; apply Fin.ext
    match ax with
    | ⟨0, _⟩ => simp [DotDims.lhsIdx, dot_S65536x24x3x3_S65536x24x3x3_S65536x24x3x3_3_2_2_3_01_01]; rfl
    | ⟨1, _⟩ => simp [DotDims.lhsIdx, dot_S65536x24x3x3_S65536x24x3x3_S65536x24x3x3_3_2_2_3_01_01]; rfl
    | ⟨2, _⟩ => simp [DotDims.lhsIdx, dot_S65536x24x3x3_S65536x24x3x3_S65536x24x3x3_3_2_2_3_01_01]; rfl
    | ⟨3, _⟩ => simp [DotDims.lhsIdx, dot_S65536x24x3x3_S65536x24x3x3_S65536x24x3x3_3_2_2_3_01_01]; exact c3
  have r3 : dot_S65536x24x3x3_S65536x24x3x3_S65536x24x3x3_3_2_2_3_01_01.rhsIdx (ix4 b j a c) ((contrEquiv1 dot_S65536x24x3x3_S65536x24x3x3_S65536x24x3x3_3_2_2_3_01_01 3 rfl rfl).symm k) = ix4 b j k c := by
    funext ax; apply Fin.ext
    match ax with
    | ⟨0, _⟩ => simp [DotDims.rhsIdx, dot_S65536x24x3x3_S65536x24x3x3_S65536x24x3x3_3_2_2_3_01_01]; rfl
    | ⟨1, _⟩ => simp [DotDims.rhsIdx, dot_S65536x24x3x3_S65536x24x3x3_S65536x24x3x3_3_2_2_3_01_01]; rfl
    | ⟨2, _⟩ => simp [DotDims.rhsIdx, dot_S65536x24x3x3_S65536x24x3x3_S65536x24x3x3_3_2_2_3_01_01]; exact c3
    | ⟨3, _⟩ => simp [DotDims.rhsIdx, dot_S65536x24x3x3_S65536x24x3x3_S65536x24x3x3_3_2_2_3_01_01]; rfl
  rw [l3, r3, v29_apply, v29_apply]

/-- 1 - cos laid over the 3×3. -/
theorem v44_apply (A0 : Cert.FK.SOff.Idx → EReal) (A1 : Cert.FK.SPose.Idx → EReal) (A2 : Cert.FK.STr.Idx → EReal) (b : Fin 65536) (j : Fin 24) (a c : Fin 3) :
    RStages.s_v44 (F := Ideal) A0 A1 A2 (ix4 b j a c) = Cert.FK.one - Ideal.cos (Cert.FK.angR (Cert.FK.poseAt A1 b j)) := by
  unfold RStages.s_v44
  rw [broadcastInDim_apply _ _ _ _ (ix4 b j (0 : Fin 1) (0 : Fin 1)) (fun a => by
    match a with
    | ⟨0, _⟩ => rfl
    | ⟨1, _⟩ => rfl
    | ⟨2, _⟩ => rfl
    | ⟨3, _⟩ => rfl)]
  exact v42_apply A0 A1 A2 b j

/-- The rotation: I + sin · K + (1 - cos) · K K. -/
theorem v46_apply (A0 : Cert.FK.SOff.Idx → EReal) (A1 : Cert.FK.SPose.Idx → EReal) (A2 : Cert.FK.STr.Idx → EReal) (b : Fin 65536) (j : Fin 24) (a c : Fin 3) :
    RStages.s_v46 (F := Ideal) A0 A1 A2 (ix4 b j a c) = Cert.FK.rodR (Cert.FK.poseAt A1 b j) a c := by
  unfold RStages.s_v46 RStages.s_v45
  rw [addf_apply, mulf_apply, v40_apply, v44_apply, v43_apply]
  unfold Cert.FK.rodR
  rw [zero_add]

end Cert.ReferenceIdeal.RReadLocal

end
-- ==== Proof.RReadLocal.lean ====
/-
  The matrix program's local 4×4 transforms read at an index: the offsets laid beside the rotation, the constant row
  `[0, 0, 0, 1]` laid below, giving `[[R, o], [0 0 0 1]]` for each joint of each batch element.
-/
import proofs.«127147_j62156766707902_2_alg».proof.Proof.RReadLocalRot

noncomputable section

namespace Cert.ReferenceIdeal.RReadLocal

open Idealize.ShloMosaic Idealize.ShloMosaic.ValueIdx Cert.ReferenceIdeal
open scoped BigOperators

variable [Facts]

open Facts₀ Facts

/-- The offsets laid over the batch, as [.., 3, 1]. -/
theorem v48_apply (A0 : Cert.FK.SOff.Idx → EReal) (A1 : Cert.FK.SPose.Idx → EReal) (A2 : Cert.FK.STr.Idx → EReal) (b : Fin 65536) (j : Fin 24) (r : Fin 3) :
    RStages.s_v48 (F := Ideal) A0 A1 A2 (ix4 b j r 0) = Cert.FK.offAt A0 j r := by
  unfold RStages.s_v48 RStages.s_v47
  rw [broadcastInDim_apply _ _ _ _ (ix4 (0 : Fin 1) j r (0 : Fin 1)) (fun a => by
    match a with
    | ⟨0, _⟩ => rfl
    | ⟨1, _⟩ => rfl
    | ⟨2, _⟩ => rfl
    | ⟨3, _⟩ => rfl)]
  rw [broadcastInDim_apply _ _ _ _ (ix2 j r) (fun a => by
    match a with
    | ⟨0, _⟩ => rfl
    | ⟨1, _⟩ => rfl)]
  rfl

/-- The top three rows of the local transform: the rotation, then the offset. -/
theorem v49_apply (A0 : Cert.FK.SOff.Idx → EReal) (A1 : Cert.FK.SPose.Idx → EReal) (A2 : Cert.FK.STr.Idx → EReal) (b : Fin 65536) (j : Fin 24) (r : Fin 3) (c : Fin 4) :
    RStages.s_v49 (F := Ideal) A0 A1 A2 (ix4 b j r c)
      = if hc : c.val < 3 then Cert.FK.rodR (Cert.FK.poseAt A1 b j) r ⟨c.val, hc⟩ else Cert.FK.offAt A0 j r := by
  unfold RStages.s_v49
  show concatenate S65536x24x3x4 3 [⟨S65536x24x3x3, RStages.s_v46 (F := Ideal) A0 A1 A2⟩, ⟨S65536x24x3x1, RStages.s_v48 (F := Ideal) A0 A1 A2⟩] _ _ = _
  by_cases hc : c.val < 3
  · rw [dif_pos hc]
    rw [concatenate_pair_apply_left (t := S65536x24x3x4) _ _ _ _ _ (by rfl) (ix4 b j r (⟨c.val, hc⟩ : Fin 3)) (fun a => by
      match a with
      | ⟨0, _⟩ => rfl
      | ⟨1, _⟩ => rfl
      | ⟨2, _⟩ => rfl
      | ⟨3, _⟩ => rfl)]
    exact v46_apply A0 A1 A2 b j r ⟨c.val, hc⟩
  · rw [dif_neg hc]
    have hc3 : c.val = 3 := by have := c.isLt; omega
    rw [concatenate_pair_apply_right (t := S65536x24x3x4) _ _ _ _ _ (by rfl) (by rfl) (ix4 b j r (0 : Fin 1)) (fun a ha => by
      match a with
      | ⟨0, _⟩ => rfl
      | ⟨1, _⟩ => rfl
      | ⟨2, _⟩ => rfl
      | ⟨3, _⟩ => exact absurd rfl ha) (by show 0 + 3 = c.val; omega)]
    exact v48_apply A0 A1 A2 b j r

/-- The words of the constant row are those of `[0, 0, 0, 1]`. -/
theorem ofBits_lit0 (c : Fin 4) : Ideal.ofBits .f32 (lit0 c) = Cert.FK.bottom c := by
  fin_cases c <;> rfl

/-- The constant last row laid over the batch and the joints. -/
theorem v50_apply (A0 : Cert.FK.SOff.Idx → EReal) (A1 : Cert.FK.SPose.Idx → EReal) (A2 : Cert.FK.STr.Idx → EReal) (b : Fin 65536) (j : Fin 24) (c : Fin 4) :
    RStages.s_v50 (F := Ideal) A0 A1 A2 (ix4 b j 0 c) = Cert.FK.bottom c := by
  unfold RStages.s_v50 RStages.s_cst
  rw [broadcastInDim_apply _ _ _ _ (ix1 c) (fun a => by
    match a with
    | ⟨0, _⟩ => rfl)]
  have e : S4.rowMajor (ix1 c) = c := Fin.ext (Shape.rowMajor_val_one _)
  show Ideal.ofBits .f32 (lit0 (S4.rowMajor (ix1 c))) = _
  rw [e]
  exact ofBits_lit0 c

/-- The local transform of joint `j` of batch element `b`: `[[R, o], [0 0 0 1]]`. -/
theorem v51_apply (A0 : Cert.FK.SOff.Idx → EReal) (A1 : Cert.FK.SPose.Idx → EReal) (A2 : Cert.FK.STr.Idx → EReal)
    (b : Fin 65536) (j : Fin 24) (r c : Fin 4) :
    RStages.s_v51 (F := Ideal) A0 A1 A2 (ix4 b j r c)
      = Cert.FK.st (Cert.FK.rodR (Cert.FK.poseAt A1 b j)) (Cert.FK.offAt A0 j) r c := by
  unfold RStages.s_v51 Cert.FK.st
  show concatenate S65536x24x4x4 2 [⟨S65536x24x3x4, RStages.s_v49 (F := Ideal) A0 A1 A2⟩, ⟨S65536x24x1x4, RStages.s_v50 (F := Ideal) A0 A1 A2⟩] _ _ = _
  by_cases hr : r.val < 3
  · rw [dif_pos hr]
    rw [concatenate_pair_apply_left (t := S65536x24x4x4) _ _ _ _ _ (by rfl) (ix4 b j (⟨r.val, hr⟩ : Fin 3) c) (fun a => by
      match a with
      | ⟨0, _⟩ => rfl
      | ⟨1, _⟩ => rfl
      | ⟨2, _⟩ => rfl
      | ⟨3, _⟩ => rfl)]
    exact v49_apply A0 A1 A2 b j ⟨r.val, hr⟩ c
  · rw [dif_neg hr]
    have hr3 : r.val = 3 := by have := r.isLt; omega
    rw [concatenate_pair_apply_right (t := S65536x24x4x4) _ _ _ _ _ (by rfl) (by rfl) (ix4 b j (0 : Fin 1) c) (fun a ha => by
      match a with
      | ⟨0, _⟩ => rfl
      | ⟨1, _⟩ => rfl
      | ⟨2, _⟩ => exact absurd rfl ha
      | ⟨3, _⟩ => rfl) (by show 0 + 3 = r.val; omega)]
    exact v50_apply A0 A1 A2 b j c

end Cert.ReferenceIdeal.RReadLocal

end
-- ==== Proof.RReadTree.lean ====
/-
  The tree of 4×4 products of the matrix program, read at an index.

  The program cuts the stack of local transforms [b, 24, 4, 4] into its 24 joints (a slice of width one along the
  joint axis, reshaped to [b, 4, 4]), multiplies each joint's local transform on the left by its parent's global
  transform (a batched product: at (b, r, c) the sum over k of parent (b, r, k) · local (b, k, c)), puts the 24 global
  transforms back side by side along a joint axis, keeps the first three entries of the last column, and adds the body
  translation. Read at batch element b, joint j's global transform is the matrix M_j of the specification — by
  induction down the tree, each joint from its parent — so entry (b, j, c) of the result is the specification's
  position of joint j, component c.
-/
import proofs.«127147_j62156766707902_2_alg».proof.Proof.RStages
import proofs.«127147_j62156766707902_2_alg».proof.Proof.FKRes
import proofs.«127147_j62156766707902_2_alg».proof.Proof.RReadLocal
import Idealize.ShloMosaic.Lib.StackMember
import Idealize.ShloMosaic.Lib.ValueLayout
import Idealize.ShloMosaic.Lib.Pipeline.Value

noncomputable section

namespace Cert.ReferenceIdeal.RReadTree

open Idealize.ShloMosaic Idealize.ShloMosaic.ValueIdx Cert.ReferenceIdeal

variable [Facts]
open Facts₀ Facts

/-! ## One lemma per kind of operation -/

/-- Joint `j` cut out of a stack [b, 24, 4, 4] and reshaped to [b, 4, 4], read at (b, r, c), is the stack at (b, j, r, c). -/
theorem sliceJoint_apply {α : Type} (o : Nat) (X : S65536x24x4x4.Idx → α)
    (hs : S65536x24x4x4.Slices ![0, o, 0, 0] S65536x1x4x4) (hc : S65536x1x4x4.ShapeCasts S65536x4x4)
    (b : Fin 65536) (j : Fin 24) (hj : j.val = o) (r c : Fin 4) :
    shapeCast S65536x4x4 (extractStridedSlice S65536x1x4x4 ![0, o, 0, 0] X hs) hc (ix3 b r c) = X (ix4 b j r c) := by
  refine (shapeCast_apply _ hc (ix3 b r c) (ix4 b (0 : Fin 1) r c) ?_).trans ?_
  · rw [Shape.rowMajor_val_four, Shape.rowMajor_val_three]
    show ((b.val * 1 + 0) * 4 + r.val) * 4 + c.val = (b.val * 4 + r.val) * 4 + c.val
    omega
  · exact slice4_axis1_apply o X hs b 0 r c j (by simpa using hj)

/-- The batched product of two stacks of 4×4 matrices, read at (b, r, c), is the product of the two matrices at `b`. -/
theorem dot_apply (L R : FVec Ideal S65536x4x4 .f32) (b : Fin 65536) (P Q : Fin 4 → Fin 4 → EReal)
    (hL : ∀ r k, L (ix3 b r k) = P r k) (hR : ∀ k c, R (ix3 b k c) = Q k c) (r c : Fin 4) :
    Host.dotGeneral dot_S65536x4x4_S65536x4x4_S65536x4x4_2_1_1_2_0_0 none L R (ix3 b r c) = Cert.FK.mul4 P Q r c := by
  have h := StackMember.dotGeneral_stack_apply (G := 65536) (m := 4) (n := 4) (k := 4)
    dot_S65536x4x4_S65536x4x4_S65536x4x4_2_1_1_2_0_0_wf none L R b r c
  refine h.trans ?_
  unfold Cert.FK.mul4
  rw [zero_add]
  exact Finset.sum_congr rfl fun k _ => by rw [hL, hR]

/-- A stack [b, 4, 4] given a joint axis of extent one, read at (b, 0, r, c), is the stack at (b, r, c). -/
theorem bcastUnit_apply {α : Type} (X : S65536x4x4.Idx → α)
    (h : S65536x4x4.BroadcastsInDim S65536x1x4x4 (![0, 2, 3] : Fin 3 → Fin S65536x1x4x4.rank))
    (b : Fin 65536) (u : Fin 1) (r c : Fin 4) :
    broadcastInDim S65536x1x4x4 ![0, 2, 3] h X (ix4 b u r c) = X (ix3 b r c) :=
  broadcastInDim_apply _ h X (ix4 b u r c) (ix3 b r c) (fun a => by
    match a with
    | ⟨0, _⟩ => rfl
    | ⟨1, _⟩ => rfl
    | ⟨2, _⟩ => rfl)

/-- `N` arrays [b, 1, 4, 4] laid side by side along the joint axis, read at (b, j, r, c): the `j`-th, at (b, 0, r, c). -/
theorem concatUnit_apply {α : Type} {N : Nat} (f : Fin N → (S65536x1x4x4.Idx → α))
    (h : Shape.Concatenates ((List.ofFn fun n : Fin N => (⟨S65536x1x4x4, f n⟩ : (s : Shape) × (s.Idx → α))).map (·.1))
      ⟨4, ![65536, N, 4, 4]⟩ 1)
    (b : Fin 65536) (j : Fin N) (r c : Fin 4) :
    concatenate ⟨4, ![65536, N, 4, 4]⟩ 1 (List.ofFn fun n : Fin N => (⟨S65536x1x4x4, f n⟩ : (s : Shape) × (s.Idx → α))) h
      (ix4 b j r c) = f j (ix4 b (0 : Fin 1) r c) :=
  concatenate_ofFn_unit_apply (t := ⟨4, ![65536, N, 4, 4]⟩) 1 f h rfl rfl (ix4 b j r c) j rfl (ix4 b (0 : Fin 1) r c)
    (fun a ha => by
      match a with
      | ⟨0, _⟩ => rfl
      | ⟨1, _⟩ => exact absurd rfl ha
      | ⟨2, _⟩ => rfl
      | ⟨3, _⟩ => rfl)

/-- The first sixteen joints followed by the last eight, read at a joint below sixteen: the first array there. -/
theorem concatPair_left {α : Type} (X : S65536x16x4x4.Idx → α) (Y : S65536x8x4x4.Idx → α)
    (h : Shape.Concatenates [S65536x16x4x4, S65536x8x4x4] S65536x24x4x4 1)
    (b : Fin 65536) (j : Fin 24) (hj : j.val < 16) (r c : Fin 4) :
    concatenate S65536x24x4x4 1 [⟨S65536x16x4x4, X⟩, ⟨S65536x8x4x4, Y⟩] h (ix4 b j r c) = X (ix4 b ⟨j.val, hj⟩ r c) :=
  concatenate_pair_apply_left (t := S65536x24x4x4) 1 X Y h (ix4 b j r c) rfl (ix4 b ⟨j.val, hj⟩ r c) (fun a => by
    match a with
    | ⟨0, _⟩ => rfl
    | ⟨1, _⟩ => rfl
    | ⟨2, _⟩ => rfl
    | ⟨3, _⟩ => rfl)

/-- … read at a joint from sixteen on: the second array, sixteen joints back. -/
theorem concatPair_right {α : Type} (X : S65536x16x4x4.Idx → α) (Y : S65536x8x4x4.Idx → α)
    (h : Shape.Concatenates [S65536x16x4x4, S65536x8x4x4] S65536x24x4x4 1)
    (b : Fin 65536) (j : Fin 24) (hj : 16 ≤ j.val) (r c : Fin 4) :
    concatenate S65536x24x4x4 1 [⟨S65536x16x4x4, X⟩, ⟨S65536x8x4x4, Y⟩] h (ix4 b j r c)
      = Y (ix4 b ⟨j.val - 16, by have := j.isLt; omega⟩ r c) :=
  concatenate_pair_apply_right (t := S65536x24x4x4) 1 X Y h (ix4 b j r c) rfl rfl
    (ix4 b ⟨j.val - 16, by have := j.isLt; omega⟩ r c) (fun a ha => by
    match a with
    | ⟨0, _⟩ => rfl
    | ⟨1, _⟩ => exact absurd rfl ha
    | ⟨2, _⟩ => rfl
    | ⟨3, _⟩ => rfl) (by show j.val - 16 + 16 = j.val; omega)

/-- The first three entries of the last column of every matrix of a stack [b, 24, 4, 4], as an array [b, 24, 3]. -/
theorem lastCol_apply {α : Type} (X : S65536x24x4x4.Idx → α)
    (hs : S65536x24x4x4.Slices ![0, 0, 0, 3] S65536x24x3x1) (hc : S65536x24x3x1.ShapeCasts S65536x24x3)
    (b : Fin 65536) (j : Fin 24) (c : Fin 3) :
    shapeCast S65536x24x3 (extractStridedSlice S65536x24x3x1 ![0, 0, 0, 3] X hs) hc (ix3 b j c)
      = X (ix4 b j ⟨c.val, by omega⟩ 3) := by
  refine (shapeCast_apply _ hc (ix3 b j c) (ix4 b j c (0 : Fin 1)) ?_).trans ?_
  · rw [Shape.rowMajor_val_four, Shape.rowMajor_val_three]
    show ((b.val * 24 + j.val) * 3 + c.val) * 1 + 0 = (b.val * 24 + j.val) * 3 + c.val
    omega
  · exact extractStridedSlice_apply _ X hs (ix4 b j c (0 : Fin 1)) (ix4 b j ⟨c.val, by omega⟩ 3) (fun a => by
      match a with
      | ⟨0, _⟩ => exact (Nat.zero_add _).symm
      | ⟨1, _⟩ => exact (Nat.zero_add _).symm
      | ⟨2, _⟩ => exact (Nat.zero_add _).symm
      | ⟨3, _⟩ => rfl)

/-! ## The 24 joints, down the tree -/

section Tree
variable (A0 : Cert.FK.SOff.Idx → EReal) (A1 : Cert.FK.SPose.Idx → EReal) (A2 : Cert.FK.STr.Idx → EReal)

/-- The body translation, the same for every joint. -/
theorem v153_apply (b : Fin 65536) (j : Fin 24) (c : Fin 3) :
    RStages.s_v153 (F := Ideal) A0 A1 A2 (ix3 b j c) = Cert.FK.trAt A2 b c := by
  refine (broadcastInDim_apply _ bcast_S65536x1x3_S65536x24x3_0_1_2 (RStages.s_v152 (F := Ideal) A0 A1 A2) (ix3 b j c) (ix3 b (0 : Fin 1) c) (fun a => by
    match a with
    | ⟨0, _⟩ => rfl
    | ⟨1, _⟩ => rfl
    | ⟨2, _⟩ => rfl)).trans ?_
  exact broadcastInDim_apply _ bcast_S65536x3_S65536x1x3_0_2 A2 (ix3 b (0 : Fin 1) c) (ix2 b c) (fun a => by
    match a with
    | ⟨0, _⟩ => rfl
    | ⟨1, _⟩ => rfl)

/- What the tree is read from: entry (b, j, r, c) of the stack of local transforms is entry (r, c) of joint `j`'s
    local transform `[[R, o], [0 0 0 1]]` at batch element `b`. -/
variable (hv51 : ∀ (b : Fin 65536) (j : Fin 24) (r c : Fin 4),
    RStages.s_v51 (F := Ideal) A0 A1 A2 (ix4 b j r c)
      = Cert.FK.st (Cert.FK.rodR (Cert.FK.poseAt A1 b j)) (Cert.FK.offAt A0 j) r c)
include hv51

/-- Joint 0's local transform. -/
theorem local0_apply (b : Fin 65536) (r c : Fin 4) :
    RStages.s_v53 (F := Ideal) A0 A1 A2 (ix3 b r c) = Cert.FK.st (Cert.FK.rodR (Cert.FK.poseAt A1 b 0)) (Cert.FK.offAt A0 0) r c :=
  (sliceJoint_apply 0 (RStages.s_v51 (F := Ideal) A0 A1 A2) slices_S65536x24x4x4_S65536x1x4x4_0_0_0_0 shapeCasts_S65536x1x4x4_S65536x4x4 b 0 rfl r c).trans
    (hv51 b 0 r c)

/-- The root's global transform is its local one. -/
theorem glob0_apply (b : Fin 65536) (r c : Fin 4) :
    RStages.s_v53 (F := Ideal) A0 A1 A2 (ix3 b r c) = Cert.FK.M0 (Cert.FK.poseAt A1 b) (Cert.FK.offAt A0) r c :=
  local0_apply A0 A1 A2 hv51 b r c

/-- Joint 1's local transform. -/
theorem local1_apply (b : Fin 65536) (r c : Fin 4) :
    RStages.s_v55 (F := Ideal) A0 A1 A2 (ix3 b r c) = Cert.FK.st (Cert.FK.rodR (Cert.FK.poseAt A1 b 1)) (Cert.FK.offAt A0 1) r c :=
  (sliceJoint_apply 1 (RStages.s_v51 (F := Ideal) A0 A1 A2) slices_S65536x24x4x4_S65536x1x4x4_0_1_0_0 shapeCasts_S65536x1x4x4_S65536x4x4 b 1 rfl r c).trans
    (hv51 b 1 r c)

/-- Joint 1's global transform: its parent's (joint 0) times its local one. -/
theorem glob1_apply (b : Fin 65536) (r c : Fin 4) :
    RStages.s_v56 (F := Ideal) A0 A1 A2 (ix3 b r c) = Cert.FK.M1 (Cert.FK.poseAt A1 b) (Cert.FK.offAt A0) r c :=
  dot_apply (RStages.s_v53 (F := Ideal) A0 A1 A2) (RStages.s_v55 (F := Ideal) A0 A1 A2) b
    (Cert.FK.M0 (Cert.FK.poseAt A1 b) (Cert.FK.offAt A0))
    (Cert.FK.st (Cert.FK.rodR (Cert.FK.poseAt A1 b 1)) (Cert.FK.offAt A0 1))
    (fun r k => glob0_apply A0 A1 A2 hv51 b r k) (fun k c => local1_apply A0 A1 A2 hv51 b k c) r c

/-- Joint 2's local transform. -/
theorem local2_apply (b : Fin 65536) (r c : Fin 4) :
    RStages.s_v58 (F := Ideal) A0 A1 A2 (ix3 b r c) = Cert.FK.st (Cert.FK.rodR (Cert.FK.poseAt A1 b 2)) (Cert.FK.offAt A0 2) r c :=
  (sliceJoint_apply 2 (RStages.s_v51 (F := Ideal) A0 A1 A2) slices_S65536x24x4x4_S65536x1x4x4_0_2_0_0 shapeCasts_S65536x1x4x4_S65536x4x4 b 2 rfl r c).trans
    (hv51 b 2 r c)

/-- Joint 2's global transform: its parent's (joint 0) times its local one. -/
theorem glob2_apply (b : Fin 65536) (r c : Fin 4) :
    RStages.s_v59 (F := Ideal) A0 A1 A2 (ix3 b r c) = Cert.FK.M2 (Cert.FK.poseAt A1 b) (Cert.FK.offAt A0) r c :=
  dot_apply (RStages.s_v53 (F := Ideal) A0 A1 A2) (RStages.s_v58 (F := Ideal) A0 A1 A2) b
    (Cert.FK.M0 (Cert.FK.poseAt A1 b) (Cert.FK.offAt A0))
    (Cert.FK.st (Cert.FK.rodR (Cert.FK.poseAt A1 b 2)) (Cert.FK.offAt A0 2))
    (fun r k => glob0_apply A0 A1 A2 hv51 b r k) (fun k c => local2_apply A0 A1 A2 hv51 b k c) r c

/-- Joint 3's local transform. -/
theorem local3_apply (b : Fin 65536) (r c : Fin 4) :
    RStages.s_v61 (F := Ideal) A0 A1 A2 (ix3 b r c) = Cert.FK.st (Cert.FK.rodR (Cert.FK.poseAt A1 b 3)) (Cert.FK.offAt A0 3) r c :=
  (sliceJoint_apply 3 (RStages.s_v51 (F := Ideal) A0 A1 A2) slices_S65536x24x4x4_S65536x1x4x4_0_3_0_0 shapeCasts_S65536x1x4x4_S65536x4x4 b 3 rfl r c).trans
    (hv51 b 3 r c)

/-- Joint 3's global transform: its parent's (joint 0) times its local one. -/
theorem glob3_apply (b : Fin 65536) (r c : Fin 4) :
    RStages.s_v62 (F := Ideal) A0 A1 A2 (ix3 b r c) = Cert.FK.M3 (Cert.FK.poseAt A1 b) (Cert.FK.offAt A0) r c :=
  dot_apply (RStages.s_v53 (F := Ideal) A0 A1 A2) (RStages.s_v61 (F := Ideal) A0 A1 A2) b
    (Cert.FK.M0 (Cert.FK.poseAt A1 b) (Cert.FK.offAt A0))
    (Cert.FK.st (Cert.FK.rodR (Cert.FK.poseAt A1 b 3)) (Cert.FK.offAt A0 3))
    (fun r k => glob0_apply A0 A1 A2 hv51 b r k) (fun k c => local3_apply A0 A1 A2 hv51 b k c) r c

/-- Joint 4's local transform. -/
theorem local4_apply (b : Fin 65536) (r c : Fin 4) :
    RStages.s_v64 (F := Ideal) A0 A1 A2 (ix3 b r c) = Cert.FK.st (Cert.FK.rodR (Cert.FK.poseAt A1 b 4)) (Cert.FK.offAt A0 4) r c :=
  (sliceJoint_apply 4 (RStages.s_v51 (F := Ideal) A0 A1 A2) slices_S65536x24x4x4_S65536x1x4x4_0_4_0_0 shapeCasts_S65536x1x4x4_S65536x4x4 b 4 rfl r c).trans
    (hv51 b 4 r c)

/-- Joint 4's global transform: its parent's (joint 1) times its local one. -/
theorem glob4_apply (b : Fin 65536) (r c : Fin 4) :
    RStages.s_v65 (F := Ideal) A0 A1 A2 (ix3 b r c) = Cert.FK.M4 (Cert.FK.poseAt A1 b) (Cert.FK.offAt A0) r c :=
  dot_apply (RStages.s_v56 (F := Ideal) A0 A1 A2) (RStages.s_v64 (F := Ideal) A0 A1 A2) b
    (Cert.FK.M1 (Cert.FK.poseAt A1 b) (Cert.FK.offAt A0))
    (Cert.FK.st (Cert.FK.rodR (Cert.FK.poseAt A1 b 4)) (Cert.FK.offAt A0 4))
    (fun r k => glob1_apply A0 A1 A2 hv51 b r k) (fun k c => local4_apply A0 A1 A2 hv51 b k c) r c

/-- Joint 5's local transform. -/
theorem local5_apply (b : Fin 65536) (r c : Fin 4) :
    RStages.s_v67 (F := Ideal) A0 A1 A2 (ix3 b r c) = Cert.FK.st (Cert.FK.rodR (Cert.FK.poseAt A1 b 5)) (Cert.FK.offAt A0 5) r c :=
  (sliceJoint_apply 5 (RStages.s_v51 (F := Ideal) A0 A1 A2) slices_S65536x24x4x4_S65536x1x4x4_0_5_0_0 shapeCasts_S65536x1x4x4_S65536x4x4 b 5 rfl r c).trans
    (hv51 b 5 r c)

/-- Joint 5's global transform: its parent's (joint 2) times its local one. -/
theorem glob5_apply (b : Fin 65536) (r c : Fin 4) :
    RStages.s_v68 (F := Ideal) A0 A1 A2 (ix3 b r c) = Cert.FK.M5 (Cert.FK.poseAt A1 b) (Cert.FK.offAt A0) r c :=
  dot_apply (RStages.s_v59 (F := Ideal) A0 A1 A2) (RStages.s_v67 (F := Ideal) A0 A1 A2) b
    (Cert.FK.M2 (Cert.FK.poseAt A1 b) (Cert.FK.offAt A0))
    (Cert.FK.st (Cert.FK.rodR (Cert.FK.poseAt A1 b 5)) (Cert.FK.offAt A0 5))
    (fun r k => glob2_apply A0 A1 A2 hv51 b r k) (fun k c => local5_apply A0 A1 A2 hv51 b k c) r c

/-- Joint 6's local transform. -/
theorem local6_apply (b : Fin 65536) (r c : Fin 4) :
    RStages.s_v70 (F := Ideal) A0 A1 A2 (ix3 b r c) = Cert.FK.st (Cert.FK.rodR (Cert.FK.poseAt A1 b 6)) (Cert.FK.offAt A0 6) r c :=
  (sliceJoint_apply 6 (RStages.s_v51 (F := Ideal) A0 A1 A2) slices_S65536x24x4x4_S65536x1x4x4_0_6_0_0 shapeCasts_S65536x1x4x4_S65536x4x4 b 6 rfl r c).trans
    (hv51 b 6 r c)

/-- Joint 6's global transform: its parent's (joint 3) times its local one. -/
theorem glob6_apply (b : Fin 65536) (r c : Fin 4) :
    RStages.s_v71 (F := Ideal) A0 A1 A2 (ix3 b r c) = Cert.FK.M6 (Cert.FK.poseAt A1 b) (Cert.FK.offAt A0) r c :=
  dot_apply (RStages.s_v62 (F := Ideal) A0 A1 A2) (RStages.s_v70 (F := Ideal) A0 A1 A2) b
    (Cert.FK.M3 (Cert.FK.poseAt A1 b) (Cert.FK.offAt A0))
    (Cert.FK.st (Cert.FK.rodR (Cert.FK.poseAt A1 b 6)) (Cert.FK.offAt A0 6))
    (fun r k => glob3_apply A0 A1 A2 hv51 b r k) (fun k c => local6_apply A0 A1 A2 hv51 b k c) r c

/-- Joint 7's local transform. -/
theorem local7_apply (b : Fin 65536) (r c : Fin 4) :
    RStages.s_v73 (F := Ideal) A0 A1 A2 (ix3 b r c) = Cert.FK.st (Cert.FK.rodR (Cert.FK.poseAt A1 b 7)) (Cert.FK.offAt A0 7) r c :=
  (sliceJoint_apply 7 (RStages.s_v51 (F := Ideal) A0 A1 A2) slices_S65536x24x4x4_S65536x1x4x4_0_7_0_0 shapeCasts_S65536x1x4x4_S65536x4x4 b 7 rfl r c).trans
    (hv51 b 7 r c)

/-- Joint 7's global transform: its parent's (joint 4) times its local one. -/
theorem glob7_apply (b : Fin 65536) (r c : Fin 4) :
    RStages.s_v74 (F := Ideal) A0 A1 A2 (ix3 b r c) = Cert.FK.M7 (Cert.FK.poseAt A1 b) (Cert.FK.offAt A0) r c :=
  dot_apply (RStages.s_v65 (F := Ideal) A0 A1 A2) (RStages.s_v73 (F := Ideal) A0 A1 A2) b
    (Cert.FK.M4 (Cert.FK.poseAt A1 b) (Cert.FK.offAt A0))
    (Cert.FK.st (Cert.FK.rodR (Cert.FK.poseAt A1 b 7)) (Cert.FK.offAt A0 7))
    (fun r k => glob4_apply A0 A1 A2 hv51 b r k) (fun k c => local7_apply A0 A1 A2 hv51 b k c) r c

/-- Joint 8's local transform. -/
theorem local8_apply (b : Fin 65536) (r c : Fin 4) :
    RStages.s_v76 (F := Ideal) A0 A1 A2 (ix3 b r c) = Cert.FK.st (Cert.FK.rodR (Cert.FK.poseAt A1 b 8)) (Cert.FK.offAt A0 8) r c :=
  (sliceJoint_apply 8 (RStages.s_v51 (F := Ideal) A0 A1 A2) slices_S65536x24x4x4_S65536x1x4x4_0_8_0_0 shapeCasts_S65536x1x4x4_S65536x4x4 b 8 rfl r c).trans
    (hv51 b 8 r c)

/-- Joint 8's global transform: its parent's (joint 5) times its local one. -/
theorem glob8_apply (b : Fin 65536) (r c : Fin 4) :
    RStages.s_v77 (F := Ideal) A0 A1 A2 (ix3 b r c) = Cert.FK.M8 (Cert.FK.poseAt A1 b) (Cert.FK.offAt A0) r c :=
  dot_apply (RStages.s_v68 (F := Ideal) A0 A1 A2) (RStages.s_v76 (F := Ideal) A0 A1 A2) b
    (Cert.FK.M5 (Cert.FK.poseAt A1 b) (Cert.FK.offAt A0))
    (Cert.FK.st (Cert.FK.rodR (Cert.FK.poseAt A1 b 8)) (Cert.FK.offAt A0 8))
    (fun r k => glob5_apply A0 A1 A2 hv51 b r k) (fun k c => local8_apply A0 A1 A2 hv51 b k c) r c

/-- Joint 9's local transform. -/
theorem local9_apply (b : Fin 65536) (r c : Fin 4) :
    RStages.s_v79 (F := Ideal) A0 A1 A2 (ix3 b r c) = Cert.FK.st (Cert.FK.rodR (Cert.FK.poseAt A1 b 9)) (Cert.FK.offAt A0 9) r c :=
  (sliceJoint_apply 9 (RStages.s_v51 (F := Ideal) A0 A1 A2) slices_S65536x24x4x4_S65536x1x4x4_0_9_0_0 shapeCasts_S65536x1x4x4_S65536x4x4 b 9 rfl r c).trans
    (hv51 b 9 r c)

/-- Joint 9's global transform: its parent's (joint 6) times its local one. -/
theorem glob9_apply (b : Fin 65536) (r c : Fin 4) :
    RStages.s_v80 (F := Ideal) A0 A1 A2 (ix3 b r c) = Cert.FK.M9 (Cert.FK.poseAt A1 b) (Cert.FK.offAt A0) r c :=
  dot_apply (RStages.s_v71 (F := Ideal) A0 A1 A2) (RStages.s_v79 (F := Ideal) A0 A1 A2) b
    (Cert.FK.M6 (Cert.FK.poseAt A1 b) (Cert.FK.offAt A0))
    (Cert.FK.st (Cert.FK.rodR (Cert.FK.poseAt A1 b 9)) (Cert.FK.offAt A0 9))
    (fun r k => glob6_apply A0 A1 A2 hv51 b r k) (fun k c => local9_apply A0 A1 A2 hv51 b k c) r c

/-- Joint 10's local transform. -/
theorem local10_apply (b : Fin 65536) (r c : Fin 4) :
    RStages.s_v82 (F := Ideal) A0 A1 A2 (ix3 b r c) = Cert.FK.st (Cert.FK.rodR (Cert.FK.poseAt A1 b 10)) (Cert.FK.offAt A0 10) r c :=
  (sliceJoint_apply 10 (RStages.s_v51 (F := Ideal) A0 A1 A2) slices_S65536x24x4x4_S65536x1x4x4_0_10_0_0 shapeCasts_S65536x1x4x4_S65536x4x4 b 10 rfl r c).trans
    (hv51 b 10 r c)

/-- Joint 10's global transform: its parent's (joint 7) times its local one. -/
theorem glob10_apply (b : Fin 65536) (r c : Fin 4) :
    RStages.s_v83 (F := Ideal) A0 A1 A2 (ix3 b r c) = Cert.FK.M10 (Cert.FK.poseAt A1 b) (Cert.FK.offAt A0) r c :=
  dot_apply (RStages.s_v74 (F := Ideal) A0 A1 A2) (RStages.s_v82 (F := Ideal) A0 A1 A2) b
    (Cert.FK.M7 (Cert.FK.poseAt A1 b) (Cert.FK.offAt A0))
    (Cert.FK.st (Cert.FK.rodR (Cert.FK.poseAt A1 b 10)) (Cert.FK.offAt A0 10))
    (fun r k => glob7_apply A0 A1 A2 hv51 b r k) (fun k c => local10_apply A0 A1 A2 hv51 b k c) r c

/-- Joint 11's local transform. -/
theorem local11_apply (b : Fin 65536) (r c : Fin 4) :
    RStages.s_v85 (F := Ideal) A0 A1 A2 (ix3 b r c) = Cert.FK.st (Cert.FK.rodR (Cert.FK.poseAt A1 b 11)) (Cert.FK.offAt A0 11) r c :=
  (sliceJoint_apply 11 (RStages.s_v51 (F := Ideal) A0 A1 A2) slices_S65536x24x4x4_S65536x1x4x4_0_11_0_0 shapeCasts_S65536x1x4x4_S65536x4x4 b 11 rfl r c).trans
    (hv51 b 11 r c)

/-- Joint 11's global transform: its parent's (joint 8) times its local one. -/
theorem glob11_apply (b : Fin 65536) (r c : Fin 4) :
    RStages.s_v86 (F := Ideal) A0 A1 A2 (ix3 b r c) = Cert.FK.M11 (Cert.FK.poseAt A1 b) (Cert.FK.offAt A0) r c :=
  dot_apply (RStages.s_v77 (F := Ideal) A0 A1 A2) (RStages.s_v85 (F := Ideal) A0 A1 A2) b
    (Cert.FK.M8 (Cert.FK.poseAt A1 b) (Cert.FK.offAt A0))
    (Cert.FK.st (Cert.FK.rodR (Cert.FK.poseAt A1 b 11)) (Cert.FK.offAt A0 11))
    (fun r k => glob8_apply A0 A1 A2 hv51 b r k) (fun k c => local11_apply A0 A1 A2 hv51 b k c) r c

/-- Joint 12's local transform. -/
theorem local12_apply (b : Fin 65536) (r c : Fin 4) :
    RStages.s_v88 (F := Ideal) A0 A1 A2 (ix3 b r c) = Cert.FK.st (Cert.FK.rodR (Cert.FK.poseAt A1 b 12)) (Cert.FK.offAt A0 12) r c :=
  (sliceJoint_apply 12 (RStages.s_v51 (F := Ideal) A0 A1 A2) slices_S65536x24x4x4_S65536x1x4x4_0_12_0_0 shapeCasts_S65536x1x4x4_S65536x4x4 b 12 rfl r c).trans
    (hv51 b 12 r c)

/-- Joint 12's global transform: its parent's (joint 9) times its local one. -/
theorem glob12_apply (b : Fin 65536) (r c : Fin 4) :
    RStages.s_v89 (F := Ideal) A0 A1 A2 (ix3 b r c) = Cert.FK.M12 (Cert.FK.poseAt A1 b) (Cert.FK.offAt A0) r c :=
  dot_apply (RStages.s_v80 (F := Ideal) A0 A1 A2) (RStages.s_v88 (F := Ideal) A0 A1 A2) b
    (Cert.FK.M9 (Cert.FK.poseAt A1 b) (Cert.FK.offAt A0))
    (Cert.FK.st (Cert.FK.rodR (Cert.FK.poseAt A1 b 12)) (Cert.FK.offAt A0 12))
    (fun r k => glob9_apply A0 A1 A2 hv51 b r k) (fun k c => local12_apply A0 A1 A2 hv51 b k c) r c

/-- Joint 13's local transform. -/
theorem local13_apply (b : Fin 65536) (r c : Fin 4) :
    RStages.s_v91 (F := Ideal) A0 A1 A2 (ix3 b r c) = Cert.FK.st (Cert.FK.rodR (Cert.FK.poseAt A1 b 13)) (Cert.FK.offAt A0 13) r c :=
  (sliceJoint_apply 13 (RStages.s_v51 (F := Ideal) A0 A1 A2) slices_S65536x24x4x4_S65536x1x4x4_0_13_0_0 shapeCasts_S65536x1x4x4_S65536x4x4 b 13 rfl r c).trans
    (hv51 b 13 r c)

/-- Joint 13's global transform: its parent's (joint 9) times its local one. -/
theorem glob13_apply (b : Fin 65536) (r c : Fin 4) :
    RStages.s_v92 (F := Ideal) A0 A1 A2 (ix3 b r c) = Cert.FK.M13 (Cert.FK.poseAt A1 b) (Cert.FK.offAt A0) r c :=
  dot_apply (RStages.s_v80 (F := Ideal) A0 A1 A2) (RStages.s_v91 (F := Ideal) A0 A1 A2) b
    (Cert.FK.M9 (Cert.FK.poseAt A1 b) (Cert.FK.offAt A0))
    (Cert.FK.st (Cert.FK.rodR (Cert.FK.poseAt A1 b 13)) (Cert.FK.offAt A0 13))
    (fun r k => glob9_apply A0 A1 A2 hv51 b r k) (fun k c => local13_apply A0 A1 A2 hv51 b k c) r c

/-- Joint 14's local transform. -/
theorem local14_apply (b : Fin 65536) (r c : Fin 4) :
    RStages.s_v94 (F := Ideal) A0 A1 A2 (ix3 b r c) = Cert.FK.st (Cert.FK.rodR (Cert.FK.poseAt A1 b 14)) (Cert.FK.offAt A0 14) r c :=
  (sliceJoint_apply 14 (RStages.s_v51 (F := Ideal) A0 A1 A2) slices_S65536x24x4x4_S65536x1x4x4_0_14_0_0 shapeCasts_S65536x1x4x4_S65536x4x4 b 14 rfl r c).trans
    (hv51 b 14 r c)

/-- Joint 14's global transform: its parent's (joint 9) times its local one. -/
theorem glob14_apply (b : Fin 65536) (r c : Fin 4) :
    RStages.s_v95 (F := Ideal) A0 A1 A2 (ix3 b r c) = Cert.FK.M14 (Cert.FK.poseAt A1 b) (Cert.FK.offAt A0) r c :=
  dot_apply (RStages.s_v80 (F := Ideal) A0 A1 A2) (RStages.s_v94 (F := Ideal) A0 A1 A2) b
    (Cert.FK.M9 (Cert.FK.poseAt A1 b) (Cert.FK.offAt A0))
    (Cert.FK.st (Cert.FK.rodR (Cert.FK.poseAt A1 b 14)) (Cert.FK.offAt A0 14))
    (fun r k => glob9_apply A0 A1 A2 hv51 b r k) (fun k c => local14_apply A0 A1 A2 hv51 b k c) r c

/-- Joint 15's local transform. -/
theorem local15_apply (b : Fin 65536) (r c : Fin 4) :
    RStages.s_v97 (F := Ideal) A0 A1 A2 (ix3 b r c) = Cert.FK.st (Cert.FK.rodR (Cert.FK.poseAt A1 b 15)) (Cert.FK.offAt A0 15) r c :=
  (sliceJoint_apply 15 (RStages.s_v51 (F := Ideal) A0 A1 A2) slices_S65536x24x4x4_S65536x1x4x4_0_15_0_0 shapeCasts_S65536x1x4x4_S65536x4x4 b 15 rfl r c).trans
    (hv51 b 15 r c)

/-- Joint 15's global transform: its parent's (joint 12) times its local one. -/
theorem glob15_apply (b : Fin 65536) (r c : Fin 4) :
    RStages.s_v98 (F := Ideal) A0 A1 A2 (ix3 b r c) = Cert.FK.M15 (Cert.FK.poseAt A1 b) (Cert.FK.offAt A0) r c :=
  dot_apply (RStages.s_v89 (F := Ideal) A0 A1 A2) (RStages.s_v97 (F := Ideal) A0 A1 A2) b
    (Cert.FK.M12 (Cert.FK.poseAt A1 b) (Cert.FK.offAt A0))
    (Cert.FK.st (Cert.FK.rodR (Cert.FK.poseAt A1 b 15)) (Cert.FK.offAt A0 15))
    (fun r k => glob12_apply A0 A1 A2 hv51 b r k) (fun k c => local15_apply A0 A1 A2 hv51 b k c) r c

/-- Joint 16's local transform. -/
theorem local16_apply (b : Fin 65536) (r c : Fin 4) :
    RStages.s_v100 (F := Ideal) A0 A1 A2 (ix3 b r c) = Cert.FK.st (Cert.FK.rodR (Cert.FK.poseAt A1 b 16)) (Cert.FK.offAt A0 16) r c :=
  (sliceJoint_apply 16 (RStages.s_v51 (F := Ideal) A0 A1 A2) slices_S65536x24x4x4_S65536x1x4x4_0_16_0_0 shapeCasts_S65536x1x4x4_S65536x4x4 b 16 rfl r c).trans
    (hv51 b 16 r c)

/-- Joint 16's global transform: its parent's (joint 13) times its local one. -/
theorem glob16_apply (b : Fin 65536) (r c : Fin 4) :
    RStages.s_v101 (F := Ideal) A0 A1 A2 (ix3 b r c) = Cert.FK.M16 (Cert.FK.poseAt A1 b) (Cert.FK.offAt A0) r c :=
  dot_apply (RStages.s_v92 (F := Ideal) A0 A1 A2) (RStages.s_v100 (F := Ideal) A0 A1 A2) b
    (Cert.FK.M13 (Cert.FK.poseAt A1 b) (Cert.FK.offAt A0))
    (Cert.FK.st (Cert.FK.rodR (Cert.FK.poseAt A1 b 16)) (Cert.FK.offAt A0 16))
    (fun r k => glob13_apply A0 A1 A2 hv51 b r k) (fun k c => local16_apply A0 A1 A2 hv51 b k c) r c

/-- Joint 17's local transform. -/
theorem local17_apply (b : Fin 65536) (r c : Fin 4) :
    RStages.s_v103 (F := Ideal) A0 A1 A2 (ix3 b r c) = Cert.FK.st (Cert.FK.rodR (Cert.FK.poseAt A1 b 17)) (Cert.FK.offAt A0 17) r c :=
  (sliceJoint_apply 17 (RStages.s_v51 (F := Ideal) A0 A1 A2) slices_S65536x24x4x4_S65536x1x4x4_0_17_0_0 shapeCasts_S65536x1x4x4_S65536x4x4 b 17 rfl r c).trans
    (hv51 b 17 r c)

/-- Joint 17's global transform: its parent's (joint 14) times its local one. -/
theorem glob17_apply (b : Fin 65536) (r c : Fin 4) :
    RStages.s_v104 (F := Ideal) A0 A1 A2 (ix3 b r c) = Cert.FK.M17 (Cert.FK.poseAt A1 b) (Cert.FK.offAt A0) r c :=
  dot_apply (RStages.s_v95 (F := Ideal) A0 A1 A2) (RStages.s_v103 (F := Ideal) A0 A1 A2) b
    (Cert.FK.M14 (Cert.FK.poseAt A1 b) (Cert.FK.offAt A0))
    (Cert.FK.st (Cert.FK.rodR (Cert.FK.poseAt A1 b 17)) (Cert.FK.offAt A0 17))
    (fun r k => glob14_apply A0 A1 A2 hv51 b r k) (fun k c => local17_apply A0 A1 A2 hv51 b k c) r c

/-- Joint 18's local transform. -/
theorem local18_apply (b : Fin 65536) (r c : Fin 4) :
    RStages.s_v106 (F := Ideal) A0 A1 A2 (ix3 b r c) = Cert.FK.st (Cert.FK.rodR (Cert.FK.poseAt A1 b 18)) (Cert.FK.offAt A0 18) r c :=
  (sliceJoint_apply 18 (RStages.s_v51 (F := Ideal) A0 A1 A2) slices_S65536x24x4x4_S65536x1x4x4_0_18_0_0 shapeCasts_S65536x1x4x4_S65536x4x4 b 18 rfl r c).trans
    (hv51 b 18 r c)

/-- Joint 18's global transform: its parent's (joint 16) times its local one. -/
theorem glob18_apply (b : Fin 65536) (r c : Fin 4) :
    RStages.s_v107 (F := Ideal) A0 A1 A2 (ix3 b r c) = Cert.FK.M18 (Cert.FK.poseAt A1 b) (Cert.FK.offAt A0) r c :=
  dot_apply (RStages.s_v101 (F := Ideal) A0 A1 A2) (RStages.s_v106 (F := Ideal) A0 A1 A2) b
    (Cert.FK.M16 (Cert.FK.poseAt A1 b) (Cert.FK.offAt A0))
    (Cert.FK.st (Cert.FK.rodR (Cert.FK.poseAt A1 b 18)) (Cert.FK.offAt A0 18))
    (fun r k => glob16_apply A0 A1 A2 hv51 b r k) (fun k c => local18_apply A0 A1 A2 hv51 b k c) r c

/-- Joint 19's local transform. -/
theorem local19_apply (b : Fin 65536) (r c : Fin 4) :
    RStages.s_v109 (F := Ideal) A0 A1 A2 (ix3 b r c) = Cert.FK.st (Cert.FK.rodR (Cert.FK.poseAt A1 b 19)) (Cert.FK.offAt A0 19) r c :=
  (sliceJoint_apply 19 (RStages.s_v51 (F := Ideal) A0 A1 A2) slices_S65536x24x4x4_S65536x1x4x4_0_19_0_0 shapeCasts_S65536x1x4x4_S65536x4x4 b 19 rfl r c).trans
    (hv51 b 19 r c)

/-- Joint 19's global transform: its parent's (joint 17) times its local one. -/
theorem glob19_apply (b : Fin 65536) (r c : Fin 4) :
    RStages.s_v110 (F := Ideal) A0 A1 A2 (ix3 b r c) = Cert.FK.M19 (Cert.FK.poseAt A1 b) (Cert.FK.offAt A0) r c :=
  dot_apply (RStages.s_v104 (F := Ideal) A0 A1 A2) (RStages.s_v109 (F := Ideal) A0 A1 A2) b
    (Cert.FK.M17 (Cert.FK.poseAt A1 b) (Cert.FK.offAt A0))
    (Cert.FK.st (Cert.FK.rodR (Cert.FK.poseAt A1 b 19)) (Cert.FK.offAt A0 19))
    (fun r k => glob17_apply A0 A1 A2 hv51 b r k) (fun k c => local19_apply A0 A1 A2 hv51 b k c) r c

/-- Joint 20's local transform. -/
theorem local20_apply (b : Fin 65536) (r c : Fin 4) :
    RStages.s_v112 (F := Ideal) A0 A1 A2 (ix3 b r c) = Cert.FK.st (Cert.FK.rodR (Cert.FK.poseAt A1 b 20)) (Cert.FK.offAt A0 20) r c :=
  (sliceJoint_apply 20 (RStages.s_v51 (F := Ideal) A0 A1 A2) slices_S65536x24x4x4_S65536x1x4x4_0_20_0_0 shapeCasts_S65536x1x4x4_S65536x4x4 b 20 rfl r c).trans
    (hv51 b 20 r c)

/-- Joint 20's global transform: its parent's (joint 18) times its local one. -/
theorem glob20_apply (b : Fin 65536) (r c : Fin 4) :
    RStages.s_v113 (F := Ideal) A0 A1 A2 (ix3 b r c) = Cert.FK.M20 (Cert.FK.poseAt A1 b) (Cert.FK.offAt A0) r c :=
  dot_apply (RStages.s_v107 (F := Ideal) A0 A1 A2) (RStages.s_v112 (F := Ideal) A0 A1 A2) b
    (Cert.FK.M18 (Cert.FK.poseAt A1 b) (Cert.FK.offAt A0))
    (Cert.FK.st (Cert.FK.rodR (Cert.FK.poseAt A1 b 20)) (Cert.FK.offAt A0 20))
    (fun r k => glob18_apply A0 A1 A2 hv51 b r k) (fun k c => local20_apply A0 A1 A2 hv51 b k c) r c

/-- Joint 21's local transform. -/
theorem local21_apply (b : Fin 65536) (r c : Fin 4) :
    RStages.s_v115 (F := Ideal) A0 A1 A2 (ix3 b r c) = Cert.FK.st (Cert.FK.rodR (Cert.FK.poseAt A1 b 21)) (Cert.FK.offAt A0 21) r c :=
  (sliceJoint_apply 21 (RStages.s_v51 (F := Ideal) A0 A1 A2) slices_S65536x24x4x4_S65536x1x4x4_0_21_0_0 shapeCasts_S65536x1x4x4_S65536x4x4 b 21 rfl r c).trans
    (hv51 b 21 r c)

/-- Joint 21's global transform: its parent's (joint 19) times its local one. -/
theorem glob21_apply (b : Fin 65536) (r c : Fin 4) :
    RStages.s_v116 (F := Ideal) A0 A1 A2 (ix3 b r c) = Cert.FK.M21 (Cert.FK.poseAt A1 b) (Cert.FK.offAt A0) r c :=
  dot_apply (RStages.s_v110 (F := Ideal) A0 A1 A2) (RStages.s_v115 (F := Ideal) A0 A1 A2) b
    (Cert.FK.M19 (Cert.FK.poseAt A1 b) (Cert.FK.offAt A0))
    (Cert.FK.st (Cert.FK.rodR (Cert.FK.poseAt A1 b 21)) (Cert.FK.offAt A0 21))
    (fun r k => glob19_apply A0 A1 A2 hv51 b r k) (fun k c => local21_apply A0 A1 A2 hv51 b k c) r c

/-- Joint 22's local transform. -/
theorem local22_apply (b : Fin 65536) (r c : Fin 4) :
    RStages.s_v118 (F := Ideal) A0 A1 A2 (ix3 b r c) = Cert.FK.st (Cert.FK.rodR (Cert.FK.poseAt A1 b 22)) (Cert.FK.offAt A0 22) r c :=
  (sliceJoint_apply 22 (RStages.s_v51 (F := Ideal) A0 A1 A2) slices_S65536x24x4x4_S65536x1x4x4_0_22_0_0 shapeCasts_S65536x1x4x4_S65536x4x4 b 22 rfl r c).trans
    (hv51 b 22 r c)

/-- Joint 22's global transform: its parent's (joint 20) times its local one. -/
theorem glob22_apply (b : Fin 65536) (r c : Fin 4) :
    RStages.s_v119 (F := Ideal) A0 A1 A2 (ix3 b r c) = Cert.FK.M22 (Cert.FK.poseAt A1 b) (Cert.FK.offAt A0) r c :=
  dot_apply (RStages.s_v113 (F := Ideal) A0 A1 A2) (RStages.s_v118 (F := Ideal) A0 A1 A2) b
    (Cert.FK.M20 (Cert.FK.poseAt A1 b) (Cert.FK.offAt A0))
    (Cert.FK.st (Cert.FK.rodR (Cert.FK.poseAt A1 b 22)) (Cert.FK.offAt A0 22))
    (fun r k => glob20_apply A0 A1 A2 hv51 b r k) (fun k c => local22_apply A0 A1 A2 hv51 b k c) r c

/-- Joint 23's local transform. -/
theorem local23_apply (b : Fin 65536) (r c : Fin 4) :
    RStages.s_v121 (F := Ideal) A0 A1 A2 (ix3 b r c) = Cert.FK.st (Cert.FK.rodR (Cert.FK.poseAt A1 b 23)) (Cert.FK.offAt A0 23) r c :=
  (sliceJoint_apply 23 (RStages.s_v51 (F := Ideal) A0 A1 A2) slices_S65536x24x4x4_S65536x1x4x4_0_23_0_0 shapeCasts_S65536x1x4x4_S65536x4x4 b 23 rfl r c).trans
    (hv51 b 23 r c)

/-- Joint 23's global transform: its parent's (joint 21) times its local one. -/
theorem glob23_apply (b : Fin 65536) (r c : Fin 4) :
    RStages.s_v122 (F := Ideal) A0 A1 A2 (ix3 b r c) = Cert.FK.M23 (Cert.FK.poseAt A1 b) (Cert.FK.offAt A0) r c :=
  dot_apply (RStages.s_v116 (F := Ideal) A0 A1 A2) (RStages.s_v121 (F := Ideal) A0 A1 A2) b
    (Cert.FK.M21 (Cert.FK.poseAt A1 b) (Cert.FK.offAt A0))
    (Cert.FK.st (Cert.FK.rodR (Cert.FK.poseAt A1 b 23)) (Cert.FK.offAt A0 23))
    (fun r k => glob21_apply A0 A1 A2 hv51 b r k) (fun k c => local23_apply A0 A1 A2 hv51 b k c) r c

/-! ## The global transforms side by side, the last column, the body translation -/

/-- The first sixteen global transforms along the joint axis. -/
theorem v147_apply (b : Fin 65536) (j : Fin 16) (r c : Fin 4) :
    RStages.s_v147 (F := Ideal) A0 A1 A2 (ix4 b j r c) = Cert.FK.MAll (Cert.FK.poseAt A1 b) (Cert.FK.offAt A0) ⟨j.val, by omega⟩ r c := by
  refine (concatUnit_apply (N := 16) (![RStages.s_v123 (F := Ideal) A0 A1 A2, RStages.s_v124 (F := Ideal) A0 A1 A2, RStages.s_v125 (F := Ideal) A0 A1 A2, RStages.s_v126 (F := Ideal) A0 A1 A2, RStages.s_v127 (F := Ideal) A0 A1 A2, RStages.s_v128 (F := Ideal) A0 A1 A2, RStages.s_v129 (F := Ideal) A0 A1 A2, RStages.s_v130 (F := Ideal) A0 A1 A2, RStages.s_v131 (F := Ideal) A0 A1 A2, RStages.s_v132 (F := Ideal) A0 A1 A2, RStages.s_v133 (F := Ideal) A0 A1 A2, RStages.s_v134 (F := Ideal) A0 A1 A2, RStages.s_v135 (F := Ideal) A0 A1 A2, RStages.s_v136 (F := Ideal) A0 A1 A2, RStages.s_v137 (F := Ideal) A0 A1 A2, RStages.s_v138 (F := Ideal) A0 A1 A2] : Fin 16 → (S65536x1x4x4.Idx → EReal))
    concatenates_S65536x1x4x4_S65536x1x4x4_S65536x1x4x4_S65536x1x4x4_S65536x1x4x4_S65536x1x4x4_S65536x1x4x4_S65536x1x4x4_S65536x1x4x4_S65536x1x4x4_S65536x1x4x4_S65536x1x4x4_S65536x1x4x4_S65536x1x4x4_S65536x1x4x4_S65536x1x4x4_S65536x16x4x4_d1 b j r c).trans ?_
  fin_cases j
  · exact (bcastUnit_apply (RStages.s_v53 (F := Ideal) A0 A1 A2) bcast_S65536x4x4_S65536x1x4x4_0_2_3 b 0 r c).trans (glob0_apply A0 A1 A2 hv51 b r c)
  · exact (bcastUnit_apply (RStages.s_v56 (F := Ideal) A0 A1 A2) bcast_S65536x4x4_S65536x1x4x4_0_2_3 b 0 r c).trans (glob1_apply A0 A1 A2 hv51 b r c)
  · exact (bcastUnit_apply (RStages.s_v59 (F := Ideal) A0 A1 A2) bcast_S65536x4x4_S65536x1x4x4_0_2_3 b 0 r c).trans (glob2_apply A0 A1 A2 hv51 b r c)
  · exact (bcastUnit_apply (RStages.s_v62 (F := Ideal) A0 A1 A2) bcast_S65536x4x4_S65536x1x4x4_0_2_3 b 0 r c).trans (glob3_apply A0 A1 A2 hv51 b r c)
  · exact (bcastUnit_apply (RStages.s_v65 (F := Ideal) A0 A1 A2) bcast_S65536x4x4_S65536x1x4x4_0_2_3 b 0 r c).trans (glob4_apply A0 A1 A2 hv51 b r c)
  · exact (bcastUnit_apply (RStages.s_v68 (F := Ideal) A0 A1 A2) bcast_S65536x4x4_S65536x1x4x4_0_2_3 b 0 r c).trans (glob5_apply A0 A1 A2 hv51 b r c)
  · exact (bcastUnit_apply (RStages.s_v71 (F := Ideal) A0 A1 A2) bcast_S65536x4x4_S65536x1x4x4_0_2_3 b 0 r c).trans (glob6_apply A0 A1 A2 hv51 b r c)
  · exact (bcastUnit_apply (RStages.s_v74 (F := Ideal) A0 A1 A2) bcast_S65536x4x4_S65536x1x4x4_0_2_3 b 0 r c).trans (glob7_apply A0 A1 A2 hv51 b r c)
  · exact (bcastUnit_apply (RStages.s_v77 (F := Ideal) A0 A1 A2) bcast_S65536x4x4_S65536x1x4x4_0_2_3 b 0 r c).trans (glob8_apply A0 A1 A2 hv51 b r c)
  · exact (bcastUnit_apply (RStages.s_v80 (F := Ideal) A0 A1 A2) bcast_S65536x4x4_S65536x1x4x4_0_2_3 b 0 r c).trans (glob9_apply A0 A1 A2 hv51 b r c)
  · exact (bcastUnit_apply (RStages.s_v83 (F := Ideal) A0 A1 A2) bcast_S65536x4x4_S65536x1x4x4_0_2_3 b 0 r c).trans (glob10_apply A0 A1 A2 hv51 b r c)
  · exact (bcastUnit_apply (RStages.s_v86 (F := Ideal) A0 A1 A2) bcast_S65536x4x4_S65536x1x4x4_0_2_3 b 0 r c).trans (glob11_apply A0 A1 A2 hv51 b r c)
  · exact (bcastUnit_apply (RStages.s_v89 (F := Ideal) A0 A1 A2) bcast_S65536x4x4_S65536x1x4x4_0_2_3 b 0 r c).trans (glob12_apply A0 A1 A2 hv51 b r c)
  · exact (bcastUnit_apply (RStages.s_v92 (F := Ideal) A0 A1 A2) bcast_S65536x4x4_S65536x1x4x4_0_2_3 b 0 r c).trans (glob13_apply A0 A1 A2 hv51 b r c)
  · exact (bcastUnit_apply (RStages.s_v95 (F := Ideal) A0 A1 A2) bcast_S65536x4x4_S65536x1x4x4_0_2_3 b 0 r c).trans (glob14_apply A0 A1 A2 hv51 b r c)
  · exact (bcastUnit_apply (RStages.s_v98 (F := Ideal) A0 A1 A2) bcast_S65536x4x4_S65536x1x4x4_0_2_3 b 0 r c).trans (glob15_apply A0 A1 A2 hv51 b r c)

/-- The last eight. -/
theorem v148_apply (b : Fin 65536) (j : Fin 8) (r c : Fin 4) :
    RStages.s_v148 (F := Ideal) A0 A1 A2 (ix4 b j r c) = Cert.FK.MAll (Cert.FK.poseAt A1 b) (Cert.FK.offAt A0) ⟨16 + j.val, by omega⟩ r c := by
  refine (concatUnit_apply (N := 8) (![RStages.s_v139 (F := Ideal) A0 A1 A2, RStages.s_v140 (F := Ideal) A0 A1 A2, RStages.s_v141 (F := Ideal) A0 A1 A2, RStages.s_v142 (F := Ideal) A0 A1 A2, RStages.s_v143 (F := Ideal) A0 A1 A2, RStages.s_v144 (F := Ideal) A0 A1 A2, RStages.s_v145 (F := Ideal) A0 A1 A2, RStages.s_v146 (F := Ideal) A0 A1 A2] : Fin 8 → (S65536x1x4x4.Idx → EReal))
    concatenates_S65536x1x4x4_S65536x1x4x4_S65536x1x4x4_S65536x1x4x4_S65536x1x4x4_S65536x1x4x4_S65536x1x4x4_S65536x1x4x4_S65536x8x4x4_d1 b j r c).trans ?_
  fin_cases j
  · exact (bcastUnit_apply (RStages.s_v101 (F := Ideal) A0 A1 A2) bcast_S65536x4x4_S65536x1x4x4_0_2_3 b 0 r c).trans (glob16_apply A0 A1 A2 hv51 b r c)
  · exact (bcastUnit_apply (RStages.s_v104 (F := Ideal) A0 A1 A2) bcast_S65536x4x4_S65536x1x4x4_0_2_3 b 0 r c).trans (glob17_apply A0 A1 A2 hv51 b r c)
  · exact (bcastUnit_apply (RStages.s_v107 (F := Ideal) A0 A1 A2) bcast_S65536x4x4_S65536x1x4x4_0_2_3 b 0 r c).trans (glob18_apply A0 A1 A2 hv51 b r c)
  · exact (bcastUnit_apply (RStages.s_v110 (F := Ideal) A0 A1 A2) bcast_S65536x4x4_S65536x1x4x4_0_2_3 b 0 r c).trans (glob19_apply A0 A1 A2 hv51 b r c)
  · exact (bcastUnit_apply (RStages.s_v113 (F := Ideal) A0 A1 A2) bcast_S65536x4x4_S65536x1x4x4_0_2_3 b 0 r c).trans (glob20_apply A0 A1 A2 hv51 b r c)
  · exact (bcastUnit_apply (RStages.s_v116 (F := Ideal) A0 A1 A2) bcast_S65536x4x4_S65536x1x4x4_0_2_3 b 0 r c).trans (glob21_apply A0 A1 A2 hv51 b r c)
  · exact (bcastUnit_apply (RStages.s_v119 (F := Ideal) A0 A1 A2) bcast_S65536x4x4_S65536x1x4x4_0_2_3 b 0 r c).trans (glob22_apply A0 A1 A2 hv51 b r c)
  · exact (bcastUnit_apply (RStages.s_v122 (F := Ideal) A0 A1 A2) bcast_S65536x4x4_S65536x1x4x4_0_2_3 b 0 r c).trans (glob23_apply A0 A1 A2 hv51 b r c)

/-- All 24 global transforms: entry (b, j, r, c) of the stack is entry (r, c) of joint `j`'s matrix at batch element `b`. -/
theorem v149_apply (b : Fin 65536) (j : Fin 24) (r c : Fin 4) :
    RStages.s_v149 (F := Ideal) A0 A1 A2 (ix4 b j r c) = Cert.FK.MAll (Cert.FK.poseAt A1 b) (Cert.FK.offAt A0) j r c := by
  by_cases hj : j.val < 16
  · exact (concatPair_left _ _ concatenates_S65536x16x4x4_S65536x8x4x4_S65536x24x4x4_d1 b j hj r c).trans
      (v147_apply A0 A1 A2 hv51 b ⟨j.val, hj⟩ r c)
  · have h16 : 16 ≤ j.val := Nat.le_of_not_lt hj
    have e := v148_apply A0 A1 A2 hv51 b ⟨j.val - 16, by have := j.isLt; omega⟩ r c
    rw [show (⟨16 + (j.val - 16), by have := j.isLt; omega⟩ : Fin 24) = j from Fin.ext (by show 16 + (j.val - 16) = j.val; omega)] at e
    exact (concatPair_right _ _ concatenates_S65536x16x4x4_S65536x8x4x4_S65536x24x4x4_d1 b j h16 r c).trans e

/-- The translations of the global transforms. -/
theorem v151_apply (b : Fin 65536) (j : Fin 24) (c : Fin 3) :
    RStages.s_v151 (F := Ideal) A0 A1 A2 (ix3 b j c) = Cert.FK.MAll (Cert.FK.poseAt A1 b) (Cert.FK.offAt A0) j ⟨c.val, by omega⟩ 3 :=
  (lastCol_apply (RStages.s_v149 (F := Ideal) A0 A1 A2) slices_S65536x24x4x4_S65536x24x3x1_0_0_0_3 shapeCasts_S65536x24x3x1_S65536x24x3 b j c).trans
    (v149_apply A0 A1 A2 hv51 b j ⟨c.val, by omega⟩ 3)

/-- The result from the stack of local transforms. -/
theorem res_eq_of :
    RStages.res (F := Ideal) A0 A1 A2 = Cert.FK.resR A0 A1 A2 := by
  funext i
  obtain ⟨b, j, c, rfl⟩ : ∃ (b : Fin 65536) (j : Fin 24) (c : Fin 3), i = ix3 b j c := ⟨i 0, i 1, i 2, eq_ix3 i⟩
  rw [Cert.FK.resR_apply]
  refine (addf_apply (s := S65536x24x3) (φ := .f32) (RStages.s_v151 (F := Ideal) A0 A1 A2)
    (RStages.s_v153 (F := Ideal) A0 A1 A2) (ix3 b j c)).trans ?_
  rw [v151_apply A0 A1 A2 hv51, v153_apply]
  rfl

omit hv51 in
/-- The matrix program's result is the specification's positions in matrix form. -/
theorem res_eq :
    RStages.res (F := Ideal) A0 A1 A2 = Cert.FK.resR A0 A1 A2 :=
  res_eq_of A0 A1 A2 (RReadLocal.v51_apply A0 A1 A2)

end Tree

end Cert.ReferenceIdeal.RReadTree

end
-- ==== Proof.FKAlgebraDefs.lean ====
/-
  Shared notions for comparing the two forms of the forward kinematics: a rotation's nine entries read as a
  3×3 matrix, a rigid transform read as a 4×4 homogeneous matrix, and the three constant words as extended reals.
-/
import proofs.«127147_j62156766707902_2_alg».proof.Proof.FKSpec
import Mathlib.Tactic

noncomputable section

namespace Cert.FK

open Idealize.ShloMosaic

/-- The word `1.0` is the extended real one. -/
theorem one_eq : one = 1 := by
  show Ideal.ofBits .f32 0x3F800000#32 = 1
  rw [show (1 : EReal) = ((1 : ℝ) : EReal) by norm_cast]
  simp [Ideal.ofBits, Ideal.ieee, -EReal.coe_mul]; norm_num

/-- The word `0.0` is the extended real zero. -/
theorem zero_eq : zero = 0 := by
  show Ideal.ofBits .f32 0x00000000#32 = 0
  simp [Ideal.ofBits, Ideal.ieee]

/-- The small word added before the norm is a real number. -/
theorem eps_real : ∃ e : ℝ, eps = (e : EReal) := by
  show ∃ e : ℝ, Ideal.ofBits .f32 0x322BCC77#32 = (e : EReal)
  simp [Ideal.ofBits, Ideal.ieee, -EReal.coe_mul]

/-- A rotation's nine entries as a 3×3 matrix. -/
def Rot.mat (R : Rot) : Fin 3 → Fin 3 → EReal :=
  ![![R.r00, R.r01, R.r02], ![R.r10, R.r11, R.r12], ![R.r20, R.r21, R.r22]]

/-- A rigid transform as a 4×4 homogeneous matrix: rotation, translation column, last row `0 0 0 1`. -/
def hom (T : Tf) : Fin 4 → Fin 4 → EReal :=
  ![![T.n00, T.n01, T.n02, T.tx], ![T.n10, T.n11, T.n12, T.ty], ![T.n20, T.n21, T.n22, T.tz],
    ![zero, zero, zero, one]]

end Cert.FK

end
-- ==== Proof.FKAlgebraRod.lean ====
/-
  Rodrigues' formula in its two spellings agree on real axis-angle vectors: `I + sin a · K + (1 - cos a) · K K`
  with `K` the cross-product matrix of the unit axis, against the nine expanded entries. When the angle is not
  zero every quantity is a real number and the identity is one of real polynomials; when the angle is zero the
  axis is not finite, but the sine and one minus the cosine vanish and both spellings give the identity matrix.
-/
import proofs.«127147_j62156766707902_2_alg».proof.Proof.FKAlgebraDefs

noncomputable section

namespace Cert.FK

open Idealize.ShloMosaic

/-- The matrix spelling with the sine `s`, one minus the cosine `oc` and the axis `d` as free quantities. -/
def rodRgen (s oc : EReal) (d : Fin 3 → EReal) (a b : Fin 3) : EReal :=
  (eye a b + s * kmat d a b) + oc * (0 + ∑ k : Fin 3, kmat d a k * kmat d k b)

/-- The expanded spelling with the same free quantities. -/
def rodGen (s oc d0 d1 d2 : EReal) : Rot where
  r00 := one - oc * (d1 * d1 + d2 * d2)
  r01 := (zero - s) * d2 + oc * d0 * d1
  r02 := s * d1 + oc * d0 * d2
  r10 := s * d2 + oc * d0 * d1
  r11 := one - oc * (d0 * d0 + d2 * d2)
  r12 := (zero - s) * d0 + oc * d1 * d2
  r20 := (zero - s) * d1 + oc * d0 * d2
  r21 := s * d0 + oc * d1 * d2
  r22 := one - oc * (d0 * d0 + d1 * d1)

/-- The two spellings of the angle agree. -/
theorem angR_eq (v : Fin 3 → EReal) : angR v = ang (v 0) (v 1) (v 2) := by
  unfold angR ang; rw [Fin.sum_univ_three, zero_eq, zero_add]

theorem rodR_gen (v : Fin 3 → EReal) :
    rodR v = rodRgen (Ideal.sin (angR v)) (one - Ideal.cos (angR v)) (dirR v) := rfl

theorem rod_gen (v : Fin 3 → EReal) :
    rod (v 0) (v 1) (v 2)
      = rodGen (Ideal.sin (angR v)) (one - Ideal.cos (angR v)) (dirR v 0) (dirR v 1) (dirR v 2) := by
  unfold dirR; rw [angR_eq]; rfl

/-- Real sine, cosine and axis: the identity is one of real polynomials. -/
theorem gen_real (s oc d0 d1 d2 : ℝ) (d : Fin 3 → EReal) (h0 : d 0 = d0) (h1 : d 1 = d1) (h2 : d 2 = d2) :
    rodRgen s oc d = (rodGen s oc d0 d1 d2).mat := by
  funext a b
  fin_cases a <;> fin_cases b <;>
    simp [rodRgen, rodGen, Rot.mat, kmat, eye, Fin.sum_univ_three, one_eq, zero_eq, h0, h1, h2] <;>
    norm_cast <;> ring

/-- Vanishing sine and one minus cosine: both spellings are the identity matrix, whatever the axis. -/
theorem gen_zero (d : Fin 3 → EReal) : rodRgen 0 0 d = (rodGen 0 0 (d 0) (d 1) (d 2)).mat := by
  funext a b
  fin_cases a <;> fin_cases b <;> simp [rodRgen, rodGen, Rot.mat, kmat, eye, one_eq, zero_eq]

/-- Rodrigues' formula: the matrix spelling is the expanded one, on a real axis-angle vector. -/
theorem rodR_eq (v : Fin 3 → EReal) (hv : ∀ c, ∃ r : ℝ, v c = (r : EReal)) :
    rodR v = (rod (v 0) (v 1) (v 2)).mat := by
  obtain ⟨x0, h0⟩ := hv 0
  obtain ⟨x1, h1⟩ := hv 1
  obtain ⟨x2, h2⟩ := hv 2
  obtain ⟨e, he⟩ := eps_real
  have hS : 0 ≤ (x0 + e) * (x0 + e) + (x1 + e) * (x1 + e) + (x2 + e) * (x2 + e) := by
    have a0 := mul_self_nonneg (x0 + e)
    have a1 := mul_self_nonneg (x1 + e)
    have a2 := mul_self_nonneg (x2 + e)
    linarith
  have hang : angR v
      = ((Real.sqrt ((x0 + e) * (x0 + e) + (x1 + e) * (x1 + e) + (x2 + e) * (x2 + e)) : ℝ) : EReal) := by
    rw [angR_eq]; unfold ang; rw [h0, h1, h2, he]
    have : (((x0 : EReal) + e) * (x0 + e) + ((x1 : EReal) + e) * (x1 + e)) + ((x2 : EReal) + e) * (x2 + e)
        = (((x0 + e) * (x0 + e) + (x1 + e) * (x1 + e) + (x2 + e) * (x2 + e) : ℝ) : EReal) := by norm_cast
    rw [this, Ideal.sqrt_coe, if_neg (not_lt.mpr hS)]
  generalize Real.sqrt ((x0 + e) * (x0 + e) + (x1 + e) * (x1 + e) + (x2 + e) * (x2 + e)) = r at hang
  rw [rodR_gen, rod_gen]
  by_cases hr : r = 0
  · have hs : Ideal.sin (angR v) = 0 := by rw [hang, hr, Ideal.sin_coe, Real.sin_zero, EReal.coe_zero]
    have hoc : one - Ideal.cos (angR v) = 0 := by
      rw [hang, hr, Ideal.cos_coe, Real.cos_zero, one_eq]; norm_cast
    rw [hs, hoc]; exact gen_zero _
  · have hs : Ideal.sin (angR v) = ((Real.sin r : ℝ) : EReal) := by rw [hang, Ideal.sin_coe]
    have hoc : one - Ideal.cos (angR v) = ((1 - Real.cos r : ℝ) : EReal) := by
      rw [hang, Ideal.cos_coe, one_eq]; norm_cast
    have hd0 : dirR v 0 = ((x0 * (1 / r) : ℝ) : EReal) := by
      unfold dirR; rw [hang, Ideal.div_coe hr, h0]; norm_cast
    have hd1 : dirR v 1 = ((x1 * (1 / r) : ℝ) : EReal) := by
      unfold dirR; rw [hang, Ideal.div_coe hr, h1]; norm_cast
    have hd2 : dirR v 2 = ((x2 * (1 / r) : ℝ) : EReal) := by
      unfold dirR; rw [hang, Ideal.div_coe hr, h2]; norm_cast
    rw [hs, hoc, hd0, hd1, hd2]
    exact gen_real _ _ _ _ _ _ hd0 hd1 hd2

end Cert.FK

end
-- ==== Proof.FKAlgebraTree.lean ====
/-
  The homogeneous 4×4 matrices of the matrix form are the rigid transforms of the tiled form: the local matrix of
  a root joint is its transform, and a parent's matrix times a child's local matrix is the child's transform.
  Only `0 + x = x`, `x + 0 = x`, `x · 0 = 0`, `0 · x = 0`, `x · 1 = x` and `1 · x = x` are used, which hold for
  every extended real, so nothing here needs any entry to be finite.
-/
import proofs.«127147_j62156766707902_2_alg».proof.Proof.FKAlgebraDefs

noncomputable section

namespace Cert.FK

open Idealize.ShloMosaic

/-- The local matrix `[[R, o], [0 0 0 1]]` is the root transform with rotation `R` and offset `o`. -/
theorem st_root (R : Rot) (o : Fin 3 → EReal) : st R.mat o = hom (tfRoot R (o 0) (o 1) (o 2)) := by
  funext r c
  fin_cases r <;> fin_cases c <;> simp [st, hom, tfRoot, Rot.mat, bottom]

/-- A parent's matrix times a child's local matrix is the child's transform. -/
theorem mul4_step (T : Tf) (R : Rot) (o : Fin 3 → EReal) :
    mul4 (hom T) (st R.mat o) = hom (tfStep T R (o 0) (o 1) (o 2)) := by
  rw [st_root]
  funext r c
  fin_cases r <;> fin_cases c <;>
    simp [mul4, hom, tfRoot, tfStep, Fin.sum_univ_four, one_eq, zero_eq]

/-- The last column of a transform's matrix, above the last row, is its translation. -/
theorem hom_t (T : Tf) (c : Fin 3) : hom T ⟨c.val, by omega⟩ 3 = T.t c := by
  fin_cases c <;> simp [hom, Tf.t]

end Cert.FK

end
-- ==== Proof.FKAlgebra.lean ====
/-
  The two forms of the forward kinematics give the same joint positions when the pose entries are real numbers:
  joint by joint, in the order of the tree, the matrix form's global 4×4 matrix is the homogeneous matrix of the
  tiled form's transform, by Rodrigues' formula for the joint's own rotation and the product rule for a parent's
  matrix times a child's local matrix. The offsets and the body translation may be any extended reals.
-/
import proofs.«127147_j62156766707902_2_alg».proof.Proof.FKAlgebraRod
import proofs.«127147_j62156766707902_2_alg».proof.Proof.FKAlgebraTree

noncomputable section

namespace Cert.FK

open Idealize.ShloMosaic

section
variable (pose off : Fin 24 → Fin 3 → EReal) (hpose : ∀ j c, ∃ r : ℝ, pose j c = (r : EReal))
include hpose

/-- One step down the tree: if the parent's matrix is its transform's, so is the child's. -/
theorem step_eq (Mp : Fin 4 → Fin 4 → EReal) (Tp : Tf) (h : Mp = hom Tp) (j : Fin 24) :
    mul4 Mp (st (rodR (pose j)) (off j)) = hom (tfStep Tp (rodJ pose j) (off j 0) (off j 1) (off j 2)) := by
  rw [h, rodR_eq _ (hpose j)]; exact mul4_step _ _ _

theorem M0_eq : M0 pose off = hom (tf0 pose off) := by
  unfold M0 tf0 rodJ; rw [rodR_eq _ (hpose 0)]; exact st_root _ _
theorem M1_eq : M1 pose off = hom (tf1 pose off) := step_eq pose off hpose _ _ (M0_eq pose off hpose) 1
theorem M2_eq : M2 pose off = hom (tf2 pose off) := step_eq pose off hpose _ _ (M0_eq pose off hpose) 2
theorem M3_eq : M3 pose off = hom (tf3 pose off) := step_eq pose off hpose _ _ (M0_eq pose off hpose) 3
theorem M4_eq : M4 pose off = hom (tf4 pose off) := step_eq pose off hpose _ _ (M1_eq pose off hpose) 4
theorem M5_eq : M5 pose off = hom (tf5 pose off) := step_eq pose off hpose _ _ (M2_eq pose off hpose) 5
theorem M6_eq : M6 pose off = hom (tf6 pose off) := step_eq pose off hpose _ _ (M3_eq pose off hpose) 6
theorem M7_eq : M7 pose off = hom (tf7 pose off) := step_eq pose off hpose _ _ (M4_eq pose off hpose) 7
theorem M8_eq : M8 pose off = hom (tf8 pose off) := step_eq pose off hpose _ _ (M5_eq pose off hpose) 8
theorem M9_eq : M9 pose off = hom (tf9 pose off) := step_eq pose off hpose _ _ (M6_eq pose off hpose) 9
theorem M10_eq : M10 pose off = hom (tf10 pose off) := step_eq pose off hpose _ _ (M7_eq pose off hpose) 10
theorem M11_eq : M11 pose off = hom (tf11 pose off) := step_eq pose off hpose _ _ (M8_eq pose off hpose) 11
theorem M12_eq : M12 pose off = hom (tf12 pose off) := step_eq pose off hpose _ _ (M9_eq pose off hpose) 12
theorem M13_eq : M13 pose off = hom (tf13 pose off) := step_eq pose off hpose _ _ (M9_eq pose off hpose) 13
theorem M14_eq : M14 pose off = hom (tf14 pose off) := step_eq pose off hpose _ _ (M9_eq pose off hpose) 14
theorem M15_eq : M15 pose off = hom (tf15 pose off) := step_eq pose off hpose _ _ (M12_eq pose off hpose) 15
theorem M16_eq : M16 pose off = hom (tf16 pose off) := step_eq pose off hpose _ _ (M13_eq pose off hpose) 16
theorem M17_eq : M17 pose off = hom (tf17 pose off) := step_eq pose off hpose _ _ (M14_eq pose off hpose) 17
theorem M18_eq : M18 pose off = hom (tf18 pose off) := step_eq pose off hpose _ _ (M16_eq pose off hpose) 18
theorem M19_eq : M19 pose off = hom (tf19 pose off) := step_eq pose off hpose _ _ (M17_eq pose off hpose) 19
theorem M20_eq : M20 pose off = hom (tf20 pose off) := step_eq pose off hpose _ _ (M18_eq pose off hpose) 20
theorem M21_eq : M21 pose off = hom (tf21 pose off) := step_eq pose off hpose _ _ (M19_eq pose off hpose) 21
theorem M22_eq : M22 pose off = hom (tf22 pose off) := step_eq pose off hpose _ _ (M20_eq pose off hpose) 22
theorem M23_eq : M23 pose off = hom (tf23 pose off) := step_eq pose off hpose _ _ (M21_eq pose off hpose) 23

/-- Every joint's global matrix is the homogeneous matrix of its transform. -/
theorem MAll_eq (j : Fin 24) : MAll pose off j = hom (tfAll pose off j) := by
  fin_cases j
  · exact M0_eq pose off hpose
  · exact M1_eq pose off hpose
  · exact M2_eq pose off hpose
  · exact M3_eq pose off hpose
  · exact M4_eq pose off hpose
  · exact M5_eq pose off hpose
  · exact M6_eq pose off hpose
  · exact M7_eq pose off hpose
  · exact M8_eq pose off hpose
  · exact M9_eq pose off hpose
  · exact M10_eq pose off hpose
  · exact M11_eq pose off hpose
  · exact M12_eq pose off hpose
  · exact M13_eq pose off hpose
  · exact M14_eq pose off hpose
  · exact M15_eq pose off hpose
  · exact M16_eq pose off hpose
  · exact M17_eq pose off hpose
  · exact M18_eq pose off hpose
  · exact M19_eq pose off hpose
  · exact M20_eq pose off hpose
  · exact M21_eq pose off hpose
  · exact M22_eq pose off hpose
  · exact M23_eq pose off hpose

end

/-- The matrix form and the tiled form give the same position for every joint and component. -/
theorem outR_eq_outK (pose off : Fin 24 → Fin 3 → EReal) (tr : Fin 3 → EReal)
    (hpose : ∀ j c, ∃ r : ℝ, pose j c = (r : EReal)) (j : Fin 24) (c : Fin 3) :
    outR pose off tr j c = outK pose off tr j c := by
  unfold outR outK
  rw [MAll_eq pose off hpose j, hom_t]

end Cert.FK

end
-- ==== Proof.FKBridge.lean ====
/-
  The two forms of the positions agree as whole arrays when every pose entry is a real number: entry by entry this
  is the per-batch-element equality of the matrix form and the tiled form.
-/
import proofs.«127147_j62156766707902_2_alg».proof.Proof.FKRes
import proofs.«127147_j62156766707902_2_alg».proof.Proof.FKAlgebra

noncomputable section

namespace Cert.FK

open Idealize.ShloMosaic Idealize.ShloMosaic.ValueIdx

/-- The matrix form's array is the tiled form's, for real poses (offsets and body translations arbitrary). -/
theorem resR_eq_resK (A0 : SOff.Idx → EReal) (A1 : SPose.Idx → EReal) (A2 : STr.Idx → EReal)
    (h : ∀ i : SPose.Idx, ∃ r : ℝ, A1 i = (r : EReal)) : resR A0 A1 A2 = resK A0 A1 A2 := by
  funext i
  exact outR_eq_outK (poseAt A1 (i 0)) (offAt A0) (trAt A2 (i 0)) (fun j c => h (ix3 (i 0) j c)) (i 1) (i 2)

end Cert.FK

end
-- ==== Proof.KFinite.lean ====
/-
  Finiteness of the arguments. The precondition says that, of each of the three argument arrays, every entry has absolute
  value strictly below +∞ (the three `all`s conjoined). In the extended reals that is: every entry is a real number.
  `offs_real`, `pose_real`, `trans_real` give the real witness at an index of the offsets, the poses, the body translations.
-/
import proofs.«127147_j62156766707902_2_alg».proof.Defs
import proofs.«127147_j62156766707902_2_alg».proof.Proof.Gen.Pre_finite_inputs
import proofs.«127147_j62156766707902_2_alg».proof.Proof.FKRes
import Idealize.ShloMosaic.Lib.ReduceAll
import Idealize.ShloMosaic.Lib.ValueIdx

noncomputable section

namespace Cert.KernelIdeal.KFinite

open Idealize.ShloMosaic Idealize.SL.Sem Idealize.ShloMosaic.ValueIdx

/-- The rank-0 shape has one index. -/
instance : Subsingleton Cert.Pre_finite_inputs.S_.Idx := ⟨fun a b => funext fun d => d.elim0⟩

/-- The word 0x7F800000 denotes +∞. -/
theorem inf_word : Ideal.ofBits .f32 0x7F800000#32 = (⊤ : EReal) := by
  simp [Ideal.ofBits, Ideal.ieee]

/-- An extended real whose absolute value `max x (-x)` is strictly below +∞ is a real: ⊤ and ⊥ both have absolute value ⊤. -/
theorem real_of_abs_lt (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | top => simp [Ideal.cmp] at h
  | coe r => exact ⟨r, rfl⟩

/-- One conjunct `all (|x| < +∞)` of the predicate, equal to 1, gives that every entry of `x` is a real. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf CmpFPredicate.olt (Host.absf x)
            (broadcastInDim s ![] hb (constant (F := Ideal) Cert.Pre_finite_inputs.S_ FTy.f32 0x7F800000#32)))
          (constantI Cert.Pre_finite_inputs.S_ 1 1#1) hr hu ix0 = 1#1) (i : s.Idx) :
    ∃ r : ℝ, x i = (r : EReal) :=
  real_of_abs_lt (x i) (Host.reduce_andi_all _ _ hr hu ix0 e i)

/-- Under the precondition every entry of each of the three argument arrays is a real. -/
theorem args_real [Cert.KernelIdeal.Facts] [Cert.Pre_finite_inputs.Facts]
    (m : (ℓ : Loc Cert.KernelIdeal.nD Cert.KernelIdeal.τ Cert.KernelIdeal.sig) → Buf (Elt Ideal) ℓ) (h : Cert.Pre_KernelIdeal m)
    (c : Dev Cert.KernelIdeal.nD) :
    (∀ i : Cert.FK.SOff.Idx, ∃ r : ℝ, m ((c.tc : Thread Cert.KernelIdeal.nD Cert.KernelIdeal.τ).loc Cert.KernelIdeal.main_arg0) i = (r : EReal))
    ∧ (∀ i : Cert.FK.SPose.Idx, ∃ r : ℝ, m ((c.tc : Thread Cert.KernelIdeal.nD Cert.KernelIdeal.τ).loc Cert.KernelIdeal.main_arg1) i = (r : EReal))
    ∧ (∀ i : Cert.FK.STr.Idx, ∃ r : ℝ, m ((c.tc : Thread Cert.KernelIdeal.nD Cert.KernelIdeal.τ).loc Cert.KernelIdeal.main_arg2) i = (r : EReal)) := by
  have h0 := congrFun (h c) ValueIdx.ix0
  dsimp only [Cert.Pre_finite_inputs.fn] at h0
  obtain ⟨h01, h2⟩ := IntOp.andi_eq_one.1 h0
  obtain ⟨h0', h1⟩ := IntOp.andi_eq_one.1 h01
  exact ⟨all_real _ _ _ _ h0', all_real _ _ _ _ h1, all_real _ _ _ _ h2⟩

/-- Every offset is a real. -/
theorem offs_real [Cert.KernelIdeal.Facts] [Cert.Pre_finite_inputs.Facts]
    (m : (ℓ : Loc Cert.KernelIdeal.nD Cert.KernelIdeal.τ Cert.KernelIdeal.sig) → Buf (Elt Ideal) ℓ) (h : Cert.Pre_KernelIdeal m)
    (c : Dev Cert.KernelIdeal.nD) (i : Cert.FK.SOff.Idx) :
    ∃ r : ℝ, m ((c.tc : Thread Cert.KernelIdeal.nD Cert.KernelIdeal.τ).loc Cert.KernelIdeal.main_arg0) i = (r : EReal) :=
  (args_real m h c).1 i

/-- Every pose entry is a real. -/
theorem pose_real [Cert.KernelIdeal.Facts] [Cert.Pre_finite_inputs.Facts]
    (m : (ℓ : Loc Cert.KernelIdeal.nD Cert.KernelIdeal.τ Cert.KernelIdeal.sig) → Buf (Elt Ideal) ℓ) (h : Cert.Pre_KernelIdeal m)
    (c : Dev Cert.KernelIdeal.nD) (i : Cert.FK.SPose.Idx) :
    ∃ r : ℝ, m ((c.tc : Thread Cert.KernelIdeal.nD Cert.KernelIdeal.τ).loc Cert.KernelIdeal.main_arg1) i = (r : EReal) :=
  (args_real m h c).2.1 i

/-- Every body-translation entry is a real. -/
theorem trans_real [Cert.KernelIdeal.Facts] [Cert.Pre_finite_inputs.Facts]
    (m : (ℓ : Loc Cert.KernelIdeal.nD Cert.KernelIdeal.τ Cert.KernelIdeal.sig) → Buf (Elt Ideal) ℓ) (h : Cert.Pre_KernelIdeal m)
    (c : Dev Cert.KernelIdeal.nD) (i : Cert.FK.STr.Idx) :
    ∃ r : ℝ, m ((c.tc : Thread Cert.KernelIdeal.nD Cert.KernelIdeal.τ).loc Cert.KernelIdeal.main_arg2) i = (r : EReal) :=
  (args_real m h c).2.2 i

end Cert.KernelIdeal.KFinite

end
-- ==== Proof.lean ====
/-
  The certificate of the forward-kinematics kernel against its matrix-form reference.

  Frames: the two tiled programs' runs are the generated frame certificates (in their patched copies); the matrix
  program's frame is its run with the result dropped.
  The idealization rewrote nothing, so it is preserved trivially.
  Equal results at the ideal instance: the tiled program ends with the positions as ONE function of the three argument
  arrays (`Cert.FK.resK`: per batch element, the expanded Rodrigues matrices composed down the 24-joint tree, the last
  translation plus the body translation), the matrix program with `Cert.FK.resR` (I + sin·K + (1 − cos)·K K, 4×4
  homogeneous products, last column plus the body translation); the two agree for real poses — with a case split
  on a zero angle, where both rotations are the identity — and the precondition makes every pose entry real.
-/
import proofs.«127147_j62156766707902_2_alg».proof.Defs
import proofs.«127147_j62156766707902_2_alg».proof.Proof.Gen.Kernel
import proofs.«127147_j62156766707902_2_alg».proof.Proof.Gen.KernelIdeal
import proofs.«127147_j62156766707902_2_alg».proof.Proof.Gen.ReferenceIdeal
import proofs.«127147_j62156766707902_2_alg».proof.Proof.Gen.Pre_finite_inputs
import proofs.«127147_j62156766707902_2_alg».proof.Proof.KernelFrameP
import proofs.«127147_j62156766707902_2_alg».proof.Proof.KernelIdealFrameP
import proofs.«127147_j62156766707902_2_alg».proof.Proof.KRun
import proofs.«127147_j62156766707902_2_alg».proof.Proof.RRun
import proofs.«127147_j62156766707902_2_alg».proof.Proof.RReadLocal
import proofs.«127147_j62156766707902_2_alg».proof.Proof.RReadTree
import proofs.«127147_j62156766707902_2_alg».proof.Proof.FKBridge
import proofs.«127147_j62156766707902_2_alg».proof.Proof.KFinite
import Idealize.ShloMosaic.Adequacy
import Idealize.ShloMosaic.Init

noncomputable section

namespace Cert.Proof

open Idealize.ShloMosaic Idealize.SL.Sem

/-- The tiled program as printed: the generated frame. -/
theorem frame_k : Cert.frame_Kernel := fun m ρ _ => Cert.Kernel.GenP.frame m ρ

/-- The tiled program at the ideal instance: the generated frame. -/
theorem frame_ki : Cert.frame_KernelIdeal := fun m ρ _ => Cert.KernelIdeal.GenP.frame m ρ

/-- The matrix program: its run, the result dropped. -/
theorem frame_r : Cert.frame_ReferenceIdeal := fun m ρ _ =>
  (θ_run Cert.ReferenceIdeal.defs _ _).mono (fun _ h c => (h c).2) (Cert.ReferenceIdeal.RRun.run m ρ)

/-- The idealization rewrote no operation. -/
theorem preserves : Cert.preserves_Kernel_KernelIdeal := trivial

/-- Both programs end with the same positions: the tiled form of the poses, offsets and translations the tiled
    program was launched with; the matrix program's array is the matrix form of arguments that agree with them, and
    the two forms agree because the precondition makes every pose entry a real number. -/
theorem algebraic : Cert.algebraic_KernelIdeal_ReferenceIdeal := by
  intro m ρ m' ρ' hpre hagree
  refine ⟨fun c => Cert.FK.resK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.KernelIdeal.KRun.run m ρ, ?_⟩
  refine (θ_run Cert.ReferenceIdeal.defs _ _).mono (fun _ h c => ⟨(h c).1.trans ?_, (h c).2⟩)
    (Cert.ReferenceIdeal.RRun.run m' ρ')
  rw [(hagree c).1, (hagree c).2.1, (hagree c).2.2]
  exact (Cert.ReferenceIdeal.RReadTree.res_eq_of _ _ _ (Cert.ReferenceIdeal.RReadLocal.v51_apply _ _ _)).trans
    (Cert.FK.resR_eq_resK _ _ _ (Cert.KernelIdeal.KFinite.pose_real m hpre c))

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
